-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128 : Shape := ⟨1, ![128]⟩
abbrev S128x96 : Shape := ⟨2, ![128, 96]⟩
abbrev S96 : Shape := ⟨1, ![96]⟩
abbrev S96x96 : Shape := ⟨2, ![96, 96]⟩
abbrev S96x10 : Shape := ⟨2, ![96, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128 : S_.BroadcastsInDim S128 (![] : Fin 0 → Fin S128.rank)
  reducesTo_S128_S_d0 : S128.ReducesTo [0] S_
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S96x10 : S_.BroadcastsInDim S96x10 (![] : Fin 0 → Fin S96x10.rank)
  reducesTo_S96x10_S_d0_1 : S96x10.ReducesTo [0, 1] S_
  bcast_S_S10 : S_.BroadcastsInDim S10 (![] : Fin 0 → Fin S10.rank)
  reducesTo_S10_S_d0 : S10.ReducesTo [0] S_

variable [Facts]

def fn_part8 {F : FTy → Type} [FloatOps F] (main_arg30 : FVec F S96 .f32) (main_arg31 : FVec F S96x10 .f32) (main_arg32 : FVec F S10 .f32) (main_v133 : IVec S_ 1) (main_v136 : IVec S96 1) : IVec S_ 1 :=
  let main_c_53 : IVec S_ 1 := constantI S_ 1 1#1
  let main_v137 : IVec S_ 1 := (fun x v => Host.reduce IntOp.andi x v reducesTo_S96_S_d0 h_S_) main_v136 main_c_53
  let main_v138 : IVec S_ 1 := andi main_v133 main_v137
  let main_v139 : FVec F S96 .f32 := Host.absf main_arg30
  let main_cst_54 : FVec F S_ .f32 := constant S_ .f32 0x7F800000#32
  let main_v140 : FVec F S96 .f32 := broadcastInDim S96 ![] bcast_S_S96 main_cst_54
  let main_v141 : IVec S96 1 := cmpf .olt main_v139 main_v140
  let main_c_55 : IVec S_ 1 := constantI S_ 1 1#1
  let main_v142 : IVec S_ 1 := (fun x v => Host.reduce IntOp.andi x v reducesTo_S96_S_d0 h_S_) main_v141 main_c_55
  let main_v143 : IVec S_ 1 := andi main_v138 main_v142
  let main_v144 : FVec F S96x10 .f32 := Host.absf main_arg31
  let main_cst_56 : FVec F S_ .f32 := constant S_ .f32 0x7F800000#32
  let main_v145 : FVec F S96x10 .f32 := broadcastInDim S96x10 ![] bcast_S_S96x10 main_cst_56
  let main_v146 : IVec S96x10 1 := cmpf .olt main_v144 main_v145
  let main_c_57 : IVec S_ 1 := constantI S_ 1 1#1
  let main_v147 : IVec S_ 1 := (fun x v => Host.reduce IntOp.andi x v reducesTo_S96x10_S_d0_1 h_S_) main_v146 main_c_57
  let main_v148 : IVec S_ 1 := andi main_v143 main_v147
  let main_v149 : FVec F S10 .f32 := Host.absf main_arg32
  let main_cst_58 : FVec F S_ .f32 := constant S_ .f32 0x7F800000#32
  let main_v150 : FVec F S10 .f32 := broadcastInDim S10 ![] bcast_S_S10 main_cst_58
  let main_v151 : IVec S10 1 := cmpf .olt main_v149 main_v150
  let main_c_59 : IVec S_ 1 := constantI S_ 1 1#1
  let main_v152 : IVec S_ 1 := (fun x v => Host.reduce IntOp.andi x v reducesTo_S10_S_d0 h_S_) main_v151 main_c_59
  let main_v153 : IVec S_ 1 := andi main_v148 main_v152
  main_v153

def fn_part7 {F : FTy → Type} [FloatOps F] (main_arg27 : FVec F S96x96 .f32) (main_arg28 : FVec F S96 .f32) (main_arg29 : FVec F S96 .f32) (main_arg30 : FVec F S96 .f32) (main_arg31 : FVec F S96x10 .f32) (main_arg32 : FVec F S10 .f32) (main_v118 : IVec S_ 1) (main_v119 : FVec F S96 .f32) : IVec S_ 1 :=
  let main_cst_46 : FVec F S_ .f32 := constant S_ .f32 0x7F800000#32
  let main_v120 : FVec F S96 .f32 := broadcastInDim S96 ![] bcast_S_S96 main_cst_46
  let main_v121 : IVec S96 1 := cmpf .olt main_v119 main_v120
  let main_c_47 : IVec S_ 1 := constantI S_ 1 1#1
  let main_v122 : IVec S_ 1 := (fun x v => Host.reduce IntOp.andi x v reducesTo_S96_S_d0 h_S_) main_v121 main_c_47
  let main_v123 : IVec S_ 1 := andi main_v118 main_v122
  let main_v124 : FVec F S96x96 .f32 := Host.absf main_arg27
  let main_cst_48 : FVec F S_ .f32 := constant S_ .f32 0x7F800000#32
  let main_v125 : FVec F S96x96 .f32 := broadcastInDim S96x96 ![] bcast_S_S96x96 main_cst_48
  let main_v126 : IVec S96x96 1 := cmpf .olt main_v124 main_v125
  let main_c_49 : IVec S_ 1 := constantI S_ 1 1#1
  let main_v127 : IVec S_ 1 := (fun x v => Host.reduce IntOp.andi x v reducesTo_S96x96_S_d0_1 h_S_) main_v126 main_c_49
  let main_v128 : IVec S_ 1 := andi main_v123 main_v127
  let main_v129 : FVec F S96 .f32 := Host.absf main_arg28
  let main_cst_50 : FVec F S_ .f32 := constant S_ .f32 0x7F800000#32
  let main_v130 : FVec F S96 .f32 := broadcastInDim S96 ![] bcast_S_S96 main_cst_50
  let main_v131 : IVec S96 1 := cmpf .olt main_v129 main_v130
  let main_c_51 : IVec S_ 1 := constantI S_ 1 1#1
  let main_v132 : IVec S_ 1 := (fun x v => Host.reduce IntOp.andi x v reducesTo_S96_S_d0 h_S_) main_v131 main_c_51
  let main_v133 : IVec S_ 1 := andi main_v128 main_v132
  let main_v134 : FVec F S96 .f32 := Host.absf main_arg29
  let main_cst_52 : FVec F S_ .f32 := constant S_ .f32 0x7F800000#32
  let main_v135 : FVec F S96 .f32 := broadcastInDim S96 ![] bcast_S_S96 main_cst_52
  let main_v136 : IVec S96 1 := cmpf .olt main_v134 main_v135
  fn_part8 (F := F) main_arg30 main_arg31 main_arg32 main_v133 main_v136

def fn_part6 {F : FTy → Type} [FloatOps F] (main_arg23 : FVec F S96x96 .f32) (main_arg24 : FVec F S96 .f32) (main_arg25 : FVec F S96 .f32) (main_arg26 : FVec F S96 .f32) (main_arg27 : FVec F S96x96 .f32) (main_arg28 : FVec F S96 .f32) (main_arg29 : FVec F S96 .f32) (main_arg30 : FVec F S96 .f32) (main_arg31 : FVec F S96x10 .f32) (main_arg32 : FVec F S10 .f32) (main_v98 : IVec S_ 1) (main_v101 : IVec S96 1) (main_c_39 : IVec S_ 1) : IVec S_ 1 :=
  let main_v102 : IVec S_ 1 := (fun x v => Host.reduce IntOp.andi x v reducesTo_S96_S_d0 h_S_) main_v101 main_c_39
  let main_v103 : IVec S_ 1 := andi main_v98 main_v102
  let main_v104 : FVec F S96x96 .f32 := Host.absf main_arg23
  let main_cst_40 : FVec F S_ .f32 := constant S_ .f32 0x7F800000#32
  let main_v105 : FVec F S96x96 .f32 := broadcastInDim S96x96 ![] bcast_S_S96x96 main_cst_40
  let main_v106 : IVec S96x96 1 := cmpf .olt main_v104 main_v105
  let main_c_41 : IVec S_ 1 := constantI S_ 1 1#1
  let main_v107 : IVec S_ 1 := (fun x v => Host.reduce IntOp.andi x v reducesTo_S96x96_S_d0_1 h_S_) main_v106 main_c_41
  let main_v108 : IVec S_ 1 := andi main_v103 main_v107
  let main_v109 : FVec F S96 .f32 := Host.absf main_arg24
  let main_cst_42 : FVec F S_ .f32 := constant S_ .f32 0x7F800000#32
  let main_v110 : FVec F S96 .f32 := broadcastInDim S96 ![] bcast_S_S96 main_cst_42
  let main_v111 : IVec S96 1 := cmpf .olt main_v109 main_v110
  let main_c_43 : IVec S_ 1 := constantI S_ 1 1#1
  let main_v112 : IVec S_ 1 := (fun x v => Host.reduce IntOp.andi x v reducesTo_S96_S_d0 h_S_) main_v111 main_c_43
  let main_v113 : IVec S_ 1 := andi main_v108 main_v112
  let main_v114 : FVec F S96 .f32 := Host.absf main_arg25
  let main_cst_44 : FVec F S_ .f32 := constant S_ .f32 0x7F800000#32
  let main_v115 : FVec F S96 .f32 := broadcastInDim S96 ![] bcast_S_S96 main_cst_44
  let main_v116 : IVec S96 1 := cmpf .olt main_v114 main_v115
  let main_c_45 : IVec S_ 1 := constantI S_ 1 1#1
  let main_v117 : IVec S_ 1 := (fun x v => Host.reduce IntOp.andi x v reducesTo_S96_S_d0 h_S_) main_v116 main_c_45
  let main_v118 : IVec S_ 1 := andi main_v113 main_v117
  let main_v119 : FVec F S96 .f32 := Host.absf main_arg26
  fn_part7 (F := F) main_arg27 main_arg28 main_arg29 main_arg30 main_arg31 main_arg32 main_v118 main_v119

def fn_part5 {F : FTy → Type} [FloatOps F] (main_arg20 : FVec F S96 .f32) (main_arg21 : FVec F S96 .f32) (main_arg22 : FVec F S96 .f32) (main_arg23 : FVec F S96x96 .f32) (main_arg24 : FVec F S96 .f32) (main_arg25 : FVec F S96 .f32) (main_arg26 : FVec F S96 .f32) (main_arg27 : FVec F S96x96 .f32) (main_arg28 : FVec F S96 .f32) (main_arg29 : FVec F S96 .f32) (main_arg30 : FVec F S96 .f32) (main_arg31 : FVec F S96x10 .f32) (main_arg32 : FVec F S10 .f32) (main_v83 : IVec S_ 1) (main_v84 : FVec F S96x96 .f32) (main_cst_32 : FVec F S_ .f32) : IVec S_ 1 :=
  let main_v85 : FVec F S96x96 .f32 := broadcastInDim S96x96 ![] bcast_S_S96x96 main_cst_32
  let main_v86 : IVec S96x96 1 := cmpf .olt main_v84 main_v85
  let main_c_33 : IVec S_ 1 := constantI S_ 1 1#1
  let main_v87 : IVec S_ 1 := (fun x v => Host.reduce IntOp.andi x v reducesTo_S96x96_S_d0_1 h_S_) main_v86 main_c_33
  let main_v88 : IVec S_ 1 := andi main_v83 main_v87
  let main_v89 : FVec F S96 .f32 := Host.absf main_arg20
  let main_cst_34 : FVec F S_ .f32 := constant S_ .f32 0x7F800000#32
  let main_v90 : FVec F S96 .f32 := broadcastInDim S96 ![] bcast_S_S96 main_cst_34
  let main_v91 : IVec S96 1 := cmpf .olt main_v89 main_v90
  let main_c_35 : IVec S_ 1 := constantI S_ 1 1#1
  let main_v92 : IVec S_ 1 := (fun x v => Host.reduce IntOp.andi x v reducesTo_S96_S_d0 h_S_) main_v91 main_c_35
  let main_v93 : IVec S_ 1 := andi main_v88 main_v92
  let main_v94 : FVec F S96 .f32 := Host.absf main_arg21
  let main_cst_36 : FVec F S_ .f32 := constant S_ .f32 0x7F800000#32
  let main_v95 : FVec F S96 .f32 := broadcastInDim S96 ![] bcast_S_S96 main_cst_36
  let main_v96 : IVec S96 1 := cmpf .olt main_v94 main_v95
  let main_c_37 : IVec S_ 1 := constantI S_ 1 1#1
  let main_v97 : IVec S_ 1 := (fun x v => Host.reduce IntOp.andi x v reducesTo_S96_S_d0 h_S_) main_v96 main_c_37
  let main_v98 : IVec S_ 1 := andi main_v93 main_v97
  let main_v99 : FVec F S96 .f32 := Host.absf main_arg22
  let main_cst_38 : FVec F S_ .f32 := constant S_ .f32 0x7F800000#32
  let main_v100 : FVec F S96 .f32 := broadcastInDim S96 ![] bcast_S_S96 main_cst_38
  let main_v101 : IVec S96 1 := cmpf .olt main_v99 main_v100
  let main_c_39 : IVec S_ 1 := constantI S_ 1 1#1
  fn_part6 (F := F) main_arg23 main_arg24 main_arg25 main_arg26 main_arg27 main_arg28 main_arg29 main_arg30 main_arg31 main_arg32 main_v98 main_v101 main_c_39

def fn_part4 {F : FTy → Type} [FloatOps F] (main_arg16 : FVec F S96 .f32) (main_arg17 : FVec F S96x96 .f32) (main_arg18 : FVec F S96 .f32) (main_arg19 : FVec F S96x96 .f32) (main_arg20 : FVec F S96 .f32) (main_arg21 : FVec F S96 .f32) (main_arg22 : FVec F S96 .f32) (main_arg23 : FVec F S96x96 .f32) (main_arg24 : FVec F S96 .f32) (main_arg25 : FVec F S96 .f32) (main_arg26 : FVec F S96 .f32) (main_arg27 : FVec F S96x96 .f32) (main_arg28 : FVec F S96 .f32) (main_arg29 : FVec F S96 .f32) (main_arg30 : FVec F S96 .f32) (main_arg31 : FVec F S96x10 .f32) (main_arg32 : FVec F S10 .f32) (main_v63 : IVec S_ 1) (main_v67 : IVec S_ 1) : IVec S_ 1 :=
  let main_v68 : IVec S_ 1 := andi main_v63 main_v67
  let main_v69 : FVec F S96 .f32 := Host.absf main_arg16
  let main_cst_26 : FVec F S_ .f32 := constant S_ .f32 0x7F800000#32
  let main_v70 : FVec F S96 .f32 := broadcastInDim S96 ![] bcast_S_S96 main_cst_26
  let main_v71 : IVec S96 1 := cmpf .olt main_v69 main_v70
  let main_c_27 : IVec S_ 1 := constantI S_ 1 1#1
  let main_v72 : IVec S_ 1 := (fun x v => Host.reduce IntOp.andi x v reducesTo_S96_S_d0 h_S_) main_v71 main_c_27
  let main_v73 : IVec S_ 1 := andi main_v68 main_v72
  let main_v74 : FVec F S96x96 .f32 := Host.absf main_arg17
  let main_cst_28 : FVec F S_ .f32 := constant S_ .f32 0x7F800000#32
  let main_v75 : FVec F S96x96 .f32 := broadcastInDim S96x96 ![] bcast_S_S96x96 main_cst_28
  let main_v76 : IVec S96x96 1 := cmpf .olt main_v74 main_v75
  let main_c_29 : IVec S_ 1 := constantI S_ 1 1#1
  let main_v77 : IVec S_ 1 := (fun x v => Host.reduce IntOp.andi x v reducesTo_S96x96_S_d0_1 h_S_) main_v76 main_c_29
  let main_v78 : IVec S_ 1 := andi main_v73 main_v77
  let main_v79 : FVec F S96 .f32 := Host.absf main_arg18
  let main_cst_30 : FVec F S_ .f32 := constant S_ .f32 0x7F800000#32
  let main_v80 : FVec F S96 .f32 := broadcastInDim S96 ![] bcast_S_S96 main_cst_30
  let main_v81 : IVec S96 1 := cmpf .olt main_v79 main_v80
  let main_c_31 : IVec S_ 1 := constantI S_ 1 1#1
  let main_v82 : IVec S_ 1 := (fun x v => Host.reduce IntOp.andi x v reducesTo_S96_S_d0 h_S_) main_v81 main_c_31
  let main_v83 : IVec S_ 1 := andi main_v78 main_v82
  let main_v84 : FVec F S96x96 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_arg31 main_arg32 main_v83 main_v84 main_cst_32

def fn_part3 {F : FTy → Type} [FloatOps F] (main_arg13 : FVec F S96x96 .f32) (main_arg14 : FVec F S96 .f32) (main_arg15 : FVec F S96 .f32) (main_arg16 : FVec F S96 .f32) (main_arg17 : FVec F S96x96 .f32) (main_arg18 : FVec F S96 .f32) (main_arg19 : FVec F S96x96 .f32) (main_arg20 : FVec F S96 .f32) (main_arg21 : FVec F S96 .f32) (main_arg22 : FVec F S96 .f32) (main_arg23 : FVec F S96x96 .f32) (main_arg24 : FVec F S96 .f32) (main_arg25 : FVec F S96 .f32) (main_arg26 : FVec F S96 .f32) (main_arg27 : FVec F S96x96 .f32) (main_arg28 : FVec F S96 .f32) (main_arg29 : FVec F S96 .f32) (main_arg30 : FVec F S96 .f32) (main_arg31 : FVec F S96x10 .f32) (main_arg32 : FVec F S10 .f32) (main_v48 : IVec S_ 1) (main_v49 : FVec F S96 .f32) (main_v50 : FVec F S96 .f32) : IVec S_ 1 :=
  let main_v51 : IVec S96 1 := cmpf .olt main_v49 main_v50
  let main_c_19 : IVec S_ 1 := constantI S_ 1 1#1
  let main_v52 : IVec S_ 1 := (fun x v => Host.reduce IntOp.andi x v reducesTo_S96_S_d0 h_S_) main_v51 main_c_19
  let main_v53 : IVec S_ 1 := andi main_v48 main_v52
  let main_v54 : FVec F S96x96 .f32 := Host.absf main_arg13
  let main_cst_20 : FVec F S_ .f32 := constant S_ .f32 0x7F800000#32
  let main_v55 : FVec F S96x96 .f32 := broadcastInDim S96x96 ![] bcast_S_S96x96 main_cst_20
  let main_v56 : IVec S96x96 1 := cmpf .olt main_v54 main_v55
  let main_c_21 : IVec S_ 1 := constantI S_ 1 1#1
  let main_v57 : IVec S_ 1 := (fun x v => Host.reduce IntOp.andi x v reducesTo_S96x96_S_d0_1 h_S_) main_v56 main_c_21
  let main_v58 : IVec S_ 1 := andi main_v53 main_v57
  let main_v59 : FVec F S96 .f32 := Host.absf main_arg14
  let main_cst_22 : FVec F S_ .f32 := constant S_ .f32 0x7F800000#32
  let main_v60 : FVec F S96 .f32 := broadcastInDim S96 ![] bcast_S_S96 main_cst_22
  let main_v61 : IVec S96 1 := cmpf .olt main_v59 main_v60
  let main_c_23 : IVec S_ 1 := constantI S_ 1 1#1
  let main_v62 : IVec S_ 1 := (fun x v => Host.reduce IntOp.andi x v reducesTo_S96_S_d0 h_S_) main_v61 main_c_23
  let main_v63 : IVec S_ 1 := andi main_v58 main_v62
  let main_v64 : FVec F S96 .f32 := Host.absf main_arg15
  let main_cst_24 : FVec F S_ .f32 := constant S_ .f32 0x7F800000#32
  let main_v65 : FVec F S96 .f32 := broadcastInDim S96 ![] bcast_S_S96 main_cst_24
  let main_v66 : IVec S96 1 := cmpf .olt main_v64 main_v65
  let main_c_25 : IVec S_ 1 := constantI S_ 1 1#1
  let main_v67 : IVec S_ 1 := (fun x v => Host.reduce IntOp.andi x v reducesTo_S96_S_d0 h_S_) main_v66 main_c_25
  fn_part4 (F := F) main_arg16 main_arg17 main_arg18 main_arg19 main_arg20 main_arg21 main_arg22 main_arg23 main_arg24 main_arg25 main_arg26 main_arg27 main_arg28 main_arg29 main_arg30 main_arg31 main_arg32 main_v63 main_v67

def fn_part2 {F : FTy → Type} [FloatOps F] (main_arg9 : FVec F S96 .f32) (main_arg10 : FVec F S96 .f32) (main_arg11 : FVec F S96x96 .f32) (main_arg12 : FVec F S96 .f32) (main_arg13 : FVec F S96x96 .f32) (main_arg14 : FVec F S96 .f32) (main_arg15 : FVec F S96 .f32) (main_arg16 : FVec F S96 .f32) (main_arg17 : FVec F S96x96 .f32) (main_arg18 : FVec F S96 .f32) (main_arg19 : FVec F S96x96 .f32) (main_arg20 : FVec F S96 .f32) (main_arg21 : FVec F S96 .f32) (main_arg22 : FVec F S96 .f32) (main_arg23 : FVec F S96x96 .f32) (main_arg24 : FVec F S96 .f32) (main_arg25 : FVec F S96 .f32) (main_arg26 : FVec F S96 .f32) (main_arg27 : FVec F S96x96 .f32) (main_arg28 : FVec F S96 .f32) (main_arg29 : FVec F S96 .f32) (main_arg30 : FVec F S96 .f32) (main_arg31 : FVec F S96x10 .f32) (main_arg32 : FVec F S10 .f32) (main_v33 : IVec S_ 1) : IVec S_ 1 :=
  let main_v34 : FVec F S96 .f32 := Host.absf main_arg9
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S96 .f32 := Host.absf main_arg10
  let main_cst_14 : FVec F S_ .f32 := constant S_ .f32 0x7F800000#32
  let main_v40 : FVec F S96 .f32 := broadcastInDim S96 ![] bcast_S_S96 main_cst_14
  let main_v41 : IVec S96 1 := cmpf .olt main_v39 main_v40
  let main_c_15 : IVec S_ 1 := constantI S_ 1 1#1
  let main_v42 : IVec S_ 1 := (fun x v => Host.reduce IntOp.andi x v reducesTo_S96_S_d0 h_S_) main_v41 main_c_15
  let main_v43 : IVec S_ 1 := andi main_v38 main_v42
  let main_v44 : FVec F S96x96 .f32 := Host.absf main_arg11
  let main_cst_16 : FVec F S_ .f32 := constant S_ .f32 0x7F800000#32
  let main_v45 : FVec F S96x96 .f32 := broadcastInDim S96x96 ![] bcast_S_S96x96 main_cst_16
  let main_v46 : IVec S96x96 1 := cmpf .olt main_v44 main_v45
  let main_c_17 : IVec S_ 1 := constantI S_ 1 1#1
  let main_v47 : IVec S_ 1 := (fun x v => Host.reduce IntOp.andi x v reducesTo_S96x96_S_d0_1 h_S_) main_v46 main_c_17
  let main_v48 : IVec S_ 1 := andi main_v43 main_v47
  let main_v49 : FVec F S96 .f32 := Host.absf main_arg12
  let main_cst_18 : FVec F S_ .f32 := constant S_ .f32 0x7F800000#32
  let main_v50 : FVec F S96 .f32 := broadcastInDim S96 ![] bcast_S_S96 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_arg31 main_arg32 main_v48 main_v49 main_v50

def fn_part1 {F : FTy → Type} [FloatOps F] (main_arg6 : FVec F S96 .f32) (main_arg7 : FVec F S96x96 .f32) (main_arg8 : FVec F S96 .f32) (main_arg9 : FVec F S96 .f32) (main_arg10 : FVec F S96 .f32) (main_arg11 : FVec F S96x96 .f32) (main_arg12 : FVec F S96 .f32) (main_arg13 : FVec F S96x96 .f32) (main_arg14 : FVec F S96 .f32) (main_arg15 : FVec F S96 .f32) (main_arg16 : FVec F S96 .f32) (main_arg17 : FVec F S96x96 .f32) (main_arg18 : FVec F S96 .f32) (main_arg19 : FVec F S96x96 .f32) (main_arg20 : FVec F S96 .f32) (main_arg21 : FVec F S96 .f32) (main_arg22 : FVec F S96 .f32) (main_arg23 : FVec F S96x96 .f32) (main_arg24 : FVec F S96 .f32) (main_arg25 : FVec F S96 .f32) (main_arg26 : FVec F S96 .f32) (main_arg27 : FVec F S96x96 .f32) (main_arg28 : FVec F S96 .f32) (main_arg29 : FVec F S96 .f32) (main_arg30 : FVec F S96 .f32) (main_arg31 : FVec F S96x10 .f32) (main_arg32 : FVec F S10 .f32) (main_v13 : IVec S_ 1) (main_v16 : IVec S128x96 1) : IVec S_ 1 :=
  let main_c_5 : IVec S_ 1 := constantI S_ 1 1#1
  let main_v17 : IVec S_ 1 := (fun x v => Host.reduce IntOp.andi x v reducesTo_S128x96_S_d0_1 h_S_) main_v16 main_c_5
  let main_v18 : IVec S_ 1 := andi main_v13 main_v17
  let main_v19 : FVec F S96 .f32 := Host.absf main_arg6
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x96 .f32 := Host.absf main_arg7
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg8
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v33

def fn {F : FTy → Type} [FloatOps F] (main_arg0 : FVec F S50000x128 .f32) (main_arg1 : IVec S2x800000 32) (main_arg2 : IVec S50000 32) (main_arg3 : FVec F S128 .f32) (main_arg4 : FVec F S128 .f32) (main_arg5 : FVec F S128x96 .f32) (main_arg6 : FVec F S96 .f32) (main_arg7 : FVec F S96x96 .f32) (main_arg8 : FVec F S96 .f32) (main_arg9 : FVec F S96 .f32) (main_arg10 : FVec F S96 .f32) (main_arg11 : FVec F S96x96 .f32) (main_arg12 : FVec F S96 .f32) (main_arg13 : FVec F S96x96 .f32) (main_arg14 : FVec F S96 .f32) (main_arg15 : FVec F S96 .f32) (main_arg16 : FVec F S96 .f32) (main_arg17 : FVec F S96x96 .f32) (main_arg18 : FVec F S96 .f32) (main_arg19 : FVec F S96x96 .f32) (main_arg20 : FVec F S96 .f32) (main_arg21 : FVec F S96 .f32) (main_arg22 : FVec F S96 .f32) (main_arg23 : FVec F S96x96 .f32) (main_arg24 : FVec F S96 .f32) (main_arg25 : FVec F S96 .f32) (main_arg26 : FVec F S96 .f32) (main_arg27 : FVec F S96x96 .f32) (main_arg28 : FVec F S96 .f32) (main_arg29 : FVec F S96 .f32) (main_arg30 : FVec F S96 .f32) (main_arg31 : FVec F S96x10 .f32) (main_arg32 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x96 .f32 := Host.absf main_arg5
  let main_cst_4 : FVec F S_ .f32 := constant S_ .f32 0x7F800000#32
  let main_v15 : FVec F S128x96 .f32 := broadcastInDim S128x96 ![] bcast_S_S128x96 main_cst_4
  let main_v16 : IVec S128x96 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128 : Shape := ⟨1, ![128]⟩
abbrev S128x96 : Shape := ⟨2, ![128, 96]⟩
abbrev S96 : Shape := ⟨1, ![96]⟩
abbrev S96x96 : Shape := ⟨2, ![96, 96]⟩
abbrev S96x10 : Shape := ⟨2, ![96, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S1x128 : Shape := ⟨2, ![1, 128]⟩
abbrev S1x96 : Shape := ⟨2, ![1, 96]⟩
abbrev S50000x96 : Shape := ⟨2, ![50000, 96]⟩
abbrev S2000x128 : Shape := ⟨2, ![2000, 128]⟩
abbrev S2000x96 : Shape := ⟨2, ![2000, 96]⟩
abbrev S800000x1 : Shape := ⟨2, ![800000, 1]⟩
abbrev S800000x96 : Shape := ⟨2, ![800000, 96]⟩
abbrev S512x96 : Shape := ⟨2, ![512, 96]⟩
abbrev S50000x1 : Shape := ⟨2, ![50000, 1]⟩
abbrev S1x10 : Shape := ⟨2, ![1, 10]⟩
abbrev S512x10 : Shape := ⟨2, ![512, 10]⟩
abbrev S512 : Shape := ⟨1, ![512]⟩
abbrev S512x1 : Shape := ⟨2, ![512, 1]⟩

abbrev nBuf : Space → Nat
  | .hbm => 335
  | .vmem => 68
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128, .f32⟩
  | 4 => ⟨S128, .f32⟩
  | 5 => ⟨S128x96, .f32⟩
  | 6 => ⟨S96, .f32⟩
  | 7 => ⟨S96x96, .f32⟩
  | 8 => ⟨S96, .f32⟩
  | 9 => ⟨S96, .f32⟩
  | 10 => ⟨S96, .f32⟩
  | 11 => ⟨S96x96, .f32⟩
  | 12 => ⟨S96, .f32⟩
  | 13 => ⟨S96x96, .f32⟩
  | 14 => ⟨S96, .f32⟩
  | 15 => ⟨S96, .f32⟩
  | 16 => ⟨S96, .f32⟩
  | 17 => ⟨S96x96, .f32⟩
  | 18 => ⟨S96, .f32⟩
  | 19 => ⟨S96x96, .f32⟩
  | 20 => ⟨S96, .f32⟩
  | 21 => ⟨S96, .f32⟩
  | 22 => ⟨S96, .f32⟩
  | 23 => ⟨S96x96, .f32⟩
  | 24 => ⟨S96, .f32⟩
  | 25 => ⟨S96, .f32⟩
  | 26 => ⟨S96, .f32⟩
  | 27 => ⟨S96x96, .f32⟩
  | 28 => ⟨S96, .f32⟩
  | 29 => ⟨S96, .f32⟩
  | 30 => ⟨S96, .f32⟩
  | 31 => ⟨S96x10, .f32⟩
  | 32 => ⟨S10, .f32⟩
  | 33 => ⟨S1x800000, .i32⟩
  | 34 => ⟨S800000, .i32⟩
  | 35 => ⟨S1x800000, .i32⟩
  | 36 => ⟨S800000, .i32⟩
  | 37 => ⟨S_, .f32⟩
  | 38 => ⟨S128, .f32⟩
  | 39 => ⟨S_, .f32⟩
  | 40 => ⟨S128, .f32⟩
  | 41 => ⟨S128, .f32⟩
  | 42 => ⟨S_, .i32⟩
  | 43 => ⟨S_, .f32⟩
  | 44 => ⟨S128, .f32⟩
  | 45 => ⟨S1x128, .f32⟩
  | 46 => ⟨S_, .f32⟩
  | 47 => ⟨S1x128, .f32⟩
  | 48 => ⟨S1x128, .f32⟩
  | 49 => ⟨S50000x128, .f32⟩
  | 50 => ⟨S50000x128, .f32⟩
  | 51 => ⟨S50000x128, .f32⟩
  | 52 => ⟨S_, .f32⟩
  | 53 => ⟨S_, .f32⟩
  | 54 => ⟨S_, .f32⟩
  | 55 => ⟨S_, .f32⟩
  | 56 => ⟨S128, .f32⟩
  | 57 => ⟨S128, .f32⟩
  | 58 => ⟨S128, .f32⟩
  | 59 => ⟨S_, .f32⟩
  | 60 => ⟨S_, .i1⟩
  | 61 => ⟨S_, .f32⟩
  | 62 => ⟨S_, .f32⟩
  | 63 => ⟨S128, .f32⟩
  | 64 => ⟨S128, .f32⟩
  | 65 => ⟨S_, .f32⟩
  | 66 => ⟨S128, .f32⟩
  | 67 => ⟨S128, .f32⟩
  | 68 => ⟨S128, .f32⟩
  | 69 => ⟨S128, .f32⟩
  | 70 => ⟨S128, .f32⟩
  | 71 => ⟨S128, .f32⟩
  | 72 => ⟨S1x128, .f32⟩
  | 73 => ⟨S1x128, .f32⟩
  | 74 => ⟨S1x96, .f32⟩
  | 75 => ⟨S50000x96, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x96, .f32⟩
  | 85 => ⟨S_, .f32⟩
  | 86 => ⟨S50000x96, .f32⟩
  | 87 => ⟨S800000x1, .i32⟩
  | 88 => ⟨S50000x96, .f32⟩
  | 89 => ⟨S1x96, .f32⟩
  | 90 => ⟨S50000x96, .f32⟩
  | 91 => ⟨S_, .f32⟩
  | 92 => ⟨S96, .f32⟩
  | 93 => ⟨S_, .f32⟩
  | 94 => ⟨S96, .f32⟩
  | 95 => ⟨S96, .f32⟩
  | 96 => ⟨S_, .i32⟩
  | 97 => ⟨S_, .f32⟩
  | 98 => ⟨S96, .f32⟩
  | 99 => ⟨S1x96, .f32⟩
  | 100 => ⟨S_, .f32⟩
  | 101 => ⟨S1x96, .f32⟩
  | 102 => ⟨S1x96, .f32⟩
  | 103 => ⟨S50000x96, .f32⟩
  | 104 => ⟨S50000x96, .f32⟩
  | 105 => ⟨S50000x96, .f32⟩
  | 106 => ⟨S_, .f32⟩
  | 107 => ⟨S_, .f32⟩
  | 108 => ⟨S_, .f32⟩
  | 109 => ⟨S_, .f32⟩
  | 110 => ⟨S96, .f32⟩
  | 111 => ⟨S96, .f32⟩
  | 112 => ⟨S96, .f32⟩
  | 113 => ⟨S_, .f32⟩
  | 114 => ⟨S_, .i1⟩
  | 115 => ⟨S_, .f32⟩
  | 116 => ⟨S_, .f32⟩
  | 117 => ⟨S96, .f32⟩
  | 118 => ⟨S96, .f32⟩
  | 119 => ⟨S_, .f32⟩
  | 120 => ⟨S96, .f32⟩
  | 121 => ⟨S96, .f32⟩
  | 122 => ⟨S96, .f32⟩
  | 123 => ⟨S96, .f32⟩
  | 124 => ⟨S96, .f32⟩
  | 125 => ⟨S96, .f32⟩
  | 126 => ⟨S1x96, .f32⟩
  | 127 => ⟨S1x96, .f32⟩
  | _ => ⟨S50000x128, .f32⟩

abbrev hbmTy0_1 (i : Nat) : BufTy := match i % 128 with
  | 0 => ⟨S1x96, .f32⟩
  | 1 => ⟨S50000x96, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x96, .f32⟩
  | 11 => ⟨S_, .f32⟩
  | 12 => ⟨S50000x96, .f32⟩
  | 13 => ⟨S800000x1, .i32⟩
  | 14 => ⟨S50000x96, .f32⟩
  | 15 => ⟨S1x96, .f32⟩
  | 16 => ⟨S50000x96, .f32⟩
  | 17 => ⟨S_, .f32⟩
  | 18 => ⟨S96, .f32⟩
  | 19 => ⟨S_, .f32⟩
  | 20 => ⟨S96, .f32⟩
  | 21 => ⟨S96, .f32⟩
  | 22 => ⟨S_, .i32⟩
  | 23 => ⟨S_, .f32⟩
  | 24 => ⟨S96, .f32⟩
  | 25 => ⟨S1x96, .f32⟩
  | 26 => ⟨S_, .f32⟩
  | 27 => ⟨S1x96, .f32⟩
  | 28 => ⟨S1x96, .f32⟩
  | 29 => ⟨S50000x96, .f32⟩
  | 30 => ⟨S50000x96, .f32⟩
  | 31 => ⟨S50000x96, .f32⟩
  | 32 => ⟨S_, .f32⟩
  | 33 => ⟨S_, .f32⟩
  | 34 => ⟨S_, .f32⟩
  | 35 => ⟨S_, .f32⟩
  | 36 => ⟨S96, .f32⟩
  | 37 => ⟨S96, .f32⟩
  | 38 => ⟨S96, .f32⟩
  | 39 => ⟨S_, .f32⟩
  | 40 => ⟨S_, .i1⟩
  | 41 => ⟨S_, .f32⟩
  | 42 => ⟨S_, .f32⟩
  | 43 => ⟨S96, .f32⟩
  | 44 => ⟨S96, .f32⟩
  | 45 => ⟨S_, .f32⟩
  | 46 => ⟨S96, .f32⟩
  | 47 => ⟨S96, .f32⟩
  | 48 => ⟨S96, .f32⟩
  | 49 => ⟨S96, .f32⟩
  | 50 => ⟨S96, .f32⟩
  | 51 => ⟨S96, .f32⟩
  | 52 => ⟨S1x96, .f32⟩
  | 53 => ⟨S1x96, .f32⟩
  | 54 => ⟨S1x96, .f32⟩
  | 55 => ⟨S50000x96, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x96, .f32⟩
  | 65 => ⟨S_, .f32⟩
  | 66 => ⟨S50000x96, .f32⟩
  | 67 => ⟨S800000x1, .i32⟩
  | 68 => ⟨S50000x96, .f32⟩
  | 69 => ⟨S1x96, .f32⟩
  | 70 => ⟨S50000x96, .f32⟩
  | 71 => ⟨S_, .f32⟩
  | 72 => ⟨S96, .f32⟩
  | 73 => ⟨S_, .f32⟩
  | 74 => ⟨S96, .f32⟩
  | 75 => ⟨S96, .f32⟩
  | 76 => ⟨S_, .i32⟩
  | 77 => ⟨S_, .f32⟩
  | 78 => ⟨S96, .f32⟩
  | 79 => ⟨S1x96, .f32⟩
  | 80 => ⟨S_, .f32⟩
  | 81 => ⟨S1x96, .f32⟩
  | 82 => ⟨S1x96, .f32⟩
  | 83 => ⟨S50000x96, .f32⟩
  | 84 => ⟨S50000x96, .f32⟩
  | 85 => ⟨S50000x96, .f32⟩
  | 86 => ⟨S_, .f32⟩
  | 87 => ⟨S_, .f32⟩
  | 88 => ⟨S_, .f32⟩
  | 89 => ⟨S_, .f32⟩
  | 90 => ⟨S96, .f32⟩
  | 91 => ⟨S96, .f32⟩
  | 92 => ⟨S96, .f32⟩
  | 93 => ⟨S_, .f32⟩
  | 94 => ⟨S_, .i1⟩
  | 95 => ⟨S_, .f32⟩
  | 96 => ⟨S_, .f32⟩
  | 97 => ⟨S96, .f32⟩
  | 98 => ⟨S96, .f32⟩
  | 99 => ⟨S_, .f32⟩
  | 100 => ⟨S96, .f32⟩
  | 101 => ⟨S96, .f32⟩
  | 102 => ⟨S96, .f32⟩
  | 103 => ⟨S96, .f32⟩
  | 104 => ⟨S96, .f32⟩
  | 105 => ⟨S96, .f32⟩
  | 106 => ⟨S1x96, .f32⟩
  | 107 => ⟨S1x96, .f32⟩
  | 108 => ⟨S1x96, .f32⟩
  | 109 => ⟨S50000x96, .f32⟩
  | 110 => ⟨S_, .f32⟩
  | 111 => ⟨S512x96, .f32⟩
  | 112 => ⟨S50000x1, .i32⟩
  | 113 => ⟨S512x96, .f32⟩
  | 114 => ⟨S_, .f32⟩
  | 115 => ⟨S96, .f32⟩
  | 116 => ⟨S_, .f32⟩
  | 117 => ⟨S96, .f32⟩
  | 118 => ⟨S96, .f32⟩
  | 119 => ⟨S_, .i32⟩
  | 120 => ⟨S_, .f32⟩
  | 121 => ⟨S96, .f32⟩
  | 122 => ⟨S1x96, .f32⟩
  | 123 => ⟨S_, .f32⟩
  | 124 => ⟨S1x96, .f32⟩
  | 125 => ⟨S1x96, .f32⟩
  | 126 => ⟨S512x96, .f32⟩
  | 127 => ⟨S512x96, .f32⟩
  | _ => ⟨S50000x128, .f32⟩

abbrev hbmTy0_2 (i : Nat) : BufTy := match i % 128 with
  | 0 => ⟨S512x96, .f32⟩
  | 1 => ⟨S_, .f32⟩
  | 2 => ⟨S_, .f32⟩
  | 3 => ⟨S_, .f32⟩
  | 4 => ⟨S_, .f32⟩
  | 5 => ⟨S96, .f32⟩
  | 6 => ⟨S96, .f32⟩
  | 7 => ⟨S96, .f32⟩
  | 8 => ⟨S_, .f32⟩
  | 9 => ⟨S_, .i1⟩
  | 10 => ⟨S_, .f32⟩
  | 11 => ⟨S_, .f32⟩
  | 12 => ⟨S96, .f32⟩
  | 13 => ⟨S96, .f32⟩
  | 14 => ⟨S_, .f32⟩
  | 15 => ⟨S96, .f32⟩
  | 16 => ⟨S96, .f32⟩
  | 17 => ⟨S96, .f32⟩
  | 18 => ⟨S96, .f32⟩
  | 19 => ⟨S96, .f32⟩
  | 20 => ⟨S96, .f32⟩
  | 21 => ⟨S1x96, .f32⟩
  | 22 => ⟨S1x96, .f32⟩
  | 23 => ⟨S1x96, .f32⟩
  | 24 => ⟨S512x96, .f32⟩
  | 25 => ⟨S_, .f32⟩
  | 26 => ⟨S96, .f32⟩
  | 27 => ⟨S_, .f32⟩
  | 28 => ⟨S96, .f32⟩
  | 29 => ⟨S96, .f32⟩
  | 30 => ⟨S_, .i32⟩
  | 31 => ⟨S_, .f32⟩
  | 32 => ⟨S96, .f32⟩
  | 33 => ⟨S1x96, .f32⟩
  | 34 => ⟨S_, .f32⟩
  | 35 => ⟨S1x96, .f32⟩
  | 36 => ⟨S1x96, .f32⟩
  | 37 => ⟨S512x96, .f32⟩
  | 38 => ⟨S512x96, .f32⟩
  | 39 => ⟨S512x96, .f32⟩
  | 40 => ⟨S_, .f32⟩
  | 41 => ⟨S_, .f32⟩
  | 42 => ⟨S_, .f32⟩
  | 43 => ⟨S_, .f32⟩
  | 44 => ⟨S96, .f32⟩
  | 45 => ⟨S96, .f32⟩
  | 46 => ⟨S96, .f32⟩
  | 47 => ⟨S_, .f32⟩
  | 48 => ⟨S_, .i1⟩
  | 49 => ⟨S_, .f32⟩
  | 50 => ⟨S_, .f32⟩
  | 51 => ⟨S96, .f32⟩
  | 52 => ⟨S96, .f32⟩
  | 53 => ⟨S_, .f32⟩
  | 54 => ⟨S96, .f32⟩
  | 55 => ⟨S96, .f32⟩
  | 56 => ⟨S96, .f32⟩
  | 57 => ⟨S96, .f32⟩
  | 58 => ⟨S96, .f32⟩
  | 59 => ⟨S96, .f32⟩
  | 60 => ⟨S1x96, .f32⟩
  | 61 => ⟨S1x96, .f32⟩
  | 62 => ⟨S1x10, .f32⟩
  | 63 => ⟨S512x10, .f32⟩
  | 64 => ⟨S_, .f32⟩
  | 65 => ⟨S512, .f32⟩
  | 66 => ⟨S_, .f32⟩
  | 67 => ⟨S512, .f32⟩
  | 68 => ⟨S512, .f32⟩
  | 69 => ⟨S512x1, .f32⟩
  | 70 => ⟨S512x10, .f32⟩
  | 71 => ⟨S512x10, .f32⟩
  | 72 => ⟨S512x10, .f32⟩
  | 73 => ⟨S_, .f32⟩
  | 74 => ⟨S512, .f32⟩
  | 75 => ⟨S512x1, .f32⟩
  | 76 => ⟨S512x1, .f32⟩
  | 77 => ⟨S512x10, .f32⟩
  | 78 => ⟨S512x10, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S1x128, .f32⟩
  | .local _ .vmem, ⟨3, _⟩ => ⟨S1x128, .f32⟩
  | .local _ .vmem, ⟨4, _⟩ => ⟨S128x96, .f32⟩
  | .local _ .vmem, ⟨5, _⟩ => ⟨S1x96, .f32⟩
  | .local _ .vmem, ⟨6, _⟩ => ⟨S2000x96, .f32⟩
  | .local _ .vmem, ⟨7, _⟩ => ⟨S2000x96, .f32⟩
  | .local _ .vmem, ⟨8, _⟩ => ⟨S2000x96, .f32⟩
  | .local _ .vmem, ⟨9, _⟩ => ⟨S2000x96, .f32⟩
  | .local _ .vmem, ⟨10, _⟩ => ⟨S2000x96, .f32⟩
  | .local _ .vmem, ⟨11, _⟩ => ⟨S2000x96, .f32⟩
  | .local _ .vmem, ⟨12, _⟩ => ⟨S96x96, .f32⟩
  | .local _ .vmem, ⟨13, _⟩ => ⟨S1x96, .f32⟩
  | .local _ .vmem, ⟨14, _⟩ => ⟨S2000x96, .f32⟩
  | .local _ .vmem, ⟨15, _⟩ => ⟨S2000x96, .f32⟩
  | .local _ .vmem, ⟨16, _⟩ => ⟨S2000x96, .f32⟩
  | .local _ .vmem, ⟨17, _⟩ => ⟨S2000x96, .f32⟩
  | .local _ .vmem, ⟨18, _⟩ => ⟨S1x96, .f32⟩
  | .local _ .vmem, ⟨19, _⟩ => ⟨S1x96, .f32⟩
  | .local _ .vmem, ⟨20, _⟩ => ⟨S96x96, .f32⟩
  | .local _ .vmem, ⟨21, _⟩ => ⟨S1x96, .f32⟩
  | .local _ .vmem, ⟨22, _⟩ => ⟨S2000x96, .f32⟩
  | .local _ .vmem, ⟨23, _⟩ => ⟨S2000x96, .f32⟩
  | .local _ .vmem, ⟨24, _⟩ => ⟨S2000x96, .f32⟩
  | .local _ .vmem, ⟨25, _⟩ => ⟨S2000x96, .f32⟩
  | .local _ .vmem, ⟨26, _⟩ => ⟨S2000x96, .f32⟩
  | .local _ .vmem, ⟨27, _⟩ => ⟨S2000x96, .f32⟩
  | .local _ .vmem, ⟨28, _⟩ => ⟨S96x96, .f32⟩
  | .local _ .vmem, ⟨29, _⟩ => ⟨S1x96, .f32⟩
  | .local _ .vmem, ⟨30, _⟩ => ⟨S2000x96, .f32⟩
  | .local _ .vmem, ⟨31, _⟩ => ⟨S2000x96, .f32⟩
  | .local _ .vmem, ⟨32, _⟩ => ⟨S2000x96, .f32⟩
  | .local _ .vmem, ⟨33, _⟩ => ⟨S2000x96, .f32⟩
  | .local _ .vmem, ⟨34, _⟩ => ⟨S1x96, .f32⟩
  | .local _ .vmem, ⟨35, _⟩ => ⟨S1x96, .f32⟩
  | .local _ .vmem, ⟨36, _⟩ => ⟨S96x96, .f32⟩
  | .local _ .vmem, ⟨37, _⟩ => ⟨S1x96, .f32⟩
  | .local _ .vmem, ⟨38, _⟩ => ⟨S2000x96, .f32⟩
  | .local _ .vmem, ⟨39, _⟩ => ⟨S2000x96, .f32⟩
  | .local _ .vmem, ⟨40, _⟩ => ⟨S2000x96, .f32⟩
  | .local _ .vmem, ⟨41, _⟩ => ⟨S2000x96, .f32⟩
  | .local _ .vmem, ⟨42, _⟩ => ⟨S2000x96, .f32⟩
  | .local _ .vmem, ⟨43, _⟩ => ⟨S2000x96, .f32⟩
  | .local _ .vmem, ⟨44, _⟩ => ⟨S96x96, .f32⟩
  | .local _ .vmem, ⟨45, _⟩ => ⟨S1x96, .f32⟩
  | .local _ .vmem, ⟨46, _⟩ => ⟨S2000x96, .f32⟩
  | .local _ .vmem, ⟨47, _⟩ => ⟨S2000x96, .f32⟩
  | .local _ .vmem, ⟨48, _⟩ => ⟨S2000x96, .f32⟩
  | .local _ .vmem, ⟨49, _⟩ => ⟨S2000x96, .f32⟩
  | .local _ .vmem, ⟨50, _⟩ => ⟨S1x96, .f32⟩
  | .local _ .vmem, ⟨51, _⟩ => ⟨S1x96, .f32⟩
  | .local _ .vmem, ⟨52, _⟩ => ⟨S96x96, .f32⟩
  | .local _ .vmem, ⟨53, _⟩ => ⟨S1x96, .f32⟩
  | .local _ .vmem, ⟨54, _⟩ => ⟨S2000x96, .f32⟩
  | .local _ .vmem, ⟨55, _⟩ => ⟨S2000x96, .f32⟩
  | .local _ .vmem, ⟨56, _⟩ => ⟨S512x96, .f32⟩
  | .local _ .vmem, ⟨57, _⟩ => ⟨S1x96, .f32⟩
  | .local _ .vmem, ⟨58, _⟩ => ⟨S1x96, .f32⟩
  | .local _ .vmem, ⟨59, _⟩ => ⟨S96x96, .f32⟩
  | .local _ .vmem, ⟨60, _⟩ => ⟨S1x96, .f32⟩
  | .local _ .vmem, ⟨61, _⟩ => ⟨S512x96, .f32⟩
  | .local _ .vmem, ⟨62, _⟩ => ⟨S512x96, .f32⟩
  | .local _ .vmem, ⟨63, _⟩ => ⟨S1x96, .f32⟩
  | .local _ .vmem, ⟨64, _⟩ => ⟨S1x96, .f32⟩
  | .local _ .vmem, ⟨65, _⟩ => ⟨S96x10, .f32⟩
  | .local _ .vmem, ⟨66, _⟩ => ⟨S1x10, .f32⟩
  | .local _ .vmem, ⟨67, _⟩ => ⟨S512x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_cst : Ref sig .tc := ⟨.hbm, 37, rfl⟩
abbrev main_v4 : Ref sig .tc := ⟨.hbm, 38, rfl⟩
abbrev main_cst_0 : Ref sig .tc := ⟨.hbm, 39, rfl⟩
abbrev main_v5 : Ref sig .tc := ⟨.hbm, 40, rfl⟩
abbrev main_v6 : Ref sig .tc := ⟨.hbm, 41, rfl⟩
abbrev main_c : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_cst_1 : Ref sig .tc := ⟨.hbm, 53, rfl⟩
abbrev main_call0_v8 : Ref sig .tc := ⟨.hbm, 54, rfl⟩
abbrev main_call0_cst_2 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_cst_3 : Ref sig .tc := ⟨.hbm, 59, rfl⟩
abbrev main_call0_v12 : Ref sig .tc := ⟨.hbm, 60, rfl⟩
abbrev main_call0_cst_4 : Ref sig .tc := ⟨.hbm, 61, rfl⟩
abbrev main_call0_call0_v0 : Ref sig .tc := ⟨.hbm, 62, rfl⟩
abbrev main_call0_call0_v1 : Ref sig .tc := ⟨.hbm, 63, rfl⟩
abbrev main_v7 : Ref sig .tc := ⟨.hbm, 64, rfl⟩
abbrev main_cst_1 : Ref sig .tc := ⟨.hbm, 65, rfl⟩
abbrev main_v8 : Ref sig .tc := ⟨.hbm, 66, rfl⟩
abbrev main_v9 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_c_2 : Ref sig .tc := ⟨.hbm, 76, rfl⟩
abbrev main_v18 : Ref sig .tc := ⟨.hbm, 77, rfl⟩
abbrev main_v19 : Ref sig .tc := ⟨.hbm, 78, rfl⟩
abbrev main_c_3 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_cst_4 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_cst_5 : Ref sig .tc := ⟨.hbm, 91, rfl⟩
abbrev main_v30 : Ref sig .tc := ⟨.hbm, 92, rfl⟩
abbrev main_cst_6 : Ref sig .tc := ⟨.hbm, 93, rfl⟩
abbrev main_v31 : Ref sig .tc := ⟨.hbm, 94, rfl⟩
abbrev main_v32 : Ref sig .tc := ⟨.hbm, 95, rfl⟩
abbrev main_c_7 : Ref sig .tc := ⟨.hbm, 96, rfl⟩
abbrev main_call1_cst : Ref sig .tc := ⟨.hbm, 97, rfl⟩
abbrev main_call1_v0 : Ref sig .tc := ⟨.hbm, 98, rfl⟩
abbrev main_call1_v1 : Ref sig .tc := ⟨.hbm, 99, rfl⟩
abbrev main_call1_cst_0 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_v5 : Ref sig .tc := ⟨.hbm, 104, rfl⟩
abbrev main_call1_v6 : Ref sig .tc := ⟨.hbm, 105, rfl⟩
abbrev main_call1_v7 : Ref sig .tc := ⟨.hbm, 106, rfl⟩
abbrev main_call1_cst_1 : Ref sig .tc := ⟨.hbm, 107, rfl⟩
abbrev main_call1_v8 : Ref sig .tc := ⟨.hbm, 108, rfl⟩
abbrev main_call1_cst_2 : Ref sig .tc := ⟨.hbm, 109, rfl⟩
abbrev main_call1_v9 : Ref sig .tc := ⟨.hbm, 110, rfl⟩
abbrev main_call1_v10 : Ref sig .tc := ⟨.hbm, 111, rfl⟩
abbrev main_call1_v11 : Ref sig .tc := ⟨.hbm, 112, rfl⟩
abbrev main_call1_cst_3 : Ref sig .tc := ⟨.hbm, 113, rfl⟩
abbrev main_call1_v12 : Ref sig .tc := ⟨.hbm, 114, rfl⟩
abbrev main_call1_cst_4 : Ref sig .tc := ⟨.hbm, 115, rfl⟩
abbrev main_call1_call0_v0 : Ref sig .tc := ⟨.hbm, 116, rfl⟩
abbrev main_call1_call0_v1 : Ref sig .tc := ⟨.hbm, 117, rfl⟩
abbrev main_v33 : Ref sig .tc := ⟨.hbm, 118, rfl⟩
abbrev main_cst_8 : Ref sig .tc := ⟨.hbm, 119, rfl⟩
abbrev main_v34 : Ref sig .tc := ⟨.hbm, 120, rfl⟩
abbrev main_v35 : Ref sig .tc := ⟨.hbm, 121, rfl⟩
abbrev main_v36 : Ref sig .tc := ⟨.hbm, 122, rfl⟩
abbrev main_v37 : Ref sig .tc := ⟨.hbm, 123, rfl⟩
abbrev main_v38 : Ref sig .tc := ⟨.hbm, 124, rfl⟩
abbrev main_v39 : Ref sig .tc := ⟨.hbm, 125, rfl⟩
abbrev main_v40 : Ref sig .tc := ⟨.hbm, 126, rfl⟩
abbrev main_v41 : Ref sig .tc := ⟨.hbm, 127, rfl⟩
abbrev main_v42 : Ref sig .tc := ⟨.hbm, 128, rfl⟩
abbrev main_v43 : Ref sig .tc := ⟨.hbm, 129, rfl⟩
abbrev main_c_9 : Ref sig .tc := ⟨.hbm, 130, rfl⟩
abbrev main_v44 : Ref sig .tc := ⟨.hbm, 131, rfl⟩
abbrev main_v45 : Ref sig .tc := ⟨.hbm, 132, rfl⟩
abbrev main_c_10 : Ref sig .tc := ⟨.hbm, 133, rfl⟩
abbrev main_v46 : Ref sig .tc := ⟨.hbm, 134, rfl⟩
abbrev main_v47 : Ref sig .tc := ⟨.hbm, 135, rfl⟩
abbrev main_v48 : Ref sig .tc := ⟨.hbm, 136, rfl⟩
abbrev main_v49 : Ref sig .tc := ⟨.hbm, 137, rfl⟩
abbrev main_v50 : Ref sig .tc := ⟨.hbm, 138, rfl⟩
abbrev main_cst_11 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_cst_12 : Ref sig .tc := ⟨.hbm, 145, rfl⟩
abbrev main_v56 : Ref sig .tc := ⟨.hbm, 146, rfl⟩
abbrev main_cst_13 : Ref sig .tc := ⟨.hbm, 147, rfl⟩
abbrev main_v57 : Ref sig .tc := ⟨.hbm, 148, rfl⟩
abbrev main_v58 : Ref sig .tc := ⟨.hbm, 149, rfl⟩
abbrev main_c_14 : Ref sig .tc := ⟨.hbm, 150, rfl⟩
abbrev main_call2_cst : Ref sig .tc := ⟨.hbm, 151, rfl⟩
abbrev main_call2_v0 : Ref sig .tc := ⟨.hbm, 152, rfl⟩
abbrev main_call2_v1 : Ref sig .tc := ⟨.hbm, 153, rfl⟩
abbrev main_call2_cst_0 : Ref sig .tc := ⟨.hbm, 154, rfl⟩
abbrev main_call2_v2 : Ref sig .tc := ⟨.hbm, 155, rfl⟩
abbrev main_call2_v3 : Ref sig .tc := ⟨.hbm, 156, rfl⟩
abbrev main_call2_v4 : Ref sig .tc := ⟨.hbm, 157, rfl⟩
abbrev main_call2_v5 : Ref sig .tc := ⟨.hbm, 158, rfl⟩
abbrev main_call2_v6 : Ref sig .tc := ⟨.hbm, 159, rfl⟩
abbrev main_call2_v7 : Ref sig .tc := ⟨.hbm, 160, rfl⟩
abbrev main_call2_cst_1 : Ref sig .tc := ⟨.hbm, 161, rfl⟩
abbrev main_call2_v8 : Ref sig .tc := ⟨.hbm, 162, rfl⟩
abbrev main_call2_cst_2 : Ref sig .tc := ⟨.hbm, 163, rfl⟩
abbrev main_call2_v9 : Ref sig .tc := ⟨.hbm, 164, rfl⟩
abbrev main_call2_v10 : Ref sig .tc := ⟨.hbm, 165, rfl⟩
abbrev main_call2_v11 : Ref sig .tc := ⟨.hbm, 166, rfl⟩
abbrev main_call2_cst_3 : Ref sig .tc := ⟨.hbm, 167, rfl⟩
abbrev main_call2_v12 : Ref sig .tc := ⟨.hbm, 168, rfl⟩
abbrev main_call2_cst_4 : Ref sig .tc := ⟨.hbm, 169, rfl⟩
abbrev main_call2_call0_v0 : Ref sig .tc := ⟨.hbm, 170, rfl⟩
abbrev main_call2_call0_v1 : Ref sig .tc := ⟨.hbm, 171, rfl⟩
abbrev main_v59 : Ref sig .tc := ⟨.hbm, 172, rfl⟩
abbrev main_cst_15 : Ref sig .tc := ⟨.hbm, 173, rfl⟩
abbrev main_v60 : Ref sig .tc := ⟨.hbm, 174, rfl⟩
abbrev main_v61 : Ref sig .tc := ⟨.hbm, 175, rfl⟩
abbrev main_v62 : Ref sig .tc := ⟨.hbm, 176, rfl⟩
abbrev main_v63 : Ref sig .tc := ⟨.hbm, 177, rfl⟩
abbrev main_v64 : Ref sig .tc := ⟨.hbm, 178, rfl⟩
abbrev main_v65 : Ref sig .tc := ⟨.hbm, 179, rfl⟩
abbrev main_v66 : Ref sig .tc := ⟨.hbm, 180, rfl⟩
abbrev main_v67 : Ref sig .tc := ⟨.hbm, 181, rfl⟩
abbrev main_v68 : Ref sig .tc := ⟨.hbm, 182, rfl⟩
abbrev main_v69 : Ref sig .tc := ⟨.hbm, 183, rfl⟩
abbrev main_c_16 : Ref sig .tc := ⟨.hbm, 184, rfl⟩
abbrev main_v70 : Ref sig .tc := ⟨.hbm, 185, rfl⟩
abbrev main_v71 : Ref sig .tc := ⟨.hbm, 186, rfl⟩
abbrev main_c_17 : Ref sig .tc := ⟨.hbm, 187, rfl⟩
abbrev main_v72 : Ref sig .tc := ⟨.hbm, 188, rfl⟩
abbrev main_v73 : Ref sig .tc := ⟨.hbm, 189, rfl⟩
abbrev main_v74 : Ref sig .tc := ⟨.hbm, 190, rfl⟩
abbrev main_v75 : Ref sig .tc := ⟨.hbm, 191, rfl⟩
abbrev main_v76 : Ref sig .tc := ⟨.hbm, 192, rfl⟩
abbrev main_cst_18 : Ref sig .tc := ⟨.hbm, 193, rfl⟩
abbrev main_v77 : Ref sig .tc := ⟨.hbm, 194, rfl⟩
abbrev main_v78 : Ref sig .tc := ⟨.hbm, 195, rfl⟩
abbrev main_v79 : Ref sig .tc := ⟨.hbm, 196, rfl⟩
abbrev main_v80 : Ref sig .tc := ⟨.hbm, 197, rfl⟩
abbrev main_v81 : Ref sig .tc := ⟨.hbm, 198, rfl⟩
abbrev main_cst_19 : Ref sig .tc := ⟨.hbm, 199, rfl⟩
abbrev main_v82 : Ref sig .tc := ⟨.hbm, 200, rfl⟩
abbrev main_cst_20 : Ref sig .tc := ⟨.hbm, 201, rfl⟩
abbrev main_v83 : Ref sig .tc := ⟨.hbm, 202, rfl⟩
abbrev main_v84 : Ref sig .tc := ⟨.hbm, 203, rfl⟩
abbrev main_c_21 : Ref sig .tc := ⟨.hbm, 204, rfl⟩
abbrev main_call3_cst : Ref sig .tc := ⟨.hbm, 205, rfl⟩
abbrev main_call3_v0 : Ref sig .tc := ⟨.hbm, 206, rfl⟩
abbrev main_call3_v1 : Ref sig .tc := ⟨.hbm, 207, rfl⟩
abbrev main_call3_cst_0 : Ref sig .tc := ⟨.hbm, 208, rfl⟩
abbrev main_call3_v2 : Ref sig .tc := ⟨.hbm, 209, rfl⟩
abbrev main_call3_v3 : Ref sig .tc := ⟨.hbm, 210, rfl⟩
abbrev main_call3_v4 : Ref sig .tc := ⟨.hbm, 211, rfl⟩
abbrev main_call3_v5 : Ref sig .tc := ⟨.hbm, 212, rfl⟩
abbrev main_call3_v6 : Ref sig .tc := ⟨.hbm, 213, rfl⟩
abbrev main_call3_v7 : Ref sig .tc := ⟨.hbm, 214, rfl⟩
abbrev main_call3_cst_1 : Ref sig .tc := ⟨.hbm, 215, rfl⟩
abbrev main_call3_v8 : Ref sig .tc := ⟨.hbm, 216, rfl⟩
abbrev main_call3_cst_2 : Ref sig .tc := ⟨.hbm, 217, rfl⟩
abbrev main_call3_v9 : Ref sig .tc := ⟨.hbm, 218, rfl⟩
abbrev main_call3_v10 : Ref sig .tc := ⟨.hbm, 219, rfl⟩
abbrev main_call3_v11 : Ref sig .tc := ⟨.hbm, 220, rfl⟩
abbrev main_call3_cst_3 : Ref sig .tc := ⟨.hbm, 221, rfl⟩
abbrev main_call3_v12 : Ref sig .tc := ⟨.hbm, 222, rfl⟩
abbrev main_call3_cst_4 : Ref sig .tc := ⟨.hbm, 223, rfl⟩
abbrev main_call3_call0_v0 : Ref sig .tc := ⟨.hbm, 224, rfl⟩
abbrev main_call3_call0_v1 : Ref sig .tc := ⟨.hbm, 225, rfl⟩
abbrev main_v85 : Ref sig .tc := ⟨.hbm, 226, rfl⟩
abbrev main_cst_22 : Ref sig .tc := ⟨.hbm, 227, rfl⟩
abbrev main_v86 : Ref sig .tc := ⟨.hbm, 228, rfl⟩
abbrev main_v87 : Ref sig .tc := ⟨.hbm, 229, rfl⟩
abbrev main_v88 : Ref sig .tc := ⟨.hbm, 230, rfl⟩
abbrev main_v89 : Ref sig .tc := ⟨.hbm, 231, rfl⟩
abbrev main_v90 : Ref sig .tc := ⟨.hbm, 232, rfl⟩
abbrev main_v91 : Ref sig .tc := ⟨.hbm, 233, rfl⟩
abbrev main_v92 : Ref sig .tc := ⟨.hbm, 234, rfl⟩
abbrev main_v93 : Ref sig .tc := ⟨.hbm, 235, rfl⟩
abbrev main_v94 : Ref sig .tc := ⟨.hbm, 236, rfl⟩
abbrev main_v95 : Ref sig .tc := ⟨.hbm, 237, rfl⟩
abbrev main_cst_23 : Ref sig .tc := ⟨.hbm, 238, rfl⟩
abbrev main_v96 : Ref sig .tc := ⟨.hbm, 239, rfl⟩
abbrev main_v97 : Ref sig .tc := ⟨.hbm, 240, rfl⟩
abbrev main_v98 : Ref sig .tc := ⟨.hbm, 241, rfl⟩
abbrev main_cst_24 : Ref sig .tc := ⟨.hbm, 242, rfl⟩
abbrev main_v99 : Ref sig .tc := ⟨.hbm, 243, rfl⟩
abbrev main_cst_25 : Ref sig .tc := ⟨.hbm, 244, rfl⟩
abbrev main_v100 : Ref sig .tc := ⟨.hbm, 245, rfl⟩
abbrev main_v101 : Ref sig .tc := ⟨.hbm, 246, rfl⟩
abbrev main_c_26 : Ref sig .tc := ⟨.hbm, 247, rfl⟩
abbrev main_call4_cst : Ref sig .tc := ⟨.hbm, 248, rfl⟩
abbrev main_call4_v0 : Ref sig .tc := ⟨.hbm, 249, rfl⟩
abbrev main_call4_v1 : Ref sig .tc := ⟨.hbm, 250, rfl⟩
abbrev main_call4_cst_0 : Ref sig .tc := ⟨.hbm, 251, rfl⟩
abbrev main_call4_v2 : Ref sig .tc := ⟨.hbm, 252, rfl⟩
abbrev main_call4_v3 : Ref sig .tc := ⟨.hbm, 253, rfl⟩
abbrev main_call4_v4 : Ref sig .tc := ⟨.hbm, 254, rfl⟩
abbrev main_call4_v5 : Ref sig .tc := ⟨.hbm, 255, rfl⟩
abbrev main_call4_v6 : Ref sig .tc := ⟨.hbm, 256, rfl⟩
abbrev main_call4_v7 : Ref sig .tc := ⟨.hbm, 257, rfl⟩
abbrev main_call4_cst_1 : Ref sig .tc := ⟨.hbm, 258, rfl⟩
abbrev main_call4_v8 : Ref sig .tc := ⟨.hbm, 259, rfl⟩
abbrev main_call4_cst_2 : Ref sig .tc := ⟨.hbm, 260, rfl⟩
abbrev main_call4_v9 : Ref sig .tc := ⟨.hbm, 261, rfl⟩
abbrev main_call4_v10 : Ref sig .tc := ⟨.hbm, 262, rfl⟩
abbrev main_call4_v11 : Ref sig .tc := ⟨.hbm, 263, rfl⟩
abbrev main_call4_cst_3 : Ref sig .tc := ⟨.hbm, 264, rfl⟩
abbrev main_call4_v12 : Ref sig .tc := ⟨.hbm, 265, rfl⟩
abbrev main_call4_cst_4 : Ref sig .tc := ⟨.hbm, 266, rfl⟩
abbrev main_call4_call0_v0 : Ref sig .tc := ⟨.hbm, 267, rfl⟩
abbrev main_call4_call0_v1 : Ref sig .tc := ⟨.hbm, 268, rfl⟩
abbrev main_v102 : Ref sig .tc := ⟨.hbm, 269, rfl⟩
abbrev main_cst_27 : Ref sig .tc := ⟨.hbm, 270, rfl⟩
abbrev main_v103 : Ref sig .tc := ⟨.hbm, 271, rfl⟩
abbrev main_v104 : Ref sig .tc := ⟨.hbm, 272, rfl⟩
abbrev main_v105 : Ref sig .tc := ⟨.hbm, 273, rfl⟩
abbrev main_v106 : Ref sig .tc := ⟨.hbm, 274, rfl⟩
abbrev main_v107 : Ref sig .tc := ⟨.hbm, 275, rfl⟩
abbrev main_v108 : Ref sig .tc := ⟨.hbm, 276, rfl⟩
abbrev main_v109 : Ref sig .tc := ⟨.hbm, 277, rfl⟩
abbrev main_v110 : Ref sig .tc := ⟨.hbm, 278, rfl⟩
abbrev main_v111 : Ref sig .tc := ⟨.hbm, 279, rfl⟩
abbrev main_v112 : Ref sig .tc := ⟨.hbm, 280, rfl⟩
abbrev main_cst_28 : Ref sig .tc := ⟨.hbm, 281, rfl⟩
abbrev main_v113 : Ref sig .tc := ⟨.hbm, 282, rfl⟩
abbrev main_cst_29 : Ref sig .tc := ⟨.hbm, 283, rfl⟩
abbrev main_v114 : Ref sig .tc := ⟨.hbm, 284, rfl⟩
abbrev main_v115 : Ref sig .tc := ⟨.hbm, 285, rfl⟩
abbrev main_c_30 : Ref sig .tc := ⟨.hbm, 286, rfl⟩
abbrev main_call5_cst : Ref sig .tc := ⟨.hbm, 287, rfl⟩
abbrev main_call5_v0 : Ref sig .tc := ⟨.hbm, 288, rfl⟩
abbrev main_call5_v1 : Ref sig .tc := ⟨.hbm, 289, rfl⟩
abbrev main_call5_cst_0 : Ref sig .tc := ⟨.hbm, 290, rfl⟩
abbrev main_call5_v2 : Ref sig .tc := ⟨.hbm, 291, rfl⟩
abbrev main_call5_v3 : Ref sig .tc := ⟨.hbm, 292, rfl⟩
abbrev main_call5_v4 : Ref sig .tc := ⟨.hbm, 293, rfl⟩
abbrev main_call5_v5 : Ref sig .tc := ⟨.hbm, 294, rfl⟩
abbrev main_call5_v6 : Ref sig .tc := ⟨.hbm, 295, rfl⟩
abbrev main_call5_v7 : Ref sig .tc := ⟨.hbm, 296, rfl⟩
abbrev main_call5_cst_1 : Ref sig .tc := ⟨.hbm, 297, rfl⟩
abbrev main_call5_v8 : Ref sig .tc := ⟨.hbm, 298, rfl⟩
abbrev main_call5_cst_2 : Ref sig .tc := ⟨.hbm, 299, rfl⟩
abbrev main_call5_v9 : Ref sig .tc := ⟨.hbm, 300, rfl⟩
abbrev main_call5_v10 : Ref sig .tc := ⟨.hbm, 301, rfl⟩
abbrev main_call5_v11 : Ref sig .tc := ⟨.hbm, 302, rfl⟩
abbrev main_call5_cst_3 : Ref sig .tc := ⟨.hbm, 303, rfl⟩
abbrev main_call5_v12 : Ref sig .tc := ⟨.hbm, 304, rfl⟩
abbrev main_call5_cst_4 : Ref sig .tc := ⟨.hbm, 305, rfl⟩
abbrev main_call5_call0_v0 : Ref sig .tc := ⟨.hbm, 306, rfl⟩
abbrev main_call5_call0_v1 : Ref sig .tc := ⟨.hbm, 307, rfl⟩
abbrev main_v116 : Ref sig .tc := ⟨.hbm, 308, rfl⟩
abbrev main_cst_31 : Ref sig .tc := ⟨.hbm, 309, rfl⟩
abbrev main_v117 : Ref sig .tc := ⟨.hbm, 310, rfl⟩
abbrev main_v118 : Ref sig .tc := ⟨.hbm, 311, rfl⟩
abbrev main_v119 : Ref sig .tc := ⟨.hbm, 312, rfl⟩
abbrev main_v120 : Ref sig .tc := ⟨.hbm, 313, rfl⟩
abbrev main_v121 : Ref sig .tc := ⟨.hbm, 314, rfl⟩
abbrev main_v122 : Ref sig .tc := ⟨.hbm, 315, rfl⟩
abbrev main_v123 : Ref sig .tc := ⟨.hbm, 316, rfl⟩
abbrev main_v124 : Ref sig .tc := ⟨.hbm, 317, rfl⟩
abbrev main_v125 : Ref sig .tc := ⟨.hbm, 318, rfl⟩
abbrev main_v126 : Ref sig .tc := ⟨.hbm, 319, rfl⟩
abbrev main_call6_cst : Ref sig .tc := ⟨.hbm, 320, rfl⟩
abbrev main_call6_v0 : Ref sig .tc := ⟨.hbm, 321, rfl⟩
abbrev main_call6_cst_0 : Ref sig .tc := ⟨.hbm, 322, rfl⟩
abbrev main_call6_v1 : Ref sig .tc := ⟨.hbm, 323, rfl⟩
abbrev main_call6_v2 : Ref sig .tc := ⟨.hbm, 324, rfl⟩
abbrev main_call6_v3 : Ref sig .tc := ⟨.hbm, 325, rfl⟩
abbrev main_call6_v4 : Ref sig .tc := ⟨.hbm, 326, rfl⟩
abbrev main_call6_v5 : Ref sig .tc := ⟨.hbm, 327, rfl⟩
abbrev main_call6_v6 : Ref sig .tc := ⟨.hbm, 328, rfl⟩
abbrev main_call6_cst_1 : Ref sig .tc := ⟨.hbm, 329, rfl⟩
abbrev main_call6_v7 : Ref sig .tc := ⟨.hbm, 330, rfl⟩
abbrev main_call6_v8 : Ref sig .tc := ⟨.hbm, 331, rfl⟩
abbrev main_call6_v9 : Ref sig .tc := ⟨.hbm, 332, rfl⟩
abbrev main_call6_v10 : Ref sig .tc := ⟨.hbm, 333, rfl⟩
abbrev main_v127 : Ref sig .tc := ⟨.hbm, 334, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg5_1 : Ref sig .tc := ⟨.vmem, 55, rfl⟩
abbrev cc7_stg0_0 : Ref sig .tc := ⟨.vmem, 56, rfl⟩
abbrev cc7_stg1_0 : Ref sig .tc := ⟨.vmem, 57, rfl⟩
abbrev cc7_stg2_0 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg5_0 : Ref sig .tc := ⟨.vmem, 61, rfl⟩
abbrev cc8_stg0_0 : Ref sig .tc := ⟨.vmem, 62, rfl⟩
abbrev cc8_stg1_0 : Ref sig .tc := ⟨.vmem, 63, rfl⟩
abbrev cc8_stg2_0 : Ref sig .tc := ⟨.vmem, 64, rfl⟩
abbrev cc8_stg3_0 : Ref sig .tc := ⟨.vmem, 65, rfl⟩
abbrev cc8_stg4_0 : Ref sig .tc := ⟨.vmem, 66, rfl⟩
abbrev cc8_stg5_0 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem4_0 : DmaSem sig := 53
abbrev cc6_sem5_0 : DmaSem sig := 54
abbrev cc6_sem5_1 : DmaSem sig := 55
abbrev cc7_sem0_0 : DmaSem sig := 56
abbrev cc7_sem1_0 : DmaSem sig := 57
abbrev cc7_sem2_0 : DmaSem sig := 58
abbrev cc7_sem3_0 : DmaSem sig := 59
abbrev cc7_sem4_0 : DmaSem sig := 60
abbrev cc7_sem5_0 : DmaSem sig := 61
abbrev cc8_sem0_0 : DmaSem sig := 62
abbrev cc8_sem1_0 : DmaSem sig := 63
abbrev cc8_sem2_0 : DmaSem sig := 64
abbrev cc8_sem3_0 : DmaSem sig := 65
abbrev cc8_sem4_0 : DmaSem sig := 66
abbrev cc8_sem5_0 : DmaSem sig := 67

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x96 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S96x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x96 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S96x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x96 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x96 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x96 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S96x96 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x96 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x96 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x96 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x96 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S96x96 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x96 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x96 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x96 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x96 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x96 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S96x96 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x96 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x96 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S512x96 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S1x96 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x96 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S96x96 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x96 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S512x96 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S512x96 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S1x96 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x96 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S96x10 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x10 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S512x10 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  shapeCasts_S128_S1x128 : S128.ShapeCasts S1x128
  shapeCasts_S96_S1x96 : S96.ShapeCasts S1x96
  inb_S2000x128_S2000x128_0_0 : ∀ a, (![0, 0] : Fin 2 → Nat) a + S2000x128.size a ≤ S2000x128.size a
  h_S2000x128 : 0 < S2000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  inb_S2000x96_S2000x96_0_0 : ∀ a, (![0, 0] : Fin 2 → Nat) a + S2000x96.size a ≤ S2000x96.size a
  h_S2000x96 : 0 < S2000x96.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  shapeCasts_S2000x96_S2000x96 : S2000x96.ShapeCasts S2000x96
  inb_S96x96_S96x96_0_0 : ∀ a, (![0, 0] : Fin 2 → Nat) a + S96x96.size a ≤ S96x96.size a
  h_S96x96 : 0 < S96x96.numel
  reducesTo_S50000x96_S96_d0 : S50000x96.ReducesTo [0] S96
  bcast_S_S96 : S_.BroadcastsInDim S96 (![] : Fin 0 → Fin S96.rank)
  bcast_S96_S1x96_1 : S96.BroadcastsInDim S1x96 (![1] : Fin 1 → Fin S1x96.rank)
  bcast_S_S1x96 : S_.BroadcastsInDim S1x96 (![] : Fin 0 → Fin S1x96.rank)
  bcast_S1x96_S50000x96_0_1 : S1x96.BroadcastsInDim S50000x96 (![0, 1] : Fin 2 → Fin S50000x96.rank)
  bcast_S_S512x96 : S_.BroadcastsInDim S512x96 (![] : Fin 0 → Fin S512x96.rank)
  bcast_S50000_S50000x1_0 : S50000.BroadcastsInDim S50000x1 (![0] : Fin 1 → Fin S50000x1.rank)
  reducesTo_S512x96_S96_d0 : S512x96.ReducesTo [0] S96
  bcast_S1x96_S512x96_0_1 : S1x96.BroadcastsInDim S512x96 (![0, 1] : Fin 2 → Fin S512x96.rank)
  inb_S512x96_S512x96_0_0 : ∀ a, (![0, 0] : Fin 2 → Nat) a + S512x96.size a ≤ S512x96.size a
  h_S512x96 : 0 < S512x96.numel
  shapeCasts_S512x96_S512x96 : S512x96.ShapeCasts S512x96
  broadcasts_S1x96_S512x96 : S1x96.Broadcasts S512x96
  shapeCasts_S10_S1x10 : S10.ShapeCasts S1x10
  inb_S96x10_S96x10_0_0 : ∀ a, (![0, 0] : Fin 2 → Nat) a + S96x10.size a ≤ S96x10.size a
  h_S96x10 : 0 < S96x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  reducesTo_S512x10_S512_d1 : S512x10.ReducesTo [1] S512
  bcast_S_S512 : S_.BroadcastsInDim S512 (![] : Fin 0 → Fin S512.rank)
  bcast_S512_S512x1_0 : S512.BroadcastsInDim S512x1 (![0] : Fin 1 → Fin S512x1.rank)
  bcast_S512x1_S512x10_0_1 : S512x1.BroadcastsInDim S512x10 (![0, 1] : Fin 2 → Fin S512x10.rank)
  dot_S2000x128_S128x96_S2000x96_1_0_0_1_n_n_wf : DotDims.WF S2000x128 S128x96 S2000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S2000x96_S96x96_S2000x96_1_0_0_1_n_n_wf : DotDims.WF S2000x96 S96x96 S2000x96 [1] [0] [0] [1] [] []
  scatter_S512x96_S50000x1_S50000x96_1_0_0_1_wf : ScatterDims.WF S512x96 S50000x1 S50000x96 [1] [0] [0] 1
  dot_S512x96_S96x96_S512x96_1_0_0_1_n_n_wf : DotDims.WF S512x96 S96x96 S512x96 [1] [0] [0] [1] [] []
  dot_S512x96_S96x10_S512x10_1_0_0_1_n_n_wf : DotDims.WF S512x96 S96x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x96.size a ≤ S128x96.size a
  hwx0_3 : ∀ i : grid0.Coords, EltTy.bits .f32 = 32 ∨ (Rect.block (s := S128x96) S128x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x96.size a ≤ S1x96.size a
  hwx0_4 : ∀ i : grid0.Coords, EltTy.bits .f32 = 32 ∨ (Rect.block (s := S1x96) S1x96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x96.size a ≤ S50000x96.size a
  hwx0_5 : ∀ i : grid0.Coords, EltTy.bits .f32 = 32 ∨ (Rect.block (s := S50000x96) S2000x96.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x96.size a ≤ S50000x96.size a
  hwx1_0 : ∀ i : grid1.Coords, EltTy.bits .f32 = 32 ∨ (Rect.block (s := S50000x96) S2000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x96.size a ≤ S50000x96.size a
  hwx1_1 : ∀ i : grid1.Coords, EltTy.bits .f32 = 32 ∨ (Rect.block (s := S50000x96) S2000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x96.size a ≤ S50000x96.size a
  hwx1_4 : ∀ i : grid1.Coords, EltTy.bits .f32 = 32 ∨ (Rect.block (s := S50000x96) S2000x96.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x96.size a ≤ S50000x96.size a
  hwx2_0 : ∀ i : grid2.Coords, EltTy.bits .f32 = 32 ∨ (Rect.block (s := S50000x96) S2000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x96.size a ≤ S1x96.size a
  hwx2_1 : ∀ i : grid2.Coords, EltTy.bits .f32 = 32 ∨ (Rect.block (s := S1x96) S1x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x96.size a ≤ S1x96.size a
  hwx2_2 : ∀ i : grid2.Coords, EltTy.bits .f32 = 32 ∨ (Rect.block (s := S1x96) S1x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S96x96.size a ≤ S96x96.size a
  hwx2_3 : ∀ i : grid2.Coords, EltTy.bits .f32 = 32 ∨ (Rect.block (s := S96x96) S96x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x96.size a ≤ S1x96.size a
  hwx2_4 : ∀ i : grid2.Coords, EltTy.bits .f32 = 32 ∨ (Rect.block (s := S1x96) S1x96.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x96.size a ≤ S50000x96.size a
  hwx2_5 : ∀ i : grid2.Coords, EltTy.bits .f32 = 32 ∨ (Rect.block (s := S50000x96) S2000x96.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x96.size a ≤ S50000x96.size a
  hwx3_0 : ∀ i : grid3.Coords, EltTy.bits .f32 = 32 ∨ (Rect.block (s := S50000x96) S2000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x96.size a ≤ S50000x96.size a
  hwx3_1 : ∀ i : grid3.Coords, EltTy.bits .f32 = 32 ∨ (Rect.block (s := S50000x96) S2000x96.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S96x96.size a ≤ S96x96.size a
  hwx3_2 : ∀ i : grid3.Coords, EltTy.bits .f32 = 32 ∨ (Rect.block (s := S96x96) S96x96.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x96.size a ≤ S1x96.size a
  hwx3_3 : ∀ i : grid3.Coords, EltTy.bits .f32 = 32 ∨ (Rect.block (s := S1x96) S1x96.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x96.size a ≤ S50000x96.size a
  hwx3_4 : ∀ i : grid3.Coords, EltTy.bits .f32 = 32 ∨ (Rect.block (s := S50000x96) S2000x96.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x96.size a ≤ S50000x96.size a
  hwx4_0 : ∀ i : grid4.Coords, EltTy.bits .f32 = 32 ∨ (Rect.block (s := S50000x96) S2000x96.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x96.size a ≤ S1x96.size a
  hwx4_1 : ∀ i : grid4.Coords, EltTy.bits .f32 = 32 ∨ (Rect.block (s := S1x96) S1x96.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x96.size a ≤ S1x96.size a
  hwx4_2 : ∀ i : grid4.Coords, EltTy.bits .f32 = 32 ∨ (Rect.block (s := S1x96) S1x96.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S96x96.size a ≤ S96x96.size a
  hwx4_3 : ∀ i : grid4.Coords, EltTy.bits .f32 = 32 ∨ (Rect.block (s := S96x96) S96x96.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x96.size a ≤ S1x96.size a
  hwx4_4 : ∀ i : grid4.Coords, EltTy.bits .f32 = 32 ∨ (Rect.block (s := S1x96) S1x96.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x96.size a ≤ S50000x96.size a
  hwx4_5 : ∀ i : grid4.Coords, EltTy.bits .f32 = 32 ∨ (Rect.block (s := S50000x96) S2000x96.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x96.size a ≤ S50000x96.size a
  hwx5_0 : ∀ i : grid5.Coords, EltTy.bits .f32 = 32 ∨ (Rect.block (s := S50000x96) S2000x96.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x96.size a ≤ S50000x96.size a
  hwx5_1 : ∀ i : grid5.Coords, EltTy.bits .f32 = 32 ∨ (Rect.block (s := S50000x96) S2000x96.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S96x96.size a ≤ S96x96.size a
  hwx5_2 : ∀ i : grid5.Coords, EltTy.bits .f32 = 32 ∨ (Rect.block (s := S96x96) S96x96.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x96.size a ≤ S1x96.size a
  hwx5_3 : ∀ i : grid5.Coords, EltTy.bits .f32 = 32 ∨ (Rect.block (s := S1x96) S1x96.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x96.size a ≤ S50000x96.size a
  hwx5_4 : ∀ i : grid5.Coords, EltTy.bits .f32 = 32 ∨ (Rect.block (s := S50000x96) S2000x96.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x96.size a ≤ S50000x96.size a
  hwx6_0 : ∀ i : grid6.Coords, EltTy.bits .f32 = 32 ∨ (Rect.block (s := S50000x96) S2000x96.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x96.size a ≤ S1x96.size a
  hwx6_1 : ∀ i : grid6.Coords, EltTy.bits .f32 = 32 ∨ (Rect.block (s := S1x96) S1x96.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x96.size a ≤ S1x96.size a
  hwx6_2 : ∀ i : grid6.Coords, EltTy.bits .f32 = 32 ∨ (Rect.block (s := S1x96) S1x96.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S96x96.size a ≤ S96x96.size a
  hwx6_3 : ∀ i : grid6.Coords, EltTy.bits .f32 = 32 ∨ (Rect.block (s := S96x96) S96x96.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x96.size a ≤ S1x96.size a
  hwx6_4 : ∀ i : grid6.Coords, EltTy.bits .f32 = 32 ∨ (Rect.block (s := S1x96) S1x96.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x96.size a ≤ S50000x96.size a
  hwx6_5 : ∀ i : grid6.Coords, EltTy.bits .f32 = 32 ∨ (Rect.block (s := S50000x96) S2000x96.size (cc6_transform_5 i) (hinb6_5 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S512x96.size a ≤ S512x96.size a
  hwx7_0 : ∀ i : grid7.Coords, EltTy.bits .f32 = 32 ∨ (Rect.block (s := S512x96) S512x96.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x96.size a ≤ S1x96.size a
  hwx7_1 : ∀ i : grid7.Coords, EltTy.bits .f32 = 32 ∨ (Rect.block (s := S1x96) S1x96.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x96.size a ≤ S1x96.size a
  hwx7_2 : ∀ i : grid7.Coords, EltTy.bits .f32 = 32 ∨ (Rect.block (s := S1x96) S1x96.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S96x96.size a ≤ S96x96.size a
  hwx7_3 : ∀ i : grid7.Coords, EltTy.bits .f32 = 32 ∨ (Rect.block (s := S96x96) S96x96.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x96.size a ≤ S1x96.size a
  hwx7_4 : ∀ i : grid7.Coords, EltTy.bits .f32 = 32 ∨ (Rect.block (s := S1x96) S1x96.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S512x96.size a ≤ S512x96.size a
  hwx7_5 : ∀ i : grid7.Coords, EltTy.bits .f32 = 32 ∨ (Rect.block (s := S512x96) S512x96.size (cc7_transform_5 i) (hinb7_5 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S512x96.size a ≤ S512x96.size a
  hwx8_0 : ∀ i : grid8.Coords, EltTy.bits .f32 = 32 ∨ (Rect.block (s := S512x96) S512x96.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x96.size a ≤ S1x96.size a
  hwx8_1 : ∀ i : grid8.Coords, EltTy.bits .f32 = 32 ∨ (Rect.block (s := S1x96) S1x96.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x96.size a ≤ S1x96.size a
  hwx8_2 : ∀ i : grid8.Coords, EltTy.bits .f32 = 32 ∨ (Rect.block (s := S1x96) S1x96.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S96x10.size a ≤ S96x10.size a
  hwx8_3 : ∀ i : grid8.Coords, EltTy.bits .f32 = 32 ∨ (Rect.block (s := S96x10) S96x10.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x10.size a ≤ S1x10.size a
  hwx8_4 : ∀ i : grid8.Coords, EltTy.bits .f32 = 32 ∨ (Rect.block (s := S1x10) S1x10.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S512x10.size a ≤ S512x10.size a
  hwx8_5 : ∀ i : grid8.Coords, EltTy.bits .f32 = 32 ∨ (Rect.block (s := S512x10) S512x10.size (cc8_transform_5 i) (hinb8_5 i)).WholeWords (EltTy.packing .f32)

variable [Facts₀]

def dot_S2000x128_S128x96_S2000x96_1_0_0_1_n_n : DotDims S2000x128 S128x96 S2000x96 where
  lhsContracting := [1]
  rhsContracting := [0]
  lhsNonContracting := [0]
  rhsNonContracting := [1]
  lhsBatch := []
  rhsBatch := []
  wf := dot_S2000x128_S128x96_S2000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x96_S96x96_S2000x96_1_0_0_1_n_n : DotDims S2000x96 S96x96 S2000x96 where
  lhsContracting := [1]
  rhsContracting := [0]
  lhsNonContracting := [0]
  rhsNonContracting := [1]
  lhsBatch := []
  rhsBatch := []
  wf := dot_S2000x96_S96x96_S2000x96_1_0_0_1_n_n_wf
def scatter_S512x96_S50000x1_S50000x96_1_0_0_1 : ScatterDims S512x96 S50000x1 S50000x96 where
  updateWindowDims := [1]
  insertedWindowDims := [0]
  scatterDimsToOperandDims := [0]
  indexVectorDim := 1
  wf := scatter_S512x96_S50000x1_S50000x96_1_0_0_1_wf
def dot_S512x96_S96x96_S512x96_1_0_0_1_n_n : DotDims S512x96 S96x96 S512x96 where
  lhsContracting := [1]
  rhsContracting := [0]
  lhsNonContracting := [0]
  rhsNonContracting := [1]
  lhsBatch := []
  rhsBatch := []
  wf := dot_S512x96_S96x96_S512x96_1_0_0_1_n_n_wf
def dot_S512x96_S96x10_S512x10_1_0_0_1_n_n : DotDims S512x96 S96x10 S512x10 where
  lhsContracting := [1]
  rhsContracting := [0]
  lhsNonContracting := [0]
  rhsNonContracting := [1]
  lhsBatch := []
  rhsBatch := []
  wf := dot_S512x96_S96x10_S512x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S2000x96.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17) S2000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S2000x96.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v29) S2000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S96x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S2000x96.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v43) S2000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S2000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S96x96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S1x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S2000x96.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v55) S2000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S1x96.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S1x96.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg17) S96x96.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v68) S1x96.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v69) S2000x96.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v69) S2000x96.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S2000x96.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg19) S96x96.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v80) S1x96.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v81) S2000x96.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v81) S2000x96.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v92) S1x96.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v93) S1x96.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg23) S96x96.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v94) S1x96.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v95) S2000x96.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v98) S512x96.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_v109) S1x96.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v110) S1x96.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg27) S96x96.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v111) S1x96.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v112) S512x96.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v112) S512x96.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_v123) S1x96.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v124) S1x96.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg31) S96x10.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v125) S1x10.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v126) S512x10.size cc8_transform_5 reads8_5 true true 1 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128 : Shape := ⟨1, ![128]⟩
abbrev S128x96 : Shape := ⟨2, ![128, 96]⟩
abbrev S96 : Shape := ⟨1, ![96]⟩
abbrev S96x96 : Shape := ⟨2, ![96, 96]⟩
abbrev S96x10 : Shape := ⟨2, ![96, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S1x128 : Shape := ⟨2, ![1, 128]⟩
abbrev S50000x96 : Shape := ⟨2, ![50000, 96]⟩
abbrev S1x96 : Shape := ⟨2, ![1, 96]⟩
abbrev S800000x1 : Shape := ⟨2, ![800000, 1]⟩
abbrev S800000x96 : Shape := ⟨2, ![800000, 96]⟩
abbrev S512x96 : Shape := ⟨2, ![512, 96]⟩
abbrev S50000x1 : Shape := ⟨2, ![50000, 1]⟩
abbrev S512x10 : Shape := ⟨2, ![512, 10]⟩
abbrev S1x10 : Shape := ⟨2, ![1, 10]⟩
abbrev S512 : Shape := ⟨1, ![512]⟩
abbrev S512x1 : Shape := ⟨2, ![512, 1]⟩

abbrev nBuf : Space → Nat
  | .hbm => 422
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128, .f32⟩
  | 4 => ⟨S128, .f32⟩
  | 5 => ⟨S128x96, .f32⟩
  | 6 => ⟨S96, .f32⟩
  | 7 => ⟨S96x96, .f32⟩
  | 8 => ⟨S96, .f32⟩
  | 9 => ⟨S96, .f32⟩
  | 10 => ⟨S96, .f32⟩
  | 11 => ⟨S96x96, .f32⟩
  | 12 => ⟨S96, .f32⟩
  | 13 => ⟨S96x96, .f32⟩
  | 14 => ⟨S96, .f32⟩
  | 15 => ⟨S96, .f32⟩
  | 16 => ⟨S96, .f32⟩
  | 17 => ⟨S96x96, .f32⟩
  | 18 => ⟨S96, .f32⟩
  | 19 => ⟨S96x96, .f32⟩
  | 20 => ⟨S96, .f32⟩
  | 21 => ⟨S96, .f32⟩
  | 22 => ⟨S96, .f32⟩
  | 23 => ⟨S96x96, .f32⟩
  | 24 => ⟨S96, .f32⟩
  | 25 => ⟨S96, .f32⟩
  | 26 => ⟨S96, .f32⟩
  | 27 => ⟨S96x96, .f32⟩
  | 28 => ⟨S96, .f32⟩
  | 29 => ⟨S96, .f32⟩
  | 30 => ⟨S96, .f32⟩
  | 31 => ⟨S96x10, .f32⟩
  | 32 => ⟨S10, .f32⟩
  | 33 => ⟨S1x800000, .i32⟩
  | 34 => ⟨S800000, .i32⟩
  | 35 => ⟨S1x800000, .i32⟩
  | 36 => ⟨S800000, .i32⟩
  | 37 => ⟨S_, .f32⟩
  | 38 => ⟨S128, .f32⟩
  | 39 => ⟨S_, .f32⟩
  | 40 => ⟨S128, .f32⟩
  | 41 => ⟨S128, .f32⟩
  | 42 => ⟨S_, .i32⟩
  | 43 => ⟨S_, .f32⟩
  | 44 => ⟨S128, .f32⟩
  | 45 => ⟨S1x128, .f32⟩
  | 46 => ⟨S_, .f32⟩
  | 47 => ⟨S1x128, .f32⟩
  | 48 => ⟨S1x128, .f32⟩
  | 49 => ⟨S50000x128, .f32⟩
  | 50 => ⟨S50000x128, .f32⟩
  | 51 => ⟨S50000x128, .f32⟩
  | 52 => ⟨S_, .f32⟩
  | 53 => ⟨S_, .f32⟩
  | 54 => ⟨S_, .f32⟩
  | 55 => ⟨S_, .f32⟩
  | 56 => ⟨S128, .f32⟩
  | 57 => ⟨S128, .f32⟩
  | 58 => ⟨S128, .f32⟩
  | 59 => ⟨S_, .f32⟩
  | 60 => ⟨S_, .i1⟩
  | 61 => ⟨S_, .f32⟩
  | 62 => ⟨S_, .f32⟩
  | 63 => ⟨S128, .f32⟩
  | 64 => ⟨S128, .f32⟩
  | 65 => ⟨S1x128, .f32⟩
  | 66 => ⟨S50000x128, .f32⟩
  | 67 => ⟨S50000x128, .f32⟩
  | 68 => ⟨S_, .f32⟩
  | 69 => ⟨S128, .f32⟩
  | 70 => ⟨S128, .f32⟩
  | 71 => ⟨S128, .f32⟩
  | 72 => ⟨S1x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S50000x96, .f32⟩
  | 82 => ⟨S1x96, .f32⟩
  | 83 => ⟨S50000x96, .f32⟩
  | 84 => ⟨S50000x96, .f32⟩
  | 85 => ⟨S_, .f32⟩
  | 86 => ⟨S50000x96, .f32⟩
  | 87 => ⟨S50000x96, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x96, .f32⟩
  | 97 => ⟨S_, .f32⟩
  | 98 => ⟨S50000x96, .f32⟩
  | 99 => ⟨S800000x1, .i32⟩
  | 100 => ⟨S50000x96, .f32⟩
  | 101 => ⟨S50000x96, .f32⟩
  | 102 => ⟨S50000x96, .f32⟩
  | 103 => ⟨S1x96, .f32⟩
  | 104 => ⟨S50000x96, .f32⟩
  | 105 => ⟨S50000x96, .f32⟩
  | 106 => ⟨S_, .f32⟩
  | 107 => ⟨S96, .f32⟩
  | 108 => ⟨S_, .f32⟩
  | 109 => ⟨S96, .f32⟩
  | 110 => ⟨S96, .f32⟩
  | 111 => ⟨S_, .i32⟩
  | 112 => ⟨S_, .f32⟩
  | 113 => ⟨S96, .f32⟩
  | 114 => ⟨S1x96, .f32⟩
  | 115 => ⟨S_, .f32⟩
  | 116 => ⟨S1x96, .f32⟩
  | 117 => ⟨S1x96, .f32⟩
  | 118 => ⟨S50000x96, .f32⟩
  | 119 => ⟨S50000x96, .f32⟩
  | 120 => ⟨S50000x96, .f32⟩
  | 121 => ⟨S_, .f32⟩
  | 122 => ⟨S_, .f32⟩
  | 123 => ⟨S_, .f32⟩
  | 124 => ⟨S_, .f32⟩
  | 125 => ⟨S96, .f32⟩
  | 126 => ⟨S96, .f32⟩
  | 127 => ⟨S96, .f32⟩
  | _ => ⟨S50000x128, .f32⟩

abbrev hbmTy0_1 (i : Nat) : BufTy := match i % 128 with
  | 0 => ⟨S_, .f32⟩
  | 1 => ⟨S_, .i1⟩
  | 2 => ⟨S_, .f32⟩
  | 3 => ⟨S_, .f32⟩
  | 4 => ⟨S96, .f32⟩
  | 5 => ⟨S96, .f32⟩
  | 6 => ⟨S1x96, .f32⟩
  | 7 => ⟨S50000x96, .f32⟩
  | 8 => ⟨S50000x96, .f32⟩
  | 9 => ⟨S_, .f32⟩
  | 10 => ⟨S96, .f32⟩
  | 11 => ⟨S96, .f32⟩
  | 12 => ⟨S96, .f32⟩
  | 13 => ⟨S1x96, .f32⟩
  | 14 => ⟨S50000x96, .f32⟩
  | 15 => ⟨S50000x96, .f32⟩
  | 16 => ⟨S1x96, .f32⟩
  | 17 => ⟨S50000x96, .f32⟩
  | 18 => ⟨S50000x96, .f32⟩
  | 19 => ⟨S1x96, .f32⟩
  | 20 => ⟨S50000x96, .f32⟩
  | 21 => ⟨S50000x96, .f32⟩
  | 22 => ⟨S_, .f32⟩
  | 23 => ⟨S50000x96, .f32⟩
  | 24 => ⟨S50000x96, .f32⟩
  | 25 => ⟨S50000x96, .f32⟩
  | 26 => ⟨S1x96, .f32⟩
  | 27 => ⟨S50000x96, .f32⟩
  | 28 => ⟨S50000x96, .f32⟩
  | 29 => ⟨S_, .f32⟩
  | 30 => ⟨S50000x96, .f32⟩
  | 31 => ⟨S50000x96, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x96, .f32⟩
  | 41 => ⟨S_, .f32⟩
  | 42 => ⟨S50000x96, .f32⟩
  | 43 => ⟨S800000x1, .i32⟩
  | 44 => ⟨S50000x96, .f32⟩
  | 45 => ⟨S50000x96, .f32⟩
  | 46 => ⟨S50000x96, .f32⟩
  | 47 => ⟨S1x96, .f32⟩
  | 48 => ⟨S50000x96, .f32⟩
  | 49 => ⟨S50000x96, .f32⟩
  | 50 => ⟨S_, .f32⟩
  | 51 => ⟨S96, .f32⟩
  | 52 => ⟨S_, .f32⟩
  | 53 => ⟨S96, .f32⟩
  | 54 => ⟨S96, .f32⟩
  | 55 => ⟨S_, .i32⟩
  | 56 => ⟨S_, .f32⟩
  | 57 => ⟨S96, .f32⟩
  | 58 => ⟨S1x96, .f32⟩
  | 59 => ⟨S_, .f32⟩
  | 60 => ⟨S1x96, .f32⟩
  | 61 => ⟨S1x96, .f32⟩
  | 62 => ⟨S50000x96, .f32⟩
  | 63 => ⟨S50000x96, .f32⟩
  | 64 => ⟨S50000x96, .f32⟩
  | 65 => ⟨S_, .f32⟩
  | 66 => ⟨S_, .f32⟩
  | 67 => ⟨S_, .f32⟩
  | 68 => ⟨S_, .f32⟩
  | 69 => ⟨S96, .f32⟩
  | 70 => ⟨S96, .f32⟩
  | 71 => ⟨S96, .f32⟩
  | 72 => ⟨S_, .f32⟩
  | 73 => ⟨S_, .i1⟩
  | 74 => ⟨S_, .f32⟩
  | 75 => ⟨S_, .f32⟩
  | 76 => ⟨S96, .f32⟩
  | 77 => ⟨S96, .f32⟩
  | 78 => ⟨S1x96, .f32⟩
  | 79 => ⟨S50000x96, .f32⟩
  | 80 => ⟨S50000x96, .f32⟩
  | 81 => ⟨S_, .f32⟩
  | 82 => ⟨S96, .f32⟩
  | 83 => ⟨S96, .f32⟩
  | 84 => ⟨S96, .f32⟩
  | 85 => ⟨S1x96, .f32⟩
  | 86 => ⟨S50000x96, .f32⟩
  | 87 => ⟨S50000x96, .f32⟩
  | 88 => ⟨S1x96, .f32⟩
  | 89 => ⟨S50000x96, .f32⟩
  | 90 => ⟨S50000x96, .f32⟩
  | 91 => ⟨S1x96, .f32⟩
  | 92 => ⟨S50000x96, .f32⟩
  | 93 => ⟨S50000x96, .f32⟩
  | 94 => ⟨S_, .f32⟩
  | 95 => ⟨S50000x96, .f32⟩
  | 96 => ⟨S50000x96, .f32⟩
  | 97 => ⟨S50000x96, .f32⟩
  | 98 => ⟨S1x96, .f32⟩
  | 99 => ⟨S50000x96, .f32⟩
  | 100 => ⟨S50000x96, .f32⟩
  | 101 => ⟨S_, .f32⟩
  | 102 => ⟨S50000x96, .f32⟩
  | 103 => ⟨S50000x96, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x96, .f32⟩
  | 113 => ⟨S_, .f32⟩
  | 114 => ⟨S50000x96, .f32⟩
  | 115 => ⟨S800000x1, .i32⟩
  | 116 => ⟨S50000x96, .f32⟩
  | 117 => ⟨S50000x96, .f32⟩
  | 118 => ⟨S50000x96, .f32⟩
  | 119 => ⟨S1x96, .f32⟩
  | 120 => ⟨S50000x96, .f32⟩
  | 121 => ⟨S50000x96, .f32⟩
  | 122 => ⟨S_, .f32⟩
  | 123 => ⟨S96, .f32⟩
  | 124 => ⟨S_, .f32⟩
  | 125 => ⟨S96, .f32⟩
  | 126 => ⟨S96, .f32⟩
  | 127 => ⟨S_, .i32⟩
  | _ => ⟨S50000x128, .f32⟩

abbrev hbmTy0_2 (i : Nat) : BufTy := match i % 128 with
  | 0 => ⟨S_, .f32⟩
  | 1 => ⟨S96, .f32⟩
  | 2 => ⟨S1x96, .f32⟩
  | 3 => ⟨S_, .f32⟩
  | 4 => ⟨S1x96, .f32⟩
  | 5 => ⟨S1x96, .f32⟩
  | 6 => ⟨S50000x96, .f32⟩
  | 7 => ⟨S50000x96, .f32⟩
  | 8 => ⟨S50000x96, .f32⟩
  | 9 => ⟨S_, .f32⟩
  | 10 => ⟨S_, .f32⟩
  | 11 => ⟨S_, .f32⟩
  | 12 => ⟨S_, .f32⟩
  | 13 => ⟨S96, .f32⟩
  | 14 => ⟨S96, .f32⟩
  | 15 => ⟨S96, .f32⟩
  | 16 => ⟨S_, .f32⟩
  | 17 => ⟨S_, .i1⟩
  | 18 => ⟨S_, .f32⟩
  | 19 => ⟨S_, .f32⟩
  | 20 => ⟨S96, .f32⟩
  | 21 => ⟨S96, .f32⟩
  | 22 => ⟨S1x96, .f32⟩
  | 23 => ⟨S50000x96, .f32⟩
  | 24 => ⟨S50000x96, .f32⟩
  | 25 => ⟨S_, .f32⟩
  | 26 => ⟨S96, .f32⟩
  | 27 => ⟨S96, .f32⟩
  | 28 => ⟨S96, .f32⟩
  | 29 => ⟨S1x96, .f32⟩
  | 30 => ⟨S50000x96, .f32⟩
  | 31 => ⟨S50000x96, .f32⟩
  | 32 => ⟨S1x96, .f32⟩
  | 33 => ⟨S50000x96, .f32⟩
  | 34 => ⟨S50000x96, .f32⟩
  | 35 => ⟨S1x96, .f32⟩
  | 36 => ⟨S50000x96, .f32⟩
  | 37 => ⟨S50000x96, .f32⟩
  | 38 => ⟨S_, .f32⟩
  | 39 => ⟨S50000x96, .f32⟩
  | 40 => ⟨S50000x96, .f32⟩
  | 41 => ⟨S50000x96, .f32⟩
  | 42 => ⟨S1x96, .f32⟩
  | 43 => ⟨S50000x96, .f32⟩
  | 44 => ⟨S50000x96, .f32⟩
  | 45 => ⟨S_, .f32⟩
  | 46 => ⟨S50000x96, .f32⟩
  | 47 => ⟨S50000x96, .f32⟩
  | 48 => ⟨S_, .f32⟩
  | 49 => ⟨S512x96, .f32⟩
  | 50 => ⟨S50000x1, .i32⟩
  | 51 => ⟨S512x96, .f32⟩
  | 52 => ⟨S_, .f32⟩
  | 53 => ⟨S96, .f32⟩
  | 54 => ⟨S_, .f32⟩
  | 55 => ⟨S96, .f32⟩
  | 56 => ⟨S96, .f32⟩
  | 57 => ⟨S_, .i32⟩
  | 58 => ⟨S_, .f32⟩
  | 59 => ⟨S96, .f32⟩
  | 60 => ⟨S1x96, .f32⟩
  | 61 => ⟨S_, .f32⟩
  | 62 => ⟨S1x96, .f32⟩
  | 63 => ⟨S1x96, .f32⟩
  | 64 => ⟨S512x96, .f32⟩
  | 65 => ⟨S512x96, .f32⟩
  | 66 => ⟨S512x96, .f32⟩
  | 67 => ⟨S_, .f32⟩
  | 68 => ⟨S_, .f32⟩
  | 69 => ⟨S_, .f32⟩
  | 70 => ⟨S_, .f32⟩
  | 71 => ⟨S96, .f32⟩
  | 72 => ⟨S96, .f32⟩
  | 73 => ⟨S96, .f32⟩
  | 74 => ⟨S_, .f32⟩
  | 75 => ⟨S_, .i1⟩
  | 76 => ⟨S_, .f32⟩
  | 77 => ⟨S_, .f32⟩
  | 78 => ⟨S96, .f32⟩
  | 79 => ⟨S96, .f32⟩
  | 80 => ⟨S1x96, .f32⟩
  | 81 => ⟨S512x96, .f32⟩
  | 82 => ⟨S512x96, .f32⟩
  | 83 => ⟨S_, .f32⟩
  | 84 => ⟨S96, .f32⟩
  | 85 => ⟨S96, .f32⟩
  | 86 => ⟨S96, .f32⟩
  | 87 => ⟨S1x96, .f32⟩
  | 88 => ⟨S512x96, .f32⟩
  | 89 => ⟨S512x96, .f32⟩
  | 90 => ⟨S1x96, .f32⟩
  | 91 => ⟨S512x96, .f32⟩
  | 92 => ⟨S512x96, .f32⟩
  | 93 => ⟨S1x96, .f32⟩
  | 94 => ⟨S512x96, .f32⟩
  | 95 => ⟨S512x96, .f32⟩
  | 96 => ⟨S512x96, .f32⟩
  | 97 => ⟨S1x96, .f32⟩
  | 98 => ⟨S512x96, .f32⟩
  | 99 => ⟨S512x96, .f32⟩
  | 100 => ⟨S_, .f32⟩
  | 101 => ⟨S512x96, .f32⟩
  | 102 => ⟨S512x96, .f32⟩
  | 103 => ⟨S_, .f32⟩
  | 104 => ⟨S96, .f32⟩
  | 105 => ⟨S_, .f32⟩
  | 106 => ⟨S96, .f32⟩
  | 107 => ⟨S96, .f32⟩
  | 108 => ⟨S_, .i32⟩
  | 109 => ⟨S_, .f32⟩
  | 110 => ⟨S96, .f32⟩
  | 111 => ⟨S1x96, .f32⟩
  | 112 => ⟨S_, .f32⟩
  | 113 => ⟨S1x96, .f32⟩
  | 114 => ⟨S1x96, .f32⟩
  | 115 => ⟨S512x96, .f32⟩
  | 116 => ⟨S512x96, .f32⟩
  | 117 => ⟨S512x96, .f32⟩
  | 118 => ⟨S_, .f32⟩
  | 119 => ⟨S_, .f32⟩
  | 120 => ⟨S_, .f32⟩
  | 121 => ⟨S_, .f32⟩
  | 122 => ⟨S96, .f32⟩
  | 123 => ⟨S96, .f32⟩
  | 124 => ⟨S96, .f32⟩
  | 125 => ⟨S_, .f32⟩
  | 126 => ⟨S_, .i1⟩
  | 127 => ⟨S_, .f32⟩
  | _ => ⟨S50000x128, .f32⟩

abbrev hbmTy0_3 (i : Nat) : BufTy := match i % 128 with
  | 0 => ⟨S_, .f32⟩
  | 1 => ⟨S96, .f32⟩
  | 2 => ⟨S96, .f32⟩
  | 3 => ⟨S1x96, .f32⟩
  | 4 => ⟨S512x96, .f32⟩
  | 5 => ⟨S512x96, .f32⟩
  | 6 => ⟨S_, .f32⟩
  | 7 => ⟨S96, .f32⟩
  | 8 => ⟨S96, .f32⟩
  | 9 => ⟨S96, .f32⟩
  | 10 => ⟨S1x96, .f32⟩
  | 11 => ⟨S512x96, .f32⟩
  | 12 => ⟨S512x96, .f32⟩
  | 13 => ⟨S1x96, .f32⟩
  | 14 => ⟨S512x96, .f32⟩
  | 15 => ⟨S512x96, .f32⟩
  | 16 => ⟨S1x96, .f32⟩
  | 17 => ⟨S512x96, .f32⟩
  | 18 => ⟨S512x96, .f32⟩
  | 19 => ⟨S512x10, .f32⟩
  | 20 => ⟨S1x10, .f32⟩
  | 21 => ⟨S512x10, .f32⟩
  | 22 => ⟨S512x10, .f32⟩
  | 23 => ⟨S_, .f32⟩
  | 24 => ⟨S512, .f32⟩
  | 25 => ⟨S_, .f32⟩
  | 26 => ⟨S512, .f32⟩
  | 27 => ⟨S512, .f32⟩
  | 28 => ⟨S512x1, .f32⟩
  | 29 => ⟨S512x10, .f32⟩
  | 30 => ⟨S512x10, .f32⟩
  | 31 => ⟨S512x10, .f32⟩
  | 32 => ⟨S_, .f32⟩
  | 33 => ⟨S512, .f32⟩
  | 34 => ⟨S512x1, .f32⟩
  | 35 => ⟨S512x1, .f32⟩
  | 36 => ⟨S512x10, .f32⟩
  | 37 => ⟨S512x10, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_cst : Ref sig .tc := ⟨.hbm, 37, rfl⟩
abbrev main_v4 : Ref sig .tc := ⟨.hbm, 38, rfl⟩
abbrev main_cst_0 : Ref sig .tc := ⟨.hbm, 39, rfl⟩
abbrev main_v5 : Ref sig .tc := ⟨.hbm, 40, rfl⟩
abbrev main_v6 : Ref sig .tc := ⟨.hbm, 41, rfl⟩
abbrev main_c : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_cst_1 : Ref sig .tc := ⟨.hbm, 53, rfl⟩
abbrev main_call0_v8 : Ref sig .tc := ⟨.hbm, 54, rfl⟩
abbrev main_call0_cst_2 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_cst_3 : Ref sig .tc := ⟨.hbm, 59, rfl⟩
abbrev main_call0_v12 : Ref sig .tc := ⟨.hbm, 60, rfl⟩
abbrev main_call0_cst_4 : Ref sig .tc := ⟨.hbm, 61, rfl⟩
abbrev main_call0_call0_v0 : Ref sig .tc := ⟨.hbm, 62, rfl⟩
abbrev main_call0_call0_v1 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_cst_1 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_call1_cst : Ref sig .tc := ⟨.hbm, 85, rfl⟩
abbrev main_call1_v0 : Ref sig .tc := ⟨.hbm, 86, rfl⟩
abbrev main_v27 : Ref sig .tc := ⟨.hbm, 87, rfl⟩
abbrev main_c_2 : Ref sig .tc := ⟨.hbm, 88, rfl⟩
abbrev main_v28 : Ref sig .tc := ⟨.hbm, 89, rfl⟩
abbrev main_v29 : Ref sig .tc := ⟨.hbm, 90, rfl⟩
abbrev main_c_3 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_cst_4 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_cst_5 : Ref sig .tc := ⟨.hbm, 106, rfl⟩
abbrev main_v43 : Ref sig .tc := ⟨.hbm, 107, rfl⟩
abbrev main_cst_6 : Ref sig .tc := ⟨.hbm, 108, rfl⟩
abbrev main_v44 : Ref sig .tc := ⟨.hbm, 109, rfl⟩
abbrev main_v45 : Ref sig .tc := ⟨.hbm, 110, rfl⟩
abbrev main_c_7 : Ref sig .tc := ⟨.hbm, 111, rfl⟩
abbrev main_call2_cst : Ref sig .tc := ⟨.hbm, 112, rfl⟩
abbrev main_call2_v0 : Ref sig .tc := ⟨.hbm, 113, rfl⟩
abbrev main_call2_v1 : Ref sig .tc := ⟨.hbm, 114, rfl⟩
abbrev main_call2_cst_0 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_v5 : Ref sig .tc := ⟨.hbm, 119, rfl⟩
abbrev main_call2_v6 : Ref sig .tc := ⟨.hbm, 120, rfl⟩
abbrev main_call2_v7 : Ref sig .tc := ⟨.hbm, 121, rfl⟩
abbrev main_call2_cst_1 : Ref sig .tc := ⟨.hbm, 122, rfl⟩
abbrev main_call2_v8 : Ref sig .tc := ⟨.hbm, 123, rfl⟩
abbrev main_call2_cst_2 : Ref sig .tc := ⟨.hbm, 124, rfl⟩
abbrev main_call2_v9 : Ref sig .tc := ⟨.hbm, 125, rfl⟩
abbrev main_call2_v10 : Ref sig .tc := ⟨.hbm, 126, rfl⟩
abbrev main_call2_v11 : Ref sig .tc := ⟨.hbm, 127, rfl⟩
abbrev main_call2_cst_3 : Ref sig .tc := ⟨.hbm, 128, rfl⟩
abbrev main_call2_v12 : Ref sig .tc := ⟨.hbm, 129, rfl⟩
abbrev main_call2_cst_4 : Ref sig .tc := ⟨.hbm, 130, rfl⟩
abbrev main_call2_call0_v0 : Ref sig .tc := ⟨.hbm, 131, rfl⟩
abbrev main_call2_call0_v1 : Ref sig .tc := ⟨.hbm, 132, rfl⟩
abbrev main_v46 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_cst_8 : Ref sig .tc := ⟨.hbm, 137, rfl⟩
abbrev main_v50 : Ref sig .tc := ⟨.hbm, 138, rfl⟩
abbrev main_v51 : Ref sig .tc := ⟨.hbm, 139, rfl⟩
abbrev main_v52 : Ref sig .tc := ⟨.hbm, 140, rfl⟩
abbrev main_v53 : Ref sig .tc := ⟨.hbm, 141, rfl⟩
abbrev main_v54 : Ref sig .tc := ⟨.hbm, 142, rfl⟩
abbrev main_v55 : Ref sig .tc := ⟨.hbm, 143, rfl⟩
abbrev main_v56 : Ref sig .tc := ⟨.hbm, 144, rfl⟩
abbrev main_v57 : Ref sig .tc := ⟨.hbm, 145, rfl⟩
abbrev main_v58 : Ref sig .tc := ⟨.hbm, 146, rfl⟩
abbrev main_v59 : Ref sig .tc := ⟨.hbm, 147, rfl⟩
abbrev main_v60 : Ref sig .tc := ⟨.hbm, 148, rfl⟩
abbrev main_v61 : Ref sig .tc := ⟨.hbm, 149, rfl⟩
abbrev main_call3_cst : Ref sig .tc := ⟨.hbm, 150, rfl⟩
abbrev main_call3_v0 : Ref sig .tc := ⟨.hbm, 151, rfl⟩
abbrev main_v62 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_v66 : Ref sig .tc := ⟨.hbm, 156, rfl⟩
abbrev main_call4_cst : Ref sig .tc := ⟨.hbm, 157, rfl⟩
abbrev main_call4_v0 : Ref sig .tc := ⟨.hbm, 158, rfl⟩
abbrev main_v67 : Ref sig .tc := ⟨.hbm, 159, rfl⟩
abbrev main_c_9 : Ref sig .tc := ⟨.hbm, 160, rfl⟩
abbrev main_v68 : Ref sig .tc := ⟨.hbm, 161, rfl⟩
abbrev main_v69 : Ref sig .tc := ⟨.hbm, 162, rfl⟩
abbrev main_c_10 : Ref sig .tc := ⟨.hbm, 163, rfl⟩
abbrev main_v70 : Ref sig .tc := ⟨.hbm, 164, rfl⟩
abbrev main_v71 : Ref sig .tc := ⟨.hbm, 165, rfl⟩
abbrev main_v72 : Ref sig .tc := ⟨.hbm, 166, rfl⟩
abbrev main_v73 : Ref sig .tc := ⟨.hbm, 167, rfl⟩
abbrev main_v74 : Ref sig .tc := ⟨.hbm, 168, rfl⟩
abbrev main_cst_11 : Ref sig .tc := ⟨.hbm, 169, rfl⟩
abbrev main_v75 : Ref sig .tc := ⟨.hbm, 170, rfl⟩
abbrev main_v76 : Ref sig .tc := ⟨.hbm, 171, rfl⟩
abbrev main_v77 : Ref sig .tc := ⟨.hbm, 172, rfl⟩
abbrev main_v78 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_cst_12 : Ref sig .tc := ⟨.hbm, 178, rfl⟩
abbrev main_v83 : Ref sig .tc := ⟨.hbm, 179, rfl⟩
abbrev main_cst_13 : Ref sig .tc := ⟨.hbm, 180, rfl⟩
abbrev main_v84 : Ref sig .tc := ⟨.hbm, 181, rfl⟩
abbrev main_v85 : Ref sig .tc := ⟨.hbm, 182, rfl⟩
abbrev main_c_14 : Ref sig .tc := ⟨.hbm, 183, rfl⟩
abbrev main_call5_cst : Ref sig .tc := ⟨.hbm, 184, rfl⟩
abbrev main_call5_v0 : Ref sig .tc := ⟨.hbm, 185, rfl⟩
abbrev main_call5_v1 : Ref sig .tc := ⟨.hbm, 186, rfl⟩
abbrev main_call5_cst_0 : Ref sig .tc := ⟨.hbm, 187, rfl⟩
abbrev main_call5_v2 : Ref sig .tc := ⟨.hbm, 188, rfl⟩
abbrev main_call5_v3 : Ref sig .tc := ⟨.hbm, 189, rfl⟩
abbrev main_call5_v4 : Ref sig .tc := ⟨.hbm, 190, rfl⟩
abbrev main_call5_v5 : Ref sig .tc := ⟨.hbm, 191, rfl⟩
abbrev main_call5_v6 : Ref sig .tc := ⟨.hbm, 192, rfl⟩
abbrev main_call5_v7 : Ref sig .tc := ⟨.hbm, 193, rfl⟩
abbrev main_call5_cst_1 : Ref sig .tc := ⟨.hbm, 194, rfl⟩
abbrev main_call5_v8 : Ref sig .tc := ⟨.hbm, 195, rfl⟩
abbrev main_call5_cst_2 : Ref sig .tc := ⟨.hbm, 196, rfl⟩
abbrev main_call5_v9 : Ref sig .tc := ⟨.hbm, 197, rfl⟩
abbrev main_call5_v10 : Ref sig .tc := ⟨.hbm, 198, rfl⟩
abbrev main_call5_v11 : Ref sig .tc := ⟨.hbm, 199, rfl⟩
abbrev main_call5_cst_3 : Ref sig .tc := ⟨.hbm, 200, rfl⟩
abbrev main_call5_v12 : Ref sig .tc := ⟨.hbm, 201, rfl⟩
abbrev main_call5_cst_4 : Ref sig .tc := ⟨.hbm, 202, rfl⟩
abbrev main_call5_call0_v0 : Ref sig .tc := ⟨.hbm, 203, rfl⟩
abbrev main_call5_call0_v1 : Ref sig .tc := ⟨.hbm, 204, rfl⟩
abbrev main_v86 : Ref sig .tc := ⟨.hbm, 205, rfl⟩
abbrev main_v87 : Ref sig .tc := ⟨.hbm, 206, rfl⟩
abbrev main_v88 : Ref sig .tc := ⟨.hbm, 207, rfl⟩
abbrev main_v89 : Ref sig .tc := ⟨.hbm, 208, rfl⟩
abbrev main_cst_15 : Ref sig .tc := ⟨.hbm, 209, rfl⟩
abbrev main_v90 : Ref sig .tc := ⟨.hbm, 210, rfl⟩
abbrev main_v91 : Ref sig .tc := ⟨.hbm, 211, rfl⟩
abbrev main_v92 : Ref sig .tc := ⟨.hbm, 212, rfl⟩
abbrev main_v93 : Ref sig .tc := ⟨.hbm, 213, rfl⟩
abbrev main_v94 : Ref sig .tc := ⟨.hbm, 214, rfl⟩
abbrev main_v95 : Ref sig .tc := ⟨.hbm, 215, rfl⟩
abbrev main_v96 : Ref sig .tc := ⟨.hbm, 216, rfl⟩
abbrev main_v97 : Ref sig .tc := ⟨.hbm, 217, rfl⟩
abbrev main_v98 : Ref sig .tc := ⟨.hbm, 218, rfl⟩
abbrev main_v99 : Ref sig .tc := ⟨.hbm, 219, rfl⟩
abbrev main_v100 : Ref sig .tc := ⟨.hbm, 220, rfl⟩
abbrev main_v101 : Ref sig .tc := ⟨.hbm, 221, rfl⟩
abbrev main_call6_cst : Ref sig .tc := ⟨.hbm, 222, rfl⟩
abbrev main_call6_v0 : Ref sig .tc := ⟨.hbm, 223, rfl⟩
abbrev main_v102 : Ref sig .tc := ⟨.hbm, 224, rfl⟩
abbrev main_v103 : Ref sig .tc := ⟨.hbm, 225, rfl⟩
abbrev main_v104 : Ref sig .tc := ⟨.hbm, 226, rfl⟩
abbrev main_v105 : Ref sig .tc := ⟨.hbm, 227, rfl⟩
abbrev main_v106 : Ref sig .tc := ⟨.hbm, 228, rfl⟩
abbrev main_call7_cst : Ref sig .tc := ⟨.hbm, 229, rfl⟩
abbrev main_call7_v0 : Ref sig .tc := ⟨.hbm, 230, rfl⟩
abbrev main_v107 : Ref sig .tc := ⟨.hbm, 231, rfl⟩
abbrev main_c_16 : Ref sig .tc := ⟨.hbm, 232, rfl⟩
abbrev main_v108 : Ref sig .tc := ⟨.hbm, 233, rfl⟩
abbrev main_v109 : Ref sig .tc := ⟨.hbm, 234, rfl⟩
abbrev main_c_17 : Ref sig .tc := ⟨.hbm, 235, rfl⟩
abbrev main_v110 : Ref sig .tc := ⟨.hbm, 236, rfl⟩
abbrev main_v111 : Ref sig .tc := ⟨.hbm, 237, rfl⟩
abbrev main_v112 : Ref sig .tc := ⟨.hbm, 238, rfl⟩
abbrev main_v113 : Ref sig .tc := ⟨.hbm, 239, rfl⟩
abbrev main_v114 : Ref sig .tc := ⟨.hbm, 240, rfl⟩
abbrev main_cst_18 : Ref sig .tc := ⟨.hbm, 241, rfl⟩
abbrev main_v115 : Ref sig .tc := ⟨.hbm, 242, rfl⟩
abbrev main_v116 : Ref sig .tc := ⟨.hbm, 243, rfl⟩
abbrev main_v117 : Ref sig .tc := ⟨.hbm, 244, rfl⟩
abbrev main_v118 : Ref sig .tc := ⟨.hbm, 245, rfl⟩
abbrev main_v119 : Ref sig .tc := ⟨.hbm, 246, rfl⟩
abbrev main_v120 : Ref sig .tc := ⟨.hbm, 247, rfl⟩
abbrev main_v121 : Ref sig .tc := ⟨.hbm, 248, rfl⟩
abbrev main_v122 : Ref sig .tc := ⟨.hbm, 249, rfl⟩
abbrev main_cst_19 : Ref sig .tc := ⟨.hbm, 250, rfl⟩
abbrev main_v123 : Ref sig .tc := ⟨.hbm, 251, rfl⟩
abbrev main_cst_20 : Ref sig .tc := ⟨.hbm, 252, rfl⟩
abbrev main_v124 : Ref sig .tc := ⟨.hbm, 253, rfl⟩
abbrev main_v125 : Ref sig .tc := ⟨.hbm, 254, rfl⟩
abbrev main_c_21 : Ref sig .tc := ⟨.hbm, 255, rfl⟩
abbrev main_call8_cst : Ref sig .tc := ⟨.hbm, 256, rfl⟩
abbrev main_call8_v0 : Ref sig .tc := ⟨.hbm, 257, rfl⟩
abbrev main_call8_v1 : Ref sig .tc := ⟨.hbm, 258, rfl⟩
abbrev main_call8_cst_0 : Ref sig .tc := ⟨.hbm, 259, rfl⟩
abbrev main_call8_v2 : Ref sig .tc := ⟨.hbm, 260, rfl⟩
abbrev main_call8_v3 : Ref sig .tc := ⟨.hbm, 261, rfl⟩
abbrev main_call8_v4 : Ref sig .tc := ⟨.hbm, 262, rfl⟩
abbrev main_call8_v5 : Ref sig .tc := ⟨.hbm, 263, rfl⟩
abbrev main_call8_v6 : Ref sig .tc := ⟨.hbm, 264, rfl⟩
abbrev main_call8_v7 : Ref sig .tc := ⟨.hbm, 265, rfl⟩
abbrev main_call8_cst_1 : Ref sig .tc := ⟨.hbm, 266, rfl⟩
abbrev main_call8_v8 : Ref sig .tc := ⟨.hbm, 267, rfl⟩
abbrev main_call8_cst_2 : Ref sig .tc := ⟨.hbm, 268, rfl⟩
abbrev main_call8_v9 : Ref sig .tc := ⟨.hbm, 269, rfl⟩
abbrev main_call8_v10 : Ref sig .tc := ⟨.hbm, 270, rfl⟩
abbrev main_call8_v11 : Ref sig .tc := ⟨.hbm, 271, rfl⟩
abbrev main_call8_cst_3 : Ref sig .tc := ⟨.hbm, 272, rfl⟩
abbrev main_call8_v12 : Ref sig .tc := ⟨.hbm, 273, rfl⟩
abbrev main_call8_cst_4 : Ref sig .tc := ⟨.hbm, 274, rfl⟩
abbrev main_call8_call0_v0 : Ref sig .tc := ⟨.hbm, 275, rfl⟩
abbrev main_call8_call0_v1 : Ref sig .tc := ⟨.hbm, 276, rfl⟩
abbrev main_v126 : Ref sig .tc := ⟨.hbm, 277, rfl⟩
abbrev main_v127 : Ref sig .tc := ⟨.hbm, 278, rfl⟩
abbrev main_v128 : Ref sig .tc := ⟨.hbm, 279, rfl⟩
abbrev main_v129 : Ref sig .tc := ⟨.hbm, 280, rfl⟩
abbrev main_cst_22 : Ref sig .tc := ⟨.hbm, 281, rfl⟩
abbrev main_v130 : Ref sig .tc := ⟨.hbm, 282, rfl⟩
abbrev main_v131 : Ref sig .tc := ⟨.hbm, 283, rfl⟩
abbrev main_v132 : Ref sig .tc := ⟨.hbm, 284, rfl⟩
abbrev main_v133 : Ref sig .tc := ⟨.hbm, 285, rfl⟩
abbrev main_v134 : Ref sig .tc := ⟨.hbm, 286, rfl⟩
abbrev main_v135 : Ref sig .tc := ⟨.hbm, 287, rfl⟩
abbrev main_v136 : Ref sig .tc := ⟨.hbm, 288, rfl⟩
abbrev main_v137 : Ref sig .tc := ⟨.hbm, 289, rfl⟩
abbrev main_v138 : Ref sig .tc := ⟨.hbm, 290, rfl⟩
abbrev main_v139 : Ref sig .tc := ⟨.hbm, 291, rfl⟩
abbrev main_v140 : Ref sig .tc := ⟨.hbm, 292, rfl⟩
abbrev main_v141 : Ref sig .tc := ⟨.hbm, 293, rfl⟩
abbrev main_call9_cst : Ref sig .tc := ⟨.hbm, 294, rfl⟩
abbrev main_call9_v0 : Ref sig .tc := ⟨.hbm, 295, rfl⟩
abbrev main_v142 : Ref sig .tc := ⟨.hbm, 296, rfl⟩
abbrev main_v143 : Ref sig .tc := ⟨.hbm, 297, rfl⟩
abbrev main_v144 : Ref sig .tc := ⟨.hbm, 298, rfl⟩
abbrev main_v145 : Ref sig .tc := ⟨.hbm, 299, rfl⟩
abbrev main_v146 : Ref sig .tc := ⟨.hbm, 300, rfl⟩
abbrev main_call10_cst : Ref sig .tc := ⟨.hbm, 301, rfl⟩
abbrev main_call10_v0 : Ref sig .tc := ⟨.hbm, 302, rfl⟩
abbrev main_v147 : Ref sig .tc := ⟨.hbm, 303, rfl⟩
abbrev main_cst_23 : Ref sig .tc := ⟨.hbm, 304, rfl⟩
abbrev main_v148 : Ref sig .tc := ⟨.hbm, 305, rfl⟩
abbrev main_v149 : Ref sig .tc := ⟨.hbm, 306, rfl⟩
abbrev main_v150 : Ref sig .tc := ⟨.hbm, 307, rfl⟩
abbrev main_cst_24 : Ref sig .tc := ⟨.hbm, 308, rfl⟩
abbrev main_v151 : Ref sig .tc := ⟨.hbm, 309, rfl⟩
abbrev main_cst_25 : Ref sig .tc := ⟨.hbm, 310, rfl⟩
abbrev main_v152 : Ref sig .tc := ⟨.hbm, 311, rfl⟩
abbrev main_v153 : Ref sig .tc := ⟨.hbm, 312, rfl⟩
abbrev main_c_26 : Ref sig .tc := ⟨.hbm, 313, rfl⟩
abbrev main_call11_cst : Ref sig .tc := ⟨.hbm, 314, rfl⟩
abbrev main_call11_v0 : Ref sig .tc := ⟨.hbm, 315, rfl⟩
abbrev main_call11_v1 : Ref sig .tc := ⟨.hbm, 316, rfl⟩
abbrev main_call11_cst_0 : Ref sig .tc := ⟨.hbm, 317, rfl⟩
abbrev main_call11_v2 : Ref sig .tc := ⟨.hbm, 318, rfl⟩
abbrev main_call11_v3 : Ref sig .tc := ⟨.hbm, 319, rfl⟩
abbrev main_call11_v4 : Ref sig .tc := ⟨.hbm, 320, rfl⟩
abbrev main_call11_v5 : Ref sig .tc := ⟨.hbm, 321, rfl⟩
abbrev main_call11_v6 : Ref sig .tc := ⟨.hbm, 322, rfl⟩
abbrev main_call11_v7 : Ref sig .tc := ⟨.hbm, 323, rfl⟩
abbrev main_call11_cst_1 : Ref sig .tc := ⟨.hbm, 324, rfl⟩
abbrev main_call11_v8 : Ref sig .tc := ⟨.hbm, 325, rfl⟩
abbrev main_call11_cst_2 : Ref sig .tc := ⟨.hbm, 326, rfl⟩
abbrev main_call11_v9 : Ref sig .tc := ⟨.hbm, 327, rfl⟩
abbrev main_call11_v10 : Ref sig .tc := ⟨.hbm, 328, rfl⟩
abbrev main_call11_v11 : Ref sig .tc := ⟨.hbm, 329, rfl⟩
abbrev main_call11_cst_3 : Ref sig .tc := ⟨.hbm, 330, rfl⟩
abbrev main_call11_v12 : Ref sig .tc := ⟨.hbm, 331, rfl⟩
abbrev main_call11_cst_4 : Ref sig .tc := ⟨.hbm, 332, rfl⟩
abbrev main_call11_call0_v0 : Ref sig .tc := ⟨.hbm, 333, rfl⟩
abbrev main_call11_call0_v1 : Ref sig .tc := ⟨.hbm, 334, rfl⟩
abbrev main_v154 : Ref sig .tc := ⟨.hbm, 335, rfl⟩
abbrev main_v155 : Ref sig .tc := ⟨.hbm, 336, rfl⟩
abbrev main_v156 : Ref sig .tc := ⟨.hbm, 337, rfl⟩
abbrev main_v157 : Ref sig .tc := ⟨.hbm, 338, rfl⟩
abbrev main_cst_27 : Ref sig .tc := ⟨.hbm, 339, rfl⟩
abbrev main_v158 : Ref sig .tc := ⟨.hbm, 340, rfl⟩
abbrev main_v159 : Ref sig .tc := ⟨.hbm, 341, rfl⟩
abbrev main_v160 : Ref sig .tc := ⟨.hbm, 342, rfl⟩
abbrev main_v161 : Ref sig .tc := ⟨.hbm, 343, rfl⟩
abbrev main_v162 : Ref sig .tc := ⟨.hbm, 344, rfl⟩
abbrev main_v163 : Ref sig .tc := ⟨.hbm, 345, rfl⟩
abbrev main_v164 : Ref sig .tc := ⟨.hbm, 346, rfl⟩
abbrev main_v165 : Ref sig .tc := ⟨.hbm, 347, rfl⟩
abbrev main_v166 : Ref sig .tc := ⟨.hbm, 348, rfl⟩
abbrev main_v167 : Ref sig .tc := ⟨.hbm, 349, rfl⟩
abbrev main_v168 : Ref sig .tc := ⟨.hbm, 350, rfl⟩
abbrev main_v169 : Ref sig .tc := ⟨.hbm, 351, rfl⟩
abbrev main_v170 : Ref sig .tc := ⟨.hbm, 352, rfl⟩
abbrev main_v171 : Ref sig .tc := ⟨.hbm, 353, rfl⟩
abbrev main_v172 : Ref sig .tc := ⟨.hbm, 354, rfl⟩
abbrev main_v173 : Ref sig .tc := ⟨.hbm, 355, rfl⟩
abbrev main_call12_cst : Ref sig .tc := ⟨.hbm, 356, rfl⟩
abbrev main_call12_v0 : Ref sig .tc := ⟨.hbm, 357, rfl⟩
abbrev main_v174 : Ref sig .tc := ⟨.hbm, 358, rfl⟩
abbrev main_cst_28 : Ref sig .tc := ⟨.hbm, 359, rfl⟩
abbrev main_v175 : Ref sig .tc := ⟨.hbm, 360, rfl⟩
abbrev main_cst_29 : Ref sig .tc := ⟨.hbm, 361, rfl⟩
abbrev main_v176 : Ref sig .tc := ⟨.hbm, 362, rfl⟩
abbrev main_v177 : Ref sig .tc := ⟨.hbm, 363, rfl⟩
abbrev main_c_30 : Ref sig .tc := ⟨.hbm, 364, rfl⟩
abbrev main_call13_cst : Ref sig .tc := ⟨.hbm, 365, rfl⟩
abbrev main_call13_v0 : Ref sig .tc := ⟨.hbm, 366, rfl⟩
abbrev main_call13_v1 : Ref sig .tc := ⟨.hbm, 367, rfl⟩
abbrev main_call13_cst_0 : Ref sig .tc := ⟨.hbm, 368, rfl⟩
abbrev main_call13_v2 : Ref sig .tc := ⟨.hbm, 369, rfl⟩
abbrev main_call13_v3 : Ref sig .tc := ⟨.hbm, 370, rfl⟩
abbrev main_call13_v4 : Ref sig .tc := ⟨.hbm, 371, rfl⟩
abbrev main_call13_v5 : Ref sig .tc := ⟨.hbm, 372, rfl⟩
abbrev main_call13_v6 : Ref sig .tc := ⟨.hbm, 373, rfl⟩
abbrev main_call13_v7 : Ref sig .tc := ⟨.hbm, 374, rfl⟩
abbrev main_call13_cst_1 : Ref sig .tc := ⟨.hbm, 375, rfl⟩
abbrev main_call13_v8 : Ref sig .tc := ⟨.hbm, 376, rfl⟩
abbrev main_call13_cst_2 : Ref sig .tc := ⟨.hbm, 377, rfl⟩
abbrev main_call13_v9 : Ref sig .tc := ⟨.hbm, 378, rfl⟩
abbrev main_call13_v10 : Ref sig .tc := ⟨.hbm, 379, rfl⟩
abbrev main_call13_v11 : Ref sig .tc := ⟨.hbm, 380, rfl⟩
abbrev main_call13_cst_3 : Ref sig .tc := ⟨.hbm, 381, rfl⟩
abbrev main_call13_v12 : Ref sig .tc := ⟨.hbm, 382, rfl⟩
abbrev main_call13_cst_4 : Ref sig .tc := ⟨.hbm, 383, rfl⟩
abbrev main_call13_call0_v0 : Ref sig .tc := ⟨.hbm, 384, rfl⟩
abbrev main_call13_call0_v1 : Ref sig .tc := ⟨.hbm, 385, rfl⟩
abbrev main_v178 : Ref sig .tc := ⟨.hbm, 386, rfl⟩
abbrev main_v179 : Ref sig .tc := ⟨.hbm, 387, rfl⟩
abbrev main_v180 : Ref sig .tc := ⟨.hbm, 388, rfl⟩
abbrev main_v181 : Ref sig .tc := ⟨.hbm, 389, rfl⟩
abbrev main_cst_31 : Ref sig .tc := ⟨.hbm, 390, rfl⟩
abbrev main_v182 : Ref sig .tc := ⟨.hbm, 391, rfl⟩
abbrev main_v183 : Ref sig .tc := ⟨.hbm, 392, rfl⟩
abbrev main_v184 : Ref sig .tc := ⟨.hbm, 393, rfl⟩
abbrev main_v185 : Ref sig .tc := ⟨.hbm, 394, rfl⟩
abbrev main_v186 : Ref sig .tc := ⟨.hbm, 395, rfl⟩
abbrev main_v187 : Ref sig .tc := ⟨.hbm, 396, rfl⟩
abbrev main_v188 : Ref sig .tc := ⟨.hbm, 397, rfl⟩
abbrev main_v189 : Ref sig .tc := ⟨.hbm, 398, rfl⟩
abbrev main_v190 : Ref sig .tc := ⟨.hbm, 399, rfl⟩
abbrev main_v191 : Ref sig .tc := ⟨.hbm, 400, rfl⟩
abbrev main_v192 : Ref sig .tc := ⟨.hbm, 401, rfl⟩
abbrev main_v193 : Ref sig .tc := ⟨.hbm, 402, rfl⟩
abbrev main_v194 : Ref sig .tc := ⟨.hbm, 403, rfl⟩
abbrev main_v195 : Ref sig .tc := ⟨.hbm, 404, rfl⟩
abbrev main_v196 : Ref sig .tc := ⟨.hbm, 405, rfl⟩
abbrev main_v197 : Ref sig .tc := ⟨.hbm, 406, rfl⟩
abbrev main_call14_cst : Ref sig .tc := ⟨.hbm, 407, rfl⟩
abbrev main_call14_v0 : Ref sig .tc := ⟨.hbm, 408, rfl⟩
abbrev main_call14_cst_0 : Ref sig .tc := ⟨.hbm, 409, rfl⟩
abbrev main_call14_v1 : Ref sig .tc := ⟨.hbm, 410, rfl⟩
abbrev main_call14_v2 : Ref sig .tc := ⟨.hbm, 411, rfl⟩
abbrev main_call14_v3 : Ref sig .tc := ⟨.hbm, 412, rfl⟩
abbrev main_call14_v4 : Ref sig .tc := ⟨.hbm, 413, rfl⟩
abbrev main_call14_v5 : Ref sig .tc := ⟨.hbm, 414, rfl⟩
abbrev main_call14_v6 : Ref sig .tc := ⟨.hbm, 415, rfl⟩
abbrev main_call14_cst_1 : Ref sig .tc := ⟨.hbm, 416, rfl⟩
abbrev main_call14_v7 : Ref sig .tc := ⟨.hbm, 417, rfl⟩
abbrev main_call14_v8 : Ref sig .tc := ⟨.hbm, 418, rfl⟩
abbrev main_call14_v9 : Ref sig .tc := ⟨.hbm, 419, rfl⟩
abbrev main_call14_v10 : Ref sig .tc := ⟨.hbm, 420, rfl⟩
abbrev main_v198 : Ref sig .tc := ⟨.hbm, 421, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S50000x96 : S_.BroadcastsInDim S50000x96 (![] : Fin 0 → Fin S50000x96.rank)
  bcast_S_S800000 : S_.BroadcastsInDim S800000 (![] : Fin 0 → Fin S800000.rank)
  bcast_S800000_S800000x1_0 : S800000.BroadcastsInDim S800000x1 (![0] : Fin 1 → Fin S800000x1.rank)
  reducesTo_S50000x96_S96_d0 : S50000x96.ReducesTo [0] S96
  bcast_S_S96 : S_.BroadcastsInDim S96 (![] : Fin 0 → Fin S96.rank)
  bcast_S_S1x96 : S_.BroadcastsInDim S1x96 (![] : Fin 0 → Fin S1x96.rank)
  bcast_S_S512x96 : S_.BroadcastsInDim S512x96 (![] : Fin 0 → Fin S512x96.rank)
  bcast_S50000_S50000x1_0 : S50000.BroadcastsInDim S50000x1 (![0] : Fin 1 → Fin S50000x1.rank)
  reducesTo_S512x96_S96_d0 : S512x96.ReducesTo [0] S96
  bcast_S1x96_S512x96_0_1 : S1x96.BroadcastsInDim S512x96 (![0, 1] : Fin 2 → Fin S512x96.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  bcast_S_S512 : S_.BroadcastsInDim S512 (![] : Fin 0 → Fin S512.rank)
  bcast_S512_S512x1_0 : S512.BroadcastsInDim S512x1 (![0] : Fin 1 → Fin S512x1.rank)
  bcast_S512x1_S512x10_0_1 : S512x1.BroadcastsInDim S512x10 (![0, 1] : Fin 2 → Fin S512x10.rank)
  dot_S50000x128_S128x96_S50000x96_1_0_0_1_n_n_wf : DotDims.WF S50000x128 S128x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []
  scatter_S512x96_S50000x1_S50000x96_1_0_0_1_wf : ScatterDims.WF S512x96 S50000x1 S50000x96 [1] [0] [0] 1
  dot_S512x96_S96x96_S512x96_1_0_0_1_n_n_wf : DotDims.WF S512x96 S96x96 S512x96 [1] [0] [0] [1] [] []
  dot_S512x96_S96x10_S512x10_1_0_0_1_n_n_wf : DotDims.WF S512x96 S96x10 S512x10 [1] [0] [0] [1] [] []

variable [Facts₀]

def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def scatter_S512x96_S50000x1_S50000x96_1_0_0_1 : ScatterDims S512x96 S50000x1 S50000x96 where
  updateWindowDims := [1]
  insertedWindowDims := [0]
  scatterDimsToOperandDims := [0]
  indexVectorDim := 1
  wf := scatter_S512x96_S50000x1_S50000x96_1_0_0_1_wf
def dot_S512x96_S96x96_S512x96_1_0_0_1_n_n : DotDims S512x96 S96x96 S512x96 where
  lhsContracting := [1]
  rhsContracting := [0]
  lhsNonContracting := [0]
  rhsNonContracting := [1]
  lhsBatch := []
  rhsBatch := []
  wf := dot_S512x96_S96x96_S512x96_1_0_0_1_n_n_wf
def dot_S512x96_S96x10_S512x10_1_0_0_1_n_n : DotDims S512x96 S96x10 S512x10 where
  lhsContracting := [1]
  rhsContracting := [0]
  lhsNonContracting := [0]
  rhsNonContracting := [1]
  lhsBatch := []
  rhsBatch := []
  wf := dot_S512x96_S96x10_S512x10_1_0_0_1_n_n_wf

class Facts : Prop extends Facts₀ where

variable [Facts]
-- ==== Proof.Spec.lean ====
/-
  The layers of the network as functions on arrays of extended reals, entry by entry, generic in the extents.

  A dense layer on rows: an input row is first normalised per column by an affine map (a scale row and a shift row),
  possibly clamped at zero, multiplied by a weight matrix, shifted by a bias row and possibly clamped at zero again.
  A message-passing layer first adds the aggregated neighbour rows to each row and then applies a plain dense layer.
  Arrays are functions of multi-indices; `ix2 p k` is the index of row p, column k, and a row operand has the one row 0.
-/
import Idealize.ShloMosaic.PureOps.Ideal
import Idealize.ShloMosaic.Lib.ValueIdx

noncomputable section

open scoped BigOperators

namespace Cert.GNN

open Idealize.ShloMosaic Idealize.ShloMosaic.ValueIdx

variable {M K N : Nat}

/-- A two-axis array of extended reals. -/
abbrev Arr2 (M K : Nat) : Type := (⟨2, ![M, K]⟩ : Shape).Idx → EReal
/-- A one-axis array of extended reals. -/
abbrev Arr1 (K : Nat) : Type := (⟨1, ![K]⟩ : Shape).Idx → EReal

/-- Every entry of the array is a real number. -/
def IsReal {S : Shape} (a : S.Idx → EReal) : Prop := ∀ i, ∃ r : ℝ, a i = (r : EReal)

/-- Clamping from below at zero. -/
def relu (v : EReal) : EReal := max v 0

/-- The affine normalisation of entry (p, k): the entry times the column's scale plus the column's shift, scale and
    shift given as one-row arrays. -/
def affAt (x : Arr2 M K) (s t : Arr2 1 K) (p : Fin M) (k : Fin K) : EReal :=
  x (ix2 p k) * s (ix2 0 k) + t (ix2 0 k)

/-- The batch normalisation of entry (p, k) as the reference spells it: centre by the column mean `mu`, scale by the
    reciprocal square root `r` of the shifted column variance, then by the weight `w`, and add the offset `b`. -/
def bnAt (x : Arr2 M K) (mu r w b : Arr1 K) (p : Fin M) (k : Fin K) : EReal :=
  (x (ix2 p k) - mu (ix1 k)) * r (ix1 k) * w (ix1 k) + b (ix1 k)

/-- Normalise, multiply by the weights, add the bias row, clamp: relu (∑ₖ aff(x)(p,k) · W(k,c) + b(0,c)). -/
def affLinRelu (x : Arr2 M K) (s t : Arr2 1 K) (W : Arr2 K N) (b : Arr2 1 N) : Arr2 M N :=
  fun i => relu ((∑ k : Fin K, affAt x s t (i 0) k * W (ix2 k (i 1))) + b (ix2 0 (i 1)))

/-- Normalise, clamp, multiply by the weights, add the bias row, clamp. -/
def affReluLinRelu (x : Arr2 M K) (s t : Arr2 1 K) (W : Arr2 K N) (b : Arr2 1 N) : Arr2 M N :=
  fun i => relu ((∑ k : Fin K, relu (affAt x s t (i 0) k) * W (ix2 k (i 1))) + b (ix2 0 (i 1)))

/-- Normalise, multiply by the weights, add the bias row (no clamp). -/
def affLin (x : Arr2 M K) (s t : Arr2 1 K) (W : Arr2 K N) (b : Arr2 1 N) : Arr2 M N :=
  fun i => (∑ k : Fin K, affAt x s t (i 0) k * W (ix2 k (i 1))) + b (ix2 0 (i 1))

/-- Add the aggregated rows, multiply by the weights, add the bias row. -/
def sumLin (h a : Arr2 M K) (W : Arr2 K N) (b : Arr2 1 N) : Arr2 M N :=
  fun i => (∑ k : Fin K, (h (ix2 (i 0) k) + a (ix2 (i 0) k)) * W (ix2 k (i 1))) + b (ix2 0 (i 1))

end Cert.GNN

end
-- ==== Proof.LibMatRows.lean ====
/-
  A plain matrix product read at one entry.

  For operands of shapes [M, K] and [K, N] contracted over the left's columns and the right's rows, entry (p, c)
  of the product is the sum over k of left (p, k) times right (k, c).  At the ideal instance this holds both for a
  kernel's product accumulated into a zero array and for a host product, whatever precision or schedule is named:
  neither rounding nor summation order is left.  Everything is generic in the extents M, K, N.
-/
import Idealize.ShloMosaic.PureOps.Ideal
import Idealize.ShloMosaic.PureOps.Ideal.Laws
import Idealize.ShloMosaic.Lib.ValueIdx

noncomputable section

open scoped BigOperators

namespace Idealize.ShloMosaic.MatRows

open Idealize.ShloMosaic Idealize.ShloMosaic.ValueIdx

variable {M K N : Nat}

/-- The contraction index set of a plain product is its one coordinate, ranging over the shared extent. -/
abbrev contrFin (M K N : Nat) : (DotDims.plain M K N).contr.Idx ≃ Fin K :=
  contrEquiv1 (DotDims.plain M K N) K rfl rfl

/-- At result entry (p, c) and contraction position k the left operand is read at (p, k). -/
theorem plain_lhsIdx (p : Fin M) (c : Fin N) (k : Fin K) :
    (DotDims.plain M K N).lhsIdx (ix2 p c) ((contrFin M K N).symm k) = ix2 p k := by
  funext a
  refine Fin.ext ?_
  match a with
  | ⟨0, _⟩ => rfl
  | ⟨1, _⟩ =>
    exact ((DotDims.plain M K N).lhsIdx_val_of_single (cl := (1 : Fin 2)) rfl (ix2 p c) _).trans
      (contrEquiv1_symm_val (DotDims.plain M K N) K rfl rfl k)

/-- At result entry (p, c) and contraction position k the right operand is read at (k, c). -/
theorem plain_rhsIdx (p : Fin M) (c : Fin N) (k : Fin K) :
    (DotDims.plain M K N).rhsIdx (ix2 p c) ((contrFin M K N).symm k) = ix2 k c := by
  funext a
  refine Fin.ext ?_
  match a with
  | ⟨0, _⟩ =>
    exact ((DotDims.plain M K N).rhsIdx_val_of_single (cr := (0 : Fin 2)) rfl (ix2 p c) _).trans
      (contrEquiv1_symm_val (DotDims.plain M K N) K rfl rfl k)
  | ⟨1, _⟩ => rfl

/-- The contraction sum of a plain product, re-indexed by the shared extent. -/
theorem plain_sum (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrFin M K N).symm]
  exact Finset.sum_congr rfl fun k _ => by rw [plain_lhsIdx, plain_rhsIdx]

/-- A kernel's product into the zero array, at entry (p, c). -/
theorem matmul_plain_apply {φ₁ φ₂ : FTy} (prec : Option ContractPrecision)
    (l : FVec Ideal ⟨2, ![M, K]⟩ φ₁) (r : FVec Ideal ⟨2, ![K, N]⟩ φ₂) (p : Fin M) (c : Fin N) :
    matmul (DotDims.plain M K N) prec l r (constant (F := Ideal) ⟨2, ![M, N]⟩ .f32 0x00000000#32) (ix2 p c)
      = ∑ k : Fin K, l (ix2 p k) * r (ix2 k c) :=
  (Ideal.matmul_constant_zero_apply (DotDims.plain M K N) prec l r (ix2 p c)).trans (plain_sum l r p c)

/-- A host product, at entry (p, c). -/
theorem dotGeneral_plain_apply {φ₁ φ₂ : FTy} (prec : Option ContractPrecision)
    (l : FVec Ideal ⟨2, ![M, K]⟩ φ₁) (r : FVec Ideal ⟨2, ![K, N]⟩ φ₂) (p : Fin M) (c : Fin N) :
    (Host.dotGeneral (F := Ideal) (DotDims.plain M K N) prec l r : FVec Ideal ⟨2, ![M, N]⟩ .f32) (ix2 p c)
      = ∑ k : Fin K, l (ix2 p k) * r (ix2 k c) :=
  (Ideal.dotGeneral_apply (DotDims.plain M K N) prec _ l r (ix2 p c)).trans (plain_sum l r p c)

end Idealize.ShloMosaic.MatRows

end
-- ==== Proof.RegAffCommon.lean ====
/-
  The dense layers of the network as a kernel computes them on a block of rows, read at one entry.

  A block of rows is normalised column by column (times a scale row, plus a shift row, both rows repeated down the
  block), perhaps clamped from below at zero, multiplied into a weight matrix with the product accumulated from the zero
  array, shifted by a bias row repeated down the block and clamped from below at zero.  On the way the operands of the
  product pass through a change of float format and the rows through a reshape to their own shape; at the ideal instance
  neither changes a value, and a product is the plain sum of products.

  Entry (r, q) of the result depends on row r of the block, on column q of the weight matrix and on the rows only.  So
  when row r of the block is row n of a taller array, the entry is the layer's formula on the taller array at (n, q).
  The lemmas below say this with and without the inner clamp, generically in the extents (Mb rows in a block, Mt rows in
  the taller array, K columns, N output columns).
-/
import proofs.«132872_j8993661518249_1_alg».proof.Proof.Spec
import proofs.«132872_j8993661518249_1_alg».proof.Proof.LibMatRows
import Idealize.ShloMosaic.Lib.ValueLayout
import Idealize.ShloMosaic.Lib.Pipeline.Value

noncomputable section

open scoped BigOperators

namespace Cert.GNN.AffRows

open Cert.GNN Idealize.ShloMosaic Idealize.ShloMosaic.ValueIdx Idealize.ShloMosaic.MatRows

variable {Mb Mt K N : Nat}

/-- The offsets of a rectangle that starts at the origin of a two-axis array. -/
theorem off_zero : (![0, 0] : Fin 2 → Nat) = fun _ => 0 := funext fun a => by fin_cases a <;> rfl

/-- The maximum with the number the zero word denotes is the clamp from below at zero. -/
theorem clamp_zero (v : EReal) :
    FloatOps.maximumf (F := Ideal) (φ := .f32) v (Scalar.ofBits (F := Ideal) .f32 0x00000000#32) = relu v := by
  show max v (Ideal.ofBits .f32 0x00000000#32) = max v 0
  rw [Ideal.ofBits_zero_f32]

/-- A one-row array, through a reshape to its own shape, repeated down the rows: at entry (r, k) its entry k. -/
theorem row_entry {A : Nat} (hs : (⟨2, ![1, K]⟩ : Shape).ShapeCasts ⟨2, ![1, K]⟩)
    (hb : (⟨2, ![1, K]⟩ : Shape).Broadcasts ⟨2, ![A, K]⟩) (s : FVec Ideal ⟨2, ![1, K]⟩ .f32) (r : Fin A) (k : Fin K) :
    broadcastTo ⟨2, ![A, K]⟩ (shapeCast ⟨2, ![1, K]⟩ s hs) hb (ix2 r k) = s (ix2 (0 : Fin 1) k) := by
  rw [shapeCast_self s hs, broadcastTo_1b_ab_apply]

/-- The normalisation of a block: at entry (r, k) the entry times the column's scale plus the column's shift. -/
theorem norm_entry (hs : (⟨2, ![1, K]⟩ : Shape).ShapeCasts ⟨2, ![1, K]⟩)
    (hb : (⟨2, ![1, K]⟩ : Shape).Broadcasts ⟨2, ![Mb, K]⟩)
    (x : FVec Ideal ⟨2, ![Mb, K]⟩ .f32) (s t : FVec Ideal ⟨2, ![1, K]⟩ .f32) (r : Fin Mb) (k : Fin K) :
    addf (mulf x (broadcastTo ⟨2, ![Mb, K]⟩ (shapeCast ⟨2, ![1, K]⟩ s hs) hb))
        (broadcastTo ⟨2, ![Mb, K]⟩ (shapeCast ⟨2, ![1, K]⟩ t hs) hb) (ix2 r k)
      = x (ix2 r k) * s (ix2 (0 : Fin 1) k) + t (ix2 (0 : Fin 1) k) := by
  show x (ix2 r k) * broadcastTo ⟨2, ![Mb, K]⟩ (shapeCast ⟨2, ![1, K]⟩ s hs) hb (ix2 r k)
      + broadcastTo ⟨2, ![Mb, K]⟩ (shapeCast ⟨2, ![1, K]⟩ t hs) hb (ix2 r k) = _
  rw [row_entry hs hb s r k, row_entry hs hb t r k]

/-- Normalise, multiply, add the bias row, clamp: entry (r, q) of the block's result is the layer's formula at (n, q) on the
    taller array whose row n is the block's row r. -/
theorem affLinRelu_block_entry (ht1 ht2 : FTy.bf16.bits < FTy.f32.bits)
    (hs : (⟨2, ![1, K]⟩ : Shape).ShapeCasts ⟨2, ![1, K]⟩) (hb : (⟨2, ![1, K]⟩ : Shape).Broadcasts ⟨2, ![Mb, K]⟩)
    (hsN : (⟨2, ![1, N]⟩ : Shape).ShapeCasts ⟨2, ![1, N]⟩) (hbN : (⟨2, ![1, N]⟩ : Shape).Broadcasts ⟨2, ![Mb, N]⟩)
    (x : FVec Ideal ⟨2, ![Mb, K]⟩ .f32) (s t : FVec Ideal ⟨2, ![1, K]⟩ .f32) (w : FVec Ideal ⟨2, ![K, N]⟩ .f32)
    (b : FVec Ideal ⟨2, ![1, N]⟩ .f32)
    (X : Arr2 Mt K) (S T : Arr2 1 K) (W : Arr2 K N) (B : Arr2 1 N) (r : Fin Mb) (n : Fin Mt) (q : Fin N)
    (hX : ∀ k : Fin K, x (ix2 r k) = X (ix2 n k)) (hS : ∀ k : Fin K, s (ix2 (0 : Fin 1) k) = S (ix2 (0 : Fin 1) k))
    (hT : ∀ k : Fin K, t (ix2 (0 : Fin 1) k) = T (ix2 (0 : Fin 1) k)) (hW : ∀ k : Fin K, w (ix2 k q) = W (ix2 k q))
    (hB : b (ix2 (0 : Fin 1) q) = B (ix2 (0 : Fin 1) q)) :
    maximumf (addf (matmul (DotDims.plain Mb K N) none
          (truncf .bf16 (addf (mulf x (broadcastTo ⟨2, ![Mb, K]⟩ (shapeCast ⟨2, ![1, K]⟩ s hs) hb))
            (broadcastTo ⟨2, ![Mb, K]⟩ (shapeCast ⟨2, ![1, K]⟩ t hs) hb)) ht1)
          (truncf .bf16 w ht2) (constant (F := Ideal) ⟨2, ![Mb, N]⟩ .f32 0x00000000#32))
        (broadcastTo ⟨2, ![Mb, N]⟩ (shapeCast ⟨2, ![1, N]⟩ b hsN) hbN))
      (broadcast ⟨2, ![Mb, N]⟩ (Scalar.ofBits (F := Ideal) .f32 0x00000000#32)) (ix2 r q)
      = affLinRelu X S T W B (ix2 n q) := by
  show FloatOps.maximumf (F := Ideal) (φ := .f32)
      (matmul (DotDims.plain Mb K N) none _ _ _ (ix2 r q)
        + broadcastTo ⟨2, ![Mb, N]⟩ (shapeCast ⟨2, ![1, N]⟩ b hsN) hbN (ix2 r q))
      (Scalar.ofBits (F := Ideal) .f32 0x00000000#32) = _
  rw [clamp_zero, row_entry hsN hbN b r q, hB, matmul_plain_apply]
  show relu (_ + B (ix2 (0 : Fin 1) q)) = relu ((∑ k : Fin K, affAt X S T n k * W (ix2 k q)) + B (ix2 (0 : Fin 1) q))
  refine congrArg (fun z => relu (z + B (ix2 (0 : Fin 1) q))) (Finset.sum_congr rfl fun k _ => ?_)
  show addf (mulf x (broadcastTo ⟨2, ![Mb, K]⟩ (shapeCast ⟨2, ![1, K]⟩ s hs) hb))
        (broadcastTo ⟨2, ![Mb, K]⟩ (shapeCast ⟨2, ![1, K]⟩ t hs) hb) (ix2 r k) * w (ix2 k q) = _
  rw [norm_entry hs hb x s t r k, hX k, hS k, hT k, hW k]
  rfl

/-- Normalise, clamp, multiply, add the bias row, clamp: entry (r, q) of the block's result is the layer's formula at (n, q)
    on the taller array whose row n is the block's row r. -/
theorem affReluLinRelu_block_entry (ht1 ht2 : FTy.bf16.bits < FTy.f32.bits)
    (hs : (⟨2, ![1, K]⟩ : Shape).ShapeCasts ⟨2, ![1, K]⟩) (hb : (⟨2, ![1, K]⟩ : Shape).Broadcasts ⟨2, ![Mb, K]⟩)
    (hsN : (⟨2, ![1, N]⟩ : Shape).ShapeCasts ⟨2, ![1, N]⟩) (hbN : (⟨2, ![1, N]⟩ : Shape).Broadcasts ⟨2, ![Mb, N]⟩)
    (x : FVec Ideal ⟨2, ![Mb, K]⟩ .f32) (s t : FVec Ideal ⟨2, ![1, K]⟩ .f32) (w : FVec Ideal ⟨2, ![K, N]⟩ .f32)
    (b : FVec Ideal ⟨2, ![1, N]⟩ .f32)
    (X : Arr2 Mt K) (S T : Arr2 1 K) (W : Arr2 K N) (B : Arr2 1 N) (r : Fin Mb) (n : Fin Mt) (q : Fin N)
    (hX : ∀ k : Fin K, x (ix2 r k) = X (ix2 n k)) (hS : ∀ k : Fin K, s (ix2 (0 : Fin 1) k) = S (ix2 (0 : Fin 1) k))
    (hT : ∀ k : Fin K, t (ix2 (0 : Fin 1) k) = T (ix2 (0 : Fin 1) k)) (hW : ∀ k : Fin K, w (ix2 k q) = W (ix2 k q))
    (hB : b (ix2 (0 : Fin 1) q) = B (ix2 (0 : Fin 1) q)) :
    maximumf (addf (matmul (DotDims.plain Mb K N) none
          (truncf .bf16 (maximumf (addf (mulf x (broadcastTo ⟨2, ![Mb, K]⟩ (shapeCast ⟨2, ![1, K]⟩ s hs) hb))
              (broadcastTo ⟨2, ![Mb, K]⟩ (shapeCast ⟨2, ![1, K]⟩ t hs) hb))
            (broadcast ⟨2, ![Mb, K]⟩ (Scalar.ofBits (F := Ideal) .f32 0x00000000#32))) ht1)
          (truncf .bf16 w ht2) (constant (F := Ideal) ⟨2, ![Mb, N]⟩ .f32 0x00000000#32))
        (broadcastTo ⟨2, ![Mb, N]⟩ (shapeCast ⟨2, ![1, N]⟩ b hsN) hbN))
      (broadcast ⟨2, ![Mb, N]⟩ (Scalar.ofBits (F := Ideal) .f32 0x00000000#32)) (ix2 r q)
      = affReluLinRelu X S T W B (ix2 n q) := by
  show FloatOps.maximumf (F := Ideal) (φ := .f32)
      (matmul (DotDims.plain Mb K N) none _ _ _ (ix2 r q)
        + broadcastTo ⟨2, ![Mb, N]⟩ (shapeCast ⟨2, ![1, N]⟩ b hsN) hbN (ix2 r q))
      (Scalar.ofBits (F := Ideal) .f32 0x00000000#32) = _
  rw [clamp_zero, row_entry hsN hbN b r q, hB, matmul_plain_apply]
  show relu (_ + B (ix2 (0 : Fin 1) q))
      = relu ((∑ k : Fin K, relu (affAt X S T n k) * W (ix2 k q)) + B (ix2 (0 : Fin 1) q))
  refine congrArg (fun z => relu (z + B (ix2 (0 : Fin 1) q))) (Finset.sum_congr rfl fun k _ => ?_)
  show FloatOps.maximumf (F := Ideal) (φ := .f32)
      (addf (mulf x (broadcastTo ⟨2, ![Mb, K]⟩ (shapeCast ⟨2, ![1, K]⟩ s hs) hb))
        (broadcastTo ⟨2, ![Mb, K]⟩ (shapeCast ⟨2, ![1, K]⟩ t hs) hb) (ix2 r k))
      (Scalar.ofBits (F := Ideal) .f32 0x00000000#32) * w (ix2 k q) = _
  rw [clamp_zero, norm_entry hs hb x s t r k, hX k, hS k, hT k, hW k]
  rfl

end Cert.GNN.AffRows

end
-- ==== Proof.Reg0.lean ====
/-
  A dense layer of the network as the run of its launch leaves it in the result array.

  The launch walks the 50000 rows in 25 blocks of 2000 rows.  At each block it normalises the block's rows column by column, multiplies them into the weight matrix, adds the bias row and clamps
  from below at zero, and writes the block back.  Block t of the rows operand is rows 2000 t … 2000 t + 1999 of its array; the scale,
  shift and bias rows and the weight matrix are read whole at every block; block t of the result goes to rows
  2000 t … 2000 t + 1999 of the result array.  So what each point writes back is a block of ONE function of the whole
  arrays, the layer's formula entry by entry; the 25 blocks cover the result array; and the array ends holding that
  function of the arrays as the launch found them.
-/
import proofs.«132872_j8993661518249_1_alg».proof.Proof.Gen.KernelIdeal.Frame
import proofs.«132872_j8993661518249_1_alg».proof.Proof.RegAffCommon

set_option maxRecDepth 16384

noncomputable section

open Idealize.ShloMosaic Idealize.ShloMosaic.TcCoe Idealize.ShloMosaic.ValueIdx Idealize.SL.Sem
open Idealize.ShloMosaic.Pipeline (Dat)

namespace Cert.KernelIdeal.RegVal

open Cert.KernelIdeal Cert.KernelIdeal.Gen Cert.GNN.AffRows

variable (V : (c : Dev nD) → (b : Ref sig .tc) → Buf (Elt Ideal) ((c : Thread nD τ).loc b))

/-- The body's result at an entry: when row r of the rows block is row n of the array X, and the other blocks hold the
    arrays S, T, W, B where the entry reads them, the layer's formula on the arrays at (n, q). -/
theorem pay0_entry (x0 : Vec Ideal S2000x128 .f32) (x1 x2 : Vec Ideal S1x128 .f32) (x3 : Vec Ideal S128x96 .f32)
    (x4 : Vec Ideal S1x96 .f32)
    (X : Cert.GNN.Arr2 50000 128) (S T : Cert.GNN.Arr2 1 128) (W : Cert.GNN.Arr2 128 96) (B : Cert.GNN.Arr2 1 96)
    (j : S2000x96.Idx) (r : Fin 2000) (q : Fin 96) (hj : j = ix2 r q) (n : Fin 50000)
    (hX : ∀ k : Fin 128, x0 (ix2 r k) = X (ix2 n k))
    (hS : ∀ k : Fin 128, x1 (ix2 (0 : Fin 1) k) = S (ix2 (0 : Fin 1) k))
    (hT : ∀ k : Fin 128, x2 (ix2 (0 : Fin 1) k) = T (ix2 (0 : Fin 1) k))
    (hW : ∀ k : Fin 128, x3 (ix2 k q) = W (ix2 k q))
    (hB : x4 (ix2 (0 : Fin 1) q) = B (ix2 (0 : Fin 1) q)) :
    k0_pay1 (F := Ideal) x0 x1 x2 x3 x4 j = Cert.GNN.affLinRelu X S T W B (ix2 n q) := by
  subst hj
  unfold k0_pay1
  exact affLinRelu_block_entry (Mb := 2000) (Mt := 50000) (K := 128) (N := 96) _ _ _ _ _ _ x0 x1 x2 x3 x4 X S T W B r n q
    hX hS hT hW hB

/-- The printed index maps, decided over the grid: the rows operand and the result move one block of rows per point,
    the rows and the weight matrix stay at their one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

set_option maxHeartbeats 2000000 in
/-- WHAT POINT t WRITES BACK is block t of the layer's formula on the arrays as the launch finds them. -/
theorem flushed0_eq (c : Dev nD) (t : Fin cfg0.N) :
    (dat0 (F := Ideal) V c).flushed 5 t = ((cfg0.win 5).blk t).view.read (Elt Ideal)
      (Cert.GNN.affLinRelu (M := 50000) (K := 128) (N := 96) (V c (Pipeline.arrRef spec0 0)) (V c (Pipeline.arrRef spec0 1))
        (V c (Pipeline.arrRef spec0 2)) (V c (Pipeline.arrRef spec0 3)) (V c (Pipeline.arrRef spec0 4))) := by
  show (cfg0.win 5).cut (grid0.coords t) ((dat0 V c).after 5 t) = _
  rw [after0_5]
  unfold out0_5
  rw [View.canon_unit_zero off_zero]
  simp only [View.ld_unit_zero (S := S2000x128) off_zero, View.ld_unit_zero (S := S1x128) off_zero,
    View.ld_unit_zero (S := S128x96) off_zero, View.ld_unit_zero (S := S1x96) off_zero]
  obtain ⟨e00, e01, e10, e11, e20, e21, e30, e31, e40, e41, e50, e51⟩ := idx_facts0 t
  have ht : t.val < 25 := lt_of_lt_of_eq t.isLt N_0
  funext j
  have hj0 : (j 0).val < 2000 := (j 0).isLt
  have hj1 : (j 1).val < 96 := (j 1).isLt
  rw [View.read_apply]
  refine (pay0_entry (iblk0 V c 0 t) (iblk0 V c 1 t) (iblk0 V c 2 t) (iblk0 V c 3 t) (iblk0 V c 4 t)
    (V c (Pipeline.arrRef spec0 0)) (V c (Pipeline.arrRef spec0 1)) (V c (Pipeline.arrRef spec0 2))
    (V c (Pipeline.arrRef spec0 3)) (V c (Pipeline.arrRef spec0 4))
    ((cfg0.win 5).xinj (grid0.coords t) j) ⟨(j 0).val, hj0⟩ ⟨(j 1).val, hj1⟩
    (funext fun a => match a with | ⟨0, _⟩ => rfl | ⟨1, _⟩ => rfl)
    ⟨t.val * 2000 + (j 0).val, by omega⟩ (fun k => ?_) (fun k => ?_) (fun k => ?_) (fun k => ?_) ?_).trans ?_
  · show V c (Pipeline.arrRef spec0 0) (((cfg0.win 0).blk t).view.emb (ix2 ⟨(j 0).val, hj0⟩ k)) = _
    refine congrArg (V c (Pipeline.arrRef spec0 0)) (funext fun a => Fin.ext ?_)
    match a with
    | ⟨0, _⟩ => show win0_0.index t (0 : Fin 2) * 2000 + 1 * (j 0).val = t.val * 2000 + (j 0).val; rw [e00]; omega
    | ⟨1, _⟩ => show win0_0.index t (1 : Fin 2) * 128 + 1 * k.val = k.val; rw [e01]; omega
  · show V c (Pipeline.arrRef spec0 1) (((cfg0.win 1).blk t).view.emb (ix2 (0 : Fin 1) k)) = _
    refine congrArg (V c (Pipeline.arrRef spec0 1)) (funext fun a => Fin.ext ?_)
    match a with
    | ⟨0, _⟩ => show win0_1.index t (0 : Fin 2) * 1 + 1 * 0 = 0; rw [e10]
    | ⟨1, _⟩ => show win0_1.index t (1 : Fin 2) * 128 + 1 * k.val = k.val; rw [e11]; omega
  · show V c (Pipeline.arrRef spec0 2) (((cfg0.win 2).blk t).view.emb (ix2 (0 : Fin 1) k)) = _
    refine congrArg (V c (Pipeline.arrRef spec0 2)) (funext fun a => Fin.ext ?_)
    match a with
    | ⟨0, _⟩ => show win0_2.index t (0 : Fin 2) * 1 + 1 * 0 = 0; rw [e20]
    | ⟨1, _⟩ => show win0_2.index t (1 : Fin 2) * 128 + 1 * k.val = k.val; rw [e21]; omega
  · show V c (Pipeline.arrRef spec0 3) (((cfg0.win 3).blk t).view.emb (ix2 k ⟨(j 1).val, hj1⟩)) = _
    refine congrArg (V c (Pipeline.arrRef spec0 3)) (funext fun a => Fin.ext ?_)
    match a with
    | ⟨0, _⟩ => show win0_3.index t (0 : Fin 2) * 128 + 1 * k.val = k.val; rw [e30]; omega
    | ⟨1, _⟩ => show win0_3.index t (1 : Fin 2) * 96 + 1 * (j 1).val = (j 1).val; rw [e31]; omega
  · show V c (Pipeline.arrRef spec0 4) (((cfg0.win 4).blk t).view.emb (ix2 (0 : Fin 1) ⟨(j 1).val, hj1⟩)) = _
    refine congrArg (V c (Pipeline.arrRef spec0 4)) (funext fun a => Fin.ext ?_)
    match a with
    | ⟨0, _⟩ => show win0_4.index t (0 : Fin 2) * 1 + 1 * 0 = 0; rw [e40]
    | ⟨1, _⟩ => show win0_4.index t (1 : Fin 2) * 96 + 1 * (j 1).val = (j 1).val; rw [e41]; omega
  · refine congrArg (Cert.GNN.affLinRelu (M := 50000) (K := 128) (N := 96) (V c (Pipeline.arrRef spec0 0))
      (V c (Pipeline.arrRef spec0 1)) (V c (Pipeline.arrRef spec0 2)) (V c (Pipeline.arrRef spec0 3))
      (V c (Pipeline.arrRef spec0 4))) (funext fun a => Fin.ext ?_)
    match a with
    | ⟨0, _⟩ => show t.val * 2000 + (j 0).val = win0_5.index t (0 : Fin 2) * 2000 + 1 * (j 0).val; rw [e50]; omega
    | ⟨1, _⟩ => show (j 1).val = win0_5.index t (1 : Fin 2) * 96 + 1 * (j 1).val; rw [e51]; omega

/-- An index of the result array is in point t's block iff each coordinate is in the block's range on its axis. -/
theorem mem_blk0 (t : Fin cfg0.N) (i : S50000x96.Idx) :
    i ∈ ((cfg0.win 5).blk t).view.set ↔ ∀ a : Fin 2, win0_5.index t a * S2000x96.size a ≤ (i a).val
      ∧ (i a).val < win0_5.index t a * S2000x96.size a + S2000x96.size a := by
  show i ∈ ((View.whole main_v17).slice (win0_5.rect t)).set ↔ _
  rw [View.set_slice_whole, Rect.mem_set_unit]
  exact Iff.rfl

/-- Every index of the result array is in the block of the point its row falls to. -/
theorem cover0 (i : S50000x96.Idx) :
    ∃ t : Fin cfg0.N, (cfg0.win 5).flush t = true ∧ i ∈ ((cfg0.win 5).blk t).view.set := by
  have hi0 : (i 0).val < 50000 := (i 0).isLt
  have hi1 : (i 1).val < 96 := (i 1).isLt
  obtain ⟨t, ht⟩ : ∃ t : Fin cfg0.N, t.val = (i 0).val / 2000 :=
    ⟨⟨(i 0).val / 2000, lt_of_lt_of_eq (by omega : (i 0).val / 2000 < 25) N_0.symm⟩, rfl⟩
  obtain ⟨-, -, -, -, -, -, -, -, -, -, e50, e51⟩ := idx_facts0 t
  refine ⟨t, flush0_5 t, ?_⟩
  rw [mem_blk0]
  intro a
  match a with
  | ⟨0, _⟩ =>
    show win0_5.index t (0 : Fin 2) * 2000 ≤ (i 0).val ∧ (i 0).val < win0_5.index t (0 : Fin 2) * 2000 + 2000
    rw [e50, ht]; omega
  | ⟨1, _⟩ =>
    show win0_5.index t (1 : Fin 2) * 96 ≤ (i 1).val ∧ (i 1).val < win0_5.index t (1 : Fin 2) * 96 + 96
    rw [e51]; omega

/-- THE RESULT ARRAY after the launch's run: the layer's formula on the arrays as the launch found them. -/
theorem final0 (c : Dev nD) :
    (Gen.dat0 (F := Ideal) V c).arrAt 5 cfg0.N
      = Cert.GNN.affLinRelu (M := 50000) (K := 128) (N := 96) (V c (Pipeline.arrRef spec0 0)) (V c (Pipeline.arrRef spec0 1))
        (V c (Pipeline.arrRef spec0 2)) (V c (Pipeline.arrRef spec0 3)) (V c (Pipeline.arrRef spec0 4)) :=
  (dat0 V c).arrAt_eq_of_cover 5 _ (fun t _ => flushed0_eq V c t) (cover0)

end Cert.KernelIdeal.RegVal

end
-- ==== Proof.LibHostLayout.lean ====
/-
  Host layout operations read at one entry.

  A host program moves arrays between shapes without computing anything: it broadcasts a scalar, a vector or a
  one-column / one-row matrix to a larger shape, reshapes a vector into a one-row matrix, cuts a band of rows out of
  a matrix, and lays matrices side by side along the columns. Each such operation, read at ONE index of its result,
  is its operand read at one index; the lemmas below name that index for rank 1 and rank 2 shapes of arbitrary
  extents, with the indices written by their coordinates. On an operand axis of extent one a broadcast reads
  coordinate 0, which is also the only coordinate there is, so the statements hold at extent one too. Nothing here
  enumerates an index type: every proof is coordinate arithmetic.
-/
import Idealize.ShloMosaic.PureOps.Ideal
import Idealize.ShloMosaic.Lib.ValueIdx
import Idealize.ShloMosaic.Lib.Pipeline.Value

namespace Cert.HostLayout

open Idealize.ShloMosaic Idealize.ShloMosaic.ValueIdx

variable {α : Type}

/-- A coordinate below an extent is itself, and is 0 when the extent is one. -/
theorem val_eq_ite {n : Nat} (k : Fin n) : k.val = if n = 1 then 0 else k.val := by
  have := k.isLt
  split <;> omega

/-! ## Broadcasts -/

/-- A scalar broadcast to any shape reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- A vector of N entries made a column [N, 1]: entry (n, 0) is entry n. -/
theorem bcast_col_apply {N : Nat} (h : (⟨1, ![N]⟩ : Shape).BroadcastsInDim ⟨2, ![N, 1]⟩ (![0] : Fin 1 → Fin 2))
    (x : (⟨1, ![N]⟩ : Shape).Idx → α) (n : Fin N) (z : Fin 1) :
    broadcastInDim ⟨2, ![N, 1]⟩ ![0] h x (ix2 n z) = x (ix1 n) := by
  refine broadcastInDim_apply ![0] h x (ix2 n z) (ix1 n) ?_
  intro a
  match a with
  | ⟨0, _⟩ => exact val_eq_ite n

/-- A column [N, 1] repeated along C columns: entry (n, q) is the column's entry (n, 0). -/
theorem bcast_rows_apply {N C : Nat} (h : (⟨2, ![N, 1]⟩ : Shape).BroadcastsInDim ⟨2, ![N, C]⟩ (![0, 1] : Fin 2 → Fin 2))
    (x : (⟨2, ![N, 1]⟩ : Shape).Idx → α) (n : Fin N) (q : Fin C) :
    broadcastInDim ⟨2, ![N, C]⟩ ![0, 1] h x (ix2 n q) = x (ix2 n (0 : Fin 1)) := by
  refine broadcastInDim_apply ![0, 1] h x (ix2 n q) (ix2 n (0 : Fin 1)) ?_
  intro a
  match a with
  | ⟨0, _⟩ => exact val_eq_ite n
  | ⟨1, _⟩ => exact (if_pos rfl).symm

/-- A vector of C entries made a row [1, C]: entry (0, q) is entry q. -/
theorem bcast_rowvec_apply {C : Nat} (h : (⟨1, ![C]⟩ : Shape).BroadcastsInDim ⟨2, ![1, C]⟩ (![1] : Fin 1 → Fin 2))
    (x : (⟨1, ![C]⟩ : Shape).Idx → α) (z : Fin 1) (q : Fin C) :
    broadcastInDim ⟨2, ![1, C]⟩ ![1] h x (ix2 z q) = x (ix1 q) := by
  refine broadcastInDim_apply ![1] h x (ix2 z q) (ix1 q) ?_
  intro a
  match a with
  | ⟨0, _⟩ => exact val_eq_ite q

/-- A row [1, C] repeated down R rows: entry (r, q) is the row's entry (0, q). -/
theorem bcast_cols_apply {R C : Nat} (h : (⟨2, ![1, C]⟩ : Shape).BroadcastsInDim ⟨2, ![R, C]⟩ (![0, 1] : Fin 2 → Fin 2))
    (x : (⟨2, ![1, C]⟩ : Shape).Idx → α) (r : Fin R) (q : Fin C) :
    broadcastInDim ⟨2, ![R, C]⟩ ![0, 1] h x (ix2 r q) = x (ix2 (0 : Fin 1) q) := by
  refine broadcastInDim_apply ![0, 1] h x (ix2 r q) (ix2 (0 : Fin 1) q) ?_
  intro a
  match a with
  | ⟨0, _⟩ => exact (if_pos rfl).symm
  | ⟨1, _⟩ => exact val_eq_ite q

/-! ## A reshape and a slice -/

/-- A vector of C entries reshaped to a row [1, C]: the row-major positions of (0, q) and of q agree. -/
theorem reshape_rowvec_apply {C : Nat} (h : (⟨1, ![C]⟩ : Shape).ShapeCasts ⟨2, ![1, C]⟩)
    (x : (⟨1, ![C]⟩ : Shape).Idx → α) (z : Fin 1) (q : Fin C) :
    shapeCast ⟨2, ![1, C]⟩ x h (ix2 z q) = x (ix1 q) := by
  refine shapeCast_apply x h (ix2 z q) (ix1 q) ?_
  rw [Shape.rowMajor_val_one, Shape.rowMajor_val_two]
  obtain rfl : z = 0 := Subsingleton.elim _ _
  show q.val = 0 * C + q.val
  omega

/-- A band of K1 rows of a [K, C] matrix starting at row `off`: entry (k, q) of the band is entry (off + k, q). -/
theorem slice_rows_apply {K K1 C : Nat} (off : Nat) (h : (⟨2, ![K, C]⟩ : Shape).Slices ![off, 0] ⟨2, ![K1, C]⟩)
    (x : (⟨2, ![K, C]⟩ : Shape).Idx → α) (k : Fin K1) (q : Fin C) (hk : off + k.val < K) :
    extractStridedSlice ⟨2, ![K1, C]⟩ ![off, 0] x h (ix2 k q) = x (ix2 ⟨off + k.val, hk⟩ q) := by
  refine extractStridedSlice_apply ![off, 0] x h (ix2 k q) (ix2 ⟨off + k.val, hk⟩ q) ?_
  intro a
  match a with
  | ⟨0, _⟩ => rfl
  | ⟨1, _⟩ => exact (Nat.zero_add _).symm

/-! ## Matrices laid side by side along the columns -/

/-- Three matrices of R rows side by side: a column of the first block reads the first matrix. -/
theorem concat3_apply_fst {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K1) :
    concatenate ⟨2, ![R, K1 + K2 + K3]⟩ 1 [⟨_, x1⟩, ⟨_, x2⟩, ⟨_, x3⟩] h (ix2 r (Fin.castAdd K3 (Fin.castAdd K2 k)))
      = x1 (ix2 r k) := by
  refine concatenate_apply_piece (t := ⟨2, ![R, K1 + K2 + K3]⟩) (1 : Fin 2) [⟨_, x1⟩, ⟨_, x2⟩, ⟨_, x3⟩] h _
    0 (by show 0 < 3; omega) _ x1 rfl rfl 0 rfl (ix2 r k) ?_ ?_
  · intro b hb
    match b, hb with
    | ⟨0, _⟩, _ => rfl
    | ⟨1, _⟩, hb => exact absurd rfl hb
  · show 0 + k.val = k.val
    omega

/-- Three matrices of R rows side by side: a column of the second block reads the second matrix. -/
theorem concat3_apply_snd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K2) :
    concatenate ⟨2, ![R, K1 + K2 + K3]⟩ 1 [⟨_, x1⟩, ⟨_, x2⟩, ⟨_, x3⟩] h (ix2 r (Fin.castAdd K3 (Fin.natAdd K1 k)))
      = x2 (ix2 r k) := by
  refine concatenate_apply_piece (t := ⟨2, ![R, K1 + K2 + K3]⟩) (1 : Fin 2) [⟨_, x1⟩, ⟨_, x2⟩, ⟨_, x3⟩] h _
    1 (by show 1 < 3; omega) _ x2 rfl rfl K1 rfl (ix2 r k) ?_ ?_
  · intro b hb
    match b, hb with
    | ⟨0, _⟩, _ => rfl
    | ⟨1, _⟩, hb => exact absurd rfl hb
  · show K1 + k.val = K1 + k.val
    rfl

/-- Three matrices of R rows side by side: a column of the third block reads the third matrix. -/
theorem concat3_apply_trd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K3) :
    concatenate ⟨2, ![R, K1 + K2 + K3]⟩ 1 [⟨_, x1⟩, ⟨_, x2⟩, ⟨_, x3⟩] h (ix2 r (Fin.natAdd (K1 + K2) k))
      = x3 (ix2 r k) := by
  refine concatenate_apply_piece (t := ⟨2, ![R, K1 + K2 + K3]⟩) (1 : Fin 2) [⟨_, x1⟩, ⟨_, x2⟩, ⟨_, x3⟩] h _
    2 (by show 2 < 3; omega) _ x3 rfl rfl (K1 + K2) rfl (ix2 r k) ?_ ?_
  · intro b hb
    match b, hb with
    | ⟨0, _⟩, _ => rfl
    | ⟨1, _⟩, hb => exact absurd rfl hb
  · show K1 + K2 + k.val = K1 + K2 + k.val
    rfl

/-- A property of every entry of each of two matrices of R rows holds of every entry of the two laid side by side:
    an entry whose column is below the first extent is an entry of the first, any other an entry of the second. -/
theorem concat2_forall {R K1 K2 : Nat} (P : α → Prop)
    (h : Shape.Concatenates [(⟨2, ![R, K1]⟩ : Shape), ⟨2, ![R, K2]⟩] ⟨2, ![R, K1 + K2]⟩ (1 : Fin 2))
    (x1 : (⟨2, ![R, K1]⟩ : Shape).Idx → α) (x2 : (⟨2, ![R, K2]⟩ : Shape).Idx → α)
    (h1 : ∀ i, P (x1 i)) (h2 : ∀ i, P (x2 i)) (j : (⟨2, ![R, K1 + K2]⟩ : Shape).Idx) :
    P (concatenate ⟨2, ![R, K1 + K2]⟩ 1 [⟨_, x1⟩, ⟨_, x2⟩] h j) := by
  obtain ⟨r, q, rfl⟩ : ∃ (r : Fin R) (q : Fin (K1 + K2)), j = ix2 r q := ⟨j 0, j 1, eq_ix2 j⟩
  by_cases hq : q.val < K1
  · have e := concatenate_pair_apply_left (t := ⟨2, ![R, K1 + K2]⟩) (1 : Fin 2) x1 x2 h (ix2 r q) rfl (ix2 r ⟨q.val, hq⟩)
      (by
        intro b
        match b with
        | ⟨0, _⟩ => rfl
        | ⟨1, _⟩ => rfl)
    rw [e]
    exact h1 _
  · have hq' : q.val - K1 < K2 := by have := q.isLt; omega
    have e := concatenate_pair_apply_right (t := ⟨2, ![R, K1 + K2]⟩) (1 : Fin 2) x1 x2 h (ix2 r q) rfl rfl
      (ix2 r ⟨q.val - K1, hq'⟩)
      (by
        intro b hb
        match b, hb with
        | ⟨0, _⟩, _ => rfl
        | ⟨1, _⟩, hb => exact absurd rfl hb)
      (by show q.val - K1 + K1 = q.val; omega)
    rw [e]
    exact h2 _

end Cert.HostLayout
-- ==== Proof.LibLinearRows.lean ====
/-
  A linear layer on rows, with its bias, an optional residual and the leaky selection, read at one entry.

  Each dense stage of a message-passing network multiplies a matrix of rows by a weight matrix, adds a bias to every
  row, perhaps adds a second matrix of the same shape, and perhaps passes every entry through the selection
  "the entry if it is positive, a fixed multiple of it otherwise".  Entry (p, c) of the outcome depends on row p of
  the left operand, column c of the weights, entry c of the bias and entry (p, c) of the residual only, so one formula
  describes a block of rows and the whole array alike.  The formula is stated once over arbitrary extents and shown to be
  what two spellings compute at the ideal instance: a product accumulated into a zero array of operands passed through
  a change of float format, the bias a one-row matrix repeated down the rows, the two constants of the selection
  splatted; and a general product, the bias a vector made a row and then repeated down the rows, the two constants
  scalars broadcast to the shape.
-/
import proofs.«132872_j8993661518249_1_alg».proof.Proof.LibMatRows
import proofs.«132872_j8993661518249_1_alg».proof.Proof.LibHostLayout
import Idealize.ShloMosaic.Lib.ValueLayout
import Idealize.ShloMosaic.Lib.Pipeline.Value

noncomputable section

open scoped BigOperators

namespace Idealize.ShloMosaic.LinearRows

open Idealize.ShloMosaic Idealize.ShloMosaic.ValueIdx Idealize.ShloMosaic.MatRows

variable {M K N : Nat}

/-- The selection at one number: v where v is above the number the word z denotes, the number the word s denotes times v
    elsewhere, in the instance's own comparison, product and choice. -/
def leakyAt (z s : BitVec 32) (v : EReal) : EReal :=
  Scalar.select (FloatOps.cmpf (F := Ideal) (φ := .f32) .ogt v (FloatOps.ofBits (F := Ideal) .f32 z)) v
    (FloatOps.mulf (F := Ideal) (φ := .f32) (FloatOps.ofBits (F := Ideal) .f32 s) v)

/-- Entry (p, c) of the product of X by W with entry c of the bias added. -/
def linAt (X : (⟨2, ![M, K]⟩ : Shape).Idx → EReal) (W : (⟨2, ![K, N]⟩ : Shape).Idx → EReal) (b : Fin N → EReal)
    (p : Fin M) (c : Fin N) : EReal :=
  (∑ k : Fin K, X (ix2 p k) * W (ix2 k c)) + b c

/-! ## The kernel's spelling -/

/-- The selection over splatted constants, at an index. -/
theorem kernel_leaky_apply {S : Shape} (z s : BitVec 32) (v : FVec Ideal S .f32) (i : S.Idx) :
    select (cmpf .ogt v (broadcast S (Scalar.ofBits (F := Ideal) .f32 z))) v
        (mulf (broadcast S (Scalar.ofBits (F := Ideal) .f32 s)) v) i
      = leakyAt z s (v i) := rfl

/-- A product into the zero array of operands passed through a change of format, a one-row bias repeated down the rows
    added. -/
theorem kernel_lin_apply (ht1 ht2 : FTy.bf16.bits < FTy.f32.bits)
    (hb : (⟨2, ![1, N]⟩ : Shape).Broadcasts ⟨2, ![M, N]⟩)
    (x0 : FVec Ideal ⟨2, ![M, K]⟩ .f32) (x1 : FVec Ideal ⟨2, ![K, N]⟩ .f32) (x2 : FVec Ideal ⟨2, ![1, N]⟩ .f32)
    (p : Fin M) (c : Fin N) :
    addf (matmul (DotDims.plain M K N) none (truncf .bf16 x0 ht1) (truncf .bf16 x1 ht2)
          (constant (F := Ideal) ⟨2, ![M, N]⟩ .f32 0x00000000#32))
        (broadcastTo ⟨2, ![M, N]⟩ x2 hb) (ix2 p c)
      = linAt x0 x1 (fun q => x2 (ix2 (0 : Fin 1) q)) p c := by
  show matmul (DotDims.plain M K N) none _ _ _ (ix2 p c) + broadcastTo ⟨2, ![M, N]⟩ x2 hb (ix2 p c) = _
  rw [broadcastTo_1b_ab_apply]
  exact congrArg (· + x2 (ix2 (0 : Fin 1) c)) (matmul_plain_apply none _ _ p c)

/-! ## The host's spelling -/

/-- The selection over broadcast scalars, at an index. -/
theorem host_leaky_apply {S : Shape} (h : (⟨0, ![]⟩ : Shape).BroadcastsInDim S (![] : Fin 0 → Fin S.rank))
    (z s : BitVec 32) (v : FVec Ideal S .f32) (i : S.Idx) :
    select (cmpf .ogt v (broadcastInDim S ![] h (constant (F := Ideal) ⟨0, ![]⟩ .f32 z))) v
        (mulf (broadcastInDim S ![] h (constant (F := Ideal) ⟨0, ![]⟩ .f32 s)) v) i
      = leakyAt z s (v i) := by
  show Scalar.select (FloatOps.cmpf (F := Ideal) (φ := .f32) .ogt (v i) (broadcastInDim S ![] h (constant (F := Ideal) ⟨0, ![]⟩ .f32 z) i)) (v i)
      (FloatOps.mulf (F := Ideal) (φ := .f32) (broadcastInDim S ![] h (constant (F := Ideal) ⟨0, ![]⟩ .f32 s) i) (v i)) = _
  rw [Cert.HostLayout.bcast_scalar_apply, Cert.HostLayout.bcast_scalar_apply]
  rfl

/-- A general product, a bias vector made a row and repeated down the rows added. -/
theorem host_lin_apply (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (X : FVec Ideal ⟨2, ![M, K]⟩ .f32) (W : FVec Ideal ⟨2, ![K, N]⟩ .f32) (b : FVec Ideal ⟨1, ![N]⟩ .f32)
    (p : Fin M) (c : Fin N) :
    addf (Host.dotGeneral (F := Ideal) (DotDims.plain M K N) none X W : FVec Ideal ⟨2, ![M, N]⟩ .f32)
        (broadcastInDim ⟨2, ![M, N]⟩ ![0, 1] h2 (broadcastInDim ⟨2, ![1, N]⟩ ![1] h1 b)) (ix2 p c)
      = linAt X W (fun q => b (ix1 q)) p c := by
  show (Host.dotGeneral (F := Ideal) (DotDims.plain M K N) none X W : FVec Ideal ⟨2, ![M, N]⟩ .f32) (ix2 p c)
      + broadcastInDim ⟨2, ![M, N]⟩ ![0, 1] h2 (broadcastInDim ⟨2, ![1, N]⟩ ![1] h1 b) (ix2 p c) = _
  rw [Cert.HostLayout.bcast_cols_apply, Cert.HostLayout.bcast_rowvec_apply]
  exact congrArg (· + b (ix1 c)) (dotGeneral_plain_apply none X W p c)

/-- The formula depends on the operands through the entries it names only. -/
theorem linAt_congr {M' : Nat} {X : (⟨2, ![M, K]⟩ : Shape).Idx → EReal} {X' : (⟨2, ![M', K]⟩ : Shape).Idx → EReal}
    {W W' : (⟨2, ![K, N]⟩ : Shape).Idx → EReal} {b b' : Fin N → EReal} {p : Fin M} {p' : Fin M'} {c : Fin N}
    (hX : ∀ k : Fin K, X (ix2 p k) = X' (ix2 p' k)) (hW : ∀ k : Fin K, W (ix2 k c) = W' (ix2 k c)) (hb : b c = b' c) :
    linAt X W b p c = linAt X' W' b' p' c := by
  unfold linAt
  rw [hb]
  exact congrArg (· + b' c) (Finset.sum_congr rfl fun k _ => by rw [hX k, hW k])

end Idealize.ShloMosaic.LinearRows

end
-- ==== Proof.RegSumCommon.lean ====
/-
  The two kinds of row-block bodies of the network's dense stages, read at one entry.

  A message-passing stage adds the aggregated neighbour rows to a block of rows, multiplies the sum by the weight
  matrix (the product accumulated into a zero array, both operands first passed through a change of float format,
  which is the identity on extended reals) and adds the one-row bias repeated down the rows: entry (p, c) is
  ∑ₖ (h (p, k) + a (p, k)) · W (k, c) + b (0, c).  The last dense stage first normalises each column of the block by
  a scale row and a shift row, then multiplies by the weights and adds the bias row: entry (p, c) is
  ∑ₖ (x (p, k) · s (0, k) + t (0, k)) · W (k, c) + b (0, c).  Both are stated over arbitrary extents.  Each formula
  depends on the operands through row p of the row operands, column c of the weights and entry c of the bias only, so a
  block of rows of the whole-array function is the same formula of the blocks of the operands.
-/
import proofs.«132872_j8993661518249_1_alg».proof.Proof.Spec
import proofs.«132872_j8993661518249_1_alg».proof.Proof.LibLinearRows

noncomputable section

open scoped BigOperators

namespace Cert.GNN.Rows

open Idealize.ShloMosaic Idealize.ShloMosaic.ValueIdx Idealize.ShloMosaic.LinearRows

variable {M Mb K N : Nat}

/-- The offsets of a whole-shape rectangle of a two-axis shape, spelt as a literal vector, are all zero. -/
theorem zero_offsets : (![0, 0] : Fin 2 → Nat) = fun _ => 0 := funext fun a => by fin_cases a <;> rfl

/-- Sum of two row blocks, times the weights, plus the bias row: at entry (p, c). -/
theorem sum_lin_entry (ht1 ht2 : FTy.bf16.bits < FTy.f32.bits)
    (hs0 hs1 : (⟨2, ![Mb, K]⟩ : Shape).ShapeCasts ⟨2, ![Mb, K]⟩)
    (hs3 : (⟨2, ![1, N]⟩ : Shape).ShapeCasts ⟨2, ![1, N]⟩)
    (hb : (⟨2, ![1, N]⟩ : Shape).Broadcasts ⟨2, ![Mb, N]⟩)
    (x0 x1 : FVec Ideal ⟨2, ![Mb, K]⟩ .f32) (x2 : FVec Ideal ⟨2, ![K, N]⟩ .f32) (x3 : FVec Ideal ⟨2, ![1, N]⟩ .f32)
    (p : Fin Mb) (c : Fin N) :
    addf (matmul (DotDims.plain Mb K N) none
            (truncf .bf16 (addf (shapeCast ⟨2, ![Mb, K]⟩ x0 hs0) (shapeCast ⟨2, ![Mb, K]⟩ x1 hs1)) ht1)
            (truncf .bf16 x2 ht2) (constant (F := Ideal) ⟨2, ![Mb, N]⟩ .f32 0x00000000#32))
        (broadcastTo ⟨2, ![Mb, N]⟩ (shapeCast ⟨2, ![1, N]⟩ x3 hs3) hb) (ix2 p c)
      = (∑ k : Fin K, (x0 (ix2 p k) + x1 (ix2 p k)) * x2 (ix2 k c)) + x3 (ix2 0 c) := by
  rw [shapeCast_self, shapeCast_self, shapeCast_self]
  exact kernel_lin_apply ht1 ht2 hb (addf x0 x1) x2 x3 p c

/-- Normalised row block, times the weights, plus the bias row: at entry (p, c). -/
theorem aff_lin_entry (ht1 ht2 : FTy.bf16.bits < FTy.f32.bits)
    (hs0 : (⟨2, ![Mb, K]⟩ : Shape).ShapeCasts ⟨2, ![Mb, K]⟩)
    (hs1 hs2 : (⟨2, ![1, K]⟩ : Shape).ShapeCasts ⟨2, ![1, K]⟩)
    (hb1 hb2 : (⟨2, ![1, K]⟩ : Shape).Broadcasts ⟨2, ![Mb, K]⟩)
    (hs4 : (⟨2, ![1, N]⟩ : Shape).ShapeCasts ⟨2, ![1, N]⟩)
    (hb : (⟨2, ![1, N]⟩ : Shape).Broadcasts ⟨2, ![Mb, N]⟩)
    (x0 : FVec Ideal ⟨2, ![Mb, K]⟩ .f32) (x1 x2 : FVec Ideal ⟨2, ![1, K]⟩ .f32) (x3 : FVec Ideal ⟨2, ![K, N]⟩ .f32)
    (x4 : FVec Ideal ⟨2, ![1, N]⟩ .f32) (p : Fin Mb) (c : Fin N) :
    addf (matmul (DotDims.plain Mb K N) none
            (truncf .bf16 (addf (mulf (shapeCast ⟨2, ![Mb, K]⟩ x0 hs0) (broadcastTo ⟨2, ![Mb, K]⟩ (shapeCast ⟨2, ![1, K]⟩ x1 hs1) hb1))
                (broadcastTo ⟨2, ![Mb, K]⟩ (shapeCast ⟨2, ![1, K]⟩ x2 hs2) hb2)) ht1)
            (truncf .bf16 x3 ht2) (constant (F := Ideal) ⟨2, ![Mb, N]⟩ .f32 0x00000000#32))
        (broadcastTo ⟨2, ![Mb, N]⟩ (shapeCast ⟨2, ![1, N]⟩ x4 hs4) hb) (ix2 p c)
      = (∑ k : Fin K, affAt x0 x1 x2 p k * x3 (ix2 k c)) + x4 (ix2 0 c) := by
  rw [shapeCast_self, shapeCast_self, shapeCast_self, shapeCast_self]
  refine (kernel_lin_apply ht1 ht2 hb _ x3 x4 p c).trans ?_
  unfold linAt affAt
  refine congrArg (· + x4 (ix2 0 c)) (Finset.sum_congr rfl fun k _ => ?_)
  show (x0 (ix2 p k) * broadcastTo ⟨2, ![Mb, K]⟩ x1 hb1 (ix2 p k) + broadcastTo ⟨2, ![Mb, K]⟩ x2 hb2 (ix2 p k)) * x3 (ix2 k c) = _
  rw [broadcastTo_1b_ab_apply, broadcastTo_1b_ab_apply]

/-- An entry of the message-passing stage over whole arrays is the stage's formula of blocks of the operands, when the
    blocks hold the operands' row and column the entry reads. -/
theorem sumLin_of_blocks (A0 A1 : Arr2 M K) (A2 : Arr2 K N) (A3 : Arr2 1 N)
    (b0 b1 : Arr2 Mb K) (b2 : Arr2 K N) (b3 : Arr2 1 N) (p : Fin Mb) (q : Fin N) (i : (⟨2, ![M, N]⟩ : Shape).Idx)
    (h0 : ∀ k : Fin K, b0 (ix2 p k) = A0 (ix2 (i 0) k)) (h1 : ∀ k : Fin K, b1 (ix2 p k) = A1 (ix2 (i 0) k))
    (h2 : ∀ k : Fin K, b2 (ix2 k q) = A2 (ix2 k (i 1))) (h3 : b3 (ix2 0 q) = A3 (ix2 0 (i 1))) :
    (∑ k : Fin K, (b0 (ix2 p k) + b1 (ix2 p k)) * b2 (ix2 k q)) + b3 (ix2 0 q) = sumLin A0 A1 A2 A3 i := by
  unfold sumLin
  rw [h3]
  exact congrArg (· + A3 (ix2 0 (i 1))) (Finset.sum_congr rfl fun k _ => by rw [h0 k, h1 k, h2 k])

/-- An entry of the last dense stage over whole arrays is the stage's formula of blocks of the operands. -/
theorem affLin_of_blocks (A0 : Arr2 M K) (A1 A2 : Arr2 1 K) (A3 : Arr2 K N) (A4 : Arr2 1 N)
    (b0 : Arr2 Mb K) (b1 b2 : Arr2 1 K) (b3 : Arr2 K N) (b4 : Arr2 1 N) (p : Fin Mb) (q : Fin N) (i : (⟨2, ![M, N]⟩ : Shape).Idx)
    (h0 : ∀ k : Fin K, b0 (ix2 p k) = A0 (ix2 (i 0) k)) (h1 : ∀ k : Fin K, b1 (ix2 0 k) = A1 (ix2 0 k))
    (h2 : ∀ k : Fin K, b2 (ix2 0 k) = A2 (ix2 0 k))
    (h3 : ∀ k : Fin K, b3 (ix2 k q) = A3 (ix2 k (i 1))) (h4 : b4 (ix2 0 q) = A4 (ix2 0 (i 1))) :
    (∑ k : Fin K, affAt b0 b1 b2 p k * b3 (ix2 k q)) + b4 (ix2 0 q) = affLin A0 A1 A2 A3 A4 i := by
  unfold affLin affAt
  rw [h4]
  exact congrArg (· + A4 (ix2 0 (i 1))) (Finset.sum_congr rfl fun k _ => by rw [h0 k, h1 k, h2 k, h3 k])

end Cert.GNN.Rows

end
-- ==== Proof.Reg1.lean ====
/-
  Message-passing stage number one of the network, as a function of whole arrays.

  The stage's kernel runs over 25 blocks of 2000 rows.  At each block it adds the block of aggregated neighbour rows to
  the block of rows, multiplies by the whole 96 × 96 weight matrix and adds the one-row bias.  Entry (p, c) of what it
  leaves in the output block depends only on row p of the two row blocks, column c of the weights and entry c of the
  bias, and the output block sits at the same rows of its array as the input blocks of theirs, so each written block
  is the block of ONE function of the whole arrays: ∑ₖ (h (r, k) + a (r, k)) · W (k, c) + b (0, c).  The 25 blocks
  tile the 50000 rows (row r lies in block r / 2000), so the output array ends holding that function.
-/
import proofs.«132872_j8993661518249_1_alg».proof.Proof.Gen.KernelIdeal.Frame
import proofs.«132872_j8993661518249_1_alg».proof.Proof.Spec
import proofs.«132872_j8993661518249_1_alg».proof.Proof.RegSumCommon
import Idealize.ShloMosaic.Lib.Pipeline.Value

noncomputable section

open scoped BigOperators

namespace Cert.KernelIdeal.RegVal

open Cert.KernelIdeal Cert.KernelIdeal.Gen
open Idealize.ShloMosaic Idealize.ShloMosaic.TcCoe Idealize.ShloMosaic.ValueIdx Idealize.SL.Sem
open Idealize.ShloMosaic.Pipeline (Dat)
open Cert.GNN Cert.GNN.Rows

variable (V : (c : Dev nD) → (b : Ref sig .tc) → Buf (Elt Ideal) ((c : Thread nD τ).loc b))

/-- The body's result at entry (p, c) of its block, from the four loaded blocks. -/
theorem pay1_entry (v0 v2 : FVec Ideal S2000x96 .f32) (v6 : FVec Ideal S96x96 .f32) (v9 : FVec Ideal S1x96 .f32)
    (p : Fin 2000) (c : Fin 96) :
    k1_pay1 (F := Ideal) v0 v2 v6 v9 (ix2 p c)
      = (∑ k : Fin 96, (v0 (ix2 p k) + v2 (ix2 p k)) * v6 (ix2 k c)) + v9 (ix2 0 c) := by
  unfold k1_pay1
  exact sum_lin_entry (Mb := 2000) (K := 96) (N := 96) _ _ _ _ _ _ v0 v2 v6 v9 p c

/-- The block index maps over the grid: the two row operands and the output move together down the rows, one block per
    point; the weights and the bias stay at their one block. -/
theorem idx_facts1 : ∀ t : Fin cfg1.N,
      win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

set_option maxHeartbeats 2000000 in
/-- What point t writes back is block t of the stage's function of the whole arrays. -/
theorem flushed1_eq (c : Dev nD) (t : Fin cfg1.N) :
    (dat1 (F := Ideal) V c).flushed 4 t
      = ((cfg1.win 4).blk t).view.read (Elt Ideal)
          (sumLin (M := 50000) (K := 96) (N := 96) (V c (Pipeline.arrRef spec1 0)) (V c (Pipeline.arrRef spec1 1))
            (V c (Pipeline.arrRef spec1 2)) (V c (Pipeline.arrRef spec1 3))) := by
  show (cfg1.win 4).cut (grid1.coords t) ((dat1 V c).after 4 t) = _
  rw [after1_4]
  unfold out1_4
  rw [View.canon_unit_zero zero_offsets]
  simp only [View.ld_unit_zero (S := S2000x96) zero_offsets, View.ld_unit_zero (S := S96x96) zero_offsets,
    View.ld_unit_zero (S := S1x96) zero_offsets]
  obtain ⟨e00, e01, e10, e11, e20, e21, e30, e31, -, e41⟩ := idx_facts1 t
  funext j
  obtain ⟨p, q, rfl⟩ : ∃ (p : Fin 2000) (q : Fin 96), j = ix2 p q := ⟨j 0, j 1, eq_ix2 j⟩
  show k1_pay1 (F := Ideal) (iblk1 V c 0 t) (iblk1 V c 1 t) (iblk1 V c 2 t) (iblk1 V c 3 t) (ix2 p q) = _
  refine (pay1_entry (iblk1 V c 0 t) (iblk1 V c 1 t) (iblk1 V c 2 t) (iblk1 V c 3 t) p q).trans ?_
  refine sumLin_of_blocks (M := 50000) (Mb := 2000) (K := 96) (N := 96)
    (V c (Pipeline.arrRef spec1 0)) (V c (Pipeline.arrRef spec1 1)) (V c (Pipeline.arrRef spec1 2))
    (V c (Pipeline.arrRef spec1 3)) (iblk1 V c 0 t) (iblk1 V c 1 t) (iblk1 V c 2 t) (iblk1 V c 3 t) p q
    (((cfg1.win 4).blk t).view.emb (ix2 p q)) (fun k => ?_) (fun k => ?_) (fun k => ?_) ?_
  · show V c (Pipeline.arrRef spec1 0) (((cfg1.win 0).blk t).view.emb (ix2 p k)) = V c (Pipeline.arrRef spec1 0) _
    refine congrArg _ (funext fun a => Fin.ext ?_)
    match a with
    | ⟨0, _⟩ =>
      show win1_0.index t (0 : Fin 2) * 2000 + 1 * p.val = win1_4.index t (0 : Fin 2) * 2000 + 1 * p.val
      omega
    | ⟨1, _⟩ =>
      show win1_0.index t (1 : Fin 2) * 96 + 1 * k.val = k.val
      omega
  · show V c (Pipeline.arrRef spec1 1) (((cfg1.win 1).blk t).view.emb (ix2 p k)) = V c (Pipeline.arrRef spec1 1) _
    refine congrArg _ (funext fun a => Fin.ext ?_)
    match a with
    | ⟨0, _⟩ =>
      show win1_1.index t (0 : Fin 2) * 2000 + 1 * p.val = win1_4.index t (0 : Fin 2) * 2000 + 1 * p.val
      omega
    | ⟨1, _⟩ =>
      show win1_1.index t (1 : Fin 2) * 96 + 1 * k.val = k.val
      omega
  · show V c (Pipeline.arrRef spec1 2) (((cfg1.win 2).blk t).view.emb (ix2 k q)) = V c (Pipeline.arrRef spec1 2) _
    refine congrArg _ (funext fun a => Fin.ext ?_)
    match a with
    | ⟨0, _⟩ =>
      show win1_2.index t (0 : Fin 2) * 96 + 1 * k.val = k.val
      omega
    | ⟨1, _⟩ =>
      show win1_2.index t (1 : Fin 2) * 96 + 1 * q.val = win1_4.index t (1 : Fin 2) * 96 + 1 * q.val
      omega
  · show V c (Pipeline.arrRef spec1 3) (((cfg1.win 3).blk t).view.emb (ix2 0 q)) = V c (Pipeline.arrRef spec1 3) _
    refine congrArg _ (funext fun a => Fin.ext ?_)
    match a with
    | ⟨0, _⟩ =>
      show win1_3.index t (0 : Fin 2) * 1 + 1 * (0 : Fin 1).val = (0 : Fin 1).val
      omega
    | ⟨1, _⟩ =>
      show win1_3.index t (1 : Fin 2) * 96 + 1 * q.val = win1_4.index t (1 : Fin 2) * 96 + 1 * q.val
      omega

/-- An index of the output array is in point t's block iff each coordinate is in the block's range on its axis. -/
theorem mem_blk1 (t : Fin cfg1.N) (i : S50000x96.Idx) :
    i ∈ ((cfg1.win 4).blk t).view.set
      ↔ ∀ a : Fin 2, win1_4.index t a * S2000x96.size a ≤ (i a).val
          ∧ (i a).val < win1_4.index t a * S2000x96.size a + S2000x96.size a := by
  show i ∈ ((View.whole main_v29).slice (win1_4.rect t)).set ↔ _
  rw [View.set_slice_whole, Rect.mem_set_unit]
  exact Iff.rfl

/-- The blocks tile the array: row r is in the block of point r / 2000. -/
theorem cover1 (i : S50000x96.Idx) :
    ∃ t : Fin cfg1.N, (cfg1.win 4).flush t = true ∧ i ∈ ((cfg1.win 4).blk t).view.set := by
  have hi0 : (i 0).val < 50000 := (i 0).isLt
  have hi1 : (i 1).val < 96 := (i 1).isLt
  obtain ⟨t, ht⟩ : ∃ t : Fin cfg1.N, t.val = (i 0).val / 2000 :=
    ⟨⟨(i 0).val / 2000, by rw [show cfg1.N = 25 from N_1]; omega⟩, rfl⟩
  obtain ⟨-, -, -, -, -, -, -, -, e40, e41⟩ := idx_facts1 t
  refine ⟨t, flush1_4 t, ?_⟩
  rw [mem_blk1]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 96 ≤ (i 1).val ∧ (i 1).val < win1_4.index t (1 : Fin 2) * 96 + 96
    omega

/-- The output array after the region: the message-passing stage of the arrays the region found. -/
theorem final1 (c : Dev nD) :
    (dat1 (F := Ideal) V c).arrAt 4 cfg1.N
      = sumLin (M := 50000) (K := 96) (N := 96) (V c (Pipeline.arrRef spec1 0)) (V c (Pipeline.arrRef spec1 1))
          (V c (Pipeline.arrRef spec1 2)) (V c (Pipeline.arrRef spec1 3)) :=
  (dat1 (F := Ideal) V c).arrAt_eq_of_cover 4 _ (fun t _ => flushed1_eq V c t) (cover1)

end Cert.KernelIdeal.RegVal

end
-- ==== Proof.Reg2.lean ====
/-
  A dense layer of the network as the run of its launch leaves it in the result array.

  The launch walks the 50000 rows in 25 blocks of 2000 rows.  At each block it normalises the block's rows column by column, clamps them from below at zero, multiplies them into the weight
  matrix, adds the bias row and clamps from below at zero again, and writes the block back.  Block t of the rows operand is rows 2000 t … 2000 t + 1999 of its array; the scale,
  shift and bias rows and the weight matrix are read whole at every block; block t of the result goes to rows
  2000 t … 2000 t + 1999 of the result array.  So what each point writes back is a block of ONE function of the whole
  arrays, the layer's formula entry by entry; the 25 blocks cover the result array; and the array ends holding that
  function of the arrays as the launch found them.
-/
import proofs.«132872_j8993661518249_1_alg».proof.Proof.Gen.KernelIdeal.Frame
import proofs.«132872_j8993661518249_1_alg».proof.Proof.RegAffCommon

set_option maxRecDepth 16384

noncomputable section

open Idealize.ShloMosaic Idealize.ShloMosaic.TcCoe Idealize.ShloMosaic.ValueIdx Idealize.SL.Sem
open Idealize.ShloMosaic.Pipeline (Dat)

namespace Cert.KernelIdeal.RegVal

open Cert.KernelIdeal Cert.KernelIdeal.Gen Cert.GNN.AffRows

variable (V : (c : Dev nD) → (b : Ref sig .tc) → Buf (Elt Ideal) ((c : Thread nD τ).loc b))

/-- The body's result at an entry: when row r of the rows block is row n of the array X, and the other blocks hold the
    arrays S, T, W, B where the entry reads them, the layer's formula on the arrays at (n, q). -/
theorem pay2_entry (x0 : Vec Ideal S2000x96 .f32) (x1 x2 : Vec Ideal S1x96 .f32) (x3 : Vec Ideal S96x96 .f32)
    (x4 : Vec Ideal S1x96 .f32)
    (X : Cert.GNN.Arr2 50000 96) (S T : Cert.GNN.Arr2 1 96) (W : Cert.GNN.Arr2 96 96) (B : Cert.GNN.Arr2 1 96)
    (j : S2000x96.Idx) (r : Fin 2000) (q : Fin 96) (hj : j = ix2 r q) (n : Fin 50000)
    (hX : ∀ k : Fin 96, x0 (ix2 r k) = X (ix2 n k))
    (hS : ∀ k : Fin 96, x1 (ix2 (0 : Fin 1) k) = S (ix2 (0 : Fin 1) k))
    (hT : ∀ k : Fin 96, x2 (ix2 (0 : Fin 1) k) = T (ix2 (0 : Fin 1) k))
    (hW : ∀ k : Fin 96, x3 (ix2 k q) = W (ix2 k q))
    (hB : x4 (ix2 (0 : Fin 1) q) = B (ix2 (0 : Fin 1) q)) :
    k2_pay1 (F := Ideal) x0 x1 x2 x3 x4 j = Cert.GNN.affReluLinRelu X S T W B (ix2 n q) := by
  subst hj
  unfold k2_pay1
  exact affReluLinRelu_block_entry (Mb := 2000) (Mt := 50000) (K := 96) (N := 96) _ _ _ _ _ _ (shapeCast S2000x96 x0 shapeCasts_S2000x96_S2000x96) x1 x2 x3 x4 X S T W B r n q
    (fun k => (congrFun (shapeCast_self x0 shapeCasts_S2000x96_S2000x96) (ix2 r k)).trans (hX k)) hS hT hW hB

/-- The printed index maps, decided over the grid: the rows operand and the result move one block of rows per point,
    the rows and the weight matrix stay at their one block. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

set_option maxHeartbeats 2000000 in
/-- WHAT POINT t WRITES BACK is block t of the layer's formula on the arrays as the launch finds them. -/
theorem flushed2_eq (c : Dev nD) (t : Fin cfg2.N) :
    (dat2 (F := Ideal) V c).flushed 5 t = ((cfg2.win 5).blk t).view.read (Elt Ideal)
      (Cert.GNN.affReluLinRelu (M := 50000) (K := 96) (N := 96) (V c (Pipeline.arrRef spec2 0)) (V c (Pipeline.arrRef spec2 1))
        (V c (Pipeline.arrRef spec2 2)) (V c (Pipeline.arrRef spec2 3)) (V c (Pipeline.arrRef spec2 4))) := by
  show (cfg2.win 5).cut (grid2.coords t) ((dat2 V c).after 5 t) = _
  rw [after2_5]
  unfold out2_5
  rw [View.canon_unit_zero off_zero]
  simp only [View.ld_unit_zero (S := S2000x96) off_zero, View.ld_unit_zero (S := S1x96) off_zero,
    View.ld_unit_zero (S := S96x96) off_zero, View.ld_unit_zero (S := S1x96) off_zero]
  obtain ⟨e00, e01, e10, e11, e20, e21, e30, e31, e40, e41, e50, e51⟩ := idx_facts2 t
  have ht : t.val < 25 := lt_of_lt_of_eq t.isLt N_2
  funext j
  have hj0 : (j 0).val < 2000 := (j 0).isLt
  have hj1 : (j 1).val < 96 := (j 1).isLt
  rw [View.read_apply]
  refine (pay2_entry (iblk2 V c 0 t) (iblk2 V c 1 t) (iblk2 V c 2 t) (iblk2 V c 3 t) (iblk2 V c 4 t)
    (V c (Pipeline.arrRef spec2 0)) (V c (Pipeline.arrRef spec2 1)) (V c (Pipeline.arrRef spec2 2))
    (V c (Pipeline.arrRef spec2 3)) (V c (Pipeline.arrRef spec2 4))
    ((cfg2.win 5).xinj (grid2.coords t) j) ⟨(j 0).val, hj0⟩ ⟨(j 1).val, hj1⟩
    (funext fun a => match a with | ⟨0, _⟩ => rfl | ⟨1, _⟩ => rfl)
    ⟨t.val * 2000 + (j 0).val, by omega⟩ (fun k => ?_) (fun k => ?_) (fun k => ?_) (fun k => ?_) ?_).trans ?_
  · show V c (Pipeline.arrRef spec2 0) (((cfg2.win 0).blk t).view.emb (ix2 ⟨(j 0).val, hj0⟩ k)) = _
    refine congrArg (V c (Pipeline.arrRef spec2 0)) (funext fun a => Fin.ext ?_)
    match a with
    | ⟨0, _⟩ => show win2_0.index t (0 : Fin 2) * 2000 + 1 * (j 0).val = t.val * 2000 + (j 0).val; rw [e00]; omega
    | ⟨1, _⟩ => show win2_0.index t (1 : Fin 2) * 96 + 1 * k.val = k.val; rw [e01]; omega
  · show V c (Pipeline.arrRef spec2 1) (((cfg2.win 1).blk t).view.emb (ix2 (0 : Fin 1) k)) = _
    refine congrArg (V c (Pipeline.arrRef spec2 1)) (funext fun a => Fin.ext ?_)
    match a with
    | ⟨0, _⟩ => show win2_1.index t (0 : Fin 2) * 1 + 1 * 0 = 0; rw [e10]
    | ⟨1, _⟩ => show win2_1.index t (1 : Fin 2) * 96 + 1 * k.val = k.val; rw [e11]; omega
  · show V c (Pipeline.arrRef spec2 2) (((cfg2.win 2).blk t).view.emb (ix2 (0 : Fin 1) k)) = _
    refine congrArg (V c (Pipeline.arrRef spec2 2)) (funext fun a => Fin.ext ?_)
    match a with
    | ⟨0, _⟩ => show win2_2.index t (0 : Fin 2) * 1 + 1 * 0 = 0; rw [e20]
    | ⟨1, _⟩ => show win2_2.index t (1 : Fin 2) * 96 + 1 * k.val = k.val; rw [e21]; omega
  · show V c (Pipeline.arrRef spec2 3) (((cfg2.win 3).blk t).view.emb (ix2 k ⟨(j 1).val, hj1⟩)) = _
    refine congrArg (V c (Pipeline.arrRef spec2 3)) (funext fun a => Fin.ext ?_)
    match a with
    | ⟨0, _⟩ => show win2_3.index t (0 : Fin 2) * 96 + 1 * k.val = k.val; rw [e30]; omega
    | ⟨1, _⟩ => show win2_3.index t (1 : Fin 2) * 96 + 1 * (j 1).val = (j 1).val; rw [e31]; omega
  · show V c (Pipeline.arrRef spec2 4) (((cfg2.win 4).blk t).view.emb (ix2 (0 : Fin 1) ⟨(j 1).val, hj1⟩)) = _
    refine congrArg (V c (Pipeline.arrRef spec2 4)) (funext fun a => Fin.ext ?_)
    match a with
    | ⟨0, _⟩ => show win2_4.index t (0 : Fin 2) * 1 + 1 * 0 = 0; rw [e40]
    | ⟨1, _⟩ => show win2_4.index t (1 : Fin 2) * 96 + 1 * (j 1).val = (j 1).val; rw [e41]; omega
  · refine congrArg (Cert.GNN.affReluLinRelu (M := 50000) (K := 96) (N := 96) (V c (Pipeline.arrRef spec2 0))
      (V c (Pipeline.arrRef spec2 1)) (V c (Pipeline.arrRef spec2 2)) (V c (Pipeline.arrRef spec2 3))
      (V c (Pipeline.arrRef spec2 4))) (funext fun a => Fin.ext ?_)
    match a with
    | ⟨0, _⟩ => show t.val * 2000 + (j 0).val = win2_5.index t (0 : Fin 2) * 2000 + 1 * (j 0).val; rw [e50]; omega
    | ⟨1, _⟩ => show (j 1).val = win2_5.index t (1 : Fin 2) * 96 + 1 * (j 1).val; rw [e51]; omega

/-- An index of the result array is in point t's block iff each coordinate is in the block's range on its axis. -/
theorem mem_blk2 (t : Fin cfg2.N) (i : S50000x96.Idx) :
    i ∈ ((cfg2.win 5).blk t).view.set ↔ ∀ a : Fin 2, win2_5.index t a * S2000x96.size a ≤ (i a).val
      ∧ (i a).val < win2_5.index t a * S2000x96.size a + S2000x96.size a := by
  show i ∈ ((View.whole main_v43).slice (win2_5.rect t)).set ↔ _
  rw [View.set_slice_whole, Rect.mem_set_unit]
  exact Iff.rfl

/-- Every index of the result array is in the block of the point its row falls to. -/
theorem cover2 (i : S50000x96.Idx) :
    ∃ t : Fin cfg2.N, (cfg2.win 5).flush t = true ∧ i ∈ ((cfg2.win 5).blk t).view.set := by
  have hi0 : (i 0).val < 50000 := (i 0).isLt
  have hi1 : (i 1).val < 96 := (i 1).isLt
  obtain ⟨t, ht⟩ : ∃ t : Fin cfg2.N, t.val = (i 0).val / 2000 :=
    ⟨⟨(i 0).val / 2000, lt_of_lt_of_eq (by omega : (i 0).val / 2000 < 25) N_2.symm⟩, rfl⟩
  obtain ⟨-, -, -, -, -, -, -, -, -, -, e50, e51⟩ := idx_facts2 t
  refine ⟨t, flush2_5 t, ?_⟩
  rw [mem_blk2]
  intro a
  match a with
  | ⟨0, _⟩ =>
    show win2_5.index t (0 : Fin 2) * 2000 ≤ (i 0).val ∧ (i 0).val < win2_5.index t (0 : Fin 2) * 2000 + 2000
    rw [e50, ht]; omega
  | ⟨1, _⟩ =>
    show win2_5.index t (1 : Fin 2) * 96 ≤ (i 1).val ∧ (i 1).val < win2_5.index t (1 : Fin 2) * 96 + 96
    rw [e51]; omega

/-- THE RESULT ARRAY after the launch's run: the layer's formula on the arrays as the launch found them. -/
theorem final2 (c : Dev nD) :
    (Gen.dat2 (F := Ideal) V c).arrAt 5 cfg2.N
      = Cert.GNN.affReluLinRelu (M := 50000) (K := 96) (N := 96) (V c (Pipeline.arrRef spec2 0)) (V c (Pipeline.arrRef spec2 1))
        (V c (Pipeline.arrRef spec2 2)) (V c (Pipeline.arrRef spec2 3)) (V c (Pipeline.arrRef spec2 4)) :=
  (dat2 V c).arrAt_eq_of_cover 5 _ (fun t _ => flushed2_eq V c t) (cover2)

end Cert.KernelIdeal.RegVal

end
-- ==== Proof.Reg3.lean ====
/-
  Message-passing stage number two of the network, as a function of whole arrays.

  The stage's kernel runs over 25 blocks of 2000 rows.  At each block it adds the block of aggregated neighbour rows to
  the block of rows, multiplies by the whole 96 × 96 weight matrix and adds the one-row bias.  Entry (p, c) of what it
  leaves in the output block depends only on row p of the two row blocks, column c of the weights and entry c of the
  bias, and the output block sits at the same rows of its array as the input blocks of theirs, so each written block
  is the block of ONE function of the whole arrays: ∑ₖ (h (r, k) + a (r, k)) · W (k, c) + b (0, c).  The 25 blocks
  tile the 50000 rows (row r lies in block r / 2000), so the output array ends holding that function.
-/
import proofs.«132872_j8993661518249_1_alg».proof.Proof.Gen.KernelIdeal.Frame
import proofs.«132872_j8993661518249_1_alg».proof.Proof.Spec
import proofs.«132872_j8993661518249_1_alg».proof.Proof.RegSumCommon
import Idealize.ShloMosaic.Lib.Pipeline.Value

noncomputable section

open scoped BigOperators

namespace Cert.KernelIdeal.RegVal

open Cert.KernelIdeal Cert.KernelIdeal.Gen
open Idealize.ShloMosaic Idealize.ShloMosaic.TcCoe Idealize.ShloMosaic.ValueIdx Idealize.SL.Sem
open Idealize.ShloMosaic.Pipeline (Dat)
open Cert.GNN Cert.GNN.Rows

variable (V : (c : Dev nD) → (b : Ref sig .tc) → Buf (Elt Ideal) ((c : Thread nD τ).loc b))

/-- The body's result at entry (p, c) of its block, from the four loaded blocks. -/
theorem pay3_entry (v0 v2 : FVec Ideal S2000x96 .f32) (v6 : FVec Ideal S96x96 .f32) (v9 : FVec Ideal S1x96 .f32)
    (p : Fin 2000) (c : Fin 96) :
    k3_pay1 (F := Ideal) v0 v2 v6 v9 (ix2 p c)
      = (∑ k : Fin 96, (v0 (ix2 p k) + v2 (ix2 p k)) * v6 (ix2 k c)) + v9 (ix2 0 c) := by
  unfold k3_pay1
  exact sum_lin_entry (Mb := 2000) (K := 96) (N := 96) _ _ _ _ _ _ v0 v2 v6 v9 p c

/-- The block index maps over the grid: the two row operands and the output move together down the rows, one block per
    point; the weights and the bias stay at their one block. -/
theorem idx_facts3 : ∀ t : Fin cfg3.N,
      win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

set_option maxHeartbeats 2000000 in
/-- What point t writes back is block t of the stage's function of the whole arrays. -/
theorem flushed3_eq (c : Dev nD) (t : Fin cfg3.N) :
    (dat3 (F := Ideal) V c).flushed 4 t
      = ((cfg3.win 4).blk t).view.read (Elt Ideal)
          (sumLin (M := 50000) (K := 96) (N := 96) (V c (Pipeline.arrRef spec3 0)) (V c (Pipeline.arrRef spec3 1))
            (V c (Pipeline.arrRef spec3 2)) (V c (Pipeline.arrRef spec3 3))) := by
  show (cfg3.win 4).cut (grid3.coords t) ((dat3 V c).after 4 t) = _
  rw [after3_4]
  unfold out3_4
  rw [View.canon_unit_zero zero_offsets]
  simp only [View.ld_unit_zero (S := S2000x96) zero_offsets, View.ld_unit_zero (S := S96x96) zero_offsets,
    View.ld_unit_zero (S := S1x96) zero_offsets]
  obtain ⟨e00, e01, e10, e11, e20, e21, e30, e31, -, e41⟩ := idx_facts3 t
  funext j
  obtain ⟨p, q, rfl⟩ : ∃ (p : Fin 2000) (q : Fin 96), j = ix2 p q := ⟨j 0, j 1, eq_ix2 j⟩
  show k3_pay1 (F := Ideal) (iblk3 V c 0 t) (iblk3 V c 1 t) (iblk3 V c 2 t) (iblk3 V c 3 t) (ix2 p q) = _
  refine (pay3_entry (iblk3 V c 0 t) (iblk3 V c 1 t) (iblk3 V c 2 t) (iblk3 V c 3 t) p q).trans ?_
  refine sumLin_of_blocks (M := 50000) (Mb := 2000) (K := 96) (N := 96)
    (V c (Pipeline.arrRef spec3 0)) (V c (Pipeline.arrRef spec3 1)) (V c (Pipeline.arrRef spec3 2))
    (V c (Pipeline.arrRef spec3 3)) (iblk3 V c 0 t) (iblk3 V c 1 t) (iblk3 V c 2 t) (iblk3 V c 3 t) p q
    (((cfg3.win 4).blk t).view.emb (ix2 p q)) (fun k => ?_) (fun k => ?_) (fun k => ?_) ?_
  · show V c (Pipeline.arrRef spec3 0) (((cfg3.win 0).blk t).view.emb (ix2 p k)) = V c (Pipeline.arrRef spec3 0) _
    refine congrArg _ (funext fun a => Fin.ext ?_)
    match a with
    | ⟨0, _⟩ =>
      show win3_0.index t (0 : Fin 2) * 2000 + 1 * p.val = win3_4.index t (0 : Fin 2) * 2000 + 1 * p.val
      omega
    | ⟨1, _⟩ =>
      show win3_0.index t (1 : Fin 2) * 96 + 1 * k.val = k.val
      omega
  · show V c (Pipeline.arrRef spec3 1) (((cfg3.win 1).blk t).view.emb (ix2 p k)) = V c (Pipeline.arrRef spec3 1) _
    refine congrArg _ (funext fun a => Fin.ext ?_)
    match a with
    | ⟨0, _⟩ =>
      show win3_1.index t (0 : Fin 2) * 2000 + 1 * p.val = win3_4.index t (0 : Fin 2) * 2000 + 1 * p.val
      omega
    | ⟨1, _⟩ =>
      show win3_1.index t (1 : Fin 2) * 96 + 1 * k.val = k.val
      omega
  · show V c (Pipeline.arrRef spec3 2) (((cfg3.win 2).blk t).view.emb (ix2 k q)) = V c (Pipeline.arrRef spec3 2) _
    refine congrArg _ (funext fun a => Fin.ext ?_)
    match a with
    | ⟨0, _⟩ =>
      show win3_2.index t (0 : Fin 2) * 96 + 1 * k.val = k.val
      omega
    | ⟨1, _⟩ =>
      show win3_2.index t (1 : Fin 2) * 96 + 1 * q.val = win3_4.index t (1 : Fin 2) * 96 + 1 * q.val
      omega
  · show V c (Pipeline.arrRef spec3 3) (((cfg3.win 3).blk t).view.emb (ix2 0 q)) = V c (Pipeline.arrRef spec3 3) _
    refine congrArg _ (funext fun a => Fin.ext ?_)
    match a with
    | ⟨0, _⟩ =>
      show win3_3.index t (0 : Fin 2) * 1 + 1 * (0 : Fin 1).val = (0 : Fin 1).val
      omega
    | ⟨1, _⟩ =>
      show win3_3.index t (1 : Fin 2) * 96 + 1 * q.val = win3_4.index t (1 : Fin 2) * 96 + 1 * q.val
      omega

/-- An index of the output array is in point t's block iff each coordinate is in the block's range on its axis. -/
theorem mem_blk3 (t : Fin cfg3.N) (i : S50000x96.Idx) :
    i ∈ ((cfg3.win 4).blk t).view.set
      ↔ ∀ a : Fin 2, win3_4.index t a * S2000x96.size a ≤ (i a).val
          ∧ (i a).val < win3_4.index t a * S2000x96.size a + S2000x96.size a := by
  show i ∈ ((View.whole main_v55).slice (win3_4.rect t)).set ↔ _
  rw [View.set_slice_whole, Rect.mem_set_unit]
  exact Iff.rfl

/-- The blocks tile the array: row r is in the block of point r / 2000. -/
theorem cover3 (i : S50000x96.Idx) :
    ∃ t : Fin cfg3.N, (cfg3.win 4).flush t = true ∧ i ∈ ((cfg3.win 4).blk t).view.set := by
  have hi0 : (i 0).val < 50000 := (i 0).isLt
  have hi1 : (i 1).val < 96 := (i 1).isLt
  obtain ⟨t, ht⟩ : ∃ t : Fin cfg3.N, t.val = (i 0).val / 2000 :=
    ⟨⟨(i 0).val / 2000, by rw [show cfg3.N = 25 from N_3]; omega⟩, rfl⟩
  obtain ⟨-, -, -, -, -, -, -, -, e40, e41⟩ := idx_facts3 t
  refine ⟨t, flush3_4 t, ?_⟩
  rw [mem_blk3]
  intro a
  match a with
  | ⟨0, _⟩ =>
    show win3_4.index t (0 : Fin 2) * 2000 ≤ (i 0).val ∧ (i 0).val < win3_4.index t (0 : Fin 2) * 2000 + 2000
    omega
  | ⟨1, _⟩ =>
    show win3_4.index t (1 : Fin 2) * 96 ≤ (i 1).val ∧ (i 1).val < win3_4.index t (1 : Fin 2) * 96 + 96
    omega

/-- The output array after the region: the message-passing stage of the arrays the region found. -/
theorem final3 (c : Dev nD) :
    (dat3 (F := Ideal) V c).arrAt 4 cfg3.N
      = sumLin (M := 50000) (K := 96) (N := 96) (V c (Pipeline.arrRef spec3 0)) (V c (Pipeline.arrRef spec3 1))
          (V c (Pipeline.arrRef spec3 2)) (V c (Pipeline.arrRef spec3 3)) :=
  (dat3 (F := Ideal) V c).arrAt_eq_of_cover 4 _ (fun t _ => flushed3_eq V c t) (cover3)

end Cert.KernelIdeal.RegVal

end
-- ==== Proof.Reg4.lean ====
/-
  A dense layer of the network as the run of its launch leaves it in the result array.

  The launch walks the 50000 rows in 25 blocks of 2000 rows.  At each block it normalises the block's rows column by column, clamps them from below at zero, multiplies them into the weight
  matrix, adds the bias row and clamps from below at zero again, and writes the block back.  Block t of the rows operand is rows 2000 t … 2000 t + 1999 of its array; the scale,
  shift and bias rows and the weight matrix are read whole at every block; block t of the result goes to rows
  2000 t … 2000 t + 1999 of the result array.  So what each point writes back is a block of ONE function of the whole
  arrays, the layer's formula entry by entry; the 25 blocks cover the result array; and the array ends holding that
  function of the arrays as the launch found them.
-/
import proofs.«132872_j8993661518249_1_alg».proof.Proof.Gen.KernelIdeal.Frame
import proofs.«132872_j8993661518249_1_alg».proof.Proof.RegAffCommon

set_option maxRecDepth 16384

noncomputable section

open Idealize.ShloMosaic Idealize.ShloMosaic.TcCoe Idealize.ShloMosaic.ValueIdx Idealize.SL.Sem
open Idealize.ShloMosaic.Pipeline (Dat)

namespace Cert.KernelIdeal.RegVal

open Cert.KernelIdeal Cert.KernelIdeal.Gen Cert.GNN.AffRows

variable (V : (c : Dev nD) → (b : Ref sig .tc) → Buf (Elt Ideal) ((c : Thread nD τ).loc b))

/-- The body's result at an entry: when row r of the rows block is row n of the array X, and the other blocks hold the
    arrays S, T, W, B where the entry reads them, the layer's formula on the arrays at (n, q). -/
theorem pay4_entry (x0 : Vec Ideal S2000x96 .f32) (x1 x2 : Vec Ideal S1x96 .f32) (x3 : Vec Ideal S96x96 .f32)
    (x4 : Vec Ideal S1x96 .f32)
    (X : Cert.GNN.Arr2 50000 96) (S T : Cert.GNN.Arr2 1 96) (W : Cert.GNN.Arr2 96 96) (B : Cert.GNN.Arr2 1 96)
    (j : S2000x96.Idx) (r : Fin 2000) (q : Fin 96) (hj : j = ix2 r q) (n : Fin 50000)
    (hX : ∀ k : Fin 96, x0 (ix2 r k) = X (ix2 n k))
    (hS : ∀ k : Fin 96, x1 (ix2 (0 : Fin 1) k) = S (ix2 (0 : Fin 1) k))
    (hT : ∀ k : Fin 96, x2 (ix2 (0 : Fin 1) k) = T (ix2 (0 : Fin 1) k))
    (hW : ∀ k : Fin 96, x3 (ix2 k q) = W (ix2 k q))
    (hB : x4 (ix2 (0 : Fin 1) q) = B (ix2 (0 : Fin 1) q)) :
    k4_pay1 (F := Ideal) x0 x1 x2 x3 x4 j = Cert.GNN.affReluLinRelu X S T W B (ix2 n q) := by
  subst hj
  unfold k4_pay1
  exact affReluLinRelu_block_entry (Mb := 2000) (Mt := 50000) (K := 96) (N := 96) _ _ _ _ _ _ (shapeCast S2000x96 x0 shapeCasts_S2000x96_S2000x96) x1 x2 x3 x4 X S T W B r n q
    (fun k => (congrFun (shapeCast_self x0 shapeCasts_S2000x96_S2000x96) (ix2 r k)).trans (hX k)) hS hT hW hB

/-- The printed index maps, decided over the grid: the rows operand and the result move one block of rows per point,
    the rows and the weight matrix stay at their one block. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

set_option maxHeartbeats 2000000 in
/-- WHAT POINT t WRITES BACK is block t of the layer's formula on the arrays as the launch finds them. -/
theorem flushed4_eq (c : Dev nD) (t : Fin cfg4.N) :
    (dat4 (F := Ideal) V c).flushed 5 t = ((cfg4.win 5).blk t).view.read (Elt Ideal)
      (Cert.GNN.affReluLinRelu (M := 50000) (K := 96) (N := 96) (V c (Pipeline.arrRef spec4 0)) (V c (Pipeline.arrRef spec4 1))
        (V c (Pipeline.arrRef spec4 2)) (V c (Pipeline.arrRef spec4 3)) (V c (Pipeline.arrRef spec4 4))) := by
  show (cfg4.win 5).cut (grid4.coords t) ((dat4 V c).after 5 t) = _
  rw [after4_5]
  unfold out4_5
  rw [View.canon_unit_zero off_zero]
  simp only [View.ld_unit_zero (S := S2000x96) off_zero, View.ld_unit_zero (S := S1x96) off_zero,
    View.ld_unit_zero (S := S96x96) off_zero, View.ld_unit_zero (S := S1x96) off_zero]
  obtain ⟨e00, e01, e10, e11, e20, e21, e30, e31, e40, e41, e50, e51⟩ := idx_facts4 t
  have ht : t.val < 25 := lt_of_lt_of_eq t.isLt N_4
  funext j
  have hj0 : (j 0).val < 2000 := (j 0).isLt
  have hj1 : (j 1).val < 96 := (j 1).isLt
  rw [View.read_apply]
  refine (pay4_entry (iblk4 V c 0 t) (iblk4 V c 1 t) (iblk4 V c 2 t) (iblk4 V c 3 t) (iblk4 V c 4 t)
    (V c (Pipeline.arrRef spec4 0)) (V c (Pipeline.arrRef spec4 1)) (V c (Pipeline.arrRef spec4 2))
    (V c (Pipeline.arrRef spec4 3)) (V c (Pipeline.arrRef spec4 4))
    ((cfg4.win 5).xinj (grid4.coords t) j) ⟨(j 0).val, hj0⟩ ⟨(j 1).val, hj1⟩
    (funext fun a => match a with | ⟨0, _⟩ => rfl | ⟨1, _⟩ => rfl)
    ⟨t.val * 2000 + (j 0).val, by omega⟩ (fun k => ?_) (fun k => ?_) (fun k => ?_) (fun k => ?_) ?_).trans ?_
  · show V c (Pipeline.arrRef spec4 0) (((cfg4.win 0).blk t).view.emb (ix2 ⟨(j 0).val, hj0⟩ k)) = _
    refine congrArg (V c (Pipeline.arrRef spec4 0)) (funext fun a => Fin.ext ?_)
    match a with
    | ⟨0, _⟩ => show win4_0.index t (0 : Fin 2) * 2000 + 1 * (j 0).val = t.val * 2000 + (j 0).val; rw [e00]; omega
    | ⟨1, _⟩ => show win4_0.index t (1 : Fin 2) * 96 + 1 * k.val = k.val; rw [e01]; omega
  · show V c (Pipeline.arrRef spec4 1) (((cfg4.win 1).blk t).view.emb (ix2 (0 : Fin 1) k)) = _
    refine congrArg (V c (Pipeline.arrRef spec4 1)) (funext fun a => Fin.ext ?_)
    match a with
    | ⟨0, _⟩ => show win4_1.index t (0 : Fin 2) * 1 + 1 * 0 = 0; rw [e10]
    | ⟨1, _⟩ => show win4_1.index t (1 : Fin 2) * 96 + 1 * k.val = k.val; rw [e11]; omega
  · show V c (Pipeline.arrRef spec4 2) (((cfg4.win 2).blk t).view.emb (ix2 (0 : Fin 1) k)) = _
    refine congrArg (V c (Pipeline.arrRef spec4 2)) (funext fun a => Fin.ext ?_)
    match a with
    | ⟨0, _⟩ => show win4_2.index t (0 : Fin 2) * 1 + 1 * 0 = 0; rw [e20]
    | ⟨1, _⟩ => show win4_2.index t (1 : Fin 2) * 96 + 1 * k.val = k.val; rw [e21]; omega
  · show V c (Pipeline.arrRef spec4 3) (((cfg4.win 3).blk t).view.emb (ix2 k ⟨(j 1).val, hj1⟩)) = _
    refine congrArg (V c (Pipeline.arrRef spec4 3)) (funext fun a => Fin.ext ?_)
    match a with
    | ⟨0, _⟩ => show win4_3.index t (0 : Fin 2) * 96 + 1 * k.val = k.val; rw [e30]; omega
    | ⟨1, _⟩ => show win4_3.index t (1 : Fin 2) * 96 + 1 * (j 1).val = (j 1).val; rw [e31]; omega
  · show V c (Pipeline.arrRef spec4 4) (((cfg4.win 4).blk t).view.emb (ix2 (0 : Fin 1) ⟨(j 1).val, hj1⟩)) = _
    refine congrArg (V c (Pipeline.arrRef spec4 4)) (funext fun a => Fin.ext ?_)
    match a with
    | ⟨0, _⟩ => show win4_4.index t (0 : Fin 2) * 1 + 1 * 0 = 0; rw [e40]
    | ⟨1, _⟩ => show win4_4.index t (1 : Fin 2) * 96 + 1 * (j 1).val = (j 1).val; rw [e41]; omega
  · refine congrArg (Cert.GNN.affReluLinRelu (M := 50000) (K := 96) (N := 96) (V c (Pipeline.arrRef spec4 0))
      (V c (Pipeline.arrRef spec4 1)) (V c (Pipeline.arrRef spec4 2)) (V c (Pipeline.arrRef spec4 3))
      (V c (Pipeline.arrRef spec4 4))) (funext fun a => Fin.ext ?_)
    match a with
    | ⟨0, _⟩ => show t.val * 2000 + (j 0).val = win4_5.index t (0 : Fin 2) * 2000 + 1 * (j 0).val; rw [e50]; omega
    | ⟨1, _⟩ => show (j 1).val = win4_5.index t (1 : Fin 2) * 96 + 1 * (j 1).val; rw [e51]; omega

/-- An index of the result array is in point t's block iff each coordinate is in the block's range on its axis. -/
theorem mem_blk4 (t : Fin cfg4.N) (i : S50000x96.Idx) :
    i ∈ ((cfg4.win 5).blk t).view.set ↔ ∀ a : Fin 2, win4_5.index t a * S2000x96.size a ≤ (i a).val
      ∧ (i a).val < win4_5.index t a * S2000x96.size a + S2000x96.size a := by
  show i ∈ ((View.whole main_v69).slice (win4_5.rect t)).set ↔ _
  rw [View.set_slice_whole, Rect.mem_set_unit]
  exact Iff.rfl

/-- Every index of the result array is in the block of the point its row falls to. -/
theorem cover4 (i : S50000x96.Idx) :
    ∃ t : Fin cfg4.N, (cfg4.win 5).flush t = true ∧ i ∈ ((cfg4.win 5).blk t).view.set := by
  have hi0 : (i 0).val < 50000 := (i 0).isLt
  have hi1 : (i 1).val < 96 := (i 1).isLt
  obtain ⟨t, ht⟩ : ∃ t : Fin cfg4.N, t.val = (i 0).val / 2000 :=
    ⟨⟨(i 0).val / 2000, lt_of_lt_of_eq (by omega : (i 0).val / 2000 < 25) N_4.symm⟩, rfl⟩
  obtain ⟨-, -, -, -, -, -, -, -, -, -, e50, e51⟩ := idx_facts4 t
  refine ⟨t, flush4_5 t, ?_⟩
  rw [mem_blk4]
  intro a
  match a with
  | ⟨0, _⟩ =>
    show win4_5.index t (0 : Fin 2) * 2000 ≤ (i 0).val ∧ (i 0).val < win4_5.index t (0 : Fin 2) * 2000 + 2000
    rw [e50, ht]; omega
  | ⟨1, _⟩ =>
    show win4_5.index t (1 : Fin 2) * 96 ≤ (i 1).val ∧ (i 1).val < win4_5.index t (1 : Fin 2) * 96 + 96
    rw [e51]; omega

/-- THE RESULT ARRAY after the launch's run: the layer's formula on the arrays as the launch found them. -/
theorem final4 (c : Dev nD) :
    (Gen.dat4 (F := Ideal) V c).arrAt 5 cfg4.N
      = Cert.GNN.affReluLinRelu (M := 50000) (K := 96) (N := 96) (V c (Pipeline.arrRef spec4 0)) (V c (Pipeline.arrRef spec4 1))
        (V c (Pipeline.arrRef spec4 2)) (V c (Pipeline.arrRef spec4 3)) (V c (Pipeline.arrRef spec4 4)) :=
  (dat4 V c).arrAt_eq_of_cover 5 _ (fun t _ => flushed4_eq V c t) (cover4)

end Cert.KernelIdeal.RegVal

end
-- ==== Proof.Reg5.lean ====
/-
  Message-passing stage number three of the network, as a function of whole arrays.

  The stage's kernel runs over 25 blocks of 2000 rows.  At each block it adds the block of aggregated neighbour rows to
  the block of rows, multiplies by the whole 96 × 96 weight matrix and adds the one-row bias.  Entry (p, c) of what it
  leaves in the output block depends only on row p of the two row blocks, column c of the weights and entry c of the
  bias, and the output block sits at the same rows of its array as the input blocks of theirs, so each written block
  is the block of ONE function of the whole arrays: ∑ₖ (h (r, k) + a (r, k)) · W (k, c) + b (0, c).  The 25 blocks
  tile the 50000 rows (row r lies in block r / 2000), so the output array ends holding that function.
-/
import proofs.«132872_j8993661518249_1_alg».proof.Proof.Gen.KernelIdeal.Frame
import proofs.«132872_j8993661518249_1_alg».proof.Proof.Spec
import proofs.«132872_j8993661518249_1_alg».proof.Proof.RegSumCommon
import Idealize.ShloMosaic.Lib.Pipeline.Value

noncomputable section

open scoped BigOperators

namespace Cert.KernelIdeal.RegVal

open Cert.KernelIdeal Cert.KernelIdeal.Gen
open Idealize.ShloMosaic Idealize.ShloMosaic.TcCoe Idealize.ShloMosaic.ValueIdx Idealize.SL.Sem
open Idealize.ShloMosaic.Pipeline (Dat)
open Cert.GNN Cert.GNN.Rows

variable (V : (c : Dev nD) → (b : Ref sig .tc) → Buf (Elt Ideal) ((c : Thread nD τ).loc b))

/-- The body's result at entry (p, c) of its block, from the four loaded blocks. -/
theorem pay5_entry (v0 v2 : FVec Ideal S2000x96 .f32) (v6 : FVec Ideal S96x96 .f32) (v9 : FVec Ideal S1x96 .f32)
    (p : Fin 2000) (c : Fin 96) :
    k5_pay1 (F := Ideal) v0 v2 v6 v9 (ix2 p c)
      = (∑ k : Fin 96, (v0 (ix2 p k) + v2 (ix2 p k)) * v6 (ix2 k c)) + v9 (ix2 0 c) := by
  unfold k5_pay1
  exact sum_lin_entry (Mb := 2000) (K := 96) (N := 96) _ _ _ _ _ _ v0 v2 v6 v9 p c

/-- The block index maps over the grid: the two row operands and the output move together down the rows, one block per
    point; the weights and the bias stay at their one block. -/
theorem idx_facts5 : ∀ t : Fin cfg5.N,
      win5_0.index t (0 : Fin 2) = win5_4.index t (0 : Fin 2) ∧ win5_0.index t (1 : Fin 2) = 0
    ∧ win5_1.index t (0 : Fin 2) = win5_4.index t (0 : Fin 2) ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

set_option maxHeartbeats 2000000 in
/-- What point t writes back is block t of the stage's function of the whole arrays. -/
theorem flushed5_eq (c : Dev nD) (t : Fin cfg5.N) :
    (dat5 (F := Ideal) V c).flushed 4 t
      = ((cfg5.win 4).blk t).view.read (Elt Ideal)
          (sumLin (M := 50000) (K := 96) (N := 96) (V c (Pipeline.arrRef spec5 0)) (V c (Pipeline.arrRef spec5 1))
            (V c (Pipeline.arrRef spec5 2)) (V c (Pipeline.arrRef spec5 3))) := by
  show (cfg5.win 4).cut (grid5.coords t) ((dat5 V c).after 4 t) = _
  rw [after5_4]
  unfold out5_4
  rw [View.canon_unit_zero zero_offsets]
  simp only [View.ld_unit_zero (S := S2000x96) zero_offsets, View.ld_unit_zero (S := S96x96) zero_offsets,
    View.ld_unit_zero (S := S1x96) zero_offsets]
  obtain ⟨e00, e01, e10, e11, e20, e21, e30, e31, -, e41⟩ := idx_facts5 t
  funext j
  obtain ⟨p, q, rfl⟩ : ∃ (p : Fin 2000) (q : Fin 96), j = ix2 p q := ⟨j 0, j 1, eq_ix2 j⟩
  show k5_pay1 (F := Ideal) (iblk5 V c 0 t) (iblk5 V c 1 t) (iblk5 V c 2 t) (iblk5 V c 3 t) (ix2 p q) = _
  refine (pay5_entry (iblk5 V c 0 t) (iblk5 V c 1 t) (iblk5 V c 2 t) (iblk5 V c 3 t) p q).trans ?_
  refine sumLin_of_blocks (M := 50000) (Mb := 2000) (K := 96) (N := 96)
    (V c (Pipeline.arrRef spec5 0)) (V c (Pipeline.arrRef spec5 1)) (V c (Pipeline.arrRef spec5 2))
    (V c (Pipeline.arrRef spec5 3)) (iblk5 V c 0 t) (iblk5 V c 1 t) (iblk5 V c 2 t) (iblk5 V c 3 t) p q
    (((cfg5.win 4).blk t).view.emb (ix2 p q)) (fun k => ?_) (fun k => ?_) (fun k => ?_) ?_
  · show V c (Pipeline.arrRef spec5 0) (((cfg5.win 0).blk t).view.emb (ix2 p k)) = V c (Pipeline.arrRef spec5 0) _
    refine congrArg _ (funext fun a => Fin.ext ?_)
    match a with
    | ⟨0, _⟩ =>
      show win5_0.index t (0 : Fin 2) * 2000 + 1 * p.val = win5_4.index t (0 : Fin 2) * 2000 + 1 * p.val
      omega
    | ⟨1, _⟩ =>
      show win5_0.index t (1 : Fin 2) * 96 + 1 * k.val = k.val
      omega
  · show V c (Pipeline.arrRef spec5 1) (((cfg5.win 1).blk t).view.emb (ix2 p k)) = V c (Pipeline.arrRef spec5 1) _
    refine congrArg _ (funext fun a => Fin.ext ?_)
    match a with
    | ⟨0, _⟩ =>
      show win5_1.index t (0 : Fin 2) * 2000 + 1 * p.val = win5_4.index t (0 : Fin 2) * 2000 + 1 * p.val
      omega
    | ⟨1, _⟩ =>
      show win5_1.index t (1 : Fin 2) * 96 + 1 * k.val = k.val
      omega
  · show V c (Pipeline.arrRef spec5 2) (((cfg5.win 2).blk t).view.emb (ix2 k q)) = V c (Pipeline.arrRef spec5 2) _
    refine congrArg _ (funext fun a => Fin.ext ?_)
    match a with
    | ⟨0, _⟩ =>
      show win5_2.index t (0 : Fin 2) * 96 + 1 * k.val = k.val
      omega
    | ⟨1, _⟩ =>
      show win5_2.index t (1 : Fin 2) * 96 + 1 * q.val = win5_4.index t (1 : Fin 2) * 96 + 1 * q.val
      omega
  · show V c (Pipeline.arrRef spec5 3) (((cfg5.win 3).blk t).view.emb (ix2 0 q)) = V c (Pipeline.arrRef spec5 3) _
    refine congrArg _ (funext fun a => Fin.ext ?_)
    match a with
    | ⟨0, _⟩ =>
      show win5_3.index t (0 : Fin 2) * 1 + 1 * (0 : Fin 1).val = (0 : Fin 1).val
      omega
    | ⟨1, _⟩ =>
      show win5_3.index t (1 : Fin 2) * 96 + 1 * q.val = win5_4.index t (1 : Fin 2) * 96 + 1 * q.val
      omega

/-- An index of the output array is in point t's block iff each coordinate is in the block's range on its axis. -/
theorem mem_blk5 (t : Fin cfg5.N) (i : S50000x96.Idx) :
    i ∈ ((cfg5.win 4).blk t).view.set
      ↔ ∀ a : Fin 2, win5_4.index t a * S2000x96.size a ≤ (i a).val
          ∧ (i a).val < win5_4.index t a * S2000x96.size a + S2000x96.size a := by
  show i ∈ ((View.whole main_v81).slice (win5_4.rect t)).set ↔ _
  rw [View.set_slice_whole, Rect.mem_set_unit]
  exact Iff.rfl

/-- The blocks tile the array: row r is in the block of point r / 2000. -/
theorem cover5 (i : S50000x96.Idx) :
    ∃ t : Fin cfg5.N, (cfg5.win 4).flush t = true ∧ i ∈ ((cfg5.win 4).blk t).view.set := by
  have hi0 : (i 0).val < 50000 := (i 0).isLt
  have hi1 : (i 1).val < 96 := (i 1).isLt
  obtain ⟨t, ht⟩ : ∃ t : Fin cfg5.N, t.val = (i 0).val / 2000 :=
    ⟨⟨(i 0).val / 2000, by rw [show cfg5.N = 25 from N_5]; omega⟩, rfl⟩
  obtain ⟨-, -, -, -, -, -, -, -, e40, e41⟩ := idx_facts5 t
  refine ⟨t, flush5_4 t, ?_⟩
  rw [mem_blk5]
  intro a
  match a with
  | ⟨0, _⟩ =>
    show win5_4.index t (0 : Fin 2) * 2000 ≤ (i 0).val ∧ (i 0).val < win5_4.index t (0 : Fin 2) * 2000 + 2000
    omega
  | ⟨1, _⟩ =>
    show win5_4.index t (1 : Fin 2) * 96 ≤ (i 1).val ∧ (i 1).val < win5_4.index t (1 : Fin 2) * 96 + 96
    omega

/-- The output array after the region: the message-passing stage of the arrays the region found. -/
theorem final5 (c : Dev nD) :
    (dat5 (F := Ideal) V c).arrAt 4 cfg5.N
      = sumLin (M := 50000) (K := 96) (N := 96) (V c (Pipeline.arrRef spec5 0)) (V c (Pipeline.arrRef spec5 1))
          (V c (Pipeline.arrRef spec5 2)) (V c (Pipeline.arrRef spec5 3)) :=
  (dat5 (F := Ideal) V c).arrAt_eq_of_cover 4 _ (fun t _ => flushed5_eq V c t) (cover5)

end Cert.KernelIdeal.RegVal

end
-- ==== Proof.Reg6.lean ====
/-
  A dense layer of the network as the run of its launch leaves it in the result array.

  The launch walks the 50000 rows in 25 blocks of 2000 rows.  At each block it normalises the block's rows column by column, clamps them from below at zero, multiplies them into the weight
  matrix, adds the bias row and clamps from below at zero again, and writes the block back.  Block t of the rows operand is rows 2000 t … 2000 t + 1999 of its array; the scale,
  shift and bias rows and the weight matrix are read whole at every block; block t of the result goes to rows
  2000 t … 2000 t + 1999 of the result array.  So what each point writes back is a block of ONE function of the whole
  arrays, the layer's formula entry by entry; the 25 blocks cover the result array; and the array ends holding that
  function of the arrays as the launch found them.
-/
import proofs.«132872_j8993661518249_1_alg».proof.Proof.Gen.KernelIdeal.Frame
import proofs.«132872_j8993661518249_1_alg».proof.Proof.RegAffCommon

set_option maxRecDepth 16384

noncomputable section

open Idealize.ShloMosaic Idealize.ShloMosaic.TcCoe Idealize.ShloMosaic.ValueIdx Idealize.SL.Sem
open Idealize.ShloMosaic.Pipeline (Dat)

namespace Cert.KernelIdeal.RegVal

open Cert.KernelIdeal Cert.KernelIdeal.Gen Cert.GNN.AffRows

variable (V : (c : Dev nD) → (b : Ref sig .tc) → Buf (Elt Ideal) ((c : Thread nD τ).loc b))

/-- The body's result at an entry: when row r of the rows block is row n of the array X, and the other blocks hold the
    arrays S, T, W, B where the entry reads them, the layer's formula on the arrays at (n, q). -/
theorem pay6_entry (x0 : Vec Ideal S2000x96 .f32) (x1 x2 : Vec Ideal S1x96 .f32) (x3 : Vec Ideal S96x96 .f32)
    (x4 : Vec Ideal S1x96 .f32)
    (X : Cert.GNN.Arr2 50000 96) (S T : Cert.GNN.Arr2 1 96) (W : Cert.GNN.Arr2 96 96) (B : Cert.GNN.Arr2 1 96)
    (j : S2000x96.Idx) (r : Fin 2000) (q : Fin 96) (hj : j = ix2 r q) (n : Fin 50000)
    (hX : ∀ k : Fin 96, x0 (ix2 r k) = X (ix2 n k))
    (hS : ∀ k : Fin 96, x1 (ix2 (0 : Fin 1) k) = S (ix2 (0 : Fin 1) k))
    (hT : ∀ k : Fin 96, x2 (ix2 (0 : Fin 1) k) = T (ix2 (0 : Fin 1) k))
    (hW : ∀ k : Fin 96, x3 (ix2 k q) = W (ix2 k q))
    (hB : x4 (ix2 (0 : Fin 1) q) = B (ix2 (0 : Fin 1) q)) :
    k6_pay1 (F := Ideal) x0 x1 x2 x3 x4 j = Cert.GNN.affReluLinRelu X S T W B (ix2 n q) := by
  subst hj
  unfold k6_pay1
  exact affReluLinRelu_block_entry (Mb := 2000) (Mt := 50000) (K := 96) (N := 96) _ _ _ _ _ _ (shapeCast S2000x96 x0 shapeCasts_S2000x96_S2000x96) x1 x2 x3 x4 X S T W B r n q
    (fun k => (congrFun (shapeCast_self x0 shapeCasts_S2000x96_S2000x96) (ix2 r k)).trans (hX k)) hS hT hW hB

/-- The printed index maps, decided over the grid: the rows operand and the result move one block of rows per point,
    the rows and the weight matrix stay at their one block. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

set_option maxHeartbeats 2000000 in
/-- WHAT POINT t WRITES BACK is block t of the layer's formula on the arrays as the launch finds them. -/
theorem flushed6_eq (c : Dev nD) (t : Fin cfg6.N) :
    (dat6 (F := Ideal) V c).flushed 5 t = ((cfg6.win 5).blk t).view.read (Elt Ideal)
      (Cert.GNN.affReluLinRelu (M := 50000) (K := 96) (N := 96) (V c (Pipeline.arrRef spec6 0)) (V c (Pipeline.arrRef spec6 1))
        (V c (Pipeline.arrRef spec6 2)) (V c (Pipeline.arrRef spec6 3)) (V c (Pipeline.arrRef spec6 4))) := by
  show (cfg6.win 5).cut (grid6.coords t) ((dat6 V c).after 5 t) = _
  rw [after6_5]
  unfold out6_5
  rw [View.canon_unit_zero off_zero]
  simp only [View.ld_unit_zero (S := S2000x96) off_zero, View.ld_unit_zero (S := S1x96) off_zero,
    View.ld_unit_zero (S := S96x96) off_zero, View.ld_unit_zero (S := S1x96) off_zero]
  obtain ⟨e00, e01, e10, e11, e20, e21, e30, e31, e40, e41, e50, e51⟩ := idx_facts6 t
  have ht : t.val < 25 := lt_of_lt_of_eq t.isLt N_6
  funext j
  have hj0 : (j 0).val < 2000 := (j 0).isLt
  have hj1 : (j 1).val < 96 := (j 1).isLt
  rw [View.read_apply]
  refine (pay6_entry (iblk6 V c 0 t) (iblk6 V c 1 t) (iblk6 V c 2 t) (iblk6 V c 3 t) (iblk6 V c 4 t)
    (V c (Pipeline.arrRef spec6 0)) (V c (Pipeline.arrRef spec6 1)) (V c (Pipeline.arrRef spec6 2))
    (V c (Pipeline.arrRef spec6 3)) (V c (Pipeline.arrRef spec6 4))
    ((cfg6.win 5).xinj (grid6.coords t) j) ⟨(j 0).val, hj0⟩ ⟨(j 1).val, hj1⟩
    (funext fun a => match a with | ⟨0, _⟩ => rfl | ⟨1, _⟩ => rfl)
    ⟨t.val * 2000 + (j 0).val, by omega⟩ (fun k => ?_) (fun k => ?_) (fun k => ?_) (fun k => ?_) ?_).trans ?_
  · show V c (Pipeline.arrRef spec6 0) (((cfg6.win 0).blk t).view.emb (ix2 ⟨(j 0).val, hj0⟩ k)) = _
    refine congrArg (V c (Pipeline.arrRef spec6 0)) (funext fun a => Fin.ext ?_)
    match a with
    | ⟨0, _⟩ => show win6_0.index t (0 : Fin 2) * 2000 + 1 * (j 0).val = t.val * 2000 + (j 0).val; rw [e00]; omega
    | ⟨1, _⟩ => show win6_0.index t (1 : Fin 2) * 96 + 1 * k.val = k.val; rw [e01]; omega
  · show V c (Pipeline.arrRef spec6 1) (((cfg6.win 1).blk t).view.emb (ix2 (0 : Fin 1) k)) = _
    refine congrArg (V c (Pipeline.arrRef spec6 1)) (funext fun a => Fin.ext ?_)
    match a with
    | ⟨0, _⟩ => show win6_1.index t (0 : Fin 2) * 1 + 1 * 0 = 0; rw [e10]
    | ⟨1, _⟩ => show win6_1.index t (1 : Fin 2) * 96 + 1 * k.val = k.val; rw [e11]; omega
  · show V c (Pipeline.arrRef spec6 2) (((cfg6.win 2).blk t).view.emb (ix2 (0 : Fin 1) k)) = _
    refine congrArg (V c (Pipeline.arrRef spec6 2)) (funext fun a => Fin.ext ?_)
    match a with
    | ⟨0, _⟩ => show win6_2.index t (0 : Fin 2) * 1 + 1 * 0 = 0; rw [e20]
    | ⟨1, _⟩ => show win6_2.index t (1 : Fin 2) * 96 + 1 * k.val = k.val; rw [e21]; omega
  · show V c (Pipeline.arrRef spec6 3) (((cfg6.win 3).blk t).view.emb (ix2 k ⟨(j 1).val, hj1⟩)) = _
    refine congrArg (V c (Pipeline.arrRef spec6 3)) (funext fun a => Fin.ext ?_)
    match a with
    | ⟨0, _⟩ => show win6_3.index t (0 : Fin 2) * 96 + 1 * k.val = k.val; rw [e30]; omega
    | ⟨1, _⟩ => show win6_3.index t (1 : Fin 2) * 96 + 1 * (j 1).val = (j 1).val; rw [e31]; omega
  · show V c (Pipeline.arrRef spec6 4) (((cfg6.win 4).blk t).view.emb (ix2 (0 : Fin 1) ⟨(j 1).val, hj1⟩)) = _
    refine congrArg (V c (Pipeline.arrRef spec6 4)) (funext fun a => Fin.ext ?_)
    match a with
    | ⟨0, _⟩ => show win6_4.index t (0 : Fin 2) * 1 + 1 * 0 = 0; rw [e40]
    | ⟨1, _⟩ => show win6_4.index t (1 : Fin 2) * 96 + 1 * (j 1).val = (j 1).val; rw [e41]; omega
  · refine congrArg (Cert.GNN.affReluLinRelu (M := 50000) (K := 96) (N := 96) (V c (Pipeline.arrRef spec6 0))
      (V c (Pipeline.arrRef spec6 1)) (V c (Pipeline.arrRef spec6 2)) (V c (Pipeline.arrRef spec6 3))
      (V c (Pipeline.arrRef spec6 4))) (funext fun a => Fin.ext ?_)
    match a with
    | ⟨0, _⟩ => show t.val * 2000 + (j 0).val = win6_5.index t (0 : Fin 2) * 2000 + 1 * (j 0).val; rw [e50]; omega
    | ⟨1, _⟩ => show (j 1).val = win6_5.index t (1 : Fin 2) * 96 + 1 * (j 1).val; rw [e51]; omega

/-- An index of the result array is in point t's block iff each coordinate is in the block's range on its axis. -/
theorem mem_blk6 (t : Fin cfg6.N) (i : S50000x96.Idx) :
    i ∈ ((cfg6.win 5).blk t).view.set ↔ ∀ a : Fin 2, win6_5.index t a * S2000x96.size a ≤ (i a).val
      ∧ (i a).val < win6_5.index t a * S2000x96.size a + S2000x96.size a := by
  show i ∈ ((View.whole main_v95).slice (win6_5.rect t)).set ↔ _
  rw [View.set_slice_whole, Rect.mem_set_unit]
  exact Iff.rfl

/-- Every index of the result array is in the block of the point its row falls to. -/
theorem cover6 (i : S50000x96.Idx) :
    ∃ t : Fin cfg6.N, (cfg6.win 5).flush t = true ∧ i ∈ ((cfg6.win 5).blk t).view.set := by
  have hi0 : (i 0).val < 50000 := (i 0).isLt
  have hi1 : (i 1).val < 96 := (i 1).isLt
  obtain ⟨t, ht⟩ : ∃ t : Fin cfg6.N, t.val = (i 0).val / 2000 :=
    ⟨⟨(i 0).val / 2000, lt_of_lt_of_eq (by omega : (i 0).val / 2000 < 25) N_6.symm⟩, rfl⟩
  obtain ⟨-, -, -, -, -, -, -, -, -, -, e50, e51⟩ := idx_facts6 t
  refine ⟨t, flush6_5 t, ?_⟩
  rw [mem_blk6]
  intro a
  match a with
  | ⟨0, _⟩ =>
    show win6_5.index t (0 : Fin 2) * 2000 ≤ (i 0).val ∧ (i 0).val < win6_5.index t (0 : Fin 2) * 2000 + 2000
    rw [e50, ht]; omega
  | ⟨1, _⟩ =>
    show win6_5.index t (1 : Fin 2) * 96 ≤ (i 1).val ∧ (i 1).val < win6_5.index t (1 : Fin 2) * 96 + 96
    rw [e51]; omega

/-- THE RESULT ARRAY after the launch's run: the layer's formula on the arrays as the launch found them. -/
theorem final6 (c : Dev nD) :
    (Gen.dat6 (F := Ideal) V c).arrAt 5 cfg6.N
      = Cert.GNN.affReluLinRelu (M := 50000) (K := 96) (N := 96) (V c (Pipeline.arrRef spec6 0)) (V c (Pipeline.arrRef spec6 1))
        (V c (Pipeline.arrRef spec6 2)) (V c (Pipeline.arrRef spec6 3)) (V c (Pipeline.arrRef spec6 4)) :=
  (dat6 V c).arrAt_eq_of_cover 5 _ (fun t _ => flushed6_eq V c t) (cover6)

end Cert.KernelIdeal.RegVal

end
-- ==== Proof.Reg7.lean ====
/-
  A dense layer of the network as the run of its launch leaves it in the result array.

  The launch has one point: it holds all 512 rows as one block, normalises the rows column by column, multiplies them into the
  weight matrix, adds the bias row and clamps from below at zero, and writes the block back.  Every operand is read whole and the
  block written back is the whole result array.  So what the one point writes back is the layer's formula on the whole
  arrays, entry by entry, its block covers the result array, and the array ends holding that function of the arrays as the
  launch found them.
-/
import proofs.«132872_j8993661518249_1_alg».proof.Proof.Gen.KernelIdeal.Frame
import proofs.«132872_j8993661518249_1_alg».proof.Proof.RegAffCommon

set_option maxRecDepth 16384

noncomputable section

open Idealize.ShloMosaic Idealize.ShloMosaic.TcCoe Idealize.ShloMosaic.ValueIdx Idealize.SL.Sem
open Idealize.ShloMosaic.Pipeline (Dat)

namespace Cert.KernelIdeal.RegVal

open Cert.KernelIdeal Cert.KernelIdeal.Gen Cert.GNN.AffRows

variable (V : (c : Dev nD) → (b : Ref sig .tc) → Buf (Elt Ideal) ((c : Thread nD τ).loc b))

/-- The body's result at an entry: when row r of the rows block is row n of the array X, and the other blocks hold the
    arrays S, T, W, B where the entry reads them, the layer's formula on the arrays at (n, q). -/
theorem pay7_entry (x0 : Vec Ideal S512x96 .f32) (x1 x2 : Vec Ideal S1x96 .f32) (x3 : Vec Ideal S96x96 .f32)
    (x4 : Vec Ideal S1x96 .f32)
    (X : Cert.GNN.Arr2 512 96) (S T : Cert.GNN.Arr2 1 96) (W : Cert.GNN.Arr2 96 96) (B : Cert.GNN.Arr2 1 96)
    (j : S512x96.Idx) (r : Fin 512) (q : Fin 96) (hj : j = ix2 r q) (n : Fin 512)
    (hX : ∀ k : Fin 96, x0 (ix2 r k) = X (ix2 n k))
    (hS : ∀ k : Fin 96, x1 (ix2 (0 : Fin 1) k) = S (ix2 (0 : Fin 1) k))
    (hT : ∀ k : Fin 96, x2 (ix2 (0 : Fin 1) k) = T (ix2 (0 : Fin 1) k))
    (hW : ∀ k : Fin 96, x3 (ix2 k q) = W (ix2 k q))
    (hB : x4 (ix2 (0 : Fin 1) q) = B (ix2 (0 : Fin 1) q)) :
    k7_pay1 (F := Ideal) x0 x1 x2 x3 x4 j = Cert.GNN.affLinRelu X S T W B (ix2 n q) := by
  subst hj
  unfold k7_pay1
  exact affLinRelu_block_entry (Mb := 512) (Mt := 512) (K := 96) (N := 96) _ _ _ _ _ _ (shapeCast S512x96 x0 shapeCasts_S512x96_S512x96) x1 x2 x3 x4 X S T W B r n q
    (fun k => (congrFun (shapeCast_self x0 shapeCasts_S512x96_S512x96) (ix2 r k)).trans (hX k)) hS hT hW hB

/-- The printed index maps, decided over the grid: at the one point every operand and the result are at their one block. -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

set_option maxHeartbeats 2000000 in
/-- WHAT POINT t WRITES BACK is block t of the layer's formula on the arrays as the launch finds them. -/
theorem flushed7_eq (c : Dev nD) (t : Fin cfg7.N) :
    (dat7 (F := Ideal) V c).flushed 5 t = ((cfg7.win 5).blk t).view.read (Elt Ideal)
      (Cert.GNN.affLinRelu (M := 512) (K := 96) (N := 96) (V c (Pipeline.arrRef spec7 0)) (V c (Pipeline.arrRef spec7 1))
        (V c (Pipeline.arrRef spec7 2)) (V c (Pipeline.arrRef spec7 3)) (V c (Pipeline.arrRef spec7 4))) := by
  show (cfg7.win 5).cut (grid7.coords t) ((dat7 V c).after 5 t) = _
  rw [after7_5]
  unfold out7_5
  rw [View.canon_unit_zero off_zero]
  simp only [View.ld_unit_zero (S := S512x96) off_zero, View.ld_unit_zero (S := S1x96) off_zero,
    View.ld_unit_zero (S := S96x96) off_zero, View.ld_unit_zero (S := S1x96) off_zero]
  obtain ⟨e00, e01, e10, e11, e20, e21, e30, e31, e40, e41, e50, e51⟩ := idx_facts7 t
  have ht : t.val < 1 := lt_of_lt_of_eq t.isLt N_7
  funext j
  have hj0 : (j 0).val < 512 := (j 0).isLt
  have hj1 : (j 1).val < 96 := (j 1).isLt
  rw [View.read_apply]
  refine (pay7_entry (iblk7 V c 0 t) (iblk7 V c 1 t) (iblk7 V c 2 t) (iblk7 V c 3 t) (iblk7 V c 4 t)
    (V c (Pipeline.arrRef spec7 0)) (V c (Pipeline.arrRef spec7 1)) (V c (Pipeline.arrRef spec7 2))
    (V c (Pipeline.arrRef spec7 3)) (V c (Pipeline.arrRef spec7 4))
    ((cfg7.win 5).xinj (grid7.coords t) j) ⟨(j 0).val, hj0⟩ ⟨(j 1).val, hj1⟩
    (funext fun a => match a with | ⟨0, _⟩ => rfl | ⟨1, _⟩ => rfl)
    ⟨t.val * 512 + (j 0).val, by omega⟩ (fun k => ?_) (fun k => ?_) (fun k => ?_) (fun k => ?_) ?_).trans ?_
  · show V c (Pipeline.arrRef spec7 0) (((cfg7.win 0).blk t).view.emb (ix2 ⟨(j 0).val, hj0⟩ k)) = _
    refine congrArg (V c (Pipeline.arrRef spec7 0)) (funext fun a => Fin.ext ?_)
    match a with
    | ⟨0, _⟩ => show win7_0.index t (0 : Fin 2) * 512 + 1 * (j 0).val = t.val * 512 + (j 0).val; rw [e00]; omega
    | ⟨1, _⟩ => show win7_0.index t (1 : Fin 2) * 96 + 1 * k.val = k.val; rw [e01]; omega
  · show V c (Pipeline.arrRef spec7 1) (((cfg7.win 1).blk t).view.emb (ix2 (0 : Fin 1) k)) = _
    refine congrArg (V c (Pipeline.arrRef spec7 1)) (funext fun a => Fin.ext ?_)
    match a with
    | ⟨0, _⟩ => show win7_1.index t (0 : Fin 2) * 1 + 1 * 0 = 0; rw [e10]
    | ⟨1, _⟩ => show win7_1.index t (1 : Fin 2) * 96 + 1 * k.val = k.val; rw [e11]; omega
  · show V c (Pipeline.arrRef spec7 2) (((cfg7.win 2).blk t).view.emb (ix2 (0 : Fin 1) k)) = _
    refine congrArg (V c (Pipeline.arrRef spec7 2)) (funext fun a => Fin.ext ?_)
    match a with
    | ⟨0, _⟩ => show win7_2.index t (0 : Fin 2) * 1 + 1 * 0 = 0; rw [e20]
    | ⟨1, _⟩ => show win7_2.index t (1 : Fin 2) * 96 + 1 * k.val = k.val; rw [e21]; omega
  · show V c (Pipeline.arrRef spec7 3) (((cfg7.win 3).blk t).view.emb (ix2 k ⟨(j 1).val, hj1⟩)) = _
    refine congrArg (V c (Pipeline.arrRef spec7 3)) (funext fun a => Fin.ext ?_)
    match a with
    | ⟨0, _⟩ => show win7_3.index t (0 : Fin 2) * 96 + 1 * k.val = k.val; rw [e30]; omega
    | ⟨1, _⟩ => show win7_3.index t (1 : Fin 2) * 96 + 1 * (j 1).val = (j 1).val; rw [e31]; omega
  · show V c (Pipeline.arrRef spec7 4) (((cfg7.win 4).blk t).view.emb (ix2 (0 : Fin 1) ⟨(j 1).val, hj1⟩)) = _
    refine congrArg (V c (Pipeline.arrRef spec7 4)) (funext fun a => Fin.ext ?_)
    match a with
    | ⟨0, _⟩ => show win7_4.index t (0 : Fin 2) * 1 + 1 * 0 = 0; rw [e40]
    | ⟨1, _⟩ => show win7_4.index t (1 : Fin 2) * 96 + 1 * (j 1).val = (j 1).val; rw [e41]; omega
  · refine congrArg (Cert.GNN.affLinRelu (M := 512) (K := 96) (N := 96) (V c (Pipeline.arrRef spec7 0))
      (V c (Pipeline.arrRef spec7 1)) (V c (Pipeline.arrRef spec7 2)) (V c (Pipeline.arrRef spec7 3))
      (V c (Pipeline.arrRef spec7 4))) (funext fun a => Fin.ext ?_)
    match a with
    | ⟨0, _⟩ => show t.val * 512 + (j 0).val = win7_5.index t (0 : Fin 2) * 512 + 1 * (j 0).val; rw [e50]; omega
    | ⟨1, _⟩ => show (j 1).val = win7_5.index t (1 : Fin 2) * 96 + 1 * (j 1).val; rw [e51]; omega

/-- An index of the result array is in point t's block iff each coordinate is in the block's range on its axis. -/
theorem mem_blk7 (t : Fin cfg7.N) (i : S512x96.Idx) :
    i ∈ ((cfg7.win 5).blk t).view.set ↔ ∀ a : Fin 2, win7_5.index t a * S512x96.size a ≤ (i a).val
      ∧ (i a).val < win7_5.index t a * S512x96.size a + S512x96.size a := by
  show i ∈ ((View.whole main_v112).slice (win7_5.rect t)).set ↔ _
  rw [View.set_slice_whole, Rect.mem_set_unit]
  exact Iff.rfl

/-- Every index of the result array is in the block of the point its row falls to. -/
theorem cover7 (i : S512x96.Idx) :
    ∃ t : Fin cfg7.N, (cfg7.win 5).flush t = true ∧ i ∈ ((cfg7.win 5).blk t).view.set := by
  have hi0 : (i 0).val < 512 := (i 0).isLt
  have hi1 : (i 1).val < 96 := (i 1).isLt
  obtain ⟨t, ht⟩ : ∃ t : Fin cfg7.N, t.val = (i 0).val / 512 :=
    ⟨⟨(i 0).val / 512, lt_of_lt_of_eq (by omega : (i 0).val / 512 < 1) N_7.symm⟩, rfl⟩
  obtain ⟨-, -, -, -, -, -, -, -, -, -, e50, e51⟩ := idx_facts7 t
  refine ⟨t, flush7_5 t, ?_⟩
  rw [mem_blk7]
  intro a
  match a with
  | ⟨0, _⟩ =>
    show win7_5.index t (0 : Fin 2) * 512 ≤ (i 0).val ∧ (i 0).val < win7_5.index t (0 : Fin 2) * 512 + 512
    rw [e50, ht]; omega
  | ⟨1, _⟩ =>
    show win7_5.index t (1 : Fin 2) * 96 ≤ (i 1).val ∧ (i 1).val < win7_5.index t (1 : Fin 2) * 96 + 96
    rw [e51]; omega

/-- THE RESULT ARRAY after the launch's run: the layer's formula on the arrays as the launch found them. -/
theorem final7 (c : Dev nD) :
    (Gen.dat7 (F := Ideal) V c).arrAt 5 cfg7.N
      = Cert.GNN.affLinRelu (M := 512) (K := 96) (N := 96) (V c (Pipeline.arrRef spec7 0)) (V c (Pipeline.arrRef spec7 1))
        (V c (Pipeline.arrRef spec7 2)) (V c (Pipeline.arrRef spec7 3)) (V c (Pipeline.arrRef spec7 4)) :=
  (dat7 V c).arrAt_eq_of_cover 5 _ (fun t _ => flushed7_eq V c t) (cover7)

end Cert.KernelIdeal.RegVal

end
-- ==== Proof.Reg8.lean ====
/-
  The last dense stage of the network, as a function of whole arrays.

  The stage's kernel runs once, on the whole 512 × 96 array of pooled rows.  It normalises each column by a scale row
  and a shift row, multiplies by the 96 × 10 weight matrix and adds the one-row bias, with no clamp.  Its single
  block is the whole of every operand, so what it writes back is the whole output array:
  ∑ₖ (x (p, k) · s (0, k) + t (0, k)) · W (k, c) + b (0, c) at entry (p, c).
-/
import proofs.«132872_j8993661518249_1_alg».proof.Proof.Gen.KernelIdeal.Frame
import proofs.«132872_j8993661518249_1_alg».proof.Proof.Spec
import proofs.«132872_j8993661518249_1_alg».proof.Proof.RegSumCommon
import Idealize.ShloMosaic.Lib.Pipeline.Value

noncomputable section

open scoped BigOperators

namespace Cert.KernelIdeal.RegVal

open Cert.KernelIdeal Cert.KernelIdeal.Gen
open Idealize.ShloMosaic Idealize.ShloMosaic.TcCoe Idealize.ShloMosaic.ValueIdx Idealize.SL.Sem
open Idealize.ShloMosaic.Pipeline (Dat)
open Cert.GNN Cert.GNN.Rows

variable (V : (c : Dev nD) → (b : Ref sig .tc) → Buf (Elt Ideal) ((c : Thread nD τ).loc b))

/-- The body's result at entry (p, c), from the five loaded blocks. -/
theorem pay8_entry (v0 : FVec Ideal S512x96 .f32) (v2 v6 : FVec Ideal S1x96 .f32) (v11 : FVec Ideal S96x10 .f32)
    (v14 : FVec Ideal S1x10 .f32) (p : Fin 512) (c : Fin 10) :
    k8_pay1 (F := Ideal) v0 v2 v6 v11 v14 (ix2 p c)
      = (∑ k : Fin 96, affAt v0 v2 v6 p k * v11 (ix2 k c)) + v14 (ix2 0 c) := by
  unfold k8_pay1
  exact aff_lin_entry (Mb := 512) (K := 96) (N := 10) _ _ _ _ _ _ _ _ _ v0 v2 v6 v11 v14 p c

/-- The block index maps over the one-point grid: every window sits at its one block. -/
theorem idx_facts8 : ∀ t : Fin cfg8.N,
      win8_0.index t (0 : Fin 2) = 0 ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0 :=
  (by decide +kernel : ∀ t : Fin grid8.N, _)

set_option maxHeartbeats 2000000 in
/-- What the one point writes back is the one block of the stage's function of the whole arrays. -/
theorem flushed8_eq (c : Dev nD) (t : Fin cfg8.N) :
    (dat8 (F := Ideal) V c).flushed 5 t
      = ((cfg8.win 5).blk t).view.read (Elt Ideal)
          (affLin (M := 512) (K := 96) (N := 10) (V c (Pipeline.arrRef spec8 0)) (V c (Pipeline.arrRef spec8 1))
            (V c (Pipeline.arrRef spec8 2)) (V c (Pipeline.arrRef spec8 3)) (V c (Pipeline.arrRef spec8 4))) := by
  show (cfg8.win 5).cut (grid8.coords t) ((dat8 V c).after 5 t) = _
  rw [after8_5]
  unfold out8_5
  rw [View.canon_unit_zero zero_offsets]
  simp only [View.ld_unit_zero (S := S512x96) zero_offsets, View.ld_unit_zero (S := S1x96) zero_offsets,
    View.ld_unit_zero (S := S96x10) zero_offsets, View.ld_unit_zero (S := S1x10) zero_offsets]
  obtain ⟨e00, e01, e10, e11, e20, e21, e30, e31, e40, e41, e50, e51⟩ := idx_facts8 t
  funext j
  obtain ⟨p, q, rfl⟩ : ∃ (p : Fin 512) (q : Fin 10), j = ix2 p q := ⟨j 0, j 1, eq_ix2 j⟩
  show k8_pay1 (F := Ideal) (iblk8 V c 0 t) (iblk8 V c 1 t) (iblk8 V c 2 t) (iblk8 V c 3 t) (iblk8 V c 4 t) (ix2 p q) = _
  refine (pay8_entry (iblk8 V c 0 t) (iblk8 V c 1 t) (iblk8 V c 2 t) (iblk8 V c 3 t) (iblk8 V c 4 t) p q).trans ?_
  refine affLin_of_blocks (M := 512) (Mb := 512) (K := 96) (N := 10)
    (V c (Pipeline.arrRef spec8 0)) (V c (Pipeline.arrRef spec8 1)) (V c (Pipeline.arrRef spec8 2))
    (V c (Pipeline.arrRef spec8 3)) (V c (Pipeline.arrRef spec8 4))
    (iblk8 V c 0 t) (iblk8 V c 1 t) (iblk8 V c 2 t) (iblk8 V c 3 t) (iblk8 V c 4 t) p q
    (((cfg8.win 5).blk t).view.emb (ix2 p q)) (fun k => ?_) (fun k => ?_) (fun k => ?_) (fun k => ?_) ?_
  · show V c (Pipeline.arrRef spec8 0) (((cfg8.win 0).blk t).view.emb (ix2 p k)) = V c (Pipeline.arrRef spec8 0) _
    refine congrArg _ (funext fun a => Fin.ext ?_)
    match a with
    | ⟨0, _⟩ =>
      show win8_0.index t (0 : Fin 2) * 512 + 1 * p.val = win8_5.index t (0 : Fin 2) * 512 + 1 * p.val
      omega
    | ⟨1, _⟩ =>
      show win8_0.index t (1 : Fin 2) * 96 + 1 * k.val = k.val
      omega
  · show V c (Pipeline.arrRef spec8 1) (((cfg8.win 1).blk t).view.emb (ix2 0 k)) = V c (Pipeline.arrRef spec8 1) _
    refine congrArg _ (funext fun a => Fin.ext ?_)
    match a with
    | ⟨0, _⟩ =>
      show win8_1.index t (0 : Fin 2) * 1 + 1 * (0 : Fin 1).val = (0 : Fin 1).val
      omega
    | ⟨1, _⟩ =>
      show win8_1.index t (1 : Fin 2) * 96 + 1 * k.val = k.val
      omega
  · show V c (Pipeline.arrRef spec8 2) (((cfg8.win 2).blk t).view.emb (ix2 0 k)) = V c (Pipeline.arrRef spec8 2) _
    refine congrArg _ (funext fun a => Fin.ext ?_)
    match a with
    | ⟨0, _⟩ =>
      show win8_2.index t (0 : Fin 2) * 1 + 1 * (0 : Fin 1).val = (0 : Fin 1).val
      omega
    | ⟨1, _⟩ =>
      show win8_2.index t (1 : Fin 2) * 96 + 1 * k.val = k.val
      omega
  · show V c (Pipeline.arrRef spec8 3) (((cfg8.win 3).blk t).view.emb (ix2 k q)) = V c (Pipeline.arrRef spec8 3) _
    refine congrArg _ (funext fun a => Fin.ext ?_)
    match a with
    | ⟨0, _⟩ =>
      show win8_3.index t (0 : Fin 2) * 96 + 1 * k.val = k.val
      omega
    | ⟨1, _⟩ =>
      show win8_3.index t (1 : Fin 2) * 10 + 1 * q.val = win8_5.index t (1 : Fin 2) * 10 + 1 * q.val
      omega
  · show V c (Pipeline.arrRef spec8 4) (((cfg8.win 4).blk t).view.emb (ix2 0 q)) = V c (Pipeline.arrRef spec8 4) _
    refine congrArg _ (funext fun a => Fin.ext ?_)
    match a with
    | ⟨0, _⟩ =>
      show win8_4.index t (0 : Fin 2) * 1 + 1 * (0 : Fin 1).val = (0 : Fin 1).val
      omega
    | ⟨1, _⟩ =>
      show win8_4.index t (1 : Fin 2) * 10 + 1 * q.val = win8_5.index t (1 : Fin 2) * 10 + 1 * q.val
      omega

/-- An index of the output array is in the point's block iff each coordinate is in the block's range on its axis. -/
theorem mem_blk8 (t : Fin cfg8.N) (i : S512x10.Idx) :
    i ∈ ((cfg8.win 5).blk t).view.set
      ↔ ∀ a : Fin 2, win8_5.index t a * S512x10.size a ≤ (i a).val
          ∧ (i a).val < win8_5.index t a * S512x10.size a + S512x10.size a := by
  show i ∈ ((View.whole main_v126).slice (win8_5.rect t)).set ↔ _
  rw [View.set_slice_whole, Rect.mem_set_unit]
  exact Iff.rfl

/-- The one block is the whole array. -/
theorem cover8 (i : S512x10.Idx) :
    ∃ t : Fin cfg8.N, (cfg8.win 5).flush t = true ∧ i ∈ ((cfg8.win 5).blk t).view.set := by
  have hi0 : (i 0).val < 512 := (i 0).isLt
  have hi1 : (i 1).val < 10 := (i 1).isLt
  obtain ⟨-, -, -, -, -, -, -, -, -, -, e50, e51⟩ := idx_facts8 t8_0
  refine ⟨t8_0, flush8_5 t8_0, ?_⟩
  rw [mem_blk8]
  intro a
  match a with
  | ⟨0, _⟩ =>
    show win8_5.index t8_0 (0 : Fin 2) * 512 ≤ (i 0).val ∧ (i 0).val < win8_5.index t8_0 (0 : Fin 2) * 512 + 512
    omega
  | ⟨1, _⟩ =>
    show win8_5.index t8_0 (1 : Fin 2) * 10 ≤ (i 1).val ∧ (i 1).val < win8_5.index t8_0 (1 : Fin 2) * 10 + 10
    omega

/-- The output array after the region: the last dense stage of the arrays the region found. -/
theorem final8 (c : Dev nD) :
    (dat8 (F := Ideal) V c).arrAt 5 cfg8.N
      = affLin (M := 512) (K := 96) (N := 10) (V c (Pipeline.arrRef spec8 0)) (V c (Pipeline.arrRef spec8 1))
          (V c (Pipeline.arrRef spec8 2)) (V c (Pipeline.arrRef spec8 3)) (V c (Pipeline.arrRef spec8 4)) :=
  (dat8 (F := Ideal) V c).arrAt_eq_of_cover 5 _ (fun t _ => flushed8_eq V c t) (cover8)

end Cert.KernelIdeal.RegVal

end
-- ==== Proof.KRunNamed.lean ====
/- The kernel program's run with its result named.

   The program is a sequence of host stretches and TensorCore regions.  Each segment transforms the buffer
   contents; the contents at the successive segment boundaries form a fold from the launch memory, and the last
   boundary is the memory the run ends in.  Here the terminating run is stated with a post-condition that, besides
   "every argument array ends as launched", names the result array: at the end of the run the result buffer holds
   what the last boundary of the fold holds there.  The value of that last boundary as a closed term of the
   arguments is a separate matter (the sibling module on the value). -/
import proofs.«132872_j8993661518249_1_alg».proof.Proof.Gen.KernelIdeal.Frame
import Idealize.ShloMosaic.PureOps.Ideal

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- the launch lemma's implicit arguments are found by unifying its conclusion with this one, which takes unfolding
-- plain definitions in a metavariable's type
set_option backward.isDefEq.respectTransparency.types false in
/-- Every weakly fair execution of the program on the TensorCores, from any memory with zero counters, terminates
    without fault; in every final state the result array holds the last boundary's contents, and every argument
    array is as launched. -/
theorem _root_.Cert.KernelIdeal.KRun.run_named (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v127) = W31 (F := Ideal) m ρ c (Proc.devRef .tc main_v127)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W31 m ρ c b)
    (hfin := fun c s' => by
      iintro ⟨⟨Hh, -⟩, HSI⟩
      unfold StableHlo.held
      imodintro
      iapply (pointsTo_read_all (Pipeline.ucRefs τ sig) (fun b => (((c : Thread nD τ)).1, b)) (W31 m ρ c) s')
      isplitl [Hh] <;> iassumption)
    (hQ := fun s h c =>
      ⟨h c _ (mem_uc main_v127 (by decide)),
       (h c _ (mem_uc main_arg0 (by decide))).trans (W31_main_arg0 m ρ c),
       (h c _ (mem_uc main_arg1 (by decide))).trans (W31_main_arg1 m ρ c),
       (h c _ (mem_uc main_arg2 (by decide))).trans (W31_main_arg2 m ρ c),
       (h c _ (mem_uc main_arg3 (by decide))).trans (W31_main_arg3 m ρ c),
       (h c _ (mem_uc main_arg4 (by decide))).trans (W31_main_arg4 m ρ c),
       (h c _ (mem_uc main_arg5 (by decide))).trans (W31_main_arg5 m ρ c),
       (h c _ (mem_uc main_arg6 (by decide))).trans (W31_main_arg6 m ρ c),
       (h c _ (mem_uc main_arg7 (by decide))).trans (W31_main_arg7 m ρ c),
       (h c _ (mem_uc main_arg8 (by decide))).trans (W31_main_arg8 m ρ c),
       (h c _ (mem_uc main_arg9 (by decide))).trans (W31_main_arg9 m ρ c),
       (h c _ (mem_uc main_arg10 (by decide))).trans (W31_main_arg10 m ρ c),
       (h c _ (mem_uc main_arg11 (by decide))).trans (W31_main_arg11 m ρ c),
       (h c _ (mem_uc main_arg12 (by decide))).trans (W31_main_arg12 m ρ c),
       (h c _ (mem_uc main_arg13 (by decide))).trans (W31_main_arg13 m ρ c),
       (h c _ (mem_uc main_arg14 (by decide))).trans (W31_main_arg14 m ρ c),
       (h c _ (mem_uc main_arg15 (by decide))).trans (W31_main_arg15 m ρ c),
       (h c _ (mem_uc main_arg16 (by decide))).trans (W31_main_arg16 m ρ c),
       (h c _ (mem_uc main_arg17 (by decide))).trans (W31_main_arg17 m ρ c),
       (h c _ (mem_uc main_arg18 (by decide))).trans (W31_main_arg18 m ρ c),
       (h c _ (mem_uc main_arg19 (by decide))).trans (W31_main_arg19 m ρ c),
       (h c _ (mem_uc main_arg20 (by decide))).trans (W31_main_arg20 m ρ c),
       (h c _ (mem_uc main_arg21 (by decide))).trans (W31_main_arg21 m ρ c),
       (h c _ (mem_uc main_arg22 (by decide))).trans (W31_main_arg22 m ρ c),
       (h c _ (mem_uc main_arg23 (by decide))).trans (W31_main_arg23 m ρ c),
       (h c _ (mem_uc main_arg24 (by decide))).trans (W31_main_arg24 m ρ c),
       (h c _ (mem_uc main_arg25 (by decide))).trans (W31_main_arg25 m ρ c),
       (h c _ (mem_uc main_arg26 (by decide))).trans (W31_main_arg26 m ρ c),
       (h c _ (mem_uc main_arg27 (by decide))).trans (W31_main_arg27 m ρ c),
       (h c _ (mem_uc main_arg28 (by decide))).trans (W31_main_arg28 m ρ c),
       (h c _ (mem_uc main_arg29 (by decide))).trans (W31_main_arg29 m ρ c),
       (h c _ (mem_uc main_arg30 (by decide))).trans (W31_main_arg30 m ρ c),
       (h c _ (mem_uc main_arg31 (by decide))).trans (W31_main_arg31 m ρ c),
       (h c _ (mem_uc main_arg32 (by decide))).trans (W31_main_arg32 m ρ c)⟩)

end Cert.KernelIdeal.Gen

end
-- ==== Proof.KStages.lean ====
/- The host stages of the graph network, as functions of whole arrays, at the ideal reading of floats.

   Both programs (the one with TensorCore regions and the plain one) compute, between their dense layers, the same
   host-side pieces: the two rows of the edge list turned into index columns (the source row with negative entries
   wrapped around by the node count), the column means and biased column variances of a feature matrix, the
   neighbour aggregation (gather the source rows, scatter-add them at the destination rows), the pooling of nodes
   into graphs (scatter-add by graph id), the batch-norm scale and shift laid out as rows, a bias laid out as a row,
   and the final log-softmax over the classes.  Each is defined here once, as the composition of the array
   operations in the order the programs apply them, so that either program's run can name its intermediate values
   by these functions.  The last section reads the scale, shift and bias rows at one entry. -/
import proofs.«132872_j8993661518249_1_alg».proof.Proof.Gen.KernelIdeal
import Idealize.ShloMosaic.Lib.ValueIdx
import Idealize.ShloMosaic.Lib.Pipeline.Value

noncomputable section

namespace Cert.Stages

open Idealize.ShloMosaic Idealize.ShloMosaic.ValueIdx
open Cert.KernelIdeal Cert.KernelIdeal.Facts₀ Cert.KernelIdeal.Facts

/-- A float array of shape `S` at the ideal reading: a function from the indices to the extended reals. -/
abbrev FA (S : Shape) : Type := (⟨S, .f32⟩ : BufTy).Contents (Elt Ideal)
/-- A 32-bit integer array of shape `S`. -/
abbrev IA (S : Shape) : Type := (⟨S, .i32⟩ : BufTy).Contents (Elt Ideal)

/-! ## The edge list as index columns -/

/-- Row 0 of the edge list (the sources), as a vector. -/
def edgeRow0 (e : IA S2x800000) : IA S800000 :=
  shapeCast S800000 (extractStridedSlice S1x800000 ![0, 0] e slices_S2x800000_S1x800000_0_0) shapeCasts_S1x800000_S800000

/-- Row 1 of the edge list (the destinations), as a vector. -/
def edgeRow1 (e : IA S2x800000) : IA S800000 :=
  shapeCast S800000 (extractStridedSlice S1x800000 ![1, 0] e slices_S2x800000_S1x800000_1_0) shapeCasts_S1x800000_S800000

/-- A source vector with each negative entry increased by the node count, as a column. -/
def srcCol (s : IA S800000) : IA S800000x1 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- A destination vector as a column. -/
def dstCol (d : IA S800000) : IA S800000x1 :=
  broadcastInDim S800000x1 ![0] bcast_S800000_S800000x1_0 d

/-- The source index column of an edge list. -/
def srcIdx (e : IA S2x800000) : IA S800000x1 := srcCol (edgeRow0 e)

/-- The destination index column of an edge list. -/
def dstIdx (e : IA S2x800000) : IA S800000x1 := dstCol (edgeRow1 e)

/-! ## Column statistics -/

/-- The column sums of a [50000, 128] array divided by 50000: the column means. -/
def mean128 (x : FA S50000x128) : FA S128 :=
  Host.divf (Host.reduceAdd x (constant (F := Ideal) S_ .f32 0x00000000#32) reducesTo_S50000x128_S128_d0 h_S_)
    (broadcastInDim S128 ![] bcast_S_S128 (constant (F := Ideal) S_ .f32 0x47435000#32))

/-- The number of rows less the integer correction `c`, as a float: the divisor of the variance. -/
def cnt128 (c : IA S_) : FA S_ :=
  subf (constant (F := Ideal) S_ .f32 0x47435000#32) (sitofp .f32 c)

/-- Each entry less its column's mean (the mean laid out as a row and repeated down the rows). -/
def dev128 (x : FA S50000x128) : FA S50000x128 :=
  subf x (broadcastInDim S50000x128 ![0, 1] bcast_S1x128_S50000x128_0_1
    (Host.divf (broadcastInDim S1x128 ![1] bcast_S128_S1x128_1
        (Host.reduceAdd x (constant (F := Ideal) S_ .f32 0x00000000#32) reducesTo_S50000x128_S128_d0 h_S_))
      (broadcastInDim S1x128 ![] bcast_S_S1x128 (constant (F := Ideal) S_ .f32 0x47435000#32))))

/-- The column variances with correction `c`: the column sums of the squared deviations over the divisor where the
    divisor is positive, the not-a-number pattern elsewhere. -/
def varCore128 (x : FA S50000x128) (c : IA S_) : FA S128 :=
  select (broadcastInDim S128 ![] bcast_S_S128 (cmpf .ogt (cnt128 c) (constant (F := Ideal) S_ .f32 0x00000000#32)))
    (Host.divf (Host.reduceAdd (mulf (dev128 x) (dev128 x)) (constant (F := Ideal) S_ .f32 0x00000000#32) reducesTo_S50000x128_S128_d0 h_S_)
      (broadcastInDim S128 ![] bcast_S_S128 (cnt128 c)))
    (broadcastInDim S128 ![] bcast_S_S128 (id (constant (F := Ideal) S_ .f32 0x7FC00000#32)))

/-- The column variances with correction zero (the biased variance). -/
def var128 (x : FA S50000x128) : FA S128 := varCore128 x (constantI S_ 32 0#32)

/-- The column sums of a [50000, 96] array divided by 50000: the column means. -/
def mean96 (x : FA S50000x96) : FA S96 :=
  Host.divf (Host.reduceAdd x (constant (F := Ideal) S_ .f32 0x00000000#32) reducesTo_S50000x96_S96_d0 h_S_)
    (broadcastInDim S96 ![] bcast_S_S96 (constant (F := Ideal) S_ .f32 0x47435000#32))

/-- The number of rows less the integer correction `c`, as a float: the divisor of the variance. -/
def cnt96 (c : IA S_) : FA S_ :=
  subf (constant (F := Ideal) S_ .f32 0x47435000#32) (sitofp .f32 c)

/-- Each entry less its column's mean (the mean laid out as a row and repeated down the rows). -/
def dev96 (x : FA S50000x96) : FA S50000x96 :=
  subf x (broadcastInDim S50000x96 ![0, 1] bcast_S1x96_S50000x96_0_1
    (Host.divf (broadcastInDim S1x96 ![1] bcast_S96_S1x96_1
        (Host.reduceAdd x (constant (F := Ideal) S_ .f32 0x00000000#32) reducesTo_S50000x96_S96_d0 h_S_))
      (broadcastInDim S1x96 ![] bcast_S_S1x96 (constant (F := Ideal) S_ .f32 0x47435000#32))))

/-- The column variances with correction `c`: the column sums of the squared deviations over the divisor where the
    divisor is positive, the not-a-number pattern elsewhere. -/
def varCore96 (x : FA S50000x96) (c : IA S_) : FA S96 :=
  select (broadcastInDim S96 ![] bcast_S_S96 (cmpf .ogt (cnt96 c) (constant (F := Ideal) S_ .f32 0x00000000#32)))
    (Host.divf (Host.reduceAdd (mulf (dev96 x) (dev96 x)) (constant (F := Ideal) S_ .f32 0x00000000#32) reducesTo_S50000x96_S96_d0 h_S_)
      (broadcastInDim S96 ![] bcast_S_S96 (cnt96 c)))
    (broadcastInDim S96 ![] bcast_S_S96 (id (constant (F := Ideal) S_ .f32 0x7FC00000#32)))

/-- The column variances with correction zero (the biased variance). -/
def var96 (x : FA S50000x96) : FA S96 := varCore96 x (constantI S_ 32 0#32)

/-- The column sums of a [512, 96] array divided by 512: the column means. -/
def mean512 (x : FA S512x96) : FA S96 :=
  Host.divf (Host.reduceAdd x (constant (F := Ideal) S_ .f32 0x00000000#32) reducesTo_S512x96_S96_d0 h_S_)
    (broadcastInDim S96 ![] bcast_S_S96 (constant (F := Ideal) S_ .f32 0x44000000#32))

/-- The number of rows less the integer correction `c`, as a float: the divisor of the variance. -/
def cnt512 (c : IA S_) : FA S_ :=
  subf (constant (F := Ideal) S_ .f32 0x44000000#32) (sitofp .f32 c)

/-- Each entry less its column's mean (the mean laid out as a row and repeated down the rows). -/
def dev512 (x : FA S512x96) : FA S512x96 :=
  subf x (broadcastInDim S512x96 ![0, 1] bcast_S1x96_S512x96_0_1
    (Host.divf (broadcastInDim S1x96 ![1] bcast_S96_S1x96_1
        (Host.reduceAdd x (constant (F := Ideal) S_ .f32 0x00000000#32) reducesTo_S512x96_S96_d0 h_S_))
      (broadcastInDim S1x96 ![] bcast_S_S1x96 (constant (F := Ideal) S_ .f32 0x44000000#32))))

/-- The column variances with correction `c`: the column sums of the squared deviations over the divisor where the
    divisor is positive, the not-a-number pattern elsewhere. -/
def varCore512 (x : FA S512x96) (c : IA S_) : FA S96 :=
  select (broadcastInDim S96 ![] bcast_S_S96 (cmpf .ogt (cnt512 c) (constant (F := Ideal) S_ .f32 0x00000000#32)))
    (Host.divf (Host.reduceAdd (mulf (dev512 x) (dev512 x)) (constant (F := Ideal) S_ .f32 0x00000000#32) reducesTo_S512x96_S96_d0 h_S_)
      (broadcastInDim S96 ![] bcast_S_S96 (cnt512 c)))
    (broadcastInDim S96 ![] bcast_S_S96 (id (constant (F := Ideal) S_ .f32 0x7FC00000#32)))

/-- The column variances with correction zero (the biased variance). -/
def var512 (x : FA S512x96) : FA S96 := varCore512 x (constantI S_ 32 0#32)

/-! ## Aggregation and pooling -/

/-- The neighbour aggregation from index columns: the rows of `h` gathered at the sources and added up at the
    destinations, from zero. -/
def aggCols (h : FA S50000x96) (s d : IA S800000x1) : FA S50000x96 :=
  Host.scatterAdd scatter_S50000x96_S800000x1_S800000x96_1_0_0_1
    (broadcastInDim S50000x96 ![] bcast_S_S50000x96 (constant (F := Ideal) S_ .f32 0x00000000#32)) d
    (Host.gather gather_S50000x96_S800000x1_S800000x96_1_0_n_n_0_1_196 h s)

/-- The neighbour aggregation of `h` along an edge list. -/
def aggOf (h : FA S50000x96) (e : IA S2x800000) : FA S50000x96 := aggCols h (srcIdx e) (dstIdx e)

/-- The rows of `h` added up per graph id, from zero. -/
def poolOf (h : FA S50000x96) (batch : IA S50000) : FA S512x96 :=
  Host.scatterAdd scatter_S512x96_S50000x1_S50000x96_1_0_0_1
    (broadcastInDim S512x96 ![] bcast_S_S512x96 (constant (F := Ideal) S_ .f32 0x00000000#32))
    (broadcastInDim S50000x1 ![0] bcast_S50000_S50000x1_0 batch) h

/-! ## The log-softmax over the classes -/

/-- Each logit less its row's maximum (the maximum taken from minus infinity). -/
def shifted (l : FA S512x10) : FA S512x10 :=
  subf l (broadcastInDim S512x10 ![0, 1] bcast_S512x1_S512x10_0_1
    (broadcastInDim S512x1 ![0] bcast_S512_S512x1_0
      (maximumf (broadcastInDim S512 ![] bcast_S_S512 (constant (F := Ideal) S_ .f32 0xFF800000#32))
        (Host.reduce FloatOps.maximumf l (constant (F := Ideal) S_ .f32 0xFF800000#32) reducesTo_S512x10_S512_d1 h_S_))))

/-- The shifted logits less the logarithm of the row sums of their exponentials. -/
def tailOf (l : FA S512x10) : FA S512x10 :=
  subf (shifted l) (broadcastInDim S512x10 ![0, 1] bcast_S512x1_S512x10_0_1
    (Host.log (broadcastInDim S512x1 ![0] bcast_S512_S512x1_0
      (Host.reduceAdd (Host.exp (shifted l)) (constant (F := Ideal) S_ .f32 0x00000000#32) reducesTo_S512x10_S512_d1 h_S_))))

/-! ## Scale, shift and bias rows -/

/-- The batch-norm scale `w · rsqrt(v + ε)` of 128 columns, as a row. -/
def scaleRow128 (w v : FA S128) : FA S1x128 :=
  shapeCast S1x128 (mulf w (Host.rsqrt (addf v (broadcastInDim S128 ![] bcast_S_S128 (constant (F := Ideal) S_ .f32 0x3727C5AC#32)))))
    shapeCasts_S128_S1x128

/-- The batch-norm shift `b − μ · (w · rsqrt(v + ε))` of 128 columns, as a row. -/
def shiftRow128 (b mu w v : FA S128) : FA S1x128 :=
  shapeCast S1x128
    (subf b (mulf mu (mulf w (Host.rsqrt (addf v (broadcastInDim S128 ![] bcast_S_S128 (constant (F := Ideal) S_ .f32 0x3727C5AC#32)))))))
    shapeCasts_S128_S1x128

/-- The batch-norm scale `w · rsqrt(v + ε)` of 96 columns, as a row. -/
def scaleRow96 (w v : FA S96) : FA S1x96 :=
  shapeCast S1x96 (mulf w (Host.rsqrt (addf v (broadcastInDim S96 ![] bcast_S_S96 (constant (F := Ideal) S_ .f32 0x3727C5AC#32)))))
    shapeCasts_S96_S1x96

/-- The batch-norm shift `b − μ · (w · rsqrt(v + ε))` of 96 columns, as a row. -/
def shiftRow96 (b mu w v : FA S96) : FA S1x96 :=
  shapeCast S1x96
    (subf b (mulf mu (mulf w (Host.rsqrt (addf v (broadcastInDim S96 ![] bcast_S_S96 (constant (F := Ideal) S_ .f32 0x3727C5AC#32)))))))
    shapeCasts_S96_S1x96

/-- A bias of 96 entries as a row. -/
def row96 (b : FA S96) : FA S1x96 := shapeCast S1x96 b shapeCasts_S96_S1x96

/-- A bias of 10 entries as a row. -/
def row10 (b : FA S10) : FA S1x10 := shapeCast S1x10 b shapeCasts_S10_S1x10

end Cert.Stages

end
-- ==== Proof.KStretchA.lean ====
/- Host stretches of the program with TensorCore regions, read at the buffers later stages need (stretches hostOps0 … hostOps2_2).

   A host stretch is a straight line of array operations, each writing one buffer.  Run from ANY buffer contents
   `V`, what a result buffer holds afterwards is the stretch's operations composed, applied to what `V` holds at
   the buffers the stretch reads; a buffer the stretch does not write holds what it held.  Each lemma below states
   one such buffer as a stage function (the column statistics, the index columns, the aggregation, the scale, shift
   and bias rows, the pooling, the log-softmax) of the contents read, for contents `V` left as a variable so that
   nothing before the stretch is ever opened. -/
import proofs.«132872_j8993661518249_1_alg».proof.Proof.Gen.KernelIdeal.Launch
import proofs.«132872_j8993661518249_1_alg».proof.Proof.KStages
import Idealize.ShloMosaic.Lib.StableHlo.Run

noncomputable section

namespace Cert.KernelIdeal.KStretch

open Idealize.ShloMosaic Idealize.ShloMosaic.TcCoe Idealize.ShloMosaic.StableHlo
open Cert.KernelIdeal Cert.KernelIdeal.Gen Cert

variable (V : Valuation τ sig (Elt Ideal))

/-! ## The stretch `hostOps0` -/

/-- The buffers the stretch writes. -/
abbrev s0_W : List (Ref sig .tc) := [main_v0, main_v1, main_v2, main_v3, main_cst, main_v4, main_cst_0, main_v5, main_v6, main_c]
theorem s0_writes : (hostOps0 : List (HloOp τ sig (Elt Ideal))).Forall fun op => op.writes ⊆ (s0_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer the stretch does not write keeps its contents. -/
theorem s0_keep (r : Ref sig .tc) (h : r ∉ s0_W) : StableHlo.after (hostOps0 (F := Ideal)) V (Proc.devRef .tc r) = V (Proc.devRef .tc r) :=
  StableHlo.after_of_writes_sub hostOps0 V s0_writes h
set_option maxHeartbeats 4000000 in
theorem s0_v1 : StableHlo.after (hostOps0 (F := Ideal)) V (Proc.devRef .tc main_v1) = Stages.edgeRow0 (V (Proc.devRef .tc main_arg1)) := by
  after_results_simp <;> rfl
set_option maxHeartbeats 4000000 in
theorem s0_v3 : StableHlo.after (hostOps0 (F := Ideal)) V (Proc.devRef .tc main_v3) = Stages.edgeRow1 (V (Proc.devRef .tc main_arg1)) := by
  after_results_simp <;> rfl
set_option maxHeartbeats 4000000 in
theorem s0_v6 : StableHlo.after (hostOps0 (F := Ideal)) V (Proc.devRef .tc main_v6) = Stages.mean128 (V (Proc.devRef .tc main_arg0)) := by
  after_results_simp <;> rfl
set_option maxHeartbeats 4000000 in
theorem s0_c : StableHlo.after (hostOps0 (F := Ideal)) V (Proc.devRef .tc main_c) = (constantI S_ 32 0#32 : Stages.IA S_) := by
  after_results_simp <;> rfl

/-! ## The stretch `hostOps0_1` -/

/-- The buffers the stretch writes. -/
abbrev s0_1_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v7]
theorem s0_1_writes : (hostOps0_1 : List (HloOp τ sig (Elt Ideal))).Forall fun op => op.writes ⊆ (s0_1_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer the stretch does not write keeps its contents. -/
theorem s0_1_keep (r : Ref sig .tc) (h : r ∉ s0_1_W) : StableHlo.after (hostOps0_1 (F := Ideal)) V (Proc.devRef .tc r) = V (Proc.devRef .tc r) :=
  StableHlo.after_of_writes_sub hostOps0_1 V s0_1_writes h
set_option maxHeartbeats 4000000 in
theorem s0_1_v7 : StableHlo.after (hostOps0_1 (F := Ideal)) V (Proc.devRef .tc main_v7) = Stages.varCore128 (V (Proc.devRef .tc main_arg0)) (V (Proc.devRef .tc main_c)) := by
  after_results_simp <;> rfl

/-! ## The stretch `hostOps0_2` -/

/-- The buffers the stretch writes. -/
abbrev s0_2_W : List (Ref sig .tc) := [main_cst_1, main_v8, main_v9, main_v10, main_v11, main_v12, main_v13, main_v14, main_v15, main_v16]
theorem s0_2_writes : (hostOps0_2 : List (HloOp τ sig (Elt Ideal))).Forall fun op => op.writes ⊆ (s0_2_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer the stretch does not write keeps its contents. -/
theorem s0_2_keep (r : Ref sig .tc) (h : r ∉ s0_2_W) : StableHlo.after (hostOps0_2 (F := Ideal)) V (Proc.devRef .tc r) = V (Proc.devRef .tc r) :=
  StableHlo.after_of_writes_sub hostOps0_2 V s0_2_writes h
set_option maxHeartbeats 4000000 in
theorem s0_2_v14 : StableHlo.after (hostOps0_2 (F := Ideal)) V (Proc.devRef .tc main_v14) = Stages.scaleRow128 (V (Proc.devRef .tc main_arg3)) (V (Proc.devRef .tc main_v7)) := by
  after_results_simp <;> rfl
set_option maxHeartbeats 4000000 in
theorem s0_2_v15 : StableHlo.after (hostOps0_2 (F := Ideal)) V (Proc.devRef .tc main_v15) = Stages.shiftRow128 (V (Proc.devRef .tc main_arg4)) (V (Proc.devRef .tc main_v6)) (V (Proc.devRef .tc main_arg3)) (V (Proc.devRef .tc main_v7)) := by
  after_results_simp <;> rfl
set_option maxHeartbeats 4000000 in
theorem s0_2_v16 : StableHlo.after (hostOps0_2 (F := Ideal)) V (Proc.devRef .tc main_v16) = Stages.row96 (V (Proc.devRef .tc main_arg6)) := by
  after_results_simp <;> rfl

/-! ## The stretch `hostOps1` -/

/-- The buffers the stretch writes. -/
abbrev s1_W : List (Ref sig .tc) := [main_c_2, main_v18, main_v19, main_c_3, main_v20, main_v21, main_v22, main_v23, main_v24, main_cst_4, main_v25, main_v26, main_v27, main_v28]
theorem s1_writes : (hostOps1 : List (HloOp τ sig (Elt Ideal))).Forall fun op => op.writes ⊆ (s1_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer the stretch does not write keeps its contents. -/
theorem s1_keep (r : Ref sig .tc) (h : r ∉ s1_W) : StableHlo.after (hostOps1 (F := Ideal)) V (Proc.devRef .tc r) = V (Proc.devRef .tc r) :=
  StableHlo.after_of_writes_sub hostOps1 V s1_writes h
set_option maxHeartbeats 4000000 in
theorem s1_v27 : StableHlo.after (hostOps1 (F := Ideal)) V (Proc.devRef .tc main_v27) = Stages.aggCols (V (Proc.devRef .tc main_v17)) (Stages.srcCol (V (Proc.devRef .tc main_v1))) (Stages.dstCol (V (Proc.devRef .tc main_v3))) := by
  after_results_simp <;> rfl
set_option maxHeartbeats 4000000 in
theorem s1_v28 : StableHlo.after (hostOps1 (F := Ideal)) V (Proc.devRef .tc main_v28) = Stages.row96 (V (Proc.devRef .tc main_arg8)) := by
  after_results_simp <;> rfl

/-! ## The stretch `hostOps2` -/

/-- The buffers the stretch writes. -/
abbrev s2_W : List (Ref sig .tc) := [main_cst_5, main_v30, main_cst_6, main_v31, main_v32, main_c_7]
theorem s2_writes : (hostOps2 : List (HloOp τ sig (Elt Ideal))).Forall fun op => op.writes ⊆ (s2_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer the stretch does not write keeps its contents. -/
theorem s2_keep (r : Ref sig .tc) (h : r ∉ s2_W) : StableHlo.after (hostOps2 (F := Ideal)) V (Proc.devRef .tc r) = V (Proc.devRef .tc r) :=
  StableHlo.after_of_writes_sub hostOps2 V s2_writes h
set_option maxHeartbeats 4000000 in
theorem s2_v32 : StableHlo.after (hostOps2 (F := Ideal)) V (Proc.devRef .tc main_v32) = Stages.mean96 (V (Proc.devRef .tc main_v29)) := by
  after_results_simp <;> rfl
set_option maxHeartbeats 4000000 in
theorem s2_c_7 : StableHlo.after (hostOps2 (F := Ideal)) V (Proc.devRef .tc main_c_7) = (constantI S_ 32 0#32 : Stages.IA S_) := by
  after_results_simp <;> rfl

/-! ## The stretch `hostOps2_1` -/

/-- The buffers the stretch writes. -/
abbrev s2_1_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v33]
theorem s2_1_writes : (hostOps2_1 : List (HloOp τ sig (Elt Ideal))).Forall fun op => op.writes ⊆ (s2_1_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer the stretch does not write keeps its contents. -/
theorem s2_1_keep (r : Ref sig .tc) (h : r ∉ s2_1_W) : StableHlo.after (hostOps2_1 (F := Ideal)) V (Proc.devRef .tc r) = V (Proc.devRef .tc r) :=
  StableHlo.after_of_writes_sub hostOps2_1 V s2_1_writes h
set_option maxHeartbeats 4000000 in
theorem s2_1_v33 : StableHlo.after (hostOps2_1 (F := Ideal)) V (Proc.devRef .tc main_v33) = Stages.varCore96 (V (Proc.devRef .tc main_v29)) (V (Proc.devRef .tc main_c_7)) := by
  after_results_simp <;> rfl

/-! ## The stretch `hostOps2_2` -/

/-- The buffers the stretch writes. -/
abbrev s2_2_W : List (Ref sig .tc) := [main_cst_8, main_v34, main_v35, main_v36, main_v37, main_v38, main_v39, main_v40, main_v41, main_v42]
theorem s2_2_writes : (hostOps2_2 : List (HloOp τ sig (Elt Ideal))).Forall fun op => op.writes ⊆ (s2_2_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer the stretch does not write keeps its contents. -/
theorem s2_2_keep (r : Ref sig .tc) (h : r ∉ s2_2_W) : StableHlo.after (hostOps2_2 (F := Ideal)) V (Proc.devRef .tc r) = V (Proc.devRef .tc r) :=
  StableHlo.after_of_writes_sub hostOps2_2 V s2_2_writes h
set_option maxHeartbeats 4000000 in
theorem s2_2_v40 : StableHlo.after (hostOps2_2 (F := Ideal)) V (Proc.devRef .tc main_v40) = Stages.scaleRow96 (V (Proc.devRef .tc main_arg9)) (V (Proc.devRef .tc main_v33)) := by
  after_results_simp <;> rfl
set_option maxHeartbeats 4000000 in
theorem s2_2_v41 : StableHlo.after (hostOps2_2 (F := Ideal)) V (Proc.devRef .tc main_v41) = Stages.shiftRow96 (V (Proc.devRef .tc main_arg10)) (V (Proc.devRef .tc main_v32)) (V (Proc.devRef .tc main_arg9)) (V (Proc.devRef .tc main_v33)) := by
  after_results_simp <;> rfl
set_option maxHeartbeats 4000000 in
theorem s2_2_v42 : StableHlo.after (hostOps2_2 (F := Ideal)) V (Proc.devRef .tc main_v42) = Stages.row96 (V (Proc.devRef .tc main_arg12)) := by
  after_results_simp <;> rfl

end Cert.KernelIdeal.KStretch

end
-- ==== Proof.KStretchB.lean ====
/- Host stretches of the program with TensorCore regions, read at the buffers later stages need (stretches hostOps3 … hostOps6_1).

   A host stretch is a straight line of array operations, each writing one buffer.  Run from ANY buffer contents
   `V`, what a result buffer holds afterwards is the stretch's operations composed, applied to what `V` holds at
   the buffers the stretch reads; a buffer the stretch does not write holds what it held.  Each lemma below states
   one such buffer as a stage function (the column statistics, the index columns, the aggregation, the scale, shift
   and bias rows, the pooling, the log-softmax) of the contents read, for contents `V` left as a variable so that
   nothing before the stretch is ever opened. -/
import proofs.«132872_j8993661518249_1_alg».proof.Proof.Gen.KernelIdeal.Launch
import proofs.«132872_j8993661518249_1_alg».proof.Proof.KStages
import Idealize.ShloMosaic.Lib.StableHlo.Run

noncomputable section

namespace Cert.KernelIdeal.KStretch

open Idealize.ShloMosaic Idealize.ShloMosaic.TcCoe Idealize.ShloMosaic.StableHlo
open Cert.KernelIdeal Cert.KernelIdeal.Gen Cert

variable (V : Valuation τ sig (Elt Ideal))

/-! ## The stretch `hostOps3` -/

/-- The buffers the stretch writes. -/
abbrev s3_W : List (Ref sig .tc) := [main_c_9, main_v44, main_v45, main_c_10, main_v46, main_v47, main_v48, main_v49, main_v50, main_cst_11, main_v51, main_v52, main_v53, main_v54]
theorem s3_writes : (hostOps3 : List (HloOp τ sig (Elt Ideal))).Forall fun op => op.writes ⊆ (s3_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer the stretch does not write keeps its contents. -/
theorem s3_keep (r : Ref sig .tc) (h : r ∉ s3_W) : StableHlo.after (hostOps3 (F := Ideal)) V (Proc.devRef .tc r) = V (Proc.devRef .tc r) :=
  StableHlo.after_of_writes_sub hostOps3 V s3_writes h
set_option maxHeartbeats 4000000 in
theorem s3_v53 : StableHlo.after (hostOps3 (F := Ideal)) V (Proc.devRef .tc main_v53) = Stages.aggCols (V (Proc.devRef .tc main_v43)) (Stages.srcCol (V (Proc.devRef .tc main_v1))) (Stages.dstCol (V (Proc.devRef .tc main_v3))) := by
  after_results_simp <;> rfl
set_option maxHeartbeats 4000000 in
theorem s3_v54 : StableHlo.after (hostOps3 (F := Ideal)) V (Proc.devRef .tc main_v54) = Stages.row96 (V (Proc.devRef .tc main_arg14)) := by
  after_results_simp <;> rfl

/-! ## The stretch `hostOps4` -/

/-- The buffers the stretch writes. -/
abbrev s4_W : List (Ref sig .tc) := [main_cst_12, main_v56, main_cst_13, main_v57, main_v58, main_c_14]
theorem s4_writes : (hostOps4 : List (HloOp τ sig (Elt Ideal))).Forall fun op => op.writes ⊆ (s4_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer the stretch does not write keeps its contents. -/
theorem s4_keep (r : Ref sig .tc) (h : r ∉ s4_W) : StableHlo.after (hostOps4 (F := Ideal)) V (Proc.devRef .tc r) = V (Proc.devRef .tc r) :=
  StableHlo.after_of_writes_sub hostOps4 V s4_writes h
set_option maxHeartbeats 4000000 in
theorem s4_v58 : StableHlo.after (hostOps4 (F := Ideal)) V (Proc.devRef .tc main_v58) = Stages.mean96 (V (Proc.devRef .tc main_v55)) := by
  after_results_simp <;> rfl
set_option maxHeartbeats 4000000 in
theorem s4_c_14 : StableHlo.after (hostOps4 (F := Ideal)) V (Proc.devRef .tc main_c_14) = (constantI S_ 32 0#32 : Stages.IA S_) := by
  after_results_simp <;> rfl

/-! ## The stretch `hostOps4_1` -/

/-- The buffers the stretch writes. -/
abbrev s4_1_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v59]
theorem s4_1_writes : (hostOps4_1 : List (HloOp τ sig (Elt Ideal))).Forall fun op => op.writes ⊆ (s4_1_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer the stretch does not write keeps its contents. -/
theorem s4_1_keep (r : Ref sig .tc) (h : r ∉ s4_1_W) : StableHlo.after (hostOps4_1 (F := Ideal)) V (Proc.devRef .tc r) = V (Proc.devRef .tc r) :=
  StableHlo.after_of_writes_sub hostOps4_1 V s4_1_writes h
set_option maxHeartbeats 4000000 in
theorem s4_1_v59 : StableHlo.after (hostOps4_1 (F := Ideal)) V (Proc.devRef .tc main_v59) = Stages.varCore96 (V (Proc.devRef .tc main_v55)) (V (Proc.devRef .tc main_c_14)) := by
  after_results_simp <;> rfl

/-! ## The stretch `hostOps4_2` -/

/-- The buffers the stretch writes. -/
abbrev s4_2_W : List (Ref sig .tc) := [main_cst_15, main_v60, main_v61, main_v62, main_v63, main_v64, main_v65, main_v66, main_v67, main_v68]
theorem s4_2_writes : (hostOps4_2 : List (HloOp τ sig (Elt Ideal))).Forall fun op => op.writes ⊆ (s4_2_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer the stretch does not write keeps its contents. -/
theorem s4_2_keep (r : Ref sig .tc) (h : r ∉ s4_2_W) : StableHlo.after (hostOps4_2 (F := Ideal)) V (Proc.devRef .tc r) = V (Proc.devRef .tc r) :=
  StableHlo.after_of_writes_sub hostOps4_2 V s4_2_writes h
set_option maxHeartbeats 4000000 in
theorem s4_2_v66 : StableHlo.after (hostOps4_2 (F := Ideal)) V (Proc.devRef .tc main_v66) = Stages.scaleRow96 (V (Proc.devRef .tc main_arg15)) (V (Proc.devRef .tc main_v59)) := by
  after_results_simp <;> rfl
set_option maxHeartbeats 4000000 in
theorem s4_2_v67 : StableHlo.after (hostOps4_2 (F := Ideal)) V (Proc.devRef .tc main_v67) = Stages.shiftRow96 (V (Proc.devRef .tc main_arg16)) (V (Proc.devRef .tc main_v58)) (V (Proc.devRef .tc main_arg15)) (V (Proc.devRef .tc main_v59)) := by
  after_results_simp <;> rfl
set_option maxHeartbeats 4000000 in
theorem s4_2_v68 : StableHlo.after (hostOps4_2 (F := Ideal)) V (Proc.devRef .tc main_v68) = Stages.row96 (V (Proc.devRef .tc main_arg18)) := by
  after_results_simp <;> rfl

/-! ## The stretch `hostOps5` -/

/-- The buffers the stretch writes. -/
abbrev s5_W : List (Ref sig .tc) := [main_c_16, main_v70, main_v71, main_c_17, main_v72, main_v73, main_v74, main_v75, main_v76, main_cst_18, main_v77, main_v78, main_v79, main_v80]
theorem s5_writes : (hostOps5 : List (HloOp τ sig (Elt Ideal))).Forall fun op => op.writes ⊆ (s5_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer the stretch does not write keeps its contents. -/
theorem s5_keep (r : Ref sig .tc) (h : r ∉ s5_W) : StableHlo.after (hostOps5 (F := Ideal)) V (Proc.devRef .tc r) = V (Proc.devRef .tc r) :=
  StableHlo.after_of_writes_sub hostOps5 V s5_writes h
set_option maxHeartbeats 4000000 in
theorem s5_v79 : StableHlo.after (hostOps5 (F := Ideal)) V (Proc.devRef .tc main_v79) = Stages.aggCols (V (Proc.devRef .tc main_v69)) (Stages.srcCol (V (Proc.devRef .tc main_v1))) (Stages.dstCol (V (Proc.devRef .tc main_v3))) := by
  after_results_simp <;> rfl
set_option maxHeartbeats 4000000 in
theorem s5_v80 : StableHlo.after (hostOps5 (F := Ideal)) V (Proc.devRef .tc main_v80) = Stages.row96 (V (Proc.devRef .tc main_arg20)) := by
  after_results_simp <;> rfl

/-! ## The stretch `hostOps6` -/

/-- The buffers the stretch writes. -/
abbrev s6_W : List (Ref sig .tc) := [main_cst_19, main_v82, main_cst_20, main_v83, main_v84, main_c_21]
theorem s6_writes : (hostOps6 : List (HloOp τ sig (Elt Ideal))).Forall fun op => op.writes ⊆ (s6_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer the stretch does not write keeps its contents. -/
theorem s6_keep (r : Ref sig .tc) (h : r ∉ s6_W) : StableHlo.after (hostOps6 (F := Ideal)) V (Proc.devRef .tc r) = V (Proc.devRef .tc r) :=
  StableHlo.after_of_writes_sub hostOps6 V s6_writes h
set_option maxHeartbeats 4000000 in
theorem s6_v84 : StableHlo.after (hostOps6 (F := Ideal)) V (Proc.devRef .tc main_v84) = Stages.mean96 (V (Proc.devRef .tc main_v81)) := by
  after_results_simp <;> rfl
set_option maxHeartbeats 4000000 in
theorem s6_c_21 : StableHlo.after (hostOps6 (F := Ideal)) V (Proc.devRef .tc main_c_21) = (constantI S_ 32 0#32 : Stages.IA S_) := by
  after_results_simp <;> rfl

/-! ## The stretch `hostOps6_1` -/

/-- The buffers the stretch writes. -/
abbrev s6_1_W : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v85]
theorem s6_1_writes : (hostOps6_1 : List (HloOp τ sig (Elt Ideal))).Forall fun op => op.writes ⊆ (s6_1_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer the stretch does not write keeps its contents. -/
theorem s6_1_keep (r : Ref sig .tc) (h : r ∉ s6_1_W) : StableHlo.after (hostOps6_1 (F := Ideal)) V (Proc.devRef .tc r) = V (Proc.devRef .tc r) :=
  StableHlo.after_of_writes_sub hostOps6_1 V s6_1_writes h
set_option maxHeartbeats 4000000 in
theorem s6_1_v85 : StableHlo.after (hostOps6_1 (F := Ideal)) V (Proc.devRef .tc main_v85) = Stages.varCore96 (V (Proc.devRef .tc main_v81)) (V (Proc.devRef .tc main_c_21)) := by
  after_results_simp <;> rfl

end Cert.KernelIdeal.KStretch

end
-- ==== Proof.KStretchC.lean ====
/- Host stretches of the program with TensorCore regions, read at the buffers later stages need (stretches hostOps6_2 … hostOps9).

   A host stretch is a straight line of array operations, each writing one buffer.  Run from ANY buffer contents
   `V`, what a result buffer holds afterwards is the stretch's operations composed, applied to what `V` holds at
   the buffers the stretch reads; a buffer the stretch does not write holds what it held.  Each lemma below states
   one such buffer as a stage function (the column statistics, the index columns, the aggregation, the scale, shift
   and bias rows, the pooling, the log-softmax) of the contents read, for contents `V` left as a variable so that
   nothing before the stretch is ever opened. -/
import proofs.«132872_j8993661518249_1_alg».proof.Proof.Gen.KernelIdeal.Launch
import proofs.«132872_j8993661518249_1_alg».proof.Proof.KStages
import Idealize.ShloMosaic.Lib.StableHlo.Run

noncomputable section

namespace Cert.KernelIdeal.KStretch

open Idealize.ShloMosaic Idealize.ShloMosaic.TcCoe Idealize.ShloMosaic.StableHlo
open Cert.KernelIdeal Cert.KernelIdeal.Gen Cert

variable (V : Valuation τ sig (Elt Ideal))

/-! ## The stretch `hostOps6_2` -/

/-- The buffers the stretch writes. -/
abbrev s6_2_W : List (Ref sig .tc) := [main_cst_22, main_v86, main_v87, main_v88, main_v89, main_v90, main_v91, main_v92, main_v93, main_v94]
theorem s6_2_writes : (hostOps6_2 : List (HloOp τ sig (Elt Ideal))).Forall fun op => op.writes ⊆ (s6_2_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer the stretch does not write keeps its contents. -/
theorem s6_2_keep (r : Ref sig .tc) (h : r ∉ s6_2_W) : StableHlo.after (hostOps6_2 (F := Ideal)) V (Proc.devRef .tc r) = V (Proc.devRef .tc r) :=
  StableHlo.after_of_writes_sub hostOps6_2 V s6_2_writes h
set_option maxHeartbeats 4000000 in
theorem s6_2_v92 : StableHlo.after (hostOps6_2 (F := Ideal)) V (Proc.devRef .tc main_v92) = Stages.scaleRow96 (V (Proc.devRef .tc main_arg21)) (V (Proc.devRef .tc main_v85)) := by
  after_results_simp <;> rfl
set_option maxHeartbeats 4000000 in
theorem s6_2_v93 : StableHlo.after (hostOps6_2 (F := Ideal)) V (Proc.devRef .tc main_v93) = Stages.shiftRow96 (V (Proc.devRef .tc main_arg22)) (V (Proc.devRef .tc main_v84)) (V (Proc.devRef .tc main_arg21)) (V (Proc.devRef .tc main_v85)) := by
  after_results_simp <;> rfl
set_option maxHeartbeats 4000000 in
theorem s6_2_v94 : StableHlo.after (hostOps6_2 (F := Ideal)) V (Proc.devRef .tc main_v94) = Stages.row96 (V (Proc.devRef .tc main_arg24)) := by
  after_results_simp <;> rfl

/-! ## The stretch `hostOps7` -/

/-- The buffers the stretch writes. -/
abbrev s7_W : List (Ref sig .tc) := [main_cst_23, main_v96, main_v97, main_v98, main_cst_24, main_v99, main_cst_25, main_v100, main_v101, main_c_26]
theorem s7_writes : (hostOps7 : List (HloOp τ sig (Elt Ideal))).Forall fun op => op.writes ⊆ (s7_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer the stretch does not write keeps its contents. -/
theorem s7_keep (r : Ref sig .tc) (h : r ∉ s7_W) : StableHlo.after (hostOps7 (F := Ideal)) V (Proc.devRef .tc r) = V (Proc.devRef .tc r) :=
  StableHlo.after_of_writes_sub hostOps7 V s7_writes h
set_option maxHeartbeats 4000000 in
theorem s7_v98 : StableHlo.after (hostOps7 (F := Ideal)) V (Proc.devRef .tc main_v98) = Stages.poolOf (V (Proc.devRef .tc main_v95)) (V (Proc.devRef .tc main_arg2)) := by
  after_results_simp <;> rfl
set_option maxHeartbeats 4000000 in
theorem s7_v101 : StableHlo.after (hostOps7 (F := Ideal)) V (Proc.devRef .tc main_v101) = Stages.mean512 (Stages.poolOf (V (Proc.devRef .tc main_v95)) (V (Proc.devRef .tc main_arg2))) := by
  after_results_simp <;> rfl
set_option maxHeartbeats 4000000 in
theorem s7_c_26 : StableHlo.after (hostOps7 (F := Ideal)) V (Proc.devRef .tc main_c_26) = (constantI S_ 32 0#32 : Stages.IA S_) := by
  after_results_simp <;> rfl

/-! ## The stretch `hostOps7_1` -/

/-- The buffers the stretch writes. -/
abbrev s7_1_W : List (Ref sig .tc) := [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v102]
theorem s7_1_writes : (hostOps7_1 : List (HloOp τ sig (Elt Ideal))).Forall fun op => op.writes ⊆ (s7_1_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer the stretch does not write keeps its contents. -/
theorem s7_1_keep (r : Ref sig .tc) (h : r ∉ s7_1_W) : StableHlo.after (hostOps7_1 (F := Ideal)) V (Proc.devRef .tc r) = V (Proc.devRef .tc r) :=
  StableHlo.after_of_writes_sub hostOps7_1 V s7_1_writes h
set_option maxHeartbeats 4000000 in
theorem s7_1_v102 : StableHlo.after (hostOps7_1 (F := Ideal)) V (Proc.devRef .tc main_v102) = Stages.varCore512 (V (Proc.devRef .tc main_v98)) (V (Proc.devRef .tc main_c_26)) := by
  after_results_simp <;> rfl

/-! ## The stretch `hostOps7_2` -/

/-- The buffers the stretch writes. -/
abbrev s7_2_W : List (Ref sig .tc) := [main_cst_27, main_v103, main_v104, main_v105, main_v106, main_v107, main_v108, main_v109, main_v110, main_v111]
theorem s7_2_writes : (hostOps7_2 : List (HloOp τ sig (Elt Ideal))).Forall fun op => op.writes ⊆ (s7_2_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer the stretch does not write keeps its contents. -/
theorem s7_2_keep (r : Ref sig .tc) (h : r ∉ s7_2_W) : StableHlo.after (hostOps7_2 (F := Ideal)) V (Proc.devRef .tc r) = V (Proc.devRef .tc r) :=
  StableHlo.after_of_writes_sub hostOps7_2 V s7_2_writes h
set_option maxHeartbeats 4000000 in
theorem s7_2_v109 : StableHlo.after (hostOps7_2 (F := Ideal)) V (Proc.devRef .tc main_v109) = Stages.scaleRow96 (V (Proc.devRef .tc main_arg25)) (V (Proc.devRef .tc main_v102)) := by
  after_results_simp <;> rfl
set_option maxHeartbeats 4000000 in
theorem s7_2_v110 : StableHlo.after (hostOps7_2 (F := Ideal)) V (Proc.devRef .tc main_v110) = Stages.shiftRow96 (V (Proc.devRef .tc main_arg26)) (V (Proc.devRef .tc main_v101)) (V (Proc.devRef .tc main_arg25)) (V (Proc.devRef .tc main_v102)) := by
  after_results_simp <;> rfl
set_option maxHeartbeats 4000000 in
theorem s7_2_v111 : StableHlo.after (hostOps7_2 (F := Ideal)) V (Proc.devRef .tc main_v111) = Stages.row96 (V (Proc.devRef .tc main_arg28)) := by
  after_results_simp <;> rfl

/-! ## The stretch `hostOps8` -/

/-- The buffers the stretch writes. -/
abbrev s8_W : List (Ref sig .tc) := [main_cst_28, main_v113, main_cst_29, main_v114, main_v115, main_c_30]
theorem s8_writes : (hostOps8 : List (HloOp τ sig (Elt Ideal))).Forall fun op => op.writes ⊆ (s8_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer the stretch does not write keeps its contents. -/
theorem s8_keep (r : Ref sig .tc) (h : r ∉ s8_W) : StableHlo.after (hostOps8 (F := Ideal)) V (Proc.devRef .tc r) = V (Proc.devRef .tc r) :=
  StableHlo.after_of_writes_sub hostOps8 V s8_writes h
set_option maxHeartbeats 4000000 in
theorem s8_v115 : StableHlo.after (hostOps8 (F := Ideal)) V (Proc.devRef .tc main_v115) = Stages.mean512 (V (Proc.devRef .tc main_v112)) := by
  after_results_simp <;> rfl
set_option maxHeartbeats 4000000 in
theorem s8_c_30 : StableHlo.after (hostOps8 (F := Ideal)) V (Proc.devRef .tc main_c_30) = (constantI S_ 32 0#32 : Stages.IA S_) := by
  after_results_simp <;> rfl

/-! ## The stretch `hostOps8_1` -/

/-- The buffers the stretch writes. -/
abbrev s8_1_W : List (Ref sig .tc) := [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v116]
theorem s8_1_writes : (hostOps8_1 : List (HloOp τ sig (Elt Ideal))).Forall fun op => op.writes ⊆ (s8_1_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer the stretch does not write keeps its contents. -/
theorem s8_1_keep (r : Ref sig .tc) (h : r ∉ s8_1_W) : StableHlo.after (hostOps8_1 (F := Ideal)) V (Proc.devRef .tc r) = V (Proc.devRef .tc r) :=
  StableHlo.after_of_writes_sub hostOps8_1 V s8_1_writes h
set_option maxHeartbeats 4000000 in
theorem s8_1_v116 : StableHlo.after (hostOps8_1 (F := Ideal)) V (Proc.devRef .tc main_v116) = Stages.varCore512 (V (Proc.devRef .tc main_v112)) (V (Proc.devRef .tc main_c_30)) := by
  after_results_simp <;> rfl

/-! ## The stretch `hostOps8_2` -/

/-- The buffers the stretch writes. -/
abbrev s8_2_W : List (Ref sig .tc) := [main_cst_31, main_v117, main_v118, main_v119, main_v120, main_v121, main_v122, main_v123, main_v124, main_v125]
theorem s8_2_writes : (hostOps8_2 : List (HloOp τ sig (Elt Ideal))).Forall fun op => op.writes ⊆ (s8_2_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer the stretch does not write keeps its contents. -/
theorem s8_2_keep (r : Ref sig .tc) (h : r ∉ s8_2_W) : StableHlo.after (hostOps8_2 (F := Ideal)) V (Proc.devRef .tc r) = V (Proc.devRef .tc r) :=
  StableHlo.after_of_writes_sub hostOps8_2 V s8_2_writes h
set_option maxHeartbeats 4000000 in
theorem s8_2_v123 : StableHlo.after (hostOps8_2 (F := Ideal)) V (Proc.devRef .tc main_v123) = Stages.scaleRow96 (V (Proc.devRef .tc main_arg29)) (V (Proc.devRef .tc main_v116)) := by
  after_results_simp <;> rfl
set_option maxHeartbeats 4000000 in
theorem s8_2_v124 : StableHlo.after (hostOps8_2 (F := Ideal)) V (Proc.devRef .tc main_v124) = Stages.shiftRow96 (V (Proc.devRef .tc main_arg30)) (V (Proc.devRef .tc main_v115)) (V (Proc.devRef .tc main_arg29)) (V (Proc.devRef .tc main_v116)) := by
  after_results_simp <;> rfl
set_option maxHeartbeats 4000000 in
theorem s8_2_v125 : StableHlo.after (hostOps8_2 (F := Ideal)) V (Proc.devRef .tc main_v125) = Stages.row10 (V (Proc.devRef .tc main_arg32)) := by
  after_results_simp <;> rfl

/-! ## The stretch `hostOps9` -/

/-- The buffers the stretch writes. -/
abbrev s9_W : List (Ref sig .tc) := [main_call6_cst, main_call6_v0, main_call6_cst_0, main_call6_v1, main_call6_v2, main_call6_v3, main_call6_v4, main_call6_v5, main_call6_v6, main_call6_cst_1, main_call6_v7, main_call6_v8, main_call6_v9, main_call6_v10, main_v127]
theorem s9_writes : (hostOps9 : List (HloOp τ sig (Elt Ideal))).Forall fun op => op.writes ⊆ (s9_W.map (Proc.devRef (τ := τ) .tc)).toFinset := by
  simp only [List.Forall]; exact ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩
/-- A buffer the stretch does not write keeps its contents. -/
theorem s9_keep (r : Ref sig .tc) (h : r ∉ s9_W) : StableHlo.after (hostOps9 (F := Ideal)) V (Proc.devRef .tc r) = V (Proc.devRef .tc r) :=
  StableHlo.after_of_writes_sub hostOps9 V s9_writes h
set_option maxHeartbeats 4000000 in
theorem s9_v127 : StableHlo.after (hostOps9 (F := Ideal)) V (Proc.devRef .tc main_v127) = Stages.tailOf (V (Proc.devRef .tc main_v126)) := by
  after_results_simp <;> rfl

end Cert.KernelIdeal.KStretch

end
-- ==== Proof.KArgs.lean ====
/- The argument arrays read at the segment boundaries of the run.

   The run of the program is a fold of buffer contents through host stretches and TensorCore regions.  No host
   operation and no region writes an argument array, so at every boundary an argument's buffer still holds the
   launch contents.  Each lemma below states this for one argument at one boundary, obtained from the boundary
   before it: a host stretch keeps every buffer it does not write, and a region keeps every buffer that is not one of
   its arrays.  Only the boundaries up to the argument's last reader are stated. -/
import proofs.«132872_j8993661518249_1_alg».proof.Proof.Gen.KernelIdeal.Frame
import proofs.«132872_j8993661518249_1_alg».proof.Proof.KStretchA
import proofs.«132872_j8993661518249_1_alg».proof.Proof.KStretchB
import proofs.«132872_j8993661518249_1_alg».proof.Proof.KStretchC
import Idealize.ShloMosaic.PureOps.Ideal

set_option maxRecDepth 16384

noncomputable section

namespace Cert.KernelIdeal.KValue

open Idealize.ShloMosaic Idealize.ShloMosaic.TcCoe
open Idealize.SL Idealize.SL.Sem
open Cert Cert.KernelIdeal Cert.KernelIdeal.Gen

variable (m : (ℓ : Loc nD τ sig) → Buf (Elt Ideal) ℓ) (ρ : Dev nD → PrngReg) (c : Dev nD)

/-! ### Boundary 0 (the launch) -/

theorem w0_arg0 : W0 m ρ c (Proc.devRef .tc main_arg0) = (m ((c.tc : Thread nD τ).loc main_arg0)) := rfl
theorem w0_arg1 : W0 m ρ c (Proc.devRef .tc main_arg1) = (m ((c.tc : Thread nD τ).loc main_arg1)) := rfl
theorem w0_arg2 : W0 m ρ c (Proc.devRef .tc main_arg2) = (m ((c.tc : Thread nD τ).loc main_arg2)) := rfl
theorem w0_arg3 : W0 m ρ c (Proc.devRef .tc main_arg3) = (m ((c.tc : Thread nD τ).loc main_arg3)) := rfl
theorem w0_arg4 : W0 m ρ c (Proc.devRef .tc main_arg4) = (m ((c.tc : Thread nD τ).loc main_arg4)) := rfl
theorem w0_arg5 : W0 m ρ c (Proc.devRef .tc main_arg5) = (m ((c.tc : Thread nD τ).loc main_arg5)) := rfl
theorem w0_arg6 : W0 m ρ c (Proc.devRef .tc main_arg6) = (m ((c.tc : Thread nD τ).loc main_arg6)) := rfl
theorem w0_arg7 : W0 m ρ c (Proc.devRef .tc main_arg7) = (m ((c.tc : Thread nD τ).loc main_arg7)) := rfl
theorem w0_arg8 : W0 m ρ c (Proc.devRef .tc main_arg8) = (m ((c.tc : Thread nD τ).loc main_arg8)) := rfl
theorem w0_arg9 : W0 m ρ c (Proc.devRef .tc main_arg9) = (m ((c.tc : Thread nD τ).loc main_arg9)) := rfl
theorem w0_arg10 : W0 m ρ c (Proc.devRef .tc main_arg10) = (m ((c.tc : Thread nD τ).loc main_arg10)) := rfl
theorem w0_arg11 : W0 m ρ c (Proc.devRef .tc main_arg11) = (m ((c.tc : Thread nD τ).loc main_arg11)) := rfl
theorem w0_arg12 : W0 m ρ c (Proc.devRef .tc main_arg12) = (m ((c.tc : Thread nD τ).loc main_arg12)) := rfl
theorem w0_arg13 : W0 m ρ c (Proc.devRef .tc main_arg13) = (m ((c.tc : Thread nD τ).loc main_arg13)) := rfl
theorem w0_arg14 : W0 m ρ c (Proc.devRef .tc main_arg14) = (m ((c.tc : Thread nD τ).loc main_arg14)) := rfl
theorem w0_arg15 : W0 m ρ c (Proc.devRef .tc main_arg15) = (m ((c.tc : Thread nD τ).loc main_arg15)) := rfl
theorem w0_arg16 : W0 m ρ c (Proc.devRef .tc main_arg16) = (m ((c.tc : Thread nD τ).loc main_arg16)) := rfl
theorem w0_arg17 : W0 m ρ c (Proc.devRef .tc main_arg17) = (m ((c.tc : Thread nD τ).loc main_arg17)) := rfl
theorem w0_arg18 : W0 m ρ c (Proc.devRef .tc main_arg18) = (m ((c.tc : Thread nD τ).loc main_arg18)) := rfl
theorem w0_arg19 : W0 m ρ c (Proc.devRef .tc main_arg19) = (m ((c.tc : Thread nD τ).loc main_arg19)) := rfl
theorem w0_arg20 : W0 m ρ c (Proc.devRef .tc main_arg20) = (m ((c.tc : Thread nD τ).loc main_arg20)) := rfl
theorem w0_arg21 : W0 m ρ c (Proc.devRef .tc main_arg21) = (m ((c.tc : Thread nD τ).loc main_arg21)) := rfl
theorem w0_arg22 : W0 m ρ c (Proc.devRef .tc main_arg22) = (m ((c.tc : Thread nD τ).loc main_arg22)) := rfl
theorem w0_arg23 : W0 m ρ c (Proc.devRef .tc main_arg23) = (m ((c.tc : Thread nD τ).loc main_arg23)) := rfl
theorem w0_arg24 : W0 m ρ c (Proc.devRef .tc main_arg24) = (m ((c.tc : Thread nD τ).loc main_arg24)) := rfl
theorem w0_arg25 : W0 m ρ c (Proc.devRef .tc main_arg25) = (m ((c.tc : Thread nD τ).loc main_arg25)) := rfl
theorem w0_arg26 : W0 m ρ c (Proc.devRef .tc main_arg26) = (m ((c.tc : Thread nD τ).loc main_arg26)) := rfl
theorem w0_arg27 : W0 m ρ c (Proc.devRef .tc main_arg27) = (m ((c.tc : Thread nD τ).loc main_arg27)) := rfl
theorem w0_arg28 : W0 m ρ c (Proc.devRef .tc main_arg28) = (m ((c.tc : Thread nD τ).loc main_arg28)) := rfl
theorem w0_arg29 : W0 m ρ c (Proc.devRef .tc main_arg29) = (m ((c.tc : Thread nD τ).loc main_arg29)) := rfl
theorem w0_arg30 : W0 m ρ c (Proc.devRef .tc main_arg30) = (m ((c.tc : Thread nD τ).loc main_arg30)) := rfl
theorem w0_arg31 : W0 m ρ c (Proc.devRef .tc main_arg31) = (m ((c.tc : Thread nD τ).loc main_arg31)) := rfl
theorem w0_arg32 : W0 m ρ c (Proc.devRef .tc main_arg32) = (m ((c.tc : Thread nD τ).loc main_arg32)) := rfl

/-! ### Boundary 1 (after `hostOps0`) -/

theorem w1_arg0  : W1 m ρ c (Proc.devRef .tc main_arg0) = (m ((c.tc : Thread nD τ).loc main_arg0)) :=
  (KStretch.s0_keep (W0 m ρ c) main_arg0 (by decide)).trans (w0_arg0 m ρ c)
theorem w1_arg2  : W1 m ρ c (Proc.devRef .tc main_arg2) = (m ((c.tc : Thread nD τ).loc main_arg2)) :=
  (KStretch.s0_keep (W0 m ρ c) main_arg2 (by decide)).trans (w0_arg2 m ρ c)
theorem w1_arg3  : W1 m ρ c (Proc.devRef .tc main_arg3) = (m ((c.tc : Thread nD τ).loc main_arg3)) :=
  (KStretch.s0_keep (W0 m ρ c) main_arg3 (by decide)).trans (w0_arg3 m ρ c)
theorem w1_arg4  : W1 m ρ c (Proc.devRef .tc main_arg4) = (m ((c.tc : Thread nD τ).loc main_arg4)) :=
  (KStretch.s0_keep (W0 m ρ c) main_arg4 (by decide)).trans (w0_arg4 m ρ c)
theorem w1_arg5  : W1 m ρ c (Proc.devRef .tc main_arg5) = (m ((c.tc : Thread nD τ).loc main_arg5)) :=
  (KStretch.s0_keep (W0 m ρ c) main_arg5 (by decide)).trans (w0_arg5 m ρ c)
theorem w1_arg6  : W1 m ρ c (Proc.devRef .tc main_arg6) = (m ((c.tc : Thread nD τ).loc main_arg6)) :=
  (KStretch.s0_keep (W0 m ρ c) main_arg6 (by decide)).trans (w0_arg6 m ρ c)
theorem w1_arg7  : W1 m ρ c (Proc.devRef .tc main_arg7) = (m ((c.tc : Thread nD τ).loc main_arg7)) :=
  (KStretch.s0_keep (W0 m ρ c) main_arg7 (by decide)).trans (w0_arg7 m ρ c)
theorem w1_arg8  : W1 m ρ c (Proc.devRef .tc main_arg8) = (m ((c.tc : Thread nD τ).loc main_arg8)) :=
  (KStretch.s0_keep (W0 m ρ c) main_arg8 (by decide)).trans (w0_arg8 m ρ c)
theorem w1_arg9  : W1 m ρ c (Proc.devRef .tc main_arg9) = (m ((c.tc : Thread nD τ).loc main_arg9)) :=
  (KStretch.s0_keep (W0 m ρ c) main_arg9 (by decide)).trans (w0_arg9 m ρ c)
theorem w1_arg10  : W1 m ρ c (Proc.devRef .tc main_arg10) = (m ((c.tc : Thread nD τ).loc main_arg10)) :=
  (KStretch.s0_keep (W0 m ρ c) main_arg10 (by decide)).trans (w0_arg10 m ρ c)
theorem w1_arg11  : W1 m ρ c (Proc.devRef .tc main_arg11) = (m ((c.tc : Thread nD τ).loc main_arg11)) :=
  (KStretch.s0_keep (W0 m ρ c) main_arg11 (by decide)).trans (w0_arg11 m ρ c)
theorem w1_arg12  : W1 m ρ c (Proc.devRef .tc main_arg12) = (m ((c.tc : Thread nD τ).loc main_arg12)) :=
  (KStretch.s0_keep (W0 m ρ c) main_arg12 (by decide)).trans (w0_arg12 m ρ c)
theorem w1_arg13  : W1 m ρ c (Proc.devRef .tc main_arg13) = (m ((c.tc : Thread nD τ).loc main_arg13)) :=
  (KStretch.s0_keep (W0 m ρ c) main_arg13 (by decide)).trans (w0_arg13 m ρ c)
theorem w1_arg14  : W1 m ρ c (Proc.devRef .tc main_arg14) = (m ((c.tc : Thread nD τ).loc main_arg14)) :=
  (KStretch.s0_keep (W0 m ρ c) main_arg14 (by decide)).trans (w0_arg14 m ρ c)
theorem w1_arg15  : W1 m ρ c (Proc.devRef .tc main_arg15) = (m ((c.tc : Thread nD τ).loc main_arg15)) :=
  (KStretch.s0_keep (W0 m ρ c) main_arg15 (by decide)).trans (w0_arg15 m ρ c)
theorem w1_arg16  : W1 m ρ c (Proc.devRef .tc main_arg16) = (m ((c.tc : Thread nD τ).loc main_arg16)) :=
  (KStretch.s0_keep (W0 m ρ c) main_arg16 (by decide)).trans (w0_arg16 m ρ c)
theorem w1_arg17  : W1 m ρ c (Proc.devRef .tc main_arg17) = (m ((c.tc : Thread nD τ).loc main_arg17)) :=
  (KStretch.s0_keep (W0 m ρ c) main_arg17 (by decide)).trans (w0_arg17 m ρ c)
theorem w1_arg18  : W1 m ρ c (Proc.devRef .tc main_arg18) = (m ((c.tc : Thread nD τ).loc main_arg18)) :=
  (KStretch.s0_keep (W0 m ρ c) main_arg18 (by decide)).trans (w0_arg18 m ρ c)
theorem w1_arg19  : W1 m ρ c (Proc.devRef .tc main_arg19) = (m ((c.tc : Thread nD τ).loc main_arg19)) :=
  (KStretch.s0_keep (W0 m ρ c) main_arg19 (by decide)).trans (w0_arg19 m ρ c)
theorem w1_arg20  : W1 m ρ c (Proc.devRef .tc main_arg20) = (m ((c.tc : Thread nD τ).loc main_arg20)) :=
  (KStretch.s0_keep (W0 m ρ c) main_arg20 (by decide)).trans (w0_arg20 m ρ c)
theorem w1_arg21  : W1 m ρ c (Proc.devRef .tc main_arg21) = (m ((c.tc : Thread nD τ).loc main_arg21)) :=
  (KStretch.s0_keep (W0 m ρ c) main_arg21 (by decide)).trans (w0_arg21 m ρ c)
theorem w1_arg22  : W1 m ρ c (Proc.devRef .tc main_arg22) = (m ((c.tc : Thread nD τ).loc main_arg22)) :=
  (KStretch.s0_keep (W0 m ρ c) main_arg22 (by decide)).trans (w0_arg22 m ρ c)
theorem w1_arg23  : W1 m ρ c (Proc.devRef .tc main_arg23) = (m ((c.tc : Thread nD τ).loc main_arg23)) :=
  (KStretch.s0_keep (W0 m ρ c) main_arg23 (by decide)).trans (w0_arg23 m ρ c)
theorem w1_arg24  : W1 m ρ c (Proc.devRef .tc main_arg24) = (m ((c.tc : Thread nD τ).loc main_arg24)) :=
  (KStretch.s0_keep (W0 m ρ c) main_arg24 (by decide)).trans (w0_arg24 m ρ c)
theorem w1_arg25  : W1 m ρ c (Proc.devRef .tc main_arg25) = (m ((c.tc : Thread nD τ).loc main_arg25)) :=
  (KStretch.s0_keep (W0 m ρ c) main_arg25 (by decide)).trans (w0_arg25 m ρ c)
theorem w1_arg26  : W1 m ρ c (Proc.devRef .tc main_arg26) = (m ((c.tc : Thread nD τ).loc main_arg26)) :=
  (KStretch.s0_keep (W0 m ρ c) main_arg26 (by decide)).trans (w0_arg26 m ρ c)
theorem w1_arg27  : W1 m ρ c (Proc.devRef .tc main_arg27) = (m ((c.tc : Thread nD τ).loc main_arg27)) :=
  (KStretch.s0_keep (W0 m ρ c) main_arg27 (by decide)).trans (w0_arg27 m ρ c)
theorem w1_arg28  : W1 m ρ c (Proc.devRef .tc main_arg28) = (m ((c.tc : Thread nD τ).loc main_arg28)) :=
  (KStretch.s0_keep (W0 m ρ c) main_arg28 (by decide)).trans (w0_arg28 m ρ c)
theorem w1_arg29  : W1 m ρ c (Proc.devRef .tc main_arg29) = (m ((c.tc : Thread nD τ).loc main_arg29)) :=
  (KStretch.s0_keep (W0 m ρ c) main_arg29 (by decide)).trans (w0_arg29 m ρ c)
theorem w1_arg30  : W1 m ρ c (Proc.devRef .tc main_arg30) = (m ((c.tc : Thread nD τ).loc main_arg30)) :=
  (KStretch.s0_keep (W0 m ρ c) main_arg30 (by decide)).trans (w0_arg30 m ρ c)
theorem w1_arg31  : W1 m ρ c (Proc.devRef .tc main_arg31) = (m ((c.tc : Thread nD τ).loc main_arg31)) :=
  (KStretch.s0_keep (W0 m ρ c) main_arg31 (by decide)).trans (w0_arg31 m ρ c)
theorem w1_arg32  : W1 m ρ c (Proc.devRef .tc main_arg32) = (m ((c.tc : Thread nD τ).loc main_arg32)) :=
  (KStretch.s0_keep (W0 m ρ c) main_arg32 (by decide)).trans (w0_arg32 m ρ c)

/-! ### Boundary 2 (after `hostOps0_1`) -/

theorem w2_arg0  : W2 m ρ c (Proc.devRef .tc main_arg0) = (m ((c.tc : Thread nD τ).loc main_arg0)) :=
  (KStretch.s0_1_keep (W1 m ρ c) main_arg0 (by decide)).trans (w1_arg0 m ρ c)
theorem w2_arg2  : W2 m ρ c (Proc.devRef .tc main_arg2) = (m ((c.tc : Thread nD τ).loc main_arg2)) :=
  (KStretch.s0_1_keep (W1 m ρ c) main_arg2 (by decide)).trans (w1_arg2 m ρ c)
theorem w2_arg3  : W2 m ρ c (Proc.devRef .tc main_arg3) = (m ((c.tc : Thread nD τ).loc main_arg3)) :=
  (KStretch.s0_1_keep (W1 m ρ c) main_arg3 (by decide)).trans (w1_arg3 m ρ c)
theorem w2_arg4  : W2 m ρ c (Proc.devRef .tc main_arg4) = (m ((c.tc : Thread nD τ).loc main_arg4)) :=
  (KStretch.s0_1_keep (W1 m ρ c) main_arg4 (by decide)).trans (w1_arg4 m ρ c)
theorem w2_arg5  : W2 m ρ c (Proc.devRef .tc main_arg5) = (m ((c.tc : Thread nD τ).loc main_arg5)) :=
  (KStretch.s0_1_keep (W1 m ρ c) main_arg5 (by decide)).trans (w1_arg5 m ρ c)
theorem w2_arg6  : W2 m ρ c (Proc.devRef .tc main_arg6) = (m ((c.tc : Thread nD τ).loc main_arg6)) :=
  (KStretch.s0_1_keep (W1 m ρ c) main_arg6 (by decide)).trans (w1_arg6 m ρ c)
theorem w2_arg7  : W2 m ρ c (Proc.devRef .tc main_arg7) = (m ((c.tc : Thread nD τ).loc main_arg7)) :=
  (KStretch.s0_1_keep (W1 m ρ c) main_arg7 (by decide)).trans (w1_arg7 m ρ c)
theorem w2_arg8  : W2 m ρ c (Proc.devRef .tc main_arg8) = (m ((c.tc : Thread nD τ).loc main_arg8)) :=
  (KStretch.s0_1_keep (W1 m ρ c) main_arg8 (by decide)).trans (w1_arg8 m ρ c)
theorem w2_arg9  : W2 m ρ c (Proc.devRef .tc main_arg9) = (m ((c.tc : Thread nD τ).loc main_arg9)) :=
  (KStretch.s0_1_keep (W1 m ρ c) main_arg9 (by decide)).trans (w1_arg9 m ρ c)
theorem w2_arg10  : W2 m ρ c (Proc.devRef .tc main_arg10) = (m ((c.tc : Thread nD τ).loc main_arg10)) :=
  (KStretch.s0_1_keep (W1 m ρ c) main_arg10 (by decide)).trans (w1_arg10 m ρ c)
theorem w2_arg11  : W2 m ρ c (Proc.devRef .tc main_arg11) = (m ((c.tc : Thread nD τ).loc main_arg11)) :=
  (KStretch.s0_1_keep (W1 m ρ c) main_arg11 (by decide)).trans (w1_arg11 m ρ c)
theorem w2_arg12  : W2 m ρ c (Proc.devRef .tc main_arg12) = (m ((c.tc : Thread nD τ).loc main_arg12)) :=
  (KStretch.s0_1_keep (W1 m ρ c) main_arg12 (by decide)).trans (w1_arg12 m ρ c)
theorem w2_arg13  : W2 m ρ c (Proc.devRef .tc main_arg13) = (m ((c.tc : Thread nD τ).loc main_arg13)) :=
  (KStretch.s0_1_keep (W1 m ρ c) main_arg13 (by decide)).trans (w1_arg13 m ρ c)
theorem w2_arg14  : W2 m ρ c (Proc.devRef .tc main_arg14) = (m ((c.tc : Thread nD τ).loc main_arg14)) :=
  (KStretch.s0_1_keep (W1 m ρ c) main_arg14 (by decide)).trans (w1_arg14 m ρ c)
theorem w2_arg15  : W2 m ρ c (Proc.devRef .tc main_arg15) = (m ((c.tc : Thread nD τ).loc main_arg15)) :=
  (KStretch.s0_1_keep (W1 m ρ c) main_arg15 (by decide)).trans (w1_arg15 m ρ c)
theorem w2_arg16  : W2 m ρ c (Proc.devRef .tc main_arg16) = (m ((c.tc : Thread nD τ).loc main_arg16)) :=
  (KStretch.s0_1_keep (W1 m ρ c) main_arg16 (by decide)).trans (w1_arg16 m ρ c)
theorem w2_arg17  : W2 m ρ c (Proc.devRef .tc main_arg17) = (m ((c.tc : Thread nD τ).loc main_arg17)) :=
  (KStretch.s0_1_keep (W1 m ρ c) main_arg17 (by decide)).trans (w1_arg17 m ρ c)
theorem w2_arg18  : W2 m ρ c (Proc.devRef .tc main_arg18) = (m ((c.tc : Thread nD τ).loc main_arg18)) :=
  (KStretch.s0_1_keep (W1 m ρ c) main_arg18 (by decide)).trans (w1_arg18 m ρ c)
theorem w2_arg19  : W2 m ρ c (Proc.devRef .tc main_arg19) = (m ((c.tc : Thread nD τ).loc main_arg19)) :=
  (KStretch.s0_1_keep (W1 m ρ c) main_arg19 (by decide)).trans (w1_arg19 m ρ c)
theorem w2_arg20  : W2 m ρ c (Proc.devRef .tc main_arg20) = (m ((c.tc : Thread nD τ).loc main_arg20)) :=
  (KStretch.s0_1_keep (W1 m ρ c) main_arg20 (by decide)).trans (w1_arg20 m ρ c)
theorem w2_arg21  : W2 m ρ c (Proc.devRef .tc main_arg21) = (m ((c.tc : Thread nD τ).loc main_arg21)) :=
  (KStretch.s0_1_keep (W1 m ρ c) main_arg21 (by decide)).trans (w1_arg21 m ρ c)
theorem w2_arg22  : W2 m ρ c (Proc.devRef .tc main_arg22) = (m ((c.tc : Thread nD τ).loc main_arg22)) :=
  (KStretch.s0_1_keep (W1 m ρ c) main_arg22 (by decide)).trans (w1_arg22 m ρ c)
theorem w2_arg23  : W2 m ρ c (Proc.devRef .tc main_arg23) = (m ((c.tc : Thread nD τ).loc main_arg23)) :=
  (KStretch.s0_1_keep (W1 m ρ c) main_arg23 (by decide)).trans (w1_arg23 m ρ c)
theorem w2_arg24  : W2 m ρ c (Proc.devRef .tc main_arg24) = (m ((c.tc : Thread nD τ).loc main_arg24)) :=
  (KStretch.s0_1_keep (W1 m ρ c) main_arg24 (by decide)).trans (w1_arg24 m ρ c)
theorem w2_arg25  : W2 m ρ c (Proc.devRef .tc main_arg25) = (m ((c.tc : Thread nD τ).loc main_arg25)) :=
  (KStretch.s0_1_keep (W1 m ρ c) main_arg25 (by decide)).trans (w1_arg25 m ρ c)
theorem w2_arg26  : W2 m ρ c (Proc.devRef .tc main_arg26) = (m ((c.tc : Thread nD τ).loc main_arg26)) :=
  (KStretch.s0_1_keep (W1 m ρ c) main_arg26 (by decide)).trans (w1_arg26 m ρ c)
theorem w2_arg27  : W2 m ρ c (Proc.devRef .tc main_arg27) = (m ((c.tc : Thread nD τ).loc main_arg27)) :=
  (KStretch.s0_1_keep (W1 m ρ c) main_arg27 (by decide)).trans (w1_arg27 m ρ c)
theorem w2_arg28  : W2 m ρ c (Proc.devRef .tc main_arg28) = (m ((c.tc : Thread nD τ).loc main_arg28)) :=
  (KStretch.s0_1_keep (W1 m ρ c) main_arg28 (by decide)).trans (w1_arg28 m ρ c)
theorem w2_arg29  : W2 m ρ c (Proc.devRef .tc main_arg29) = (m ((c.tc : Thread nD τ).loc main_arg29)) :=
  (KStretch.s0_1_keep (W1 m ρ c) main_arg29 (by decide)).trans (w1_arg29 m ρ c)
theorem w2_arg30  : W2 m ρ c (Proc.devRef .tc main_arg30) = (m ((c.tc : Thread nD τ).loc main_arg30)) :=
  (KStretch.s0_1_keep (W1 m ρ c) main_arg30 (by decide)).trans (w1_arg30 m ρ c)
theorem w2_arg31  : W2 m ρ c (Proc.devRef .tc main_arg31) = (m ((c.tc : Thread nD τ).loc main_arg31)) :=
  (KStretch.s0_1_keep (W1 m ρ c) main_arg31 (by decide)).trans (w1_arg31 m ρ c)
theorem w2_arg32  : W2 m ρ c (Proc.devRef .tc main_arg32) = (m ((c.tc : Thread nD τ).loc main_arg32)) :=
  (KStretch.s0_1_keep (W1 m ρ c) main_arg32 (by decide)).trans (w1_arg32 m ρ c)

/-! ### Boundary 3 (after `hostOps0_2`) -/

theorem w3_arg0  : W3 m ρ c (Proc.devRef .tc main_arg0) = (m ((c.tc : Thread nD τ).loc main_arg0)) :=
  (KStretch.s0_2_keep (W2 m ρ c) main_arg0 (by decide)).trans (w2_arg0 m ρ c)
theorem w3_arg2  : W3 m ρ c (Proc.devRef .tc main_arg2) = (m ((c.tc : Thread nD τ).loc main_arg2)) :=
  (KStretch.s0_2_keep (W2 m ρ c) main_arg2 (by decide)).trans (w2_arg2 m ρ c)
theorem w3_arg5  : W3 m ρ c (Proc.devRef .tc main_arg5) = (m ((c.tc : Thread nD τ).loc main_arg5)) :=
  (KStretch.s0_2_keep (W2 m ρ c) main_arg5 (by decide)).trans (w2_arg5 m ρ c)
theorem w3_arg7  : W3 m ρ c (Proc.devRef .tc main_arg7) = (m ((c.tc : Thread nD τ).loc main_arg7)) :=
  (KStretch.s0_2_keep (W2 m ρ c) main_arg7 (by decide)).trans (w2_arg7 m ρ c)
theorem w3_arg8  : W3 m ρ c (Proc.devRef .tc main_arg8) = (m ((c.tc : Thread nD τ).loc main_arg8)) :=
  (KStretch.s0_2_keep (W2 m ρ c) main_arg8 (by decide)).trans (w2_arg8 m ρ c)
theorem w3_arg9  : W3 m ρ c (Proc.devRef .tc main_arg9) = (m ((c.tc : Thread nD τ).loc main_arg9)) :=
  (KStretch.s0_2_keep (W2 m ρ c) main_arg9 (by decide)).trans (w2_arg9 m ρ c)
theorem w3_arg10  : W3 m ρ c (Proc.devRef .tc main_arg10) = (m ((c.tc : Thread nD τ).loc main_arg10)) :=
  (KStretch.s0_2_keep (W2 m ρ c) main_arg10 (by decide)).trans (w2_arg10 m ρ c)
theorem w3_arg11  : W3 m ρ c (Proc.devRef .tc main_arg11) = (m ((c.tc : Thread nD τ).loc main_arg11)) :=
  (KStretch.s0_2_keep (W2 m ρ c) main_arg11 (by decide)).trans (w2_arg11 m ρ c)
theorem w3_arg12  : W3 m ρ c (Proc.devRef .tc main_arg12) = (m ((c.tc : Thread nD τ).loc main_arg12)) :=
  (KStretch.s0_2_keep (W2 m ρ c) main_arg12 (by decide)).trans (w2_arg12 m ρ c)
theorem w3_arg13  : W3 m ρ c (Proc.devRef .tc main_arg13) = (m ((c.tc : Thread nD τ).loc main_arg13)) :=
  (KStretch.s0_2_keep (W2 m ρ c) main_arg13 (by decide)).trans (w2_arg13 m ρ c)
theorem w3_arg14  : W3 m ρ c (Proc.devRef .tc main_arg14) = (m ((c.tc : Thread nD τ).loc main_arg14)) :=
  (KStretch.s0_2_keep (W2 m ρ c) main_arg14 (by decide)).trans (w2_arg14 m ρ c)
theorem w3_arg15  : W3 m ρ c (Proc.devRef .tc main_arg15) = (m ((c.tc : Thread nD τ).loc main_arg15)) :=
  (KStretch.s0_2_keep (W2 m ρ c) main_arg15 (by decide)).trans (w2_arg15 m ρ c)
theorem w3_arg16  : W3 m ρ c (Proc.devRef .tc main_arg16) = (m ((c.tc : Thread nD τ).loc main_arg16)) :=
  (KStretch.s0_2_keep (W2 m ρ c) main_arg16 (by decide)).trans (w2_arg16 m ρ c)
theorem w3_arg17  : W3 m ρ c (Proc.devRef .tc main_arg17) = (m ((c.tc : Thread nD τ).loc main_arg17)) :=
  (KStretch.s0_2_keep (W2 m ρ c) main_arg17 (by decide)).trans (w2_arg17 m ρ c)
theorem w3_arg18  : W3 m ρ c (Proc.devRef .tc main_arg18) = (m ((c.tc : Thread nD τ).loc main_arg18)) :=
  (KStretch.s0_2_keep (W2 m ρ c) main_arg18 (by decide)).trans (w2_arg18 m ρ c)
theorem w3_arg19  : W3 m ρ c (Proc.devRef .tc main_arg19) = (m ((c.tc : Thread nD τ).loc main_arg19)) :=
  (KStretch.s0_2_keep (W2 m ρ c) main_arg19 (by decide)).trans (w2_arg19 m ρ c)
theorem w3_arg20  : W3 m ρ c (Proc.devRef .tc main_arg20) = (m ((c.tc : Thread nD τ).loc main_arg20)) :=
  (KStretch.s0_2_keep (W2 m ρ c) main_arg20 (by decide)).trans (w2_arg20 m ρ c)
theorem w3_arg21  : W3 m ρ c (Proc.devRef .tc main_arg21) = (m ((c.tc : Thread nD τ).loc main_arg21)) :=
  (KStretch.s0_2_keep (W2 m ρ c) main_arg21 (by decide)).trans (w2_arg21 m ρ c)
theorem w3_arg22  : W3 m ρ c (Proc.devRef .tc main_arg22) = (m ((c.tc : Thread nD τ).loc main_arg22)) :=
  (KStretch.s0_2_keep (W2 m ρ c) main_arg22 (by decide)).trans (w2_arg22 m ρ c)
theorem w3_arg23  : W3 m ρ c (Proc.devRef .tc main_arg23) = (m ((c.tc : Thread nD τ).loc main_arg23)) :=
  (KStretch.s0_2_keep (W2 m ρ c) main_arg23 (by decide)).trans (w2_arg23 m ρ c)
theorem w3_arg24  : W3 m ρ c (Proc.devRef .tc main_arg24) = (m ((c.tc : Thread nD τ).loc main_arg24)) :=
  (KStretch.s0_2_keep (W2 m ρ c) main_arg24 (by decide)).trans (w2_arg24 m ρ c)
theorem w3_arg25  : W3 m ρ c (Proc.devRef .tc main_arg25) = (m ((c.tc : Thread nD τ).loc main_arg25)) :=
  (KStretch.s0_2_keep (W2 m ρ c) main_arg25 (by decide)).trans (w2_arg25 m ρ c)
theorem w3_arg26  : W3 m ρ c (Proc.devRef .tc main_arg26) = (m ((c.tc : Thread nD τ).loc main_arg26)) :=
  (KStretch.s0_2_keep (W2 m ρ c) main_arg26 (by decide)).trans (w2_arg26 m ρ c)
theorem w3_arg27  : W3 m ρ c (Proc.devRef .tc main_arg27) = (m ((c.tc : Thread nD τ).loc main_arg27)) :=
  (KStretch.s0_2_keep (W2 m ρ c) main_arg27 (by decide)).trans (w2_arg27 m ρ c)
theorem w3_arg28  : W3 m ρ c (Proc.devRef .tc main_arg28) = (m ((c.tc : Thread nD τ).loc main_arg28)) :=
  (KStretch.s0_2_keep (W2 m ρ c) main_arg28 (by decide)).trans (w2_arg28 m ρ c)
theorem w3_arg29  : W3 m ρ c (Proc.devRef .tc main_arg29) = (m ((c.tc : Thread nD τ).loc main_arg29)) :=
  (KStretch.s0_2_keep (W2 m ρ c) main_arg29 (by decide)).trans (w2_arg29 m ρ c)
theorem w3_arg30  : W3 m ρ c (Proc.devRef .tc main_arg30) = (m ((c.tc : Thread nD τ).loc main_arg30)) :=
  (KStretch.s0_2_keep (W2 m ρ c) main_arg30 (by decide)).trans (w2_arg30 m ρ c)
theorem w3_arg31  : W3 m ρ c (Proc.devRef .tc main_arg31) = (m ((c.tc : Thread nD τ).loc main_arg31)) :=
  (KStretch.s0_2_keep (W2 m ρ c) main_arg31 (by decide)).trans (w2_arg31 m ρ c)
theorem w3_arg32  : W3 m ρ c (Proc.devRef .tc main_arg32) = (m ((c.tc : Thread nD τ).loc main_arg32)) :=
  (KStretch.s0_2_keep (W2 m ρ c) main_arg32 (by decide)).trans (w2_arg32 m ρ c)

/-! ### Boundary 4 (after region 0) -/

theorem w4_arg2  : W4 m ρ c (Proc.devRef .tc main_arg2) = (m ((c.tc : Thread nD τ).loc main_arg2)) :=
  (W4_of_ne m ρ c main_arg2 (by decide)).trans (w3_arg2 m ρ c)
theorem w4_arg7  : W4 m ρ c (Proc.devRef .tc main_arg7) = (m ((c.tc : Thread nD τ).loc main_arg7)) :=
  (W4_of_ne m ρ c main_arg7 (by decide)).trans (w3_arg7 m ρ c)
theorem w4_arg8  : W4 m ρ c (Proc.devRef .tc main_arg8) = (m ((c.tc : Thread nD τ).loc main_arg8)) :=
  (W4_of_ne m ρ c main_arg8 (by decide)).trans (w3_arg8 m ρ c)
theorem w4_arg9  : W4 m ρ c (Proc.devRef .tc main_arg9) = (m ((c.tc : Thread nD τ).loc main_arg9)) :=
  (W4_of_ne m ρ c main_arg9 (by decide)).trans (w3_arg9 m ρ c)
theorem w4_arg10  : W4 m ρ c (Proc.devRef .tc main_arg10) = (m ((c.tc : Thread nD τ).loc main_arg10)) :=
  (W4_of_ne m ρ c main_arg10 (by decide)).trans (w3_arg10 m ρ c)
theorem w4_arg11  : W4 m ρ c (Proc.devRef .tc main_arg11) = (m ((c.tc : Thread nD τ).loc main_arg11)) :=
  (W4_of_ne m ρ c main_arg11 (by decide)).trans (w3_arg11 m ρ c)
theorem w4_arg12  : W4 m ρ c (Proc.devRef .tc main_arg12) = (m ((c.tc : Thread nD τ).loc main_arg12)) :=
  (W4_of_ne m ρ c main_arg12 (by decide)).trans (w3_arg12 m ρ c)
theorem w4_arg13  : W4 m ρ c (Proc.devRef .tc main_arg13) = (m ((c.tc : Thread nD τ).loc main_arg13)) :=
  (W4_of_ne m ρ c main_arg13 (by decide)).trans (w3_arg13 m ρ c)
theorem w4_arg14  : W4 m ρ c (Proc.devRef .tc main_arg14) = (m ((c.tc : Thread nD τ).loc main_arg14)) :=
  (W4_of_ne m ρ c main_arg14 (by decide)).trans (w3_arg14 m ρ c)
theorem w4_arg15  : W4 m ρ c (Proc.devRef .tc main_arg15) = (m ((c.tc : Thread nD τ).loc main_arg15)) :=
  (W4_of_ne m ρ c main_arg15 (by decide)).trans (w3_arg15 m ρ c)
theorem w4_arg16  : W4 m ρ c (Proc.devRef .tc main_arg16) = (m ((c.tc : Thread nD τ).loc main_arg16)) :=
  (W4_of_ne m ρ c main_arg16 (by decide)).trans (w3_arg16 m ρ c)
theorem w4_arg17  : W4 m ρ c (Proc.devRef .tc main_arg17) = (m ((c.tc : Thread nD τ).loc main_arg17)) :=
  (W4_of_ne m ρ c main_arg17 (by decide)).trans (w3_arg17 m ρ c)
theorem w4_arg18  : W4 m ρ c (Proc.devRef .tc main_arg18) = (m ((c.tc : Thread nD τ).loc main_arg18)) :=
  (W4_of_ne m ρ c main_arg18 (by decide)).trans (w3_arg18 m ρ c)
theorem w4_arg19  : W4 m ρ c (Proc.devRef .tc main_arg19) = (m ((c.tc : Thread nD τ).loc main_arg19)) :=
  (W4_of_ne m ρ c main_arg19 (by decide)).trans (w3_arg19 m ρ c)
theorem w4_arg20  : W4 m ρ c (Proc.devRef .tc main_arg20) = (m ((c.tc : Thread nD τ).loc main_arg20)) :=
  (W4_of_ne m ρ c main_arg20 (by decide)).trans (w3_arg20 m ρ c)
theorem w4_arg21  : W4 m ρ c (Proc.devRef .tc main_arg21) = (m ((c.tc : Thread nD τ).loc main_arg21)) :=
  (W4_of_ne m ρ c main_arg21 (by decide)).trans (w3_arg21 m ρ c)
theorem w4_arg22  : W4 m ρ c (Proc.devRef .tc main_arg22) = (m ((c.tc : Thread nD τ).loc main_arg22)) :=
  (W4_of_ne m ρ c main_arg22 (by decide)).trans (w3_arg22 m ρ c)
theorem w4_arg23  : W4 m ρ c (Proc.devRef .tc main_arg23) = (m ((c.tc : Thread nD τ).loc main_arg23)) :=
  (W4_of_ne m ρ c main_arg23 (by decide)).trans (w3_arg23 m ρ c)
theorem w4_arg24  : W4 m ρ c (Proc.devRef .tc main_arg24) = (m ((c.tc : Thread nD τ).loc main_arg24)) :=
  (W4_of_ne m ρ c main_arg24 (by decide)).trans (w3_arg24 m ρ c)
theorem w4_arg25  : W4 m ρ c (Proc.devRef .tc main_arg25) = (m ((c.tc : Thread nD τ).loc main_arg25)) :=
  (W4_of_ne m ρ c main_arg25 (by decide)).trans (w3_arg25 m ρ c)
theorem w4_arg26  : W4 m ρ c (Proc.devRef .tc main_arg26) = (m ((c.tc : Thread nD τ).loc main_arg26)) :=
  (W4_of_ne m ρ c main_arg26 (by decide)).trans (w3_arg26 m ρ c)
theorem w4_arg27  : W4 m ρ c (Proc.devRef .tc main_arg27) = (m ((c.tc : Thread nD τ).loc main_arg27)) :=
  (W4_of_ne m ρ c main_arg27 (by decide)).trans (w3_arg27 m ρ c)
theorem w4_arg28  : W4 m ρ c (Proc.devRef .tc main_arg28) = (m ((c.tc : Thread nD τ).loc main_arg28)) :=
  (W4_of_ne m ρ c main_arg28 (by decide)).trans (w3_arg28 m ρ c)
theorem w4_arg29  : W4 m ρ c (Proc.devRef .tc main_arg29) = (m ((c.tc : Thread nD τ).loc main_arg29)) :=
  (W4_of_ne m ρ c main_arg29 (by decide)).trans (w3_arg29 m ρ c)
theorem w4_arg30  : W4 m ρ c (Proc.devRef .tc main_arg30) = (m ((c.tc : Thread nD τ).loc main_arg30)) :=
  (W4_of_ne m ρ c main_arg30 (by decide)).trans (w3_arg30 m ρ c)
theorem w4_arg31  : W4 m ρ c (Proc.devRef .tc main_arg31) = (m ((c.tc : Thread nD τ).loc main_arg31)) :=
  (W4_of_ne m ρ c main_arg31 (by decide)).trans (w3_arg31 m ρ c)
theorem w4_arg32  : W4 m ρ c (Proc.devRef .tc main_arg32) = (m ((c.tc : Thread nD τ).loc main_arg32)) :=
  (W4_of_ne m ρ c main_arg32 (by decide)).trans (w3_arg32 m ρ c)

/-! ### Boundary 5 (after `hostOps1`) -/

theorem w5_arg2  : W5 m ρ c (Proc.devRef .tc main_arg2) = (m ((c.tc : Thread nD τ).loc main_arg2)) :=
  (KStretch.s1_keep (W4 m ρ c) main_arg2 (by decide)).trans (w4_arg2 m ρ c)
theorem w5_arg7  : W5 m ρ c (Proc.devRef .tc main_arg7) = (m ((c.tc : Thread nD τ).loc main_arg7)) :=
  (KStretch.s1_keep (W4 m ρ c) main_arg7 (by decide)).trans (w4_arg7 m ρ c)
theorem w5_arg9  : W5 m ρ c (Proc.devRef .tc main_arg9) = (m ((c.tc : Thread nD τ).loc main_arg9)) :=
  (KStretch.s1_keep (W4 m ρ c) main_arg9 (by decide)).trans (w4_arg9 m ρ c)
theorem w5_arg10  : W5 m ρ c (Proc.devRef .tc main_arg10) = (m ((c.tc : Thread nD τ).loc main_arg10)) :=
  (KStretch.s1_keep (W4 m ρ c) main_arg10 (by decide)).trans (w4_arg10 m ρ c)
theorem w5_arg11  : W5 m ρ c (Proc.devRef .tc main_arg11) = (m ((c.tc : Thread nD τ).loc main_arg11)) :=
  (KStretch.s1_keep (W4 m ρ c) main_arg11 (by decide)).trans (w4_arg11 m ρ c)
theorem w5_arg12  : W5 m ρ c (Proc.devRef .tc main_arg12) = (m ((c.tc : Thread nD τ).loc main_arg12)) :=
  (KStretch.s1_keep (W4 m ρ c) main_arg12 (by decide)).trans (w4_arg12 m ρ c)
theorem w5_arg13  : W5 m ρ c (Proc.devRef .tc main_arg13) = (m ((c.tc : Thread nD τ).loc main_arg13)) :=
  (KStretch.s1_keep (W4 m ρ c) main_arg13 (by decide)).trans (w4_arg13 m ρ c)
theorem w5_arg14  : W5 m ρ c (Proc.devRef .tc main_arg14) = (m ((c.tc : Thread nD τ).loc main_arg14)) :=
  (KStretch.s1_keep (W4 m ρ c) main_arg14 (by decide)).trans (w4_arg14 m ρ c)
theorem w5_arg15  : W5 m ρ c (Proc.devRef .tc main_arg15) = (m ((c.tc : Thread nD τ).loc main_arg15)) :=
  (KStretch.s1_keep (W4 m ρ c) main_arg15 (by decide)).trans (w4_arg15 m ρ c)
theorem w5_arg16  : W5 m ρ c (Proc.devRef .tc main_arg16) = (m ((c.tc : Thread nD τ).loc main_arg16)) :=
  (KStretch.s1_keep (W4 m ρ c) main_arg16 (by decide)).trans (w4_arg16 m ρ c)
theorem w5_arg17  : W5 m ρ c (Proc.devRef .tc main_arg17) = (m ((c.tc : Thread nD τ).loc main_arg17)) :=
  (KStretch.s1_keep (W4 m ρ c) main_arg17 (by decide)).trans (w4_arg17 m ρ c)
theorem w5_arg18  : W5 m ρ c (Proc.devRef .tc main_arg18) = (m ((c.tc : Thread nD τ).loc main_arg18)) :=
  (KStretch.s1_keep (W4 m ρ c) main_arg18 (by decide)).trans (w4_arg18 m ρ c)
theorem w5_arg19  : W5 m ρ c (Proc.devRef .tc main_arg19) = (m ((c.tc : Thread nD τ).loc main_arg19)) :=
  (KStretch.s1_keep (W4 m ρ c) main_arg19 (by decide)).trans (w4_arg19 m ρ c)
theorem w5_arg20  : W5 m ρ c (Proc.devRef .tc main_arg20) = (m ((c.tc : Thread nD τ).loc main_arg20)) :=
  (KStretch.s1_keep (W4 m ρ c) main_arg20 (by decide)).trans (w4_arg20 m ρ c)
theorem w5_arg21  : W5 m ρ c (Proc.devRef .tc main_arg21) = (m ((c.tc : Thread nD τ).loc main_arg21)) :=
  (KStretch.s1_keep (W4 m ρ c) main_arg21 (by decide)).trans (w4_arg21 m ρ c)
theorem w5_arg22  : W5 m ρ c (Proc.devRef .tc main_arg22) = (m ((c.tc : Thread nD τ).loc main_arg22)) :=
  (KStretch.s1_keep (W4 m ρ c) main_arg22 (by decide)).trans (w4_arg22 m ρ c)
theorem w5_arg23  : W5 m ρ c (Proc.devRef .tc main_arg23) = (m ((c.tc : Thread nD τ).loc main_arg23)) :=
  (KStretch.s1_keep (W4 m ρ c) main_arg23 (by decide)).trans (w4_arg23 m ρ c)
theorem w5_arg24  : W5 m ρ c (Proc.devRef .tc main_arg24) = (m ((c.tc : Thread nD τ).loc main_arg24)) :=
  (KStretch.s1_keep (W4 m ρ c) main_arg24 (by decide)).trans (w4_arg24 m ρ c)
theorem w5_arg25  : W5 m ρ c (Proc.devRef .tc main_arg25) = (m ((c.tc : Thread nD τ).loc main_arg25)) :=
  (KStretch.s1_keep (W4 m ρ c) main_arg25 (by decide)).trans (w4_arg25 m ρ c)
theorem w5_arg26  : W5 m ρ c (Proc.devRef .tc main_arg26) = (m ((c.tc : Thread nD τ).loc main_arg26)) :=
  (KStretch.s1_keep (W4 m ρ c) main_arg26 (by decide)).trans (w4_arg26 m ρ c)
theorem w5_arg27  : W5 m ρ c (Proc.devRef .tc main_arg27) = (m ((c.tc : Thread nD τ).loc main_arg27)) :=
  (KStretch.s1_keep (W4 m ρ c) main_arg27 (by decide)).trans (w4_arg27 m ρ c)
theorem w5_arg28  : W5 m ρ c (Proc.devRef .tc main_arg28) = (m ((c.tc : Thread nD τ).loc main_arg28)) :=
  (KStretch.s1_keep (W4 m ρ c) main_arg28 (by decide)).trans (w4_arg28 m ρ c)
theorem w5_arg29  : W5 m ρ c (Proc.devRef .tc main_arg29) = (m ((c.tc : Thread nD τ).loc main_arg29)) :=
  (KStretch.s1_keep (W4 m ρ c) main_arg29 (by decide)).trans (w4_arg29 m ρ c)
theorem w5_arg30  : W5 m ρ c (Proc.devRef .tc main_arg30) = (m ((c.tc : Thread nD τ).loc main_arg30)) :=
  (KStretch.s1_keep (W4 m ρ c) main_arg30 (by decide)).trans (w4_arg30 m ρ c)
theorem w5_arg31  : W5 m ρ c (Proc.devRef .tc main_arg31) = (m ((c.tc : Thread nD τ).loc main_arg31)) :=
  (KStretch.s1_keep (W4 m ρ c) main_arg31 (by decide)).trans (w4_arg31 m ρ c)
theorem w5_arg32  : W5 m ρ c (Proc.devRef .tc main_arg32) = (m ((c.tc : Thread nD τ).loc main_arg32)) :=
  (KStretch.s1_keep (W4 m ρ c) main_arg32 (by decide)).trans (w4_arg32 m ρ c)

/-! ### Boundary 6 (after region 1) -/

theorem w6_arg2  : W6 m ρ c (Proc.devRef .tc main_arg2) = (m ((c.tc : Thread nD τ).loc main_arg2)) :=
  (W6_of_ne m ρ c main_arg2 (by decide)).trans (w5_arg2 m ρ c)
theorem w6_arg9  : W6 m ρ c (Proc.devRef .tc main_arg9) = (m ((c.tc : Thread nD τ).loc main_arg9)) :=
  (W6_of_ne m ρ c main_arg9 (by decide)).trans (w5_arg9 m ρ c)
theorem w6_arg10  : W6 m ρ c (Proc.devRef .tc main_arg10) = (m ((c.tc : Thread nD τ).loc main_arg10)) :=
  (W6_of_ne m ρ c main_arg10 (by decide)).trans (w5_arg10 m ρ c)
theorem w6_arg11  : W6 m ρ c (Proc.devRef .tc main_arg11) = (m ((c.tc : Thread nD τ).loc main_arg11)) :=
  (W6_of_ne m ρ c main_arg11 (by decide)).trans (w5_arg11 m ρ c)
theorem w6_arg12  : W6 m ρ c (Proc.devRef .tc main_arg12) = (m ((c.tc : Thread nD τ).loc main_arg12)) :=
  (W6_of_ne m ρ c main_arg12 (by decide)).trans (w5_arg12 m ρ c)
theorem w6_arg13  : W6 m ρ c (Proc.devRef .tc main_arg13) = (m ((c.tc : Thread nD τ).loc main_arg13)) :=
  (W6_of_ne m ρ c main_arg13 (by decide)).trans (w5_arg13 m ρ c)
theorem w6_arg14  : W6 m ρ c (Proc.devRef .tc main_arg14) = (m ((c.tc : Thread nD τ).loc main_arg14)) :=
  (W6_of_ne m ρ c main_arg14 (by decide)).trans (w5_arg14 m ρ c)
theorem w6_arg15  : W6 m ρ c (Proc.devRef .tc main_arg15) = (m ((c.tc : Thread nD τ).loc main_arg15)) :=
  (W6_of_ne m ρ c main_arg15 (by decide)).trans (w5_arg15 m ρ c)
theorem w6_arg16  : W6 m ρ c (Proc.devRef .tc main_arg16) = (m ((c.tc : Thread nD τ).loc main_arg16)) :=
  (W6_of_ne m ρ c main_arg16 (by decide)).trans (w5_arg16 m ρ c)
theorem w6_arg17  : W6 m ρ c (Proc.devRef .tc main_arg17) = (m ((c.tc : Thread nD τ).loc main_arg17)) :=
  (W6_of_ne m ρ c main_arg17 (by decide)).trans (w5_arg17 m ρ c)
theorem w6_arg18  : W6 m ρ c (Proc.devRef .tc main_arg18) = (m ((c.tc : Thread nD τ).loc main_arg18)) :=
  (W6_of_ne m ρ c main_arg18 (by decide)).trans (w5_arg18 m ρ c)
theorem w6_arg19  : W6 m ρ c (Proc.devRef .tc main_arg19) = (m ((c.tc : Thread nD τ).loc main_arg19)) :=
  (W6_of_ne m ρ c main_arg19 (by decide)).trans (w5_arg19 m ρ c)
theorem w6_arg20  : W6 m ρ c (Proc.devRef .tc main_arg20) = (m ((c.tc : Thread nD τ).loc main_arg20)) :=
  (W6_of_ne m ρ c main_arg20 (by decide)).trans (w5_arg20 m ρ c)
theorem w6_arg21  : W6 m ρ c (Proc.devRef .tc main_arg21) = (m ((c.tc : Thread nD τ).loc main_arg21)) :=
  (W6_of_ne m ρ c main_arg21 (by decide)).trans (w5_arg21 m ρ c)
theorem w6_arg22  : W6 m ρ c (Proc.devRef .tc main_arg22) = (m ((c.tc : Thread nD τ).loc main_arg22)) :=
  (W6_of_ne m ρ c main_arg22 (by decide)).trans (w5_arg22 m ρ c)
theorem w6_arg23  : W6 m ρ c (Proc.devRef .tc main_arg23) = (m ((c.tc : Thread nD τ).loc main_arg23)) :=
  (W6_of_ne m ρ c main_arg23 (by decide)).trans (w5_arg23 m ρ c)
theorem w6_arg24  : W6 m ρ c (Proc.devRef .tc main_arg24) = (m ((c.tc : Thread nD τ).loc main_arg24)) :=
  (W6_of_ne m ρ c main_arg24 (by decide)).trans (w5_arg24 m ρ c)
theorem w6_arg25  : W6 m ρ c (Proc.devRef .tc main_arg25) = (m ((c.tc : Thread nD τ).loc main_arg25)) :=
  (W6_of_ne m ρ c main_arg25 (by decide)).trans (w5_arg25 m ρ c)
theorem w6_arg26  : W6 m ρ c (Proc.devRef .tc main_arg26) = (m ((c.tc : Thread nD τ).loc main_arg26)) :=
  (W6_of_ne m ρ c main_arg26 (by decide)).trans (w5_arg26 m ρ c)
theorem w6_arg27  : W6 m ρ c (Proc.devRef .tc main_arg27) = (m ((c.tc : Thread nD τ).loc main_arg27)) :=
  (W6_of_ne m ρ c main_arg27 (by decide)).trans (w5_arg27 m ρ c)
theorem w6_arg28  : W6 m ρ c (Proc.devRef .tc main_arg28) = (m ((c.tc : Thread nD τ).loc main_arg28)) :=
  (W6_of_ne m ρ c main_arg28 (by decide)).trans (w5_arg28 m ρ c)
theorem w6_arg29  : W6 m ρ c (Proc.devRef .tc main_arg29) = (m ((c.tc : Thread nD τ).loc main_arg29)) :=
  (W6_of_ne m ρ c main_arg29 (by decide)).trans (w5_arg29 m ρ c)
theorem w6_arg30  : W6 m ρ c (Proc.devRef .tc main_arg30) = (m ((c.tc : Thread nD τ).loc main_arg30)) :=
  (W6_of_ne m ρ c main_arg30 (by decide)).trans (w5_arg30 m ρ c)
theorem w6_arg31  : W6 m ρ c (Proc.devRef .tc main_arg31) = (m ((c.tc : Thread nD τ).loc main_arg31)) :=
  (W6_of_ne m ρ c main_arg31 (by decide)).trans (w5_arg31 m ρ c)
theorem w6_arg32  : W6 m ρ c (Proc.devRef .tc main_arg32) = (m ((c.tc : Thread nD τ).loc main_arg32)) :=
  (W6_of_ne m ρ c main_arg32 (by decide)).trans (w5_arg32 m ρ c)

/-! ### Boundary 7 (after `hostOps2`) -/

theorem w7_arg2  : W7 m ρ c (Proc.devRef .tc main_arg2) = (m ((c.tc : Thread nD τ).loc main_arg2)) :=
  (KStretch.s2_keep (W6 m ρ c) main_arg2 (by decide)).trans (w6_arg2 m ρ c)
theorem w7_arg9  : W7 m ρ c (Proc.devRef .tc main_arg9) = (m ((c.tc : Thread nD τ).loc main_arg9)) :=
  (KStretch.s2_keep (W6 m ρ c) main_arg9 (by decide)).trans (w6_arg9 m ρ c)
theorem w7_arg10  : W7 m ρ c (Proc.devRef .tc main_arg10) = (m ((c.tc : Thread nD τ).loc main_arg10)) :=
  (KStretch.s2_keep (W6 m ρ c) main_arg10 (by decide)).trans (w6_arg10 m ρ c)
theorem w7_arg11  : W7 m ρ c (Proc.devRef .tc main_arg11) = (m ((c.tc : Thread nD τ).loc main_arg11)) :=
  (KStretch.s2_keep (W6 m ρ c) main_arg11 (by decide)).trans (w6_arg11 m ρ c)
theorem w7_arg12  : W7 m ρ c (Proc.devRef .tc main_arg12) = (m ((c.tc : Thread nD τ).loc main_arg12)) :=
  (KStretch.s2_keep (W6 m ρ c) main_arg12 (by decide)).trans (w6_arg12 m ρ c)
theorem w7_arg13  : W7 m ρ c (Proc.devRef .tc main_arg13) = (m ((c.tc : Thread nD τ).loc main_arg13)) :=
  (KStretch.s2_keep (W6 m ρ c) main_arg13 (by decide)).trans (w6_arg13 m ρ c)
theorem w7_arg14  : W7 m ρ c (Proc.devRef .tc main_arg14) = (m ((c.tc : Thread nD τ).loc main_arg14)) :=
  (KStretch.s2_keep (W6 m ρ c) main_arg14 (by decide)).trans (w6_arg14 m ρ c)
theorem w7_arg15  : W7 m ρ c (Proc.devRef .tc main_arg15) = (m ((c.tc : Thread nD τ).loc main_arg15)) :=
  (KStretch.s2_keep (W6 m ρ c) main_arg15 (by decide)).trans (w6_arg15 m ρ c)
theorem w7_arg16  : W7 m ρ c (Proc.devRef .tc main_arg16) = (m ((c.tc : Thread nD τ).loc main_arg16)) :=
  (KStretch.s2_keep (W6 m ρ c) main_arg16 (by decide)).trans (w6_arg16 m ρ c)
theorem w7_arg17  : W7 m ρ c (Proc.devRef .tc main_arg17) = (m ((c.tc : Thread nD τ).loc main_arg17)) :=
  (KStretch.s2_keep (W6 m ρ c) main_arg17 (by decide)).trans (w6_arg17 m ρ c)
theorem w7_arg18  : W7 m ρ c (Proc.devRef .tc main_arg18) = (m ((c.tc : Thread nD τ).loc main_arg18)) :=
  (KStretch.s2_keep (W6 m ρ c) main_arg18 (by decide)).trans (w6_arg18 m ρ c)
theorem w7_arg19  : W7 m ρ c (Proc.devRef .tc main_arg19) = (m ((c.tc : Thread nD τ).loc main_arg19)) :=
  (KStretch.s2_keep (W6 m ρ c) main_arg19 (by decide)).trans (w6_arg19 m ρ c)
theorem w7_arg20  : W7 m ρ c (Proc.devRef .tc main_arg20) = (m ((c.tc : Thread nD τ).loc main_arg20)) :=
  (KStretch.s2_keep (W6 m ρ c) main_arg20 (by decide)).trans (w6_arg20 m ρ c)
theorem w7_arg21  : W7 m ρ c (Proc.devRef .tc main_arg21) = (m ((c.tc : Thread nD τ).loc main_arg21)) :=
  (KStretch.s2_keep (W6 m ρ c) main_arg21 (by decide)).trans (w6_arg21 m ρ c)
theorem w7_arg22  : W7 m ρ c (Proc.devRef .tc main_arg22) = (m ((c.tc : Thread nD τ).loc main_arg22)) :=
  (KStretch.s2_keep (W6 m ρ c) main_arg22 (by decide)).trans (w6_arg22 m ρ c)
theorem w7_arg23  : W7 m ρ c (Proc.devRef .tc main_arg23) = (m ((c.tc : Thread nD τ).loc main_arg23)) :=
  (KStretch.s2_keep (W6 m ρ c) main_arg23 (by decide)).trans (w6_arg23 m ρ c)
theorem w7_arg24  : W7 m ρ c (Proc.devRef .tc main_arg24) = (m ((c.tc : Thread nD τ).loc main_arg24)) :=
  (KStretch.s2_keep (W6 m ρ c) main_arg24 (by decide)).trans (w6_arg24 m ρ c)
theorem w7_arg25  : W7 m ρ c (Proc.devRef .tc main_arg25) = (m ((c.tc : Thread nD τ).loc main_arg25)) :=
  (KStretch.s2_keep (W6 m ρ c) main_arg25 (by decide)).trans (w6_arg25 m ρ c)
theorem w7_arg26  : W7 m ρ c (Proc.devRef .tc main_arg26) = (m ((c.tc : Thread nD τ).loc main_arg26)) :=
  (KStretch.s2_keep (W6 m ρ c) main_arg26 (by decide)).trans (w6_arg26 m ρ c)
theorem w7_arg27  : W7 m ρ c (Proc.devRef .tc main_arg27) = (m ((c.tc : Thread nD τ).loc main_arg27)) :=
  (KStretch.s2_keep (W6 m ρ c) main_arg27 (by decide)).trans (w6_arg27 m ρ c)
theorem w7_arg28  : W7 m ρ c (Proc.devRef .tc main_arg28) = (m ((c.tc : Thread nD τ).loc main_arg28)) :=
  (KStretch.s2_keep (W6 m ρ c) main_arg28 (by decide)).trans (w6_arg28 m ρ c)
theorem w7_arg29  : W7 m ρ c (Proc.devRef .tc main_arg29) = (m ((c.tc : Thread nD τ).loc main_arg29)) :=
  (KStretch.s2_keep (W6 m ρ c) main_arg29 (by decide)).trans (w6_arg29 m ρ c)
theorem w7_arg30  : W7 m ρ c (Proc.devRef .tc main_arg30) = (m ((c.tc : Thread nD τ).loc main_arg30)) :=
  (KStretch.s2_keep (W6 m ρ c) main_arg30 (by decide)).trans (w6_arg30 m ρ c)
theorem w7_arg31  : W7 m ρ c (Proc.devRef .tc main_arg31) = (m ((c.tc : Thread nD τ).loc main_arg31)) :=
  (KStretch.s2_keep (W6 m ρ c) main_arg31 (by decide)).trans (w6_arg31 m ρ c)
theorem w7_arg32  : W7 m ρ c (Proc.devRef .tc main_arg32) = (m ((c.tc : Thread nD τ).loc main_arg32)) :=
  (KStretch.s2_keep (W6 m ρ c) main_arg32 (by decide)).trans (w6_arg32 m ρ c)

/-! ### Boundary 8 (after `hostOps2_1`) -/

theorem w8_arg2  : W8 m ρ c (Proc.devRef .tc main_arg2) = (m ((c.tc : Thread nD τ).loc main_arg2)) :=
  (KStretch.s2_1_keep (W7 m ρ c) main_arg2 (by decide)).trans (w7_arg2 m ρ c)
theorem w8_arg9  : W8 m ρ c (Proc.devRef .tc main_arg9) = (m ((c.tc : Thread nD τ).loc main_arg9)) :=
  (KStretch.s2_1_keep (W7 m ρ c) main_arg9 (by decide)).trans (w7_arg9 m ρ c)
theorem w8_arg10  : W8 m ρ c (Proc.devRef .tc main_arg10) = (m ((c.tc : Thread nD τ).loc main_arg10)) :=
  (KStretch.s2_1_keep (W7 m ρ c) main_arg10 (by decide)).trans (w7_arg10 m ρ c)
theorem w8_arg11  : W8 m ρ c (Proc.devRef .tc main_arg11) = (m ((c.tc : Thread nD τ).loc main_arg11)) :=
  (KStretch.s2_1_keep (W7 m ρ c) main_arg11 (by decide)).trans (w7_arg11 m ρ c)
theorem w8_arg12  : W8 m ρ c (Proc.devRef .tc main_arg12) = (m ((c.tc : Thread nD τ).loc main_arg12)) :=
  (KStretch.s2_1_keep (W7 m ρ c) main_arg12 (by decide)).trans (w7_arg12 m ρ c)
theorem w8_arg13  : W8 m ρ c (Proc.devRef .tc main_arg13) = (m ((c.tc : Thread nD τ).loc main_arg13)) :=
  (KStretch.s2_1_keep (W7 m ρ c) main_arg13 (by decide)).trans (w7_arg13 m ρ c)
theorem w8_arg14  : W8 m ρ c (Proc.devRef .tc main_arg14) = (m ((c.tc : Thread nD τ).loc main_arg14)) :=
  (KStretch.s2_1_keep (W7 m ρ c) main_arg14 (by decide)).trans (w7_arg14 m ρ c)
theorem w8_arg15  : W8 m ρ c (Proc.devRef .tc main_arg15) = (m ((c.tc : Thread nD τ).loc main_arg15)) :=
  (KStretch.s2_1_keep (W7 m ρ c) main_arg15 (by decide)).trans (w7_arg15 m ρ c)
theorem w8_arg16  : W8 m ρ c (Proc.devRef .tc main_arg16) = (m ((c.tc : Thread nD τ).loc main_arg16)) :=
  (KStretch.s2_1_keep (W7 m ρ c) main_arg16 (by decide)).trans (w7_arg16 m ρ c)
theorem w8_arg17  : W8 m ρ c (Proc.devRef .tc main_arg17) = (m ((c.tc : Thread nD τ).loc main_arg17)) :=
  (KStretch.s2_1_keep (W7 m ρ c) main_arg17 (by decide)).trans (w7_arg17 m ρ c)
theorem w8_arg18  : W8 m ρ c (Proc.devRef .tc main_arg18) = (m ((c.tc : Thread nD τ).loc main_arg18)) :=
  (KStretch.s2_1_keep (W7 m ρ c) main_arg18 (by decide)).trans (w7_arg18 m ρ c)
theorem w8_arg19  : W8 m ρ c (Proc.devRef .tc main_arg19) = (m ((c.tc : Thread nD τ).loc main_arg19)) :=
  (KStretch.s2_1_keep (W7 m ρ c) main_arg19 (by decide)).trans (w7_arg19 m ρ c)
theorem w8_arg20  : W8 m ρ c (Proc.devRef .tc main_arg20) = (m ((c.tc : Thread nD τ).loc main_arg20)) :=
  (KStretch.s2_1_keep (W7 m ρ c) main_arg20 (by decide)).trans (w7_arg20 m ρ c)
theorem w8_arg21  : W8 m ρ c (Proc.devRef .tc main_arg21) = (m ((c.tc : Thread nD τ).loc main_arg21)) :=
  (KStretch.s2_1_keep (W7 m ρ c) main_arg21 (by decide)).trans (w7_arg21 m ρ c)
theorem w8_arg22  : W8 m ρ c (Proc.devRef .tc main_arg22) = (m ((c.tc : Thread nD τ).loc main_arg22)) :=
  (KStretch.s2_1_keep (W7 m ρ c) main_arg22 (by decide)).trans (w7_arg22 m ρ c)
theorem w8_arg23  : W8 m ρ c (Proc.devRef .tc main_arg23) = (m ((c.tc : Thread nD τ).loc main_arg23)) :=
  (KStretch.s2_1_keep (W7 m ρ c) main_arg23 (by decide)).trans (w7_arg23 m ρ c)
theorem w8_arg24  : W8 m ρ c (Proc.devRef .tc main_arg24) = (m ((c.tc : Thread nD τ).loc main_arg24)) :=
  (KStretch.s2_1_keep (W7 m ρ c) main_arg24 (by decide)).trans (w7_arg24 m ρ c)
theorem w8_arg25  : W8 m ρ c (Proc.devRef .tc main_arg25) = (m ((c.tc : Thread nD τ).loc main_arg25)) :=
  (KStretch.s2_1_keep (W7 m ρ c) main_arg25 (by decide)).trans (w7_arg25 m ρ c)
theorem w8_arg26  : W8 m ρ c (Proc.devRef .tc main_arg26) = (m ((c.tc : Thread nD τ).loc main_arg26)) :=
  (KStretch.s2_1_keep (W7 m ρ c) main_arg26 (by decide)).trans (w7_arg26 m ρ c)
theorem w8_arg27  : W8 m ρ c (Proc.devRef .tc main_arg27) = (m ((c.tc : Thread nD τ).loc main_arg27)) :=
  (KStretch.s2_1_keep (W7 m ρ c) main_arg27 (by decide)).trans (w7_arg27 m ρ c)
theorem w8_arg28  : W8 m ρ c (Proc.devRef .tc main_arg28) = (m ((c.tc : Thread nD τ).loc main_arg28)) :=
  (KStretch.s2_1_keep (W7 m ρ c) main_arg28 (by decide)).trans (w7_arg28 m ρ c)
theorem w8_arg29  : W8 m ρ c (Proc.devRef .tc main_arg29) = (m ((c.tc : Thread nD τ).loc main_arg29)) :=
  (KStretch.s2_1_keep (W7 m ρ c) main_arg29 (by decide)).trans (w7_arg29 m ρ c)
theorem w8_arg30  : W8 m ρ c (Proc.devRef .tc main_arg30) = (m ((c.tc : Thread nD τ).loc main_arg30)) :=
  (KStretch.s2_1_keep (W7 m ρ c) main_arg30 (by decide)).trans (w7_arg30 m ρ c)
theorem w8_arg31  : W8 m ρ c (Proc.devRef .tc main_arg31) = (m ((c.tc : Thread nD τ).loc main_arg31)) :=
  (KStretch.s2_1_keep (W7 m ρ c) main_arg31 (by decide)).trans (w7_arg31 m ρ c)
theorem w8_arg32  : W8 m ρ c (Proc.devRef .tc main_arg32) = (m ((c.tc : Thread nD τ).loc main_arg32)) :=
  (KStretch.s2_1_keep (W7 m ρ c) main_arg32 (by decide)).trans (w7_arg32 m ρ c)

/-! ### Boundary 9 (after `hostOps2_2`) -/

theorem w9_arg2  : W9 m ρ c (Proc.devRef .tc main_arg2) = (m ((c.tc : Thread nD τ).loc main_arg2)) :=
  (KStretch.s2_2_keep (W8 m ρ c) main_arg2 (by decide)).trans (w8_arg2 m ρ c)
theorem w9_arg11  : W9 m ρ c (Proc.devRef .tc main_arg11) = (m ((c.tc : Thread nD τ).loc main_arg11)) :=
  (KStretch.s2_2_keep (W8 m ρ c) main_arg11 (by decide)).trans (w8_arg11 m ρ c)
theorem w9_arg13  : W9 m ρ c (Proc.devRef .tc main_arg13) = (m ((c.tc : Thread nD τ).loc main_arg13)) :=
  (KStretch.s2_2_keep (W8 m ρ c) main_arg13 (by decide)).trans (w8_arg13 m ρ c)
theorem w9_arg14  : W9 m ρ c (Proc.devRef .tc main_arg14) = (m ((c.tc : Thread nD τ).loc main_arg14)) :=
  (KStretch.s2_2_keep (W8 m ρ c) main_arg14 (by decide)).trans (w8_arg14 m ρ c)
theorem w9_arg15  : W9 m ρ c (Proc.devRef .tc main_arg15) = (m ((c.tc : Thread nD τ).loc main_arg15)) :=
  (KStretch.s2_2_keep (W8 m ρ c) main_arg15 (by decide)).trans (w8_arg15 m ρ c)
theorem w9_arg16  : W9 m ρ c (Proc.devRef .tc main_arg16) = (m ((c.tc : Thread nD τ).loc main_arg16)) :=
  (KStretch.s2_2_keep (W8 m ρ c) main_arg16 (by decide)).trans (w8_arg16 m ρ c)
theorem w9_arg17  : W9 m ρ c (Proc.devRef .tc main_arg17) = (m ((c.tc : Thread nD τ).loc main_arg17)) :=
  (KStretch.s2_2_keep (W8 m ρ c) main_arg17 (by decide)).trans (w8_arg17 m ρ c)
theorem w9_arg18  : W9 m ρ c (Proc.devRef .tc main_arg18) = (m ((c.tc : Thread nD τ).loc main_arg18)) :=
  (KStretch.s2_2_keep (W8 m ρ c) main_arg18 (by decide)).trans (w8_arg18 m ρ c)
theorem w9_arg19  : W9 m ρ c (Proc.devRef .tc main_arg19) = (m ((c.tc : Thread nD τ).loc main_arg19)) :=
  (KStretch.s2_2_keep (W8 m ρ c) main_arg19 (by decide)).trans (w8_arg19 m ρ c)
theorem w9_arg20  : W9 m ρ c (Proc.devRef .tc main_arg20) = (m ((c.tc : Thread nD τ).loc main_arg20)) :=
  (KStretch.s2_2_keep (W8 m ρ c) main_arg20 (by decide)).trans (w8_arg20 m ρ c)
theorem w9_arg21  : W9 m ρ c (Proc.devRef .tc main_arg21) = (m ((c.tc : Thread nD τ).loc main_arg21)) :=
  (KStretch.s2_2_keep (W8 m ρ c) main_arg21 (by decide)).trans (w8_arg21 m ρ c)
theorem w9_arg22  : W9 m ρ c (Proc.devRef .tc main_arg22) = (m ((c.tc : Thread nD τ).loc main_arg22)) :=
  (KStretch.s2_2_keep (W8 m ρ c) main_arg22 (by decide)).trans (w8_arg22 m ρ c)
theorem w9_arg23  : W9 m ρ c (Proc.devRef .tc main_arg23) = (m ((c.tc : Thread nD τ).loc main_arg23)) :=
  (KStretch.s2_2_keep (W8 m ρ c) main_arg23 (by decide)).trans (w8_arg23 m ρ c)
theorem w9_arg24  : W9 m ρ c (Proc.devRef .tc main_arg24) = (m ((c.tc : Thread nD τ).loc main_arg24)) :=
  (KStretch.s2_2_keep (W8 m ρ c) main_arg24 (by decide)).trans (w8_arg24 m ρ c)
theorem w9_arg25  : W9 m ρ c (Proc.devRef .tc main_arg25) = (m ((c.tc : Thread nD τ).loc main_arg25)) :=
  (KStretch.s2_2_keep (W8 m ρ c) main_arg25 (by decide)).trans (w8_arg25 m ρ c)
theorem w9_arg26  : W9 m ρ c (Proc.devRef .tc main_arg26) = (m ((c.tc : Thread nD τ).loc main_arg26)) :=
  (KStretch.s2_2_keep (W8 m ρ c) main_arg26 (by decide)).trans (w8_arg26 m ρ c)
theorem w9_arg27  : W9 m ρ c (Proc.devRef .tc main_arg27) = (m ((c.tc : Thread nD τ).loc main_arg27)) :=
  (KStretch.s2_2_keep (W8 m ρ c) main_arg27 (by decide)).trans (w8_arg27 m ρ c)
theorem w9_arg28  : W9 m ρ c (Proc.devRef .tc main_arg28) = (m ((c.tc : Thread nD τ).loc main_arg28)) :=
  (KStretch.s2_2_keep (W8 m ρ c) main_arg28 (by decide)).trans (w8_arg28 m ρ c)
theorem w9_arg29  : W9 m ρ c (Proc.devRef .tc main_arg29) = (m ((c.tc : Thread nD τ).loc main_arg29)) :=
  (KStretch.s2_2_keep (W8 m ρ c) main_arg29 (by decide)).trans (w8_arg29 m ρ c)
theorem w9_arg30  : W9 m ρ c (Proc.devRef .tc main_arg30) = (m ((c.tc : Thread nD τ).loc main_arg30)) :=
  (KStretch.s2_2_keep (W8 m ρ c) main_arg30 (by decide)).trans (w8_arg30 m ρ c)
theorem w9_arg31  : W9 m ρ c (Proc.devRef .tc main_arg31) = (m ((c.tc : Thread nD τ).loc main_arg31)) :=
  (KStretch.s2_2_keep (W8 m ρ c) main_arg31 (by decide)).trans (w8_arg31 m ρ c)
theorem w9_arg32  : W9 m ρ c (Proc.devRef .tc main_arg32) = (m ((c.tc : Thread nD τ).loc main_arg32)) :=
  (KStretch.s2_2_keep (W8 m ρ c) main_arg32 (by decide)).trans (w8_arg32 m ρ c)

/-! ### Boundary 10 (after region 2) -/

theorem w10_arg2  : W10 m ρ c (Proc.devRef .tc main_arg2) = (m ((c.tc : Thread nD τ).loc main_arg2)) :=
  (W10_of_ne m ρ c main_arg2 (by decide)).trans (w9_arg2 m ρ c)
theorem w10_arg13  : W10 m ρ c (Proc.devRef .tc main_arg13) = (m ((c.tc : Thread nD τ).loc main_arg13)) :=
  (W10_of_ne m ρ c main_arg13 (by decide)).trans (w9_arg13 m ρ c)
theorem w10_arg14  : W10 m ρ c (Proc.devRef .tc main_arg14) = (m ((c.tc : Thread nD τ).loc main_arg14)) :=
  (W10_of_ne m ρ c main_arg14 (by decide)).trans (w9_arg14 m ρ c)
theorem w10_arg15  : W10 m ρ c (Proc.devRef .tc main_arg15) = (m ((c.tc : Thread nD τ).loc main_arg15)) :=
  (W10_of_ne m ρ c main_arg15 (by decide)).trans (w9_arg15 m ρ c)
theorem w10_arg16  : W10 m ρ c (Proc.devRef .tc main_arg16) = (m ((c.tc : Thread nD τ).loc main_arg16)) :=
  (W10_of_ne m ρ c main_arg16 (by decide)).trans (w9_arg16 m ρ c)
theorem w10_arg17  : W10 m ρ c (Proc.devRef .tc main_arg17) = (m ((c.tc : Thread nD τ).loc main_arg17)) :=
  (W10_of_ne m ρ c main_arg17 (by decide)).trans (w9_arg17 m ρ c)
theorem w10_arg18  : W10 m ρ c (Proc.devRef .tc main_arg18) = (m ((c.tc : Thread nD τ).loc main_arg18)) :=
  (W10_of_ne m ρ c main_arg18 (by decide)).trans (w9_arg18 m ρ c)
theorem w10_arg19  : W10 m ρ c (Proc.devRef .tc main_arg19) = (m ((c.tc : Thread nD τ).loc main_arg19)) :=
  (W10_of_ne m ρ c main_arg19 (by decide)).trans (w9_arg19 m ρ c)
theorem w10_arg20  : W10 m ρ c (Proc.devRef .tc main_arg20) = (m ((c.tc : Thread nD τ).loc main_arg20)) :=
  (W10_of_ne m ρ c main_arg20 (by decide)).trans (w9_arg20 m ρ c)
theorem w10_arg21  : W10 m ρ c (Proc.devRef .tc main_arg21) = (m ((c.tc : Thread nD τ).loc main_arg21)) :=
  (W10_of_ne m ρ c main_arg21 (by decide)).trans (w9_arg21 m ρ c)
theorem w10_arg22  : W10 m ρ c (Proc.devRef .tc main_arg22) = (m ((c.tc : Thread nD τ).loc main_arg22)) :=
  (W10_of_ne m ρ c main_arg22 (by decide)).trans (w9_arg22 m ρ c)
theorem w10_arg23  : W10 m ρ c (Proc.devRef .tc main_arg23) = (m ((c.tc : Thread nD τ).loc main_arg23)) :=
  (W10_of_ne m ρ c main_arg23 (by decide)).trans (w9_arg23 m ρ c)
theorem w10_arg24  : W10 m ρ c (Proc.devRef .tc main_arg24) = (m ((c.tc : Thread nD τ).loc main_arg24)) :=
  (W10_of_ne m ρ c main_arg24 (by decide)).trans (w9_arg24 m ρ c)
theorem w10_arg25  : W10 m ρ c (Proc.devRef .tc main_arg25) = (m ((c.tc : Thread nD τ).loc main_arg25)) :=
  (W10_of_ne m ρ c main_arg25 (by decide)).trans (w9_arg25 m ρ c)
theorem w10_arg26  : W10 m ρ c (Proc.devRef .tc main_arg26) = (m ((c.tc : Thread nD τ).loc main_arg26)) :=
  (W10_of_ne m ρ c main_arg26 (by decide)).trans (w9_arg26 m ρ c)
theorem w10_arg27  : W10 m ρ c (Proc.devRef .tc main_arg27) = (m ((c.tc : Thread nD τ).loc main_arg27)) :=
  (W10_of_ne m ρ c main_arg27 (by decide)).trans (w9_arg27 m ρ c)
theorem w10_arg28  : W10 m ρ c (Proc.devRef .tc main_arg28) = (m ((c.tc : Thread nD τ).loc main_arg28)) :=
  (W10_of_ne m ρ c main_arg28 (by decide)).trans (w9_arg28 m ρ c)
theorem w10_arg29  : W10 m ρ c (Proc.devRef .tc main_arg29) = (m ((c.tc : Thread nD τ).loc main_arg29)) :=
  (W10_of_ne m ρ c main_arg29 (by decide)).trans (w9_arg29 m ρ c)
theorem w10_arg30  : W10 m ρ c (Proc.devRef .tc main_arg30) = (m ((c.tc : Thread nD τ).loc main_arg30)) :=
  (W10_of_ne m ρ c main_arg30 (by decide)).trans (w9_arg30 m ρ c)
theorem w10_arg31  : W10 m ρ c (Proc.devRef .tc main_arg31) = (m ((c.tc : Thread nD τ).loc main_arg31)) :=
  (W10_of_ne m ρ c main_arg31 (by decide)).trans (w9_arg31 m ρ c)
theorem w10_arg32  : W10 m ρ c (Proc.devRef .tc main_arg32) = (m ((c.tc : Thread nD τ).loc main_arg32)) :=
  (W10_of_ne m ρ c main_arg32 (by decide)).trans (w9_arg32 m ρ c)

/-! ### Boundary 11 (after `hostOps3`) -/

theorem w11_arg2  : W11 m ρ c (Proc.devRef .tc main_arg2) = (m ((c.tc : Thread nD τ).loc main_arg2)) :=
  (KStretch.s3_keep (W10 m ρ c) main_arg2 (by decide)).trans (w10_arg2 m ρ c)
theorem w11_arg13  : W11 m ρ c (Proc.devRef .tc main_arg13) = (m ((c.tc : Thread nD τ).loc main_arg13)) :=
  (KStretch.s3_keep (W10 m ρ c) main_arg13 (by decide)).trans (w10_arg13 m ρ c)
theorem w11_arg15  : W11 m ρ c (Proc.devRef .tc main_arg15) = (m ((c.tc : Thread nD τ).loc main_arg15)) :=
  (KStretch.s3_keep (W10 m ρ c) main_arg15 (by decide)).trans (w10_arg15 m ρ c)
theorem w11_arg16  : W11 m ρ c (Proc.devRef .tc main_arg16) = (m ((c.tc : Thread nD τ).loc main_arg16)) :=
  (KStretch.s3_keep (W10 m ρ c) main_arg16 (by decide)).trans (w10_arg16 m ρ c)
theorem w11_arg17  : W11 m ρ c (Proc.devRef .tc main_arg17) = (m ((c.tc : Thread nD τ).loc main_arg17)) :=
  (KStretch.s3_keep (W10 m ρ c) main_arg17 (by decide)).trans (w10_arg17 m ρ c)
theorem w11_arg18  : W11 m ρ c (Proc.devRef .tc main_arg18) = (m ((c.tc : Thread nD τ).loc main_arg18)) :=
  (KStretch.s3_keep (W10 m ρ c) main_arg18 (by decide)).trans (w10_arg18 m ρ c)
theorem w11_arg19  : W11 m ρ c (Proc.devRef .tc main_arg19) = (m ((c.tc : Thread nD τ).loc main_arg19)) :=
  (KStretch.s3_keep (W10 m ρ c) main_arg19 (by decide)).trans (w10_arg19 m ρ c)
theorem w11_arg20  : W11 m ρ c (Proc.devRef .tc main_arg20) = (m ((c.tc : Thread nD τ).loc main_arg20)) :=
  (KStretch.s3_keep (W10 m ρ c) main_arg20 (by decide)).trans (w10_arg20 m ρ c)
theorem w11_arg21  : W11 m ρ c (Proc.devRef .tc main_arg21) = (m ((c.tc : Thread nD τ).loc main_arg21)) :=
  (KStretch.s3_keep (W10 m ρ c) main_arg21 (by decide)).trans (w10_arg21 m ρ c)
theorem w11_arg22  : W11 m ρ c (Proc.devRef .tc main_arg22) = (m ((c.tc : Thread nD τ).loc main_arg22)) :=
  (KStretch.s3_keep (W10 m ρ c) main_arg22 (by decide)).trans (w10_arg22 m ρ c)
theorem w11_arg23  : W11 m ρ c (Proc.devRef .tc main_arg23) = (m ((c.tc : Thread nD τ).loc main_arg23)) :=
  (KStretch.s3_keep (W10 m ρ c) main_arg23 (by decide)).trans (w10_arg23 m ρ c)
theorem w11_arg24  : W11 m ρ c (Proc.devRef .tc main_arg24) = (m ((c.tc : Thread nD τ).loc main_arg24)) :=
  (KStretch.s3_keep (W10 m ρ c) main_arg24 (by decide)).trans (w10_arg24 m ρ c)
theorem w11_arg25  : W11 m ρ c (Proc.devRef .tc main_arg25) = (m ((c.tc : Thread nD τ).loc main_arg25)) :=
  (KStretch.s3_keep (W10 m ρ c) main_arg25 (by decide)).trans (w10_arg25 m ρ c)
theorem w11_arg26  : W11 m ρ c (Proc.devRef .tc main_arg26) = (m ((c.tc : Thread nD τ).loc main_arg26)) :=
  (KStretch.s3_keep (W10 m ρ c) main_arg26 (by decide)).trans (w10_arg26 m ρ c)
theorem w11_arg27  : W11 m ρ c (Proc.devRef .tc main_arg27) = (m ((c.tc : Thread nD τ).loc main_arg27)) :=
  (KStretch.s3_keep (W10 m ρ c) main_arg27 (by decide)).trans (w10_arg27 m ρ c)
theorem w11_arg28  : W11 m ρ c (Proc.devRef .tc main_arg28) = (m ((c.tc : Thread nD τ).loc main_arg28)) :=
  (KStretch.s3_keep (W10 m ρ c) main_arg28 (by decide)).trans (w10_arg28 m ρ c)
theorem w11_arg29  : W11 m ρ c (Proc.devRef .tc main_arg29) = (m ((c.tc : Thread nD τ).loc main_arg29)) :=
  (KStretch.s3_keep (W10 m ρ c) main_arg29 (by decide)).trans (w10_arg29 m ρ c)
theorem w11_arg30  : W11 m ρ c (Proc.devRef .tc main_arg30) = (m ((c.tc : Thread nD τ).loc main_arg30)) :=
  (KStretch.s3_keep (W10 m ρ c) main_arg30 (by decide)).trans (w10_arg30 m ρ c)
theorem w11_arg31  : W11 m ρ c (Proc.devRef .tc main_arg31) = (m ((c.tc : Thread nD τ).loc main_arg31)) :=
  (KStretch.s3_keep (W10 m ρ c) main_arg31 (by decide)).trans (w10_arg31 m ρ c)
theorem w11_arg32  : W11 m ρ c (Proc.devRef .tc main_arg32) = (m ((c.tc : Thread nD τ).loc main_arg32)) :=
  (KStretch.s3_keep (W10 m ρ c) main_arg32 (by decide)).trans (w10_arg32 m ρ c)

/-! ### Boundary 12 (after region 3) -/

theorem w12_arg2  : W12 m ρ c (Proc.devRef .tc main_arg2) = (m ((c.tc : Thread nD τ).loc main_arg2)) :=
  (W12_of_ne m ρ c main_arg2 (by decide)).trans (w11_arg2 m ρ c)
theorem w12_arg15  : W12 m ρ c (Proc.devRef .tc main_arg15) = (m ((c.tc : Thread nD τ).loc main_arg15)) :=
  (W12_of_ne m ρ c main_arg15 (by decide)).trans (w11_arg15 m ρ c)
theorem w12_arg16  : W12 m ρ c (Proc.devRef .tc main_arg16) = (m ((c.tc : Thread nD τ).loc main_arg16)) :=
  (W12_of_ne m ρ c main_arg16 (by decide)).trans (w11_arg16 m ρ c)
theorem w12_arg17  : W12 m ρ c (Proc.devRef .tc main_arg17) = (m ((c.tc : Thread nD τ).loc main_arg17)) :=
  (W12_of_ne m ρ c main_arg17 (by decide)).trans (w11_arg17 m ρ c)
theorem w12_arg18  : W12 m ρ c (Proc.devRef .tc main_arg18) = (m ((c.tc : Thread nD τ).loc main_arg18)) :=
  (W12_of_ne m ρ c main_arg18 (by decide)).trans (w11_arg18 m ρ c)
theorem w12_arg19  : W12 m ρ c (Proc.devRef .tc main_arg19) = (m ((c.tc : Thread nD τ).loc main_arg19)) :=
  (W12_of_ne m ρ c main_arg19 (by decide)).trans (w11_arg19 m ρ c)
theorem w12_arg20  : W12 m ρ c (Proc.devRef .tc main_arg20) = (m ((c.tc : Thread nD τ).loc main_arg20)) :=
  (W12_of_ne m ρ c main_arg20 (by decide)).trans (w11_arg20 m ρ c)
theorem w12_arg21  : W12 m ρ c (Proc.devRef .tc main_arg21) = (m ((c.tc : Thread nD τ).loc main_arg21)) :=
  (W12_of_ne m ρ c main_arg21 (by decide)).trans (w11_arg21 m ρ c)
theorem w12_arg22  : W12 m ρ c (Proc.devRef .tc main_arg22) = (m ((c.tc : Thread nD τ).loc main_arg22)) :=
  (W12_of_ne m ρ c main_arg22 (by decide)).trans (w11_arg22 m ρ c)
theorem w12_arg23  : W12 m ρ c (Proc.devRef .tc main_arg23) = (m ((c.tc : Thread nD τ).loc main_arg23)) :=
  (W12_of_ne m ρ c main_arg23 (by decide)).trans (w11_arg23 m ρ c)
theorem w12_arg24  : W12 m ρ c (Proc.devRef .tc main_arg24) = (m ((c.tc : Thread nD τ).loc main_arg24)) :=
  (W12_of_ne m ρ c main_arg24 (by decide)).trans (w11_arg24 m ρ c)
theorem w12_arg25  : W12 m ρ c (Proc.devRef .tc main_arg25) = (m ((c.tc : Thread nD τ).loc main_arg25)) :=
  (W12_of_ne m ρ c main_arg25 (by decide)).trans (w11_arg25 m ρ c)
theorem w12_arg26  : W12 m ρ c (Proc.devRef .tc main_arg26) = (m ((c.tc : Thread nD τ).loc main_arg26)) :=
  (W12_of_ne m ρ c main_arg26 (by decide)).trans (w11_arg26 m ρ c)
theorem w12_arg27  : W12 m ρ c (Proc.devRef .tc main_arg27) = (m ((c.tc : Thread nD τ).loc main_arg27)) :=
  (W12_of_ne m ρ c main_arg27 (by decide)).trans (w11_arg27 m ρ c)
theorem w12_arg28  : W12 m ρ c (Proc.devRef .tc main_arg28) = (m ((c.tc : Thread nD τ).loc main_arg28)) :=
  (W12_of_ne m ρ c main_arg28 (by decide)).trans (w11_arg28 m ρ c)
theorem w12_arg29  : W12 m ρ c (Proc.devRef .tc main_arg29) = (m ((c.tc : Thread nD τ).loc main_arg29)) :=
  (W12_of_ne m ρ c main_arg29 (by decide)).trans (w11_arg29 m ρ c)
theorem w12_arg30  : W12 m ρ c (Proc.devRef .tc main_arg30) = (m ((c.tc : Thread nD τ).loc main_arg30)) :=
  (W12_of_ne m ρ c main_arg30 (by decide)).trans (w11_arg30 m ρ c)
theorem w12_arg31  : W12 m ρ c (Proc.devRef .tc main_arg31) = (m ((c.tc : Thread nD τ).loc main_arg31)) :=
  (W12_of_ne m ρ c main_arg31 (by decide)).trans (w11_arg31 m ρ c)
theorem w12_arg32  : W12 m ρ c (Proc.devRef .tc main_arg32) = (m ((c.tc : Thread nD τ).loc main_arg32)) :=
  (W12_of_ne m ρ c main_arg32 (by decide)).trans (w11_arg32 m ρ c)

/-! ### Boundary 13 (after `hostOps4`) -/

theorem w13_arg2  : W13 m ρ c (Proc.devRef .tc main_arg2) = (m ((c.tc : Thread nD τ).loc main_arg2)) :=
  (KStretch.s4_keep (W12 m ρ c) main_arg2 (by decide)).trans (w12_arg2 m ρ c)
theorem w13_arg15  : W13 m ρ c (Proc.devRef .tc main_arg15) = (m ((c.tc : Thread nD τ).loc main_arg15)) :=
  (KStretch.s4_keep (W12 m ρ c) main_arg15 (by decide)).trans (w12_arg15 m ρ c)
theorem w13_arg16  : W13 m ρ c (Proc.devRef .tc main_arg16) = (m ((c.tc : Thread nD τ).loc main_arg16)) :=
  (KStretch.s4_keep (W12 m ρ c) main_arg16 (by decide)).trans (w12_arg16 m ρ c)
theorem w13_arg17  : W13 m ρ c (Proc.devRef .tc main_arg17) = (m ((c.tc : Thread nD τ).loc main_arg17)) :=
  (KStretch.s4_keep (W12 m ρ c) main_arg17 (by decide)).trans (w12_arg17 m ρ c)
theorem w13_arg18  : W13 m ρ c (Proc.devRef .tc main_arg18) = (m ((c.tc : Thread nD τ).loc main_arg18)) :=
  (KStretch.s4_keep (W12 m ρ c) main_arg18 (by decide)).trans (w12_arg18 m ρ c)
theorem w13_arg19  : W13 m ρ c (Proc.devRef .tc main_arg19) = (m ((c.tc : Thread nD τ).loc main_arg19)) :=
  (KStretch.s4_keep (W12 m ρ c) main_arg19 (by decide)).trans (w12_arg19 m ρ c)
theorem w13_arg20  : W13 m ρ c (Proc.devRef .tc main_arg20) = (m ((c.tc : Thread nD τ).loc main_arg20)) :=
  (KStretch.s4_keep (W12 m ρ c) main_arg20 (by decide)).trans (w12_arg20 m ρ c)
theorem w13_arg21  : W13 m ρ c (Proc.devRef .tc main_arg21) = (m ((c.tc : Thread nD τ).loc main_arg21)) :=
  (KStretch.s4_keep (W12 m ρ c) main_arg21 (by decide)).trans (w12_arg21 m ρ c)
theorem w13_arg22  : W13 m ρ c (Proc.devRef .tc main_arg22) = (m ((c.tc : Thread nD τ).loc main_arg22)) :=
  (KStretch.s4_keep (W12 m ρ c) main_arg22 (by decide)).trans (w12_arg22 m ρ c)
theorem w13_arg23  : W13 m ρ c (Proc.devRef .tc main_arg23) = (m ((c.tc : Thread nD τ).loc main_arg23)) :=
  (KStretch.s4_keep (W12 m ρ c) main_arg23 (by decide)).trans (w12_arg23 m ρ c)
theorem w13_arg24  : W13 m ρ c (Proc.devRef .tc main_arg24) = (m ((c.tc : Thread nD τ).loc main_arg24)) :=
  (KStretch.s4_keep (W12 m ρ c) main_arg24 (by decide)).trans (w12_arg24 m ρ c)
theorem w13_arg25  : W13 m ρ c (Proc.devRef .tc main_arg25) = (m ((c.tc : Thread nD τ).loc main_arg25)) :=
  (KStretch.s4_keep (W12 m ρ c) main_arg25 (by decide)).trans (w12_arg25 m ρ c)
theorem w13_arg26  : W13 m ρ c (Proc.devRef .tc main_arg26) = (m ((c.tc : Thread nD τ).loc main_arg26)) :=
  (KStretch.s4_keep (W12 m ρ c) main_arg26 (by decide)).trans (w12_arg26 m ρ c)
theorem w13_arg27  : W13 m ρ c (Proc.devRef .tc main_arg27) = (m ((c.tc : Thread nD τ).loc main_arg27)) :=
  (KStretch.s4_keep (W12 m ρ c) main_arg27 (by decide)).trans (w12_arg27 m ρ c)
theorem w13_arg28  : W13 m ρ c (Proc.devRef .tc main_arg28) = (m ((c.tc : Thread nD τ).loc main_arg28)) :=
  (KStretch.s4_keep (W12 m ρ c) main_arg28 (by decide)).trans (w12_arg28 m ρ c)
theorem w13_arg29  : W13 m ρ c (Proc.devRef .tc main_arg29) = (m ((c.tc : Thread nD τ).loc main_arg29)) :=
  (KStretch.s4_keep (W12 m ρ c) main_arg29 (by decide)).trans (w12_arg29 m ρ c)
theorem w13_arg30  : W13 m ρ c (Proc.devRef .tc main_arg30) = (m ((c.tc : Thread nD τ).loc main_arg30)) :=
  (KStretch.s4_keep (W12 m ρ c) main_arg30 (by decide)).trans (w12_arg30 m ρ c)
theorem w13_arg31  : W13 m ρ c (Proc.devRef .tc main_arg31) = (m ((c.tc : Thread nD τ).loc main_arg31)) :=
  (KStretch.s4_keep (W12 m ρ c) main_arg31 (by decide)).trans (w12_arg31 m ρ c)
theorem w13_arg32  : W13 m ρ c (Proc.devRef .tc main_arg32) = (m ((c.tc : Thread nD τ).loc main_arg32)) :=
  (KStretch.s4_keep (W12 m ρ c) main_arg32 (by decide)).trans (w12_arg32 m ρ c)

/-! ### Boundary 14 (after `hostOps4_1`) -/

theorem w14_arg2  : W14 m ρ c (Proc.devRef .tc main_arg2) = (m ((c.tc : Thread nD τ).loc main_arg2)) :=
  (KStretch.s4_1_keep (W13 m ρ c) main_arg2 (by decide)).trans (w13_arg2 m ρ c)
theorem w14_arg15  : W14 m ρ c (Proc.devRef .tc main_arg15) = (m ((c.tc : Thread nD τ).loc main_arg15)) :=
  (KStretch.s4_1_keep (W13 m ρ c) main_arg15 (by decide)).trans (w13_arg15 m ρ c)
theorem w14_arg16  : W14 m ρ c (Proc.devRef .tc main_arg16) = (m ((c.tc : Thread nD τ).loc main_arg16)) :=
  (KStretch.s4_1_keep (W13 m ρ c) main_arg16 (by decide)).trans (w13_arg16 m ρ c)
theorem w14_arg17  : W14 m ρ c (Proc.devRef .tc main_arg17) = (m ((c.tc : Thread nD τ).loc main_arg17)) :=
  (KStretch.s4_1_keep (W13 m ρ c) main_arg17 (by decide)).trans (w13_arg17 m ρ c)
theorem w14_arg18  : W14 m ρ c (Proc.devRef .tc main_arg18) = (m ((c.tc : Thread nD τ).loc main_arg18)) :=
  (KStretch.s4_1_keep (W13 m ρ c) main_arg18 (by decide)).trans (w13_arg18 m ρ c)
theorem w14_arg19  : W14 m ρ c (Proc.devRef .tc main_arg19) = (m ((c.tc : Thread nD τ).loc main_arg19)) :=
  (KStretch.s4_1_keep (W13 m ρ c) main_arg19 (by decide)).trans (w13_arg19 m ρ c)
theorem w14_arg20  : W14 m ρ c (Proc.devRef .tc main_arg20) = (m ((c.tc : Thread nD τ).loc main_arg20)) :=
  (KStretch.s4_1_keep (W13 m ρ c) main_arg20 (by decide)).trans (w13_arg20 m ρ c)
theorem w14_arg21  : W14 m ρ c (Proc.devRef .tc main_arg21) = (m ((c.tc : Thread nD τ).loc main_arg21)) :=
  (KStretch.s4_1_keep (W13 m ρ c) main_arg21 (by decide)).trans (w13_arg21 m ρ c)
theorem w14_arg22  : W14 m ρ c (Proc.devRef .tc main_arg22) = (m ((c.tc : Thread nD τ).loc main_arg22)) :=
  (KStretch.s4_1_keep (W13 m ρ c) main_arg22 (by decide)).trans (w13_arg22 m ρ c)
theorem w14_arg23  : W14 m ρ c (Proc.devRef .tc main_arg23) = (m ((c.tc : Thread nD τ).loc main_arg23)) :=
  (KStretch.s4_1_keep (W13 m ρ c) main_arg23 (by decide)).trans (w13_arg23 m ρ c)
theorem w14_arg24  : W14 m ρ c (Proc.devRef .tc main_arg24) = (m ((c.tc : Thread nD τ).loc main_arg24)) :=
  (KStretch.s4_1_keep (W13 m ρ c) main_arg24 (by decide)).trans (w13_arg24 m ρ c)
theorem w14_arg25  : W14 m ρ c (Proc.devRef .tc main_arg25) = (m ((c.tc : Thread nD τ).loc main_arg25)) :=
  (KStretch.s4_1_keep (W13 m ρ c) main_arg25 (by decide)).trans (w13_arg25 m ρ c)
theorem w14_arg26  : W14 m ρ c (Proc.devRef .tc main_arg26) = (m ((c.tc : Thread nD τ).loc main_arg26)) :=
  (KStretch.s4_1_keep (W13 m ρ c) main_arg26 (by decide)).trans (w13_arg26 m ρ c)
theorem w14_arg27  : W14 m ρ c (Proc.devRef .tc main_arg27) = (m ((c.tc : Thread nD τ).loc main_arg27)) :=
  (KStretch.s4_1_keep (W13 m ρ c) main_arg27 (by decide)).trans (w13_arg27 m ρ c)
theorem w14_arg28  : W14 m ρ c (Proc.devRef .tc main_arg28) = (m ((c.tc : Thread nD τ).loc main_arg28)) :=
  (KStretch.s4_1_keep (W13 m ρ c) main_arg28 (by decide)).trans (w13_arg28 m ρ c)
theorem w14_arg29  : W14 m ρ c (Proc.devRef .tc main_arg29) = (m ((c.tc : Thread nD τ).loc main_arg29)) :=
  (KStretch.s4_1_keep (W13 m ρ c) main_arg29 (by decide)).trans (w13_arg29 m ρ c)
theorem w14_arg30  : W14 m ρ c (Proc.devRef .tc main_arg30) = (m ((c.tc : Thread nD τ).loc main_arg30)) :=
  (KStretch.s4_1_keep (W13 m ρ c) main_arg30 (by decide)).trans (w13_arg30 m ρ c)
theorem w14_arg31  : W14 m ρ c (Proc.devRef .tc main_arg31) = (m ((c.tc : Thread nD τ).loc main_arg31)) :=
  (KStretch.s4_1_keep (W13 m ρ c) main_arg31 (by decide)).trans (w13_arg31 m ρ c)
theorem w14_arg32  : W14 m ρ c (Proc.devRef .tc main_arg32) = (m ((c.tc : Thread nD τ).loc main_arg32)) :=
  (KStretch.s4_1_keep (W13 m ρ c) main_arg32 (by decide)).trans (w13_arg32 m ρ c)

/-! ### Boundary 15 (after `hostOps4_2`) -/

theorem w15_arg2  : W15 m ρ c (Proc.devRef .tc main_arg2) = (m ((c.tc : Thread nD τ).loc main_arg2)) :=
  (KStretch.s4_2_keep (W14 m ρ c) main_arg2 (by decide)).trans (w14_arg2 m ρ c)
theorem w15_arg17  : W15 m ρ c (Proc.devRef .tc main_arg17) = (m ((c.tc : Thread nD τ).loc main_arg17)) :=
  (KStretch.s4_2_keep (W14 m ρ c) main_arg17 (by decide)).trans (w14_arg17 m ρ c)
theorem w15_arg19  : W15 m ρ c (Proc.devRef .tc main_arg19) = (m ((c.tc : Thread nD τ).loc main_arg19)) :=
  (KStretch.s4_2_keep (W14 m ρ c) main_arg19 (by decide)).trans (w14_arg19 m ρ c)
theorem w15_arg20  : W15 m ρ c (Proc.devRef .tc main_arg20) = (m ((c.tc : Thread nD τ).loc main_arg20)) :=
  (KStretch.s4_2_keep (W14 m ρ c) main_arg20 (by decide)).trans (w14_arg20 m ρ c)
theorem w15_arg21  : W15 m ρ c (Proc.devRef .tc main_arg21) = (m ((c.tc : Thread nD τ).loc main_arg21)) :=
  (KStretch.s4_2_keep (W14 m ρ c) main_arg21 (by decide)).trans (w14_arg21 m ρ c)
theorem w15_arg22  : W15 m ρ c (Proc.devRef .tc main_arg22) = (m ((c.tc : Thread nD τ).loc main_arg22)) :=
  (KStretch.s4_2_keep (W14 m ρ c) main_arg22 (by decide)).trans (w14_arg22 m ρ c)
theorem w15_arg23  : W15 m ρ c (Proc.devRef .tc main_arg23) = (m ((c.tc : Thread nD τ).loc main_arg23)) :=
  (KStretch.s4_2_keep (W14 m ρ c) main_arg23 (by decide)).trans (w14_arg23 m ρ c)
theorem w15_arg24  : W15 m ρ c (Proc.devRef .tc main_arg24) = (m ((c.tc : Thread nD τ).loc main_arg24)) :=
  (KStretch.s4_2_keep (W14 m ρ c) main_arg24 (by decide)).trans (w14_arg24 m ρ c)
theorem w15_arg25  : W15 m ρ c (Proc.devRef .tc main_arg25) = (m ((c.tc : Thread nD τ).loc main_arg25)) :=
  (KStretch.s4_2_keep (W14 m ρ c) main_arg25 (by decide)).trans (w14_arg25 m ρ c)
theorem w15_arg26  : W15 m ρ c (Proc.devRef .tc main_arg26) = (m ((c.tc : Thread nD τ).loc main_arg26)) :=
  (KStretch.s4_2_keep (W14 m ρ c) main_arg26 (by decide)).trans (w14_arg26 m ρ c)
theorem w15_arg27  : W15 m ρ c (Proc.devRef .tc main_arg27) = (m ((c.tc : Thread nD τ).loc main_arg27)) :=
  (KStretch.s4_2_keep (W14 m ρ c) main_arg27 (by decide)).trans (w14_arg27 m ρ c)
theorem w15_arg28  : W15 m ρ c (Proc.devRef .tc main_arg28) = (m ((c.tc : Thread nD τ).loc main_arg28)) :=
  (KStretch.s4_2_keep (W14 m ρ c) main_arg28 (by decide)).trans (w14_arg28 m ρ c)
theorem w15_arg29  : W15 m ρ c (Proc.devRef .tc main_arg29) = (m ((c.tc : Thread nD τ).loc main_arg29)) :=
  (KStretch.s4_2_keep (W14 m ρ c) main_arg29 (by decide)).trans (w14_arg29 m ρ c)
theorem w15_arg30  : W15 m ρ c (Proc.devRef .tc main_arg30) = (m ((c.tc : Thread nD τ).loc main_arg30)) :=
  (KStretch.s4_2_keep (W14 m ρ c) main_arg30 (by decide)).trans (w14_arg30 m ρ c)
theorem w15_arg31  : W15 m ρ c (Proc.devRef .tc main_arg31) = (m ((c.tc : Thread nD τ).loc main_arg31)) :=
  (KStretch.s4_2_keep (W14 m ρ c) main_arg31 (by decide)).trans (w14_arg31 m ρ c)
theorem w15_arg32  : W15 m ρ c (Proc.devRef .tc main_arg32) = (m ((c.tc : Thread nD τ).loc main_arg32)) :=
  (KStretch.s4_2_keep (W14 m ρ c) main_arg32 (by decide)).trans (w14_arg32 m ρ c)

/-! ### Boundary 16 (after region 4) -/

theorem w16_arg2  : W16 m ρ c (Proc.devRef .tc main_arg2) = (m ((c.tc : Thread nD τ).loc main_arg2)) :=
  (W16_of_ne m ρ c main_arg2 (by decide)).trans (w15_arg2 m ρ c)
theorem w16_arg19  : W16 m ρ c (Proc.devRef .tc main_arg19) = (m ((c.tc : Thread nD τ).loc main_arg19)) :=
  (W16_of_ne m ρ c main_arg19 (by decide)).trans (w15_arg19 m ρ c)
theorem w16_arg20  : W16 m ρ c (Proc.devRef .tc main_arg20) = (m ((c.tc : Thread nD τ).loc main_arg20)) :=
  (W16_of_ne m ρ c main_arg20 (by decide)).trans (w15_arg20 m ρ c)
theorem w16_arg21  : W16 m ρ c (Proc.devRef .tc main_arg21) = (m ((c.tc : Thread nD τ).loc main_arg21)) :=
  (W16_of_ne m ρ c main_arg21 (by decide)).trans (w15_arg21 m ρ c)
theorem w16_arg22  : W16 m ρ c (Proc.devRef .tc main_arg22) = (m ((c.tc : Thread nD τ).loc main_arg22)) :=
  (W16_of_ne m ρ c main_arg22 (by decide)).trans (w15_arg22 m ρ c)
theorem w16_arg23  : W16 m ρ c (Proc.devRef .tc main_arg23) = (m ((c.tc : Thread nD τ).loc main_arg23)) :=
  (W16_of_ne m ρ c main_arg23 (by decide)).trans (w15_arg23 m ρ c)
theorem w16_arg24  : W16 m ρ c (Proc.devRef .tc main_arg24) = (m ((c.tc : Thread nD τ).loc main_arg24)) :=
  (W16_of_ne m ρ c main_arg24 (by decide)).trans (w15_arg24 m ρ c)
theorem w16_arg25  : W16 m ρ c (Proc.devRef .tc main_arg25) = (m ((c.tc : Thread nD τ).loc main_arg25)) :=
  (W16_of_ne m ρ c main_arg25 (by decide)).trans (w15_arg25 m ρ c)
theorem w16_arg26  : W16 m ρ c (Proc.devRef .tc main_arg26) = (m ((c.tc : Thread nD τ).loc main_arg26)) :=
  (W16_of_ne m ρ c main_arg26 (by decide)).trans (w15_arg26 m ρ c)
theorem w16_arg27  : W16 m ρ c (Proc.devRef .tc main_arg27) = (m ((c.tc : Thread nD τ).loc main_arg27)) :=
  (W16_of_ne m ρ c main_arg27 (by decide)).trans (w15_arg27 m ρ c)
theorem w16_arg28  : W16 m ρ c (Proc.devRef .tc main_arg28) = (m ((c.tc : Thread nD τ).loc main_arg28)) :=
  (W16_of_ne m ρ c main_arg28 (by decide)).trans (w15_arg28 m ρ c)
theorem w16_arg29  : W16 m ρ c (Proc.devRef .tc main_arg29) = (m ((c.tc : Thread nD τ).loc main_arg29)) :=
  (W16_of_ne m ρ c main_arg29 (by decide)).trans (w15_arg29 m ρ c)
theorem w16_arg30  : W16 m ρ c (Proc.devRef .tc main_arg30) = (m ((c.tc : Thread nD τ).loc main_arg30)) :=
  (W16_of_ne m ρ c main_arg30 (by decide)).trans (w15_arg30 m ρ c)
theorem w16_arg31  : W16 m ρ c (Proc.devRef .tc main_arg31) = (m ((c.tc : Thread nD τ).loc main_arg31)) :=
  (W16_of_ne m ρ c main_arg31 (by decide)).trans (w15_arg31 m ρ c)
theorem w16_arg32  : W16 m ρ c (Proc.devRef .tc main_arg32) = (m ((c.tc : Thread nD τ).loc main_arg32)) :=
  (W16_of_ne m ρ c main_arg32 (by decide)).trans (w15_arg32 m ρ c)

/-! ### Boundary 17 (after `hostOps5`) -/

theorem w17_arg2  : W17 m ρ c (Proc.devRef .tc main_arg2) = (m ((c.tc : Thread nD τ).loc main_arg2)) :=
  (KStretch.s5_keep (W16 m ρ c) main_arg2 (by decide)).trans (w16_arg2 m ρ c)
theorem w17_arg19  : W17 m ρ c (Proc.devRef .tc main_arg19) = (m ((c.tc : Thread nD τ).loc main_arg19)) :=
  (KStretch.s5_keep (W16 m ρ c) main_arg19 (by decide)).trans (w16_arg19 m ρ c)
theorem w17_arg21  : W17 m ρ c (Proc.devRef .tc main_arg21) = (m ((c.tc : Thread nD τ).loc main_arg21)) :=
  (KStretch.s5_keep (W16 m ρ c) main_arg21 (by decide)).trans (w16_arg21 m ρ c)
theorem w17_arg22  : W17 m ρ c (Proc.devRef .tc main_arg22) = (m ((c.tc : Thread nD τ).loc main_arg22)) :=
  (KStretch.s5_keep (W16 m ρ c) main_arg22 (by decide)).trans (w16_arg22 m ρ c)
theorem w17_arg23  : W17 m ρ c (Proc.devRef .tc main_arg23) = (m ((c.tc : Thread nD τ).loc main_arg23)) :=
  (KStretch.s5_keep (W16 m ρ c) main_arg23 (by decide)).trans (w16_arg23 m ρ c)
theorem w17_arg24  : W17 m ρ c (Proc.devRef .tc main_arg24) = (m ((c.tc : Thread nD τ).loc main_arg24)) :=
  (KStretch.s5_keep (W16 m ρ c) main_arg24 (by decide)).trans (w16_arg24 m ρ c)
theorem w17_arg25  : W17 m ρ c (Proc.devRef .tc main_arg25) = (m ((c.tc : Thread nD τ).loc main_arg25)) :=
  (KStretch.s5_keep (W16 m ρ c) main_arg25 (by decide)).trans (w16_arg25 m ρ c)
theorem w17_arg26  : W17 m ρ c (Proc.devRef .tc main_arg26) = (m ((c.tc : Thread nD τ).loc main_arg26)) :=
  (KStretch.s5_keep (W16 m ρ c) main_arg26 (by decide)).trans (w16_arg26 m ρ c)
theorem w17_arg27  : W17 m ρ c (Proc.devRef .tc main_arg27) = (m ((c.tc : Thread nD τ).loc main_arg27)) :=
  (KStretch.s5_keep (W16 m ρ c) main_arg27 (by decide)).trans (w16_arg27 m ρ c)
theorem w17_arg28  : W17 m ρ c (Proc.devRef .tc main_arg28) = (m ((c.tc : Thread nD τ).loc main_arg28)) :=
  (KStretch.s5_keep (W16 m ρ c) main_arg28 (by decide)).trans (w16_arg28 m ρ c)
theorem w17_arg29  : W17 m ρ c (Proc.devRef .tc main_arg29) = (m ((c.tc : Thread nD τ).loc main_arg29)) :=
  (KStretch.s5_keep (W16 m ρ c) main_arg29 (by decide)).trans (w16_arg29 m ρ c)
theorem w17_arg30  : W17 m ρ c (Proc.devRef .tc main_arg30) = (m ((c.tc : Thread nD τ).loc main_arg30)) :=
  (KStretch.s5_keep (W16 m ρ c) main_arg30 (by decide)).trans (w16_arg30 m ρ c)
theorem w17_arg31  : W17 m ρ c (Proc.devRef .tc main_arg31) = (m ((c.tc : Thread nD τ).loc main_arg31)) :=
  (KStretch.s5_keep (W16 m ρ c) main_arg31 (by decide)).trans (w16_arg31 m ρ c)
theorem w17_arg32  : W17 m ρ c (Proc.devRef .tc main_arg32) = (m ((c.tc : Thread nD τ).loc main_arg32)) :=
  (KStretch.s5_keep (W16 m ρ c) main_arg32 (by decide)).trans (w16_arg32 m ρ c)

/-! ### Boundary 18 (after region 5) -/

theorem w18_arg2  : W18 m ρ c (Proc.devRef .tc main_arg2) = (m ((c.tc : Thread nD τ).loc main_arg2)) :=
  (W18_of_ne m ρ c main_arg2 (by decide)).trans (w17_arg2 m ρ c)
theorem w18_arg21  : W18 m ρ c (Proc.devRef .tc main_arg21) = (m ((c.tc : Thread nD τ).loc main_arg21)) :=
  (W18_of_ne m ρ c main_arg21 (by decide)).trans (w17_arg21 m ρ c)
theorem w18_arg22  : W18 m ρ c (Proc.devRef .tc main_arg22) = (m ((c.tc : Thread nD τ).loc main_arg22)) :=
  (W18_of_ne m ρ c main_arg22 (by decide)).trans (w17_arg22 m ρ c)
theorem w18_arg23  : W18 m ρ c (Proc.devRef .tc main_arg23) = (m ((c.tc : Thread nD τ).loc main_arg23)) :=
  (W18_of_ne m ρ c main_arg23 (by decide)).trans (w17_arg23 m ρ c)
theorem w18_arg24  : W18 m ρ c (Proc.devRef .tc main_arg24) = (m ((c.tc : Thread nD τ).loc main_arg24)) :=
  (W18_of_ne m ρ c main_arg24 (by decide)).trans (w17_arg24 m ρ c)
theorem w18_arg25  : W18 m ρ c (Proc.devRef .tc main_arg25) = (m ((c.tc : Thread nD τ).loc main_arg25)) :=
  (W18_of_ne m ρ c main_arg25 (by decide)).trans (w17_arg25 m ρ c)
theorem w18_arg26  : W18 m ρ c (Proc.devRef .tc main_arg26) = (m ((c.tc : Thread nD τ).loc main_arg26)) :=
  (W18_of_ne m ρ c main_arg26 (by decide)).trans (w17_arg26 m ρ c)
theorem w18_arg27  : W18 m ρ c (Proc.devRef .tc main_arg27) = (m ((c.tc : Thread nD τ).loc main_arg27)) :=
  (W18_of_ne m ρ c main_arg27 (by decide)).trans (w17_arg27 m ρ c)
theorem w18_arg28  : W18 m ρ c (Proc.devRef .tc main_arg28) = (m ((c.tc : Thread nD τ).loc main_arg28)) :=
  (W18_of_ne m ρ c main_arg28 (by decide)).trans (w17_arg28 m ρ c)
theorem w18_arg29  : W18 m ρ c (Proc.devRef .tc main_arg29) = (m ((c.tc : Thread nD τ).loc main_arg29)) :=
  (W18_of_ne m ρ c main_arg29 (by decide)).trans (w17_arg29 m ρ c)
theorem w18_arg30  : W18 m ρ c (Proc.devRef .tc main_arg30) = (m ((c.tc : Thread nD τ).loc main_arg30)) :=
  (W18_of_ne m ρ c main_arg30 (by decide)).trans (w17_arg30 m ρ c)
theorem w18_arg31  : W18 m ρ c (Proc.devRef .tc main_arg31) = (m ((c.tc : Thread nD τ).loc main_arg31)) :=
  (W18_of_ne m ρ c main_arg31 (by decide)).trans (w17_arg31 m ρ c)
theorem w18_arg32  : W18 m ρ c (Proc.devRef .tc main_arg32) = (m ((c.tc : Thread nD τ).loc main_arg32)) :=
  (W18_of_ne m ρ c main_arg32 (by decide)).trans (w17_arg32 m ρ c)

/-! ### Boundary 19 (after `hostOps6`) -/

theorem w19_arg2  : W19 m ρ c (Proc.devRef .tc main_arg2) = (m ((c.tc : Thread nD τ).loc main_arg2)) :=
  (KStretch.s6_keep (W18 m ρ c) main_arg2 (by decide)).trans (w18_arg2 m ρ c)
theorem w19_arg21  : W19 m ρ c (Proc.devRef .tc main_arg21) = (m ((c.tc : Thread nD τ).loc main_arg21)) :=
  (KStretch.s6_keep (W18 m ρ c) main_arg21 (by decide)).trans (w18_arg21 m ρ c)
theorem w19_arg22  : W19 m ρ c (Proc.devRef .tc main_arg22) = (m ((c.tc : Thread nD τ).loc main_arg22)) :=
  (KStretch.s6_keep (W18 m ρ c) main_arg22 (by decide)).trans (w18_arg22 m ρ c)
theorem w19_arg23  : W19 m ρ c (Proc.devRef .tc main_arg23) = (m ((c.tc : Thread nD τ).loc main_arg23)) :=
  (KStretch.s6_keep (W18 m ρ c) main_arg23 (by decide)).trans (w18_arg23 m ρ c)
theorem w19_arg24  : W19 m ρ c (Proc.devRef .tc main_arg24) = (m ((c.tc : Thread nD τ).loc main_arg24)) :=
  (KStretch.s6_keep (W18 m ρ c) main_arg24 (by decide)).trans (w18_arg24 m ρ c)
theorem w19_arg25  : W19 m ρ c (Proc.devRef .tc main_arg25) = (m ((c.tc : Thread nD τ).loc main_arg25)) :=
  (KStretch.s6_keep (W18 m ρ c) main_arg25 (by decide)).trans (w18_arg25 m ρ c)
theorem w19_arg26  : W19 m ρ c (Proc.devRef .tc main_arg26) = (m ((c.tc : Thread nD τ).loc main_arg26)) :=
  (KStretch.s6_keep (W18 m ρ c) main_arg26 (by decide)).trans (w18_arg26 m ρ c)
theorem w19_arg27  : W19 m ρ c (Proc.devRef .tc main_arg27) = (m ((c.tc : Thread nD τ).loc main_arg27)) :=
  (KStretch.s6_keep (W18 m ρ c) main_arg27 (by decide)).trans (w18_arg27 m ρ c)
theorem w19_arg28  : W19 m ρ c (Proc.devRef .tc main_arg28) = (m ((c.tc : Thread nD τ).loc main_arg28)) :=
  (KStretch.s6_keep (W18 m ρ c) main_arg28 (by decide)).trans (w18_arg28 m ρ c)
theorem w19_arg29  : W19 m ρ c (Proc.devRef .tc main_arg29) = (m ((c.tc : Thread nD τ).loc main_arg29)) :=
  (KStretch.s6_keep (W18 m ρ c) main_arg29 (by decide)).trans (w18_arg29 m ρ c)
theorem w19_arg30  : W19 m ρ c (Proc.devRef .tc main_arg30) = (m ((c.tc : Thread nD τ).loc main_arg30)) :=
  (KStretch.s6_keep (W18 m ρ c) main_arg30 (by decide)).trans (w18_arg30 m ρ c)
theorem w19_arg31  : W19 m ρ c (Proc.devRef .tc main_arg31) = (m ((c.tc : Thread nD τ).loc main_arg31)) :=
  (KStretch.s6_keep (W18 m ρ c) main_arg31 (by decide)).trans (w18_arg31 m ρ c)
theorem w19_arg32  : W19 m ρ c (Proc.devRef .tc main_arg32) = (m ((c.tc : Thread nD τ).loc main_arg32)) :=
  (KStretch.s6_keep (W18 m ρ c) main_arg32 (by decide)).trans (w18_arg32 m ρ c)

/-! ### Boundary 20 (after `hostOps6_1`) -/

theorem w20_arg2  : W20 m ρ c (Proc.devRef .tc main_arg2) = (m ((c.tc : Thread nD τ).loc main_arg2)) :=
  (KStretch.s6_1_keep (W19 m ρ c) main_arg2 (by decide)).trans (w19_arg2 m ρ c)
theorem w20_arg21  : W20 m ρ c (Proc.devRef .tc main_arg21) = (m ((c.tc : Thread nD τ).loc main_arg21)) :=
  (KStretch.s6_1_keep (W19 m ρ c) main_arg21 (by decide)).trans (w19_arg21 m ρ c)
theorem w20_arg22  : W20 m ρ c (Proc.devRef .tc main_arg22) = (m ((c.tc : Thread nD τ).loc main_arg22)) :=
  (KStretch.s6_1_keep (W19 m ρ c) main_arg22 (by decide)).trans (w19_arg22 m ρ c)
theorem w20_arg23  : W20 m ρ c (Proc.devRef .tc main_arg23) = (m ((c.tc : Thread nD τ).loc main_arg23)) :=
  (KStretch.s6_1_keep (W19 m ρ c) main_arg23 (by decide)).trans (w19_arg23 m ρ c)
theorem w20_arg24  : W20 m ρ c (Proc.devRef .tc main_arg24) = (m ((c.tc : Thread nD τ).loc main_arg24)) :=
  (KStretch.s6_1_keep (W19 m ρ c) main_arg24 (by decide)).trans (w19_arg24 m ρ c)
theorem w20_arg25  : W20 m ρ c (Proc.devRef .tc main_arg25) = (m ((c.tc : Thread nD τ).loc main_arg25)) :=
  (KStretch.s6_1_keep (W19 m ρ c) main_arg25 (by decide)).trans (w19_arg25 m ρ c)
theorem w20_arg26  : W20 m ρ c (Proc.devRef .tc main_arg26) = (m ((c.tc : Thread nD τ).loc main_arg26)) :=
  (KStretch.s6_1_keep (W19 m ρ c) main_arg26 (by decide)).trans (w19_arg26 m ρ c)
theorem w20_arg27  : W20 m ρ c (Proc.devRef .tc main_arg27) = (m ((c.tc : Thread nD τ).loc main_arg27)) :=
  (KStretch.s6_1_keep (W19 m ρ c) main_arg27 (by decide)).trans (w19_arg27 m ρ c)
theorem w20_arg28  : W20 m ρ c (Proc.devRef .tc main_arg28) = (m ((c.tc : Thread nD τ).loc main_arg28)) :=
  (KStretch.s6_1_keep (W19 m ρ c) main_arg28 (by decide)).trans (w19_arg28 m ρ c)
theorem w20_arg29  : W20 m ρ c (Proc.devRef .tc main_arg29) = (m ((c.tc : Thread nD τ).loc main_arg29)) :=
  (KStretch.s6_1_keep (W19 m ρ c) main_arg29 (by decide)).trans (w19_arg29 m ρ c)
theorem w20_arg30  : W20 m ρ c (Proc.devRef .tc main_arg30) = (m ((c.tc : Thread nD τ).loc main_arg30)) :=
  (KStretch.s6_1_keep (W19 m ρ c) main_arg30 (by decide)).trans (w19_arg30 m ρ c)
theorem w20_arg31  : W20 m ρ c (Proc.devRef .tc main_arg31) = (m ((c.tc : Thread nD τ).loc main_arg31)) :=
  (KStretch.s6_1_keep (W19 m ρ c) main_arg31 (by decide)).trans (w19_arg31 m ρ c)
theorem w20_arg32  : W20 m ρ c (Proc.devRef .tc main_arg32) = (m ((c.tc : Thread nD τ).loc main_arg32)) :=
  (KStretch.s6_1_keep (W19 m ρ c) main_arg32 (by decide)).trans (w19_arg32 m ρ c)

/-! ### Boundary 21 (after `hostOps6_2`) -/

theorem w21_arg2  : W21 m ρ c (Proc.devRef .tc main_arg2) = (m ((c.tc : Thread nD τ).loc main_arg2)) :=
  (KStretch.s6_2_keep (W20 m ρ c) main_arg2 (by decide)).trans (w20_arg2 m ρ c)
theorem w21_arg23  : W21 m ρ c (Proc.devRef .tc main_arg23) = (m ((c.tc : Thread nD τ).loc main_arg23)) :=
  (KStretch.s6_2_keep (W20 m ρ c) main_arg23 (by decide)).trans (w20_arg23 m ρ c)
theorem w21_arg25  : W21 m ρ c (Proc.devRef .tc main_arg25) = (m ((c.tc : Thread nD τ).loc main_arg25)) :=
  (KStretch.s6_2_keep (W20 m ρ c) main_arg25 (by decide)).trans (w20_arg25 m ρ c)
theorem w21_arg26  : W21 m ρ c (Proc.devRef .tc main_arg26) = (m ((c.tc : Thread nD τ).loc main_arg26)) :=
  (KStretch.s6_2_keep (W20 m ρ c) main_arg26 (by decide)).trans (w20_arg26 m ρ c)
theorem w21_arg27  : W21 m ρ c (Proc.devRef .tc main_arg27) = (m ((c.tc : Thread nD τ).loc main_arg27)) :=
  (KStretch.s6_2_keep (W20 m ρ c) main_arg27 (by decide)).trans (w20_arg27 m ρ c)
theorem w21_arg28  : W21 m ρ c (Proc.devRef .tc main_arg28) = (m ((c.tc : Thread nD τ).loc main_arg28)) :=
  (KStretch.s6_2_keep (W20 m ρ c) main_arg28 (by decide)).trans (w20_arg28 m ρ c)
theorem w21_arg29  : W21 m ρ c (Proc.devRef .tc main_arg29) = (m ((c.tc : Thread nD τ).loc main_arg29)) :=
  (KStretch.s6_2_keep (W20 m ρ c) main_arg29 (by decide)).trans (w20_arg29 m ρ c)
theorem w21_arg30  : W21 m ρ c (Proc.devRef .tc main_arg30) = (m ((c.tc : Thread nD τ).loc main_arg30)) :=
  (KStretch.s6_2_keep (W20 m ρ c) main_arg30 (by decide)).trans (w20_arg30 m ρ c)
theorem w21_arg31  : W21 m ρ c (Proc.devRef .tc main_arg31) = (m ((c.tc : Thread nD τ).loc main_arg31)) :=
  (KStretch.s6_2_keep (W20 m ρ c) main_arg31 (by decide)).trans (w20_arg31 m ρ c)
theorem w21_arg32  : W21 m ρ c (Proc.devRef .tc main_arg32) = (m ((c.tc : Thread nD τ).loc main_arg32)) :=
  (KStretch.s6_2_keep (W20 m ρ c) main_arg32 (by decide)).trans (w20_arg32 m ρ c)

/-! ### Boundary 22 (after region 6) -/

theorem w22_arg2  : W22 m ρ c (Proc.devRef .tc main_arg2) = (m ((c.tc : Thread nD τ).loc main_arg2)) :=
  (W22_of_ne m ρ c main_arg2 (by decide)).trans (w21_arg2 m ρ c)
theorem w22_arg25  : W22 m ρ c (Proc.devRef .tc main_arg25) = (m ((c.tc : Thread nD τ).loc main_arg25)) :=
  (W22_of_ne m ρ c main_arg25 (by decide)).trans (w21_arg25 m ρ c)
theorem w22_arg26  : W22 m ρ c (Proc.devRef .tc main_arg26) = (m ((c.tc : Thread nD τ).loc main_arg26)) :=
  (W22_of_ne m ρ c main_arg26 (by decide)).trans (w21_arg26 m ρ c)
theorem w22_arg27  : W22 m ρ c (Proc.devRef .tc main_arg27) = (m ((c.tc : Thread nD τ).loc main_arg27)) :=
  (W22_of_ne m ρ c main_arg27 (by decide)).trans (w21_arg27 m ρ c)
theorem w22_arg28  : W22 m ρ c (Proc.devRef .tc main_arg28) = (m ((c.tc : Thread nD τ).loc main_arg28)) :=
  (W22_of_ne m ρ c main_arg28 (by decide)).trans (w21_arg28 m ρ c)
theorem w22_arg29  : W22 m ρ c (Proc.devRef .tc main_arg29) = (m ((c.tc : Thread nD τ).loc main_arg29)) :=
  (W22_of_ne m ρ c main_arg29 (by decide)).trans (w21_arg29 m ρ c)
theorem w22_arg30  : W22 m ρ c (Proc.devRef .tc main_arg30) = (m ((c.tc : Thread nD τ).loc main_arg30)) :=
  (W22_of_ne m ρ c main_arg30 (by decide)).trans (w21_arg30 m ρ c)
theorem w22_arg31  : W22 m ρ c (Proc.devRef .tc main_arg31) = (m ((c.tc : Thread nD τ).loc main_arg31)) :=
  (W22_of_ne m ρ c main_arg31 (by decide)).trans (w21_arg31 m ρ c)
theorem w22_arg32  : W22 m ρ c (Proc.devRef .tc main_arg32) = (m ((c.tc : Thread nD τ).loc main_arg32)) :=
  (W22_of_ne m ρ c main_arg32 (by decide)).trans (w21_arg32 m ρ c)

/-! ### Boundary 23 (after `hostOps7`) -/

theorem w23_arg25  : W23 m ρ c (Proc.devRef .tc main_arg25) = (m ((c.tc : Thread nD τ).loc main_arg25)) :=
  (KStretch.s7_keep (W22 m ρ c) main_arg25 (by decide)).trans (w22_arg25 m ρ c)
theorem w23_arg26  : W23 m ρ c (Proc.devRef .tc main_arg26) = (m ((c.tc : Thread nD τ).loc main_arg26)) :=
  (KStretch.s7_keep (W22 m ρ c) main_arg26 (by decide)).trans (w22_arg26 m ρ c)
theorem w23_arg27  : W23 m ρ c (Proc.devRef .tc main_arg27) = (m ((c.tc : Thread nD τ).loc main_arg27)) :=
  (KStretch.s7_keep (W22 m ρ c) main_arg27 (by decide)).trans (w22_arg27 m ρ c)
theorem w23_arg28  : W23 m ρ c (Proc.devRef .tc main_arg28) = (m ((c.tc : Thread nD τ).loc main_arg28)) :=
  (KStretch.s7_keep (W22 m ρ c) main_arg28 (by decide)).trans (w22_arg28 m ρ c)
theorem w23_arg29  : W23 m ρ c (Proc.devRef .tc main_arg29) = (m ((c.tc : Thread nD τ).loc main_arg29)) :=
  (KStretch.s7_keep (W22 m ρ c) main_arg29 (by decide)).trans (w22_arg29 m ρ c)
theorem w23_arg30  : W23 m ρ c (Proc.devRef .tc main_arg30) = (m ((c.tc : Thread nD τ).loc main_arg30)) :=
  (KStretch.s7_keep (W22 m ρ c) main_arg30 (by decide)).trans (w22_arg30 m ρ c)
theorem w23_arg31  : W23 m ρ c (Proc.devRef .tc main_arg31) = (m ((c.tc : Thread nD τ).loc main_arg31)) :=
  (KStretch.s7_keep (W22 m ρ c) main_arg31 (by decide)).trans (w22_arg31 m ρ c)
theorem w23_arg32  : W23 m ρ c (Proc.devRef .tc main_arg32) = (m ((c.tc : Thread nD τ).loc main_arg32)) :=
  (KStretch.s7_keep (W22 m ρ c) main_arg32 (by decide)).trans (w22_arg32 m ρ c)

/-! ### Boundary 24 (after `hostOps7_1`) -/

theorem w24_arg25  : W24 m ρ c (Proc.devRef .tc main_arg25) = (m ((c.tc : Thread nD τ).loc main_arg25)) :=
  (KStretch.s7_1_keep (W23 m ρ c) main_arg25 (by decide)).trans (w23_arg25 m ρ c)
theorem w24_arg26  : W24 m ρ c (Proc.devRef .tc main_arg26) = (m ((c.tc : Thread nD τ).loc main_arg26)) :=
  (KStretch.s7_1_keep (W23 m ρ c) main_arg26 (by decide)).trans (w23_arg26 m ρ c)
theorem w24_arg27  : W24 m ρ c (Proc.devRef .tc main_arg27) = (m ((c.tc : Thread nD τ).loc main_arg27)) :=
  (KStretch.s7_1_keep (W23 m ρ c) main_arg27 (by decide)).trans (w23_arg27 m ρ c)
theorem w24_arg28  : W24 m ρ c (Proc.devRef .tc main_arg28) = (m ((c.tc : Thread nD τ).loc main_arg28)) :=
  (KStretch.s7_1_keep (W23 m ρ c) main_arg28 (by decide)).trans (w23_arg28 m ρ c)
theorem w24_arg29  : W24 m ρ c (Proc.devRef .tc main_arg29) = (m ((c.tc : Thread nD τ).loc main_arg29)) :=
  (KStretch.s7_1_keep (W23 m ρ c) main_arg29 (by decide)).trans (w23_arg29 m ρ c)
theorem w24_arg30  : W24 m ρ c (Proc.devRef .tc main_arg30) = (m ((c.tc : Thread nD τ).loc main_arg30)) :=
  (KStretch.s7_1_keep (W23 m ρ c) main_arg30 (by decide)).trans (w23_arg30 m ρ c)
theorem w24_arg31  : W24 m ρ c (Proc.devRef .tc main_arg31) = (m ((c.tc : Thread nD τ).loc main_arg31)) :=
  (KStretch.s7_1_keep (W23 m ρ c) main_arg31 (by decide)).trans (w23_arg31 m ρ c)
theorem w24_arg32  : W24 m ρ c (Proc.devRef .tc main_arg32) = (m ((c.tc : Thread nD τ).loc main_arg32)) :=
  (KStretch.s7_1_keep (W23 m ρ c) main_arg32 (by decide)).trans (w23_arg32 m ρ c)

/-! ### Boundary 25 (after `hostOps7_2`) -/

theorem w25_arg27  : W25 m ρ c (Proc.devRef .tc main_arg27) = (m ((c.tc : Thread nD τ).loc main_arg27)) :=
  (KStretch.s7_2_keep (W24 m ρ c) main_arg27 (by decide)).trans (w24_arg27 m ρ c)
theorem w25_arg29  : W25 m ρ c (Proc.devRef .tc main_arg29) = (m ((c.tc : Thread nD τ).loc main_arg29)) :=
  (KStretch.s7_2_keep (W24 m ρ c) main_arg29 (by decide)).trans (w24_arg29 m ρ c)
theorem w25_arg30  : W25 m ρ c (Proc.devRef .tc main_arg30) = (m ((c.tc : Thread nD τ).loc main_arg30)) :=
  (KStretch.s7_2_keep (W24 m ρ c) main_arg30 (by decide)).trans (w24_arg30 m ρ c)
theorem w25_arg31  : W25 m ρ c (Proc.devRef .tc main_arg31) = (m ((c.tc : Thread nD τ).loc main_arg31)) :=
  (KStretch.s7_2_keep (W24 m ρ c) main_arg31 (by decide)).trans (w24_arg31 m ρ c)
theorem w25_arg32  : W25 m ρ c (Proc.devRef .tc main_arg32) = (m ((c.tc : Thread nD τ).loc main_arg32)) :=
  (KStretch.s7_2_keep (W24 m ρ c) main_arg32 (by decide)).trans (w24_arg32 m ρ c)

/-! ### Boundary 26 (after region 7) -/

theorem w26_arg29  : W26 m ρ c (Proc.devRef .tc main_arg29) = (m ((c.tc : Thread nD τ).loc main_arg29)) :=
  (W26_of_ne m ρ c main_arg29 (by decide)).trans (w25_arg29 m ρ c)
theorem w26_arg30  : W26 m ρ c (Proc.devRef .tc main_arg30) = (m ((c.tc : Thread nD τ).loc main_arg30)) :=
  (W26_of_ne m ρ c main_arg30 (by decide)).trans (w25_arg30 m ρ c)
theorem w26_arg31  : W26 m ρ c (Proc.devRef .tc main_arg31) = (m ((c.tc : Thread nD τ).loc main_arg31)) :=
  (W26_of_ne m ρ c main_arg31 (by decide)).trans (w25_arg31 m ρ c)
theorem w26_arg32  : W26 m ρ c (Proc.devRef .tc main_arg32) = (m ((c.tc : Thread nD τ).loc main_arg32)) :=
  (W26_of_ne m ρ c main_arg32 (by decide)).trans (w25_arg32 m ρ c)

/-! ### Boundary 27 (after `hostOps8`) -/

theorem w27_arg29  : W27 m ρ c (Proc.devRef .tc main_arg29) = (m ((c.tc : Thread nD τ).loc main_arg29)) :=
  (KStretch.s8_keep (W26 m ρ c) main_arg29 (by decide)).trans (w26_arg29 m ρ c)
theorem w27_arg30  : W27 m ρ c (Proc.devRef .tc main_arg30) = (m ((c.tc : Thread nD τ).loc main_arg30)) :=
  (KStretch.s8_keep (W26 m ρ c) main_arg30 (by decide)).trans (w26_arg30 m ρ c)
theorem w27_arg31  : W27 m ρ c (Proc.devRef .tc main_arg31) = (m ((c.tc : Thread nD τ).loc main_arg31)) :=
  (KStretch.s8_keep (W26 m ρ c) main_arg31 (by decide)).trans (w26_arg31 m ρ c)
theorem w27_arg32  : W27 m ρ c (Proc.devRef .tc main_arg32) = (m ((c.tc : Thread nD τ).loc main_arg32)) :=
  (KStretch.s8_keep (W26 m ρ c) main_arg32 (by decide)).trans (w26_arg32 m ρ c)

/-! ### Boundary 28 (after `hostOps8_1`) -/

theorem w28_arg29  : W28 m ρ c (Proc.devRef .tc main_arg29) = (m ((c.tc : Thread nD τ).loc main_arg29)) :=
  (KStretch.s8_1_keep (W27 m ρ c) main_arg29 (by decide)).trans (w27_arg29 m ρ c)
theorem w28_arg30  : W28 m ρ c (Proc.devRef .tc main_arg30) = (m ((c.tc : Thread nD τ).loc main_arg30)) :=
  (KStretch.s8_1_keep (W27 m ρ c) main_arg30 (by decide)).trans (w27_arg30 m ρ c)
theorem w28_arg31  : W28 m ρ c (Proc.devRef .tc main_arg31) = (m ((c.tc : Thread nD τ).loc main_arg31)) :=
  (KStretch.s8_1_keep (W27 m ρ c) main_arg31 (by decide)).trans (w27_arg31 m ρ c)
theorem w28_arg32  : W28 m ρ c (Proc.devRef .tc main_arg32) = (m ((c.tc : Thread nD τ).loc main_arg32)) :=
  (KStretch.s8_1_keep (W27 m ρ c) main_arg32 (by decide)).trans (w27_arg32 m ρ c)

/-! ### Boundary 29 (after `hostOps8_2`) -/

theorem w29_arg31  : W29 m ρ c (Proc.devRef .tc main_arg31) = (m ((c.tc : Thread nD τ).loc main_arg31)) :=
  (KStretch.s8_2_keep (W28 m ρ c) main_arg31 (by decide)).trans (w28_arg31 m ρ c)

end Cert.KernelIdeal.KValue

end
-- ==== Proof.KOut.lean ====
/-
  The kernel program's result as one closed function of its 33 arguments.

  Layer 0 normalises the input features per column (scale w·r, shift b − μ·w·r, with μ, r the column mean and the
  reciprocal square root of the shifted column variance), applies a dense layer and clamps at zero.  Each of the three
  message-passing layers adds to every node row the sum of its in-neighbours' rows, applies a dense layer, normalises
  the result by its own column statistics, clamps, applies a second dense layer and clamps.  The node rows are then
  summed per graph, and two further normalised dense layers (the second without clamp, onto 10 classes) feed the
  log-softmax over the classes.
-/
import proofs.«132872_j8993661518249_1_alg».proof.Proof.KStages
import proofs.«132872_j8993661518249_1_alg».proof.Proof.Spec

noncomputable section

namespace Cert.Stages

open Idealize.ShloMosaic Idealize.ShloMosaic.ValueIdx Cert.GNN
open Cert.KernelIdeal

/-- Layer 0: the normalised input features through the first dense layer, clamped. -/
def h0K (x : FA S50000x128) (w b : FA S128) (W : FA S128x96) (bb : FA S96) : FA S50000x96 :=
  affLinRelu (M := 50000) (K := 128) (N := 96) x (scaleRow128 w (var128 x)) (shiftRow128 b (mean128 x) w (var128 x)) W (row96 bb)

/-- A message-passing layer's first half: every row plus its aggregated neighbours, through a dense layer. -/
def t1K (h : FA S50000x96) (e : IA S2x800000) (W1 : FA S96x96) (b1 : FA S96) : FA S50000x96 :=
  sumLin (M := 50000) (K := 96) (N := 96) h (aggOf h e) W1 (row96 b1)

/-- A message-passing layer's second half: normalise by the batch statistics, clamp, dense layer, clamp. -/
def t2K (t : FA S50000x96) (bw bb : FA S96) (W2 : FA S96x96) (b2 : FA S96) : FA S50000x96 :=
  affReluLinRelu (M := 50000) (K := 96) (N := 96) t (scaleRow96 bw (var96 t)) (shiftRow96 bb (mean96 t) bw (var96 t)) W2 (row96 b2)

/-- One message-passing layer. -/
def layerK (h : FA S50000x96) (e : IA S2x800000) (W1 : FA S96x96) (b1 bw bb : FA S96) (W2 : FA S96x96) (b2 : FA S96) : FA S50000x96 :=
  t2K (t1K h e W1 b1) bw bb W2 b2

/-- The pooled rows through the first normalised dense layer, clamped. -/
def g2K (g : FA S512x96) (w b : FA S96) (W : FA S96x96) (bb : FA S96) : FA S512x96 :=
  affLinRelu (M := 512) (K := 96) (N := 96) g (scaleRow96 w (var512 g)) (shiftRow96 b (mean512 g) w (var512 g)) W (row96 bb)

/-- The class scores: the second normalised dense layer, not clamped. -/
def lgK (g : FA S512x96) (w b : FA S96) (W : FA S96x10) (bb : FA S10) : FA S512x10 :=
  affLin (M := 512) (K := 96) (N := 10) g (scaleRow96 w (var512 g)) (shiftRow96 b (mean512 g) w (var512 g)) W (row10 bb)

/-- The node rows after the three message-passing layers. -/
def h3K (a0 : FA S50000x128) (a1 : IA S2x800000) (a3 a4 : FA S128) (a5 : FA S128x96) (a6 : FA S96)
    (a7 : FA S96x96) (a8 a9 a10 : FA S96) (a11 : FA S96x96) (a12 : FA S96)
    (a13 : FA S96x96) (a14 a15 a16 : FA S96) (a17 : FA S96x96) (a18 : FA S96)
    (a19 : FA S96x96) (a20 a21 a22 : FA S96) (a23 : FA S96x96) (a24 : FA S96) : FA S50000x96 :=
  layerK (layerK (layerK (h0K a0 a3 a4 a5 a6) a1 a7 a8 a9 a10 a11 a12) a1 a13 a14 a15 a16 a17 a18) a1 a19 a20 a21 a22 a23 a24

/-- The kernel program's result. -/
def Kout (a0 : FA S50000x128) (a1 : IA S2x800000) (a2 : IA S50000) (a3 a4 : FA S128) (a5 : FA S128x96) (a6 : FA S96)
    (a7 : FA S96x96) (a8 a9 a10 : FA S96) (a11 : FA S96x96) (a12 : FA S96)
    (a13 : FA S96x96) (a14 a15 a16 : FA S96) (a17 : FA S96x96) (a18 : FA S96)
    (a19 : FA S96x96) (a20 a21 a22 : FA S96) (a23 : FA S96x96) (a24 : FA S96)
    (a25 a26 : FA S96) (a27 : FA S96x96) (a28 a29 a30 : FA S96) (a31 : FA S96x10) (a32 : FA S10) : FA S512x10 :=
  tailOf (lgK (g2K (poolOf (h3K a0 a1 a3 a4 a5 a6 a7 a8 a9 a10 a11 a12 a13 a14 a15 a16 a17 a18 a19 a20 a21 a22 a23 a24) a2)
    a25 a26 a27 a28) a29 a30 a31 a32)

end Cert.Stages

end
-- ==== Proof.KValue.lean ====
/- The value the run of the program ends with, as a closed function of its arguments.

   The run is a fold of buffer contents through host stretches and TensorCore regions.  Walking the fold forward,
   each boundary's lemmas name the few buffers later stages read as stage functions of the launch memory: a host
   stretch's results are its stage functions of the contents before it, a region's output array is the region's
   whole-array function (a hypothesis here, one per region) of its input arrays at entry, and every buffer a segment
   does not write is carried over unchanged.  The last boundary gives the result array as the log-softmax of the
   class scores, which is the network's closed function of the 33 arguments. -/
import proofs.«132872_j8993661518249_1_alg».proof.Proof.Gen.KernelIdeal.Frame
import proofs.«132872_j8993661518249_1_alg».proof.Proof.KStretchA
import proofs.«132872_j8993661518249_1_alg».proof.Proof.KStretchB
import proofs.«132872_j8993661518249_1_alg».proof.Proof.KStretchC
import proofs.«132872_j8993661518249_1_alg».proof.Proof.KArgs
import proofs.«132872_j8993661518249_1_alg».proof.Proof.KOut

set_option maxRecDepth 16384

noncomputable section

namespace Cert.KernelIdeal.KValue

open Idealize.ShloMosaic Idealize.ShloMosaic.TcCoe
open Idealize.SL Idealize.SL.Sem
open Cert Cert.KernelIdeal Cert.KernelIdeal.Gen

variable (m : (ℓ : Loc nD τ sig) → Buf (Elt Ideal) ℓ) (ρ : Dev nD → PrngReg) (c : Dev nD)

/-! ## The intermediate values, as functions of the launch memory -/

/-- Layer 0's node rows. -/
def Hd0 : Stages.FA S50000x96 := Stages.h0K (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))
/-- Layer 1, first half. -/
def T1 : Stages.FA S50000x96 := Stages.t1K (Hd0 m c) (m ((c.tc : Thread nD τ).loc main_arg1)) (m ((c.tc : Thread nD τ).loc main_arg7)) (m ((c.tc : Thread nD τ).loc main_arg8))
/-- Layer 1's node rows. -/
def Hd1 : Stages.FA S50000x96 := Stages.t2K (T1 m c) (m ((c.tc : Thread nD τ).loc main_arg9)) (m ((c.tc : Thread nD τ).loc main_arg10)) (m ((c.tc : Thread nD τ).loc main_arg11)) (m ((c.tc : Thread nD τ).loc main_arg12))
/-- Layer 2, first half. -/
def T2 : Stages.FA S50000x96 := Stages.t1K (Hd1 m c) (m ((c.tc : Thread nD τ).loc main_arg1)) (m ((c.tc : Thread nD τ).loc main_arg13)) (m ((c.tc : Thread nD τ).loc main_arg14))
/-- Layer 2's node rows. -/
def Hd2 : Stages.FA S50000x96 := Stages.t2K (T2 m c) (m ((c.tc : Thread nD τ).loc main_arg15)) (m ((c.tc : Thread nD τ).loc main_arg16)) (m ((c.tc : Thread nD τ).loc main_arg17)) (m ((c.tc : Thread nD τ).loc main_arg18))
/-- Layer 3, first half. -/
def T3 : Stages.FA S50000x96 := Stages.t1K (Hd2 m c) (m ((c.tc : Thread nD τ).loc main_arg1)) (m ((c.tc : Thread nD τ).loc main_arg19)) (m ((c.tc : Thread nD τ).loc main_arg20))
/-- Layer 3's node rows. -/
def Hd3 : Stages.FA S50000x96 := Stages.t2K (T3 m c) (m ((c.tc : Thread nD τ).loc main_arg21)) (m ((c.tc : Thread nD τ).loc main_arg22)) (m ((c.tc : Thread nD τ).loc main_arg23)) (m ((c.tc : Thread nD τ).loc main_arg24))
/-- The node rows pooled per graph. -/
def G1 : Stages.FA S512x96 := Stages.poolOf (Hd3 m c) (m ((c.tc : Thread nD τ).loc main_arg2))
/-- The first dense layer on the pooled rows. -/
def G2 : Stages.FA S512x96 := Stages.g2K (G1 m c) (m ((c.tc : Thread nD τ).loc main_arg25)) (m ((c.tc : Thread nD τ).loc main_arg26)) (m ((c.tc : Thread nD τ).loc main_arg27)) (m ((c.tc : Thread nD τ).loc main_arg28))
/-- The class scores. -/
def LG : Stages.FA S512x10 := Stages.lgK (G2 m c) (m ((c.tc : Thread nD τ).loc main_arg29)) (m ((c.tc : Thread nD τ).loc main_arg30)) (m ((c.tc : Thread nD τ).loc main_arg31)) (m ((c.tc : Thread nD τ).loc main_arg32))

/-! ## The regions' results, as hypotheses -/

/-- Region 0's result as a whole-array function of its input arrays, at any entry contents. -/
abbrev Hyp0 : Prop := ∀ (V : (c : Dev nD) → (b : Ref sig .tc) → Buf (Elt Ideal) ((c : Thread nD τ).loc b)) (c : Dev nD),
  (dat0 (F := Ideal) V c).arrAt 5 cfg0.N = GNN.affLinRelu (M := 50000) (K := 128) (N := 96) (V c (Pipeline.arrRef spec0 0)) (V c (Pipeline.arrRef spec0 1)) (V c (Pipeline.arrRef spec0 2)) (V c (Pipeline.arrRef spec0 3)) (V c (Pipeline.arrRef spec0 4))

/-- Region 1's result as a whole-array function of its input arrays, at any entry contents. -/
abbrev Hyp1 : Prop := ∀ (V : (c : Dev nD) → (b : Ref sig .tc) → Buf (Elt Ideal) ((c : Thread nD τ).loc b)) (c : Dev nD),
  (dat1 (F := Ideal) V c).arrAt 4 cfg1.N = GNN.sumLin (M := 50000) (K := 96) (N := 96) (V c (Pipeline.arrRef spec1 0)) (V c (Pipeline.arrRef spec1 1)) (V c (Pipeline.arrRef spec1 2)) (V c (Pipeline.arrRef spec1 3))

/-- Region 2's result as a whole-array function of its input arrays, at any entry contents. -/
abbrev Hyp2 : Prop := ∀ (V : (c : Dev nD) → (b : Ref sig .tc) → Buf (Elt Ideal) ((c : Thread nD τ).loc b)) (c : Dev nD),
  (dat2 (F := Ideal) V c).arrAt 5 cfg2.N = GNN.affReluLinRelu (M := 50000) (K := 96) (N := 96) (V c (Pipeline.arrRef spec2 0)) (V c (Pipeline.arrRef spec2 1)) (V c (Pipeline.arrRef spec2 2)) (V c (Pipeline.arrRef spec2 3)) (V c (Pipeline.arrRef spec2 4))

/-- Region 3's result as a whole-array function of its input arrays, at any entry contents. -/
abbrev Hyp3 : Prop := ∀ (V : (c : Dev nD) → (b : Ref sig .tc) → Buf (Elt Ideal) ((c : Thread nD τ).loc b)) (c : Dev nD),
  (dat3 (F := Ideal) V c).arrAt 4 cfg3.N = GNN.sumLin (M := 50000) (K := 96) (N := 96) (V c (Pipeline.arrRef spec3 0)) (V c (Pipeline.arrRef spec3 1)) (V c (Pipeline.arrRef spec3 2)) (V c (Pipeline.arrRef spec3 3))

/-- Region 4's result as a whole-array function of its input arrays, at any entry contents. -/
abbrev Hyp4 : Prop := ∀ (V : (c : Dev nD) → (b : Ref sig .tc) → Buf (Elt Ideal) ((c : Thread nD τ).loc b)) (c : Dev nD),
  (dat4 (F := Ideal) V c).arrAt 5 cfg4.N = GNN.affReluLinRelu (M := 50000) (K := 96) (N := 96) (V c (Pipeline.arrRef spec4 0)) (V c (Pipeline.arrRef spec4 1)) (V c (Pipeline.arrRef spec4 2)) (V c (Pipeline.arrRef spec4 3)) (V c (Pipeline.arrRef spec4 4))

/-- Region 5's result as a whole-array function of its input arrays, at any entry contents. -/
abbrev Hyp5 : Prop := ∀ (V : (c : Dev nD) → (b : Ref sig .tc) → Buf (Elt Ideal) ((c : Thread nD τ).loc b)) (c : Dev nD),
  (dat5 (F := Ideal) V c).arrAt 4 cfg5.N = GNN.sumLin (M := 50000) (K := 96) (N := 96) (V c (Pipeline.arrRef spec5 0)) (V c (Pipeline.arrRef spec5 1)) (V c (Pipeline.arrRef spec5 2)) (V c (Pipeline.arrRef spec5 3))

/-- Region 6's result as a whole-array function of its input arrays, at any entry contents. -/
abbrev Hyp6 : Prop := ∀ (V : (c : Dev nD) → (b : Ref sig .tc) → Buf (Elt Ideal) ((c : Thread nD τ).loc b)) (c : Dev nD),
  (dat6 (F := Ideal) V c).arrAt 5 cfg6.N = GNN.affReluLinRelu (M := 50000) (K := 96) (N := 96) (V c (Pipeline.arrRef spec6 0)) (V c (Pipeline.arrRef spec6 1)) (V c (Pipeline.arrRef spec6 2)) (V c (Pipeline.arrRef spec6 3)) (V c (Pipeline.arrRef spec6 4))

/-- Region 7's result as a whole-array function of its input arrays, at any entry contents. -/
abbrev Hyp7 : Prop := ∀ (V : (c : Dev nD) → (b : Ref sig .tc) → Buf (Elt Ideal) ((c : Thread nD τ).loc b)) (c : Dev nD),
  (dat7 (F := Ideal) V c).arrAt 5 cfg7.N = GNN.affLinRelu (M := 512) (K := 96) (N := 96) (V c (Pipeline.arrRef spec7 0)) (V c (Pipeline.arrRef spec7 1)) (V c (Pipeline.arrRef spec7 2)) (V c (Pipeline.arrRef spec7 3)) (V c (Pipeline.arrRef spec7 4))

/-- Region 8's result as a whole-array function of its input arrays, at any entry contents. -/
abbrev Hyp8 : Prop := ∀ (V : (c : Dev nD) → (b : Ref sig .tc) → Buf (Elt Ideal) ((c : Thread nD τ).loc b)) (c : Dev nD),
  (dat8 (F := Ideal) V c).arrAt 5 cfg8.N = GNN.affLin (M := 512) (K := 96) (N := 10) (V c (Pipeline.arrRef spec8 0)) (V c (Pipeline.arrRef spec8 1)) (V c (Pipeline.arrRef spec8 2)) (V c (Pipeline.arrRef spec8 3)) (V c (Pipeline.arrRef spec8 4))

/-! ## The boundaries, in order -/

/-! ### Boundary 1 (after `hostOps0`) -/

theorem w1_v1  : W1 m ρ c (Proc.devRef .tc main_v1) = Stages.edgeRow0 (m ((c.tc : Thread nD τ).loc main_arg1)) := by
  refine (KStretch.s0_v1 (W0 m ρ c)).trans ?_
  rw [(w0_arg1 m ρ c)]
  try rfl
theorem w1_v3  : W1 m ρ c (Proc.devRef .tc main_v3) = Stages.edgeRow1 (m ((c.tc : Thread nD τ).loc main_arg1)) := by
  refine (KStretch.s0_v3 (W0 m ρ c)).trans ?_
  rw [(w0_arg1 m ρ c)]
  try rfl
theorem w1_v6  : W1 m ρ c (Proc.devRef .tc main_v6) = Stages.mean128 (m ((c.tc : Thread nD τ).loc main_arg0)) := by
  refine (KStretch.s0_v6 (W0 m ρ c)).trans ?_
  rw [(w0_arg0 m ρ c)]
  try rfl
theorem w1_c  : W1 m ρ c (Proc.devRef .tc main_c) = (constantI S_ 32 0#32 : Stages.IA S_) := by
  refine (KStretch.s0_c (W0 m ρ c)).trans ?_
  rfl

/-! ### Boundary 2 (after `hostOps0_1`) -/

theorem w2_v1  : W2 m ρ c (Proc.devRef .tc main_v1) = Stages.edgeRow0 (m ((c.tc : Thread nD τ).loc main_arg1)) :=
  (KStretch.s0_1_keep (W1 m ρ c) main_v1 (by decide)).trans (w1_v1 m ρ c)
theorem w2_v3  : W2 m ρ c (Proc.devRef .tc main_v3) = Stages.edgeRow1 (m ((c.tc : Thread nD τ).loc main_arg1)) :=
  (KStretch.s0_1_keep (W1 m ρ c) main_v3 (by decide)).trans (w1_v3 m ρ c)
theorem w2_v6  : W2 m ρ c (Proc.devRef .tc main_v6) = Stages.mean128 (m ((c.tc : Thread nD τ).loc main_arg0)) :=
  (KStretch.s0_1_keep (W1 m ρ c) main_v6 (by decide)).trans (w1_v6 m ρ c)
theorem w2_v7  : W2 m ρ c (Proc.devRef .tc main_v7) = Stages.var128 (m ((c.tc : Thread nD τ).loc main_arg0)) := by
  refine (KStretch.s0_1_v7 (W1 m ρ c)).trans ?_
  rw [(w1_arg0 m ρ c), (w1_c m ρ c)]
  try rfl

/-! ### Boundary 3 (after `hostOps0_2`) -/

theorem w3_v1  : W3 m ρ c (Proc.devRef .tc main_v1) = Stages.edgeRow0 (m ((c.tc : Thread nD τ).loc main_arg1)) :=
  (KStretch.s0_2_keep (W2 m ρ c) main_v1 (by decide)).trans (w2_v1 m ρ c)
theorem w3_v3  : W3 m ρ c (Proc.devRef .tc main_v3) = Stages.edgeRow1 (m ((c.tc : Thread nD τ).loc main_arg1)) :=
  (KStretch.s0_2_keep (W2 m ρ c) main_v3 (by decide)).trans (w2_v3 m ρ c)
theorem w3_v14  : W3 m ρ c (Proc.devRef .tc main_v14) = Stages.scaleRow128 (m ((c.tc : Thread nD τ).loc main_arg3)) (Stages.var128 (m ((c.tc : Thread nD τ).loc main_arg0))) := by
  refine (KStretch.s0_2_v14 (W2 m ρ c)).trans ?_
  rw [(w2_arg3 m ρ c), (w2_v7 m ρ c)]
  try rfl
theorem w3_v15  : W3 m ρ c (Proc.devRef .tc main_v15) = Stages.shiftRow128 (m ((c.tc : Thread nD τ).loc main_arg4)) (Stages.mean128 (m ((c.tc : Thread nD τ).loc main_arg0))) (m ((c.tc : Thread nD τ).loc main_arg3)) (Stages.var128 (m ((c.tc : Thread nD τ).loc main_arg0))) := by
  refine (KStretch.s0_2_v15 (W2 m ρ c)).trans ?_
  rw [(w2_arg4 m ρ c), (w2_v6 m ρ c), (w2_arg3 m ρ c), (w2_v7 m ρ c)]
  try rfl
theorem w3_v16  : W3 m ρ c (Proc.devRef .tc main_v16) = Stages.row96 (m ((c.tc : Thread nD τ).loc main_arg6)) := by
  refine (KStretch.s0_2_v16 (W2 m ρ c)).trans ?_
  rw [(w2_arg6 m ρ c)]
  try rfl

/-! ### Boundary 4 (after region 0) -/

theorem w4_v1  : W4 m ρ c (Proc.devRef .tc main_v1) = Stages.edgeRow0 (m ((c.tc : Thread nD τ).loc main_arg1)) :=
  (W4_of_ne m ρ c main_v1 (by decide)).trans (w3_v1 m ρ c)
theorem w4_v3  : W4 m ρ c (Proc.devRef .tc main_v3) = Stages.edgeRow1 (m ((c.tc : Thread nD τ).loc main_arg1)) :=
  (W4_of_ne m ρ c main_v3 (by decide)).trans (w3_v3 m ρ c)
set_option maxHeartbeats 4000000 in
theorem w4_v17 (h0 : Hyp0) : W4 m ρ c (Proc.devRef .tc main_v17) = (Hd0 m c) := by
  refine (W4_arr m ρ c 5).trans ((h0 (V3 m ρ) c).trans ?_)
  rw [show V3 m ρ c (Pipeline.arrRef spec0 0) = (m ((c.tc : Thread nD τ).loc main_arg0)) from (w3_arg0 m ρ c),
    show V3 m ρ c (Pipeline.arrRef spec0 1) = Stages.scaleRow128 (m ((c.tc : Thread nD τ).loc main_arg3)) (Stages.var128 (m ((c.tc : Thread nD τ).loc main_arg0))) from (w3_v14 m ρ c),
    show V3 m ρ c (Pipeline.arrRef spec0 2) = Stages.shiftRow128 (m ((c.tc : Thread nD τ).loc main_arg4)) (Stages.mean128 (m ((c.tc : Thread nD τ).loc main_arg0))) (m ((c.tc : Thread nD τ).loc main_arg3)) (Stages.var128 (m ((c.tc : Thread nD τ).loc main_arg0))) from (w3_v15 m ρ c),
    show V3 m ρ c (Pipeline.arrRef spec0 3) = (m ((c.tc : Thread nD τ).loc main_arg5)) from (w3_arg5 m ρ c),
    show V3 m ρ c (Pipeline.arrRef spec0 4) = Stages.row96 (m ((c.tc : Thread nD τ).loc main_arg6)) from (w3_v16 m ρ c)]
  try rfl

/-! ### Boundary 5 (after `hostOps1`) -/

theorem w5_v1  : W5 m ρ c (Proc.devRef .tc main_v1) = Stages.edgeRow0 (m ((c.tc : Thread nD τ).loc main_arg1)) :=
  (KStretch.s1_keep (W4 m ρ c) main_v1 (by decide)).trans (w4_v1 m ρ c)
theorem w5_v3  : W5 m ρ c (Proc.devRef .tc main_v3) = Stages.edgeRow1 (m ((c.tc : Thread nD τ).loc main_arg1)) :=
  (KStretch.s1_keep (W4 m ρ c) main_v3 (by decide)).trans (w4_v3 m ρ c)
theorem w5_v17 (h0 : Hyp0) : W5 m ρ c (Proc.devRef .tc main_v17) = (Hd0 m c) :=
  (KStretch.s1_keep (W4 m ρ c) main_v17 (by decide)).trans (w4_v17 m ρ c h0)
theorem w5_v27 (h0 : Hyp0) : W5 m ρ c (Proc.devRef .tc main_v27) = Stages.aggOf (Hd0 m c) (m ((c.tc : Thread nD τ).loc main_arg1)) := by
  refine (KStretch.s1_v27 (W4 m ρ c)).trans ?_
  rw [(w4_v17 m ρ c h0), (w4_v1 m ρ c), (w4_v3 m ρ c)]
  try rfl
theorem w5_v28  : W5 m ρ c (Proc.devRef .tc main_v28) = Stages.row96 (m ((c.tc : Thread nD τ).loc main_arg8)) := by
  refine (KStretch.s1_v28 (W4 m ρ c)).trans ?_
  rw [(w4_arg8 m ρ c)]
  try rfl

/-! ### Boundary 6 (after region 1) -/

theorem w6_v1  : W6 m ρ c (Proc.devRef .tc main_v1) = Stages.edgeRow0 (m ((c.tc : Thread nD τ).loc main_arg1)) :=
  (W6_of_ne m ρ c main_v1 (by decide)).trans (w5_v1 m ρ c)
theorem w6_v3  : W6 m ρ c (Proc.devRef .tc main_v3) = Stages.edgeRow1 (m ((c.tc : Thread nD τ).loc main_arg1)) :=
  (W6_of_ne m ρ c main_v3 (by decide)).trans (w5_v3 m ρ c)
set_option maxHeartbeats 4000000 in
theorem w6_v29 (h0 : Hyp0) (h1 : Hyp1) : W6 m ρ c (Proc.devRef .tc main_v29) = (T1 m c) := by
  refine (W6_arr m ρ c 4).trans ((h1 (V5 m ρ) c).trans ?_)
  rw [show V5 m ρ c (Pipeline.arrRef spec1 0) = (Hd0 m c) from (w5_v17 m ρ c h0),
    show V5 m ρ c (Pipeline.arrRef spec1 1) = Stages.aggOf (Hd0 m c) (m ((c.tc : Thread nD τ).loc main_arg1)) from (w5_v27 m ρ c h0),
    show V5 m ρ c (Pipeline.arrRef spec1 2) = (m ((c.tc : Thread nD τ).loc main_arg7)) from (w5_arg7 m ρ c),
    show V5 m ρ c (Pipeline.arrRef spec1 3) = Stages.row96 (m ((c.tc : Thread nD τ).loc main_arg8)) from (w5_v28 m ρ c)]
  try rfl

/-! ### Boundary 7 (after `hostOps2`) -/

theorem w7_v1  : W7 m ρ c (Proc.devRef .tc main_v1) = Stages.edgeRow0 (m ((c.tc : Thread nD τ).loc main_arg1)) :=
  (KStretch.s2_keep (W6 m ρ c) main_v1 (by decide)).trans (w6_v1 m ρ c)
theorem w7_v3  : W7 m ρ c (Proc.devRef .tc main_v3) = Stages.edgeRow1 (m ((c.tc : Thread nD τ).loc main_arg1)) :=
  (KStretch.s2_keep (W6 m ρ c) main_v3 (by decide)).trans (w6_v3 m ρ c)
theorem w7_v29 (h0 : Hyp0) (h1 : Hyp1) : W7 m ρ c (Proc.devRef .tc main_v29) = (T1 m c) :=
  (KStretch.s2_keep (W6 m ρ c) main_v29 (by decide)).trans (w6_v29 m ρ c h0 h1)
theorem w7_v32 (h0 : Hyp0) (h1 : Hyp1) : W7 m ρ c (Proc.devRef .tc main_v32) = Stages.mean96 (T1 m c) := by
  refine (KStretch.s2_v32 (W6 m ρ c)).trans ?_
  rw [(w6_v29 m ρ c h0 h1)]
  try rfl
theorem w7_c_7  : W7 m ρ c (Proc.devRef .tc main_c_7) = (constantI S_ 32 0#32 : Stages.IA S_) := by
  refine (KStretch.s2_c_7 (W6 m ρ c)).trans ?_
  rfl

/-! ### Boundary 8 (after `hostOps2_1`) -/

theorem w8_v1  : W8 m ρ c (Proc.devRef .tc main_v1) = Stages.edgeRow0 (m ((c.tc : Thread nD τ).loc main_arg1)) :=
  (KStretch.s2_1_keep (W7 m ρ c) main_v1 (by decide)).trans (w7_v1 m ρ c)
theorem w8_v3  : W8 m ρ c (Proc.devRef .tc main_v3) = Stages.edgeRow1 (m ((c.tc : Thread nD τ).loc main_arg1)) :=
  (KStretch.s2_1_keep (W7 m ρ c) main_v3 (by decide)).trans (w7_v3 m ρ c)
theorem w8_v29 (h0 : Hyp0) (h1 : Hyp1) : W8 m ρ c (Proc.devRef .tc main_v29) = (T1 m c) :=
  (KStretch.s2_1_keep (W7 m ρ c) main_v29 (by decide)).trans (w7_v29 m ρ c h0 h1)
theorem w8_v32 (h0 : Hyp0) (h1 : Hyp1) : W8 m ρ c (Proc.devRef .tc main_v32) = Stages.mean96 (T1 m c) :=
  (KStretch.s2_1_keep (W7 m ρ c) main_v32 (by decide)).trans (w7_v32 m ρ c h0 h1)
theorem w8_v33 (h0 : Hyp0) (h1 : Hyp1) : W8 m ρ c (Proc.devRef .tc main_v33) = Stages.var96 (T1 m c) := by
  refine (KStretch.s2_1_v33 (W7 m ρ c)).trans ?_
  rw [(w7_v29 m ρ c h0 h1), (w7_c_7 m ρ c)]
  try rfl

/-! ### Boundary 9 (after `hostOps2_2`) -/

theorem w9_v1  : W9 m ρ c (Proc.devRef .tc main_v1) = Stages.edgeRow0 (m ((c.tc : Thread nD τ).loc main_arg1)) :=
  (KStretch.s2_2_keep (W8 m ρ c) main_v1 (by decide)).trans (w8_v1 m ρ c)
theorem w9_v3  : W9 m ρ c (Proc.devRef .tc main_v3) = Stages.edgeRow1 (m ((c.tc : Thread nD τ).loc main_arg1)) :=
  (KStretch.s2_2_keep (W8 m ρ c) main_v3 (by decide)).trans (w8_v3 m ρ c)
theorem w9_v29 (h0 : Hyp0) (h1 : Hyp1) : W9 m ρ c (Proc.devRef .tc main_v29) = (T1 m c) :=
  (KStretch.s2_2_keep (W8 m ρ c) main_v29 (by decide)).trans (w8_v29 m ρ c h0 h1)
theorem w9_v40 (h0 : Hyp0) (h1 : Hyp1) : W9 m ρ c (Proc.devRef .tc main_v40) = Stages.scaleRow96 (m ((c.tc : Thread nD τ).loc main_arg9)) (Stages.var96 (T1 m c)) := by
  refine (KStretch.s2_2_v40 (W8 m ρ c)).trans ?_
  rw [(w8_arg9 m ρ c), (w8_v33 m ρ c h0 h1)]
  try rfl
theorem w9_v41 (h0 : Hyp0) (h1 : Hyp1) : W9 m ρ c (Proc.devRef .tc main_v41) = Stages.shiftRow96 (m ((c.tc : Thread nD τ).loc main_arg10)) (Stages.mean96 (T1 m c)) (m ((c.tc : Thread nD τ).loc main_arg9)) (Stages.var96 (T1 m c)) := by
  refine (KStretch.s2_2_v41 (W8 m ρ c)).trans ?_
  rw [(w8_arg10 m ρ c), (w8_v32 m ρ c h0 h1), (w8_arg9 m ρ c), (w8_v33 m ρ c h0 h1)]
  try rfl
theorem w9_v42  : W9 m ρ c (Proc.devRef .tc main_v42) = Stages.row96 (m ((c.tc : Thread nD τ).loc main_arg12)) := by
  refine (KStretch.s2_2_v42 (W8 m ρ c)).trans ?_
  rw [(w8_arg12 m ρ c)]
  try rfl

/-! ### Boundary 10 (after region 2) -/

theorem w10_v1  : W10 m ρ c (Proc.devRef .tc main_v1) = Stages.edgeRow0 (m ((c.tc : Thread nD τ).loc main_arg1)) :=
  (W10_of_ne m ρ c main_v1 (by decide)).trans (w9_v1 m ρ c)
theorem w10_v3  : W10 m ρ c (Proc.devRef .tc main_v3) = Stages.edgeRow1 (m ((c.tc : Thread nD τ).loc main_arg1)) :=
  (W10_of_ne m ρ c main_v3 (by decide)).trans (w9_v3 m ρ c)
set_option maxHeartbeats 4000000 in
theorem w10_v43 (h0 : Hyp0) (h1 : Hyp1) (h2 : Hyp2) : W10 m ρ c (Proc.devRef .tc main_v43) = (Hd1 m c) := by
  refine (W10_arr m ρ c 5).trans ((h2 (V9 m ρ) c).trans ?_)
  rw [show V9 m ρ c (Pipeline.arrRef spec2 0) = (T1 m c) from (w9_v29 m ρ c h0 h1),
    show V9 m ρ c (Pipeline.arrRef spec2 1) = Stages.scaleRow96 (m ((c.tc : Thread nD τ).loc main_arg9)) (Stages.var96 (T1 m c)) from (w9_v40 m ρ c h0 h1),
    show V9 m ρ c (Pipeline.arrRef spec2 2) = Stages.shiftRow96 (m ((c.tc : Thread nD τ).loc main_arg10)) (Stages.mean96 (T1 m c)) (m ((c.tc : Thread nD τ).loc main_arg9)) (Stages.var96 (T1 m c)) from (w9_v41 m ρ c h0 h1),
    show V9 m ρ c (Pipeline.arrRef spec2 3) = (m ((c.tc : Thread nD τ).loc main_arg11)) from (w9_arg11 m ρ c),
    show V9 m ρ c (Pipeline.arrRef spec2 4) = Stages.row96 (m ((c.tc : Thread nD τ).loc main_arg12)) from (w9_v42 m ρ c)]
  try rfl

/-! ### Boundary 11 (after `hostOps3`) -/

theorem w11_v1  : W11 m ρ c (Proc.devRef .tc main_v1) = Stages.edgeRow0 (m ((c.tc : Thread nD τ).loc main_arg1)) :=
  (KStretch.s3_keep (W10 m ρ c) main_v1 (by decide)).trans (w10_v1 m ρ c)
theorem w11_v3  : W11 m ρ c (Proc.devRef .tc main_v3) = Stages.edgeRow1 (m ((c.tc : Thread nD τ).loc main_arg1)) :=
  (KStretch.s3_keep (W10 m ρ c) main_v3 (by decide)).trans (w10_v3 m ρ c)
theorem w11_v43 (h0 : Hyp0) (h1 : Hyp1) (h2 : Hyp2) : W11 m ρ c (Proc.devRef .tc main_v43) = (Hd1 m c) :=
  (KStretch.s3_keep (W10 m ρ c) main_v43 (by decide)).trans (w10_v43 m ρ c h0 h1 h2)
theorem w11_v53 (h0 : Hyp0) (h1 : Hyp1) (h2 : Hyp2) : W11 m ρ c (Proc.devRef .tc main_v53) = Stages.aggOf (Hd1 m c) (m ((c.tc : Thread nD τ).loc main_arg1)) := by
  refine (KStretch.s3_v53 (W10 m ρ c)).trans ?_
  rw [(w10_v43 m ρ c h0 h1 h2), (w10_v1 m ρ c), (w10_v3 m ρ c)]
  try rfl
theorem w11_v54  : W11 m ρ c (Proc.devRef .tc main_v54) = Stages.row96 (m ((c.tc : Thread nD τ).loc main_arg14)) := by
  refine (KStretch.s3_v54 (W10 m ρ c)).trans ?_
  rw [(w10_arg14 m ρ c)]
  try rfl

/-! ### Boundary 12 (after region 3) -/

theorem w12_v1  : W12 m ρ c (Proc.devRef .tc main_v1) = Stages.edgeRow0 (m ((c.tc : Thread nD τ).loc main_arg1)) :=
  (W12_of_ne m ρ c main_v1 (by decide)).trans (w11_v1 m ρ c)
theorem w12_v3  : W12 m ρ c (Proc.devRef .tc main_v3) = Stages.edgeRow1 (m ((c.tc : Thread nD τ).loc main_arg1)) :=
  (W12_of_ne m ρ c main_v3 (by decide)).trans (w11_v3 m ρ c)
set_option maxHeartbeats 4000000 in
theorem w12_v55 (h0 : Hyp0) (h1 : Hyp1) (h2 : Hyp2) (h3 : Hyp3) : W12 m ρ c (Proc.devRef .tc main_v55) = (T2 m c) := by
  refine (W12_arr m ρ c 4).trans ((h3 (V11 m ρ) c).trans ?_)
  rw [show V11 m ρ c (Pipeline.arrRef spec3 0) = (Hd1 m c) from (w11_v43 m ρ c h0 h1 h2),
    show V11 m ρ c (Pipeline.arrRef spec3 1) = Stages.aggOf (Hd1 m c) (m ((c.tc : Thread nD τ).loc main_arg1)) from (w11_v53 m ρ c h0 h1 h2),
    show V11 m ρ c (Pipeline.arrRef spec3 2) = (m ((c.tc : Thread nD τ).loc main_arg13)) from (w11_arg13 m ρ c),
    show V11 m ρ c (Pipeline.arrRef spec3 3) = Stages.row96 (m ((c.tc : Thread nD τ).loc main_arg14)) from (w11_v54 m ρ c)]
  try rfl

/-! ### Boundary 13 (after `hostOps4`) -/

theorem w13_v1  : W13 m ρ c (Proc.devRef .tc main_v1) = Stages.edgeRow0 (m ((c.tc : Thread nD τ).loc main_arg1)) :=
  (KStretch.s4_keep (W12 m ρ c) main_v1 (by decide)).trans (w12_v1 m ρ c)
theorem w13_v3  : W13 m ρ c (Proc.devRef .tc main_v3) = Stages.edgeRow1 (m ((c.tc : Thread nD τ).loc main_arg1)) :=
  (KStretch.s4_keep (W12 m ρ c) main_v3 (by decide)).trans (w12_v3 m ρ c)
theorem w13_v55 (h0 : Hyp0) (h1 : Hyp1) (h2 : Hyp2) (h3 : Hyp3) : W13 m ρ c (Proc.devRef .tc main_v55) = (T2 m c) :=
  (KStretch.s4_keep (W12 m ρ c) main_v55 (by decide)).trans (w12_v55 m ρ c h0 h1 h2 h3)
theorem w13_v58 (h0 : Hyp0) (h1 : Hyp1) (h2 : Hyp2) (h3 : Hyp3) : W13 m ρ c (Proc.devRef .tc main_v58) = Stages.mean96 (T2 m c) := by
  refine (KStretch.s4_v58 (W12 m ρ c)).trans ?_
  rw [(w12_v55 m ρ c h0 h1 h2 h3)]
  try rfl
theorem w13_c_14  : W13 m ρ c (Proc.devRef .tc main_c_14) = (constantI S_ 32 0#32 : Stages.IA S_) := by
  refine (KStretch.s4_c_14 (W12 m ρ c)).trans ?_
  rfl

/-! ### Boundary 14 (after `hostOps4_1`) -/

theorem w14_v1  : W14 m ρ c (Proc.devRef .tc main_v1) = Stages.edgeRow0 (m ((c.tc : Thread nD τ).loc main_arg1)) :=
  (KStretch.s4_1_keep (W13 m ρ c) main_v1 (by decide)).trans (w13_v1 m ρ c)
theorem w14_v3  : W14 m ρ c (Proc.devRef .tc main_v3) = Stages.edgeRow1 (m ((c.tc : Thread nD τ).loc main_arg1)) :=
  (KStretch.s4_1_keep (W13 m ρ c) main_v3 (by decide)).trans (w13_v3 m ρ c)
theorem w14_v55 (h0 : Hyp0) (h1 : Hyp1) (h2 : Hyp2) (h3 : Hyp3) : W14 m ρ c (Proc.devRef .tc main_v55) = (T2 m c) :=
  (KStretch.s4_1_keep (W13 m ρ c) main_v55 (by decide)).trans (w13_v55 m ρ c h0 h1 h2 h3)
theorem w14_v58 (h0 : Hyp0) (h1 : Hyp1) (h2 : Hyp2) (h3 : Hyp3) : W14 m ρ c (Proc.devRef .tc main_v58) = Stages.mean96 (T2 m c) :=
  (KStretch.s4_1_keep (W13 m ρ c) main_v58 (by decide)).trans (w13_v58 m ρ c h0 h1 h2 h3)
theorem w14_v59 (h0 : Hyp0) (h1 : Hyp1) (h2 : Hyp2) (h3 : Hyp3) : W14 m ρ c (Proc.devRef .tc main_v59) = Stages.var96 (T2 m c) := by
  refine (KStretch.s4_1_v59 (W13 m ρ c)).trans ?_
  rw [(w13_v55 m ρ c h0 h1 h2 h3), (w13_c_14 m ρ c)]
  try rfl

/-! ### Boundary 15 (after `hostOps4_2`) -/

theorem w15_v1  : W15 m ρ c (Proc.devRef .tc main_v1) = Stages.edgeRow0 (m ((c.tc : Thread nD τ).loc main_arg1)) :=
  (KStretch.s4_2_keep (W14 m ρ c) main_v1 (by decide)).trans (w14_v1 m ρ c)
theorem w15_v3  : W15 m ρ c (Proc.devRef .tc main_v3) = Stages.edgeRow1 (m ((c.tc : Thread nD τ).loc main_arg1)) :=
  (KStretch.s4_2_keep (W14 m ρ c) main_v3 (by decide)).trans (w14_v3 m ρ c)
theorem w15_v55 (h0 : Hyp0) (h1 : Hyp1) (h2 : Hyp2) (h3 : Hyp3) : W15 m ρ c (Proc.devRef .tc main_v55) = (T2 m c) :=
  (KStretch.s4_2_keep (W14 m ρ c) main_v55 (by decide)).trans (w14_v55 m ρ c h0 h1 h2 h3)
theorem w15_v66 (h0 : Hyp0) (h1 : Hyp1) (h2 : Hyp2) (h3 : Hyp3) : W15 m ρ c (Proc.devRef .tc main_v66) = Stages.scaleRow96 (m ((c.tc : Thread nD τ).loc main_arg15)) (Stages.var96 (T2 m c)) := by
  refine (KStretch.s4_2_v66 (W14 m ρ c)).trans ?_
  rw [(w14_arg15 m ρ c), (w14_v59 m ρ c h0 h1 h2 h3)]
  try rfl
theorem w15_v67 (h0 : Hyp0) (h1 : Hyp1) (h2 : Hyp2) (h3 : Hyp3) : W15 m ρ c (Proc.devRef .tc main_v67) = Stages.shiftRow96 (m ((c.tc : Thread nD τ).loc main_arg16)) (Stages.mean96 (T2 m c)) (m ((c.tc : Thread nD τ).loc main_arg15)) (Stages.var96 (T2 m c)) := by
  refine (KStretch.s4_2_v67 (W14 m ρ c)).trans ?_
  rw [(w14_arg16 m ρ c), (w14_v58 m ρ c h0 h1 h2 h3), (w14_arg15 m ρ c), (w14_v59 m ρ c h0 h1 h2 h3)]
  try rfl
theorem w15_v68  : W15 m ρ c (Proc.devRef .tc main_v68) = Stages.row96 (m ((c.tc : Thread nD τ).loc main_arg18)) := by
  refine (KStretch.s4_2_v68 (W14 m ρ c)).trans ?_
  rw [(w14_arg18 m ρ c)]
  try rfl

/-! ### Boundary 16 (after region 4) -/

theorem w16_v1  : W16 m ρ c (Proc.devRef .tc main_v1) = Stages.edgeRow0 (m ((c.tc : Thread nD τ).loc main_arg1)) :=
  (W16_of_ne m ρ c main_v1 (by decide)).trans (w15_v1 m ρ c)
theorem w16_v3  : W16 m ρ c (Proc.devRef .tc main_v3) = Stages.edgeRow1 (m ((c.tc : Thread nD τ).loc main_arg1)) :=
  (W16_of_ne m ρ c main_v3 (by decide)).trans (w15_v3 m ρ c)
set_option maxHeartbeats 4000000 in
theorem w16_v69 (h0 : Hyp0) (h1 : Hyp1) (h2 : Hyp2) (h3 : Hyp3) (h4 : Hyp4) : W16 m ρ c (Proc.devRef .tc main_v69) = (Hd2 m c) := by
  refine (W16_arr m ρ c 5).trans ((h4 (V15 m ρ) c).trans ?_)
  rw [show V15 m ρ c (Pipeline.arrRef spec4 0) = (T2 m c) from (w15_v55 m ρ c h0 h1 h2 h3),
    show V15 m ρ c (Pipeline.arrRef spec4 1) = Stages.scaleRow96 (m ((c.tc : Thread nD τ).loc main_arg15)) (Stages.var96 (T2 m c)) from (w15_v66 m ρ c h0 h1 h2 h3),
    show V15 m ρ c (Pipeline.arrRef spec4 2) = Stages.shiftRow96 (m ((c.tc : Thread nD τ).loc main_arg16)) (Stages.mean96 (T2 m c)) (m ((c.tc : Thread nD τ).loc main_arg15)) (Stages.var96 (T2 m c)) from (w15_v67 m ρ c h0 h1 h2 h3),
    show V15 m ρ c (Pipeline.arrRef spec4 3) = (m ((c.tc : Thread nD τ).loc main_arg17)) from (w15_arg17 m ρ c),
    show V15 m ρ c (Pipeline.arrRef spec4 4) = Stages.row96 (m ((c.tc : Thread nD τ).loc main_arg18)) from (w15_v68 m ρ c)]
  try rfl

/-! ### Boundary 17 (after `hostOps5`) -/

theorem w17_v69 (h0 : Hyp0) (h1 : Hyp1) (h2 : Hyp2) (h3 : Hyp3) (h4 : Hyp4) : W17 m ρ c (Proc.devRef .tc main_v69) = (Hd2 m c) :=
  (KStretch.s5_keep (W16 m ρ c) main_v69 (by decide)).trans (w16_v69 m ρ c h0 h1 h2 h3 h4)
theorem w17_v79 (h0 : Hyp0) (h1 : Hyp1) (h2 : Hyp2) (h3 : Hyp3) (h4 : Hyp4) : W17 m ρ c (Proc.devRef .tc main_v79) = Stages.aggOf (Hd2 m c) (m ((c.tc : Thread nD τ).loc main_arg1)) := by
  refine (KStretch.s5_v79 (W16 m ρ c)).trans ?_
  rw [(w16_v69 m ρ c h0 h1 h2 h3 h4), (w16_v1 m ρ c), (w16_v3 m ρ c)]
  try rfl
theorem w17_v80  : W17 m ρ c (Proc.devRef .tc main_v80) = Stages.row96 (m ((c.tc : Thread nD τ).loc main_arg20)) := by
  refine (KStretch.s5_v80 (W16 m ρ c)).trans ?_
  rw [(w16_arg20 m ρ c)]
  try rfl

/-! ### Boundary 18 (after region 5) -/

set_option maxHeartbeats 4000000 in
theorem w18_v81 (h0 : Hyp0) (h1 : Hyp1) (h2 : Hyp2) (h3 : Hyp3) (h4 : Hyp4) (h5 : Hyp5) : W18 m ρ c (Proc.devRef .tc main_v81) = (T3 m c) := by
  refine (W18_arr m ρ c 4).trans ((h5 (V17 m ρ) c).trans ?_)
  rw [show V17 m ρ c (Pipeline.arrRef spec5 0) = (Hd2 m c) from (w17_v69 m ρ c h0 h1 h2 h3 h4),
    show V17 m ρ c (Pipeline.arrRef spec5 1) = Stages.aggOf (Hd2 m c) (m ((c.tc : Thread nD τ).loc main_arg1)) from (w17_v79 m ρ c h0 h1 h2 h3 h4),
    show V17 m ρ c (Pipeline.arrRef spec5 2) = (m ((c.tc : Thread nD τ).loc main_arg19)) from (w17_arg19 m ρ c),
    show V17 m ρ c (Pipeline.arrRef spec5 3) = Stages.row96 (m ((c.tc : Thread nD τ).loc main_arg20)) from (w17_v80 m ρ c)]
  try rfl

/-! ### Boundary 19 (after `hostOps6`) -/

theorem w19_v81 (h0 : Hyp0) (h1 : Hyp1) (h2 : Hyp2) (h3 : Hyp3) (h4 : Hyp4) (h5 : Hyp5) : W19 m ρ c (Proc.devRef .tc main_v81) = (T3 m c) :=
  (KStretch.s6_keep (W18 m ρ c) main_v81 (by decide)).trans (w18_v81 m ρ c h0 h1 h2 h3 h4 h5)
theorem w19_v84 (h0 : Hyp0) (h1 : Hyp1) (h2 : Hyp2) (h3 : Hyp3) (h4 : Hyp4) (h5 : Hyp5) : W19 m ρ c (Proc.devRef .tc main_v84) = Stages.mean96 (T3 m c) := by
  refine (KStretch.s6_v84 (W18 m ρ c)).trans ?_
  rw [(w18_v81 m ρ c h0 h1 h2 h3 h4 h5)]
  try rfl
theorem w19_c_21  : W19 m ρ c (Proc.devRef .tc main_c_21) = (constantI S_ 32 0#32 : Stages.IA S_) := by
  refine (KStretch.s6_c_21 (W18 m ρ c)).trans ?_
  rfl

/-! ### Boundary 20 (after `hostOps6_1`) -/

theorem w20_v81 (h0 : Hyp0) (h1 : Hyp1) (h2 : Hyp2) (h3 : Hyp3) (h4 : Hyp4) (h5 : Hyp5) : W20 m ρ c (Proc.devRef .tc main_v81) = (T3 m c) :=
  (KStretch.s6_1_keep (W19 m ρ c) main_v81 (by decide)).trans (w19_v81 m ρ c h0 h1 h2 h3 h4 h5)
theorem w20_v84 (h0 : Hyp0) (h1 : Hyp1) (h2 : Hyp2) (h3 : Hyp3) (h4 : Hyp4) (h5 : Hyp5) : W20 m ρ c (Proc.devRef .tc main_v84) = Stages.mean96 (T3 m c) :=
  (KStretch.s6_1_keep (W19 m ρ c) main_v84 (by decide)).trans (w19_v84 m ρ c h0 h1 h2 h3 h4 h5)
theorem w20_v85 (h0 : Hyp0) (h1 : Hyp1) (h2 : Hyp2) (h3 : Hyp3) (h4 : Hyp4) (h5 : Hyp5) : W20 m ρ c (Proc.devRef .tc main_v85) = Stages.var96 (T3 m c) := by
  refine (KStretch.s6_1_v85 (W19 m ρ c)).trans ?_
  rw [(w19_v81 m ρ c h0 h1 h2 h3 h4 h5), (w19_c_21 m ρ c)]
  try rfl

/-! ### Boundary 21 (after `hostOps6_2`) -/

theorem w21_v81 (h0 : Hyp0) (h1 : Hyp1) (h2 : Hyp2) (h3 : Hyp3) (h4 : Hyp4) (h5 : Hyp5) : W21 m ρ c (Proc.devRef .tc main_v81) = (T3 m c) :=
  (KStretch.s6_2_keep (W20 m ρ c) main_v81 (by decide)).trans (w20_v81 m ρ c h0 h1 h2 h3 h4 h5)
theorem w21_v92 (h0 : Hyp0) (h1 : Hyp1) (h2 : Hyp2) (h3 : Hyp3) (h4 : Hyp4) (h5 : Hyp5) : W21 m ρ c (Proc.devRef .tc main_v92) = Stages.scaleRow96 (m ((c.tc : Thread nD τ).loc main_arg21)) (Stages.var96 (T3 m c)) := by
  refine (KStretch.s6_2_v92 (W20 m ρ c)).trans ?_
  rw [(w20_arg21 m ρ c), (w20_v85 m ρ c h0 h1 h2 h3 h4 h5)]
  try rfl
theorem w21_v93 (h0 : Hyp0) (h1 : Hyp1) (h2 : Hyp2) (h3 : Hyp3) (h4 : Hyp4) (h5 : Hyp5) : W21 m ρ c (Proc.devRef .tc main_v93) = Stages.shiftRow96 (m ((c.tc : Thread nD τ).loc main_arg22)) (Stages.mean96 (T3 m c)) (m ((c.tc : Thread nD τ).loc main_arg21)) (Stages.var96 (T3 m c)) := by
  refine (KStretch.s6_2_v93 (W20 m ρ c)).trans ?_
  rw [(w20_arg22 m ρ c), (w20_v84 m ρ c h0 h1 h2 h3 h4 h5), (w20_arg21 m ρ c), (w20_v85 m ρ c h0 h1 h2 h3 h4 h5)]
  try rfl
theorem w21_v94  : W21 m ρ c (Proc.devRef .tc main_v94) = Stages.row96 (m ((c.tc : Thread nD τ).loc main_arg24)) := by
  refine (KStretch.s6_2_v94 (W20 m ρ c)).trans ?_
  rw [(w20_arg24 m ρ c)]
  try rfl

/-! ### Boundary 22 (after region 6) -/

set_option maxHeartbeats 4000000 in
theorem w22_v95 (h0 : Hyp0) (h1 : Hyp1) (h2 : Hyp2) (h3 : Hyp3) (h4 : Hyp4) (h5 : Hyp5) (h6 : Hyp6) : W22 m ρ c (Proc.devRef .tc main_v95) = (Hd3 m c) := by
  refine (W22_arr m ρ c 5).trans ((h6 (V21 m ρ) c).trans ?_)
  rw [show V21 m ρ c (Pipeline.arrRef spec6 0) = (T3 m c) from (w21_v81 m ρ c h0 h1 h2 h3 h4 h5),
    show V21 m ρ c (Pipeline.arrRef spec6 1) = Stages.scaleRow96 (m ((c.tc : Thread nD τ).loc main_arg21)) (Stages.var96 (T3 m c)) from (w21_v92 m ρ c h0 h1 h2 h3 h4 h5),
    show V21 m ρ c (Pipeline.arrRef spec6 2) = Stages.shiftRow96 (m ((c.tc : Thread nD τ).loc main_arg22)) (Stages.mean96 (T3 m c)) (m ((c.tc : Thread nD τ).loc main_arg21)) (Stages.var96 (T3 m c)) from (w21_v93 m ρ c h0 h1 h2 h3 h4 h5),
    show V21 m ρ c (Pipeline.arrRef spec6 3) = (m ((c.tc : Thread nD τ).loc main_arg23)) from (w21_arg23 m ρ c),
    show V21 m ρ c (Pipeline.arrRef spec6 4) = Stages.row96 (m ((c.tc : Thread nD τ).loc main_arg24)) from (w21_v94 m ρ c)]
  try rfl

/-! ### Boundary 23 (after `hostOps7`) -/

theorem w23_v98 (h0 : Hyp0) (h1 : Hyp1) (h2 : Hyp2) (h3 : Hyp3) (h4 : Hyp4) (h5 : Hyp5) (h6 : Hyp6) : W23 m ρ c (Proc.devRef .tc main_v98) = (G1 m c) := by
  refine (KStretch.s7_v98 (W22 m ρ c)).trans ?_
  rw [(w22_v95 m ρ c h0 h1 h2 h3 h4 h5 h6), (w22_arg2 m ρ c)]
  try rfl
theorem w23_v101 (h0 : Hyp0) (h1 : Hyp1) (h2 : Hyp2) (h3 : Hyp3) (h4 : Hyp4) (h5 : Hyp5) (h6 : Hyp6) : W23 m ρ c (Proc.devRef .tc main_v101) = Stages.mean512 (G1 m c) := by
  refine (KStretch.s7_v101 (W22 m ρ c)).trans ?_
  rw [(w22_v95 m ρ c h0 h1 h2 h3 h4 h5 h6), (w22_arg2 m ρ c)]
  try rfl
theorem w23_c_26  : W23 m ρ c (Proc.devRef .tc main_c_26) = (constantI S_ 32 0#32 : Stages.IA S_) := by
  refine (KStretch.s7_c_26 (W22 m ρ c)).trans ?_
  rfl

/-! ### Boundary 24 (after `hostOps7_1`) -/

theorem w24_v98 (h0 : Hyp0) (h1 : Hyp1) (h2 : Hyp2) (h3 : Hyp3) (h4 : Hyp4) (h5 : Hyp5) (h6 : Hyp6) : W24 m ρ c (Proc.devRef .tc main_v98) = (G1 m c) :=
  (KStretch.s7_1_keep (W23 m ρ c) main_v98 (by decide)).trans (w23_v98 m ρ c h0 h1 h2 h3 h4 h5 h6)
theorem w24_v101 (h0 : Hyp0) (h1 : Hyp1) (h2 : Hyp2) (h3 : Hyp3) (h4 : Hyp4) (h5 : Hyp5) (h6 : Hyp6) : W24 m ρ c (Proc.devRef .tc main_v101) = Stages.mean512 (G1 m c) :=
  (KStretch.s7_1_keep (W23 m ρ c) main_v101 (by decide)).trans (w23_v101 m ρ c h0 h1 h2 h3 h4 h5 h6)
theorem w24_v102 (h0 : Hyp0) (h1 : Hyp1) (h2 : Hyp2) (h3 : Hyp3) (h4 : Hyp4) (h5 : Hyp5) (h6 : Hyp6) : W24 m ρ c (Proc.devRef .tc main_v102) = Stages.var512 (G1 m c) := by
  refine (KStretch.s7_1_v102 (W23 m ρ c)).trans ?_
  rw [(w23_v98 m ρ c h0 h1 h2 h3 h4 h5 h6), (w23_c_26 m ρ c)]
  try rfl

/-! ### Boundary 25 (after `hostOps7_2`) -/

theorem w25_v98 (h0 : Hyp0) (h1 : Hyp1) (h2 : Hyp2) (h3 : Hyp3) (h4 : Hyp4) (h5 : Hyp5) (h6 : Hyp6) : W25 m ρ c (Proc.devRef .tc main_v98) = (G1 m c) :=
  (KStretch.s7_2_keep (W24 m ρ c) main_v98 (by decide)).trans (w24_v98 m ρ c h0 h1 h2 h3 h4 h5 h6)
theorem w25_v109 (h0 : Hyp0) (h1 : Hyp1) (h2 : Hyp2) (h3 : Hyp3) (h4 : Hyp4) (h5 : Hyp5) (h6 : Hyp6) : W25 m ρ c (Proc.devRef .tc main_v109) = Stages.scaleRow96 (m ((c.tc : Thread nD τ).loc main_arg25)) (Stages.var512 (G1 m c)) := by
  refine (KStretch.s7_2_v109 (W24 m ρ c)).trans ?_
  rw [(w24_arg25 m ρ c), (w24_v102 m ρ c h0 h1 h2 h3 h4 h5 h6)]
  try rfl
theorem w25_v110 (h0 : Hyp0) (h1 : Hyp1) (h2 : Hyp2) (h3 : Hyp3) (h4 : Hyp4) (h5 : Hyp5) (h6 : Hyp6) : W25 m ρ c (Proc.devRef .tc main_v110) = Stages.shiftRow96 (m ((c.tc : Thread nD τ).loc main_arg26)) (Stages.mean512 (G1 m c)) (m ((c.tc : Thread nD τ).loc main_arg25)) (Stages.var512 (G1 m c)) := by
  refine (KStretch.s7_2_v110 (W24 m ρ c)).trans ?_
  rw [(w24_arg26 m ρ c), (w24_v101 m ρ c h0 h1 h2 h3 h4 h5 h6), (w24_arg25 m ρ c), (w24_v102 m ρ c h0 h1 h2 h3 h4 h5 h6)]
  try rfl
theorem w25_v111  : W25 m ρ c (Proc.devRef .tc main_v111) = Stages.row96 (m ((c.tc : Thread nD τ).loc main_arg28)) := by
  refine (KStretch.s7_2_v111 (W24 m ρ c)).trans ?_
  rw [(w24_arg28 m ρ c)]
  try rfl

/-! ### Boundary 26 (after region 7) -/

set_option maxHeartbeats 4000000 in
theorem w26_v112 (h0 : Hyp0) (h1 : Hyp1) (h2 : Hyp2) (h3 : Hyp3) (h4 : Hyp4) (h5 : Hyp5) (h6 : Hyp6) (h7 : Hyp7) : W26 m ρ c (Proc.devRef .tc main_v112) = (G2 m c) := by
  refine (W26_arr m ρ c 5).trans ((h7 (V25 m ρ) c).trans ?_)
  rw [show V25 m ρ c (Pipeline.arrRef spec7 0) = (G1 m c) from (w25_v98 m ρ c h0 h1 h2 h3 h4 h5 h6),
    show V25 m ρ c (Pipeline.arrRef spec7 1) = Stages.scaleRow96 (m ((c.tc : Thread nD τ).loc main_arg25)) (Stages.var512 (G1 m c)) from (w25_v109 m ρ c h0 h1 h2 h3 h4 h5 h6),
    show V25 m ρ c (Pipeline.arrRef spec7 2) = Stages.shiftRow96 (m ((c.tc : Thread nD τ).loc main_arg26)) (Stages.mean512 (G1 m c)) (m ((c.tc : Thread nD τ).loc main_arg25)) (Stages.var512 (G1 m c)) from (w25_v110 m ρ c h0 h1 h2 h3 h4 h5 h6),
    show V25 m ρ c (Pipeline.arrRef spec7 3) = (m ((c.tc : Thread nD τ).loc main_arg27)) from (w25_arg27 m ρ c),
    show V25 m ρ c (Pipeline.arrRef spec7 4) = Stages.row96 (m ((c.tc : Thread nD τ).loc main_arg28)) from (w25_v111 m ρ c)]
  try rfl

/-! ### Boundary 27 (after `hostOps8`) -/

theorem w27_v112 (h0 : Hyp0) (h1 : Hyp1) (h2 : Hyp2) (h3 : Hyp3) (h4 : Hyp4) (h5 : Hyp5) (h6 : Hyp6) (h7 : Hyp7) : W27 m ρ c (Proc.devRef .tc main_v112) = (G2 m c) :=
  (KStretch.s8_keep (W26 m ρ c) main_v112 (by decide)).trans (w26_v112 m ρ c h0 h1 h2 h3 h4 h5 h6 h7)
theorem w27_v115 (h0 : Hyp0) (h1 : Hyp1) (h2 : Hyp2) (h3 : Hyp3) (h4 : Hyp4) (h5 : Hyp5) (h6 : Hyp6) (h7 : Hyp7) : W27 m ρ c (Proc.devRef .tc main_v115) = Stages.mean512 (G2 m c) := by
  refine (KStretch.s8_v115 (W26 m ρ c)).trans ?_
  rw [(w26_v112 m ρ c h0 h1 h2 h3 h4 h5 h6 h7)]
  try rfl
theorem w27_c_30  : W27 m ρ c (Proc.devRef .tc main_c_30) = (constantI S_ 32 0#32 : Stages.IA S_) := by
  refine (KStretch.s8_c_30 (W26 m ρ c)).trans ?_
  rfl

/-! ### Boundary 28 (after `hostOps8_1`) -/

theorem w28_v112 (h0 : Hyp0) (h1 : Hyp1) (h2 : Hyp2) (h3 : Hyp3) (h4 : Hyp4) (h5 : Hyp5) (h6 : Hyp6) (h7 : Hyp7) : W28 m ρ c (Proc.devRef .tc main_v112) = (G2 m c) :=
  (KStretch.s8_1_keep (W27 m ρ c) main_v112 (by decide)).trans (w27_v112 m ρ c h0 h1 h2 h3 h4 h5 h6 h7)
theorem w28_v115 (h0 : Hyp0) (h1 : Hyp1) (h2 : Hyp2) (h3 : Hyp3) (h4 : Hyp4) (h5 : Hyp5) (h6 : Hyp6) (h7 : Hyp7) : W28 m ρ c (Proc.devRef .tc main_v115) = Stages.mean512 (G2 m c) :=
  (KStretch.s8_1_keep (W27 m ρ c) main_v115 (by decide)).trans (w27_v115 m ρ c h0 h1 h2 h3 h4 h5 h6 h7)
theorem w28_v116 (h0 : Hyp0) (h1 : Hyp1) (h2 : Hyp2) (h3 : Hyp3) (h4 : Hyp4) (h5 : Hyp5) (h6 : Hyp6) (h7 : Hyp7) : W28 m ρ c (Proc.devRef .tc main_v116) = Stages.var512 (G2 m c) := by
  refine (KStretch.s8_1_v116 (W27 m ρ c)).trans ?_
  rw [(w27_v112 m ρ c h0 h1 h2 h3 h4 h5 h6 h7), (w27_c_30 m ρ c)]
  try rfl

/-! ### Boundary 29 (after `hostOps8_2`) -/

theorem w29_v112 (h0 : Hyp0) (h1 : Hyp1) (h2 : Hyp2) (h3 : Hyp3) (h4 : Hyp4) (h5 : Hyp5) (h6 : Hyp6) (h7 : Hyp7) : W29 m ρ c (Proc.devRef .tc main_v112) = (G2 m c) :=
  (KStretch.s8_2_keep (W28 m ρ c) main_v112 (by decide)).trans (w28_v112 m ρ c h0 h1 h2 h3 h4 h5 h6 h7)
theorem w29_v123 (h0 : Hyp0) (h1 : Hyp1) (h2 : Hyp2) (h3 : Hyp3) (h4 : Hyp4) (h5 : Hyp5) (h6 : Hyp6) (h7 : Hyp7) : W29 m ρ c (Proc.devRef .tc main_v123) = Stages.scaleRow96 (m ((c.tc : Thread nD τ).loc main_arg29)) (Stages.var512 (G2 m c)) := by
  refine (KStretch.s8_2_v123 (W28 m ρ c)).trans ?_
  rw [(w28_arg29 m ρ c), (w28_v116 m ρ c h0 h1 h2 h3 h4 h5 h6 h7)]
  try rfl
theorem w29_v124 (h0 : Hyp0) (h1 : Hyp1) (h2 : Hyp2) (h3 : Hyp3) (h4 : Hyp4) (h5 : Hyp5) (h6 : Hyp6) (h7 : Hyp7) : W29 m ρ c (Proc.devRef .tc main_v124) = Stages.shiftRow96 (m ((c.tc : Thread nD τ).loc main_arg30)) (Stages.mean512 (G2 m c)) (m ((c.tc : Thread nD τ).loc main_arg29)) (Stages.var512 (G2 m c)) := by
  refine (KStretch.s8_2_v124 (W28 m ρ c)).trans ?_
  rw [(w28_arg30 m ρ c), (w28_v115 m ρ c h0 h1 h2 h3 h4 h5 h6 h7), (w28_arg29 m ρ c), (w28_v116 m ρ c h0 h1 h2 h3 h4 h5 h6 h7)]
  try rfl
theorem w29_v125  : W29 m ρ c (Proc.devRef .tc main_v125) = Stages.row10 (m ((c.tc : Thread nD τ).loc main_arg32)) := by
  refine (KStretch.s8_2_v125 (W28 m ρ c)).trans ?_
  rw [(w28_arg32 m ρ c)]
  try rfl

/-! ### Boundary 30 (after region 8) -/

set_option maxHeartbeats 4000000 in
theorem w30_v126 (h0 : Hyp0) (h1 : Hyp1) (h2 : Hyp2) (h3 : Hyp3) (h4 : Hyp4) (h5 : Hyp5) (h6 : Hyp6) (h7 : Hyp7) (h8 : Hyp8) : W30 m ρ c (Proc.devRef .tc main_v126) = (LG m c) := by
  refine (W30_arr m ρ c 5).trans ((h8 (V29 m ρ) c).trans ?_)
  rw [show V29 m ρ c (Pipeline.arrRef spec8 0) = (G2 m c) from (w29_v112 m ρ c h0 h1 h2 h3 h4 h5 h6 h7),
    show V29 m ρ c (Pipeline.arrRef spec8 1) = Stages.scaleRow96 (m ((c.tc : Thread nD τ).loc main_arg29)) (Stages.var512 (G2 m c)) from (w29_v123 m ρ c h0 h1 h2 h3 h4 h5 h6 h7),
    show V29 m ρ c (Pipeline.arrRef spec8 2) = Stages.shiftRow96 (m ((c.tc : Thread nD τ).loc main_arg30)) (Stages.mean512 (G2 m c)) (m ((c.tc : Thread nD τ).loc main_arg29)) (Stages.var512 (G2 m c)) from (w29_v124 m ρ c h0 h1 h2 h3 h4 h5 h6 h7),
    show V29 m ρ c (Pipeline.arrRef spec8 3) = (m ((c.tc : Thread nD τ).loc main_arg31)) from (w29_arg31 m ρ c),
    show V29 m ρ c (Pipeline.arrRef spec8 4) = Stages.row10 (m ((c.tc : Thread nD τ).loc main_arg32)) from (w29_v125 m ρ c)]
  try rfl

/-! ### Boundary 31 (after `hostOps9`) -/

theorem w31_v127 (h0 : Hyp0) (h1 : Hyp1) (h2 : Hyp2) (h3 : Hyp3) (h4 : Hyp4) (h5 : Hyp5) (h6 : Hyp6) (h7 : Hyp7) (h8 : Hyp8) : W31 m ρ c (Proc.devRef .tc main_v127) = Stages.tailOf (LG m c) := by
  refine (KStretch.s9_v127 (W30 m ρ c)).trans ?_
  rw [(w30_v126 m ρ c h0 h1 h2 h3 h4 h5 h6 h7 h8)]
  try rfl

end Cert.KernelIdeal.KValue

namespace Cert.KernelIdeal.KValue

open Idealize.ShloMosaic Idealize.ShloMosaic.TcCoe
open Idealize.SL Idealize.SL.Sem
open Cert Cert.KernelIdeal Cert.KernelIdeal.Gen

/-- The result array at the end of the run is the network's closed function of the 33 argument arrays, given each
    region's result as a whole-array function of its inputs. -/
theorem result (h0 : Hyp0) (h1 : Hyp1) (h2 : Hyp2) (h3 : Hyp3) (h4 : Hyp4) (h5 : Hyp5) (h6 : Hyp6) (h7 : Hyp7) (h8 : Hyp8)
    (m : (ℓ : Loc nD τ sig) → Buf (Elt Ideal) ℓ) (ρ : Dev nD → PrngReg) (c : Dev nD) :
    W31 (F := Ideal) m ρ c (Proc.devRef .tc main_v127)
      = Stages.Kout (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
          (m ((c.tc : Thread nD τ).loc main_arg19))
          (m ((c.tc : Thread nD τ).loc main_arg20))
          (m ((c.tc : Thread nD τ).loc main_arg21))
          (m ((c.tc : Thread nD τ).loc main_arg22))
          (m ((c.tc : Thread nD τ).loc main_arg23))
          (m ((c.tc : Thread nD τ).loc main_arg24))
          (m ((c.tc : Thread nD τ).loc main_arg25))
          (m ((c.tc : Thread nD τ).loc main_arg26))
          (m ((c.tc : Thread nD τ).loc main_arg27))
          (m ((c.tc : Thread nD τ).loc main_arg28))
          (m ((c.tc : Thread nD τ).loc main_arg29))
          (m ((c.tc : Thread nD τ).loc main_arg30))
          (m ((c.tc : Thread nD τ).loc main_arg31))
          (m ((c.tc : Thread nD τ).loc main_arg32)) :=
  (w31_v127 m ρ c h0 h1 h2 h3 h4 h5 h6 h7 h8).trans rfl

end Cert.KernelIdeal.KValue

end
-- ==== Proof.RStages.lean ====
/-
  The stages of the reference network, each as the composition of array operations the program applies.

  The reference computes a graph network over 50000 nodes with 128 input features, 800000 directed edges and 512
  graphs: batch normalisation of the features (batch statistics, biased variance), a dense layer with ReLU, three
  rounds of "sum the neighbours' features into each node, add the node's own, dense layer, batch normalisation,
  ReLU, dense layer, ReLU", the sum of the node features of each graph, and on the 512 graph rows batch
  normalisation, dense layer with ReLU, batch normalisation, a dense layer to 10 classes and the logarithm of the
  softmax along the classes.  Every stage below is the array function one stretch of the program computes, written
  with the same elementary operations in the same order, at exact (extended real) arithmetic.
-/
import proofs.«132872_j8993661518249_1_alg».proof.Proof.Gen.ReferenceIdeal
import proofs.«132872_j8993661518249_1_alg».proof.Proof.KStages
import Idealize.ShloMosaic.PureOps.Ideal

noncomputable section

namespace Cert.RStages

open Cert.ReferenceIdeal Cert.ReferenceIdeal.Gen Idealize.ShloMosaic
open Cert.Stages (FA IA)

/-! ## The edge list -/

/-- Row `0` of the edge list: the source node of each edge. -/
def row0 (e : IA S2x800000) : IA S800000 :=
  shapeCast S800000 (extractStridedSlice S1x800000 ![0, 0] e slices_S2x800000_S1x800000_0_0) shapeCasts_S1x800000_S800000

/-- Row `1` of the edge list: the target node of each edge. -/
def row1 (e : IA S2x800000) : IA S800000 :=
  shapeCast S800000 (extractStridedSlice S1x800000 ![1, 0] e slices_S2x800000_S1x800000_1_0) shapeCasts_S1x800000_S800000

/-- Source indices as a column, a negative index counted from the end (50000 added). -/
def wrapCol (s : IA S800000) : IA S800000x1 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Target indices as a column. -/
def col (d : IA S800000) : IA S800000x1 := broadcastInDim S800000x1 ![0] bcast_S800000_S800000x1_0 d

/-- Neighbour aggregation: the rows of `h` gathered at the edges' sources, summed into a zero array at the edges'
    targets. -/
def aggR (h : FA S50000x96) (s d : IA S800000) : FA S50000x96 :=
  Host.scatterAdd scatter_S50000x96_S800000x1_S800000x96_1_0_0_1
    (broadcastInDim S50000x96 ![] bcast_S_S50000x96 (constant (F := Ideal) S_ .f32 0x00000000#32)) (col d)
    (Host.gather gather_S50000x96_S800000x1_S800000x96_1_0_n_n_0_1_196 h (wrapCol s))

/-- The sum of the node rows of each graph: the rows of `h` summed into a zero array at their graph's row. -/
def poolR (h : FA S50000x96) (batch : IA S50000) : FA S512x96 :=
  Host.scatterAdd scatter_S512x96_S50000x1_S50000x96_1_0_0_1
    (broadcastInDim S512x96 ![] bcast_S_S512x96 (constant (F := Ideal) S_ .f32 0x00000000#32))
    (broadcastInDim S50000x1 ![0] bcast_S50000_S50000x1_0 batch) h

/-! ## Column statistics and batch normalisation, per array shape -/

/-- The column means of an array of shape S50000x128: the column sums over the row count. -/
def mean128 (x : FA S50000x128) : FA S128 :=
  Host.divf (Host.reduceAdd x (constant (F := Ideal) S_ .f32 0x00000000#32) reducesTo_S50000x128_S128_d0 h_S_)
    (broadcastInDim S128 ![] bcast_S_S128 (constant (F := Ideal) S_ .f32 0x47435000#32))

/-- The array minus its column means, as the variance function computes it (the means kept as a one-row array). -/
def centered128 (x : FA S50000x128) : FA S50000x128 :=
  subf (F := Ideal) (φ := .f32) x (broadcastInDim S50000x128 ![0, 1] bcast_S1x128_S50000x128_0_1
    (Host.divf (broadcastInDim S1x128 ![1] bcast_S128_S1x128_1 (Host.reduceAdd x (constant (F := Ideal) S_ .f32 0x00000000#32) reducesTo_S50000x128_S128_d0 h_S_))
      (broadcastInDim S1x128 ![] bcast_S_S1x128 (constant (F := Ideal) S_ .f32 0x47435000#32))))

/-- The row count less the number `c` of degrees of freedom removed, as a float. -/
def dof128 (c : IA S_) : FA S_ :=
  subf (F := Ideal) (φ := .f32) (constant (F := Ideal) S_ .f32 0x47435000#32) (sitofp .f32 c)

/-- The column variances with `c` degrees of freedom removed: the column sums of the squared deviations over the
    remaining count where that count is positive, the not-a-number pattern elsewhere. -/
def varc128 (x : FA S50000x128) (c : IA S_) : FA S128 :=
  select (broadcastInDim S128 ![] bcast_S_S128 (cmpf .ogt (dof128 c) (constant (F := Ideal) S_ .f32 0x00000000#32)))
    (Host.divf (Host.reduceAdd (mulf (F := Ideal) (φ := .f32) (centered128 x) (centered128 x)) (constant (F := Ideal) S_ .f32 0x00000000#32) reducesTo_S50000x128_S128_d0 h_S_)
      (broadcastInDim S128 ![] bcast_S_S128 (dof128 c)))
    (broadcastInDim S128 ![] bcast_S_S128 (id (constant (F := Ideal) S_ .f32 0x7FC00000#32)))

/-- The biased column variances (no degree of freedom removed). -/
def var128 (x : FA S50000x128) : FA S128 := varc128 x (constantI S_ 32 0#32)

/-- A per-column vector spread over the rows. -/
def rows128 (v : FA S128) : FA S50000x128 :=
  broadcastInDim S50000x128 ![0, 1] bcast_S1x128_S50000x128_0_1 (broadcastInDim S1x128 ![1] bcast_S128_S1x128_1 v)

/-- The deviations from given column means. -/
def subMean128 (x : FA S50000x128) (mu : FA S128) : FA S50000x128 := subf (F := Ideal) (φ := .f32) x (rows128 mu)

/-- Deviations times the inverse standard deviation (variance plus epsilon), times the weight, plus the bias. -/
def scale128 (xc : FA S50000x128) (v w b : FA S128) : FA S50000x128 :=
  addf (F := Ideal) (φ := .f32) (mulf (F := Ideal) (φ := .f32) (mulf (F := Ideal) (φ := .f32) xc
      (rows128 (Host.rsqrt (F := Ideal) (φ := .f32) (addf (F := Ideal) (φ := .f32) v (broadcastInDim S128 ![] bcast_S_S128 (constant (F := Ideal) S_ .f32 0x3727C5AC#32))))))
    (rows128 w)) (rows128 b)

/-- Batch normalisation with given column statistics. -/
def bnR128 (x : FA S50000x128) (mu v w b : FA S128) : FA S50000x128 := scale128 (subMean128 x mu) v w b

/-- The column means of an array of shape S50000x96: the column sums over the row count. -/
def mean96 (x : FA S50000x96) : FA S96 :=
  Host.divf (Host.reduceAdd x (constant (F := Ideal) S_ .f32 0x00000000#32) reducesTo_S50000x96_S96_d0 h_S_)
    (broadcastInDim S96 ![] bcast_S_S96 (constant (F := Ideal) S_ .f32 0x47435000#32))

/-- The array minus its column means, as the variance function computes it (the means kept as a one-row array). -/
def centered96 (x : FA S50000x96) : FA S50000x96 :=
  subf (F := Ideal) (φ := .f32) x (broadcastInDim S50000x96 ![0, 1] bcast_S1x96_S50000x96_0_1
    (Host.divf (broadcastInDim S1x96 ![1] bcast_S96_S1x96_1 (Host.reduceAdd x (constant (F := Ideal) S_ .f32 0x00000000#32) reducesTo_S50000x96_S96_d0 h_S_))
      (broadcastInDim S1x96 ![] bcast_S_S1x96 (constant (F := Ideal) S_ .f32 0x47435000#32))))

/-- The row count less the number `c` of degrees of freedom removed, as a float. -/
def dof96 (c : IA S_) : FA S_ :=
  subf (F := Ideal) (φ := .f32) (constant (F := Ideal) S_ .f32 0x47435000#32) (sitofp .f32 c)

/-- The column variances with `c` degrees of freedom removed: the column sums of the squared deviations over the
    remaining count where that count is positive, the not-a-number pattern elsewhere. -/
def varc96 (x : FA S50000x96) (c : IA S_) : FA S96 :=
  select (broadcastInDim S96 ![] bcast_S_S96 (cmpf .ogt (dof96 c) (constant (F := Ideal) S_ .f32 0x00000000#32)))
    (Host.divf (Host.reduceAdd (mulf (F := Ideal) (φ := .f32) (centered96 x) (centered96 x)) (constant (F := Ideal) S_ .f32 0x00000000#32) reducesTo_S50000x96_S96_d0 h_S_)
      (broadcastInDim S96 ![] bcast_S_S96 (dof96 c)))
    (broadcastInDim S96 ![] bcast_S_S96 (id (constant (F := Ideal) S_ .f32 0x7FC00000#32)))

/-- The biased column variances (no degree of freedom removed). -/
def var96 (x : FA S50000x96) : FA S96 := varc96 x (constantI S_ 32 0#32)

/-- A per-column vector spread over the rows. -/
def rows96 (v : FA S96) : FA S50000x96 :=
  broadcastInDim S50000x96 ![0, 1] bcast_S1x96_S50000x96_0_1 (broadcastInDim S1x96 ![1] bcast_S96_S1x96_1 v)

/-- The deviations from given column means. -/
def subMean96 (x : FA S50000x96) (mu : FA S96) : FA S50000x96 := subf (F := Ideal) (φ := .f32) x (rows96 mu)

/-- Deviations times the inverse standard deviation (variance plus epsilon), times the weight, plus the bias. -/
def scale96 (xc : FA S50000x96) (v w b : FA S96) : FA S50000x96 :=
  addf (F := Ideal) (φ := .f32) (mulf (F := Ideal) (φ := .f32) (mulf (F := Ideal) (φ := .f32) xc
      (rows96 (Host.rsqrt (F := Ideal) (φ := .f32) (addf (F := Ideal) (φ := .f32) v (broadcastInDim S96 ![] bcast_S_S96 (constant (F := Ideal) S_ .f32 0x3727C5AC#32))))))
    (rows96 w)) (rows96 b)

/-- Batch normalisation with given column statistics. -/
def bnR96 (x : FA S50000x96) (mu v w b : FA S96) : FA S50000x96 := scale96 (subMean96 x mu) v w b

/-- The column means of an array of shape S512x96: the column sums over the row count. -/
def mean512 (x : FA S512x96) : FA S96 :=
  Host.divf (Host.reduceAdd x (constant (F := Ideal) S_ .f32 0x00000000#32) reducesTo_S512x96_S96_d0 h_S_)
    (broadcastInDim S96 ![] bcast_S_S96 (constant (F := Ideal) S_ .f32 0x44000000#32))

/-- The array minus its column means, as the variance function computes it (the means kept as a one-row array). -/
def centered512 (x : FA S512x96) : FA S512x96 :=
  subf (F := Ideal) (φ := .f32) x (broadcastInDim S512x96 ![0, 1] bcast_S1x96_S512x96_0_1
    (Host.divf (broadcastInDim S1x96 ![1] bcast_S96_S1x96_1 (Host.reduceAdd x (constant (F := Ideal) S_ .f32 0x00000000#32) reducesTo_S512x96_S96_d0 h_S_))
      (broadcastInDim S1x96 ![] bcast_S_S1x96 (constant (F := Ideal) S_ .f32 0x44000000#32))))

/-- The row count less the number `c` of degrees of freedom removed, as a float. -/
def dof512 (c : IA S_) : FA S_ :=
  subf (F := Ideal) (φ := .f32) (constant (F := Ideal) S_ .f32 0x44000000#32) (sitofp .f32 c)

/-- The column variances with `c` degrees of freedom removed: the column sums of the squared deviations over the
    remaining count where that count is positive, the not-a-number pattern elsewhere. -/
def varc512 (x : FA S512x96) (c : IA S_) : FA S96 :=
  select (broadcastInDim S96 ![] bcast_S_S96 (cmpf .ogt (dof512 c) (constant (F := Ideal) S_ .f32 0x00000000#32)))
    (Host.divf (Host.reduceAdd (mulf (F := Ideal) (φ := .f32) (centered512 x) (centered512 x)) (constant (F := Ideal) S_ .f32 0x00000000#32) reducesTo_S512x96_S96_d0 h_S_)
      (broadcastInDim S96 ![] bcast_S_S96 (dof512 c)))
    (broadcastInDim S96 ![] bcast_S_S96 (id (constant (F := Ideal) S_ .f32 0x7FC00000#32)))

/-- The biased column variances (no degree of freedom removed). -/
def var512 (x : FA S512x96) : FA S96 := varc512 x (constantI S_ 32 0#32)

/-- A per-column vector spread over the rows. -/
def rows512 (v : FA S96) : FA S512x96 :=
  broadcastInDim S512x96 ![0, 1] bcast_S1x96_S512x96_0_1 (broadcastInDim S1x96 ![1] bcast_S96_S1x96_1 v)

/-- The deviations from given column means. -/
def subMean512 (x : FA S512x96) (mu : FA S96) : FA S512x96 := subf (F := Ideal) (φ := .f32) x (rows512 mu)

/-- Deviations times the inverse standard deviation (variance plus epsilon), times the weight, plus the bias. -/
def scale512 (xc : FA S512x96) (v w b : FA S96) : FA S512x96 :=
  addf (F := Ideal) (φ := .f32) (mulf (F := Ideal) (φ := .f32) (mulf (F := Ideal) (φ := .f32) xc
      (rows512 (Host.rsqrt (F := Ideal) (φ := .f32) (addf (F := Ideal) (φ := .f32) v (broadcastInDim S96 ![] bcast_S_S96 (constant (F := Ideal) S_ .f32 0x3727C5AC#32))))))
    (rows512 w)) (rows512 b)

/-- Batch normalisation with given column statistics. -/
def bnR512 (x : FA S512x96) (mu v w b : FA S96) : FA S512x96 := scale512 (subMean512 x mu) v w b

/-! ## Dense layers, ReLU, sum -/

/-- The feature layer: `x W + b`, 128 features to 96. -/
def denseR128 (x : FA S50000x128) (W : FA S128x96) (b : FA S96) : FA S50000x96 :=
  addf (F := Ideal) (φ := .f32) (Host.dotGeneral (F := Ideal) (φ₁ := .f32) (φ₂ := .f32) dot_S50000x128_S128x96_S50000x96_1_0_0_1_n_n none x W) (rows96 b)

/-- A hidden layer on the nodes: `x W + b`, 96 features to 96. -/
def denseR96 (x : FA S50000x96) (W : FA S96x96) (b : FA S96) : FA S50000x96 :=
  addf (F := Ideal) (φ := .f32) (Host.dotGeneral (F := Ideal) (φ₁ := .f32) (φ₂ := .f32) dot_S50000x96_S96x96_S50000x96_1_0_0_1_n_n none x W) (rows96 b)

/-- A hidden layer on the graphs: `x W + b`, 96 features to 96. -/
def denseR512 (x : FA S512x96) (W : FA S96x96) (b : FA S96) : FA S512x96 :=
  addf (F := Ideal) (φ := .f32) (Host.dotGeneral (F := Ideal) (φ₁ := .f32) (φ₂ := .f32) dot_S512x96_S96x96_S512x96_1_0_0_1_n_n none x W) (rows512 b)

/-- The class layer on the graphs: `x W + b`, 96 features to 10 classes. -/
def denseR512x10 (x : FA S512x96) (W : FA S96x10) (b : FA S10) : FA S512x10 :=
  addf (F := Ideal) (φ := .f32) (Host.dotGeneral (F := Ideal) (φ₁ := .f32) (φ₂ := .f32) dot_S512x96_S96x10_S512x10_1_0_0_1_n_n none x W)
    (broadcastInDim S512x10 ![0, 1] bcast_S1x10_S512x10_0_1 (broadcastInDim S1x10 ![1] bcast_S10_S1x10_1 b))

/-- ReLU on a node array: the maximum with zero. -/
def reluR (x : FA S50000x96) : FA S50000x96 :=
  maximumf (F := Ideal) (φ := .f32) x (broadcastInDim S50000x96 ![] bcast_S_S50000x96 (constant (F := Ideal) S_ .f32 0x00000000#32))

/-- ReLU on a graph array. -/
def reluR512 (x : FA S512x96) : FA S512x96 :=
  maximumf (F := Ideal) (φ := .f32) x (broadcastInDim S512x96 ![] bcast_S_S512x96 (constant (F := Ideal) S_ .f32 0x00000000#32))

/-- The sum of two node arrays. -/
def sumR (h a : FA S50000x96) : FA S50000x96 := addf (F := Ideal) (φ := .f32) h a

/-- A node array plus its neighbour aggregate through a dense layer: the first half of a round. -/
def tR (h : FA S50000x96) (s d : IA S800000) (W : FA S96x96) (b : FA S96) : FA S50000x96 :=
  denseR96 (sumR h (aggR h s d)) W b

/-! ## The logarithm of the softmax along the classes -/

/-- The row maxima (never below minus infinity), as a column spread over the classes. -/
def rowMax (l : FA S512x10) : FA S512x10 :=
  broadcastInDim S512x10 ![0, 1] bcast_S512x1_S512x10_0_1 (broadcastInDim S512x1 ![0] bcast_S512_S512x1_0
    (maximumf (F := Ideal) (φ := .f32) (broadcastInDim S512 ![] bcast_S_S512 (constant (F := Ideal) S_ .f32 0xFF800000#32))
      (Host.reduce FloatOps.maximumf l (constant (F := Ideal) S_ .f32 0xFF800000#32) reducesTo_S512x10_S512_d1 h_S_)))

/-- The logits shifted by their row maximum. -/
def shifted (l : FA S512x10) : FA S512x10 := subf (F := Ideal) (φ := .f32) l (rowMax l)

/-- The shifted logits minus the logarithm of the row sums of their exponentials. -/
def tailR (l : FA S512x10) : FA S512x10 :=
  subf (F := Ideal) (φ := .f32) (shifted l) (broadcastInDim S512x10 ![0, 1] bcast_S512x1_S512x10_0_1
    (Host.log (broadcastInDim S512x1 ![0] bcast_S512_S512x1_0
      (Host.reduceAdd (Host.exp (shifted l)) (constant (F := Ideal) S_ .f32 0x00000000#32) reducesTo_S512x10_S512_d1 h_S_))))

end Cert.RStages

end
-- ==== Proof.ROut.lean ====
/-
  The reference network as one function of its 33 arguments.

  The input stage normalises the features with their batch statistics and applies the feature layer and ReLU.  A
  round adds to each node's features the sum of its neighbours', applies a dense layer, normalises with the batch
  statistics, applies ReLU, a dense layer and ReLU.  After three rounds the node features are summed per graph; the
  graph rows are normalised, passed through a dense layer and ReLU, normalised again, passed through the class layer,
  and the logarithm of the softmax along the classes is taken.  The column statistics, the neighbour aggregation,
  the per-graph sum and the final logarithm of the softmax are the shared stages' functions.
-/
import proofs.«132872_j8993661518249_1_alg».proof.Proof.KStages
import proofs.«132872_j8993661518249_1_alg».proof.Proof.RStages

noncomputable section

namespace Cert.RStages

open Cert.ReferenceIdeal Idealize.ShloMosaic
open Cert.Stages (FA IA)

/-- Batch normalisation of a node array with its own batch statistics. -/
def bnSelf96 (t : FA S50000x96) (w b : FA S96) : FA S50000x96 := bnR96 t (Stages.mean96 t) (Stages.var96 t) w b

/-- Batch normalisation of a graph array with its own batch statistics. -/
def bnSelf512 (g : FA S512x96) (w b : FA S96) : FA S512x96 := bnR512 g (Stages.mean512 g) (Stages.var512 g) w b

/-- The input stage: the normalised features through the feature layer and ReLU. -/
def h0R (x : FA S50000x128) (w b : FA S128) (Wf : FA S128x96) (bf : FA S96) : FA S50000x96 :=
  reluR (denseR128 (bnR128 x (Stages.mean128 x) (Stages.var128 x) w b) Wf bf)

/-- A round's first half: each node's features plus its neighbours', through a dense layer. -/
def t1R (h : FA S50000x96) (e : IA S2x800000) (W1 : FA S96x96) (b1 : FA S96) : FA S50000x96 :=
  denseR96 (sumR h (Stages.aggOf h e)) W1 b1

/-- A round's second half: batch normalisation, ReLU, a dense layer, ReLU. -/
def t2R (t : FA S50000x96) (bw bb : FA S96) (W2 : FA S96x96) (b2 : FA S96) : FA S50000x96 :=
  reluR (denseR96 (reluR (bnSelf96 t bw bb)) W2 b2)

/-- One round. -/
def layerR (h : FA S50000x96) (e : IA S2x800000) (W1 : FA S96x96) (b1 bw bb : FA S96) (W2 : FA S96x96) (b2 : FA S96) :
    FA S50000x96 :=
  t2R (t1R h e W1 b1) bw bb W2 b2

/-- The graph rows through the first normalised dense layer, with ReLU. -/
def g2R (g : FA S512x96) (w b : FA S96) (W : FA S96x96) (bb : FA S96) : FA S512x96 :=
  reluR512 (denseR512 (bnSelf512 g w b) W bb)

/-- The class scores: the second normalised dense layer, without ReLU. -/
def lgR (g : FA S512x96) (w b : FA S96) (W : FA S96x10) (bb : FA S10) : FA S512x10 :=
  denseR512x10 (bnSelf512 g w b) W bb

/-- The graph head: normalise, dense layer with ReLU, normalise, class layer, logarithm of the softmax. -/
def headR (g : FA S512x96) (w1 b1 : FA S96) (Wl : FA S96x96) (bl w2 b2 : FA S96) (Wc : FA S96x10) (bc : FA S10) : FA S512x10 :=
  Stages.tailOf (lgR (g2R g w1 b1 Wl bl) w2 b2 Wc bc)

/-- The node rows after the three rounds. -/
def h3R (a0 : FA S50000x128) (a1 : IA S2x800000) (a3 a4 : FA S128) (a5 : FA S128x96) (a6 : FA S96)
    (a7 : FA S96x96) (a8 a9 a10 : FA S96) (a11 : FA S96x96) (a12 : FA S96)
    (a13 : FA S96x96) (a14 a15 a16 : FA S96) (a17 : FA S96x96) (a18 : FA S96)
    (a19 : FA S96x96) (a20 a21 a22 : FA S96) (a23 : FA S96x96) (a24 : FA S96) : FA S50000x96 :=
  layerR (layerR (layerR (h0R a0 a3 a4 a5 a6) a1 a7 a8 a9 a10 a11 a12) a1 a13 a14 a15 a16 a17 a18) a1 a19 a20 a21 a22 a23 a24

/-- The reference network's result as a function of its 33 arguments, in the program's order. -/
def Rout (a0 : FA S50000x128) (a1 : IA S2x800000) (a2 : IA S50000) (a3 a4 : FA S128) (a5 : FA S128x96) (a6 : FA S96)
    (a7 : FA S96x96) (a8 a9 a10 : FA S96) (a11 : FA S96x96) (a12 : FA S96)
    (a13 : FA S96x96) (a14 a15 a16 : FA S96) (a17 : FA S96x96) (a18 : FA S96)
    (a19 : FA S96x96) (a20 a21 a22 : FA S96) (a23 : FA S96x96) (a24 : FA S96)
    (a25 a26 : FA S96) (a27 : FA S96x96) (a28 a29 a30 : FA S96) (a31 : FA S96x10) (a32 : FA S10) : FA S512x10 :=
  headR (Stages.poolOf (h3R a0 a1 a3 a4 a5 a6 a7 a8 a9 a10 a11 a12 a13 a14 a15 a16 a17 a18 a19 a20 a21 a22 a23 a24) a2)
    a25 a26 a27 a28 a29 a30 a31 a32

end Cert.RStages

end
-- ==== Proof.ROps0.lean ====
/-
  Window 0 of the reference program's @main as lists of its operations, in order: one list per stretch of
  statements between two calls and one per call, a call's list being the called function's operations over the
  buffers of that call (a nested call's likewise).  Each list's operations touch TensorCore buffers only; beside
  each list, the buffers its operations write, in order.  The window is the lists run one after the other.
-/
import proofs.«132872_j8993661518249_1_alg».proof.Proof.Gen.ReferenceIdeal
import Idealize.ShloMosaic.Lib.StableHlo.Run
import Idealize.ShloMosaic.Lib.Pipeline.Regions

set_option maxRecDepth 16384

noncomputable section

namespace Cert.ReferenceIdeal.ROps

open Cert.ReferenceIdeal Cert.ReferenceIdeal.Gen Idealize.ShloMosaic Idealize.ShloMosaic.TcCoe Idealize.SL.Sem

variable {F : FTy → Type} [FloatOps F]

/-- 10 operations of @main, in order. -/
abbrev ops0_0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_cst (constant S_ .f32 0x00000000#32),
    StableHlo.binary main_arg0 main_cst main_v4 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_0 (constant S_ .f32 0x47435000#32),
    StableHlo.unary main_cst_0 main_v5 (broadcastInDim S128 ![] bcast_S_S128 : (⟨S_, .f32⟩ : BufTy).Contents (Elt F) → (⟨S128, .f32⟩ : BufTy).Contents (Elt F)),
    StableHlo.binary main_v4 main_v5 main_v6 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32) ]
theorem ops0_0_sub : (ops0_0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub ..⟩
/-- The buffers those operations write, in order. -/
abbrev wr0_0 : List (Ref sig .tc) :=
  [main_v0, main_v1, main_v2, main_v3, main_cst, main_v4, main_cst_0, main_v5, main_v6, main_c]

/-- 22 operations of the call @var (record main_call0), in order. -/
abbrev ops0_1 : List (HloOp τ sig (Elt F)) :=
  [ StableHlo.TRef.nullary (.of main_call0_cst : StableHlo.TRef sig ⟨S_, .f32⟩) (constant S_ .f32 0x00000000#32),
    StableHlo.TRef.binary (.of main_arg0 : StableHlo.TRef sig ⟨S50000x128, .f32⟩) (.of main_call0_cst : StableHlo.TRef sig ⟨S_, .f32⟩) (.of main_call0_v0 : StableHlo.TRef sig ⟨S128, .f32⟩) (fun x v => Host.reduceAdd x v reducesTo_S50000x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x47435000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S50000x128, .f32⟩) (broadcastInDim S50000x128 ![0, 1] bcast_S1x128_S50000x128_0_1),
    StableHlo.TRef.binary (.of main_arg0 : StableHlo.TRef sig ⟨S50000x128, .f32⟩) (.of main_call0_v4 : StableHlo.TRef sig ⟨S50000x128, .f32⟩) (.of main_call0_v5 : StableHlo.TRef sig ⟨S50000x128, .f32⟩) subf,
    StableHlo.TRef.binary (.of main_call0_v5 : StableHlo.TRef sig ⟨S50000x128, .f32⟩) (.of main_call0_v5 : StableHlo.TRef sig ⟨S50000x128, .f32⟩) (.of main_call0_v6 : StableHlo.TRef sig ⟨S50000x128, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47435000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S50000x128, .f32⟩) (.of main_call0_cst_2 : StableHlo.TRef sig ⟨S_, .f32⟩) (.of main_call0_v9 : StableHlo.TRef sig ⟨S128, .f32⟩) (fun x v => Host.reduceAdd x v reducesTo_S50000x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v7 : StableHlo.TRef sig ⟨S128, .f32⟩) (fun p a b => select (broadcastInDim S128 ![] bcast_S_S128 p) a b) ]
theorem ops0_1_sub : (ops0_1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- The buffers those operations write, in order. -/
abbrev wr0_1 : List (Ref sig .tc) :=
  [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v7]

/-- 20 operations of @main, in order. -/
abbrev ops0_2 : List (HloOp τ sig (Elt F)) :=
  [ StableHlo.unary main_v6 main_v8 (broadcastInDim S1x128 ![1] bcast_S128_S1x128_1 : (⟨S128, .f32⟩ : BufTy).Contents (Elt F) → (⟨S1x128, .f32⟩ : BufTy).Contents (Elt F)),
    StableHlo.unary main_v8 main_v9 (broadcastInDim S50000x128 ![0, 1] bcast_S1x128_S50000x128_0_1 : (⟨S1x128, .f32⟩ : BufTy).Contents (Elt F) → (⟨S50000x128, .f32⟩ : BufTy).Contents (Elt F)),
    StableHlo.binary main_arg0 main_v9 main_v10 (subf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x3727C5AC#32),
    StableHlo.unary main_cst_1 main_v11 (broadcastInDim S128 ![] bcast_S_S128 : (⟨S_, .f32⟩ : BufTy).Contents (Elt F) → (⟨S128, .f32⟩ : BufTy).Contents (Elt F)),
    StableHlo.binary main_v7 main_v11 main_v12 (addf : (⟨S128, .f32⟩ : BufTy).Contents (Elt F) → (⟨S128, .f32⟩ : BufTy).Contents (Elt F) → (⟨S128, .f32⟩ : BufTy).Contents (Elt F)),
    StableHlo.unary main_v12 main_v13 (Host.rsqrt : (⟨S128, .f32⟩ : BufTy).Contents (Elt F) → (⟨S128, .f32⟩ : BufTy).Contents (Elt F)),
    StableHlo.unary main_v13 main_v14 (broadcastInDim S1x128 ![1] bcast_S128_S1x128_1 : (⟨S128, .f32⟩ : BufTy).Contents (Elt F) → (⟨S1x128, .f32⟩ : BufTy).Contents (Elt F)),
    StableHlo.unary main_v14 main_v15 (broadcastInDim S50000x128 ![0, 1] bcast_S1x128_S50000x128_0_1 : (⟨S1x128, .f32⟩ : BufTy).Contents (Elt F) → (⟨S50000x128, .f32⟩ : BufTy).Contents (Elt F)),
    StableHlo.binary main_v10 main_v15 main_v16 (mulf : (⟨S50000x128, .f32⟩ : BufTy).Contents (Elt F) → (⟨S50000x128, .f32⟩ : BufTy).Contents (Elt F) → (⟨S50000x128, .f32⟩ : BufTy).Contents (Elt F)),
    StableHlo.unary main_arg3 main_v17 (broadcastInDim S1x128 ![1] bcast_S128_S1x128_1 : (⟨S128, .f32⟩ : BufTy).Contents (Elt F) → (⟨S1x128, .f32⟩ : BufTy).Contents (Elt F)),
    StableHlo.unary main_v17 main_v18 (broadcastInDim S50000x128 ![0, 1] bcast_S1x128_S50000x128_0_1 : (⟨S1x128, .f32⟩ : BufTy).Contents (Elt F) → (⟨S50000x128, .f32⟩ : BufTy).Contents (Elt F)),
    StableHlo.binary main_v16 main_v18 main_v19 (mulf : (⟨S50000x128, .f32⟩ : BufTy).Contents (Elt F) → (⟨S50000x128, .f32⟩ : BufTy).Contents (Elt F) → (⟨S50000x128, .f32⟩ : BufTy).Contents (Elt F)),
    StableHlo.unary main_arg4 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S50000x128 ![0, 1] bcast_S1x128_S50000x128_0_1 : (⟨S1x128, .f32⟩ : BufTy).Contents (Elt F) → (⟨S50000x128, .f32⟩ : BufTy).Contents (Elt F)),
    StableHlo.binary main_v19 main_v21 main_v22 (addf : (⟨S50000x128, .f32⟩ : BufTy).Contents (Elt F) → (⟨S50000x128, .f32⟩ : BufTy).Contents (Elt F) → (⟨S50000x128, .f32⟩ : BufTy).Contents (Elt F)),
    StableHlo.binary main_v22 main_arg5 main_v23 ((fun l r => Host.dotGeneral dot_S50000x128_S128x96_S50000x96_1_0_0_1_n_n none l r) : (⟨S50000x128, .f32⟩ : BufTy).Contents (Elt F) → (⟨S128x96, .f32⟩ : BufTy).Contents (Elt F) → (⟨S50000x96, .f32⟩ : BufTy).Contents (Elt F)),
    StableHlo.unary main_arg6 main_v24 (broadcastInDim S1x96 ![1] bcast_S96_S1x96_1 : (⟨S96, .f32⟩ : BufTy).Contents (Elt F) → (⟨S1x96, .f32⟩ : BufTy).Contents (Elt F)),
    StableHlo.unary main_v24 main_v25 (broadcastInDim S50000x96 ![0, 1] bcast_S1x96_S50000x96_0_1 : (⟨S1x96, .f32⟩ : BufTy).Contents (Elt F) → (⟨S50000x96, .f32⟩ : BufTy).Contents (Elt F)),
    StableHlo.binary main_v23 main_v25 main_v26 (addf : (⟨S50000x96, .f32⟩ : BufTy).Contents (Elt F) → (⟨S50000x96, .f32⟩ : BufTy).Contents (Elt F) → (⟨S50000x96, .f32⟩ : BufTy).Contents (Elt F)) ]
theorem ops0_2_sub : (ops0_2 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩
/-- The buffers those operations write, in order. -/
abbrev wr0_2 : List (Ref sig .tc) :=
  [main_v8, main_v9, main_v10, main_cst_1, main_v11, main_v12, main_v13, main_v14, main_v15, main_v16, main_v17, main_v18, main_v19, main_v20, main_v21, main_v22, main_v23, main_v24, main_v25, main_v26]

/-- 3 operations of the call @relu (record main_call1), in order. -/
abbrev ops0_3 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x96, .f32⟩) (broadcastInDim S50000x96 ![] bcast_S_S50000x96),
    StableHlo.TRef.binary (.of main_v26 : StableHlo.TRef sig ⟨S50000x96, .f32⟩) (.of main_call1_v0 : StableHlo.TRef sig ⟨S50000x96, .f32⟩) (.of main_v27 : StableHlo.TRef sig ⟨S50000x96, .f32⟩) maximumf ]
theorem ops0_3_sub : (ops0_3 : List (HloOp τ sig (Elt F))).Forall fun op => op.bufs ⊆ StableHlo.tcRefs τ sig :=
  ⟨StableHlo.nullary_bufs_sub .., StableHlo.unary_bufs_sub .., StableHlo.binary_bufs_sub ..⟩
/-- The buffers those operations write, in order. -/
abbrev wr0_3 : List (Ref sig .tc) :=
  [main_call1_cst, main_call1_v0, main_v27]

/-- 24 operations of @main, in order. -/
abbrev ops0_4 : List (HloOp τ sig (Elt F)) :=
  [ StableHlo.nullary main_c_2 (constantI S_ 32 0#32),
    StableHlo.unary main_c_2 main_v28 (broadcastInDim S800000 ![] bcast_S_S800000 : (⟨S_, .i32⟩ : BufTy).Contents (Elt F) → (⟨S800000, .i32⟩ : BufTy).Contents (Elt F)),
    StableHlo.binary main_v1 main_v28 main_v29 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v30 (broadcastInDim S800000 ![] bcast_S_S800000 : (⟨S_, .i32⟩ : BufTy).Contents (Elt F) → (⟨S800000, .i32⟩ : BufTy).Contents (Elt F)),
    StableHlo.binary main_v1 main_v30 main_v31 (addi : (⟨S800000, .i32⟩ : BufTy).Contents (Elt F) → (⟨S800000, .i32⟩ : BufTy).Contents (Elt F) → (⟨S800000, .i32⟩ : BufTy).Contents (Elt F)),
    StableHlo.ternary main_v29 main_v31 main_v1 main_v32 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v32 main_v33 (broadcastInDim S800000x1 ![0] bcast_S800000_S800000x1_0 : (⟨S800000, .i32⟩ : BufTy).Contents (Elt F) → (⟨S800000x1, .i32⟩ : BufTy).Contents (Elt F)),
    StableHlo.binary main_v27 main_v33 main_v34 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.nullary main_cst_4 (constant S_ .f32 0x00000000#32),
    StableHlo.unary main_cst_4 main_v35 (broadcastInDim S50000x96 ![] bcast_S_S50000x96 : (⟨S_, .f32⟩ : BufTy).Contents (Elt F) → (⟨S50000x96, .f32⟩ : BufTy).Contents (Elt F)),
    StableHlo.unary main_v3 main_v36 (broadcastInDim S800000x1 ![0] bcast_S800000_S800000x1_0 : (⟨S800000, .i32⟩ : BufTy).Contents (Elt F) → (⟨S800000x1, .i32⟩ : BufTy).Contents (Elt F)),
    StableHlo.ternary main_v35 main_v36 main_v34 main_v37 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.binary main_v27 main_v37 main_v38 (addf : (⟨S50000x96, .f32⟩ : BufTy).Contents (Elt F) → (⟨S50000x96, .f32⟩ : BufTy).Contents (Elt F) → (⟨S50000x96, .f32⟩ : BufTy).Contents (Elt F)),
    StableHlo.binary main_v38 main_arg7 main_v39 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg8 main_v40 (broadcastInDim S1x96 ![1] bcast_S96_S1x96_1 : (⟨S96, .f32⟩ : BufTy).Contents (Elt F) → (⟨S1x96, .f32⟩ : BufTy).Contents (Elt F)),
    StableHlo.unary main_v40 main_v41 (broadcastInDim S50000x96 ![0, 1] bcast_S1x96_S50000x96_0_1 : (⟨S1x96, .f32⟩ : BufTy).Contents (Elt F) → (⟨S50000x96, .f32⟩ : BufTy).Contents (Elt F)),
    StableHlo.binary main_v39 main_v41 main_v42 (addf : (⟨S50000x96, .f32⟩ : BufTy).Contents (Elt F) → (⟨S50000x96, .f32⟩ : BufTy).Contents (Elt F) → (⟨S50000x96, .f32⟩ : BufTy).Contents (Elt F)),
    StableHlo.nullary main_cst_5 (constant S_ .f32 0x00000000#32),
    StableHlo.binary main_v42 main_cst_5 main_v43 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_6 (constant S_ .f32 0x47435000#32),
    StableHlo.unary main_cst_6 main_v44 (broadcastInDim S96 ![] bcast_S_S96 : (⟨S_, .f32⟩ : BufTy).Contents (Elt F) → (⟨S96, .f32⟩ : BufTy).Contents (Elt F)),
    StableHlo.binary main_v43 main_v44 main_v45 (Host.divf : (⟨S96, .f32⟩ : BufTy).Contents (Elt F) → (⟨S96, .f32⟩ : BufTy).Contents (Elt F) → (⟨S96, .f32⟩ : BufTy).Contents (Elt F)),
    StableHlo.nullary main_c_7 (constantI S_ 32 0#32) ]
theorem ops0_4_sub : (ops0_4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub ..⟩
/-- The buffers those operations write, in order. -/
abbrev wr0_4 : List (Ref sig .tc) :=
  [main_c_2, main_v28, main_v29, main_c_3, main_v30, main_v31, main_v32, main_v33, main_v34, main_cst_4, main_v35, main_v36, main_v37, main_v38, main_v39, main_v40, main_v41, main_v42, main_cst_5, main_v43, main_cst_6, main_v44, main_v45, main_c_7]

/-- 22 operations of the call @var_0 (record main_call2), in order. -/
abbrev ops0_5 : List (HloOp τ sig (Elt F)) :=
  [ StableHlo.TRef.nullary (.of main_call2_cst : StableHlo.TRef sig ⟨S_, .f32⟩) (constant S_ .f32 0x00000000#32),
    StableHlo.TRef.binary (.of main_v42 : StableHlo.TRef sig ⟨S50000x96, .f32⟩) (.of main_call2_cst : StableHlo.TRef sig ⟨S_, .f32⟩) (.of main_call2_v0 : StableHlo.TRef sig ⟨S96, .f32⟩) (fun x v => Host.reduceAdd x v reducesTo_S50000x96_S96_d0 h_S_),
    StableHlo.TRef.unary (.of main_call2_v0 : StableHlo.TRef sig ⟨S96, .f32⟩) (.of main_call2_v1 : StableHlo.TRef sig ⟨S1x96, .f32⟩) (broadcastInDim S1x96 ![1] bcast_S96_S1x96_1),
    StableHlo.TRef.nullary (.of main_call2_cst_0 : StableHlo.TRef sig ⟨S_, .f32⟩) (constant S_ .f32 0x47435000#32),
    StableHlo.TRef.unary (.of main_call2_cst_0 : StableHlo.TRef sig ⟨S_, .f32⟩) (.of main_call2_v2 : StableHlo.TRef sig ⟨S1x96, .f32⟩) (broadcastInDim S1x96 ![] bcast_S_S1x96),
    StableHlo.TRef.binary (.of main_call2_v1 : StableHlo.TRef sig ⟨S1x96, .f32⟩) (.of main_call2_v2 : StableHlo.TRef sig ⟨S1x96, .f32⟩) (.of main_call2_v3 : StableHlo.TRef sig ⟨S1x96, .f32⟩) Host.divf,
    StableHlo.TRef.unary (.of main_call2_v3 : StableHlo.TRef sig ⟨S1x96, .f32⟩) (.of main_call2_v4 : StableHlo.TRef sig ⟨S50000x96, .f32⟩) (broadcastInDim S50000x96 ![0, 1] bcast_S1x96_S50000x96_0_1),
    StableHlo.TRef.binary (.of main_v42 : StableHlo.TRef sig ⟨S50000x96, .f32⟩) (.of main_call2_v4 : StableHlo.TRef sig ⟨S50000x96, .f32⟩) (.of main_call2_v5 : StableHlo.TRef sig ⟨S50000x96, .f32⟩) subf,
    StableHlo.TRef.binary (.of main_call2_v5 : StableHlo.TRef sig ⟨S50000x96, .f32⟩) (.of main_call2_v5 : StableHlo.TRef sig ⟨S50000x96, .f32⟩) (.of main_call2_v6 : StableHlo.TRef sig ⟨S50000x96, .f32⟩) mulf,
    StableHlo.TRef.unary (.of main_c_7 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47435000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S50000x96, .f32⟩) (.of main_call2_cst_2 : StableHlo.TRef sig ⟨S_, .f32⟩) (.of main_call2_v9 : StableHlo.TRef sig ⟨S96, .f32⟩) (fun x v => Host.reduceAdd x v reducesTo_S50000x96_S96_d0 h_S_),
    StableHlo.TRef.unary (.of main_call2_v8 : StableHlo.TRef sig ⟨S_, .f32⟩) (.of main_call2_v10 : StableHlo.TRef sig ⟨S96, .f32⟩) (broadcastInDim S96 ![] bcast_S_S96),
    StableHlo.TRef.binary (.of main_call2_v9 : StableHlo.TRef sig ⟨S96, .f32⟩) (.of main_call2_v10 : StableHlo.TRef sig ⟨S96, .f32⟩) (.of main_call2_v11 : StableHlo.TRef sig ⟨S96, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S96, .f32⟩) (broadcastInDim S96 ![] bcast_S_S96),
    StableHlo.TRef.ternary (.of main_call2_v12 : StableHlo.TRef sig ⟨S_, .i1⟩) (.of main_call2_v11 : StableHlo.TRef sig ⟨S96, .f32⟩) (.of main_call2_call0_v1 : StableHlo.TRef sig ⟨S96, .f32⟩) (.of main_v46 : StableHlo.TRef sig ⟨S96, .f32⟩) (fun p a b => select (broadcastInDim S96 ![] bcast_S_S96 p) a b) ]
theorem ops0_5_sub : (ops0_5 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- The buffers those operations write, in order. -/
abbrev wr0_5 : List (Ref sig .tc) :=
  [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v46]

/-- 3 operations of @main, in order. -/
abbrev ops0_6 : List (HloOp τ sig (Elt F)) :=
  [ StableHlo.unary main_v45 main_v47 (broadcastInDim S1x96 ![1] bcast_S96_S1x96_1 : (⟨S96, .f32⟩ : BufTy).Contents (Elt F) → (⟨S1x96, .f32⟩ : BufTy).Contents (Elt F)),
    StableHlo.unary main_v47 main_v48 (broadcastInDim S50000x96 ![0, 1] bcast_S1x96_S50000x96_0_1 : (⟨S1x96, .f32⟩ : BufTy).Contents (Elt F) → (⟨S50000x96, .f32⟩ : BufTy).Contents (Elt F)),
    StableHlo.binary main_v42 main_v48 main_v49 (subf : (⟨S50000x96, .f32⟩ : BufTy).Contents (Elt F) → (⟨S50000x96, .f32⟩ : BufTy).Contents (Elt F) → (⟨S50000x96, .f32⟩ : BufTy).Contents (Elt F)) ]
theorem ops0_6_sub : (ops0_6 : List (HloOp τ sig (Elt F))).Forall fun op => op.bufs ⊆ StableHlo.tcRefs τ sig :=
  ⟨StableHlo.unary_bufs_sub .., StableHlo.unary_bufs_sub .., StableHlo.binary_bufs_sub ..⟩
/-- The buffers those operations write, in order. -/
abbrev wr0_6 : List (Ref sig .tc) :=
  [main_v47, main_v48, main_v49]

/-- Window 0: the lists one after the other. -/
abbrev ops0 : List (HloOp τ sig (Elt F)) :=
  ops0_0 ++ (ops0_1 ++ (ops0_2 ++ (ops0_3 ++ (ops0_4 ++ (ops0_5 ++ (ops0_6))))))

/-- The window's statements are its lists run in order. -/
theorem part0_chain (c : Dev nD) : main_part0 (F := F) c = (Pipeline.chainK
  [ StableHlo.seq ops0_0,
    StableHlo.seq ops0_1,
    StableHlo.seq ops0_2,
    StableHlo.seq ops0_3,
    StableHlo.seq ops0_4,
    StableHlo.seq ops0_5 ]
  (StableHlo.seq ops0_6) : Prog (TpuEff nD τ sig (Elt F) (Pipeline.Sig Λ₀ (Fin 0) fun p => (pcfgs (F := F) p).Adm) .tc) PUnit) := by
  chain_rfl

end Cert.ReferenceIdeal.ROps

end
-- ==== Proof.ROps1.lean ====
/-
  Window 1 of the reference program's @main as lists of its operations, in order: one list per stretch of
  statements between two calls and one per call, a call's list being the called function's operations over the
  buffers of that call (a nested call's likewise).  Each list's operations touch TensorCore buffers only; beside
  each list, the buffers its operations write, in order.  The window is the lists run one after the other.
-/
import proofs.«132872_j8993661518249_1_alg».proof.Proof.Gen.ReferenceIdeal
import Idealize.ShloMosaic.Lib.StableHlo.Run
import Idealize.ShloMosaic.Lib.Pipeline.Regions

set_option maxRecDepth 16384

noncomputable section

namespace Cert.ReferenceIdeal.ROps

open Cert.ReferenceIdeal Cert.ReferenceIdeal.Gen Idealize.ShloMosaic Idealize.ShloMosaic.TcCoe Idealize.SL.Sem

variable {F : FTy → Type} [FloatOps F]

/-- 13 operations of @main, in order. -/
abbrev ops1_0 : List (HloOp τ sig (Elt F)) :=
  [ StableHlo.nullary main_cst_8 (constant S_ .f32 0x3727C5AC#32),
    StableHlo.unary main_cst_8 main_v50 (broadcastInDim S96 ![] bcast_S_S96 : (⟨S_, .f32⟩ : BufTy).Contents (Elt F) → (⟨S96, .f32⟩ : BufTy).Contents (Elt F)),
    StableHlo.binary main_v46 main_v50 main_v51 (addf : (⟨S96, .f32⟩ : BufTy).Contents (Elt F) → (⟨S96, .f32⟩ : BufTy).Contents (Elt F) → (⟨S96, .f32⟩ : BufTy).Contents (Elt F)),
    StableHlo.unary main_v51 main_v52 (Host.rsqrt : (⟨S96, .f32⟩ : BufTy).Contents (Elt F) → (⟨S96, .f32⟩ : BufTy).Contents (Elt F)),
    StableHlo.unary main_v52 main_v53 (broadcastInDim S1x96 ![1] bcast_S96_S1x96_1 : (⟨S96, .f32⟩ : BufTy).Contents (Elt F) → (⟨S1x96, .f32⟩ : BufTy).Contents (Elt F)),
    StableHlo.unary main_v53 main_v54 (broadcastInDim S50000x96 ![0, 1] bcast_S1x96_S50000x96_0_1 : (⟨S1x96, .f32⟩ : BufTy).Contents (Elt F) → (⟨S50000x96, .f32⟩ : BufTy).Contents (Elt F)),
    StableHlo.binary main_v49 main_v54 main_v55 (mulf : (⟨S50000x96, .f32⟩ : BufTy).Contents (Elt F) → (⟨S50000x96, .f32⟩ : BufTy).Contents (Elt F) → (⟨S50000x96, .f32⟩ : BufTy).Contents (Elt F)),
    StableHlo.unary main_arg9 main_v56 (broadcastInDim S1x96 ![1] bcast_S96_S1x96_1 : (⟨S96, .f32⟩ : BufTy).Contents (Elt F) → (⟨S1x96, .f32⟩ : BufTy).Contents (Elt F)),
    StableHlo.unary main_v56 main_v57 (broadcastInDim S50000x96 ![0, 1] bcast_S1x96_S50000x96_0_1 : (⟨S1x96, .f32⟩ : BufTy).Contents (Elt F) → (⟨S50000x96, .f32⟩ : BufTy).Contents (Elt F)),
    StableHlo.binary main_v55 main_v57 main_v58 (mulf : (⟨S50000x96, .f32⟩ : BufTy).Contents (Elt F) → (⟨S50000x96, .f32⟩ : BufTy).Contents (Elt F) → (⟨S50000x96, .f32⟩ : BufTy).Contents (Elt F)),
    StableHlo.unary main_arg10 main_v59 (broadcastInDim S1x96 ![1] bcast_S96_S1x96_1 : (⟨S96, .f32⟩ : BufTy).Contents (Elt F) → (⟨S1x96, .f32⟩ : BufTy).Contents (Elt F)),
    StableHlo.unary main_v59 main_v60 (broadcastInDim S50000x96 ![0, 1] bcast_S1x96_S50000x96_0_1 : (⟨S1x96, .f32⟩ : BufTy).Contents (Elt F) → (⟨S50000x96, .f32⟩ : BufTy).Contents (Elt F)),
    StableHlo.binary main_v58 main_v60 main_v61 (addf : (⟨S50000x96, .f32⟩ : BufTy).Contents (Elt F) → (⟨S50000x96, .f32⟩ : BufTy).Contents (Elt F) → (⟨S50000x96, .f32⟩ : BufTy).Contents (Elt F)) ]
theorem ops1_0_sub : (ops1_0 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- The buffers those operations write, in order. -/
abbrev wr1_0 : List (Ref sig .tc) :=
  [main_cst_8, main_v50, main_v51, main_v52, main_v53, main_v54, main_v55, main_v56, main_v57, main_v58, main_v59, main_v60, main_v61]

/-- 3 operations of the call @relu (record main_call3), in order. -/
abbrev ops1_1 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x96, .f32⟩) (broadcastInDim S50000x96 ![] bcast_S_S50000x96),
    StableHlo.TRef.binary (.of main_v61 : StableHlo.TRef sig ⟨S50000x96, .f32⟩) (.of main_call3_v0 : StableHlo.TRef sig ⟨S50000x96, .f32⟩) (.of main_v62 : StableHlo.TRef sig ⟨S50000x96, .f32⟩) maximumf ]
theorem ops1_1_sub : (ops1_1 : List (HloOp τ sig (Elt F))).Forall fun op => op.bufs ⊆ StableHlo.tcRefs τ sig :=
  ⟨StableHlo.nullary_bufs_sub .., StableHlo.unary_bufs_sub .., StableHlo.binary_bufs_sub ..⟩
/-- The buffers those operations write, in order. -/
abbrev wr1_1 : List (Ref sig .tc) :=
  [main_call3_cst, main_call3_v0, main_v62]

/-- 4 operations of @main, in order. -/
abbrev ops1_2 : List (HloOp τ sig (Elt F)) :=
  [ StableHlo.binary main_v62 main_arg11 main_v63 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg12 main_v64 (broadcastInDim S1x96 ![1] bcast_S96_S1x96_1 : (⟨S96, .f32⟩ : BufTy).Contents (Elt F) → (⟨S1x96, .f32⟩ : BufTy).Contents (Elt F)),
    StableHlo.unary main_v64 main_v65 (broadcastInDim S50000x96 ![0, 1] bcast_S1x96_S50000x96_0_1 : (⟨S1x96, .f32⟩ : BufTy).Contents (Elt F) → (⟨S50000x96, .f32⟩ : BufTy).Contents (Elt F)),
    StableHlo.binary main_v63 main_v65 main_v66 (addf : (⟨S50000x96, .f32⟩ : BufTy).Contents (Elt F) → (⟨S50000x96, .f32⟩ : BufTy).Contents (Elt F) → (⟨S50000x96, .f32⟩ : BufTy).Contents (Elt F)) ]
theorem ops1_2_sub : (ops1_2 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
/-- The buffers those operations write, in order. -/
abbrev wr1_2 : List (Ref sig .tc) :=
  [main_v63, main_v64, main_v65, main_v66]

/-- 3 operations of the call @relu (record main_call4), in order. -/
abbrev ops1_3 : List (HloOp τ sig (Elt F)) :=
  [ StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S50000x96, .f32⟩) (broadcastInDim S50000x96 ![] bcast_S_S50000x96),
    StableHlo.TRef.binary (.of main_v66 : StableHlo.TRef sig ⟨S50000x96, .f32⟩) (.of main_call4_v0 : StableHlo.TRef sig ⟨S50000x96, .f32⟩) (.of main_v67 : StableHlo.TRef sig ⟨S50000x96, .f32⟩) maximumf ]
theorem ops1_3_sub : (ops1_3 : List (HloOp τ sig (Elt F))).Forall fun op => op.bufs ⊆ StableHlo.tcRefs τ sig :=
  ⟨StableHlo.nullary_bufs_sub .., StableHlo.unary_bufs_sub .., StableHlo.binary_bufs_sub ..⟩
/-- The buffers those operations write, in order. -/
abbrev wr1_3 : List (Ref sig .tc) :=
  [main_call4_cst, main_call4_v0, main_v67]

/-- 24 operations of @main, in order. -/
abbrev ops1_4 : List (HloOp τ sig (Elt F)) :=
  [ StableHlo.nullary main_c_9 (constantI S_ 32 0#32),
    StableHlo.unary main_c_9 main_v68 (broadcastInDim S800000 ![] bcast_S_S800000 : (⟨S_, .i32⟩ : BufTy).Contents (Elt F) → (⟨S800000, .i32⟩ : BufTy).Contents (Elt F)),
    StableHlo.binary main_v1 main_v68 main_v69 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v70 (broadcastInDim S800000 ![] bcast_S_S800000 : (⟨S_, .i32⟩ : BufTy).Contents (Elt F) → (⟨S800000, .i32⟩ : BufTy).Contents (Elt F)),
    StableHlo.binary main_v1 main_v70 main_v71 (addi : (⟨S800000, .i32⟩ : BufTy).Contents (Elt F) → (⟨S800000, .i32⟩ : BufTy).Contents (Elt F) → (⟨S800000, .i32⟩ : BufTy).Contents (Elt F)),
    StableHlo.ternary main_v69 main_v71 main_v1 main_v72 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v72 main_v73 (broadcastInDim S800000x1 ![0] bcast_S800000_S800000x1_0 : (⟨S800000, .i32⟩ : BufTy).Contents (Elt F) → (⟨S800000x1, .i32⟩ : BufTy).Contents (Elt F)),
    StableHlo.binary main_v67 main_v73 main_v74 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.nullary main_cst_11 (constant S_ .f32 0x00000000#32),
    StableHlo.unary main_cst_11 main_v75 (broadcastInDim S50000x96 ![] bcast_S_S50000x96 : (⟨S_, .f32⟩ : BufTy).Contents (Elt F) → (⟨S50000x96, .f32⟩ : BufTy).Contents (Elt F)),
    StableHlo.unary main_v3 main_v76 (broadcastInDim S800000x1 ![0] bcast_S800000_S800000x1_0 : (⟨S800000, .i32⟩ : BufTy).Contents (Elt F) → (⟨S800000x1, .i32⟩ : BufTy).Contents (Elt F)),
    StableHlo.ternary main_v75 main_v76 main_v74 main_v77 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.binary main_v67 main_v77 main_v78 (addf : (⟨S50000x96, .f32⟩ : BufTy).Contents (Elt F) → (⟨S50000x96, .f32⟩ : BufTy).Contents (Elt F) → (⟨S50000x96, .f32⟩ : BufTy).Contents (Elt F)),
    StableHlo.binary main_v78 main_arg13 main_v79 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg14 main_v80 (broadcastInDim S1x96 ![1] bcast_S96_S1x96_1 : (⟨S96, .f32⟩ : BufTy).Contents (Elt F) → (⟨S1x96, .f32⟩ : BufTy).Contents (Elt F)),
    StableHlo.unary main_v80 main_v81 (broadcastInDim S50000x96 ![0, 1] bcast_S1x96_S50000x96_0_1 : (⟨S1x96, .f32⟩ : BufTy).Contents (Elt F) → (⟨S50000x96, .f32⟩ : BufTy).Contents (Elt F)),
    StableHlo.binary main_v79 main_v81 main_v82 (addf : (⟨S50000x96, .f32⟩ : BufTy).Contents (Elt F) → (⟨S50000x96, .f32⟩ : BufTy).Contents (Elt F) → (⟨S50000x96, .f32⟩ : BufTy).Contents (Elt F)),
    StableHlo.nullary main_cst_12 (constant S_ .f32 0x00000000#32),
    StableHlo.binary main_v82 main_cst_12 main_v83 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_13 (constant S_ .f32 0x47435000#32),
    StableHlo.unary main_cst_13 main_v84 (broadcastInDim S96 ![] bcast_S_S96 : (⟨S_, .f32⟩ : BufTy).Contents (Elt F) → (⟨S96, .f32⟩ : BufTy).Contents (Elt F)),
    StableHlo.binary main_v83 main_v84 main_v85 (Host.divf : (⟨S96, .f32⟩ : BufTy).Contents (Elt F) → (⟨S96, .f32⟩ : BufTy).Contents (Elt F) → (⟨S96, .f32⟩ : BufTy).Contents (Elt F)),
    StableHlo.nullary main_c_14 (constantI S_ 32 0#32) ]
theorem ops1_4_sub : (ops1_4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub ..⟩
/-- The buffers those operations write, in order. -/
abbrev wr1_4 : List (Ref sig .tc) :=
  [main_c_9, main_v68, main_v69, main_c_10, main_v70, main_v71, main_v72, main_v73, main_v74, main_cst_11, main_v75, main_v76, main_v77, main_v78, main_v79, main_v80, main_v81, main_v82, main_cst_12, main_v83, main_cst_13, main_v84, main_v85, main_c_14]

/-- 22 operations of the call @var_0 (record main_call5), in order. -/
abbrev ops1_5 : List (HloOp τ sig (Elt F)) :=
  [ StableHlo.TRef.nullary (.of main_call5_cst : StableHlo.TRef sig ⟨S_, .f32⟩) (constant S_ .f32 0x00000000#32),
    StableHlo.TRef.binary (.of main_v82 : StableHlo.TRef sig ⟨S50000x96, .f32⟩) (.of main_call5_cst : StableHlo.TRef sig ⟨S_, .f32⟩) (.of main_call5_v0 : StableHlo.TRef sig ⟨S96, .f32⟩) (fun x v => Host.reduceAdd x v reducesTo_S50000x96_S96_d0 h_S_),
    StableHlo.TRef.unary (.of main_call5_v0 : StableHlo.TRef sig ⟨S96, .f32⟩) (.of main_call5_v1 : StableHlo.TRef sig ⟨S1x96, .f32⟩) (broadcastInDim S1x96 ![1] bcast_S96_S1x96_1),
    StableHlo.TRef.nullary (.of main_call5_cst_0 : StableHlo.TRef sig ⟨S_, .f32⟩) (constant S_ .f32 0x47435000#32),
    StableHlo.TRef.unary (.of main_call5_cst_0 : StableHlo.TRef sig ⟨S_, .f32⟩) (.of main_call5_v2 : StableHlo.TRef sig ⟨S1x96, .f32⟩) (broadcastInDim S1x96 ![] bcast_S_S1x96),
    StableHlo.TRef.binary (.of main_call5_v1 : StableHlo.TRef sig ⟨S1x96, .f32⟩) (.of main_call5_v2 : StableHlo.TRef sig ⟨S1x96, .f32⟩) (.of main_call5_v3 : StableHlo.TRef sig ⟨S1x96, .f32⟩) Host.divf,
    StableHlo.TRef.unary (.of main_call5_v3 : StableHlo.TRef sig ⟨S1x96, .f32⟩) (.of main_call5_v4 : StableHlo.TRef sig ⟨S50000x96, .f32⟩) (broadcastInDim S50000x96 ![0, 1] bcast_S1x96_S50000x96_0_1),
    StableHlo.TRef.binary (.of main_v82 : StableHlo.TRef sig ⟨S50000x96, .f32⟩) (.of main_call5_v4 : StableHlo.TRef sig ⟨S50000x96, .f32⟩) (.of main_call5_v5 : StableHlo.TRef sig ⟨S50000x96, .f32⟩) subf,
    StableHlo.TRef.binary (.of main_call5_v5 : StableHlo.TRef sig ⟨S50000x96, .f32⟩) (.of main_call5_v5 : StableHlo.TRef sig ⟨S50000x96, .f32⟩) (.of main_call5_v6 : StableHlo.TRef sig ⟨S50000x96, .f32⟩) mulf,
    StableHlo.TRef.unary (.of main_c_14 : StableHlo.TRef sig ⟨S_, .i32⟩) (.of main_call5_v7 : StableHlo.TRef sig ⟨S_, .f32⟩) (sitofp .f32),
    StableHlo.TRef.nullary (.of main_call5_cst_1 : StableHlo.TRef sig ⟨S_, .f32⟩) (constant S_ .f32 0x47435000#32),
    StableHlo.TRef.binary (.of main_call5_cst_1 : StableHlo.TRef sig ⟨S_, .f32⟩) (.of main_call5_v7 : StableHlo.TRef sig ⟨S_, .f32⟩) (.of main_call5_v8 : StableHlo.TRef sig ⟨S_, .f32⟩) subf,
    StableHlo.TRef.nullary (.of main_call5_cst_2 : StableHlo.TRef sig ⟨S_, .f32⟩) (constant S_ .f32 0x00000000#32),
    StableHlo.TRef.binary (.of main_call5_v6 : StableHlo.TRef sig ⟨S50000x96, .f32⟩) (.of main_call5_cst_2 : StableHlo.TRef sig ⟨S_, .f32⟩) (.of main_call5_v9 : StableHlo.TRef sig ⟨S96, .f32⟩) (fun x v => Host.reduceAdd x v reducesTo_S50000x96_S96_d0 h_S_),
    StableHlo.TRef.unary (.of main_call5_v8 : StableHlo.TRef sig ⟨S_, .f32⟩) (.of main_call5_v10 : StableHlo.TRef sig ⟨S96, .f32⟩) (broadcastInDim S96 ![] bcast_S_S96),
    StableHlo.TRef.binary (.of main_call5_v9 : StableHlo.TRef sig ⟨S96, .f32⟩) (.of main_call5_v10 : StableHlo.TRef sig ⟨S96, .f32⟩) (.of main_call5_v11 : StableHlo.TRef sig ⟨S96, .f32⟩) Host.divf,
    StableHlo.TRef.nullary (.of main_call5_cst_3 : StableHlo.TRef sig ⟨S_, .f32⟩) (constant S_ .f32 0x00000000#32),
    StableHlo.TRef.binary (.of main_call5_v8 : StableHlo.TRef sig ⟨S_, .f32⟩) (.of main_call5_cst_3 : StableHlo.TRef sig ⟨S_, .f32⟩) (.of main_call5_v12 : StableHlo.TRef sig ⟨S_, .i1⟩) (cmpf .ogt),
    StableHlo.TRef.nullary (.of main_call5_cst_4 : StableHlo.TRef sig ⟨S_, .f32⟩) (constant S_ .f32 0x7FC00000#32),
    StableHlo.TRef.unary (.of main_call5_cst_4 : StableHlo.TRef sig ⟨S_, .f32⟩) (.of main_call5_call0_v0 : StableHlo.TRef sig ⟨S_, .f32⟩) id,
    StableHlo.TRef.unary (.of main_call5_call0_v0 : StableHlo.TRef sig ⟨S_, .f32⟩) (.of main_call5_call0_v1 : StableHlo.TRef sig ⟨S96, .f32⟩) (broadcastInDim S96 ![] bcast_S_S96),
    StableHlo.TRef.ternary (.of main_call5_v12 : StableHlo.TRef sig ⟨S_, .i1⟩) (.of main_call5_v11 : StableHlo.TRef sig ⟨S96, .f32⟩) (.of main_call5_call0_v1 : StableHlo.TRef sig ⟨S96, .f32⟩) (.of main_v86 : StableHlo.TRef sig ⟨S96, .f32⟩) (fun p a b => select (broadcastInDim S96 ![] bcast_S_S96 p) a b) ]
theorem ops1_5_sub : (ops1_5 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- The buffers those operations write, in order. -/
abbrev wr1_5 : List (Ref sig .tc) :=
  [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v86]

/-- 16 operations of @main, in order. -/
abbrev ops1_6 : List (HloOp τ sig (Elt F)) :=
  [ StableHlo.unary main_v85 main_v87 (broadcastInDim S1x96 ![1] bcast_S96_S1x96_1 : (⟨S96, .f32⟩ : BufTy).Contents (Elt F) → (⟨S1x96, .f32⟩ : BufTy).Contents (Elt F)),
    StableHlo.unary main_v87 main_v88 (broadcastInDim S50000x96 ![0, 1] bcast_S1x96_S50000x96_0_1 : (⟨S1x96, .f32⟩ : BufTy).Contents (Elt F) → (⟨S50000x96, .f32⟩ : BufTy).Contents (Elt F)),
    StableHlo.binary main_v82 main_v88 main_v89 (subf : (⟨S50000x96, .f32⟩ : BufTy).Contents (Elt F) → (⟨S50000x96, .f32⟩ : BufTy).Contents (Elt F) → (⟨S50000x96, .f32⟩ : BufTy).Contents (Elt F)),
    StableHlo.nullary main_cst_15 (constant S_ .f32 0x3727C5AC#32),
    StableHlo.unary main_cst_15 main_v90 (broadcastInDim S96 ![] bcast_S_S96 : (⟨S_, .f32⟩ : BufTy).Contents (Elt F) → (⟨S96, .f32⟩ : BufTy).Contents (Elt F)),
    StableHlo.binary main_v86 main_v90 main_v91 (addf : (⟨S96, .f32⟩ : BufTy).Contents (Elt F) → (⟨S96, .f32⟩ : BufTy).Contents (Elt F) → (⟨S96, .f32⟩ : BufTy).Contents (Elt F)),
    StableHlo.unary main_v91 main_v92 (Host.rsqrt : (⟨S96, .f32⟩ : BufTy).Contents (Elt F) → (⟨S96, .f32⟩ : BufTy).Contents (Elt F)),
    StableHlo.unary main_v92 main_v93 (broadcastInDim S1x96 ![1] bcast_S96_S1x96_1 : (⟨S96, .f32⟩ : BufTy).Contents (Elt F) → (⟨S1x96, .f32⟩ : BufTy).Contents (Elt F)),
    StableHlo.unary main_v93 main_v94 (broadcastInDim S50000x96 ![0, 1] bcast_S1x96_S50000x96_0_1 : (⟨S1x96, .f32⟩ : BufTy).Contents (Elt F) → (⟨S50000x96, .f32⟩ : BufTy).Contents (Elt F)),
    StableHlo.binary main_v89 main_v94 main_v95 (mulf : (⟨S50000x96, .f32⟩ : BufTy).Contents (Elt F) → (⟨S50000x96, .f32⟩ : BufTy).Contents (Elt F) → (⟨S50000x96, .f32⟩ : BufTy).Contents (Elt F)),
    StableHlo.unary main_arg15 main_v96 (broadcastInDim S1x96 ![1] bcast_S96_S1x96_1 : (⟨S96, .f32⟩ : BufTy).Contents (Elt F) → (⟨S1x96, .f32⟩ : BufTy).Contents (Elt F)),
    StableHlo.unary main_v96 main_v97 (broadcastInDim S50000x96 ![0, 1] bcast_S1x96_S50000x96_0_1 : (⟨S1x96, .f32⟩ : BufTy).Contents (Elt F) → (⟨S50000x96, .f32⟩ : BufTy).Contents (Elt F)),
    StableHlo.binary main_v95 main_v97 main_v98 (mulf : (⟨S50000x96, .f32⟩ : BufTy).Contents (Elt F) → (⟨S50000x96, .f32⟩ : BufTy).Contents (Elt F) → (⟨S50000x96, .f32⟩ : BufTy).Contents (Elt F)),
    StableHlo.unary main_arg16 main_v99 (broadcastInDim S1x96 ![1] bcast_S96_S1x96_1 : (⟨S96, .f32⟩ : BufTy).Contents (Elt F) → (⟨S1x96, .f32⟩ : BufTy).Contents (Elt F)),
    StableHlo.unary main_v99 main_v100 (broadcastInDim S50000x96 ![0, 1] bcast_S1x96_S50000x96_0_1 : (⟨S1x96, .f32⟩ : BufTy).Contents (Elt F) → (⟨S50000x96, .f32⟩ : BufTy).Contents (Elt F)),
    StableHlo.binary main_v98 main_v100 main_v101 (addf : (⟨S50000x96, .f32⟩ : BufTy).Contents (Elt F) → (⟨S50000x96, .f32⟩ : BufTy).Contents (Elt F) → (⟨S50000x96, .f32⟩ : BufTy).Contents (Elt F)) ]
theorem ops1_6_sub : (ops1_6 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- The buffers those operations write, in order. -/
abbrev wr1_6 : List (Ref sig .tc) :=
  [main_v87, main_v88, main_v89, main_cst_15, main_v90, main_v91, main_v92, main_v93, main_v94, main_v95, main_v96, main_v97, main_v98, main_v99, main_v100, main_v101]

/-- Window 1: the lists one after the other. -/
abbrev ops1 : List (HloOp τ sig (Elt F)) :=
  ops1_0 ++ (ops1_1 ++ (ops1_2 ++ (ops1_3 ++ (ops1_4 ++ (ops1_5 ++ (ops1_6))))))

/-- The window's statements are its lists run in order. -/
theorem part1_chain (c : Dev nD) : main_part1 (F := F) c = (Pipeline.chainK
  [ StableHlo.seq ops1_0,
    StableHlo.seq ops1_1,
    StableHlo.seq ops1_2,
    StableHlo.seq ops1_3,
    StableHlo.seq ops1_4,
    StableHlo.seq ops1_5 ]
  (StableHlo.seq ops1_6) : Prog (TpuEff nD τ sig (Elt F) (Pipeline.Sig Λ₀ (Fin 0) fun p => (pcfgs (F := F) p).Adm) .tc) PUnit) := by
  chain_rfl

end Cert.ReferenceIdeal.ROps

end
-- ==== Proof.ROps2.lean ====
/-
  Window 2 of the reference program's @main as lists of its operations, in order: one list per stretch of
  statements between two calls and one per call, a call's list being the called function's operations over the
  buffers of that call (a nested call's likewise).  Each list's operations touch TensorCore buffers only; beside
  each list, the buffers its operations write, in order.  The window is the lists run one after the other.
-/
import proofs.«132872_j8993661518249_1_alg».proof.Proof.Gen.ReferenceIdeal
import Idealize.ShloMosaic.Lib.StableHlo.Run
import Idealize.ShloMosaic.Lib.Pipeline.Regions

set_option maxRecDepth 16384

noncomputable section

namespace Cert.ReferenceIdeal.ROps

open Cert.ReferenceIdeal Cert.ReferenceIdeal.Gen Idealize.ShloMosaic Idealize.ShloMosaic.TcCoe Idealize.SL.Sem

variable {F : FTy → Type} [FloatOps F]

/-- 3 operations of the call @relu (record main_call6), in order. -/
abbrev ops2_0 : List (HloOp τ sig (Elt F)) :=
  [ StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S50000x96, .f32⟩) (broadcastInDim S50000x96 ![] bcast_S_S50000x96),
    StableHlo.TRef.binary (.of main_v101 : StableHlo.TRef sig ⟨S50000x96, .f32⟩) (.of main_call6_v0 : StableHlo.TRef sig ⟨S50000x96, .f32⟩) (.of main_v102 : StableHlo.TRef sig ⟨S50000x96, .f32⟩) maximumf ]
theorem ops2_0_sub : (ops2_0 : List (HloOp τ sig (Elt F))).Forall fun op => op.bufs ⊆ StableHlo.tcRefs τ sig :=
  ⟨StableHlo.nullary_bufs_sub .., StableHlo.unary_bufs_sub .., StableHlo.binary_bufs_sub ..⟩
/-- The buffers those operations write, in order. -/
abbrev wr2_0 : List (Ref sig .tc) :=
  [main_call6_cst, main_call6_v0, main_v102]

/-- 4 operations of @main, in order. -/
abbrev ops2_1 : List (HloOp τ sig (Elt F)) :=
  [ StableHlo.binary main_v102 main_arg17 main_v103 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg18 main_v104 (broadcastInDim S1x96 ![1] bcast_S96_S1x96_1 : (⟨S96, .f32⟩ : BufTy).Contents (Elt F) → (⟨S1x96, .f32⟩ : BufTy).Contents (Elt F)),
    StableHlo.unary main_v104 main_v105 (broadcastInDim S50000x96 ![0, 1] bcast_S1x96_S50000x96_0_1 : (⟨S1x96, .f32⟩ : BufTy).Contents (Elt F) → (⟨S50000x96, .f32⟩ : BufTy).Contents (Elt F)),
    StableHlo.binary main_v103 main_v105 main_v106 (addf : (⟨S50000x96, .f32⟩ : BufTy).Contents (Elt F) → (⟨S50000x96, .f32⟩ : BufTy).Contents (Elt F) → (⟨S50000x96, .f32⟩ : BufTy).Contents (Elt F)) ]
theorem ops2_1_sub : (ops2_1 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
/-- The buffers those operations write, in order. -/
abbrev wr2_1 : List (Ref sig .tc) :=
  [main_v103, main_v104, main_v105, main_v106]

/-- 3 operations of the call @relu (record main_call7), in order. -/
abbrev ops2_2 : List (HloOp τ sig (Elt F)) :=
  [ StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S50000x96, .f32⟩) (broadcastInDim S50000x96 ![] bcast_S_S50000x96),
    StableHlo.TRef.binary (.of main_v106 : StableHlo.TRef sig ⟨S50000x96, .f32⟩) (.of main_call7_v0 : StableHlo.TRef sig ⟨S50000x96, .f32⟩) (.of main_v107 : StableHlo.TRef sig ⟨S50000x96, .f32⟩) maximumf ]
theorem ops2_2_sub : (ops2_2 : List (HloOp τ sig (Elt F))).Forall fun op => op.bufs ⊆ StableHlo.tcRefs τ sig :=
  ⟨StableHlo.nullary_bufs_sub .., StableHlo.unary_bufs_sub .., StableHlo.binary_bufs_sub ..⟩
/-- The buffers those operations write, in order. -/
abbrev wr2_2 : List (Ref sig .tc) :=
  [main_call7_cst, main_call7_v0, main_v107]

/-- 24 operations of @main, in order. -/
abbrev ops2_3 : List (HloOp τ sig (Elt F)) :=
  [ StableHlo.nullary main_c_16 (constantI S_ 32 0#32),
    StableHlo.unary main_c_16 main_v108 (broadcastInDim S800000 ![] bcast_S_S800000 : (⟨S_, .i32⟩ : BufTy).Contents (Elt F) → (⟨S800000, .i32⟩ : BufTy).Contents (Elt F)),
    StableHlo.binary main_v1 main_v108 main_v109 (cmpi .slt : (⟨S800000, .i32⟩ : BufTy).Contents (Elt F) → (⟨S800000, .i32⟩ : BufTy).Contents (Elt F) → (⟨S800000, .i1⟩ : BufTy).Contents (Elt F)),
    StableHlo.nullary main_c_17 (constantI S_ 32 50000#32),
    StableHlo.unary main_c_17 main_v110 (broadcastInDim S800000 ![] bcast_S_S800000 : (⟨S_, .i32⟩ : BufTy).Contents (Elt F) → (⟨S800000, .i32⟩ : BufTy).Contents (Elt F)),
    StableHlo.binary main_v1 main_v110 main_v111 (addi : (⟨S800000, .i32⟩ : BufTy).Contents (Elt F) → (⟨S800000, .i32⟩ : BufTy).Contents (Elt F) → (⟨S800000, .i32⟩ : BufTy).Contents (Elt F)),
    StableHlo.ternary main_v109 main_v111 main_v1 main_v112 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v112 main_v113 (broadcastInDim S800000x1 ![0] bcast_S800000_S800000x1_0 : (⟨S800000, .i32⟩ : BufTy).Contents (Elt F) → (⟨S800000x1, .i32⟩ : BufTy).Contents (Elt F)),
    StableHlo.binary main_v107 main_v113 main_v114 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.nullary main_cst_18 (constant S_ .f32 0x00000000#32),
    StableHlo.unary main_cst_18 main_v115 (broadcastInDim S50000x96 ![] bcast_S_S50000x96 : (⟨S_, .f32⟩ : BufTy).Contents (Elt F) → (⟨S50000x96, .f32⟩ : BufTy).Contents (Elt F)),
    StableHlo.unary main_v3 main_v116 (broadcastInDim S800000x1 ![0] bcast_S800000_S800000x1_0 : (⟨S800000, .i32⟩ : BufTy).Contents (Elt F) → (⟨S800000x1, .i32⟩ : BufTy).Contents (Elt F)),
    StableHlo.ternary main_v115 main_v116 main_v114 main_v117 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.binary main_v107 main_v117 main_v118 (addf : (⟨S50000x96, .f32⟩ : BufTy).Contents (Elt F) → (⟨S50000x96, .f32⟩ : BufTy).Contents (Elt F) → (⟨S50000x96, .f32⟩ : BufTy).Contents (Elt F)),
    StableHlo.binary main_v118 main_arg19 main_v119 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg20 main_v120 (broadcastInDim S1x96 ![1] bcast_S96_S1x96_1 : (⟨S96, .f32⟩ : BufTy).Contents (Elt F) → (⟨S1x96, .f32⟩ : BufTy).Contents (Elt F)),
    StableHlo.unary main_v120 main_v121 (broadcastInDim S50000x96 ![0, 1] bcast_S1x96_S50000x96_0_1 : (⟨S1x96, .f32⟩ : BufTy).Contents (Elt F) → (⟨S50000x96, .f32⟩ : BufTy).Contents (Elt F)),
    StableHlo.binary main_v119 main_v121 main_v122 (addf : (⟨S50000x96, .f32⟩ : BufTy).Contents (Elt F) → (⟨S50000x96, .f32⟩ : BufTy).Contents (Elt F) → (⟨S50000x96, .f32⟩ : BufTy).Contents (Elt F)),
    StableHlo.nullary main_cst_19 (constant S_ .f32 0x00000000#32),
    StableHlo.binary main_v122 main_cst_19 main_v123 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_20 (constant S_ .f32 0x47435000#32),
    StableHlo.unary main_cst_20 main_v124 (broadcastInDim S96 ![] bcast_S_S96 : (⟨S_, .f32⟩ : BufTy).Contents (Elt F) → (⟨S96, .f32⟩ : BufTy).Contents (Elt F)),
    StableHlo.binary main_v123 main_v124 main_v125 (Host.divf : (⟨S96, .f32⟩ : BufTy).Contents (Elt F) → (⟨S96, .f32⟩ : BufTy).Contents (Elt F) → (⟨S96, .f32⟩ : BufTy).Contents (Elt F)),
    StableHlo.nullary main_c_21 (constantI S_ 32 0#32) ]
theorem ops2_3_sub : (ops2_3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub ..⟩
/-- The buffers those operations write, in order. -/
abbrev wr2_3 : List (Ref sig .tc) :=
  [main_c_16, main_v108, main_v109, main_c_17, main_v110, main_v111, main_v112, main_v113, main_v114, main_cst_18, main_v115, main_v116, main_v117, main_v118, main_v119, main_v120, main_v121, main_v122, main_cst_19, main_v123, main_cst_20, main_v124, main_v125, main_c_21]

/-- 22 operations of the call @var_0 (record main_call8), in order. -/
abbrev ops2_4 : List (HloOp τ sig (Elt F)) :=
  [ StableHlo.TRef.nullary (.of main_call8_cst : StableHlo.TRef sig ⟨S_, .f32⟩) (constant S_ .f32 0x00000000#32),
    StableHlo.TRef.binary (.of main_v122 : StableHlo.TRef sig ⟨S50000x96, .f32⟩) (.of main_call8_cst : StableHlo.TRef sig ⟨S_, .f32⟩) (.of main_call8_v0 : StableHlo.TRef sig ⟨S96, .f32⟩) (fun x v => Host.reduceAdd x v reducesTo_S50000x96_S96_d0 h_S_),
    StableHlo.TRef.unary (.of main_call8_v0 : StableHlo.TRef sig ⟨S96, .f32⟩) (.of main_call8_v1 : StableHlo.TRef sig ⟨S1x96, .f32⟩) (broadcastInDim S1x96 ![1] bcast_S96_S1x96_1),
    StableHlo.TRef.nullary (.of main_call8_cst_0 : StableHlo.TRef sig ⟨S_, .f32⟩) (constant S_ .f32 0x47435000#32),
    StableHlo.TRef.unary (.of main_call8_cst_0 : StableHlo.TRef sig ⟨S_, .f32⟩) (.of main_call8_v2 : StableHlo.TRef sig ⟨S1x96, .f32⟩) (broadcastInDim S1x96 ![] bcast_S_S1x96),
    StableHlo.TRef.binary (.of main_call8_v1 : StableHlo.TRef sig ⟨S1x96, .f32⟩) (.of main_call8_v2 : StableHlo.TRef sig ⟨S1x96, .f32⟩) (.of main_call8_v3 : StableHlo.TRef sig ⟨S1x96, .f32⟩) Host.divf,
    StableHlo.TRef.unary (.of main_call8_v3 : StableHlo.TRef sig ⟨S1x96, .f32⟩) (.of main_call8_v4 : StableHlo.TRef sig ⟨S50000x96, .f32⟩) (broadcastInDim S50000x96 ![0, 1] bcast_S1x96_S50000x96_0_1),
    StableHlo.TRef.binary (.of main_v122 : StableHlo.TRef sig ⟨S50000x96, .f32⟩) (.of main_call8_v4 : StableHlo.TRef sig ⟨S50000x96, .f32⟩) (.of main_call8_v5 : StableHlo.TRef sig ⟨S50000x96, .f32⟩) subf,
    StableHlo.TRef.binary (.of main_call8_v5 : StableHlo.TRef sig ⟨S50000x96, .f32⟩) (.of main_call8_v5 : StableHlo.TRef sig ⟨S50000x96, .f32⟩) (.of main_call8_v6 : StableHlo.TRef sig ⟨S50000x96, .f32⟩) mulf,
    StableHlo.TRef.unary (.of main_c_21 : StableHlo.TRef sig ⟨S_, .i32⟩) (.of main_call8_v7 : StableHlo.TRef sig ⟨S_, .f32⟩) (sitofp .f32),
    StableHlo.TRef.nullary (.of main_call8_cst_1 : StableHlo.TRef sig ⟨S_, .f32⟩) (constant S_ .f32 0x47435000#32),
    StableHlo.TRef.binary (.of main_call8_cst_1 : StableHlo.TRef sig ⟨S_, .f32⟩) (.of main_call8_v7 : StableHlo.TRef sig ⟨S_, .f32⟩) (.of main_call8_v8 : StableHlo.TRef sig ⟨S_, .f32⟩) subf,
    StableHlo.TRef.nullary (.of main_call8_cst_2 : StableHlo.TRef sig ⟨S_, .f32⟩) (constant S_ .f32 0x00000000#32),
    StableHlo.TRef.binary (.of main_call8_v6 : StableHlo.TRef sig ⟨S50000x96, .f32⟩) (.of main_call8_cst_2 : StableHlo.TRef sig ⟨S_, .f32⟩) (.of main_call8_v9 : StableHlo.TRef sig ⟨S96, .f32⟩) (fun x v => Host.reduceAdd x v reducesTo_S50000x96_S96_d0 h_S_),
    StableHlo.TRef.unary (.of main_call8_v8 : StableHlo.TRef sig ⟨S_, .f32⟩) (.of main_call8_v10 : StableHlo.TRef sig ⟨S96, .f32⟩) (broadcastInDim S96 ![] bcast_S_S96),
    StableHlo.TRef.binary (.of main_call8_v9 : StableHlo.TRef sig ⟨S96, .f32⟩) (.of main_call8_v10 : StableHlo.TRef sig ⟨S96, .f32⟩) (.of main_call8_v11 : StableHlo.TRef sig ⟨S96, .f32⟩) Host.divf,
    StableHlo.TRef.nullary (.of main_call8_cst_3 : StableHlo.TRef sig ⟨S_, .f32⟩) (constant S_ .f32 0x00000000#32),
    StableHlo.TRef.binary (.of main_call8_v8 : StableHlo.TRef sig ⟨S_, .f32⟩) (.of main_call8_cst_3 : StableHlo.TRef sig ⟨S_, .f32⟩) (.of main_call8_v12 : StableHlo.TRef sig ⟨S_, .i1⟩) (cmpf .ogt),
    StableHlo.TRef.nullary (.of main_call8_cst_4 : StableHlo.TRef sig ⟨S_, .f32⟩) (constant S_ .f32 0x7FC00000#32),
    StableHlo.TRef.unary (.of main_call8_cst_4 : StableHlo.TRef sig ⟨S_, .f32⟩) (.of main_call8_call0_v0 : StableHlo.TRef sig ⟨S_, .f32⟩) id,
    StableHlo.TRef.unary (.of main_call8_call0_v0 : StableHlo.TRef sig ⟨S_, .f32⟩) (.of main_call8_call0_v1 : StableHlo.TRef sig ⟨S96, .f32⟩) (broadcastInDim S96 ![] bcast_S_S96),
    StableHlo.TRef.ternary (.of main_call8_v12 : StableHlo.TRef sig ⟨S_, .i1⟩) (.of main_call8_v11 : StableHlo.TRef sig ⟨S96, .f32⟩) (.of main_call8_call0_v1 : StableHlo.TRef sig ⟨S96, .f32⟩) (.of main_v126 : StableHlo.TRef sig ⟨S96, .f32⟩) (fun p a b => select (broadcastInDim S96 ![] bcast_S_S96 p) a b) ]
theorem ops2_4_sub : (ops2_4 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- The buffers those operations write, in order. -/
abbrev wr2_4 : List (Ref sig .tc) :=
  [main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v126]

/-- 16 operations of @main, in order. -/
abbrev ops2_5 : List (HloOp τ sig (Elt F)) :=
  [ StableHlo.unary main_v125 main_v127 (broadcastInDim S1x96 ![1] bcast_S96_S1x96_1 : (⟨S96, .f32⟩ : BufTy).Contents (Elt F) → (⟨S1x96, .f32⟩ : BufTy).Contents (Elt F)),
    StableHlo.unary main_v127 main_v128 (broadcastInDim S50000x96 ![0, 1] bcast_S1x96_S50000x96_0_1 : (⟨S1x96, .f32⟩ : BufTy).Contents (Elt F) → (⟨S50000x96, .f32⟩ : BufTy).Contents (Elt F)),
    StableHlo.binary main_v122 main_v128 main_v129 (subf : (⟨S50000x96, .f32⟩ : BufTy).Contents (Elt F) → (⟨S50000x96, .f32⟩ : BufTy).Contents (Elt F) → (⟨S50000x96, .f32⟩ : BufTy).Contents (Elt F)),
    StableHlo.nullary main_cst_22 (constant S_ .f32 0x3727C5AC#32),
    StableHlo.unary main_cst_22 main_v130 (broadcastInDim S96 ![] bcast_S_S96 : (⟨S_, .f32⟩ : BufTy).Contents (Elt F) → (⟨S96, .f32⟩ : BufTy).Contents (Elt F)),
    StableHlo.binary main_v126 main_v130 main_v131 (addf : (⟨S96, .f32⟩ : BufTy).Contents (Elt F) → (⟨S96, .f32⟩ : BufTy).Contents (Elt F) → (⟨S96, .f32⟩ : BufTy).Contents (Elt F)),
    StableHlo.unary main_v131 main_v132 (Host.rsqrt : (⟨S96, .f32⟩ : BufTy).Contents (Elt F) → (⟨S96, .f32⟩ : BufTy).Contents (Elt F)),
    StableHlo.unary main_v132 main_v133 (broadcastInDim S1x96 ![1] bcast_S96_S1x96_1 : (⟨S96, .f32⟩ : BufTy).Contents (Elt F) → (⟨S1x96, .f32⟩ : BufTy).Contents (Elt F)),
    StableHlo.unary main_v133 main_v134 (broadcastInDim S50000x96 ![0, 1] bcast_S1x96_S50000x96_0_1 : (⟨S1x96, .f32⟩ : BufTy).Contents (Elt F) → (⟨S50000x96, .f32⟩ : BufTy).Contents (Elt F)),
    StableHlo.binary main_v129 main_v134 main_v135 (mulf : (⟨S50000x96, .f32⟩ : BufTy).Contents (Elt F) → (⟨S50000x96, .f32⟩ : BufTy).Contents (Elt F) → (⟨S50000x96, .f32⟩ : BufTy).Contents (Elt F)),
    StableHlo.unary main_arg21 main_v136 (broadcastInDim S1x96 ![1] bcast_S96_S1x96_1 : (⟨S96, .f32⟩ : BufTy).Contents (Elt F) → (⟨S1x96, .f32⟩ : BufTy).Contents (Elt F)),
    StableHlo.unary main_v136 main_v137 (broadcastInDim S50000x96 ![0, 1] bcast_S1x96_S50000x96_0_1 : (⟨S1x96, .f32⟩ : BufTy).Contents (Elt F) → (⟨S50000x96, .f32⟩ : BufTy).Contents (Elt F)),
    StableHlo.binary main_v135 main_v137 main_v138 (mulf : (⟨S50000x96, .f32⟩ : BufTy).Contents (Elt F) → (⟨S50000x96, .f32⟩ : BufTy).Contents (Elt F) → (⟨S50000x96, .f32⟩ : BufTy).Contents (Elt F)),
    StableHlo.unary main_arg22 main_v139 (broadcastInDim S1x96 ![1] bcast_S96_S1x96_1 : (⟨S96, .f32⟩ : BufTy).Contents (Elt F) → (⟨S1x96, .f32⟩ : BufTy).Contents (Elt F)),
    StableHlo.unary main_v139 main_v140 (broadcastInDim S50000x96 ![0, 1] bcast_S1x96_S50000x96_0_1 : (⟨S1x96, .f32⟩ : BufTy).Contents (Elt F) → (⟨S50000x96, .f32⟩ : BufTy).Contents (Elt F)),
    StableHlo.binary main_v138 main_v140 main_v141 (addf : (⟨S50000x96, .f32⟩ : BufTy).Contents (Elt F) → (⟨S50000x96, .f32⟩ : BufTy).Contents (Elt F) → (⟨S50000x96, .f32⟩ : BufTy).Contents (Elt F)) ]
theorem ops2_5_sub : (ops2_5 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- The buffers those operations write, in order. -/
abbrev wr2_5 : List (Ref sig .tc) :=
  [main_v127, main_v128, main_v129, main_cst_22, main_v130, main_v131, main_v132, main_v133, main_v134, main_v135, main_v136, main_v137, main_v138, main_v139, main_v140, main_v141]

/-- 3 operations of the call @relu (record main_call9), in order. -/
abbrev ops2_6 : List (HloOp τ sig (Elt F)) :=
  [ StableHlo.TRef.nullary (.of main_call9_cst : StableHlo.TRef sig ⟨S_, .f32⟩) (constant S_ .f32 0x00000000#32),
    StableHlo.TRef.unary (.of main_call9_cst : StableHlo.TRef sig ⟨S_, .f32⟩) (.of main_call9_v0 : StableHlo.TRef sig ⟨S50000x96, .f32⟩) (broadcastInDim S50000x96 ![] bcast_S_S50000x96),
    StableHlo.TRef.binary (.of main_v141 : StableHlo.TRef sig ⟨S50000x96, .f32⟩) (.of main_call9_v0 : StableHlo.TRef sig ⟨S50000x96, .f32⟩) (.of main_v142 : StableHlo.TRef sig ⟨S50000x96, .f32⟩) maximumf ]
theorem ops2_6_sub : (ops2_6 : List (HloOp τ sig (Elt F))).Forall fun op => op.bufs ⊆ StableHlo.tcRefs τ sig :=
  ⟨StableHlo.nullary_bufs_sub .., StableHlo.unary_bufs_sub .., StableHlo.binary_bufs_sub ..⟩
/-- The buffers those operations write, in order. -/
abbrev wr2_6 : List (Ref sig .tc) :=
  [main_call9_cst, main_call9_v0, main_v142]

/-- 4 operations of @main, in order. -/
abbrev ops2_7 : List (HloOp τ sig (Elt F)) :=
  [ StableHlo.binary main_v142 main_arg23 main_v143 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg24 main_v144 (broadcastInDim S1x96 ![1] bcast_S96_S1x96_1 : (⟨S96, .f32⟩ : BufTy).Contents (Elt F) → (⟨S1x96, .f32⟩ : BufTy).Contents (Elt F)),
    StableHlo.unary main_v144 main_v145 (broadcastInDim S50000x96 ![0, 1] bcast_S1x96_S50000x96_0_1 : (⟨S1x96, .f32⟩ : BufTy).Contents (Elt F) → (⟨S50000x96, .f32⟩ : BufTy).Contents (Elt F)),
    StableHlo.binary main_v143 main_v145 main_v146 (addf : (⟨S50000x96, .f32⟩ : BufTy).Contents (Elt F) → (⟨S50000x96, .f32⟩ : BufTy).Contents (Elt F) → (⟨S50000x96, .f32⟩ : BufTy).Contents (Elt F)) ]
theorem ops2_7_sub : (ops2_7 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
/-- The buffers those operations write, in order. -/
abbrev wr2_7 : List (Ref sig .tc) :=
  [main_v143, main_v144, main_v145, main_v146]

/-- 3 operations of the call @relu (record main_call10), in order. -/
abbrev ops2_8 : List (HloOp τ sig (Elt F)) :=
  [ StableHlo.TRef.nullary (.of main_call10_cst : StableHlo.TRef sig ⟨S_, .f32⟩) (constant S_ .f32 0x00000000#32),
    StableHlo.TRef.unary (.of main_call10_cst : StableHlo.TRef sig ⟨S_, .f32⟩) (.of main_call10_v0 : StableHlo.TRef sig ⟨S50000x96, .f32⟩) (broadcastInDim S50000x96 ![] bcast_S_S50000x96),
    StableHlo.TRef.binary (.of main_v146 : StableHlo.TRef sig ⟨S50000x96, .f32⟩) (.of main_call10_v0 : StableHlo.TRef sig ⟨S50000x96, .f32⟩) (.of main_v147 : StableHlo.TRef sig ⟨S50000x96, .f32⟩) maximumf ]
theorem ops2_8_sub : (ops2_8 : List (HloOp τ sig (Elt F))).Forall fun op => op.bufs ⊆ StableHlo.tcRefs τ sig :=
  ⟨StableHlo.nullary_bufs_sub .., StableHlo.unary_bufs_sub .., StableHlo.binary_bufs_sub ..⟩
/-- The buffers those operations write, in order. -/
abbrev wr2_8 : List (Ref sig .tc) :=
  [main_call10_cst, main_call10_v0, main_v147]

/-- 7 operations of @main, in order. -/
abbrev ops2_9 : List (HloOp τ sig (Elt F)) :=
  [ StableHlo.nullary main_cst_23 (constant S_ .f32 0x00000000#32),
    StableHlo.unary main_cst_23 main_v148 (broadcastInDim S512x96 ![] bcast_S_S512x96 : (⟨S_, .f32⟩ : BufTy).Contents (Elt F) → (⟨S512x96, .f32⟩ : BufTy).Contents (Elt F)),
    StableHlo.unary main_arg2 main_v149 (broadcastInDim S50000x1 ![0] bcast_S50000_S50000x1_0 : (⟨S50000, .i32⟩ : BufTy).Contents (Elt F) → (⟨S50000x1, .i32⟩ : BufTy).Contents (Elt F)),
    StableHlo.ternary main_v148 main_v149 main_v147 main_v150 ((fun x i u => Host.scatterAdd scatter_S512x96_S50000x1_S50000x96_1_0_0_1 x i u) : (⟨S512x96, .f32⟩ : BufTy).Contents (Elt F) → (⟨S50000x1, .i32⟩ : BufTy).Contents (Elt F) → (⟨S50000x96, .f32⟩ : BufTy).Contents (Elt F) → (⟨S512x96, .f32⟩ : BufTy).Contents (Elt F)),
    StableHlo.nullary main_cst_24 (constant S_ .f32 0x00000000#32),
    StableHlo.binary main_v150 main_cst_24 main_v151 ((fun x v => Host.reduceAdd x v reducesTo_S512x96_S96_d0 h_S_) : (⟨S512x96, .f32⟩ : BufTy).Contents (Elt F) → (⟨S_, .f32⟩ : BufTy).Contents (Elt F) → (⟨S96, .f32⟩ : BufTy).Contents (Elt F)),
    StableHlo.nullary main_cst_25 (constant S_ .f32 0x44000000#32) ]
theorem ops2_9_sub : (ops2_9 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.binary_bufs_sub .., StableHlo.nullary_bufs_sub ..⟩
/-- The buffers those operations write, in order. -/
abbrev wr2_9 : List (Ref sig .tc) :=
  [main_cst_23, main_v148, main_v149, main_v150, main_cst_24, main_v151, main_cst_25]

/-- Window 2: the lists one after the other. -/
abbrev ops2 : List (HloOp τ sig (Elt F)) :=
  ops2_0 ++ (ops2_1 ++ (ops2_2 ++ (ops2_3 ++ (ops2_4 ++ (ops2_5 ++ (ops2_6 ++ (ops2_7 ++ (ops2_8 ++ (ops2_9)))))))))

/-- The window's statements are its lists run in order. -/
theorem part2_chain (c : Dev nD) : main_part2 (F := F) c = (Pipeline.chainK
  [ StableHlo.seq ops2_0,
    StableHlo.seq ops2_1,
    StableHlo.seq ops2_2,
    StableHlo.seq ops2_3,
    StableHlo.seq ops2_4,
    StableHlo.seq ops2_5,
    StableHlo.seq ops2_6,
    StableHlo.seq ops2_7,
    StableHlo.seq ops2_8 ]
  (StableHlo.seq ops2_9) : Prog (TpuEff nD τ sig (Elt F) (Pipeline.Sig Λ₀ (Fin 0) fun p => (pcfgs (F := F) p).Adm) .tc) PUnit) := by
  chain_rfl

end Cert.ReferenceIdeal.ROps

end
-- ==== Proof.ROps3.lean ====
/-
  Window 3 of the reference program's @main as lists of its operations, in order: one list per stretch of
  statements between two calls and one per call, a call's list being the called function's operations over the
  buffers of that call (a nested call's likewise).  Each list's operations touch TensorCore buffers only; beside
  each list, the buffers its operations write, in order.  The window is the lists run one after the other.
-/
import proofs.«132872_j8993661518249_1_alg».proof.Proof.Gen.ReferenceIdeal
import Idealize.ShloMosaic.Lib.StableHlo.Run
import Idealize.ShloMosaic.Lib.Pipeline.Regions

set_option maxRecDepth 16384

noncomputable section

namespace Cert.ReferenceIdeal.ROps

open Cert.ReferenceIdeal Cert.ReferenceIdeal.Gen Idealize.ShloMosaic Idealize.ShloMosaic.TcCoe Idealize.SL.Sem

variable {F : FTy → Type} [FloatOps F]

/-- 3 operations of @main, in order. -/
abbrev ops3_0 : List (HloOp τ sig (Elt F)) :=
  [ StableHlo.unary main_cst_25 main_v152 (broadcastInDim S96 ![] bcast_S_S96 : (⟨S_, .f32⟩ : BufTy).Contents (Elt F) → (⟨S96, .f32⟩ : BufTy).Contents (Elt F)),
    StableHlo.binary main_v151 main_v152 main_v153 (Host.divf : (⟨S96, .f32⟩ : BufTy).Contents (Elt F) → (⟨S96, .f32⟩ : BufTy).Contents (Elt F) → (⟨S96, .f32⟩ : BufTy).Contents (Elt F)),
    StableHlo.nullary main_c_26 (constantI S_ 32 0#32) ]
theorem ops3_0_sub : (ops3_0 : List (HloOp τ sig (Elt F))).Forall fun op => op.bufs ⊆ StableHlo.tcRefs τ sig :=
  ⟨StableHlo.unary_bufs_sub .., StableHlo.binary_bufs_sub .., StableHlo.nullary_bufs_sub ..⟩
/-- The buffers those operations write, in order. -/
abbrev wr3_0 : List (Ref sig .tc) :=
  [main_v152, main_v153, main_c_26]

/-- 22 operations of the call @var_2 (record main_call11), in order. -/
abbrev ops3_1 : List (HloOp τ sig (Elt F)) :=
  [ StableHlo.TRef.nullary (.of main_call11_cst : StableHlo.TRef sig ⟨S_, .f32⟩) (constant S_ .f32 0x00000000#32),
    StableHlo.TRef.binary (.of main_v150 : StableHlo.TRef sig ⟨S512x96, .f32⟩) (.of main_call11_cst : StableHlo.TRef sig ⟨S_, .f32⟩) (.of main_call11_v0 : StableHlo.TRef sig ⟨S96, .f32⟩) (fun x v => Host.reduceAdd x v reducesTo_S512x96_S96_d0 h_S_),
    StableHlo.TRef.unary (.of main_call11_v0 : StableHlo.TRef sig ⟨S96, .f32⟩) (.of main_call11_v1 : StableHlo.TRef sig ⟨S1x96, .f32⟩) (broadcastInDim S1x96 ![1] bcast_S96_S1x96_1),
    StableHlo.TRef.nullary (.of main_call11_cst_0 : StableHlo.TRef sig ⟨S_, .f32⟩) (constant S_ .f32 0x44000000#32),
    StableHlo.TRef.unary (.of main_call11_cst_0 : StableHlo.TRef sig ⟨S_, .f32⟩) (.of main_call11_v2 : StableHlo.TRef sig ⟨S1x96, .f32⟩) (broadcastInDim S1x96 ![] bcast_S_S1x96),
    StableHlo.TRef.binary (.of main_call11_v1 : StableHlo.TRef sig ⟨S1x96, .f32⟩) (.of main_call11_v2 : StableHlo.TRef sig ⟨S1x96, .f32⟩) (.of main_call11_v3 : StableHlo.TRef sig ⟨S1x96, .f32⟩) Host.divf,
    StableHlo.TRef.unary (.of main_call11_v3 : StableHlo.TRef sig ⟨S1x96, .f32⟩) (.of main_call11_v4 : StableHlo.TRef sig ⟨S512x96, .f32⟩) (broadcastInDim S512x96 ![0, 1] bcast_S1x96_S512x96_0_1),
    StableHlo.TRef.binary (.of main_v150 : StableHlo.TRef sig ⟨S512x96, .f32⟩) (.of main_call11_v4 : StableHlo.TRef sig ⟨S512x96, .f32⟩) (.of main_call11_v5 : StableHlo.TRef sig ⟨S512x96, .f32⟩) subf,
    StableHlo.TRef.binary (.of main_call11_v5 : StableHlo.TRef sig ⟨S512x96, .f32⟩) (.of main_call11_v5 : StableHlo.TRef sig ⟨S512x96, .f32⟩) (.of main_call11_v6 : StableHlo.TRef sig ⟨S512x96, .f32⟩) mulf,
    StableHlo.TRef.unary (.of main_c_26 : StableHlo.TRef sig ⟨S_, .i32⟩) (.of main_call11_v7 : StableHlo.TRef sig ⟨S_, .f32⟩) (sitofp .f32),
    StableHlo.TRef.nullary (.of main_call11_cst_1 : StableHlo.TRef sig ⟨S_, .f32⟩) (constant S_ .f32 0x44000000#32),
    StableHlo.TRef.binary (.of main_call11_cst_1 : StableHlo.TRef sig ⟨S_, .f32⟩) (.of main_call11_v7 : StableHlo.TRef sig ⟨S_, .f32⟩) (.of main_call11_v8 : StableHlo.TRef sig ⟨S_, .f32⟩) subf,
    StableHlo.TRef.nullary (.of main_call11_cst_2 : StableHlo.TRef sig ⟨S_, .f32⟩) (constant S_ .f32 0x00000000#32),
    StableHlo.TRef.binary (.of main_call11_v6 : StableHlo.TRef sig ⟨S512x96, .f32⟩) (.of main_call11_cst_2 : StableHlo.TRef sig ⟨S_, .f32⟩) (.of main_call11_v9 : StableHlo.TRef sig ⟨S96, .f32⟩) (fun x v => Host.reduceAdd x v reducesTo_S512x96_S96_d0 h_S_),
    StableHlo.TRef.unary (.of main_call11_v8 : StableHlo.TRef sig ⟨S_, .f32⟩) (.of main_call11_v10 : StableHlo.TRef sig ⟨S96, .f32⟩) (broadcastInDim S96 ![] bcast_S_S96),
    StableHlo.TRef.binary (.of main_call11_v9 : StableHlo.TRef sig ⟨S96, .f32⟩) (.of main_call11_v10 : StableHlo.TRef sig ⟨S96, .f32⟩) (.of main_call11_v11 : StableHlo.TRef sig ⟨S96, .f32⟩) Host.divf,
    StableHlo.TRef.nullary (.of main_call11_cst_3 : StableHlo.TRef sig ⟨S_, .f32⟩) (constant S_ .f32 0x00000000#32),
    StableHlo.TRef.binary (.of main_call11_v8 : StableHlo.TRef sig ⟨S_, .f32⟩) (.of main_call11_cst_3 : StableHlo.TRef sig ⟨S_, .f32⟩) (.of main_call11_v12 : StableHlo.TRef sig ⟨S_, .i1⟩) (cmpf .ogt),
    StableHlo.TRef.nullary (.of main_call11_cst_4 : StableHlo.TRef sig ⟨S_, .f32⟩) (constant S_ .f32 0x7FC00000#32),
    StableHlo.TRef.unary (.of main_call11_cst_4 : StableHlo.TRef sig ⟨S_, .f32⟩) (.of main_call11_call0_v0 : StableHlo.TRef sig ⟨S_, .f32⟩) id,
    StableHlo.TRef.unary (.of main_call11_call0_v0 : StableHlo.TRef sig ⟨S_, .f32⟩) (.of main_call11_call0_v1 : StableHlo.TRef sig ⟨S96, .f32⟩) (broadcastInDim S96 ![] bcast_S_S96),
    StableHlo.TRef.ternary (.of main_call11_v12 : StableHlo.TRef sig ⟨S_, .i1⟩) (.of main_call11_v11 : StableHlo.TRef sig ⟨S96, .f32⟩) (.of main_call11_call0_v1 : StableHlo.TRef sig ⟨S96, .f32⟩) (.of main_v154 : StableHlo.TRef sig ⟨S96, .f32⟩) (fun p a b => select (broadcastInDim S96 ![] bcast_S_S96 p) a b) ]
theorem ops3_1_sub : (ops3_1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- The buffers those operations write, in order. -/
abbrev wr3_1 : List (Ref sig .tc) :=
  [main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_cst_3, main_call11_v12, main_call11_cst_4, main_call11_call0_v0, main_call11_call0_v1, main_v154]

/-- 20 operations of @main, in order. -/
abbrev ops3_2 : List (HloOp τ sig (Elt F)) :=
  [ StableHlo.unary main_v153 main_v155 (broadcastInDim S1x96 ![1] bcast_S96_S1x96_1 : (⟨S96, .f32⟩ : BufTy).Contents (Elt F) → (⟨S1x96, .f32⟩ : BufTy).Contents (Elt F)),
    StableHlo.unary main_v155 main_v156 (broadcastInDim S512x96 ![0, 1] bcast_S1x96_S512x96_0_1 : (⟨S1x96, .f32⟩ : BufTy).Contents (Elt F) → (⟨S512x96, .f32⟩ : BufTy).Contents (Elt F)),
    StableHlo.binary main_v150 main_v156 main_v157 (subf : (⟨S512x96, .f32⟩ : BufTy).Contents (Elt F) → (⟨S512x96, .f32⟩ : BufTy).Contents (Elt F) → (⟨S512x96, .f32⟩ : BufTy).Contents (Elt F)),
    StableHlo.nullary main_cst_27 (constant S_ .f32 0x3727C5AC#32),
    StableHlo.unary main_cst_27 main_v158 (broadcastInDim S96 ![] bcast_S_S96 : (⟨S_, .f32⟩ : BufTy).Contents (Elt F) → (⟨S96, .f32⟩ : BufTy).Contents (Elt F)),
    StableHlo.binary main_v154 main_v158 main_v159 (addf : (⟨S96, .f32⟩ : BufTy).Contents (Elt F) → (⟨S96, .f32⟩ : BufTy).Contents (Elt F) → (⟨S96, .f32⟩ : BufTy).Contents (Elt F)),
    StableHlo.unary main_v159 main_v160 (Host.rsqrt : (⟨S96, .f32⟩ : BufTy).Contents (Elt F) → (⟨S96, .f32⟩ : BufTy).Contents (Elt F)),
    StableHlo.unary main_v160 main_v161 (broadcastInDim S1x96 ![1] bcast_S96_S1x96_1 : (⟨S96, .f32⟩ : BufTy).Contents (Elt F) → (⟨S1x96, .f32⟩ : BufTy).Contents (Elt F)),
    StableHlo.unary main_v161 main_v162 (broadcastInDim S512x96 ![0, 1] bcast_S1x96_S512x96_0_1 : (⟨S1x96, .f32⟩ : BufTy).Contents (Elt F) → (⟨S512x96, .f32⟩ : BufTy).Contents (Elt F)),
    StableHlo.binary main_v157 main_v162 main_v163 (mulf : (⟨S512x96, .f32⟩ : BufTy).Contents (Elt F) → (⟨S512x96, .f32⟩ : BufTy).Contents (Elt F) → (⟨S512x96, .f32⟩ : BufTy).Contents (Elt F)),
    StableHlo.unary main_arg25 main_v164 (broadcastInDim S1x96 ![1] bcast_S96_S1x96_1 : (⟨S96, .f32⟩ : BufTy).Contents (Elt F) → (⟨S1x96, .f32⟩ : BufTy).Contents (Elt F)),
    StableHlo.unary main_v164 main_v165 (broadcastInDim S512x96 ![0, 1] bcast_S1x96_S512x96_0_1 : (⟨S1x96, .f32⟩ : BufTy).Contents (Elt F) → (⟨S512x96, .f32⟩ : BufTy).Contents (Elt F)),
    StableHlo.binary main_v163 main_v165 main_v166 (mulf : (⟨S512x96, .f32⟩ : BufTy).Contents (Elt F) → (⟨S512x96, .f32⟩ : BufTy).Contents (Elt F) → (⟨S512x96, .f32⟩ : BufTy).Contents (Elt F)),
    StableHlo.unary main_arg26 main_v167 (broadcastInDim S1x96 ![1] bcast_S96_S1x96_1 : (⟨S96, .f32⟩ : BufTy).Contents (Elt F) → (⟨S1x96, .f32⟩ : BufTy).Contents (Elt F)),
    StableHlo.unary main_v167 main_v168 (broadcastInDim S512x96 ![0, 1] bcast_S1x96_S512x96_0_1 : (⟨S1x96, .f32⟩ : BufTy).Contents (Elt F) → (⟨S512x96, .f32⟩ : BufTy).Contents (Elt F)),
    StableHlo.binary main_v166 main_v168 main_v169 (addf : (⟨S512x96, .f32⟩ : BufTy).Contents (Elt F) → (⟨S512x96, .f32⟩ : BufTy).Contents (Elt F) → (⟨S512x96, .f32⟩ : BufTy).Contents (Elt F)),
    StableHlo.binary main_v169 main_arg27 main_v170 ((fun l r => Host.dotGeneral dot_S512x96_S96x96_S512x96_1_0_0_1_n_n none l r) : (⟨S512x96, .f32⟩ : BufTy).Contents (Elt F) → (⟨S96x96, .f32⟩ : BufTy).Contents (Elt F) → (⟨S512x96, .f32⟩ : BufTy).Contents (Elt F)),
    StableHlo.unary main_arg28 main_v171 (broadcastInDim S1x96 ![1] bcast_S96_S1x96_1 : (⟨S96, .f32⟩ : BufTy).Contents (Elt F) → (⟨S1x96, .f32⟩ : BufTy).Contents (Elt F)),
    StableHlo.unary main_v171 main_v172 (broadcastInDim S512x96 ![0, 1] bcast_S1x96_S512x96_0_1 : (⟨S1x96, .f32⟩ : BufTy).Contents (Elt F) → (⟨S512x96, .f32⟩ : BufTy).Contents (Elt F)),
    StableHlo.binary main_v170 main_v172 main_v173 (addf : (⟨S512x96, .f32⟩ : BufTy).Contents (Elt F) → (⟨S512x96, .f32⟩ : BufTy).Contents (Elt F) → (⟨S512x96, .f32⟩ : BufTy).Contents (Elt F)) ]
theorem ops3_2_sub : (ops3_2 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩
/-- The buffers those operations write, in order. -/
abbrev wr3_2 : List (Ref sig .tc) :=
  [main_v155, main_v156, main_v157, main_cst_27, main_v158, main_v159, main_v160, main_v161, main_v162, main_v163, main_v164, main_v165, main_v166, main_v167, main_v168, main_v169, main_v170, main_v171, main_v172, main_v173]

/-- 3 operations of the call @relu_3 (record main_call12), in order. -/
abbrev ops3_3 : List (HloOp τ sig (Elt F)) :=
  [ StableHlo.TRef.nullary (.of main_call12_cst : StableHlo.TRef sig ⟨S_, .f32⟩) (constant S_ .f32 0x00000000#32),
    StableHlo.TRef.unary (.of main_call12_cst : StableHlo.TRef sig ⟨S_, .f32⟩) (.of main_call12_v0 : StableHlo.TRef sig ⟨S512x96, .f32⟩) (broadcastInDim S512x96 ![] bcast_S_S512x96),
    StableHlo.TRef.binary (.of main_v173 : StableHlo.TRef sig ⟨S512x96, .f32⟩) (.of main_call12_v0 : StableHlo.TRef sig ⟨S512x96, .f32⟩) (.of main_v174 : StableHlo.TRef sig ⟨S512x96, .f32⟩) maximumf ]
theorem ops3_3_sub : (ops3_3 : List (HloOp τ sig (Elt F))).Forall fun op => op.bufs ⊆ StableHlo.tcRefs τ sig :=
  ⟨StableHlo.nullary_bufs_sub .., StableHlo.unary_bufs_sub .., StableHlo.binary_bufs_sub ..⟩
/-- The buffers those operations write, in order. -/
abbrev wr3_3 : List (Ref sig .tc) :=
  [main_call12_cst, main_call12_v0, main_v174]

/-- 6 operations of @main, in order. -/
abbrev ops3_4 : List (HloOp τ sig (Elt F)) :=
  [ StableHlo.nullary main_cst_28 (constant S_ .f32 0x00000000#32),
    StableHlo.binary main_v174 main_cst_28 main_v175 ((fun x v => Host.reduceAdd x v reducesTo_S512x96_S96_d0 h_S_) : (⟨S512x96, .f32⟩ : BufTy).Contents (Elt F) → (⟨S_, .f32⟩ : BufTy).Contents (Elt F) → (⟨S96, .f32⟩ : BufTy).Contents (Elt F)),
    StableHlo.nullary main_cst_29 (constant S_ .f32 0x44000000#32),
    StableHlo.unary main_cst_29 main_v176 (broadcastInDim S96 ![] bcast_S_S96 : (⟨S_, .f32⟩ : BufTy).Contents (Elt F) → (⟨S96, .f32⟩ : BufTy).Contents (Elt F)),
    StableHlo.binary main_v175 main_v176 main_v177 (Host.divf : (⟨S96, .f32⟩ : BufTy).Contents (Elt F) → (⟨S96, .f32⟩ : BufTy).Contents (Elt F) → (⟨S96, .f32⟩ : BufTy).Contents (Elt F)),
    StableHlo.nullary main_c_30 (constantI S_ 32 0#32) ]
theorem ops3_4_sub : (ops3_4 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub ..⟩
/-- The buffers those operations write, in order. -/
abbrev wr3_4 : List (Ref sig .tc) :=
  [main_cst_28, main_v175, main_cst_29, main_v176, main_v177, main_c_30]

/-- 22 operations of the call @var_2 (record main_call13), in order. -/
abbrev ops3_5 : List (HloOp τ sig (Elt F)) :=
  [ StableHlo.TRef.nullary (.of main_call13_cst : StableHlo.TRef sig ⟨S_, .f32⟩) (constant S_ .f32 0x00000000#32),
    StableHlo.TRef.binary (.of main_v174 : StableHlo.TRef sig ⟨S512x96, .f32⟩) (.of main_call13_cst : StableHlo.TRef sig ⟨S_, .f32⟩) (.of main_call13_v0 : StableHlo.TRef sig ⟨S96, .f32⟩) (fun x v => Host.reduceAdd x v reducesTo_S512x96_S96_d0 h_S_),
    StableHlo.TRef.unary (.of main_call13_v0 : StableHlo.TRef sig ⟨S96, .f32⟩) (.of main_call13_v1 : StableHlo.TRef sig ⟨S1x96, .f32⟩) (broadcastInDim S1x96 ![1] bcast_S96_S1x96_1),
    StableHlo.TRef.nullary (.of main_call13_cst_0 : StableHlo.TRef sig ⟨S_, .f32⟩) (constant S_ .f32 0x44000000#32),
    StableHlo.TRef.unary (.of main_call13_cst_0 : StableHlo.TRef sig ⟨S_, .f32⟩) (.of main_call13_v2 : StableHlo.TRef sig ⟨S1x96, .f32⟩) (broadcastInDim S1x96 ![] bcast_S_S1x96),
    StableHlo.TRef.binary (.of main_call13_v1 : StableHlo.TRef sig ⟨S1x96, .f32⟩) (.of main_call13_v2 : StableHlo.TRef sig ⟨S1x96, .f32⟩) (.of main_call13_v3 : StableHlo.TRef sig ⟨S1x96, .f32⟩) Host.divf,
    StableHlo.TRef.unary (.of main_call13_v3 : StableHlo.TRef sig ⟨S1x96, .f32⟩) (.of main_call13_v4 : StableHlo.TRef sig ⟨S512x96, .f32⟩) (broadcastInDim S512x96 ![0, 1] bcast_S1x96_S512x96_0_1),
    StableHlo.TRef.binary (.of main_v174 : StableHlo.TRef sig ⟨S512x96, .f32⟩) (.of main_call13_v4 : StableHlo.TRef sig ⟨S512x96, .f32⟩) (.of main_call13_v5 : StableHlo.TRef sig ⟨S512x96, .f32⟩) subf,
    StableHlo.TRef.binary (.of main_call13_v5 : StableHlo.TRef sig ⟨S512x96, .f32⟩) (.of main_call13_v5 : StableHlo.TRef sig ⟨S512x96, .f32⟩) (.of main_call13_v6 : StableHlo.TRef sig ⟨S512x96, .f32⟩) mulf,
    StableHlo.TRef.unary (.of main_c_30 : StableHlo.TRef sig ⟨S_, .i32⟩) (.of main_call13_v7 : StableHlo.TRef sig ⟨S_, .f32⟩) (sitofp .f32),
    StableHlo.TRef.nullary (.of main_call13_cst_1 : StableHlo.TRef sig ⟨S_, .f32⟩) (constant S_ .f32 0x44000000#32),
    StableHlo.TRef.binary (.of main_call13_cst_1 : StableHlo.TRef sig ⟨S_, .f32⟩) (.of main_call13_v7 : StableHlo.TRef sig ⟨S_, .f32⟩) (.of main_call13_v8 : StableHlo.TRef sig ⟨S_, .f32⟩) subf,
    StableHlo.TRef.nullary (.of main_call13_cst_2 : StableHlo.TRef sig ⟨S_, .f32⟩) (constant S_ .f32 0x00000000#32),
    StableHlo.TRef.binary (.of main_call13_v6 : StableHlo.TRef sig ⟨S512x96, .f32⟩) (.of main_call13_cst_2 : StableHlo.TRef sig ⟨S_, .f32⟩) (.of main_call13_v9 : StableHlo.TRef sig ⟨S96, .f32⟩) (fun x v => Host.reduceAdd x v reducesTo_S512x96_S96_d0 h_S_),
    StableHlo.TRef.unary (.of main_call13_v8 : StableHlo.TRef sig ⟨S_, .f32⟩) (.of main_call13_v10 : StableHlo.TRef sig ⟨S96, .f32⟩) (broadcastInDim S96 ![] bcast_S_S96),
    StableHlo.TRef.binary (.of main_call13_v9 : StableHlo.TRef sig ⟨S96, .f32⟩) (.of main_call13_v10 : StableHlo.TRef sig ⟨S96, .f32⟩) (.of main_call13_v11 : StableHlo.TRef sig ⟨S96, .f32⟩) Host.divf,
    StableHlo.TRef.nullary (.of main_call13_cst_3 : StableHlo.TRef sig ⟨S_, .f32⟩) (constant S_ .f32 0x00000000#32),
    StableHlo.TRef.binary (.of main_call13_v8 : StableHlo.TRef sig ⟨S_, .f32⟩) (.of main_call13_cst_3 : StableHlo.TRef sig ⟨S_, .f32⟩) (.of main_call13_v12 : StableHlo.TRef sig ⟨S_, .i1⟩) (cmpf .ogt),
    StableHlo.TRef.nullary (.of main_call13_cst_4 : StableHlo.TRef sig ⟨S_, .f32⟩) (constant S_ .f32 0x7FC00000#32),
    StableHlo.TRef.unary (.of main_call13_cst_4 : StableHlo.TRef sig ⟨S_, .f32⟩) (.of main_call13_call0_v0 : StableHlo.TRef sig ⟨S_, .f32⟩) id,
    StableHlo.TRef.unary (.of main_call13_call0_v0 : StableHlo.TRef sig ⟨S_, .f32⟩) (.of main_call13_call0_v1 : StableHlo.TRef sig ⟨S96, .f32⟩) (broadcastInDim S96 ![] bcast_S_S96),
    StableHlo.TRef.ternary (.of main_call13_v12 : StableHlo.TRef sig ⟨S_, .i1⟩) (.of main_call13_v11 : StableHlo.TRef sig ⟨S96, .f32⟩) (.of main_call13_call0_v1 : StableHlo.TRef sig ⟨S96, .f32⟩) (.of main_v178 : StableHlo.TRef sig ⟨S96, .f32⟩) (fun p a b => select (broadcastInDim S96 ![] bcast_S_S96 p) a b) ]
theorem ops3_5_sub : (ops3_5 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- The buffers those operations write, in order. -/
abbrev wr3_5 : List (Ref sig .tc) :=
  [main_call13_cst, main_call13_v0, main_call13_v1, main_call13_cst_0, main_call13_v2, main_call13_v3, main_call13_v4, main_call13_v5, main_call13_v6, main_call13_v7, main_call13_cst_1, main_call13_v8, main_call13_cst_2, main_call13_v9, main_call13_v10, main_call13_v11, main_call13_cst_3, main_call13_v12, main_call13_cst_4, main_call13_call0_v0, main_call13_call0_v1, main_v178]

/-- 20 operations of @main, in order. -/
abbrev ops3_6 : List (HloOp τ sig (Elt F)) :=
  [ StableHlo.unary main_v177 main_v179 (broadcastInDim S1x96 ![1] bcast_S96_S1x96_1 : (⟨S96, .f32⟩ : BufTy).Contents (Elt F) → (⟨S1x96, .f32⟩ : BufTy).Contents (Elt F)),
    StableHlo.unary main_v179 main_v180 (broadcastInDim S512x96 ![0, 1] bcast_S1x96_S512x96_0_1 : (⟨S1x96, .f32⟩ : BufTy).Contents (Elt F) → (⟨S512x96, .f32⟩ : BufTy).Contents (Elt F)),
    StableHlo.binary main_v174 main_v180 main_v181 (subf : (⟨S512x96, .f32⟩ : BufTy).Contents (Elt F) → (⟨S512x96, .f32⟩ : BufTy).Contents (Elt F) → (⟨S512x96, .f32⟩ : BufTy).Contents (Elt F)),
    StableHlo.nullary main_cst_31 (constant S_ .f32 0x3727C5AC#32),
    StableHlo.unary main_cst_31 main_v182 (broadcastInDim S96 ![] bcast_S_S96 : (⟨S_, .f32⟩ : BufTy).Contents (Elt F) → (⟨S96, .f32⟩ : BufTy).Contents (Elt F)),
    StableHlo.binary main_v178 main_v182 main_v183 (addf : (⟨S96, .f32⟩ : BufTy).Contents (Elt F) → (⟨S96, .f32⟩ : BufTy).Contents (Elt F) → (⟨S96, .f32⟩ : BufTy).Contents (Elt F)),
    StableHlo.unary main_v183 main_v184 (Host.rsqrt : (⟨S96, .f32⟩ : BufTy).Contents (Elt F) → (⟨S96, .f32⟩ : BufTy).Contents (Elt F)),
    StableHlo.unary main_v184 main_v185 (broadcastInDim S1x96 ![1] bcast_S96_S1x96_1 : (⟨S96, .f32⟩ : BufTy).Contents (Elt F) → (⟨S1x96, .f32⟩ : BufTy).Contents (Elt F)),
    StableHlo.unary main_v185 main_v186 (broadcastInDim S512x96 ![0, 1] bcast_S1x96_S512x96_0_1 : (⟨S1x96, .f32⟩ : BufTy).Contents (Elt F) → (⟨S512x96, .f32⟩ : BufTy).Contents (Elt F)),
    StableHlo.binary main_v181 main_v186 main_v187 (mulf : (⟨S512x96, .f32⟩ : BufTy).Contents (Elt F) → (⟨S512x96, .f32⟩ : BufTy).Contents (Elt F) → (⟨S512x96, .f32⟩ : BufTy).Contents (Elt F)),
    StableHlo.unary main_arg29 main_v188 (broadcastInDim S1x96 ![1] bcast_S96_S1x96_1 : (⟨S96, .f32⟩ : BufTy).Contents (Elt F) → (⟨S1x96, .f32⟩ : BufTy).Contents (Elt F)),
    StableHlo.unary main_v188 main_v189 (broadcastInDim S512x96 ![0, 1] bcast_S1x96_S512x96_0_1 : (⟨S1x96, .f32⟩ : BufTy).Contents (Elt F) → (⟨S512x96, .f32⟩ : BufTy).Contents (Elt F)),
    StableHlo.binary main_v187 main_v189 main_v190 (mulf : (⟨S512x96, .f32⟩ : BufTy).Contents (Elt F) → (⟨S512x96, .f32⟩ : BufTy).Contents (Elt F) → (⟨S512x96, .f32⟩ : BufTy).Contents (Elt F)),
    StableHlo.unary main_arg30 main_v191 (broadcastInDim S1x96 ![1] bcast_S96_S1x96_1 : (⟨S96, .f32⟩ : BufTy).Contents (Elt F) → (⟨S1x96, .f32⟩ : BufTy).Contents (Elt F)),
    StableHlo.unary main_v191 main_v192 (broadcastInDim S512x96 ![0, 1] bcast_S1x96_S512x96_0_1 : (⟨S1x96, .f32⟩ : BufTy).Contents (Elt F) → (⟨S512x96, .f32⟩ : BufTy).Contents (Elt F)),
    StableHlo.binary main_v190 main_v192 main_v193 (addf : (⟨S512x96, .f32⟩ : BufTy).Contents (Elt F) → (⟨S512x96, .f32⟩ : BufTy).Contents (Elt F) → (⟨S512x96, .f32⟩ : BufTy).Contents (Elt F)),
    StableHlo.binary main_v193 main_arg31 main_v194 ((fun l r => Host.dotGeneral dot_S512x96_S96x10_S512x10_1_0_0_1_n_n none l r) : (⟨S512x96, .f32⟩ : BufTy).Contents (Elt F) → (⟨S96x10, .f32⟩ : BufTy).Contents (Elt F) → (⟨S512x10, .f32⟩ : BufTy).Contents (Elt F)),
    StableHlo.unary main_arg32 main_v195 (broadcastInDim S1x10 ![1] bcast_S10_S1x10_1 : (⟨S10, .f32⟩ : BufTy).Contents (Elt F) → (⟨S1x10, .f32⟩ : BufTy).Contents (Elt F)),
    StableHlo.unary main_v195 main_v196 (broadcastInDim S512x10 ![0, 1] bcast_S1x10_S512x10_0_1 : (⟨S1x10, .f32⟩ : BufTy).Contents (Elt F) → (⟨S512x10, .f32⟩ : BufTy).Contents (Elt F)),
    StableHlo.binary main_v194 main_v196 main_v197 (addf : (⟨S512x10, .f32⟩ : BufTy).Contents (Elt F) → (⟨S512x10, .f32⟩ : BufTy).Contents (Elt F) → (⟨S512x10, .f32⟩ : BufTy).Contents (Elt F)) ]
theorem ops3_6_sub : (ops3_6 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩
/-- The buffers those operations write, in order. -/
abbrev wr3_6 : List (Ref sig .tc) :=
  [main_v179, main_v180, main_v181, main_cst_31, main_v182, main_v183, main_v184, main_v185, main_v186, main_v187, main_v188, main_v189, main_v190, main_v191, main_v192, main_v193, main_v194, main_v195, main_v196, main_v197]

/-- 15 operations of the call @log_softmax (record main_call14), in order. -/
abbrev ops3_7 : List (HloOp τ sig (Elt F)) :=
  [ StableHlo.TRef.nullary (.of main_call14_cst : StableHlo.TRef sig ⟨S_, .f32⟩) (constant S_ .f32 0xFF800000#32),
    StableHlo.TRef.binary (.of main_v197 : StableHlo.TRef sig ⟨S512x10, .f32⟩) (.of main_call14_cst : StableHlo.TRef sig ⟨S_, .f32⟩) (.of main_call14_v0 : StableHlo.TRef sig ⟨S512, .f32⟩) (fun x v => Host.reduce FloatOps.maximumf x v reducesTo_S512x10_S512_d1 h_S_),
    StableHlo.TRef.nullary (.of main_call14_cst_0 : StableHlo.TRef sig ⟨S_, .f32⟩) (constant S_ .f32 0xFF800000#32),
    StableHlo.TRef.unary (.of main_call14_cst_0 : StableHlo.TRef sig ⟨S_, .f32⟩) (.of main_call14_v1 : StableHlo.TRef sig ⟨S512, .f32⟩) (broadcastInDim S512 ![] bcast_S_S512),
    StableHlo.TRef.binary (.of main_call14_v1 : StableHlo.TRef sig ⟨S512, .f32⟩) (.of main_call14_v0 : StableHlo.TRef sig ⟨S512, .f32⟩) (.of main_call14_v2 : StableHlo.TRef sig ⟨S512, .f32⟩) maximumf,
    StableHlo.TRef.unary (.of main_call14_v2 : StableHlo.TRef sig ⟨S512, .f32⟩) (.of main_call14_v3 : StableHlo.TRef sig ⟨S512x1, .f32⟩) (broadcastInDim S512x1 ![0] bcast_S512_S512x1_0),
    StableHlo.TRef.unary (.of main_call14_v3 : StableHlo.TRef sig ⟨S512x1, .f32⟩) (.of main_call14_v4 : StableHlo.TRef sig ⟨S512x10, .f32⟩) (broadcastInDim S512x10 ![0, 1] bcast_S512x1_S512x10_0_1),
    StableHlo.TRef.binary (.of main_v197 : StableHlo.TRef sig ⟨S512x10, .f32⟩) (.of main_call14_v4 : StableHlo.TRef sig ⟨S512x10, .f32⟩) (.of main_call14_v5 : StableHlo.TRef sig ⟨S512x10, .f32⟩) subf,
    StableHlo.TRef.unary (.of main_call14_v5 : StableHlo.TRef sig ⟨S512x10, .f32⟩) (.of main_call14_v6 : StableHlo.TRef sig ⟨S512x10, .f32⟩) Host.exp,
    StableHlo.TRef.nullary (.of main_call14_cst_1 : StableHlo.TRef sig ⟨S_, .f32⟩) (constant S_ .f32 0x00000000#32),
    StableHlo.TRef.binary (.of main_call14_v6 : StableHlo.TRef sig ⟨S512x10, .f32⟩) (.of main_call14_cst_1 : StableHlo.TRef sig ⟨S_, .f32⟩) (.of main_call14_v7 : StableHlo.TRef sig ⟨S512, .f32⟩) (fun x v => Host.reduceAdd x v reducesTo_S512x10_S512_d1 h_S_),
    StableHlo.TRef.unary (.of main_call14_v7 : StableHlo.TRef sig ⟨S512, .f32⟩) (.of main_call14_v8 : StableHlo.TRef sig ⟨S512x1, .f32⟩) (broadcastInDim S512x1 ![0] bcast_S512_S512x1_0),
    StableHlo.TRef.unary (.of main_call14_v8 : StableHlo.TRef sig ⟨S512x1, .f32⟩) (.of main_call14_v9 : StableHlo.TRef sig ⟨S512x1, .f32⟩) Host.log,
    StableHlo.TRef.unary (.of main_call14_v9 : StableHlo.TRef sig ⟨S512x1, .f32⟩) (.of main_call14_v10 : StableHlo.TRef sig ⟨S512x10, .f32⟩) (broadcastInDim S512x10 ![0, 1] bcast_S512x1_S512x10_0_1),
    StableHlo.TRef.binary (.of main_call14_v5 : StableHlo.TRef sig ⟨S512x10, .f32⟩) (.of main_call14_v10 : StableHlo.TRef sig ⟨S512x10, .f32⟩) (.of main_v198 : StableHlo.TRef sig ⟨S512x10, .f32⟩) subf ]
theorem ops3_7_sub : (ops3_7 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩
/-- The buffers those operations write, in order. -/
abbrev wr3_7 : List (Ref sig .tc) :=
  [main_call14_cst, main_call14_v0, main_call14_cst_0, main_call14_v1, main_call14_v2, main_call14_v3, main_call14_v4, main_call14_v5, main_call14_v6, main_call14_cst_1, main_call14_v7, main_call14_v8, main_call14_v9, main_call14_v10, main_v198]

/-- Window 3: the lists one after the other. -/
abbrev ops3 : List (HloOp τ sig (Elt F)) :=
  ops3_0 ++ (ops3_1 ++ (ops3_2 ++ (ops3_3 ++ (ops3_4 ++ (ops3_5 ++ (ops3_6 ++ (ops3_7)))))))

/-- The window's statements are its lists run in order. -/
theorem part3_chain (c : Dev nD) : main_part3 (F := F) c = (Pipeline.chainK
  [ StableHlo.seq ops3_0,
    StableHlo.seq ops3_1,
    StableHlo.seq ops3_2,
    StableHlo.seq ops3_3,
    StableHlo.seq ops3_4,
    StableHlo.seq ops3_5,
    StableHlo.seq ops3_6 ]
  (StableHlo.seq ops3_7) : Prog (TpuEff nD τ sig (Elt F) (Pipeline.Sig Λ₀ (Fin 0) fun p => (pcfgs (F := F) p).Adm) .tc) PUnit) := by
  chain_rfl

end Cert.ReferenceIdeal.ROps

end
-- ==== Proof.RRun.lean ====
/-
  The reference program's run, read back.

  The reference program's @main is a straight line of host operations: its four windows, each the lists of its
  operations run one after the other (a called function's operations standing where the call stands).  Hence, on
  every device, from any memory with zero counters, every weakly fair execution of @main terminates, and in every
  final state each TensorCore buffer holds what the fold of the operations' results over the launch contents leaves
  there.  Beside it: no operation allocates a buffer afresh, every operation touches TensorCore buffers only, and a
  buffer outside the list of written buffers (every argument's, in particular) ends as it was launched.
-/
import proofs.«132872_j8993661518249_1_alg».proof.Proof.ROps0
import proofs.«132872_j8993661518249_1_alg».proof.Proof.ROps1
import proofs.«132872_j8993661518249_1_alg».proof.Proof.ROps2
import proofs.«132872_j8993661518249_1_alg».proof.Proof.ROps3
import Idealize.ShloMosaic.Lib.Pipeline.Frame

set_option maxRecDepth 16384

noncomputable section

namespace Cert.ReferenceIdeal.RRun

open Cert.ReferenceIdeal Cert.ReferenceIdeal.Gen Cert.ReferenceIdeal.ROps Idealize.ShloMosaic Idealize.ShloMosaic.TcCoe Idealize.SL.Sem
  Idealize.ShloMosaic.StableHlo

variable {F : FTy → Type} [FloatOps F]

/-! ## Lists run one after the other -/

/-- A property of every element of two lists is one of every element of their concatenation. -/
theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

/-- Operations writing inside one list of buffers, then operations writing inside another: together they write
    inside the two lists joined. -/
theorem writes_append {l₁ l₂ : List (HloOp τ sig (Elt F))} {W₁ W₂ : List (Ref sig .tc)}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset := by
  refine forall_append ?_ ?_
  · refine List.forall_iff_forall_mem.2 fun op hop b hb => ?_
    have := List.forall_iff_forall_mem.1 h₁ op hop hb
    rw [List.mem_toFinset, List.map_append, List.mem_append]
    exact Or.inl (List.mem_toFinset.1 this)
  · refine List.forall_iff_forall_mem.2 fun op hop b hb => ?_
    have := List.forall_iff_forall_mem.1 h₂ op hop hb
    rw [List.mem_toFinset, List.map_append, List.mem_append]
    exact Or.inr (List.mem_toFinset.1 this)

/-- Every operation of a literal list determines its results: none allocates a buffer afresh. -/
macro "fresh_list" : tactic => `(tactic| repeat' (first | exact rfl | refine ⟨rfl, ?_⟩))

/-- Every operation of a literal list writes one buffer, found in the list of written buffers. -/
macro "writes_list" : tactic =>
  `(tactic| (simp only [List.Forall, nullary_writes, unary_writes, binary_writes, ternary_writes, reshape_writes,
               Finset.singleton_subset_iff, List.mem_toFinset]
             repeat' apply And.intro
             all_goals exact List.mem_map.2 ⟨_, by decide, rfl⟩))

theorem ops0_0_fresh : (ops0_0 : List (HloOp τ sig (Elt F))).Forall fun op => op.fresh = ∅ := by fresh_list
theorem ops0_0_writes : (ops0_0 : List (HloOp τ sig (Elt F))).Forall fun op => op.writes ⊆ ((wr0_0).map (Proc.devRef (τ := τ) .tc)).toFinset := by writes_list
theorem ops0_1_fresh : (ops0_1 : List (HloOp τ sig (Elt F))).Forall fun op => op.fresh = ∅ := by fresh_list
theorem ops0_1_writes : (ops0_1 : List (HloOp τ sig (Elt F))).Forall fun op => op.writes ⊆ ((wr0_1).map (Proc.devRef (τ := τ) .tc)).toFinset := by writes_list
theorem ops0_2_fresh : (ops0_2 : List (HloOp τ sig (Elt F))).Forall fun op => op.fresh = ∅ := by fresh_list
theorem ops0_2_writes : (ops0_2 : List (HloOp τ sig (Elt F))).Forall fun op => op.writes ⊆ ((wr0_2).map (Proc.devRef (τ := τ) .tc)).toFinset := by writes_list
theorem ops0_3_fresh : (ops0_3 : List (HloOp τ sig (Elt F))).Forall fun op => op.fresh = ∅ := by fresh_list
theorem ops0_3_writes : (ops0_3 : List (HloOp τ sig (Elt F))).Forall fun op => op.writes ⊆ ((wr0_3).map (Proc.devRef (τ := τ) .tc)).toFinset := by writes_list
theorem ops0_4_fresh : (ops0_4 : List (HloOp τ sig (Elt F))).Forall fun op => op.fresh = ∅ := by fresh_list
theorem ops0_4_writes : (ops0_4 : List (HloOp τ sig (Elt F))).Forall fun op => op.writes ⊆ ((wr0_4).map (Proc.devRef (τ := τ) .tc)).toFinset := by writes_list
theorem ops0_5_fresh : (ops0_5 : List (HloOp τ sig (Elt F))).Forall fun op => op.fresh = ∅ := by fresh_list
theorem ops0_5_writes : (ops0_5 : List (HloOp τ sig (Elt F))).Forall fun op => op.writes ⊆ ((wr0_5).map (Proc.devRef (τ := τ) .tc)).toFinset := by writes_list
theorem ops0_6_fresh : (ops0_6 : List (HloOp τ sig (Elt F))).Forall fun op => op.fresh = ∅ := by fresh_list
theorem ops0_6_writes : (ops0_6 : List (HloOp τ sig (Elt F))).Forall fun op => op.writes ⊆ ((wr0_6).map (Proc.devRef (τ := τ) .tc)).toFinset := by writes_list
theorem ops1_0_fresh : (ops1_0 : List (HloOp τ sig (Elt F))).Forall fun op => op.fresh = ∅ := by fresh_list
theorem ops1_0_writes : (ops1_0 : List (HloOp τ sig (Elt F))).Forall fun op => op.writes ⊆ ((wr1_0).map (Proc.devRef (τ := τ) .tc)).toFinset := by writes_list
theorem ops1_1_fresh : (ops1_1 : List (HloOp τ sig (Elt F))).Forall fun op => op.fresh = ∅ := by fresh_list
theorem ops1_1_writes : (ops1_1 : List (HloOp τ sig (Elt F))).Forall fun op => op.writes ⊆ ((wr1_1).map (Proc.devRef (τ := τ) .tc)).toFinset := by writes_list
theorem ops1_2_fresh : (ops1_2 : List (HloOp τ sig (Elt F))).Forall fun op => op.fresh = ∅ := by fresh_list
theorem ops1_2_writes : (ops1_2 : List (HloOp τ sig (Elt F))).Forall fun op => op.writes ⊆ ((wr1_2).map (Proc.devRef (τ := τ) .tc)).toFinset := by writes_list
theorem ops1_3_fresh : (ops1_3 : List (HloOp τ sig (Elt F))).Forall fun op => op.fresh = ∅ := by fresh_list
theorem ops1_3_writes : (ops1_3 : List (HloOp τ sig (Elt F))).Forall fun op => op.writes ⊆ ((wr1_3).map (Proc.devRef (τ := τ) .tc)).toFinset := by writes_list
theorem ops1_4_fresh : (ops1_4 : List (HloOp τ sig (Elt F))).Forall fun op => op.fresh = ∅ := by fresh_list
theorem ops1_4_writes : (ops1_4 : List (HloOp τ sig (Elt F))).Forall fun op => op.writes ⊆ ((wr1_4).map (Proc.devRef (τ := τ) .tc)).toFinset := by writes_list
theorem ops1_5_fresh : (ops1_5 : List (HloOp τ sig (Elt F))).Forall fun op => op.fresh = ∅ := by fresh_list
theorem ops1_5_writes : (ops1_5 : List (HloOp τ sig (Elt F))).Forall fun op => op.writes ⊆ ((wr1_5).map (Proc.devRef (τ := τ) .tc)).toFinset := by writes_list
theorem ops1_6_fresh : (ops1_6 : List (HloOp τ sig (Elt F))).Forall fun op => op.fresh = ∅ := by fresh_list
theorem ops1_6_writes : (ops1_6 : List (HloOp τ sig (Elt F))).Forall fun op => op.writes ⊆ ((wr1_6).map (Proc.devRef (τ := τ) .tc)).toFinset := by writes_list
theorem ops2_0_fresh : (ops2_0 : List (HloOp τ sig (Elt F))).Forall fun op => op.fresh = ∅ := by fresh_list
theorem ops2_0_writes : (ops2_0 : List (HloOp τ sig (Elt F))).Forall fun op => op.writes ⊆ ((wr2_0).map (Proc.devRef (τ := τ) .tc)).toFinset := by writes_list
theorem ops2_1_fresh : (ops2_1 : List (HloOp τ sig (Elt F))).Forall fun op => op.fresh = ∅ := by fresh_list
theorem ops2_1_writes : (ops2_1 : List (HloOp τ sig (Elt F))).Forall fun op => op.writes ⊆ ((wr2_1).map (Proc.devRef (τ := τ) .tc)).toFinset := by writes_list
theorem ops2_2_fresh : (ops2_2 : List (HloOp τ sig (Elt F))).Forall fun op => op.fresh = ∅ := by fresh_list
theorem ops2_2_writes : (ops2_2 : List (HloOp τ sig (Elt F))).Forall fun op => op.writes ⊆ ((wr2_2).map (Proc.devRef (τ := τ) .tc)).toFinset := by writes_list
theorem ops2_3_fresh : (ops2_3 : List (HloOp τ sig (Elt F))).Forall fun op => op.fresh = ∅ := by fresh_list
theorem ops2_3_writes : (ops2_3 : List (HloOp τ sig (Elt F))).Forall fun op => op.writes ⊆ ((wr2_3).map (Proc.devRef (τ := τ) .tc)).toFinset := by writes_list
theorem ops2_4_fresh : (ops2_4 : List (HloOp τ sig (Elt F))).Forall fun op => op.fresh = ∅ := by fresh_list
theorem ops2_4_writes : (ops2_4 : List (HloOp τ sig (Elt F))).Forall fun op => op.writes ⊆ ((wr2_4).map (Proc.devRef (τ := τ) .tc)).toFinset := by writes_list
theorem ops2_5_fresh : (ops2_5 : List (HloOp τ sig (Elt F))).Forall fun op => op.fresh = ∅ := by fresh_list
theorem ops2_5_writes : (ops2_5 : List (HloOp τ sig (Elt F))).Forall fun op => op.writes ⊆ ((wr2_5).map (Proc.devRef (τ := τ) .tc)).toFinset := by writes_list
theorem ops2_6_fresh : (ops2_6 : List (HloOp τ sig (Elt F))).Forall fun op => op.fresh = ∅ := by fresh_list
theorem ops2_6_writes : (ops2_6 : List (HloOp τ sig (Elt F))).Forall fun op => op.writes ⊆ ((wr2_6).map (Proc.devRef (τ := τ) .tc)).toFinset := by writes_list
theorem ops2_7_fresh : (ops2_7 : List (HloOp τ sig (Elt F))).Forall fun op => op.fresh = ∅ := by fresh_list
theorem ops2_7_writes : (ops2_7 : List (HloOp τ sig (Elt F))).Forall fun op => op.writes ⊆ ((wr2_7).map (Proc.devRef (τ := τ) .tc)).toFinset := by writes_list
theorem ops2_8_fresh : (ops2_8 : List (HloOp τ sig (Elt F))).Forall fun op => op.fresh = ∅ := by fresh_list
theorem ops2_8_writes : (ops2_8 : List (HloOp τ sig (Elt F))).Forall fun op => op.writes ⊆ ((wr2_8).map (Proc.devRef (τ := τ) .tc)).toFinset := by writes_list
theorem ops2_9_fresh : (ops2_9 : List (HloOp τ sig (Elt F))).Forall fun op => op.fresh = ∅ := by fresh_list
theorem ops2_9_writes : (ops2_9 : List (HloOp τ sig (Elt F))).Forall fun op => op.writes ⊆ ((wr2_9).map (Proc.devRef (τ := τ) .tc)).toFinset := by writes_list
theorem ops3_0_fresh : (ops3_0 : List (HloOp τ sig (Elt F))).Forall fun op => op.fresh = ∅ := by fresh_list
theorem ops3_0_writes : (ops3_0 : List (HloOp τ sig (Elt F))).Forall fun op => op.writes ⊆ ((wr3_0).map (Proc.devRef (τ := τ) .tc)).toFinset := by writes_list
theorem ops3_1_fresh : (ops3_1 : List (HloOp τ sig (Elt F))).Forall fun op => op.fresh = ∅ := by fresh_list
theorem ops3_1_writes : (ops3_1 : List (HloOp τ sig (Elt F))).Forall fun op => op.writes ⊆ ((wr3_1).map (Proc.devRef (τ := τ) .tc)).toFinset := by writes_list
theorem ops3_2_fresh : (ops3_2 : List (HloOp τ sig (Elt F))).Forall fun op => op.fresh = ∅ := by fresh_list
theorem ops3_2_writes : (ops3_2 : List (HloOp τ sig (Elt F))).Forall fun op => op.writes ⊆ ((wr3_2).map (Proc.devRef (τ := τ) .tc)).toFinset := by writes_list
theorem ops3_3_fresh : (ops3_3 : List (HloOp τ sig (Elt F))).Forall fun op => op.fresh = ∅ := by fresh_list
theorem ops3_3_writes : (ops3_3 : List (HloOp τ sig (Elt F))).Forall fun op => op.writes ⊆ ((wr3_3).map (Proc.devRef (τ := τ) .tc)).toFinset := by writes_list
theorem ops3_4_fresh : (ops3_4 : List (HloOp τ sig (Elt F))).Forall fun op => op.fresh = ∅ := by fresh_list
theorem ops3_4_writes : (ops3_4 : List (HloOp τ sig (Elt F))).Forall fun op => op.writes ⊆ ((wr3_4).map (Proc.devRef (τ := τ) .tc)).toFinset := by writes_list
theorem ops3_5_fresh : (ops3_5 : List (HloOp τ sig (Elt F))).Forall fun op => op.fresh = ∅ := by fresh_list
theorem ops3_5_writes : (ops3_5 : List (HloOp τ sig (Elt F))).Forall fun op => op.writes ⊆ ((wr3_5).map (Proc.devRef (τ := τ) .tc)).toFinset := by writes_list
theorem ops3_6_fresh : (ops3_6 : List (HloOp τ sig (Elt F))).Forall fun op => op.fresh = ∅ := by fresh_list
theorem ops3_6_writes : (ops3_6 : List (HloOp τ sig (Elt F))).Forall fun op => op.writes ⊆ ((wr3_6).map (Proc.devRef (τ := τ) .tc)).toFinset := by writes_list
theorem ops3_7_fresh : (ops3_7 : List (HloOp τ sig (Elt F))).Forall fun op => op.fresh = ∅ := by fresh_list
theorem ops3_7_writes : (ops3_7 : List (HloOp τ sig (Elt F))).Forall fun op => op.writes ⊆ ((wr3_7).map (Proc.devRef (τ := τ) .tc)).toFinset := by writes_list

/-! ## The windows -/

/-- Window 0 of @main is the line of its operations. -/
theorem part0_eq (c : Dev nD) : main_part0 (F := F) c = seq ops0 := by
  rw [part0_chain]
  simp only [ops0, seq_append, Pipeline.chainK]

theorem ops0_sub : (ops0 : List (HloOp τ sig (Elt F))).Forall fun op => op.bufs ⊆ tcRefs τ sig :=
  forall_append ops0_0_sub (forall_append ops0_1_sub (forall_append ops0_2_sub (forall_append ops0_3_sub (forall_append ops0_4_sub (forall_append ops0_5_sub (ops0_6_sub))))))
theorem ops0_fresh : (ops0 : List (HloOp τ sig (Elt F))).Forall fun op => op.fresh = ∅ :=
  forall_append ops0_0_fresh (forall_append ops0_1_fresh (forall_append ops0_2_fresh (forall_append ops0_3_fresh (forall_append ops0_4_fresh (forall_append ops0_5_fresh (ops0_6_fresh))))))
/-- The buffers window 0 writes. -/
abbrev wr0 : List (Ref sig .tc) := wr0_0 ++ (wr0_1 ++ (wr0_2 ++ (wr0_3 ++ (wr0_4 ++ (wr0_5 ++ (wr0_6))))))
theorem ops0_writes : (ops0 : List (HloOp τ sig (Elt F))).Forall fun op => op.writes ⊆ ((wr0).map (Proc.devRef (τ := τ) .tc)).toFinset :=
  writes_append ops0_0_writes (writes_append ops0_1_writes (writes_append ops0_2_writes (writes_append ops0_3_writes (writes_append ops0_4_writes (writes_append ops0_5_writes (ops0_6_writes))))))

/-- Window 1 of @main is the line of its operations. -/
theorem part1_eq (c : Dev nD) : main_part1 (F := F) c = seq ops1 := by
  rw [part1_chain]
  simp only [ops1, seq_append, Pipeline.chainK]

theorem ops1_sub : (ops1 : List (HloOp τ sig (Elt F))).Forall fun op => op.bufs ⊆ tcRefs τ sig :=
  forall_append ops1_0_sub (forall_append ops1_1_sub (forall_append ops1_2_sub (forall_append ops1_3_sub (forall_append ops1_4_sub (forall_append ops1_5_sub (ops1_6_sub))))))
theorem ops1_fresh : (ops1 : List (HloOp τ sig (Elt F))).Forall fun op => op.fresh = ∅ :=
  forall_append ops1_0_fresh (forall_append ops1_1_fresh (forall_append ops1_2_fresh (forall_append ops1_3_fresh (forall_append ops1_4_fresh (forall_append ops1_5_fresh (ops1_6_fresh))))))
/-- The buffers window 1 writes. -/
abbrev wr1 : List (Ref sig .tc) := wr1_0 ++ (wr1_1 ++ (wr1_2 ++ (wr1_3 ++ (wr1_4 ++ (wr1_5 ++ (wr1_6))))))
theorem ops1_writes : (ops1 : List (HloOp τ sig (Elt F))).Forall fun op => op.writes ⊆ ((wr1).map (Proc.devRef (τ := τ) .tc)).toFinset :=
  writes_append ops1_0_writes (writes_append ops1_1_writes (writes_append ops1_2_writes (writes_append ops1_3_writes (writes_append ops1_4_writes (writes_append ops1_5_writes (ops1_6_writes))))))

/-- Window 2 of @main is the line of its operations. -/
theorem part2_eq (c : Dev nD) : main_part2 (F := F) c = seq ops2 := by
  rw [part2_chain]
  simp only [ops2, seq_append, Pipeline.chainK]

theorem ops2_sub : (ops2 : List (HloOp τ sig (Elt F))).Forall fun op => op.bufs ⊆ tcRefs τ sig :=
  forall_append ops2_0_sub (forall_append ops2_1_sub (forall_append ops2_2_sub (forall_append ops2_3_sub (forall_append ops2_4_sub (forall_append ops2_5_sub (forall_append ops2_6_sub (forall_append ops2_7_sub (forall_append ops2_8_sub (ops2_9_sub)))))))))
theorem ops2_fresh : (ops2 : List (HloOp τ sig (Elt F))).Forall fun op => op.fresh = ∅ :=
  forall_append ops2_0_fresh (forall_append ops2_1_fresh (forall_append ops2_2_fresh (forall_append ops2_3_fresh (forall_append ops2_4_fresh (forall_append ops2_5_fresh (forall_append ops2_6_fresh (forall_append ops2_7_fresh (forall_append ops2_8_fresh (ops2_9_fresh)))))))))
/-- The buffers window 2 writes. -/
abbrev wr2 : List (Ref sig .tc) := wr2_0 ++ (wr2_1 ++ (wr2_2 ++ (wr2_3 ++ (wr2_4 ++ (wr2_5 ++ (wr2_6 ++ (wr2_7 ++ (wr2_8 ++ (wr2_9)))))))))
theorem ops2_writes : (ops2 : List (HloOp τ sig (Elt F))).Forall fun op => op.writes ⊆ ((wr2).map (Proc.devRef (τ := τ) .tc)).toFinset :=
  writes_append ops2_0_writes (writes_append ops2_1_writes (writes_append ops2_2_writes (writes_append ops2_3_writes (writes_append ops2_4_writes (writes_append ops2_5_writes (writes_append ops2_6_writes (writes_append ops2_7_writes (writes_append ops2_8_writes (ops2_9_writes)))))))))

/-- Window 3 of @main is the line of its operations. -/
theorem part3_eq (c : Dev nD) : main_part3 (F := F) c = seq ops3 := by
  rw [part3_chain]
  simp only [ops3, seq_append, Pipeline.chainK]

theorem ops3_sub : (ops3 : List (HloOp τ sig (Elt F))).Forall fun op => op.bufs ⊆ tcRefs τ sig :=
  forall_append ops3_0_sub (forall_append ops3_1_sub (forall_append ops3_2_sub (forall_append ops3_3_sub (forall_append ops3_4_sub (forall_append ops3_5_sub (forall_append ops3_6_sub (ops3_7_sub)))))))
theorem ops3_fresh : (ops3 : List (HloOp τ sig (Elt F))).Forall fun op => op.fresh = ∅ :=
  forall_append ops3_0_fresh (forall_append ops3_1_fresh (forall_append ops3_2_fresh (forall_append ops3_3_fresh (forall_append ops3_4_fresh (forall_append ops3_5_fresh (forall_append ops3_6_fresh (ops3_7_fresh)))))))
/-- The buffers window 3 writes. -/
abbrev wr3 : List (Ref sig .tc) := wr3_0 ++ (wr3_1 ++ (wr3_2 ++ (wr3_3 ++ (wr3_4 ++ (wr3_5 ++ (wr3_6 ++ (wr3_7)))))))
theorem ops3_writes : (ops3 : List (HloOp τ sig (Elt F))).Forall fun op => op.writes ⊆ ((wr3).map (Proc.devRef (τ := τ) .tc)).toFinset :=
  writes_append ops3_0_writes (writes_append ops3_1_writes (writes_append ops3_2_writes (writes_append ops3_3_writes (writes_append ops3_4_writes (writes_append ops3_5_writes (writes_append ops3_6_writes (ops3_7_writes)))))))

/-! ## @main -/

/-- @main's operations, in order: the four windows'. -/
abbrev ops : List (HloOp τ sig (Elt F)) := ops0 ++ (ops1 ++ (ops2 ++ ops3))

/-- Every buffer @main writes. -/
abbrev wr : List (Ref sig .tc) := wr0 ++ (wr1 ++ (wr2 ++ wr3))

/-- @main is the line of its operations. -/
theorem main_eq (c : Dev nD) : main (F := F) c = seq ops := by
  unfold main
  simp only [part0_eq, part1_eq, part2_eq, part3_eq, ops, seq_append]

theorem ops_sub : (ops : List (HloOp τ sig (Elt F))).Forall fun op => op.bufs ⊆ tcRefs τ sig :=
  forall_append ops0_sub (forall_append ops1_sub (forall_append ops2_sub ops3_sub))

theorem ops_fresh : (ops : List (HloOp τ sig (Elt F))).Forall fun op => op.fresh = ∅ :=
  forall_append ops0_fresh (forall_append ops1_fresh (forall_append ops2_fresh ops3_fresh))

theorem ops_writes : (ops : List (HloOp τ sig (Elt F))).Forall fun op => op.writes ⊆ ((wr).map (Proc.devRef (τ := τ) .tc)).toFinset :=
  writes_append ops0_writes (writes_append ops1_writes (writes_append ops2_writes ops3_writes))

/-- A buffer @main does not write holds after the operations what it held before. -/
theorem after_ops_of_not_mem (V : Valuation τ sig (Elt F)) {r : Ref sig .tc} (hr : r ∉ wr) :
    after ops V (Proc.devRef .tc r) = V (Proc.devRef .tc r) :=
  after_of_writes_sub ops V ops_writes hr

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates, and every final state has each TensorCore buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.1 ops_fresh)

end Cert.ReferenceIdeal.RRun

end
-- ==== Proof.RSteps.lean ====
/-
  The reference program's stretches, each as a function on buffer contents.

  The program's operations are run stretch by stretch.  For each stretch: the buffers it computes that a later
  stretch reads hold a stage function of the contents, before the stretch, of the buffers it reads; every buffer it
  does not write holds what it held.  The fold of all the operations is the stretches' functions composed.
-/
import proofs.«132872_j8993661518249_1_alg».proof.Proof.RRun
import proofs.«132872_j8993661518249_1_alg».proof.Proof.RStages
import proofs.«132872_j8993661518249_1_alg».proof.Proof.ROut

set_option maxRecDepth 16384

noncomputable section

namespace Cert.ReferenceIdeal.RValue

open Cert.ReferenceIdeal Cert.ReferenceIdeal.Gen Cert.ReferenceIdeal.ROps Cert.ReferenceIdeal.RRun Cert.RStages
  Idealize.ShloMosaic Idealize.ShloMosaic.TcCoe Idealize.SL.Sem Idealize.ShloMosaic.StableHlo

/-- Buffer contents at exact arithmetic. -/
abbrev Val : Type := Valuation τ sig (Elt Ideal)

/-! ## The stretches as functions on buffer contents -/

/-- The contents after the stretch `ops0_0`. -/
def st0_0 (W : Val) : Val := after (ops0_0 (F := Ideal)) W
/-- The contents after the stretch `ops0_1`. -/
def st0_1 (W : Val) : Val := after (ops0_1 (F := Ideal)) W
/-- The contents after the stretch `ops0_2`. -/
def st0_2 (W : Val) : Val := after (ops0_2 (F := Ideal)) W
/-- The contents after the stretch `ops0_3`. -/
def st0_3 (W : Val) : Val := after (ops0_3 (F := Ideal)) W
/-- The contents after the stretch `ops0_4`. -/
def st0_4 (W : Val) : Val := after (ops0_4 (F := Ideal)) W
/-- The contents after the stretch `ops0_5`. -/
def st0_5 (W : Val) : Val := after (ops0_5 (F := Ideal)) W
/-- The contents after the stretch `ops0_6`. -/
def st0_6 (W : Val) : Val := after (ops0_6 (F := Ideal)) W
/-- The contents after the stretch `ops1_0`. -/
def st1_0 (W : Val) : Val := after (ops1_0 (F := Ideal)) W
/-- The contents after the stretch `ops1_1`. -/
def st1_1 (W : Val) : Val := after (ops1_1 (F := Ideal)) W
/-- The contents after the stretch `ops1_2`. -/
def st1_2 (W : Val) : Val := after (ops1_2 (F := Ideal)) W
/-- The contents after the stretch `ops1_3`. -/
def st1_3 (W : Val) : Val := after (ops1_3 (F := Ideal)) W
/-- The contents after the stretch `ops1_4`. -/
def st1_4 (W : Val) : Val := after (ops1_4 (F := Ideal)) W
/-- The contents after the stretch `ops1_5`. -/
def st1_5 (W : Val) : Val := after (ops1_5 (F := Ideal)) W
/-- The contents after the stretch `ops1_6`. -/
def st1_6 (W : Val) : Val := after (ops1_6 (F := Ideal)) W
/-- The contents after the stretch `ops2_0`. -/
def st2_0 (W : Val) : Val := after (ops2_0 (F := Ideal)) W
/-- The contents after the stretch `ops2_1`. -/
def st2_1 (W : Val) : Val := after (ops2_1 (F := Ideal)) W
/-- The contents after the stretch `ops2_2`. -/
def st2_2 (W : Val) : Val := after (ops2_2 (F := Ideal)) W
/-- The contents after the stretch `ops2_3`. -/
def st2_3 (W : Val) : Val := after (ops2_3 (F := Ideal)) W
/-- The contents after the stretch `ops2_4`. -/
def st2_4 (W : Val) : Val := after (ops2_4 (F := Ideal)) W
/-- The contents after the stretch `ops2_5`. -/
def st2_5 (W : Val) : Val := after (ops2_5 (F := Ideal)) W
/-- The contents after the stretch `ops2_6`. -/
def st2_6 (W : Val) : Val := after (ops2_6 (F := Ideal)) W
/-- The contents after the stretch `ops2_7`. -/
def st2_7 (W : Val) : Val := after (ops2_7 (F := Ideal)) W
/-- The contents after the stretch `ops2_8`. -/
def st2_8 (W : Val) : Val := after (ops2_8 (F := Ideal)) W
/-- The contents after the stretch `ops2_9`. -/
def st2_9 (W : Val) : Val := after (ops2_9 (F := Ideal)) W
/-- The contents after the stretch `ops3_0`. -/
def st3_0 (W : Val) : Val := after (ops3_0 (F := Ideal)) W
/-- The contents after the stretch `ops3_1`. -/
def st3_1 (W : Val) : Val := after (ops3_1 (F := Ideal)) W
/-- The contents after the stretch `ops3_2`. -/
def st3_2 (W : Val) : Val := after (ops3_2 (F := Ideal)) W
/-- The contents after the stretch `ops3_3`. -/
def st3_3 (W : Val) : Val := after (ops3_3 (F := Ideal)) W
/-- The contents after the stretch `ops3_4`. -/
def st3_4 (W : Val) : Val := after (ops3_4 (F := Ideal)) W
/-- The contents after the stretch `ops3_5`. -/
def st3_5 (W : Val) : Val := after (ops3_5 (F := Ideal)) W
/-- The contents after the stretch `ops3_6`. -/
def st3_6 (W : Val) : Val := after (ops3_6 (F := Ideal)) W
/-- The contents after the stretch `ops3_7`. -/
def st3_7 (W : Val) : Val := after (ops3_7 (F := Ideal)) W

/-- The operations' fold is the stretches' functions composed, first stretch innermost. -/
theorem after_ops (V : Val) :
    after (ops (F := Ideal)) V = st3_7 (st3_6 (st3_5 (st3_4 (st3_3 (st3_2 (st3_1 (st3_0 (st2_9 (st2_8 (st2_7 (st2_6 (st2_5 (st2_4 (st2_3 (st2_2 (st2_1 (st2_0 (st1_6 (st1_5 (st1_4 (st1_3 (st1_2 (st1_1 (st1_0 (st0_6 (st0_5 (st0_4 (st0_3 (st0_2 (st0_1 (st0_0 (V)))))))))))))))))))))))))))))))) := by
  simp only [ops, ops0, ops1, ops2, ops3, after_append]
  rfl

/-! ## What each stretch computes, and what it leaves alone -/

/-- One stretch's result buffer: the fold unrolled, each operation's result read at its own buffer and passed over
    at the others, leaves the stage function's composition of operations. -/
macro "step_val" s:ident : tactic => `(tactic| (unfold $s; after_results_simp; all_goals rfl))

theorem st0_0_v1 (W : Val) :
    st0_0 W (no_index (Proc.devRef .tc main_v1)) = row0 (W (Proc.devRef .tc main_arg1)) := by
  step_val st0_0
theorem st0_0_v3 (W : Val) :
    st0_0 W (no_index (Proc.devRef .tc main_v3)) = row1 (W (Proc.devRef .tc main_arg1)) := by
  step_val st0_0
theorem st0_0_v6 (W : Val) :
    st0_0 W (no_index (Proc.devRef .tc main_v6)) = mean128 (W (Proc.devRef .tc main_arg0)) := by
  step_val st0_0
theorem st0_0_c (W : Val) :
    st0_0 W (no_index (Proc.devRef .tc main_c)) = constantI S_ 32 0#32 := by
  step_val st0_0
theorem st0_0_frame (W : Val) (r : Ref sig .tc) (h : r ∉ wr0_0) :
    st0_0 W (no_index (Proc.devRef .tc r)) = W (Proc.devRef .tc r) :=
  after_of_writes_sub _ W ops0_0_writes h

theorem st0_1_v7 (W : Val) :
    st0_1 W (no_index (Proc.devRef .tc main_v7)) = varc128 (W (Proc.devRef .tc main_arg0)) (W (Proc.devRef .tc main_c)) := by
  step_val st0_1
theorem st0_1_frame (W : Val) (r : Ref sig .tc) (h : r ∉ wr0_1) :
    st0_1 W (no_index (Proc.devRef .tc r)) = W (Proc.devRef .tc r) :=
  after_of_writes_sub _ W ops0_1_writes h

theorem st0_2_v26 (W : Val) :
    st0_2 W (no_index (Proc.devRef .tc main_v26)) = denseR128 (bnR128 (W (Proc.devRef .tc main_arg0)) (W (Proc.devRef .tc main_v6)) (W (Proc.devRef .tc main_v7)) (W (Proc.devRef .tc main_arg3)) (W (Proc.devRef .tc main_arg4))) (W (Proc.devRef .tc main_arg5)) (W (Proc.devRef .tc main_arg6)) := by
  step_val st0_2
theorem st0_2_frame (W : Val) (r : Ref sig .tc) (h : r ∉ wr0_2) :
    st0_2 W (no_index (Proc.devRef .tc r)) = W (Proc.devRef .tc r) :=
  after_of_writes_sub _ W ops0_2_writes h

theorem st0_3_v27 (W : Val) :
    st0_3 W (no_index (Proc.devRef .tc main_v27)) = reluR (W (Proc.devRef .tc main_v26)) := by
  step_val st0_3
theorem st0_3_frame (W : Val) (r : Ref sig .tc) (h : r ∉ wr0_3) :
    st0_3 W (no_index (Proc.devRef .tc r)) = W (Proc.devRef .tc r) :=
  after_of_writes_sub _ W ops0_3_writes h

theorem st0_4_v42 (W : Val) :
    st0_4 W (no_index (Proc.devRef .tc main_v42)) = tR (W (Proc.devRef .tc main_v27)) (W (Proc.devRef .tc main_v1)) (W (Proc.devRef .tc main_v3)) (W (Proc.devRef .tc main_arg7)) (W (Proc.devRef .tc main_arg8)) := by
  step_val st0_4
theorem st0_4_v45 (W : Val) :
    st0_4 W (no_index (Proc.devRef .tc main_v45)) = mean96 (tR (W (Proc.devRef .tc main_v27)) (W (Proc.devRef .tc main_v1)) (W (Proc.devRef .tc main_v3)) (W (Proc.devRef .tc main_arg7)) (W (Proc.devRef .tc main_arg8))) := by
  step_val st0_4
theorem st0_4_c_7 (W : Val) :
    st0_4 W (no_index (Proc.devRef .tc main_c_7)) = constantI S_ 32 0#32 := by
  step_val st0_4
theorem st0_4_frame (W : Val) (r : Ref sig .tc) (h : r ∉ wr0_4) :
    st0_4 W (no_index (Proc.devRef .tc r)) = W (Proc.devRef .tc r) :=
  after_of_writes_sub _ W ops0_4_writes h

theorem st0_5_v46 (W : Val) :
    st0_5 W (no_index (Proc.devRef .tc main_v46)) = varc96 (W (Proc.devRef .tc main_v42)) (W (Proc.devRef .tc main_c_7)) := by
  step_val st0_5
theorem st0_5_frame (W : Val) (r : Ref sig .tc) (h : r ∉ wr0_5) :
    st0_5 W (no_index (Proc.devRef .tc r)) = W (Proc.devRef .tc r) :=
  after_of_writes_sub _ W ops0_5_writes h

theorem st0_6_v49 (W : Val) :
    st0_6 W (no_index (Proc.devRef .tc main_v49)) = subMean96 (W (Proc.devRef .tc main_v42)) (W (Proc.devRef .tc main_v45)) := by
  step_val st0_6
theorem st0_6_frame (W : Val) (r : Ref sig .tc) (h : r ∉ wr0_6) :
    st0_6 W (no_index (Proc.devRef .tc r)) = W (Proc.devRef .tc r) :=
  after_of_writes_sub _ W ops0_6_writes h

theorem st1_0_v61 (W : Val) :
    st1_0 W (no_index (Proc.devRef .tc main_v61)) = scale96 (W (Proc.devRef .tc main_v49)) (W (Proc.devRef .tc main_v46)) (W (Proc.devRef .tc main_arg9)) (W (Proc.devRef .tc main_arg10)) := by
  step_val st1_0
theorem st1_0_frame (W : Val) (r : Ref sig .tc) (h : r ∉ wr1_0) :
    st1_0 W (no_index (Proc.devRef .tc r)) = W (Proc.devRef .tc r) :=
  after_of_writes_sub _ W ops1_0_writes h

theorem st1_1_v62 (W : Val) :
    st1_1 W (no_index (Proc.devRef .tc main_v62)) = reluR (W (Proc.devRef .tc main_v61)) := by
  step_val st1_1
theorem st1_1_frame (W : Val) (r : Ref sig .tc) (h : r ∉ wr1_1) :
    st1_1 W (no_index (Proc.devRef .tc r)) = W (Proc.devRef .tc r) :=
  after_of_writes_sub _ W ops1_1_writes h

theorem st1_2_v66 (W : Val) :
    st1_2 W (no_index (Proc.devRef .tc main_v66)) = denseR96 (W (Proc.devRef .tc main_v62)) (W (Proc.devRef .tc main_arg11)) (W (Proc.devRef .tc main_arg12)) := by
  step_val st1_2
theorem st1_2_frame (W : Val) (r : Ref sig .tc) (h : r ∉ wr1_2) :
    st1_2 W (no_index (Proc.devRef .tc r)) = W (Proc.devRef .tc r) :=
  after_of_writes_sub _ W ops1_2_writes h

theorem st1_3_v67 (W : Val) :
    st1_3 W (no_index (Proc.devRef .tc main_v67)) = reluR (W (Proc.devRef .tc main_v66)) := by
  step_val st1_3
theorem st1_3_frame (W : Val) (r : Ref sig .tc) (h : r ∉ wr1_3) :
    st1_3 W (no_index (Proc.devRef .tc r)) = W (Proc.devRef .tc r) :=
  after_of_writes_sub _ W ops1_3_writes h

theorem st1_4_v82 (W : Val) :
    st1_4 W (no_index (Proc.devRef .tc main_v82)) = tR (W (Proc.devRef .tc main_v67)) (W (Proc.devRef .tc main_v1)) (W (Proc.devRef .tc main_v3)) (W (Proc.devRef .tc main_arg13)) (W (Proc.devRef .tc main_arg14)) := by
  step_val st1_4
theorem st1_4_v85 (W : Val) :
    st1_4 W (no_index (Proc.devRef .tc main_v85)) = mean96 (tR (W (Proc.devRef .tc main_v67)) (W (Proc.devRef .tc main_v1)) (W (Proc.devRef .tc main_v3)) (W (Proc.devRef .tc main_arg13)) (W (Proc.devRef .tc main_arg14))) := by
  step_val st1_4
theorem st1_4_c_14 (W : Val) :
    st1_4 W (no_index (Proc.devRef .tc main_c_14)) = constantI S_ 32 0#32 := by
  step_val st1_4
theorem st1_4_frame (W : Val) (r : Ref sig .tc) (h : r ∉ wr1_4) :
    st1_4 W (no_index (Proc.devRef .tc r)) = W (Proc.devRef .tc r) :=
  after_of_writes_sub _ W ops1_4_writes h

theorem st1_5_v86 (W : Val) :
    st1_5 W (no_index (Proc.devRef .tc main_v86)) = varc96 (W (Proc.devRef .tc main_v82)) (W (Proc.devRef .tc main_c_14)) := by
  step_val st1_5
theorem st1_5_frame (W : Val) (r : Ref sig .tc) (h : r ∉ wr1_5) :
    st1_5 W (no_index (Proc.devRef .tc r)) = W (Proc.devRef .tc r) :=
  after_of_writes_sub _ W ops1_5_writes h

theorem st1_6_v101 (W : Val) :
    st1_6 W (no_index (Proc.devRef .tc main_v101)) = bnR96 (W (Proc.devRef .tc main_v82)) (W (Proc.devRef .tc main_v85)) (W (Proc.devRef .tc main_v86)) (W (Proc.devRef .tc main_arg15)) (W (Proc.devRef .tc main_arg16)) := by
  step_val st1_6
theorem st1_6_frame (W : Val) (r : Ref sig .tc) (h : r ∉ wr1_6) :
    st1_6 W (no_index (Proc.devRef .tc r)) = W (Proc.devRef .tc r) :=
  after_of_writes_sub _ W ops1_6_writes h

theorem st2_0_v102 (W : Val) :
    st2_0 W (no_index (Proc.devRef .tc main_v102)) = reluR (W (Proc.devRef .tc main_v101)) := by
  step_val st2_0
theorem st2_0_frame (W : Val) (r : Ref sig .tc) (h : r ∉ wr2_0) :
    st2_0 W (no_index (Proc.devRef .tc r)) = W (Proc.devRef .tc r) :=
  after_of_writes_sub _ W ops2_0_writes h

theorem st2_1_v106 (W : Val) :
    st2_1 W (no_index (Proc.devRef .tc main_v106)) = denseR96 (W (Proc.devRef .tc main_v102)) (W (Proc.devRef .tc main_arg17)) (W (Proc.devRef .tc main_arg18)) := by
  step_val st2_1
theorem st2_1_frame (W : Val) (r : Ref sig .tc) (h : r ∉ wr2_1) :
    st2_1 W (no_index (Proc.devRef .tc r)) = W (Proc.devRef .tc r) :=
  after_of_writes_sub _ W ops2_1_writes h

theorem st2_2_v107 (W : Val) :
    st2_2 W (no_index (Proc.devRef .tc main_v107)) = reluR (W (Proc.devRef .tc main_v106)) := by
  step_val st2_2
theorem st2_2_frame (W : Val) (r : Ref sig .tc) (h : r ∉ wr2_2) :
    st2_2 W (no_index (Proc.devRef .tc r)) = W (Proc.devRef .tc r) :=
  after_of_writes_sub _ W ops2_2_writes h

theorem st2_3_v122 (W : Val) :
    st2_3 W (no_index (Proc.devRef .tc main_v122)) = tR (W (Proc.devRef .tc main_v107)) (W (Proc.devRef .tc main_v1)) (W (Proc.devRef .tc main_v3)) (W (Proc.devRef .tc main_arg19)) (W (Proc.devRef .tc main_arg20)) := by
  step_val st2_3
theorem st2_3_v125 (W : Val) :
    st2_3 W (no_index (Proc.devRef .tc main_v125)) = mean96 (tR (W (Proc.devRef .tc main_v107)) (W (Proc.devRef .tc main_v1)) (W (Proc.devRef .tc main_v3)) (W (Proc.devRef .tc main_arg19)) (W (Proc.devRef .tc main_arg20))) := by
  step_val st2_3
theorem st2_3_c_21 (W : Val) :
    st2_3 W (no_index (Proc.devRef .tc main_c_21)) = constantI S_ 32 0#32 := by
  step_val st2_3
theorem st2_3_frame (W : Val) (r : Ref sig .tc) (h : r ∉ wr2_3) :
    st2_3 W (no_index (Proc.devRef .tc r)) = W (Proc.devRef .tc r) :=
  after_of_writes_sub _ W ops2_3_writes h

theorem st2_4_v126 (W : Val) :
    st2_4 W (no_index (Proc.devRef .tc main_v126)) = varc96 (W (Proc.devRef .tc main_v122)) (W (Proc.devRef .tc main_c_21)) := by
  step_val st2_4
theorem st2_4_frame (W : Val) (r : Ref sig .tc) (h : r ∉ wr2_4) :
    st2_4 W (no_index (Proc.devRef .tc r)) = W (Proc.devRef .tc r) :=
  after_of_writes_sub _ W ops2_4_writes h

theorem st2_5_v141 (W : Val) :
    st2_5 W (no_index (Proc.devRef .tc main_v141)) = bnR96 (W (Proc.devRef .tc main_v122)) (W (Proc.devRef .tc main_v125)) (W (Proc.devRef .tc main_v126)) (W (Proc.devRef .tc main_arg21)) (W (Proc.devRef .tc main_arg22)) := by
  step_val st2_5
theorem st2_5_frame (W : Val) (r : Ref sig .tc) (h : r ∉ wr2_5) :
    st2_5 W (no_index (Proc.devRef .tc r)) = W (Proc.devRef .tc r) :=
  after_of_writes_sub _ W ops2_5_writes h

theorem st2_6_v142 (W : Val) :
    st2_6 W (no_index (Proc.devRef .tc main_v142)) = reluR (W (Proc.devRef .tc main_v141)) := by
  step_val st2_6
theorem st2_6_frame (W : Val) (r : Ref sig .tc) (h : r ∉ wr2_6) :
    st2_6 W (no_index (Proc.devRef .tc r)) = W (Proc.devRef .tc r) :=
  after_of_writes_sub _ W ops2_6_writes h

theorem st2_7_v146 (W : Val) :
    st2_7 W (no_index (Proc.devRef .tc main_v146)) = denseR96 (W (Proc.devRef .tc main_v142)) (W (Proc.devRef .tc main_arg23)) (W (Proc.devRef .tc main_arg24)) := by
  step_val st2_7
theorem st2_7_frame (W : Val) (r : Ref sig .tc) (h : r ∉ wr2_7) :
    st2_7 W (no_index (Proc.devRef .tc r)) = W (Proc.devRef .tc r) :=
  after_of_writes_sub _ W ops2_7_writes h

theorem st2_8_v147 (W : Val) :
    st2_8 W (no_index (Proc.devRef .tc main_v147)) = reluR (W (Proc.devRef .tc main_v146)) := by
  step_val st2_8
theorem st2_8_frame (W : Val) (r : Ref sig .tc) (h : r ∉ wr2_8) :
    st2_8 W (no_index (Proc.devRef .tc r)) = W (Proc.devRef .tc r) :=
  after_of_writes_sub _ W ops2_8_writes h

theorem st2_9_v150 (W : Val) :
    st2_9 W (no_index (Proc.devRef .tc main_v150)) = poolR (W (Proc.devRef .tc main_v147)) (W (Proc.devRef .tc main_arg2)) := by
  step_val st2_9
theorem st2_9_v151 (W : Val) :
    st2_9 W (no_index (Proc.devRef .tc main_v151)) = Host.reduceAdd (poolR (W (Proc.devRef .tc main_v147)) (W (Proc.devRef .tc main_arg2))) (constant (F := Ideal) S_ .f32 0x00000000#32) reducesTo_S512x96_S96_d0 h_S_ := by
  step_val st2_9
theorem st2_9_cst_25 (W : Val) :
    st2_9 W (no_index (Proc.devRef .tc main_cst_25)) = constant (F := Ideal) S_ .f32 0x44000000#32 := by
  step_val st2_9
theorem st2_9_frame (W : Val) (r : Ref sig .tc) (h : r ∉ wr2_9) :
    st2_9 W (no_index (Proc.devRef .tc r)) = W (Proc.devRef .tc r) :=
  after_of_writes_sub _ W ops2_9_writes h

theorem st3_0_v153 (W : Val) :
    st3_0 W (no_index (Proc.devRef .tc main_v153)) = Host.divf (F := Ideal) (s := S96) (φ := .f32) (W (Proc.devRef .tc main_v151)) (broadcastInDim S96 ![] bcast_S_S96 (W (Proc.devRef .tc main_cst_25))) := by
  step_val st3_0
theorem st3_0_c_26 (W : Val) :
    st3_0 W (no_index (Proc.devRef .tc main_c_26)) = constantI S_ 32 0#32 := by
  step_val st3_0
theorem st3_0_frame (W : Val) (r : Ref sig .tc) (h : r ∉ wr3_0) :
    st3_0 W (no_index (Proc.devRef .tc r)) = W (Proc.devRef .tc r) :=
  after_of_writes_sub _ W ops3_0_writes h

theorem st3_1_v154 (W : Val) :
    st3_1 W (no_index (Proc.devRef .tc main_v154)) = varc512 (W (Proc.devRef .tc main_v150)) (W (Proc.devRef .tc main_c_26)) := by
  step_val st3_1
theorem st3_1_frame (W : Val) (r : Ref sig .tc) (h : r ∉ wr3_1) :
    st3_1 W (no_index (Proc.devRef .tc r)) = W (Proc.devRef .tc r) :=
  after_of_writes_sub _ W ops3_1_writes h

theorem st3_2_v173 (W : Val) :
    st3_2 W (no_index (Proc.devRef .tc main_v173)) = denseR512 (bnR512 (W (Proc.devRef .tc main_v150)) (W (Proc.devRef .tc main_v153)) (W (Proc.devRef .tc main_v154)) (W (Proc.devRef .tc main_arg25)) (W (Proc.devRef .tc main_arg26))) (W (Proc.devRef .tc main_arg27)) (W (Proc.devRef .tc main_arg28)) := by
  step_val st3_2
theorem st3_2_frame (W : Val) (r : Ref sig .tc) (h : r ∉ wr3_2) :
    st3_2 W (no_index (Proc.devRef .tc r)) = W (Proc.devRef .tc r) :=
  after_of_writes_sub _ W ops3_2_writes h

theorem st3_3_v174 (W : Val) :
    st3_3 W (no_index (Proc.devRef .tc main_v174)) = reluR512 (W (Proc.devRef .tc main_v173)) := by
  step_val st3_3
theorem st3_3_frame (W : Val) (r : Ref sig .tc) (h : r ∉ wr3_3) :
    st3_3 W (no_index (Proc.devRef .tc r)) = W (Proc.devRef .tc r) :=
  after_of_writes_sub _ W ops3_3_writes h

theorem st3_4_v177 (W : Val) :
    st3_4 W (no_index (Proc.devRef .tc main_v177)) = mean512 (W (Proc.devRef .tc main_v174)) := by
  step_val st3_4
theorem st3_4_c_30 (W : Val) :
    st3_4 W (no_index (Proc.devRef .tc main_c_30)) = constantI S_ 32 0#32 := by
  step_val st3_4
theorem st3_4_frame (W : Val) (r : Ref sig .tc) (h : r ∉ wr3_4) :
    st3_4 W (no_index (Proc.devRef .tc r)) = W (Proc.devRef .tc r) :=
  after_of_writes_sub _ W ops3_4_writes h

theorem st3_5_v178 (W : Val) :
    st3_5 W (no_index (Proc.devRef .tc main_v178)) = varc512 (W (Proc.devRef .tc main_v174)) (W (Proc.devRef .tc main_c_30)) := by
  step_val st3_5
theorem st3_5_frame (W : Val) (r : Ref sig .tc) (h : r ∉ wr3_5) :
    st3_5 W (no_index (Proc.devRef .tc r)) = W (Proc.devRef .tc r) :=
  after_of_writes_sub _ W ops3_5_writes h

theorem st3_6_v197 (W : Val) :
    st3_6 W (no_index (Proc.devRef .tc main_v197)) = denseR512x10 (bnR512 (W (Proc.devRef .tc main_v174)) (W (Proc.devRef .tc main_v177)) (W (Proc.devRef .tc main_v178)) (W (Proc.devRef .tc main_arg29)) (W (Proc.devRef .tc main_arg30))) (W (Proc.devRef .tc main_arg31)) (W (Proc.devRef .tc main_arg32)) := by
  step_val st3_6
theorem st3_6_frame (W : Val) (r : Ref sig .tc) (h : r ∉ wr3_6) :
    st3_6 W (no_index (Proc.devRef .tc r)) = W (Proc.devRef .tc r) :=
  after_of_writes_sub _ W ops3_6_writes h

theorem st3_7_v198 (W : Val) :
    st3_7 W (no_index (Proc.devRef .tc main_v198)) = tailR (W (Proc.devRef .tc main_v197)) := by
  step_val st3_7
theorem st3_7_frame (W : Val) (r : Ref sig .tc) (h : r ∉ wr3_7) :
    st3_7 W (no_index (Proc.devRef .tc r)) = W (Proc.devRef .tc r) :=
  after_of_writes_sub _ W ops3_7_writes h

end Cert.ReferenceIdeal.RValue

end
-- ==== Proof.RValue.lean ====
/-
  The reference program's result as a closed function of its arguments.

  The program's operations are run stretch by stretch.  For each stretch: the buffers it computes that a later
  stretch reads hold a stage function of the contents, before the stretch, of the buffers it reads; every buffer it
  does not write holds what it held.  Chaining these from the last stretch back to the launch contents, the result
  buffer holds the network function of the 33 argument buffers' launch contents, and every argument buffer ends as
  launched.  Hence the run: every weakly fair execution terminates with the result buffer at that function of the
  arguments and the arguments unchanged.
-/
import proofs.«132872_j8993661518249_1_alg».proof.Proof.RRun
import proofs.«132872_j8993661518249_1_alg».proof.Proof.RStages
import proofs.«132872_j8993661518249_1_alg».proof.Proof.ROut
import proofs.«132872_j8993661518249_1_alg».proof.Proof.RSteps

set_option maxRecDepth 16384

noncomputable section

namespace Cert.ReferenceIdeal.RValue

open Cert.ReferenceIdeal Cert.ReferenceIdeal.Gen Cert.ReferenceIdeal.ROps Cert.ReferenceIdeal.RRun Cert.RStages
  Idealize.ShloMosaic Idealize.ShloMosaic.TcCoe Idealize.SL.Sem Idealize.ShloMosaic.StableHlo

/-! ## The stages folded into the network function

Each equation below is between two spellings of one composition of array operations (a stage of the reference
spelled with the shared stages' functions, or several stages named as one): both sides unfold to the same term. -/

section Fold

open Cert.Stages (FA IA)

theorem mean128_fold (x : FA S50000x128) : RStages.mean128 x = Stages.mean128 x := rfl
theorem var128_fold (x : FA S50000x128) : varc128 x (constantI S_ 32 0#32) = Stages.var128 x := rfl
theorem mean96_fold (x : FA S50000x96) : RStages.mean96 x = Stages.mean96 x := rfl
theorem var96_fold (x : FA S50000x96) : varc96 x (constantI S_ 32 0#32) = Stages.var96 x := rfl
theorem mean512_fold (x : FA S512x96) : RStages.mean512 x = Stages.mean512 x := rfl
theorem mean512_fold' (x : FA S512x96) :
    (Host.divf (Host.reduceAdd x (constant (F := Ideal) S_ .f32 0x00000000#32) reducesTo_S512x96_S96_d0 h_S_)
      (broadcastInDim S96 ![] bcast_S_S96 (constant (F := Ideal) S_ .f32 0x44000000#32)) : FA S96) = Stages.mean512 x := rfl
theorem var512_fold (x : FA S512x96) : varc512 x (constantI S_ 32 0#32) = Stages.var512 x := rfl
theorem t1_fold (h : FA S50000x96) (e : IA S2x800000) (W : FA S96x96) (b : FA S96) :
    tR h (row0 e) (row1 e) W b = t1R h e W b := rfl
theorem pool_fold (h : FA S50000x96) (batch : IA S50000) : poolR h batch = Stages.poolOf h batch := rfl
theorem tail_fold (l : FA S512x10) : tailR l = Stages.tailOf l := rfl
theorem bn96_fold (t : FA S50000x96) (mu v w b : FA S96) : scale96 (subMean96 t mu) v w b = bnR96 t mu v w b := rfl
theorem bnSelf96_fold (t : FA S50000x96) (w b : FA S96) :
    bnR96 t (Stages.mean96 t) (Stages.var96 t) w b = bnSelf96 t w b := rfl
theorem bnSelf512_fold (g : FA S512x96) (w b : FA S96) :
    bnR512 g (Stages.mean512 g) (Stages.var512 g) w b = bnSelf512 g w b := rfl
theorem h0_fold (x : FA S50000x128) (w b : FA S128) (Wf : FA S128x96) (bf : FA S96) :
    reluR (denseR128 (bnR128 x (Stages.mean128 x) (Stages.var128 x) w b) Wf bf) = h0R x w b Wf bf := rfl
theorem t2_fold (t : FA S50000x96) (bw bb : FA S96) (W2 : FA S96x96) (b2 : FA S96) :
    reluR (denseR96 (reluR (bnSelf96 t bw bb)) W2 b2) = t2R t bw bb W2 b2 := rfl
theorem layer_fold (h : FA S50000x96) (e : IA S2x800000) (W1 : FA S96x96) (b1 bw bb : FA S96) (W2 : FA S96x96) (b2 : FA S96) :
    t2R (t1R h e W1 b1) bw bb W2 b2 = layerR h e W1 b1 bw bb W2 b2 := rfl
theorem g2_fold (g : FA S512x96) (w b : FA S96) (W : FA S96x96) (bb : FA S96) :
    reluR512 (denseR512 (bnSelf512 g w b) W bb) = g2R g w b W bb := rfl
theorem lg_fold (g : FA S512x96) (w b : FA S96) (W : FA S96x10) (bb : FA S10) :
    denseR512x10 (bnSelf512 g w b) W bb = lgR g w b W bb := rfl
theorem head_fold (g : FA S512x96) (w1 b1 : FA S96) (Wl : FA S96x96) (bl w2 b2 : FA S96) (Wc : FA S96x10) (bc : FA S10) :
    Stages.tailOf (lgR (g2R g w1 b1 Wl bl) w2 b2 Wc bc) = headR g w1 b1 Wl bl w2 b2 Wc bc := rfl

end Fold

/-! ## The result -/

/-- The result buffer after all the operations: the network function of the arguments' contents. -/
theorem value (V : Val) :
    after (ops (F := Ideal)) V (Proc.devRef .tc main_v198)
      = Rout (V (Proc.devRef .tc main_arg0))
          (V (Proc.devRef .tc main_arg1))
          (V (Proc.devRef .tc main_arg2))
          (V (Proc.devRef .tc main_arg3))
          (V (Proc.devRef .tc main_arg4))
          (V (Proc.devRef .tc main_arg5))
          (V (Proc.devRef .tc main_arg6))
          (V (Proc.devRef .tc main_arg7))
          (V (Proc.devRef .tc main_arg8))
          (V (Proc.devRef .tc main_arg9))
          (V (Proc.devRef .tc main_arg10))
          (V (Proc.devRef .tc main_arg11))
          (V (Proc.devRef .tc main_arg12))
          (V (Proc.devRef .tc main_arg13))
          (V (Proc.devRef .tc main_arg14))
          (V (Proc.devRef .tc main_arg15))
          (V (Proc.devRef .tc main_arg16))
          (V (Proc.devRef .tc main_arg17))
          (V (Proc.devRef .tc main_arg18))
          (V (Proc.devRef .tc main_arg19))
          (V (Proc.devRef .tc main_arg20))
          (V (Proc.devRef .tc main_arg21))
          (V (Proc.devRef .tc main_arg22))
          (V (Proc.devRef .tc main_arg23))
          (V (Proc.devRef .tc main_arg24))
          (V (Proc.devRef .tc main_arg25))
          (V (Proc.devRef .tc main_arg26))
          (V (Proc.devRef .tc main_arg27))
          (V (Proc.devRef .tc main_arg28))
          (V (Proc.devRef .tc main_arg29))
          (V (Proc.devRef .tc main_arg30))
          (V (Proc.devRef .tc main_arg31))
          (V (Proc.devRef .tc main_arg32)) := by
  rw [after_ops]
  simp (disch := decide) only [st0_0_v1, st0_0_v3, st0_0_v6, st0_0_c, st0_0_frame, st0_1_v7, st0_1_frame, st0_2_v26, st0_2_frame, st0_3_v27, st0_3_frame, st0_4_v42, st0_4_v45, st0_4_c_7, st0_4_frame, st0_5_v46, st0_5_frame, st0_6_v49, st0_6_frame, st1_0_v61, st1_0_frame, st1_1_v62, st1_1_frame, st1_2_v66, st1_2_frame, st1_3_v67, st1_3_frame, st1_4_v82, st1_4_v85, st1_4_c_14, st1_4_frame, st1_5_v86, st1_5_frame, st1_6_v101, st1_6_frame, st2_0_v102, st2_0_frame, st2_1_v106, st2_1_frame, st2_2_v107, st2_2_frame, st2_3_v122, st2_3_v125, st2_3_c_21, st2_3_frame, st2_4_v126, st2_4_frame, st2_5_v141, st2_5_frame, st2_6_v142, st2_6_frame, st2_7_v146, st2_7_frame, st2_8_v147, st2_8_frame, st2_9_v150, st2_9_v151, st2_9_cst_25, st2_9_frame, st3_0_v153, st3_0_c_26, st3_0_frame, st3_1_v154, st3_1_frame, st3_2_v173, st3_2_frame, st3_3_v174, st3_3_frame, st3_4_v177, st3_4_c_30, st3_4_frame, st3_5_v178, st3_5_frame, st3_6_v197, st3_6_frame, st3_7_v198, st3_7_frame]
  simp only [mean128_fold, var128_fold, mean96_fold, var96_fold, mean512_fold, mean512_fold', var512_fold, t1_fold, pool_fold,
    tail_fold, bn96_fold, bnSelf96_fold, bnSelf512_fold, h0_fold, t2_fold, layer_fold, g2_fold, lg_fold, head_fold]
  rfl

/-- On every device, from any memory with zero counters: every weakly fair execution of @main terminates with the
    result buffer at the network function of the argument buffers' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v198)
        = Rout (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
            (m ((c.tc : Thread nD τ).loc main_arg17))
            (m ((c.tc : Thread nD τ).loc main_arg18))
            (m ((c.tc : Thread nD τ).loc main_arg19))
            (m ((c.tc : Thread nD τ).loc main_arg20))
            (m ((c.tc : Thread nD τ).loc main_arg21))
            (m ((c.tc : Thread nD τ).loc main_arg22))
            (m ((c.tc : Thread nD τ).loc main_arg23))
            (m ((c.tc : Thread nD τ).loc main_arg24))
            (m ((c.tc : Thread nD τ).loc main_arg25))
            (m ((c.tc : Thread nD τ).loc main_arg26))
            (m ((c.tc : Thread nD τ).loc main_arg27))
            (m ((c.tc : Thread nD τ).loc main_arg28))
            (m ((c.tc : Thread nD τ).loc main_arg29))
            (m ((c.tc : Thread nD τ).loc main_arg30))
            (m ((c.tc : Thread nD τ).loc main_arg31))
            (m ((c.tc : Thread nD τ).loc main_arg32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)) :=
  (θ_run defs _ _).mono (fun _ h c => ⟨(h c main_v198).trans (value _),
      (h c main_arg0).trans (after_ops_of_not_mem _ (by decide)),
      (h c main_arg1).trans (after_ops_of_not_mem _ (by decide)),
      (h c main_arg2).trans (after_ops_of_not_mem _ (by decide)),
      (h c main_arg3).trans (after_ops_of_not_mem _ (by decide)),
      (h c main_arg4).trans (after_ops_of_not_mem _ (by decide)),
      (h c main_arg5).trans (after_ops_of_not_mem _ (by decide)),
      (h c main_arg6).trans (after_ops_of_not_mem _ (by decide)),
      (h c main_arg7).trans (after_ops_of_not_mem _ (by decide)),
      (h c main_arg8).trans (after_ops_of_not_mem _ (by decide)),
      (h c main_arg9).trans (after_ops_of_not_mem _ (by decide)),
      (h c main_arg10).trans (after_ops_of_not_mem _ (by decide)),
      (h c main_arg11).trans (after_ops_of_not_mem _ (by decide)),
      (h c main_arg12).trans (after_ops_of_not_mem _ (by decide)),
      (h c main_arg13).trans (after_ops_of_not_mem _ (by decide)),
      (h c main_arg14).trans (after_ops_of_not_mem _ (by decide)),
      (h c main_arg15).trans (after_ops_of_not_mem _ (by decide)),
      (h c main_arg16).trans (after_ops_of_not_mem _ (by decide)),
      (h c main_arg17).trans (after_ops_of_not_mem _ (by decide)),
      (h c main_arg18).trans (after_ops_of_not_mem _ (by decide)),
      (h c main_arg19).trans (after_ops_of_not_mem _ (by decide)),
      (h c main_arg20).trans (after_ops_of_not_mem _ (by decide)),
      (h c main_arg21).trans (after_ops_of_not_mem _ (by decide)),
      (h c main_arg22).trans (after_ops_of_not_mem _ (by decide)),
      (h c main_arg23).trans (after_ops_of_not_mem _ (by decide)),
      (h c main_arg24).trans (after_ops_of_not_mem _ (by decide)),
      (h c main_arg25).trans (after_ops_of_not_mem _ (by decide)),
      (h c main_arg26).trans (after_ops_of_not_mem _ (by decide)),
      (h c main_arg27).trans (after_ops_of_not_mem _ (by decide)),
      (h c main_arg28).trans (after_ops_of_not_mem _ (by decide)),
      (h c main_arg29).trans (after_ops_of_not_mem _ (by decide)),
      (h c main_arg30).trans (after_ops_of_not_mem _ (by decide)),
      (h c main_arg31).trans (after_ops_of_not_mem _ (by decide)),
      (h c main_arg32).trans (after_ops_of_not_mem _ (by decide))⟩)
    (run_all m ρ)

end Cert.ReferenceIdeal.RValue

end
-- ==== Proof.MathBN.lean ====
/-
  The batch-normalisation identity on the extended reals, and realness through a dense layer.

  For real x, μ, r, w, b:   x·(w·r) + (b − μ·(w·r)) = (x − μ)·r·w + b.
  On the extended reals this needs every quantity real (distributivity fails at ±∞), so the identity is stated for
  arrays all of whose entries are real, and the common value is again real.

  Realness is closed under the operations of a layer: a finite sum, a product, a sum, a difference and the clamp at zero
  of reals are reals; hence each of the four dense layers of real operands has only real entries.
-/
import proofs.«132872_j8993661518249_1_alg».proof.Proof.Spec

noncomputable section

open scoped BigOperators

namespace Cert.GNN

open Idealize.ShloMosaic Idealize.ShloMosaic.ValueIdx

variable {M K N : Nat}

/-! ### Realness of scalars -/

/-- An extended real that is a real number. -/
def RealE (v : EReal) : Prop := ∃ r : ℝ, v = (r : EReal)

theorem RealE.coe (r : ℝ) : RealE (r : EReal) := ⟨r, rfl⟩

theorem RealE.zero : RealE (0 : EReal) := ⟨0, rfl⟩

theorem RealE.add {u v : EReal} (hu : RealE u) (hv : RealE v) : RealE (u + v) := by
  obtain ⟨a, rfl⟩ := hu; obtain ⟨b, rfl⟩ := hv; exact ⟨a + b, (EReal.coe_add a b).symm⟩

theorem RealE.sub {u v : EReal} (hu : RealE u) (hv : RealE v) : RealE (u - v) := by
  obtain ⟨a, rfl⟩ := hu; obtain ⟨b, rfl⟩ := hv; exact ⟨a - b, (EReal.coe_sub a b).symm⟩

theorem RealE.mul {u v : EReal} (hu : RealE u) (hv : RealE v) : RealE (u * v) := by
  obtain ⟨a, rfl⟩ := hu; obtain ⟨b, rfl⟩ := hv; exact ⟨a * b, (EReal.coe_mul a b).symm⟩

theorem RealE.relu {u : EReal} (hu : RealE u) : RealE (relu u) := by
  obtain ⟨a, rfl⟩ := hu
  show RealE (max ((a : ℝ) : EReal) 0)
  rcases le_total a 0 with h | h
  · rw [max_eq_right (EReal.coe_nonpos.2 h)]; exact RealE.zero
  · rw [max_eq_left (EReal.coe_nonneg.2 h)]; exact RealE.coe a

theorem RealE.sum {ι : Type} (s : Finset ι) (f : ι → EReal) (h : ∀ i ∈ s, RealE (f i)) : RealE (∑ i ∈ s, f i) := by
  classical
  induction s using Finset.induction_on with
  | empty => simpa using RealE.zero
  | insert a s ha ih =>
    rw [Finset.sum_insert ha]
    exact (h a (Finset.mem_insert_self a s)).add (ih fun i hi => h i (Finset.mem_insert_of_mem hi))

theorem isReal_iff {S : Shape} (a : S.Idx → EReal) : IsReal a ↔ ∀ i, RealE (a i) := Iff.rfl

/-- An entry of an array of reals is a real. -/
theorem IsReal.at {S : Shape} {a : S.Idx → EReal} (h : IsReal a) (i : S.Idx) : RealE (a i) := h i

/-! ### The affine form of the batch normalisation -/

/-- The affine normalisation with scale w·r and shift b − μ·(w·r) is the batch normalisation, for real operands. -/
theorem aff_eq_bn (x : Arr2 M K) (mu r w b : Arr1 K) (s t : Arr2 1 K) (hx : IsReal x) (hmu : IsReal mu) (hr : IsReal r)
    (hw : IsReal w) (hb : IsReal b) (hs : ∀ k : Fin K, s (ix2 0 k) = w (ix1 k) * r (ix1 k))
    (ht : ∀ k : Fin K, t (ix2 0 k) = b (ix1 k) - mu (ix1 k) * (w (ix1 k) * r (ix1 k))) (p : Fin M) (k : Fin K) :
    affAt x s t p k = bnAt x mu r w b p k := by
  obtain ⟨xr, hxr⟩ := hx (ix2 p k)
  obtain ⟨mr, hmr⟩ := hmu (ix1 k)
  obtain ⟨rr, hrr⟩ := hr (ix1 k)
  obtain ⟨wr, hwr⟩ := hw (ix1 k)
  obtain ⟨br, hbr⟩ := hb (ix1 k)
  unfold affAt bnAt
  rw [hs k, ht k, hxr, hmr, hrr, hwr, hbr]
  simp only [← EReal.coe_mul, ← EReal.coe_add, ← EReal.coe_sub]
  congr 1
  ring

/-- The batch normalisation of real operands is real. -/
theorem bnAt_real (x : Arr2 M K) (mu r w b : Arr1 K) (hx : IsReal x) (hmu : IsReal mu) (hr : IsReal r)
    (hw : IsReal w) (hb : IsReal b) (p : Fin M) (k : Fin K) : RealE (bnAt x mu r w b p k) :=
  ((((hx.at (ix2 p k)).sub (hmu.at (ix1 k))).mul (hr.at (ix1 k))).mul (hw.at (ix1 k))).add (hb.at (ix1 k))

/-- The affine normalisation of real operands is real. -/
theorem affAt_real (x : Arr2 M K) (s t : Arr2 1 K) (hx : IsReal x) (hs : IsReal s) (ht : IsReal t) (p : Fin M)
    (k : Fin K) : RealE (affAt x s t p k) :=
  ((hx.at (ix2 p k)).mul (hs.at (ix2 0 k))).add (ht.at (ix2 0 k))

/-! ### Realness through the dense layers -/

theorem affLinRelu_real (x : Arr2 M K) (s t : Arr2 1 K) (W : Arr2 K N) (b : Arr2 1 N) (hx : IsReal x) (hs : IsReal s)
    (ht : IsReal t) (hW : IsReal W) (hb : IsReal b) : IsReal (affLinRelu x s t W b) := fun i =>
  RealE.relu ((RealE.sum _ _ fun k _ => (affAt_real x s t hx hs ht (i 0) k).mul (hW.at _)).add (hb.at _))

theorem affReluLinRelu_real (x : Arr2 M K) (s t : Arr2 1 K) (W : Arr2 K N) (b : Arr2 1 N) (hx : IsReal x)
    (hs : IsReal s) (ht : IsReal t) (hW : IsReal W) (hb : IsReal b) : IsReal (affReluLinRelu x s t W b) := fun i =>
  RealE.relu ((RealE.sum _ _ fun k _ => (RealE.relu (affAt_real x s t hx hs ht (i 0) k)).mul (hW.at _)).add (hb.at _))

theorem affLin_real (x : Arr2 M K) (s t : Arr2 1 K) (W : Arr2 K N) (b : Arr2 1 N) (hx : IsReal x) (hs : IsReal s)
    (ht : IsReal t) (hW : IsReal W) (hb : IsReal b) : IsReal (affLin x s t W b) := fun i =>
  (RealE.sum _ _ fun k _ => (affAt_real x s t hx hs ht (i 0) k).mul (hW.at _)).add (hb.at _)

theorem sumLin_real (h a : Arr2 M K) (W : Arr2 K N) (b : Arr2 1 N) (hh : IsReal h) (ha : IsReal a) (hW : IsReal W)
    (hb : IsReal b) : IsReal (sumLin h a W b) := fun i =>
  (RealE.sum _ _ fun k _ => ((hh.at _).add (ha.at _)).mul (hW.at _)).add (hb.at _)

end Cert.GNN

end
-- ==== Proof.MathConsts.lean ====
/-
  The float literals of the two programs as the extended reals their bit patterns denote.

  0x3727C5AC is the dyadic rational 10995116 / 2^40 (about 1.0e-5), a positive real: the shift added to a variance
  before the reciprocal square root.  0x47435000 is 50000 and 0x44000000 is 512: the two row counts the column means
  divide by.  The zero pattern is 0, and the signed integer 0 converts to the real 0.  Each pattern is unfolded here once.
-/
import Idealize.ShloMosaic.PureOps.Ideal
import Idealize.ShloMosaic.PureOps.Ideal.Laws

noncomputable section

namespace Cert.GNN

open Idealize.ShloMosaic

/-- The real number the pattern 0x3727C5AC denotes. -/
def epsR : ℝ := 10995116 / 1099511627776

theorem epsR_pos : 0 < epsR := by unfold epsR; norm_num

/-- The variance shift: 0x3727C5AC denotes the positive real 10995116 / 2^40. -/
theorem ofBits_eps : Ideal.ofBits .f32 0x3727C5AC#32 = ((epsR : ℝ) : EReal) := by
  unfold epsR
  simp [Ideal.ofBits, Ideal.ieee, -EReal.coe_mul]; norm_num

/-- 0x47435000 denotes 50000. -/
theorem ofBits_50000 : Ideal.ofBits .f32 0x47435000#32 = ((50000 : ℝ) : EReal) := by
  simp [Ideal.ofBits, Ideal.ieee, -EReal.coe_mul]; norm_num

/-- 0x44000000 denotes 512. -/
theorem ofBits_512 : Ideal.ofBits .f32 0x44000000#32 = ((512 : ℝ) : EReal) := by
  simp [Ideal.ofBits, Ideal.ieee, -EReal.coe_mul]; norm_num

/-- The zero pattern denotes 0. -/
theorem ofBits_zero : Ideal.ofBits .f32 0x00000000#32 = 0 := Ideal.ofBits_zero_f32

/-- The signed integer 0 converts to the real 0. -/
theorem sitofp_zero : (FloatOps.sitofp (F := Ideal) .f32 (0#32 : BitVec 32) : EReal) = 0 := by
  show (((0#32 : BitVec 32).toInt : ℝ) : EReal) = 0
  simp

end Cert.GNN

end
-- ==== Proof.LibBatchStats.lean ====
/-
  Batch statistics of finitely many REAL entries, read on the extended reals.

  For reals `o i` over a finite index type with `N` elements (N ≠ 0):
  * the mean taken by scaling the sum with the reciprocal `1/N` is the mean taken by dividing the sum by `N`, and it is
    the real `(∑ o) / N`;
  * the variance taken in one pass, `(∑ o²)·(1/N) − mean²`, is the variance taken in two passes,
    `(∑ (o − mean)²) / N`: expanding the square gives `∑ o² − 2·mean·∑ o + N·mean²`, and `∑ o = N·mean`;
    the identity needs every entry real (on the extended reals `∞ − ∞` breaks it);
  * that variance is a nonnegative real, and the reciprocal square root of a positive real is a real.
  Generic in the index type; nothing here mentions a program.
-/
import Idealize.ShloMosaic.PureOps.Ideal
import Idealize.ShloMosaic.PureOps.Ideal.Laws

noncomputable section

namespace Idealize.ShloMosaic.BatchStats

open Idealize.ShloMosaic

/-- A finite sum of reals, coerced term by term, is the coerced sum. -/
theorem sum_coe {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

variable {ι : Type} [Fintype ι]

/-- Scaling a sum by `1/N` is dividing it by `N`. -/
theorem scaled_eq_div (S : EReal) {N : ℝ} (hN : N ≠ 0) :
    S * ((1 / N : ℝ) : EReal) = Ideal.div S (N : EReal) :=
  (Ideal.div_coe hN S).symm

/-- The mean of reals is the real `(∑ o) / N`. -/
theorem mean_real (o : ι → ℝ) (N : ℝ) :
    (∑ i, ((o i : ℝ) : EReal)) * ((1 / N : ℝ) : EReal) = (((∑ i, o i) / N : ℝ) : EReal) := by
  rw [sum_coe, ← EReal.coe_mul, mul_one_div]

/-- The real identity behind the two variances. -/
theorem sum_sq_dev (o : ι → ℝ) {N : ℝ} (hN : N ≠ 0) (hcard : (Fintype.card ι : ℝ) = N) :
    (∑ i, (o i - (∑ j, o j) / N) * (o i - (∑ j, o j) / N)) = (∑ i, o i * o i) - N * (((∑ j, o j) / N) * ((∑ j, o j) / N)) := by
  set m : ℝ := (∑ j, o j) / N with hm
  have hS : (∑ j, o j) = m * N := by rw [hm]; field_simp
  have h1 : ∀ i, (o i - m) * (o i - m) = o i * o i - 2 * m * o i + m * m := fun i => by ring
  simp only [h1, Finset.sum_add_distrib, Finset.sum_sub_distrib, ← Finset.mul_sum, Finset.sum_const, Finset.card_univ,
    nsmul_eq_mul, hcard, hS]
  ring

/-- ONE PASS = TWO PASSES, for real entries: `(∑ o²)·(1/N) − μ² = (∑ (o − μ)²) / N` with `μ` the mean. -/
theorem var_one_pass_eq_two_pass (o : ι → ℝ) {N : ℝ} (hN : N ≠ 0) (hcard : (Fintype.card ι : ℝ) = N)
    (μ : EReal) (hμ : μ = (∑ i, ((o i : ℝ) : EReal)) * ((1 / N : ℝ) : EReal)) :
    (∑ i, ((o i : ℝ) : EReal) * ((o i : ℝ) : EReal)) * ((1 / N : ℝ) : EReal) - μ * μ
      = Ideal.div (∑ i, (((o i : ℝ) : EReal) - μ) * (((o i : ℝ) : EReal) - μ)) (N : EReal) := by
  rw [mean_real] at hμ
  subst hμ
  rw [Ideal.div_coe hN]
  simp only [← EReal.coe_mul, ← EReal.coe_sub, sum_coe]
  congr 1
  rw [sum_sq_dev o hN hcard]
  field_simp

/-- The two-pass variance of reals is a nonnegative real. -/
theorem var_two_pass_real (o : ι → ℝ) {N : ℝ} (hN : 0 < N) (m : ℝ) :
    ∃ v : ℝ, 0 ≤ v ∧ Ideal.div (∑ i, (((o i : ℝ) : EReal) - (m : EReal)) * (((o i : ℝ) : EReal) - (m : EReal))) (N : EReal) = (v : EReal) := by
  refine ⟨(∑ i, (o i - m) * (o i - m)) / N, div_nonneg (Finset.sum_nonneg fun i _ => mul_self_nonneg _) hN.le, ?_⟩
  rw [Ideal.div_coe hN.ne']
  simp only [← EReal.coe_mul, ← EReal.coe_sub, sum_coe]
  rw [mul_one_div]

/-- The reciprocal square root of a positive real is a (positive) real. -/
theorem rsqrt_pos_real {r : ℝ} (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.2 h.le), if_neg h.ne']

end Idealize.ShloMosaic.BatchStats

end
-- ==== Proof.MathStats.lean ====
/-
  The column statistics of a matrix of reals, as the host spells them, read at one column.

  The column mean of x : [M, K] is the column sum (a sum from the zero pattern) divided by the count n; for real
  entries and n ≠ 0 it is the real (∑ₚ x(p,k)) / n.  The column variance is spelled in two passes: the mean as a row
  [1, K], repeated down the rows and subtracted, the differences squared and summed per column, the sum divided by
  n − c for an integer count c that is 0 here, and the quotient kept where n − c > 0 (a fixed pattern elsewhere).  For real
  entries and n > 0 the comparison holds, so the variance at column k is the two-pass variance, a real v ≥ 0; and for a
  real ε > 0 the reciprocal square root of v + ε is a positive real.
-/
import proofs.«132872_j8993661518249_1_alg».proof.Proof.Spec
import proofs.«132872_j8993661518249_1_alg».proof.Proof.MathBN
import proofs.«132872_j8993661518249_1_alg».proof.Proof.LibBatchStats
import proofs.«132872_j8993661518249_1_alg».proof.Proof.LibHostLayout
import Idealize.ShloMosaic.Lib.IdealHost

noncomputable section

open scoped BigOperators

namespace Cert.GNN

open Idealize.ShloMosaic Idealize.ShloMosaic.ValueIdx

variable {M K : Nat}

/-- The shape of a scalar. -/
abbrev S0 : Shape := ⟨0, ![]⟩

/-! ### Scalars -/

/-- The quotient of a real by a nonzero real is a real. -/
theorem RealE.div_coe {u : EReal} (hu : RealE u) {n : ℝ} (hn : n ≠ 0) : RealE (Ideal.div u (n : EReal)) := by
  obtain ⟨a, rfl⟩ := hu
  rw [Ideal.div_coe hn, ← EReal.coe_mul]
  exact ⟨_, rfl⟩

/-- The reciprocal square root of a nonnegative real shifted by a positive real is a real. -/
theorem rsqrt_shift_real {v e : ℝ} (hv : 0 ≤ v) (he : 0 < e) : RealE (Ideal.rsqrt ((v : EReal) + (e : EReal))) := by
  rw [← EReal.coe_add, BatchStats.rsqrt_pos_real (by linarith)]
  exact ⟨_, rfl⟩

/-! ### The column sum and the column mean -/

/-- A host column sum from the zero pattern, at column k. -/
theorem colSum_apply (h' : (⟨2, ![M, K]⟩ : Shape).ReducesTo [(0 : Fin 2)] ⟨1, ![K]⟩)
    (h : (⟨2, ![M, K]⟩ : Shape).Reduces [(0 : Fin 2)] ⟨1, ![K]⟩) (h0 : 0 < S0.numel) (x : Arr2 M K) (k : Fin K) :
    (Host.reduceAdd (F := Ideal) (φ := .f32) x (constant S0 .f32 0x00000000#32) h' h0 : Arr1 K) (ix1 k)
      = ∑ p : Fin M, x (ix2 p k) := by
  rw [hostReduceAdd_apply, Ideal.hostReduceAdd_single h' h]
  show Ideal.ofBits .f32 0x00000000#32 + _ = _
  rw [Ideal.ofBits_zero_f32, zero_add]
  refine Finset.sum_congr rfl fun p _ => congrArg x ?_
  funext c
  apply Fin.ext
  rw [h.lift_val]
  match c with
  | ⟨0, _⟩ => simp [Shape.Reduces.liftVal]
  | ⟨1, _⟩ => simp [Shape.Reduces.liftVal]

/-- The column mean as the host spells it on a vector: the column sum divided by the broadcast count. -/
def meanH (h' : (⟨2, ![M, K]⟩ : Shape).ReducesTo [(0 : Fin 2)] ⟨1, ![K]⟩) (h0 : 0 < S0.numel)
    (hbK : S0.BroadcastsInDim ⟨1, ![K]⟩ (![] : Fin 0 → Fin 1)) (nW : BitVec 32) (x : Arr2 M K) : Arr1 K :=
  Host.divf (F := Ideal) (φ := .f32) (Host.reduceAdd (F := Ideal) (φ := .f32) x (constant S0 .f32 0x00000000#32) h' h0)
    (broadcastInDim ⟨1, ![K]⟩ ![] hbK (constant (F := Ideal) S0 .f32 nW))

theorem meanH_apply (h' : (⟨2, ![M, K]⟩ : Shape).ReducesTo [(0 : Fin 2)] ⟨1, ![K]⟩)
    (h : (⟨2, ![M, K]⟩ : Shape).Reduces [(0 : Fin 2)] ⟨1, ![K]⟩) (h0 : 0 < S0.numel)
    (hbK : S0.BroadcastsInDim ⟨1, ![K]⟩ (![] : Fin 0 → Fin 1)) (nW : BitVec 32) (x : Arr2 M K) (k : Fin K) :
    meanH h' h0 hbK nW x (ix1 k) = Ideal.div (∑ p : Fin M, x (ix2 p k)) (Ideal.ofBits .f32 nW) := by
  unfold meanH
  rw [hostDivf_apply, colSum_apply h' h h0, Cert.HostLayout.bcast_scalar_apply]
  rfl

/-- The column mean of reals, the count a nonzero real, is real. -/
theorem meanH_real (h' : (⟨2, ![M, K]⟩ : Shape).ReducesTo [(0 : Fin 2)] ⟨1, ![K]⟩)
    (h : (⟨2, ![M, K]⟩ : Shape).Reduces [(0 : Fin 2)] ⟨1, ![K]⟩) (h0 : 0 < S0.numel)
    (hbK : S0.BroadcastsInDim ⟨1, ![K]⟩ (![] : Fin 0 → Fin 1)) (nW : BitVec 32) {n : ℝ}
    (hnW : Ideal.ofBits .f32 nW = (n : EReal)) (hn : n ≠ 0) (x : Arr2 M K) (hx : IsReal x) :
    IsReal (meanH h' h0 hbK nW x) := by
  intro i
  obtain ⟨k, rfl⟩ : ∃ k, i = ix1 k := ⟨i 0, eq_ix1 i⟩
  rw [meanH_apply h' h, hnW]
  exact (RealE.sum _ _ fun p _ => hx.at _).div_coe hn

/-! ### The column variance -/

/-- The column variance as the host spells it, in two passes, with the integer count c subtracted from the divisor
    and the guard on the divisor's sign. -/
def varH (h' : (⟨2, ![M, K]⟩ : Shape).ReducesTo [(0 : Fin 2)] ⟨1, ![K]⟩) (h0 : 0 < S0.numel)
    (hb1 : (⟨1, ![K]⟩ : Shape).BroadcastsInDim ⟨2, ![1, K]⟩ (![1] : Fin 1 → Fin 2))
    (hb01 : S0.BroadcastsInDim ⟨2, ![1, K]⟩ (![] : Fin 0 → Fin 2))
    (hbMK : (⟨2, ![1, K]⟩ : Shape).BroadcastsInDim ⟨2, ![M, K]⟩ (![0, 1] : Fin 2 → Fin 2))
    (hbK : S0.BroadcastsInDim ⟨1, ![K]⟩ (![] : Fin 0 → Fin 1)) (nW : BitVec 32) (x : Arr2 M K) (c : IVec S0 32) :
    Arr1 K :=
  let row : Arr2 1 K := Host.divf (F := Ideal) (φ := .f32)
    (broadcastInDim ⟨2, ![1, K]⟩ ![1] hb1 (Host.reduceAdd (F := Ideal) (φ := .f32) x (constant S0 .f32 0x00000000#32) h' h0))
    (broadcastInDim ⟨2, ![1, K]⟩ ![] hb01 (constant (F := Ideal) S0 .f32 nW))
  let d : Arr2 M K := subf (F := Ideal) (φ := .f32) x (broadcastInDim ⟨2, ![M, K]⟩ ![0, 1] hbMK row)
  let cnt : S0.Idx → EReal := subf (F := Ideal) (φ := .f32) (constant S0 .f32 nW) (sitofp .f32 c)
  select (broadcastInDim ⟨1, ![K]⟩ ![] hbK (cmpf (F := Ideal) (φ := .f32) .ogt cnt (constant S0 .f32 0x00000000#32)))
    (Host.divf (F := Ideal) (φ := .f32)
      (Host.reduceAdd (F := Ideal) (φ := .f32) (mulf (F := Ideal) (φ := .f32) d d) (constant S0 .f32 0x00000000#32) h' h0)
      (broadcastInDim ⟨1, ![K]⟩ ![] hbK cnt))
    (broadcastInDim ⟨1, ![K]⟩ ![] hbK (id (constant (F := Ideal) S0 .f32 0x7FC00000#32)))

/-- The variance at column k, for a zero integer count and a positive real count n: the two-pass variance. -/
theorem varH_apply (h' : (⟨2, ![M, K]⟩ : Shape).ReducesTo [(0 : Fin 2)] ⟨1, ![K]⟩)
    (h : (⟨2, ![M, K]⟩ : Shape).Reduces [(0 : Fin 2)] ⟨1, ![K]⟩) (h0 : 0 < S0.numel)
    (hb1 : (⟨1, ![K]⟩ : Shape).BroadcastsInDim ⟨2, ![1, K]⟩ (![1] : Fin 1 → Fin 2))
    (hb01 : S0.BroadcastsInDim ⟨2, ![1, K]⟩ (![] : Fin 0 → Fin 2))
    (hbMK : (⟨2, ![1, K]⟩ : Shape).BroadcastsInDim ⟨2, ![M, K]⟩ (![0, 1] : Fin 2 → Fin 2))
    (hbK : S0.BroadcastsInDim ⟨1, ![K]⟩ (![] : Fin 0 → Fin 1)) (nW : BitVec 32) {n : ℝ}
    (hnW : Ideal.ofBits .f32 nW = (n : EReal)) (hn : 0 < n) (x : Arr2 M K) (c : IVec S0 32) (hc : c ix0 = 0#32)
    (k : Fin K) :
    varH h' h0 hb1 hb01 hbMK hbK nW x c (ix1 k)
      = Ideal.div (∑ p : Fin M, (x (ix2 p k) - Ideal.div (∑ q : Fin M, x (ix2 q k)) (n : EReal))
          * (x (ix2 p k) - Ideal.div (∑ q : Fin M, x (ix2 q k)) (n : EReal))) (n : EReal) := by
  have hcnt : (subf (F := Ideal) (φ := .f32) (constant S0 .f32 nW) (sitofp .f32 c) : S0.Idx → EReal) ix0 = (n : EReal) := by
    show Ideal.ofBits .f32 nW - (((c ix0).toInt : ℝ) : EReal) = _
    rw [hnW, hc]
    simp
  have hcmp : (cmpf (F := Ideal) (φ := .f32) .ogt
      (subf (F := Ideal) (φ := .f32) (constant S0 .f32 nW) (sitofp .f32 c)) (constant S0 .f32 0x00000000#32) : IVec S0 1) ix0 = 1#1 := by
    show Ideal.cmp .ogt ((subf (F := Ideal) (φ := .f32) (constant S0 .f32 nW) (sitofp .f32 c) : S0.Idx → EReal) ix0)
      (Ideal.ofBits .f32 0x00000000#32) = 1#1
    rw [hcnt, Ideal.ofBits_zero_f32]
    have : (0 : EReal) < (n : EReal) := EReal.coe_pos.2 hn
    simp [Ideal.cmp, this]
  unfold varH
  show Scalar.select (broadcastInDim (s := S0) ⟨1, ![K]⟩ ![] hbK _ (ix1 k)) (Host.divf _ _ (ix1 k)) _ = _
  rw [Cert.HostLayout.bcast_scalar_apply, hcmp, hostDivf_apply, Cert.HostLayout.bcast_scalar_apply, hcnt,
    colSum_apply h' h h0]
  show Ideal.div _ _ = _
  congr 1
  refine Finset.sum_congr rfl fun p _ => ?_
  have hd : ∀ q : Fin M, (subf (F := Ideal) (φ := .f32) x (broadcastInDim ⟨2, ![M, K]⟩ ![0, 1] hbMK
      (Host.divf (F := Ideal) (φ := .f32)
        (broadcastInDim ⟨2, ![1, K]⟩ ![1] hb1 (Host.reduceAdd (F := Ideal) (φ := .f32) x (constant S0 .f32 0x00000000#32) h' h0))
        (broadcastInDim ⟨2, ![1, K]⟩ ![] hb01 (constant (F := Ideal) S0 .f32 nW)))) : Arr2 M K) (ix2 q k)
      = x (ix2 q k) - Ideal.div (∑ q : Fin M, x (ix2 q k)) (n : EReal) := by
    intro q
    show x (ix2 q k) - broadcastInDim (s := ⟨2, ![1, K]⟩) ⟨2, ![M, K]⟩ ![0, 1] hbMK _ (ix2 q k) = _
    rw [Cert.HostLayout.bcast_cols_apply, hostDivf_apply, Cert.HostLayout.bcast_rowvec_apply,
      Cert.HostLayout.bcast_scalar_apply, colSum_apply h' h h0]
    show _ - Ideal.div _ (Ideal.ofBits .f32 nW) = _
    rw [hnW]
  show _ * _ = _
  rw [hd p]

/-- The variance of reals at column k is a nonnegative real. -/
theorem varH_real (h' : (⟨2, ![M, K]⟩ : Shape).ReducesTo [(0 : Fin 2)] ⟨1, ![K]⟩)
    (h : (⟨2, ![M, K]⟩ : Shape).Reduces [(0 : Fin 2)] ⟨1, ![K]⟩) (h0 : 0 < S0.numel)
    (hb1 : (⟨1, ![K]⟩ : Shape).BroadcastsInDim ⟨2, ![1, K]⟩ (![1] : Fin 1 → Fin 2))
    (hb01 : S0.BroadcastsInDim ⟨2, ![1, K]⟩ (![] : Fin 0 → Fin 2))
    (hbMK : (⟨2, ![1, K]⟩ : Shape).BroadcastsInDim ⟨2, ![M, K]⟩ (![0, 1] : Fin 2 → Fin 2))
    (hbK : S0.BroadcastsInDim ⟨1, ![K]⟩ (![] : Fin 0 → Fin 1)) (nW : BitVec 32) {n : ℝ}
    (hnW : Ideal.ofBits .f32 nW = (n : EReal)) (hn : 0 < n) (x : Arr2 M K) (hx : IsReal x) (c : IVec S0 32)
    (hc : c ix0 = 0#32) (k : Fin K) :
    ∃ v : ℝ, 0 ≤ v ∧ varH h' h0 hb1 hb01 hbMK hbK nW x c (ix1 k) = (v : EReal) := by
  rw [varH_apply h' h h0 hb1 hb01 hbMK hbK nW hnW hn x c hc k]
  choose xr hxr using fun p : Fin M => hx (ix2 p k)
  obtain ⟨m, hm⟩ : RealE (Ideal.div (∑ q : Fin M, x (ix2 q k)) (n : EReal)) :=
    (RealE.sum _ _ fun p _ => hx.at _).div_coe hn.ne'
  rw [hm]
  simp only [hxr]
  exact BatchStats.var_two_pass_real xr hn m

/-- The reciprocal square root of the shifted variance of reals is real. -/
theorem rsqrt_varH_real (h' : (⟨2, ![M, K]⟩ : Shape).ReducesTo [(0 : Fin 2)] ⟨1, ![K]⟩)
    (h : (⟨2, ![M, K]⟩ : Shape).Reduces [(0 : Fin 2)] ⟨1, ![K]⟩) (h0 : 0 < S0.numel)
    (hb1 : (⟨1, ![K]⟩ : Shape).BroadcastsInDim ⟨2, ![1, K]⟩ (![1] : Fin 1 → Fin 2))
    (hb01 : S0.BroadcastsInDim ⟨2, ![1, K]⟩ (![] : Fin 0 → Fin 2))
    (hbMK : (⟨2, ![1, K]⟩ : Shape).BroadcastsInDim ⟨2, ![M, K]⟩ (![0, 1] : Fin 2 → Fin 2))
    (hbK : S0.BroadcastsInDim ⟨1, ![K]⟩ (![] : Fin 0 → Fin 1)) (nW : BitVec 32) {n : ℝ}
    (hnW : Ideal.ofBits .f32 nW = (n : EReal)) (hn : 0 < n) (x : Arr2 M K) (hx : IsReal x) (c : IVec S0 32)
    (hc : c ix0 = 0#32) {e : ℝ} (he : 0 < e) (k : Fin K) :
    RealE (Ideal.rsqrt (varH h' h0 hb1 hb01 hbMK hbK nW x c (ix1 k) + (e : EReal))) := by
  obtain ⟨v, hv, hvar⟩ := varH_real h' h h0 hb1 hb01 hbMK hbK nW hnW hn x hx c hc k
  rw [hvar]
  exact rsqrt_shift_real hv he

end Cert.GNN

end
-- ==== Proof.MathReal.lean ====
/-
  Realness of arrays through the host's array operations.

  An entry of a gather is an entry of its operand, whatever the start indices (an out-of-range index is clamped into
  the operand), so a gather of an array of reals is an array of reals.  An entry of a scatter-add is the operand's entry
  plus a finite sum of update entries (those that land on it), so a scatter-add of arrays of reals is an array of
  reals, whatever the indices.  A broadcast scalar that is real, an entry-wise sum, difference, product and clamp at zero of
  arrays of reals, and a vector of reals laid out as a row, are arrays of reals.
-/
import proofs.«132872_j8993661518249_1_alg».proof.Proof.Spec
import proofs.«132872_j8993661518249_1_alg».proof.Proof.MathBN
import proofs.«132872_j8993661518249_1_alg».proof.Proof.LibHostLayout
import Idealize.ShloMosaic.Lib.IdealHost

noncomputable section

open scoped BigOperators

namespace Cert.GNN

open Idealize.ShloMosaic Idealize.ShloMosaic.ValueIdx

/-- A gather of an array of reals is an array of reals, for any start indices. -/
theorem gather_real {s si t : Shape} {w : Nat} (d : GatherDims s si t) (x : s.Idx → EReal) (idx : IVec si w)
    (hx : IsReal x) : IsReal (Host.gather d x idx) := fun _ => hx _

/-- A scatter-add of arrays of reals is an array of reals, for any indices. -/
theorem scatterAdd_real {s si u : Shape} {w : Nat} (d : ScatterDims s si u) (x : s.Idx → EReal) (idx : IVec si w)
    (upd : u.Idx → EReal) (hx : IsReal x) (hu : IsReal upd) :
    IsReal (Host.scatterAdd (F := Ideal) (φ := .f32) d x idx upd) := fun i => by
  show RealE (x i + ∑ j ∈ Finset.univ.filter (fun j => d.resultIdx? j idx = some i), upd j)
  exact (hx.at i).add (RealE.sum _ _ fun j _ => hu.at j)

/-- A broadcast scalar pattern that denotes a real is an array of reals. -/
theorem bcast_const_real {t : Shape} (h : (⟨0, ![]⟩ : Shape).BroadcastsInDim t (![] : Fin 0 → Fin t.rank)) (b : BitVec 32)
    (hb : RealE (Ideal.ofBits .f32 b)) :
    IsReal (broadcastInDim t ![] h (constant (F := Ideal) ⟨0, ![]⟩ .f32 b)) := fun j => by
  rw [Cert.HostLayout.bcast_scalar_apply]
  exact hb

/-- The zero array is an array of reals. -/
theorem bcast_zero_real {t : Shape} (h : (⟨0, ![]⟩ : Shape).BroadcastsInDim t (![] : Fin 0 → Fin t.rank)) :
    IsReal (broadcastInDim t ![] h (constant (F := Ideal) ⟨0, ![]⟩ .f32 0x00000000#32)) :=
  bcast_const_real h _ ⟨0, Ideal.ofBits_zero_f32⟩

/-- Entry-wise sum. -/
theorem addf_real {S : Shape} (a b : S.Idx → EReal) (ha : IsReal a) (hb : IsReal b) :
    IsReal (addf (F := Ideal) (φ := .f32) a b) := fun i => (ha.at i).add (hb.at i)

/-- Entry-wise difference. -/
theorem subf_real {S : Shape} (a b : S.Idx → EReal) (ha : IsReal a) (hb : IsReal b) :
    IsReal (subf (F := Ideal) (φ := .f32) a b) := fun i => (ha.at i).sub (hb.at i)

/-- Entry-wise product. -/
theorem mulf_real {S : Shape} (a b : S.Idx → EReal) (ha : IsReal a) (hb : IsReal b) :
    IsReal (mulf (F := Ideal) (φ := .f32) a b) := fun i => (ha.at i).mul (hb.at i)

/-- A vector of reals laid out as a one-row matrix. -/
theorem rowvec_real {C : Nat} (h : (⟨1, ![C]⟩ : Shape).ShapeCasts ⟨2, ![1, C]⟩) (x : (⟨1, ![C]⟩ : Shape).Idx → EReal)
    (hx : IsReal x) : IsReal (shapeCast ⟨2, ![1, C]⟩ x h) := fun i => by
  obtain ⟨z, q, rfl⟩ : ∃ (z : Fin 1) (q : Fin C), i = ix2 z q := ⟨i 0, i 1, eq_ix2 i⟩
  rw [Cert.HostLayout.reshape_rowvec_apply]
  exact hx _

end Cert.GNN

end
-- ==== Proof.StageReal.lean ====
/-
  Realness of the shared host stages of the network.

  For a matrix of reals: its column means are reals, its column variances are nonnegative reals, and therefore the
  reciprocal square roots of the variances shifted by the positive literal ε are reals.  The neighbour aggregation and
  the pooling are a gather followed by a scatter-add into zeros, resp. a scatter-add into zeros, so they send arrays of
  reals to arrays of reals whatever the integer indices.  The batch-norm scale row reads w·rsqrt(v + ε) and the shift row
  b − μ·(w·rsqrt(v + ε)) at each column; a bias laid out as a row reads the bias.
-/
import proofs.«132872_j8993661518249_1_alg».proof.Proof.KStages
import proofs.«132872_j8993661518249_1_alg».proof.Proof.MathBN
import proofs.«132872_j8993661518249_1_alg».proof.Proof.MathConsts
import proofs.«132872_j8993661518249_1_alg».proof.Proof.MathStats
import proofs.«132872_j8993661518249_1_alg».proof.Proof.MathReal

noncomputable section

open scoped BigOperators

namespace Cert.StageReal

open Idealize.ShloMosaic Idealize.ShloMosaic.ValueIdx
open Cert.GNN Cert.Stages
open Cert.KernelIdeal Cert.KernelIdeal.Facts₀ Cert.KernelIdeal.Facts

/-! ### The reciprocal standard deviation -/

/-- The reciprocal square root of a variance vector shifted by ε, entry by entry. -/
def rstd {K : Nat} (v : Arr1 K) : Arr1 K := fun j => Ideal.rsqrt (v j + ((epsR : ℝ) : EReal))

/-- For nonnegative real variances the reciprocal standard deviations are reals. -/
theorem rstd_real {K : Nat} (v : Arr1 K) (hv : ∀ k : Fin K, ∃ r : ℝ, 0 ≤ r ∧ v (ix1 k) = (r : EReal)) : IsReal (rstd v) := by
  intro i
  obtain ⟨k, rfl⟩ : ∃ k, i = ix1 k := ⟨i 0, eq_ix1 i⟩
  obtain ⟨r, hr, hvk⟩ := hv k
  show RealE (Ideal.rsqrt (v (ix1 k) + ((epsR : ℝ) : EReal)))
  rw [hvk]
  exact rsqrt_shift_real hr epsR_pos

/-- Nonnegative real variances are in particular reals. -/
theorem real_of_nonneg {K : Nat} (v : Arr1 K) (hv : ∀ k : Fin K, ∃ r : ℝ, 0 ≤ r ∧ v (ix1 k) = (r : EReal)) : IsReal v := by
  intro i
  obtain ⟨k, rfl⟩ : ∃ k, i = ix1 k := ⟨i 0, eq_ix1 i⟩
  obtain ⟨r, _, hvk⟩ := hv k
  exact ⟨r, hvk⟩

/-! ### The column statistics -/

theorem red128 : S50000x128.Reduces [0] S128 := by decide
theorem red96 : S50000x96.Reduces [0] S96 := by decide
theorem red512 : S512x96.Reduces [0] S96 := by decide

theorem mean128_eq (x : FA S50000x128) :
    mean128 x = meanH reducesTo_S50000x128_S128_d0 h_S_ bcast_S_S128 0x47435000#32 x := rfl

theorem var128_eq (x : FA S50000x128) :
    var128 x = varH reducesTo_S50000x128_S128_d0 h_S_ bcast_S128_S1x128_1 bcast_S_S1x128 bcast_S1x128_S50000x128_0_1
      bcast_S_S128 0x47435000#32 x (constantI S_ 32 0#32) := rfl

theorem mean96_eq (x : FA S50000x96) :
    mean96 x = meanH reducesTo_S50000x96_S96_d0 h_S_ bcast_S_S96 0x47435000#32 x := rfl

theorem var96_eq (x : FA S50000x96) :
    var96 x = varH reducesTo_S50000x96_S96_d0 h_S_ bcast_S96_S1x96_1 bcast_S_S1x96 bcast_S1x96_S50000x96_0_1
      bcast_S_S96 0x47435000#32 x (constantI S_ 32 0#32) := rfl

theorem mean512_eq (x : FA S512x96) :
    mean512 x = meanH reducesTo_S512x96_S96_d0 h_S_ bcast_S_S96 0x44000000#32 x := rfl

theorem var512_eq (x : FA S512x96) :
    var512 x = varH reducesTo_S512x96_S96_d0 h_S_ bcast_S96_S1x96_1 bcast_S_S1x96 bcast_S1x96_S512x96_0_1
      bcast_S_S96 0x44000000#32 x (constantI S_ 32 0#32) := rfl

theorem mean128_real (x : FA S50000x128) (hx : IsReal (S := S50000x128) x) : IsReal (S := S128) (mean128 x) := by
  rw [mean128_eq]
  exact meanH_real _ red128 _ _ _ ofBits_50000 (by norm_num) x hx

theorem var128_real (x : FA S50000x128) (hx : IsReal (S := S50000x128) x) (k : Fin 128) :
    ∃ v : ℝ, 0 ≤ v ∧ var128 x (ix1 k) = (v : EReal) := by
  rw [var128_eq]
  exact varH_real _ red128 _ _ _ _ _ _ ofBits_50000 (by norm_num) x hx _ rfl k

theorem mean96_real (x : FA S50000x96) (hx : IsReal (S := S50000x96) x) : IsReal (S := S96) (mean96 x) := by
  rw [mean96_eq]
  exact meanH_real _ red96 _ _ _ ofBits_50000 (by norm_num) x hx

theorem var96_real (x : FA S50000x96) (hx : IsReal (S := S50000x96) x) (k : Fin 96) :
    ∃ v : ℝ, 0 ≤ v ∧ var96 x (ix1 k) = (v : EReal) := by
  rw [var96_eq]
  exact varH_real _ red96 _ _ _ _ _ _ ofBits_50000 (by norm_num) x hx _ rfl k

theorem mean512_real (x : FA S512x96) (hx : IsReal (S := S512x96) x) : IsReal (S := S96) (mean512 x) := by
  rw [mean512_eq]
  exact meanH_real _ red512 _ _ _ ofBits_512 (by norm_num) x hx

theorem var512_real (x : FA S512x96) (hx : IsReal (S := S512x96) x) (k : Fin 96) :
    ∃ v : ℝ, 0 ≤ v ∧ var512 x (ix1 k) = (v : EReal) := by
  rw [var512_eq]
  exact varH_real _ red512 _ _ _ _ _ _ ofBits_512 (by norm_num) x hx _ rfl k

/-! ### Aggregation and pooling -/

/-- The neighbour aggregation of an array of reals is an array of reals, for any edge list. -/
theorem aggOf_real (h : FA S50000x96) (e : IA S2x800000) (hh : IsReal (S := S50000x96) h) :
    IsReal (S := S50000x96) (aggOf h e) := by
  unfold aggOf aggCols
  exact scatterAdd_real _ _ _ _ (bcast_zero_real _) (gather_real _ _ _ hh)

/-- The pooling of an array of reals is an array of reals, for any graph ids. -/
theorem poolOf_real (h : FA S50000x96) (batch : IA S50000) (hh : IsReal (S := S50000x96) h) :
    IsReal (S := S512x96) (poolOf h batch) := by
  unfold poolOf
  exact scatterAdd_real _ _ _ _ (bcast_zero_real _) hh

/-! ### The scale, shift and bias rows at an entry -/

theorem scaleRow128_at (w v : FA S128) (k : Fin 128) :
    scaleRow128 w v (ix2 0 k) = w (ix1 k) * rstd (K := 128) v (ix1 k) := by
  unfold scaleRow128
  rw [Cert.HostLayout.reshape_rowvec_apply]
  show w (ix1 k) * Ideal.rsqrt (v (ix1 k) + broadcastInDim (s := S_) S128 ![] bcast_S_S128 _ (ix1 k)) = _
  rw [Cert.HostLayout.bcast_scalar_apply]
  show _ * Ideal.rsqrt (_ + Ideal.ofBits .f32 0x3727C5AC#32) = _
  rw [ofBits_eps]
  rfl

theorem shiftRow128_at (b mu w v : FA S128) (k : Fin 128) :
    shiftRow128 b mu w v (ix2 0 k) = b (ix1 k) - mu (ix1 k) * (w (ix1 k) * rstd (K := 128) v (ix1 k)) := by
  unfold shiftRow128
  rw [Cert.HostLayout.reshape_rowvec_apply]
  show b (ix1 k) - mu (ix1 k) * (w (ix1 k) * Ideal.rsqrt (v (ix1 k) + broadcastInDim (s := S_) S128 ![] bcast_S_S128 _ (ix1 k))) = _
  rw [Cert.HostLayout.bcast_scalar_apply]
  show _ - _ * (_ * Ideal.rsqrt (_ + Ideal.ofBits .f32 0x3727C5AC#32)) = _
  rw [ofBits_eps]
  rfl

theorem scaleRow96_at (w v : FA S96) (k : Fin 96) :
    scaleRow96 w v (ix2 0 k) = w (ix1 k) * rstd (K := 96) v (ix1 k) := by
  unfold scaleRow96
  rw [Cert.HostLayout.reshape_rowvec_apply]
  show w (ix1 k) * Ideal.rsqrt (v (ix1 k) + broadcastInDim (s := S_) S96 ![] bcast_S_S96 _ (ix1 k)) = _
  rw [Cert.HostLayout.bcast_scalar_apply]
  show _ * Ideal.rsqrt (_ + Ideal.ofBits .f32 0x3727C5AC#32) = _
  rw [ofBits_eps]
  rfl

theorem shiftRow96_at (b mu w v : FA S96) (k : Fin 96) :
    shiftRow96 b mu w v (ix2 0 k) = b (ix1 k) - mu (ix1 k) * (w (ix1 k) * rstd (K := 96) v (ix1 k)) := by
  unfold shiftRow96
  rw [Cert.HostLayout.reshape_rowvec_apply]
  show b (ix1 k) - mu (ix1 k) * (w (ix1 k) * Ideal.rsqrt (v (ix1 k) + broadcastInDim (s := S_) S96 ![] bcast_S_S96 _ (ix1 k))) = _
  rw [Cert.HostLayout.bcast_scalar_apply]
  show _ - _ * (_ * Ideal.rsqrt (_ + Ideal.ofBits .f32 0x3727C5AC#32)) = _
  rw [ofBits_eps]
  rfl

theorem row96_at (b : FA S96) (k : Fin 96) : row96 b (ix2 0 k) = b (ix1 k) := by
  unfold row96
  exact Cert.HostLayout.reshape_rowvec_apply _ _ _ _

theorem row10_at (b : FA S10) (k : Fin 10) : row10 b (ix2 0 k) = b (ix1 k) := by
  unfold row10
  exact Cert.HostLayout.reshape_rowvec_apply _ _ _ _

/-! ### The rows are real -/

theorem isReal_row {K : Nat} (t : Arr2 1 K) (h : ∀ k : Fin K, RealE (t (ix2 0 k))) : IsReal t := by
  intro i
  obtain ⟨z, q, rfl⟩ : ∃ (z : Fin 1) (q : Fin K), i = ix2 z q := ⟨i 0, i 1, eq_ix2 i⟩
  obtain rfl : z = 0 := Subsingleton.elim _ _
  exact h q

theorem scaleRow128_real (w v : FA S128) (hw : IsReal (S := S128) w) (hr : IsReal (rstd (K := 128) v)) :
    IsReal (S := S1x128) (scaleRow128 w v) :=
  isReal_row _ fun k => by rw [scaleRow128_at]; exact (hw.at _).mul (hr.at _)

theorem shiftRow128_real (b mu w v : FA S128) (hb : IsReal (S := S128) b) (hmu : IsReal (S := S128) mu)
    (hw : IsReal (S := S128) w) (hr : IsReal (rstd (K := 128) v)) : IsReal (S := S1x128) (shiftRow128 b mu w v) :=
  isReal_row _ fun k => by rw [shiftRow128_at]; exact (hb.at _).sub ((hmu.at _).mul ((hw.at _).mul (hr.at _)))

theorem scaleRow96_real (w v : FA S96) (hw : IsReal (S := S96) w) (hr : IsReal (rstd (K := 96) v)) :
    IsReal (S := S1x96) (scaleRow96 w v) :=
  isReal_row _ fun k => by rw [scaleRow96_at]; exact (hw.at _).mul (hr.at _)

theorem shiftRow96_real (b mu w v : FA S96) (hb : IsReal (S := S96) b) (hmu : IsReal (S := S96) mu)
    (hw : IsReal (S := S96) w) (hr : IsReal (rstd (K := 96) v)) : IsReal (S := S1x96) (shiftRow96 b mu w v) :=
  isReal_row _ fun k => by rw [shiftRow96_at]; exact (hb.at _).sub ((hmu.at _).mul ((hw.at _).mul (hr.at _)))

theorem row96_real (b : FA S96) (hb : IsReal (S := S96) b) : IsReal (S := S1x96) (row96 b) :=
  isReal_row _ fun k => by rw [row96_at]; exact hb.at _

theorem row10_real (b : FA S10) (hb : IsReal (S := S10) b) : IsReal (S := S1x10) (row10 b) :=
  isReal_row _ fun k => by rw [row10_at]; exact hb.at _

end Cert.StageReal

end
-- ==== Proof.MathLayer.lean ====
/-
  The dense layers with an affine normalisation, rewritten over the batch normalisation.

  When the scale row is w·r and the shift row is b − μ·(w·r), and every operand is real, the affine normalisation of each
  entry is its batch normalisation (x − μ)·r·w + b; so each of the three dense forms (clamp after; clamp before and
  after; no clamp) of the affinely normalised rows is the same dense form of the batch-normalised rows.
-/
import proofs.«132872_j8993661518249_1_alg».proof.Proof.Spec
import proofs.«132872_j8993661518249_1_alg».proof.Proof.MathBN

noncomputable section

open scoped BigOperators

namespace Cert.GNN

open Idealize.ShloMosaic Idealize.ShloMosaic.ValueIdx

variable {M K N : Nat}

theorem affLinRelu_bn (x : Arr2 M K) (mu r w b : Arr1 K) (s t : Arr2 1 K) (W : Arr2 K N) (bias : Arr2 1 N)
    (hx : IsReal x) (hmu : IsReal mu) (hr : IsReal r) (hw : IsReal w) (hb : IsReal b)
    (hs : ∀ k : Fin K, s (ix2 0 k) = w (ix1 k) * r (ix1 k))
    (ht : ∀ k : Fin K, t (ix2 0 k) = b (ix1 k) - mu (ix1 k) * (w (ix1 k) * r (ix1 k))) (p : Fin M) (c : Fin N) :
    affLinRelu x s t W bias (ix2 p c)
      = relu ((∑ k : Fin K, bnAt x mu r w b p k * W (ix2 k c)) + bias (ix2 0 c)) := by
  show relu ((∑ k : Fin K, affAt x s t p k * W (ix2 k c)) + bias (ix2 0 c)) = _
  simp only [aff_eq_bn x mu r w b s t hx hmu hr hw hb hs ht]

theorem affReluLinRelu_bn (x : Arr2 M K) (mu r w b : Arr1 K) (s t : Arr2 1 K) (W : Arr2 K N) (bias : Arr2 1 N)
    (hx : IsReal x) (hmu : IsReal mu) (hr : IsReal r) (hw : IsReal w) (hb : IsReal b)
    (hs : ∀ k : Fin K, s (ix2 0 k) = w (ix1 k) * r (ix1 k))
    (ht : ∀ k : Fin K, t (ix2 0 k) = b (ix1 k) - mu (ix1 k) * (w (ix1 k) * r (ix1 k))) (p : Fin M) (c : Fin N) :
    affReluLinRelu x s t W bias (ix2 p c)
      = relu ((∑ k : Fin K, relu (bnAt x mu r w b p k) * W (ix2 k c)) + bias (ix2 0 c)) := by
  show relu ((∑ k : Fin K, relu (affAt x s t p k) * W (ix2 k c)) + bias (ix2 0 c)) = _
  simp only [aff_eq_bn x mu r w b s t hx hmu hr hw hb hs ht]

theorem affLin_bn (x : Arr2 M K) (mu r w b : Arr1 K) (s t : Arr2 1 K) (W : Arr2 K N) (bias : Arr2 1 N)
    (hx : IsReal x) (hmu : IsReal mu) (hr : IsReal r) (hw : IsReal w) (hb : IsReal b)
    (hs : ∀ k : Fin K, s (ix2 0 k) = w (ix1 k) * r (ix1 k))
    (ht : ∀ k : Fin K, t (ix2 0 k) = b (ix1 k) - mu (ix1 k) * (w (ix1 k) * r (ix1 k))) (p : Fin M) (c : Fin N) :
    affLin x s t W bias (ix2 p c)
      = (∑ k : Fin K, bnAt x mu r w b p k * W (ix2 k c)) + bias (ix2 0 c) := by
  show (∑ k : Fin K, affAt x s t p k * W (ix2 k c)) + bias (ix2 0 c) = _
  simp only [aff_eq_bn x mu r w b s t hx hmu hr hw hb hs ht]

theorem sumLin_apply (h a : Arr2 M K) (W : Arr2 K N) (bias : Arr2 1 N) (p : Fin M) (c : Fin N) :
    sumLin h a W bias (ix2 p c) = (∑ k : Fin K, (h (ix2 p k) + a (ix2 p k)) * W (ix2 k c)) + bias (ix2 0 c) := rfl

end Cert.GNN

end
-- ==== Proof.KAt.lean ====
/-
  The kernel program's stages read at one entry, and their realness.

  With the scale row w·r and the shift row b − μ·(w·r) the host prepares (μ the column mean, r the reciprocal square root of
  the column variance shifted by ε), each normalised dense layer of the kernel program reads, at (p, c), the dense form of
  the batch normalisation (x − μ)·r·w + b of its real input; the message-passing layer's first half reads the dense form of
  the rows plus their aggregated neighbours.  Every stage of real operands has only real entries.
-/
import proofs.«132872_j8993661518249_1_alg».proof.Proof.KOut
import proofs.«132872_j8993661518249_1_alg».proof.Proof.StageReal
import proofs.«132872_j8993661518249_1_alg».proof.Proof.MathLayer

noncomputable section

open scoped BigOperators

namespace Cert.KAt

open Idealize.ShloMosaic Idealize.ShloMosaic.ValueIdx
open Cert.GNN Cert.StageReal Cert.Stages
open Cert.KernelIdeal

/-- Two-axis arrays that agree at every (p, c) are equal. -/
theorem ext2 {M N : Nat} (a b : Arr2 M N) (h : ∀ (p : Fin M) (c : Fin N), a (ix2 p c) = b (ix2 p c)) : a = b := by
  funext i
  rw [eq_ix2 i]
  exact h _ _

/-! ### Layer 0 -/

theorem h0K_at (x : FA S50000x128) (w b : FA S128) (W : FA S128x96) (bb : FA S96) (hx : IsReal (S := S50000x128) x)
    (hw : IsReal (S := S128) w) (hb : IsReal (S := S128) b) (p : Fin 50000) (c : Fin 96) :
    h0K x w b W bb (ix2 p c)
      = relu ((∑ k : Fin 128, bnAt (M := 50000) (K := 128) x (mean128 x) (rstd (K := 128) (var128 x)) w b p k * W (ix2 k c))
          + bb (ix1 c)) := by
  unfold h0K
  rw [affLinRelu_bn (M := 50000) (K := 128) (N := 96) x (mean128 x) (rstd (K := 128) (var128 x)) w b _ _ W (row96 bb) hx
    (mean128_real x hx) (rstd_real _ (var128_real x hx)) hw hb (scaleRow128_at w (var128 x))
    (shiftRow128_at b (mean128 x) w (var128 x)) p c, row96_at]

theorem h0K_real (x : FA S50000x128) (w b : FA S128) (W : FA S128x96) (bb : FA S96) (hx : IsReal (S := S50000x128) x)
    (hw : IsReal (S := S128) w) (hb : IsReal (S := S128) b) (hW : IsReal (S := S128x96) W) (hbb : IsReal (S := S96) bb) :
    IsReal (S := S50000x96) (h0K x w b W bb) := by
  unfold h0K
  have hr := rstd_real (K := 128) _ (var128_real x hx)
  exact affLinRelu_real (M := 50000) (K := 128) (N := 96) x _ _ W _ hx (scaleRow128_real w _ hw hr)
    (shiftRow128_real b _ w _ hb (mean128_real x hx) hw hr) hW (row96_real bb hbb)

/-! ### A message-passing layer -/

theorem t1K_at (h : FA S50000x96) (e : IA S2x800000) (W1 : FA S96x96) (b1 : FA S96) (p : Fin 50000) (c : Fin 96) :
    t1K h e W1 b1 (ix2 p c) = (∑ k : Fin 96, (h (ix2 p k) + aggOf h e (ix2 p k)) * W1 (ix2 k c)) + b1 (ix1 c) := by
  unfold t1K
  rw [sumLin_apply, row96_at]

theorem t1K_real (h : FA S50000x96) (e : IA S2x800000) (W1 : FA S96x96) (b1 : FA S96) (hh : IsReal (S := S50000x96) h)
    (hW1 : IsReal (S := S96x96) W1) (hb1 : IsReal (S := S96) b1) : IsReal (S := S50000x96) (t1K h e W1 b1) := by
  unfold t1K
  exact sumLin_real (M := 50000) (K := 96) (N := 96) h (aggOf h e) W1 (row96 b1) hh (aggOf_real h e hh) hW1 (row96_real b1 hb1)

theorem t2K_at (t : FA S50000x96) (bw bb : FA S96) (W2 : FA S96x96) (b2 : FA S96) (ht : IsReal (S := S50000x96) t)
    (hbw : IsReal (S := S96) bw) (hbb : IsReal (S := S96) bb) (p : Fin 50000) (c : Fin 96) :
    t2K t bw bb W2 b2 (ix2 p c)
      = relu ((∑ k : Fin 96, relu (bnAt (M := 50000) (K := 96) t (mean96 t) (rstd (K := 96) (var96 t)) bw bb p k) * W2 (ix2 k c))
          + b2 (ix1 c)) := by
  unfold t2K
  rw [affReluLinRelu_bn (M := 50000) (K := 96) (N := 96) t (mean96 t) (rstd (K := 96) (var96 t)) bw bb _ _ W2 (row96 b2) ht
    (mean96_real t ht) (rstd_real _ (var96_real t ht)) hbw hbb (scaleRow96_at bw (var96 t))
    (shiftRow96_at bb (mean96 t) bw (var96 t)) p c, row96_at]

theorem t2K_real (t : FA S50000x96) (bw bb : FA S96) (W2 : FA S96x96) (b2 : FA S96) (ht : IsReal (S := S50000x96) t)
    (hbw : IsReal (S := S96) bw) (hbb : IsReal (S := S96) bb) (hW2 : IsReal (S := S96x96) W2) (hb2 : IsReal (S := S96) b2) :
    IsReal (S := S50000x96) (t2K t bw bb W2 b2) := by
  unfold t2K
  have hr := rstd_real (K := 96) _ (var96_real t ht)
  exact affReluLinRelu_real (M := 50000) (K := 96) (N := 96) t _ _ W2 _ ht (scaleRow96_real bw _ hbw hr)
    (shiftRow96_real bb _ bw _ hbb (mean96_real t ht) hbw hr) hW2 (row96_real b2 hb2)

theorem layerK_real (h : FA S50000x96) (e : IA S2x800000) (W1 : FA S96x96) (b1 bw bb : FA S96) (W2 : FA S96x96) (b2 : FA S96)
    (hh : IsReal (S := S50000x96) h) (hW1 : IsReal (S := S96x96) W1) (hb1 : IsReal (S := S96) b1)
    (hbw : IsReal (S := S96) bw) (hbb : IsReal (S := S96) bb) (hW2 : IsReal (S := S96x96) W2) (hb2 : IsReal (S := S96) b2) :
    IsReal (S := S50000x96) (layerK h e W1 b1 bw bb W2 b2) := by
  unfold layerK
  exact t2K_real _ bw bb W2 b2 (t1K_real h e W1 b1 hh hW1 hb1) hbw hbb hW2 hb2

/-! ### The two layers on the graph rows -/

theorem g2K_at (g : FA S512x96) (w b : FA S96) (W : FA S96x96) (bb : FA S96) (hg : IsReal (S := S512x96) g)
    (hw : IsReal (S := S96) w) (hb : IsReal (S := S96) b) (p : Fin 512) (c : Fin 96) :
    g2K g w b W bb (ix2 p c)
      = relu ((∑ k : Fin 96, bnAt (M := 512) (K := 96) g (mean512 g) (rstd (K := 96) (var512 g)) w b p k * W (ix2 k c))
          + bb (ix1 c)) := by
  unfold g2K
  rw [affLinRelu_bn (M := 512) (K := 96) (N := 96) g (mean512 g) (rstd (K := 96) (var512 g)) w b _ _ W (row96 bb) hg
    (mean512_real g hg) (rstd_real _ (var512_real g hg)) hw hb (scaleRow96_at w (var512 g))
    (shiftRow96_at b (mean512 g) w (var512 g)) p c, row96_at]

theorem g2K_real (g : FA S512x96) (w b : FA S96) (W : FA S96x96) (bb : FA S96) (hg : IsReal (S := S512x96) g)
    (hw : IsReal (S := S96) w) (hb : IsReal (S := S96) b) (hW : IsReal (S := S96x96) W) (hbb : IsReal (S := S96) bb) :
    IsReal (S := S512x96) (g2K g w b W bb) := by
  unfold g2K
  have hr := rstd_real (K := 96) _ (var512_real g hg)
  exact affLinRelu_real (M := 512) (K := 96) (N := 96) g _ _ W _ hg (scaleRow96_real w _ hw hr)
    (shiftRow96_real b _ w _ hb (mean512_real g hg) hw hr) hW (row96_real bb hbb)

theorem lgK_at (g : FA S512x96) (w b : FA S96) (W : FA S96x10) (bb : FA S10) (hg : IsReal (S := S512x96) g)
    (hw : IsReal (S := S96) w) (hb : IsReal (S := S96) b) (p : Fin 512) (c : Fin 10) :
    lgK g w b W bb (ix2 p c)
      = (∑ k : Fin 96, bnAt (M := 512) (K := 96) g (mean512 g) (rstd (K := 96) (var512 g)) w b p k * W (ix2 k c))
          + bb (ix1 c) := by
  unfold lgK
  rw [affLin_bn (M := 512) (K := 96) (N := 10) g (mean512 g) (rstd (K := 96) (var512 g)) w b _ _ W (row10 bb) hg
    (mean512_real g hg) (rstd_real _ (var512_real g hg)) hw hb (scaleRow96_at w (var512 g))
    (shiftRow96_at b (mean512 g) w (var512 g)) p c, row10_at]

/-! ### The node rows after the three layers -/

theorem h3K_real (a0 : FA S50000x128) (a1 : IA S2x800000) (a3 a4 : FA S128) (a5 : FA S128x96) (a6 : FA S96)
    (a7 : FA S96x96) (a8 a9 a10 : FA S96) (a11 : FA S96x96) (a12 : FA S96)
    (a13 : FA S96x96) (a14 a15 a16 : FA S96) (a17 : FA S96x96) (a18 : FA S96)
    (a19 : FA S96x96) (a20 a21 a22 : FA S96) (a23 : FA S96x96) (a24 : FA S96)
    (h0 : IsReal (S := S50000x128) a0) (h3 : IsReal (S := S128) a3) (h4 : IsReal (S := S128) a4)
    (h5 : IsReal (S := S128x96) a5) (h6 : IsReal (S := S96) a6)
    (h7 : IsReal (S := S96x96) a7) (h8 : IsReal (S := S96) a8) (h9 : IsReal (S := S96) a9) (h10 : IsReal (S := S96) a10)
    (h11 : IsReal (S := S96x96) a11) (h12 : IsReal (S := S96) a12)
    (h13 : IsReal (S := S96x96) a13) (h14 : IsReal (S := S96) a14) (h15 : IsReal (S := S96) a15) (h16 : IsReal (S := S96) a16)
    (h17 : IsReal (S := S96x96) a17) (h18 : IsReal (S := S96) a18)
    (h19 : IsReal (S := S96x96) a19) (h20 : IsReal (S := S96) a20) (h21 : IsReal (S := S96) a21) (h22 : IsReal (S := S96) a22)
    (h23 : IsReal (S := S96x96) a23) (h24 : IsReal (S := S96) a24) :
    IsReal (S := S50000x96) (h3K a0 a1 a3 a4 a5 a6 a7 a8 a9 a10 a11 a12 a13 a14 a15 a16 a17 a18 a19 a20 a21 a22 a23 a24) := by
  unfold h3K
  exact layerK_real _ a1 a19 a20 a21 a22 a23 a24
    (layerK_real _ a1 a13 a14 a15 a16 a17 a18
      (layerK_real _ a1 a7 a8 a9 a10 a11 a12 (h0K_real a0 a3 a4 a5 a6 h0 h3 h4 h5 h6) h7 h8 h9 h10 h11 h12)
      h13 h14 h15 h16 h17 h18)
    h19 h20 h21 h22 h23 h24

end Cert.KAt

end
-- ==== Proof.RStageAt.lean ====
/-
  The reference's stages read at one entry.

  A per-column vector spread over the rows of a matrix reads the vector's entry of the column.  Hence the reference's batch
  normalisation with given column statistics reads, at (p, k), (x(p,k) − μ(k))·rsqrt(v(k) + ε)·w(k) + b(k); a dense layer
  reads (∑ₖ X(p,k)·W(k,c)) + b(c); the clamp reads max(·, 0); the sum of two arrays the sum of the entries.  The column
  means and variances, the neighbour aggregation, the pooling and the log-softmax are spelled by the same operations in
  both programs, so they are the same functions.
-/
import proofs.«132872_j8993661518249_1_alg».proof.Proof.RStages
import proofs.«132872_j8993661518249_1_alg».proof.Proof.KStages
import proofs.«132872_j8993661518249_1_alg».proof.Proof.StageReal
import proofs.«132872_j8993661518249_1_alg».proof.Proof.LibLinearRows

noncomputable section

open scoped BigOperators

namespace Cert.RStageAt

open Idealize.ShloMosaic Idealize.ShloMosaic.ValueIdx
open Cert.GNN Cert.StageReal
open Cert.Stages (FA IA)
open Cert.KernelIdeal

/-! ### Generic forms -/

section Generic

variable {M K N : Nat}

/-- A vector made a row and repeated down the rows reads the vector's entry of the column. -/
theorem rows_apply (hb1 : (⟨1, ![K]⟩ : Shape).BroadcastsInDim ⟨2, ![1, K]⟩ (![1] : Fin 1 → Fin 2))
    (hbMK : (⟨2, ![1, K]⟩ : Shape).BroadcastsInDim ⟨2, ![M, K]⟩ (![0, 1] : Fin 2 → Fin 2)) (v : Arr1 K) (p : Fin M)
    (k : Fin K) :
    broadcastInDim ⟨2, ![M, K]⟩ ![0, 1] hbMK (broadcastInDim ⟨2, ![1, K]⟩ ![1] hb1 v) (ix2 p k) = v (ix1 k) := by
  rw [Cert.HostLayout.bcast_cols_apply, Cert.HostLayout.bcast_rowvec_apply]

/-- The host's batch normalisation with given column statistics. -/
def bnH (hb1 : (⟨1, ![K]⟩ : Shape).BroadcastsInDim ⟨2, ![1, K]⟩ (![1] : Fin 1 → Fin 2))
    (hbMK : (⟨2, ![1, K]⟩ : Shape).BroadcastsInDim ⟨2, ![M, K]⟩ (![0, 1] : Fin 2 → Fin 2))
    (hbK : S0.BroadcastsInDim ⟨1, ![K]⟩ (![] : Fin 0 → Fin 1)) (x : Arr2 M K) (mu v w b : Arr1 K) : Arr2 M K :=
  addf (F := Ideal) (φ := .f32)
    (mulf (F := Ideal) (φ := .f32)
      (mulf (F := Ideal) (φ := .f32)
        (subf (F := Ideal) (φ := .f32) x (broadcastInDim ⟨2, ![M, K]⟩ ![0, 1] hbMK (broadcastInDim ⟨2, ![1, K]⟩ ![1] hb1 mu)))
        (broadcastInDim ⟨2, ![M, K]⟩ ![0, 1] hbMK (broadcastInDim ⟨2, ![1, K]⟩ ![1] hb1
          (Host.rsqrt (F := Ideal) (φ := .f32) (addf (F := Ideal) (φ := .f32) v
            (broadcastInDim ⟨1, ![K]⟩ ![] hbK (constant (F := Ideal) S0 .f32 0x3727C5AC#32)))))))
      (broadcastInDim ⟨2, ![M, K]⟩ ![0, 1] hbMK (broadcastInDim ⟨2, ![1, K]⟩ ![1] hb1 w)))
    (broadcastInDim ⟨2, ![M, K]⟩ ![0, 1] hbMK (broadcastInDim ⟨2, ![1, K]⟩ ![1] hb1 b))

theorem bnH_at (hb1 : (⟨1, ![K]⟩ : Shape).BroadcastsInDim ⟨2, ![1, K]⟩ (![1] : Fin 1 → Fin 2))
    (hbMK : (⟨2, ![1, K]⟩ : Shape).BroadcastsInDim ⟨2, ![M, K]⟩ (![0, 1] : Fin 2 → Fin 2))
    (hbK : S0.BroadcastsInDim ⟨1, ![K]⟩ (![] : Fin 0 → Fin 1)) (x : Arr2 M K) (mu v w b : Arr1 K) (p : Fin M) (k : Fin K) :
    bnH hb1 hbMK hbK x mu v w b (ix2 p k) = bnAt x mu (rstd v) w b p k := by
  unfold bnH
  show (x (ix2 p k) - broadcastInDim (s := ⟨2, ![1, K]⟩) ⟨2, ![M, K]⟩ ![0, 1] hbMK _ (ix2 p k))
      * broadcastInDim (s := ⟨2, ![1, K]⟩) ⟨2, ![M, K]⟩ ![0, 1] hbMK _ (ix2 p k)
      * broadcastInDim (s := ⟨2, ![1, K]⟩) ⟨2, ![M, K]⟩ ![0, 1] hbMK _ (ix2 p k)
      + broadcastInDim (s := ⟨2, ![1, K]⟩) ⟨2, ![M, K]⟩ ![0, 1] hbMK _ (ix2 p k) = _
  rw [rows_apply, rows_apply, rows_apply, rows_apply]
  show (x (ix2 p k) - mu (ix1 k))
      * Ideal.rsqrt (v (ix1 k) + broadcastInDim (s := S0) ⟨1, ![K]⟩ ![] hbK _ (ix1 k)) * w (ix1 k) + b (ix1 k) = _
  rw [Cert.HostLayout.bcast_scalar_apply]
  show _ * Ideal.rsqrt (_ + Ideal.ofBits .f32 0x3727C5AC#32) * _ + _ = _
  rw [ofBits_eps]
  rfl

/-- The host's dense layer: the plain product plus the bias repeated down the rows. -/
theorem dense_at (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (X : Arr2 M K) (W : Arr2 K N) (b : Arr1 N) (p : Fin M) (c : Fin N) :
    addf (F := Ideal) (φ := .f32) (Host.dotGeneral (F := Ideal) (φ₁ := .f32) (φ₂ := .f32) (DotDims.plain M K N) none X W : FVec Ideal ⟨2, ![M, N]⟩ .f32)
        (broadcastInDim ⟨2, ![M, N]⟩ ![0, 1] h2 (broadcastInDim ⟨2, ![1, N]⟩ ![1] h1 b)) (ix2 p c)
      = (∑ k : Fin K, X (ix2 p k) * W (ix2 k c)) + b (ix1 c) :=
  LinearRows.host_lin_apply h1 h2 X W b p c

/-- The host's clamp at zero. -/
theorem relu_at {S : Shape} (h : S0.BroadcastsInDim S (![] : Fin 0 → Fin S.rank)) (x : S.Idx → EReal) (i : S.Idx) :
    maximumf (F := Ideal) (φ := .f32) x (broadcastInDim S ![] h (constant (F := Ideal) S0 .f32 0x00000000#32)) i = relu (x i) := by
  show max (x i) (broadcastInDim (s := S0) S ![] h _ i) = _
  rw [Cert.HostLayout.bcast_scalar_apply]
  show max (x i) (Ideal.ofBits .f32 0x00000000#32) = _
  rw [Ideal.ofBits_zero_f32]
  rfl

end Generic

/-! ### The reference's stages -/

theorem bnR128_at (x : FA S50000x128) (mu v w b : FA S128) (p : Fin 50000) (k : Fin 128) :
    RStages.bnR128 x mu v w b (ix2 p k) = bnAt (M := 50000) (K := 128) x mu (rstd (K := 128) v) w b p k :=
  bnH_at (M := 50000) (K := 128) _ _ _ x mu v w b p k

theorem bnR96_at (x : FA S50000x96) (mu v w b : FA S96) (p : Fin 50000) (k : Fin 96) :
    RStages.bnR96 x mu v w b (ix2 p k) = bnAt (M := 50000) (K := 96) x mu (rstd (K := 96) v) w b p k :=
  bnH_at (M := 50000) (K := 96) _ _ _ x mu v w b p k

theorem bnR512_at (x : FA S512x96) (mu v w b : FA S96) (p : Fin 512) (k : Fin 96) :
    RStages.bnR512 x mu v w b (ix2 p k) = bnAt (M := 512) (K := 96) x mu (rstd (K := 96) v) w b p k :=
  bnH_at (M := 512) (K := 96) _ _ _ x mu v w b p k

theorem denseR128_at (X : FA S50000x128) (W : FA S128x96) (b : FA S96) (p : Fin 50000) (c : Fin 96) :
    RStages.denseR128 X W b (ix2 p c) = (∑ k : Fin 128, X (ix2 p k) * W (ix2 k c)) + b (ix1 c) :=
  dense_at (M := 50000) (K := 128) (N := 96) _ _ X W b p c

theorem denseR96_at (X : FA S50000x96) (W : FA S96x96) (b : FA S96) (p : Fin 50000) (c : Fin 96) :
    RStages.denseR96 X W b (ix2 p c) = (∑ k : Fin 96, X (ix2 p k) * W (ix2 k c)) + b (ix1 c) :=
  dense_at (M := 50000) (K := 96) (N := 96) _ _ X W b p c

theorem denseR512_at (X : FA S512x96) (W : FA S96x96) (b : FA S96) (p : Fin 512) (c : Fin 96) :
    RStages.denseR512 X W b (ix2 p c) = (∑ k : Fin 96, X (ix2 p k) * W (ix2 k c)) + b (ix1 c) :=
  dense_at (M := 512) (K := 96) (N := 96) _ _ X W b p c

theorem denseR512x10_at (X : FA S512x96) (W : FA S96x10) (b : FA S10) (p : Fin 512) (c : Fin 10) :
    RStages.denseR512x10 X W b (ix2 p c) = (∑ k : Fin 96, X (ix2 p k) * W (ix2 k c)) + b (ix1 c) :=
  dense_at (M := 512) (K := 96) (N := 10) _ _ X W b p c

theorem reluR_at (x : FA S50000x96) (i : S50000x96.Idx) : RStages.reluR x i = relu (x i) :=
  relu_at (S := S50000x96) _ x i

theorem reluR512_at (x : FA S512x96) (i : S512x96.Idx) : RStages.reluR512 x i = relu (x i) :=
  relu_at (S := S512x96) _ x i

theorem sumR_at (h a : FA S50000x96) (i : S50000x96.Idx) : RStages.sumR h a i = h i + a i := rfl

/-! ### The shared stages are the same functions -/

theorem mean128_eq (x : FA S50000x128) : RStages.mean128 x = Stages.mean128 x := rfl
theorem var128_eq (x : FA S50000x128) : RStages.var128 x = Stages.var128 x := rfl
theorem mean96_eq (x : FA S50000x96) : RStages.mean96 x = Stages.mean96 x := rfl
theorem var96_eq (x : FA S50000x96) : RStages.var96 x = Stages.var96 x := rfl
theorem mean512_eq (x : FA S512x96) : RStages.mean512 x = Stages.mean512 x := rfl
theorem var512_eq (x : FA S512x96) : RStages.var512 x = Stages.var512 x := rfl

theorem agg_eq (h : FA S50000x96) (e : IA S2x800000) :
    RStages.aggR h (RStages.row0 e) (RStages.row1 e) = Stages.aggOf h e := rfl

theorem pool_eq (h : FA S50000x96) (batch : IA S50000) : RStages.poolR h batch = Stages.poolOf h batch := rfl

theorem tail_eq (l : FA S512x10) : RStages.tailR l = Stages.tailOf l := rfl

end Cert.RStageAt

end
-- ==== Proof.StageEq.lean ====
/-
  The stage-by-stage equality of the two programs' closed forms.

  The kernel program feeds each dense layer the rows normalised affinely, with scale w·r and shift b − μ·(w·r) computed on
  the host; the reference feeds it the batch normalisation (x − μ)·r·w + b.  Here μ is the column mean and r the reciprocal
  square root of the column variance shifted by ε.  For real operands the two agree entry by entry, and every stage again
  has only real entries (means, nonnegative variances, reciprocal square roots, aggregation, pooling and dense layers of
  reals are reals), so the equality propagates through the six normalised layers; the remaining stages (aggregation,
  pooling, log-softmax) are the same functions in both closed forms.
-/
import proofs.«132872_j8993661518249_1_alg».proof.Proof.KAt
import proofs.«132872_j8993661518249_1_alg».proof.Proof.RStages
import proofs.«132872_j8993661518249_1_alg».proof.Proof.ROut
import proofs.«132872_j8993661518249_1_alg».proof.Proof.RStageAt

noncomputable section

open scoped BigOperators

namespace Cert.StageEq

open Idealize.ShloMosaic Idealize.ShloMosaic.ValueIdx
open Cert.GNN Cert.StageReal Cert.RStageAt Cert.Stages Cert.KAt
open Cert.KernelIdeal

theorem h0_eq (x : FA S50000x128) (w b : FA S128) (W : FA S128x96) (bb : FA S96) (hx : IsReal (S := S50000x128) x)
    (hw : IsReal (S := S128) w) (hb : IsReal (S := S128) b) : h0K x w b W bb = RStages.h0R x w b W bb := by
  refine ext2 (M := 50000) (N := 96) _ _ fun p c => ?_
  unfold RStages.h0R
  rw [h0K_at x w b W bb hx hw hb p c, reluR_at, denseR128_at]
  simp only [bnR128_at]

theorem t1_eq (h : FA S50000x96) (e : IA S2x800000) (W1 : FA S96x96) (b1 : FA S96) :
    t1K h e W1 b1 = RStages.t1R h e W1 b1 := by
  refine ext2 (M := 50000) (N := 96) _ _ fun p c => ?_
  unfold RStages.t1R
  rw [t1K_at, denseR96_at]
  simp only [sumR_at]

theorem t2_eq (t : FA S50000x96) (bw bb : FA S96) (W2 : FA S96x96) (b2 : FA S96) (ht : IsReal (S := S50000x96) t)
    (hbw : IsReal (S := S96) bw) (hbb : IsReal (S := S96) bb) : t2K t bw bb W2 b2 = RStages.t2R t bw bb W2 b2 := by
  refine ext2 (M := 50000) (N := 96) _ _ fun p c => ?_
  unfold RStages.t2R RStages.bnSelf96
  rw [t2K_at t bw bb W2 b2 ht hbw hbb p c, reluR_at, denseR96_at]
  simp only [reluR_at, bnR96_at]

theorem layer_eq (h : FA S50000x96) (e : IA S2x800000) (W1 : FA S96x96) (b1 bw bb : FA S96) (W2 : FA S96x96) (b2 : FA S96)
    (hh : IsReal (S := S50000x96) h) (hW1 : IsReal (S := S96x96) W1) (hb1 : IsReal (S := S96) b1)
    (hbw : IsReal (S := S96) bw) (hbb : IsReal (S := S96) bb) :
    layerK h e W1 b1 bw bb W2 b2 = RStages.layerR h e W1 b1 bw bb W2 b2 := by
  unfold layerK RStages.layerR
  rw [t2_eq _ bw bb W2 b2 (t1K_real h e W1 b1 hh hW1 hb1) hbw hbb, t1_eq]

theorem g2_eq (g : FA S512x96) (w b : FA S96) (W : FA S96x96) (bb : FA S96) (hg : IsReal (S := S512x96) g)
    (hw : IsReal (S := S96) w) (hb : IsReal (S := S96) b) : g2K g w b W bb = RStages.g2R g w b W bb := by
  refine ext2 (M := 512) (N := 96) _ _ fun p c => ?_
  unfold RStages.g2R RStages.bnSelf512
  rw [g2K_at g w b W bb hg hw hb p c, reluR512_at, denseR512_at]
  simp only [bnR512_at]

theorem lg_eq (g : FA S512x96) (w b : FA S96) (W : FA S96x10) (bb : FA S10) (hg : IsReal (S := S512x96) g)
    (hw : IsReal (S := S96) w) (hb : IsReal (S := S96) b) : lgK g w b W bb = RStages.lgR g w b W bb := by
  refine ext2 (M := 512) (N := 10) _ _ fun p c => ?_
  unfold RStages.lgR RStages.bnSelf512
  rw [lgK_at g w b W bb hg hw hb p c, denseR512x10_at]
  simp only [bnR512_at]

theorem h3_eq (a0 : FA S50000x128) (a1 : IA S2x800000) (a3 a4 : FA S128) (a5 : FA S128x96) (a6 : FA S96)
    (a7 : FA S96x96) (a8 a9 a10 : FA S96) (a11 : FA S96x96) (a12 : FA S96)
    (a13 : FA S96x96) (a14 a15 a16 : FA S96) (a17 : FA S96x96) (a18 : FA S96)
    (a19 : FA S96x96) (a20 a21 a22 : FA S96) (a23 : FA S96x96) (a24 : FA S96)
    (h0 : IsReal (S := S50000x128) a0) (h3 : IsReal (S := S128) a3) (h4 : IsReal (S := S128) a4)
    (h5 : IsReal (S := S128x96) a5) (h6 : IsReal (S := S96) a6)
    (h7 : IsReal (S := S96x96) a7) (h8 : IsReal (S := S96) a8) (h9 : IsReal (S := S96) a9) (h10 : IsReal (S := S96) a10)
    (h11 : IsReal (S := S96x96) a11) (h12 : IsReal (S := S96) a12)
    (h13 : IsReal (S := S96x96) a13) (h14 : IsReal (S := S96) a14) (h15 : IsReal (S := S96) a15) (h16 : IsReal (S := S96) a16)
    (h17 : IsReal (S := S96x96) a17) (h18 : IsReal (S := S96) a18)
    (h19 : IsReal (S := S96x96) a19) (h20 : IsReal (S := S96) a20) (h21 : IsReal (S := S96) a21) (h22 : IsReal (S := S96) a22) :
    h3K a0 a1 a3 a4 a5 a6 a7 a8 a9 a10 a11 a12 a13 a14 a15 a16 a17 a18 a19 a20 a21 a22 a23 a24
      = RStages.h3R a0 a1 a3 a4 a5 a6 a7 a8 a9 a10 a11 a12 a13 a14 a15 a16 a17 a18 a19 a20 a21 a22 a23 a24 := by
  unfold h3K RStages.h3R
  have r0 := h0K_real a0 a3 a4 a5 a6 h0 h3 h4 h5 h6
  have r1 := layerK_real _ a1 a7 a8 a9 a10 a11 a12 r0 h7 h8 h9 h10 h11 h12
  have r2 := layerK_real _ a1 a13 a14 a15 a16 a17 a18 r1 h13 h14 h15 h16 h17 h18
  rw [layer_eq _ a1 a19 a20 a21 a22 a23 a24 r2 h19 h20 h21 h22,
    layer_eq _ a1 a13 a14 a15 a16 a17 a18 r1 h13 h14 h15 h16,
    layer_eq _ a1 a7 a8 a9 a10 a11 a12 r0 h7 h8 h9 h10,
    h0_eq a0 a3 a4 a5 a6 h0 h3 h4]

/-- The two programs' closed forms agree on real arguments (the integer arguments a1, a2 arbitrary). -/
theorem out_eq (a0 : FA S50000x128) (a1 : IA S2x800000) (a2 : IA S50000) (a3 a4 : FA S128) (a5 : FA S128x96) (a6 : FA S96)
    (a7 : FA S96x96) (a8 a9 a10 : FA S96) (a11 : FA S96x96) (a12 : FA S96)
    (a13 : FA S96x96) (a14 a15 a16 : FA S96) (a17 : FA S96x96) (a18 : FA S96)
    (a19 : FA S96x96) (a20 a21 a22 : FA S96) (a23 : FA S96x96) (a24 : FA S96)
    (a25 a26 : FA S96) (a27 : FA S96x96) (a28 a29 a30 : FA S96) (a31 : FA S96x10) (a32 : FA S10)
    (h0 : IsReal (S := S50000x128) a0) (h3 : IsReal (S := S128) a3) (h4 : IsReal (S := S128) a4)
    (h5 : IsReal (S := S128x96) a5) (h6 : IsReal (S := S96) a6)
    (h7 : IsReal (S := S96x96) a7) (h8 : IsReal (S := S96) a8) (h9 : IsReal (S := S96) a9) (h10 : IsReal (S := S96) a10)
    (h11 : IsReal (S := S96x96) a11) (h12 : IsReal (S := S96) a12)
    (h13 : IsReal (S := S96x96) a13) (h14 : IsReal (S := S96) a14) (h15 : IsReal (S := S96) a15) (h16 : IsReal (S := S96) a16)
    (h17 : IsReal (S := S96x96) a17) (h18 : IsReal (S := S96) a18)
    (h19 : IsReal (S := S96x96) a19) (h20 : IsReal (S := S96) a20) (h21 : IsReal (S := S96) a21) (h22 : IsReal (S := S96) a22)
    (h23 : IsReal (S := S96x96) a23) (h24 : IsReal (S := S96) a24)
    (h25 : IsReal (S := S96) a25) (h26 : IsReal (S := S96) a26) (h27 : IsReal (S := S96x96) a27) (h28 : IsReal (S := S96) a28)
    (h29 : IsReal (S := S96) a29) (h30 : IsReal (S := S96) a30) :
    Kout a0 a1 a2 a3 a4 a5 a6 a7 a8 a9 a10 a11 a12 a13 a14 a15 a16 a17 a18 a19 a20 a21 a22 a23 a24 a25 a26 a27 a28 a29 a30 a31 a32
      = RStages.Rout a0 a1 a2 a3 a4 a5 a6 a7 a8 a9 a10 a11 a12 a13 a14 a15 a16 a17 a18 a19 a20 a21 a22 a23 a24 a25 a26 a27 a28 a29 a30 a31 a32 := by
  unfold Kout RStages.Rout RStages.headR
  have rh := h3K_real a0 a1 a3 a4 a5 a6 a7 a8 a9 a10 a11 a12 a13 a14 a15 a16 a17 a18 a19 a20 a21 a22 a23 a24
    h0 h3 h4 h5 h6 h7 h8 h9 h10 h11 h12 h13 h14 h15 h16 h17 h18 h19 h20 h21 h22 h23 h24
  have rp := poolOf_real _ a2 rh
  have rg := g2K_real _ a25 a26 a27 a28 rp h25 h26 h27 h28
  rw [lg_eq _ a29 a30 a31 a32 rg h29 h30, g2_eq _ a25 a26 a27 a28 rp h25 h26,
    h3_eq a0 a1 a3 a4 a5 a6 a7 a8 a9 a10 a11 a12 a13 a14 a15 a16 a17 a18 a19 a20 a21 a22 a23 a24
      h0 h3 h4 h5 h6 h7 h8 h9 h10 h11 h12 h13 h14 h15 h16 h17 h18 h19 h20 h21 h22]

end Cert.StageEq

end
-- ==== Proof.LibFiniteAll.lean ====
/-
  A finiteness predicate read back at the ideal instance. A host predicate that tests a float array for finiteness computes
  the conjunction, over all its entries, of |x| < +∞ (an ordered less-than comparison of the absolute value against the
  splat of the +∞ word of f32), as a reduction by `and` from the constant 1 into a result of one index. At the ideal
  instance |x| is max x (-x) over the extended reals and the +∞ word denotes ⊤, so the bit being 1 says that every
  entry is a real number. Generic in the operand shape, the reduced axes, the scalar shape the constant is splat from
  and the initial value.
-/
import Idealize.ShloMosaic.Lib.StableHlo
import Idealize.ShloMosaic.Lib.ReduceAll
import Idealize.ShloMosaic.PureOps
import Idealize.ShloMosaic.PureOps.Ideal
import Idealize.ShloMosaic.PureOps.Ideal.Laws

noncomputable section

namespace Cert.LibFiniteAll

open Idealize.ShloMosaic

/-- The rank-0 shape has one index. -/
instance subsingleton_idx0 : Subsingleton (⟨0, ![]⟩ : Shape).Idx := ⟨fun a b => funext fun d => d.elim0⟩

/-- The conjunction of two `i1` vectors is 1 at an index exactly when both are. -/
theorem andi_apply_eq_one {s : Shape} (x y : IVec s 1) (i : s.Idx) :
    andi x y i = 1#1 ↔ x i = 1#1 ∧ y i = 1#1 := IntOp.andi_eq_one

/-- An extended real whose magnitude max x (-x) compares below the +∞ word of f32 is a real number. -/
theorem real_of_abs_olt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The comparison |a| < splat(+∞) that is 1 at an entry: that entry is a real number. -/
theorem real_of_cmp_entry {s c : Shape} {dims : Fin c.rank → Fin s.rank} (hb : c.BroadcastsInDim s dims)
    (a : FVec Ideal s .f32) (i : s.Idx)
    (e : cmpf .olt (Host.absf a) (broadcastInDim s dims hb (constant (F := Ideal) c .f32 0x7F800000#32)) i = 1#1) :
    ∃ r : ℝ, a i = (r : EReal) :=
  real_of_abs_olt_inf (a i) e

/-- THE PREDICATE READ BACK, the comparison given as a vector `p` known entrywise: if the reduction by `and` of `p` into a
    result of one index is 1 and `p` is the comparison |a| < splat(+∞), every entry of `a` is a real number. -/
theorem real_of_all_of_eq {s t u c : Shape} {axes : List (Fin s.rank)} [Subsingleton t.Idx]
    {dims : Fin c.rank → Fin s.rank} (hb : c.BroadcastsInDim s dims)
    (a : FVec Ideal s .f32) (p : IVec s 1) (init : u.Idx → BitVec 1) (h : s.ReducesTo axes t) (hu : 0 < u.numel) (j : t.Idx)
    (hp : p = cmpf .olt (Host.absf a) (broadcastInDim s dims hb (constant (F := Ideal) c .f32 0x7F800000#32)))
    (e : Host.reduce IntOp.andi p init h hu j = 1#1) :
    ∀ i, ∃ r : ℝ, a i = (r : EReal) := by
  intro i
  have hi := Host.reduce_andi_all p init h hu j e i
  rw [hp] at hi
  exact real_of_cmp_entry hb a i hi

/-- THE PREDICATE READ BACK: if the reduction by `and`, into a result of one index, of |a| < splat(+∞) is 1, every entry
    of `a` is a real number. -/
theorem real_of_all {s t u c : Shape} {axes : List (Fin s.rank)} [Subsingleton t.Idx]
    {dims : Fin c.rank → Fin s.rank} (hb : c.BroadcastsInDim s dims)
    (a : FVec Ideal s .f32) (init : u.Idx → BitVec 1) (h : s.ReducesTo axes t) (hu : 0 < u.numel) (j : t.Idx)
    (e : Host.reduce IntOp.andi
          (cmpf .olt (Host.absf a) (broadcastInDim s dims hb (constant (F := Ideal) c .f32 0x7F800000#32))) init h hu j = 1#1) :
    ∀ i, ∃ r : ℝ, a i = (r : EReal) :=
  real_of_all_of_eq hb a _ init h hu j rfl e

end Cert.LibFiniteAll

end
-- ==== Proof.Finite.lean ====
/-
  The precondition read back: when the conjunction, over all float arguments, of "every entry's magnitude is below +∞"
  evaluates to true, every entry of every float argument is a real number.

  The predicate is a chain of conjunctions x₀ ∧ x₁ ∧ … ∧ x₃₀, one conjunct per float argument, each the reduction by
  `and` of the entrywise comparison |a| < +∞.  A conjunction is true exactly when both sides are, so the chain splits into
  its conjuncts from the right; a reduction by `and` that is true makes every entry's comparison true; and an extended
  real whose magnitude is below +∞ is a real number.
-/
import proofs.«132872_j8993661518249_1_alg».proof.Pre_finite_inputs
import proofs.«132872_j8993661518249_1_alg».proof.Proof.LibFiniteAll
import proofs.«132872_j8993661518249_1_alg».proof.Proof.Spec

noncomputable section

namespace Cert.Finite

open Idealize.ShloMosaic Cert.Pre_finite_inputs Cert.LibFiniteAll Cert.GNN

variable [hP : Cert.Pre_finite_inputs.Facts]

/-- One conjunct read back: a true reduction by `and` of |a| < +∞ makes the array real. -/
theorem real_of_conj {s : Shape} {axes : List (Fin s.rank)} (hb : (⟨0, ![]⟩ : Shape).BroadcastsInDim s (![] : Fin 0 → Fin s.rank))
    (a : FVec Ideal s .f32) (init : (⟨0, ![]⟩ : Shape).Idx → BitVec 1) (h : s.ReducesTo axes ⟨0, ![]⟩)
    (hu : 0 < (⟨0, ![]⟩ : Shape).numel) (j : (⟨0, ![]⟩ : Shape).Idx)
    (e : Host.reduce IntOp.andi
          (cmpf .olt (Host.absf a) (broadcastInDim s ![] hb (constant (F := Ideal) ⟨0, ![]⟩ .f32 0x7F800000#32))) init h hu j = 1#1) :
    IsReal a :=
  real_of_all hb a init h hu j e

/-- Every float argument is real when the predicate is true. -/
theorem args_real (a0 : FVec Ideal S50000x128 .f32) (a1 : IVec S2x800000 32) (a2 : IVec S50000 32) (a3 : FVec Ideal S128 .f32) (a4 : FVec Ideal S128 .f32) (a5 : FVec Ideal S128x96 .f32) (a6 : FVec Ideal S96 .f32) (a7 : FVec Ideal S96x96 .f32) (a8 : FVec Ideal S96 .f32) (a9 : FVec Ideal S96 .f32) (a10 : FVec Ideal S96 .f32) (a11 : FVec Ideal S96x96 .f32) (a12 : FVec Ideal S96 .f32) (a13 : FVec Ideal S96x96 .f32) (a14 : FVec Ideal S96 .f32) (a15 : FVec Ideal S96 .f32) (a16 : FVec Ideal S96 .f32) (a17 : FVec Ideal S96x96 .f32) (a18 : FVec Ideal S96 .f32) (a19 : FVec Ideal S96x96 .f32) (a20 : FVec Ideal S96 .f32) (a21 : FVec Ideal S96 .f32) (a22 : FVec Ideal S96 .f32) (a23 : FVec Ideal S96x96 .f32) (a24 : FVec Ideal S96 .f32) (a25 : FVec Ideal S96 .f32) (a26 : FVec Ideal S96 .f32) (a27 : FVec Ideal S96x96 .f32) (a28 : FVec Ideal S96 .f32) (a29 : FVec Ideal S96 .f32) (a30 : FVec Ideal S96 .f32) (a31 : FVec Ideal S96x10 .f32) (a32 : FVec Ideal S10 .f32)
    (h : Cert.Pre_finite_inputs.fn (F := Ideal) a0 a1 a2 a3 a4 a5 a6 a7 a8 a9 a10 a11 a12 a13 a14 a15 a16 a17 a18 a19 a20 a21 a22 a23 a24 a25 a26 a27 a28 a29 a30 a31 a32 = fun _ => 1#1) :
    IsReal a0 ∧ IsReal a3 ∧ IsReal a4 ∧ IsReal a5 ∧ IsReal a6 ∧ IsReal a7 ∧ IsReal a8 ∧ IsReal a9 ∧ IsReal a10 ∧ IsReal a11 ∧ IsReal a12 ∧ IsReal a13 ∧ IsReal a14 ∧ IsReal a15 ∧ IsReal a16 ∧ IsReal a17 ∧ IsReal a18 ∧ IsReal a19 ∧ IsReal a20 ∧ IsReal a21 ∧ IsReal a22 ∧ IsReal a23 ∧ IsReal a24 ∧ IsReal a25 ∧ IsReal a26 ∧ IsReal a27 ∧ IsReal a28 ∧ IsReal a29 ∧ IsReal a30 ∧ IsReal a31 ∧ IsReal a32 := by
  have e := congrFun h ValueIdx.ix0
  dsimp only [fn, fn_part1, fn_part2, fn_part3, fn_part4, fn_part5, fn_part6, fn_part7, fn_part8] at e
  obtain ⟨e, e32⟩ := (andi_apply_eq_one _ _ _).1 e
  obtain ⟨e, e31⟩ := (andi_apply_eq_one _ _ _).1 e
  obtain ⟨e, e30⟩ := (andi_apply_eq_one _ _ _).1 e
  obtain ⟨e, e29⟩ := (andi_apply_eq_one _ _ _).1 e
  obtain ⟨e, e28⟩ := (andi_apply_eq_one _ _ _).1 e
  obtain ⟨e, e27⟩ := (andi_apply_eq_one _ _ _).1 e
  obtain ⟨e, e26⟩ := (andi_apply_eq_one _ _ _).1 e
  obtain ⟨e, e25⟩ := (andi_apply_eq_one _ _ _).1 e
  obtain ⟨e, e24⟩ := (andi_apply_eq_one _ _ _).1 e
  obtain ⟨e, e23⟩ := (andi_apply_eq_one _ _ _).1 e
  obtain ⟨e, e22⟩ := (andi_apply_eq_one _ _ _).1 e
  obtain ⟨e, e21⟩ := (andi_apply_eq_one _ _ _).1 e
  obtain ⟨e, e20⟩ := (andi_apply_eq_one _ _ _).1 e
  obtain ⟨e, e19⟩ := (andi_apply_eq_one _ _ _).1 e
  obtain ⟨e, e18⟩ := (andi_apply_eq_one _ _ _).1 e
  obtain ⟨e, e17⟩ := (andi_apply_eq_one _ _ _).1 e
  obtain ⟨e, e16⟩ := (andi_apply_eq_one _ _ _).1 e
  obtain ⟨e, e15⟩ := (andi_apply_eq_one _ _ _).1 e
  obtain ⟨e, e14⟩ := (andi_apply_eq_one _ _ _).1 e
  obtain ⟨e, e13⟩ := (andi_apply_eq_one _ _ _).1 e
  obtain ⟨e, e12⟩ := (andi_apply_eq_one _ _ _).1 e
  obtain ⟨e, e11⟩ := (andi_apply_eq_one _ _ _).1 e
  obtain ⟨e, e10⟩ := (andi_apply_eq_one _ _ _).1 e
  obtain ⟨e, e9⟩ := (andi_apply_eq_one _ _ _).1 e
  obtain ⟨e, e8⟩ := (andi_apply_eq_one _ _ _).1 e
  obtain ⟨e, e7⟩ := (andi_apply_eq_one _ _ _).1 e
  obtain ⟨e, e6⟩ := (andi_apply_eq_one _ _ _).1 e
  obtain ⟨e, e5⟩ := (andi_apply_eq_one _ _ _).1 e
  obtain ⟨e, e4⟩ := (andi_apply_eq_one _ _ _).1 e
  obtain ⟨e, e3⟩ := (andi_apply_eq_one _ _ _).1 e
  exact ⟨real_of_conj _ a0 _ _ _ _ e, real_of_conj _ a3 _ _ _ _ e3, real_of_conj _ a4 _ _ _ _ e4, real_of_conj _ a5 _ _ _ _ e5, real_of_conj _ a6 _ _ _ _ e6, real_of_conj _ a7 _ _ _ _ e7, real_of_conj _ a8 _ _ _ _ e8, real_of_conj _ a9 _ _ _ _ e9, real_of_conj _ a10 _ _ _ _ e10, real_of_conj _ a11 _ _ _ _ e11, real_of_conj _ a12 _ _ _ _ e12, real_of_conj _ a13 _ _ _ _ e13, real_of_conj _ a14 _ _ _ _ e14, real_of_conj _ a15 _ _ _ _ e15, real_of_conj _ a16 _ _ _ _ e16, real_of_conj _ a17 _ _ _ _ e17, real_of_conj _ a18 _ _ _ _ e18, real_of_conj _ a19 _ _ _ _ e19, real_of_conj _ a20 _ _ _ _ e20, real_of_conj _ a21 _ _ _ _ e21, real_of_conj _ a22 _ _ _ _ e22, real_of_conj _ a23 _ _ _ _ e23, real_of_conj _ a24 _ _ _ _ e24, real_of_conj _ a25 _ _ _ _ e25, real_of_conj _ a26 _ _ _ _ e26, real_of_conj _ a27 _ _ _ _ e27, real_of_conj _ a28 _ _ _ _ e28, real_of_conj _ a29 _ _ _ _ e29, real_of_conj _ a30 _ _ _ _ e30, real_of_conj _ a31 _ _ _ _ e31, real_of_conj _ a32 _ _ _ _ e32⟩

end Cert.Finite

end
-- ==== Proof.lean ====
/-
  The certificate of the graph network: the Pallas program (nine dense kernels among host gathers, scatter-adds and
  batch statistics) against the plain reference, at the ideal instance where a float is an extended real.

  The three frames: the kernel program's two are the generated frame certificates; the reference's is its
  run, read operation by operation, with the result dropped.  The idealisation ledger is empty.  The value claim: the kernel program's result array is
  one closed function `Kout` of the 33 argument arrays (its run through nine kernel regions, each region's output array
  a whole-array function of its input arrays, the host stretches between them read operation by operation); the
  reference's is `Rout`; and `Kout = Rout` on arguments whose float entries are all real, which the precondition gives:
  the two differ only in how each batch normalisation is arranged — (x − μ)·r·w + b against x·(w·r) + (b − μ·(w·r)) —
  and these agree on real numbers.
-/
import proofs.«132872_j8993661518249_1_alg».proof.Defs
import proofs.«132872_j8993661518249_1_alg».proof.Proof.Gen.Kernel
import proofs.«132872_j8993661518249_1_alg».proof.Proof.Gen.Kernel.Frame
import proofs.«132872_j8993661518249_1_alg».proof.Proof.Gen.KernelIdeal
import proofs.«132872_j8993661518249_1_alg».proof.Proof.Gen.KernelIdeal.Frame
import proofs.«132872_j8993661518249_1_alg».proof.Proof.Gen.ReferenceIdeal
import proofs.«132872_j8993661518249_1_alg».proof.Proof.Gen.Pre_finite_inputs
import proofs.«132872_j8993661518249_1_alg».proof.Proof.Reg0
import proofs.«132872_j8993661518249_1_alg».proof.Proof.Reg1
import proofs.«132872_j8993661518249_1_alg».proof.Proof.Reg2
import proofs.«132872_j8993661518249_1_alg».proof.Proof.Reg3
import proofs.«132872_j8993661518249_1_alg».proof.Proof.Reg4
import proofs.«132872_j8993661518249_1_alg».proof.Proof.Reg5
import proofs.«132872_j8993661518249_1_alg».proof.Proof.Reg6
import proofs.«132872_j8993661518249_1_alg».proof.Proof.Reg7
import proofs.«132872_j8993661518249_1_alg».proof.Proof.Reg8
import proofs.«132872_j8993661518249_1_alg».proof.Proof.KRunNamed
import proofs.«132872_j8993661518249_1_alg».proof.Proof.KValue
import proofs.«132872_j8993661518249_1_alg».proof.Proof.KOut
import proofs.«132872_j8993661518249_1_alg».proof.Proof.ROut
import proofs.«132872_j8993661518249_1_alg».proof.Proof.RValue
import proofs.«132872_j8993661518249_1_alg».proof.Proof.StageEq
import proofs.«132872_j8993661518249_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RValue.run m ρ)

theorem preserves : Cert.preserves_Kernel_KernelIdeal := trivial

/-- A function of 33 arguments takes equal values at arguments that are pairwise equal. -/
theorem congr33 {α0 : Type} {α1 : Type} {α2 : Type} {α3 : Type} {α4 : Type} {α5 : Type} {α6 : Type} {α7 : Type} {α8 : Type} {α9 : Type} {α10 : Type} {α11 : Type} {α12 : Type} {α13 : Type} {α14 : Type} {α15 : Type} {α16 : Type} {α17 : Type} {α18 : Type} {α19 : Type} {α20 : Type} {α21 : Type} {α22 : Type} {α23 : Type} {α24 : Type} {α25 : Type} {α26 : Type} {α27 : Type} {α28 : Type} {α29 : Type} {α30 : Type} {α31 : Type} {α32 : Type} {β : Type}
    (f : α0 → α1 → α2 → α3 → α4 → α5 → α6 → α7 → α8 → α9 → α10 → α11 → α12 → α13 → α14 → α15 → α16 → α17 → α18 → α19 → α20 → α21 → α22 → α23 → α24 → α25 → α26 → α27 → α28 → α29 → α30 → α31 → α32 → β)
    {x0 y0 : α0} {x1 y1 : α1} {x2 y2 : α2} {x3 y3 : α3} {x4 y4 : α4} {x5 y5 : α5} {x6 y6 : α6} {x7 y7 : α7} {x8 y8 : α8} {x9 y9 : α9} {x10 y10 : α10} {x11 y11 : α11} {x12 y12 : α12} {x13 y13 : α13} {x14 y14 : α14} {x15 y15 : α15} {x16 y16 : α16} {x17 y17 : α17} {x18 y18 : α18} {x19 y19 : α19} {x20 y20 : α20} {x21 y21 : α21} {x22 y22 : α22} {x23 y23 : α23} {x24 y24 : α24} {x25 y25 : α25} {x26 y26 : α26} {x27 y27 : α27} {x28 y28 : α28} {x29 y29 : α29} {x30 y30 : α30} {x31 y31 : α31} {x32 y32 : α32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21) (h22 : x22 = y22) (h23 : x23 = y23) (h24 : x24 = y24) (h25 : x25 = y25) (h26 : x26 = y26) (h27 : x27 = y27) (h28 : x28 = y28) (h29 : x29 = y29) (h30 : x30 = y30) (h31 : x31 = y31) (h32 : x32 = y32) :
    f x0 x1 x2 x3 x4 x5 x6 x7 x8 x9 x10 x11 x12 x13 x14 x15 x16 x17 x18 x19 x20 x21 x22 x23 x24 x25 x26 x27 x28 x29 x30 x31 x32 = f y0 y1 y2 y3 y4 y5 y6 y7 y8 y9 y10 y11 y12 y13 y14 y15 y16 y17 y18 y19 y20 y21 y22 y23 y24 y25 y26 y27 y28 y29 y30 y31 y32 := by
  subst h0 h1 h2 h3 h4 h5 h6 h7 h8 h9 h10 h11 h12 h13 h14 h15 h16 h17 h18 h19 h20 h21 h22 h23 h24 h25 h26 h27 h28 h29 h30 h31 h32
  rfl

set_option maxHeartbeats 2000000 in
/-- Both programs end at one function of arguments that agree: the kernel program's closed term is the reference's
    on real entries. -/
theorem algebraic : Cert.algebraic_KernelIdeal_ReferenceIdeal := by
  intro m ρ m' ρ' hpre hagree
  refine ⟨fun c => Cert.Stages.Kout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)), ?_, ?_⟩
  · exact (θ_run Cert.KernelIdeal.defs _ _).mono
      (fun r h c => ⟨(h c).1.trans (Cert.KernelIdeal.KValue.result Cert.KernelIdeal.RegVal.final0 Cert.KernelIdeal.RegVal.final1
          Cert.KernelIdeal.RegVal.final2 Cert.KernelIdeal.RegVal.final3 Cert.KernelIdeal.RegVal.final4 Cert.KernelIdeal.RegVal.final5
          Cert.KernelIdeal.RegVal.final6 Cert.KernelIdeal.RegVal.final7 Cert.KernelIdeal.RegVal.final8 m ρ c), (h c).2⟩)
      (Cert.KernelIdeal.KRun.run_named m ρ)
  · refine (θ_run Cert.ReferenceIdeal.defs _ _).mono (fun r h c => ⟨(h c).1.trans ?_, (h c).2⟩)
      (Cert.ReferenceIdeal.RValue.run m' ρ')
    have hc := hagree c
    obtain ⟨r0, r3, r4, r5, r6, r7, r8, r9, r10, r11, r12, r13, r14, r15, r16, r17, r18, r19, r20, r21, r22, r23, r24, r25, r26, r27, r28, r29, r30, r31, r32⟩ := Cert.Finite.args_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (hpre c)
    refine (congr33 Cert.RStages.Rout hc.1 hc.2.1 hc.2.2.1 hc.2.2.2.1 hc.2.2.2.2.1 hc.2.2.2.2.2.1 hc.2.2.2.2.2.2.1 hc.2.2.2.2.2.2.2.1 hc.2.2.2.2.2.2.2.2.1 hc.2.2.2.2.2.2.2.2.2.1 hc.2.2.2.2.2.2.2.2.2.2.1 hc.2.2.2.2.2.2.2.2.2.2.2.1 hc.2.2.2.2.2.2.2.2.2.2.2.2.1 hc.2.2.2.2.2.2.2.2.2.2.2.2.2.1 hc.2.2.2.2.2.2.2.2.2.2.2.2.2.2.1 hc.2.2.2.2.2.2.2.2.2.2.2.2.2.2.2.1 hc.2.2.2.2.2.2.2.2.2.2.2.2.2.2.2.2.1 hc.2.2.2.2.2.2.2.2.2.2.2.2.2.2.2.2.2.1 hc.2.2.2.2.2.2.2.2.2.2.2.2.2.2.2.2.2.2.1 hc.2.2.2.2.2.2.2.2.2.2.2.2.2.2.2.2.2.2.2.1 hc.2.2.2.2.2.2.2.2.2.2.2.2.2.2.2.2.2.2.2.2.1 hc.2.2.2.2.2.2.2.2.2.2.2.2.2.2.2.2.2.2.2.2.2.1 hc.2.2.2.2.2.2.2.2.2.2.2.2.2.2.2.2.2.2.2.2.2.2.1 hc.2.2.2.2.2.2.2.2.2.2.2.2.2.2.2.2.2.2.2.2.2.2.2.1 hc.2.2.2.2.2.2.2.2.2.2.2.2.2.2.2.2.2.2.2.2.2.2.2.2.1 hc.2.2.2.2.2.2.2.2.2.2.2.2.2.2.2.2.2.2.2.2.2.2.2.2.2.1 hc.2.2.2.2.2.2.2.2.2.2.2.2.2.2.2.2.2.2.2.2.2.2.2.2.2.2.1 hc.2.2.2.2.2.2.2.2.2.2.2.2.2.2.2.2.2.2.2.2.2.2.2.2.2.2.2.1 hc.2.2.2.2.2.2.2.2.2.2.2.2.2.2.2.2.2.2.2.2.2.2.2.2.2.2.2.2.1 hc.2.2.2.2.2.2.2.2.2.2.2.2.2.2.2.2.2.2.2.2.2.2.2.2.2.2.2.2.2.1 hc.2.2.2.2.2.2.2.2.2.2.2.2.2.2.2.2.2.2.2.2.2.2.2.2.2.2.2.2.2.2.1 hc.2.2.2.2.2.2.2.2.2.2.2.2.2.2.2.2.2.2.2.2.2.2.2.2.2.2.2.2.2.2.2.1 hc.2.2.2.2.2.2.2.2.2.2.2.2.2.2.2.2.2.2.2.2.2.2.2.2.2.2.2.2.2.2.2.2).trans ?_
    exact (Cert.StageEq.out_eq _ _ _ _ _ _ _ _ _ _ _ _ _ _ _ _ _ _ _ _ _ _ _ _ _ _ _ _ _ _ _ _ _ r0 r3 r4 r5 r6 r7 r8 r9 r10 r11 r12 r13 r14 r15 r16 r17 r18 r19 r20 r21 r22 r23 r24 r25 r26 r27 r28 r29 r30).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
